-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S20000x64 : Shape := ⟨2, ![20000, 64]⟩
abbrev S1000000 : Shape := ⟨1, ![1000000]⟩
abbrev S500000 : Shape := ⟨1, ![500000]⟩
abbrev S100000x64 : Shape := ⟨2, ![100000, 64]⟩
abbrev S3x64x64 : Shape := ⟨3, ![3, 64, 64]⟩
abbrev S3x64 : Shape := ⟨2, ![3, 64]⟩
abbrev S192x64 : Shape := ⟨2, ![192, 64]⟩
abbrev S64 : Shape := ⟨1, ![64]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg26 : FVec F S1 .f32) (main_v98 : IVec S_ 1) (main_v101 : IVec S32x1 1) (main_c_39 : IVec S_ 1) : IVec S_ 1 :=
  let main_v102 : IVec S_ 1 := (fun x v => Host.reduce IntOp.andi x v reducesTo_S32x1_S_d0_1 h_S_) main_v101 main_c_39
  let main_v103 : IVec S_ 1 := andi main_v98 main_v102
  let main_v104 : FVec F S1 .f32 := Host.absf main_arg26
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg23 : FVec F S32 .f32) (main_arg24 : FVec F S32 .f32) (main_arg25 : FVec F S32x1 .f32) (main_arg26 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg23
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg24
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x1 .f32 := Host.absf main_arg25
  let main_cst_38 : FVec F S_ .f32 := constant S_ .f32 0x7F800000#32
  let main_v100 : FVec F S32x1 .f32 := broadcastInDim S32x1 ![] bcast_S_S32x1 main_cst_38
  let main_v101 : IVec S32x1 1 := cmpf .olt main_v99 main_v100
  let main_c_39 : IVec S_ 1 := constantI S_ 1 1#1
  fn_part6 (F := F) main_arg26 main_v98 main_v101 main_c_39

def fn_part4 {F : FTy → Type} [FloatOps F] (main_arg19 : FVec F S64 .f32) (main_arg20 : FVec F S64 .f32) (main_arg21 : FVec F S64x32 .f32) (main_arg22 : FVec F S32 .f32) (main_arg23 : FVec F S32 .f32) (main_arg24 : FVec F S32 .f32) (main_arg25 : FVec F S32x1 .f32) (main_arg26 : FVec F S1 .f32) (main_v63 : IVec S_ 1) (main_v67 : IVec S_ 1) : IVec S_ 1 :=
  let main_v68 : IVec S_ 1 := andi main_v63 main_v67
  let main_v69 : FVec F S64 .f32 := Host.absf main_arg19
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg20
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x32 .f32 := Host.absf main_arg21
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg22
  let main_cst_32 : FVec F S_ .f32 := constant S_ .f32 0x7F800000#32
  fn_part5 (F := F) main_arg23 main_arg24 main_arg25 main_arg26 main_v83 main_v84 main_cst_32

def fn_part3 {F : FTy → Type} [FloatOps F] (main_arg16 : FVec F S64 .f32) (main_arg17 : FVec F S128x64 .f32) (main_arg18 : FVec F S64 .f32) (main_arg19 : FVec F S64 .f32) (main_arg20 : FVec F S64 .f32) (main_arg21 : FVec F S64x32 .f32) (main_arg22 : FVec F S32 .f32) (main_arg23 : FVec F S32 .f32) (main_arg24 : FVec F S32 .f32) (main_arg25 : FVec F S32x1 .f32) (main_arg26 : FVec F S1 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S64 .f32 := Host.absf main_arg16
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg17
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg18
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg19 main_arg20 main_arg21 main_arg22 main_arg23 main_arg24 main_arg25 main_arg26 main_v63 main_v67

def fn_part2 {F : FTy → Type} [FloatOps F] (main_arg12 : FVec F S3x64x64 .f32) (main_arg13 : FVec F S192x64 .f32) (main_arg14 : FVec F S64 .f32) (main_arg15 : FVec F S192x64 .f32) (main_arg16 : FVec F S64 .f32) (main_arg17 : FVec F S128x64 .f32) (main_arg18 : FVec F S64 .f32) (main_arg19 : FVec F S64 .f32) (main_arg20 : FVec F S64 .f32) (main_arg21 : FVec F S64x32 .f32) (main_arg22 : FVec F S32 .f32) (main_arg23 : FVec F S32 .f32) (main_arg24 : FVec F S32 .f32) (main_arg25 : FVec F S32x1 .f32) (main_arg26 : FVec F S1 .f32) (main_v33 : IVec S_ 1) : IVec S_ 1 :=
  let main_v34 : FVec F S3x64x64 .f32 := Host.absf main_arg12
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S192x64 .f32 := Host.absf main_arg13
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg14
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S192x64 .f32 := Host.absf main_arg15
  let main_cst_18 : FVec F S_ .f32 := constant S_ .f32 0x7F800000#32
  let main_v50 : FVec F S192x64 .f32 := broadcastInDim S192x64 ![] bcast_S_S192x64 main_cst_18
  fn_part3 (F := F) main_arg16 main_arg17 main_arg18 main_arg19 main_arg20 main_arg21 main_arg22 main_arg23 main_arg24 main_arg25 main_arg26 main_v48 main_v49 main_v50

def fn_part1 {F : FTy → Type} [FloatOps F] (main_arg9 : FVec F S3x64x64 .f32) (main_arg10 : FVec F S3x64x64 .f32) (main_arg11 : FVec F S3x64 .f32) (main_arg12 : FVec F S3x64x64 .f32) (main_arg13 : FVec F S192x64 .f32) (main_arg14 : FVec F S64 .f32) (main_arg15 : FVec F S192x64 .f32) (main_arg16 : FVec F S64 .f32) (main_arg17 : FVec F S128x64 .f32) (main_arg18 : FVec F S64 .f32) (main_arg19 : FVec F S64 .f32) (main_arg20 : FVec F S64 .f32) (main_arg21 : FVec F S64x32 .f32) (main_arg22 : FVec F S32 .f32) (main_arg23 : FVec F S32 .f32) (main_arg24 : FVec F S32 .f32) (main_arg25 : FVec F S32x1 .f32) (main_arg26 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg9
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64x64 .f32 := Host.absf main_arg10
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg11
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S100000 32) (main_arg1 : FVec F S20000x64 .f32) (main_arg2 : IVec S1000000 32) (main_arg3 : IVec S1000000 32) (main_arg4 : IVec S500000 32) (main_arg5 : IVec S500000 32) (main_arg6 : FVec F S100000x64 .f32) (main_arg7 : FVec F S3x64x64 .f32) (main_arg8 : FVec F S3x64 .f32) (main_arg9 : FVec F S3x64x64 .f32) (main_arg10 : FVec F S3x64x64 .f32) (main_arg11 : FVec F S3x64 .f32) (main_arg12 : FVec F S3x64x64 .f32) (main_arg13 : FVec F S192x64 .f32) (main_arg14 : FVec F S64 .f32) (main_arg15 : FVec F S192x64 .f32) (main_arg16 : FVec F S64 .f32) (main_arg17 : FVec F S128x64 .f32) (main_arg18 : FVec F S64 .f32) (main_arg19 : FVec F S64 .f32) (main_arg20 : FVec F S64 .f32) (main_arg21 : FVec F S64x32 .f32) (main_arg22 : FVec F S32 .f32) (main_arg23 : FVec F S32 .f32) (main_arg24 : FVec F S32 .f32) (main_arg25 : FVec F S32x1 .f32) (main_arg26 : FVec F S1 .f32) : IVec S_ 1 :=
  let main_v0 : FVec F S20000x64 .f32 := Host.absf main_arg1
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S100000x64 .f32 := Host.absf main_arg6
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S3x64x64 .f32 := Host.absf main_arg7
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg8
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000 : Shape := ⟨1, ![100000]⟩
abbrev S20000x64 : Shape := ⟨2, ![20000, 64]⟩
abbrev S1000000 : Shape := ⟨1, ![1000000]⟩
abbrev S500000 : Shape := ⟨1, ![500000]⟩
abbrev S100000x64 : Shape := ⟨2, ![100000, 64]⟩
abbrev S3x64x64 : Shape := ⟨3, ![3, 64, 64]⟩
abbrev S3x64 : Shape := ⟨2, ![3, 64]⟩
abbrev S192x64 : Shape := ⟨2, ![192, 64]⟩
abbrev S64 : Shape := ⟨1, ![64]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S20000 : Shape := ⟨1, ![20000]⟩
abbrev S1000000x1 : Shape := ⟨2, ![1000000, 1]⟩
abbrev S100000x1 : Shape := ⟨2, ![100000, 1]⟩
abbrev S1000000x64 : Shape := ⟨2, ![1000000, 64]⟩
abbrev S20000x1 : Shape := ⟨2, ![20000, 1]⟩
abbrev S1x64x64 : Shape := ⟨3, ![1, 64, 64]⟩
abbrev S64x64 : Shape := ⟨2, ![64, 64]⟩
abbrev S1x64 : Shape := ⟨2, ![1, 64]⟩
abbrev S5000x64 : Shape := ⟨2, ![5000, 64]⟩
abbrev S500000x1 : Shape := ⟨2, ![500000, 1]⟩
abbrev S500000x64 : Shape := ⟨2, ![500000, 64]⟩
abbrev S1x32 : Shape := ⟨2, ![1, 32]⟩
abbrev S500000x32 : Shape := ⟨2, ![500000, 32]⟩
abbrev S5000x32 : Shape := ⟨2, ![5000, 32]⟩
abbrev S1x1 : Shape := ⟨2, ![1, 1]⟩
abbrev S5000x1 : Shape := ⟨2, ![5000, 1]⟩

abbrev nBuf : Space → Nat
  | .hbm => 279
  | .vmem => 115
  | .smem => 0
  | _ => 0

abbrev hbmTy0_0 (i : Nat) : BufTy := match i % 128 with
  | 0 => ⟨S100000, .i32⟩
  | 1 => ⟨S20000x64, .f32⟩
  | 2 => ⟨S1000000, .i32⟩
  | 3 => ⟨S1000000, .i32⟩
  | 4 => ⟨S500000, .i32⟩
  | 5 => ⟨S500000, .i32⟩
  | 6 => ⟨S100000x64, .f32⟩
  | 7 => ⟨S3x64x64, .f32⟩
  | 8 => ⟨S3x64, .f32⟩
  | 9 => ⟨S3x64x64, .f32⟩
  | 10 => ⟨S3x64x64, .f32⟩
  | 11 => ⟨S3x64, .f32⟩
  | 12 => ⟨S3x64x64, .f32⟩
  | 13 => ⟨S192x64, .f32⟩
  | 14 => ⟨S64, .f32⟩
  | 15 => ⟨S192x64, .f32⟩
  | 16 => ⟨S64, .f32⟩
  | 17 => ⟨S128x64, .f32⟩
  | 18 => ⟨S64, .f32⟩
  | 19 => ⟨S64, .f32⟩
  | 20 => ⟨S64, .f32⟩
  | 21 => ⟨S64x32, .f32⟩
  | 22 => ⟨S32, .f32⟩
  | 23 => ⟨S32, .f32⟩
  | 24 => ⟨S32, .f32⟩
  | 25 => ⟨S32x1, .f32⟩
  | 26 => ⟨S1, .f32⟩
  | 27 => ⟨S_, .f32⟩
  | 28 => ⟨S1000000, .f32⟩
  | 29 => ⟨S_, .f32⟩
  | 30 => ⟨S20000, .f32⟩
  | 31 => ⟨S1000000x1, .i32⟩
  | 32 => ⟨S20000, .f32⟩
  | 33 => ⟨S_, .f32⟩
  | 34 => ⟨S20000, .f32⟩
  | 35 => ⟨S20000, .f32⟩
  | 36 => ⟨S_, .f32⟩
  | 37 => ⟨S20000, .f32⟩
  | 38 => ⟨S20000, .f32⟩
  | 39 => ⟨S_, .f32⟩
  | 40 => ⟨S100000, .f32⟩
  | 41 => ⟨S1000000x1, .i32⟩
  | 42 => ⟨S100000, .f32⟩
  | 43 => ⟨S_, .f32⟩
  | 44 => ⟨S100000, .f32⟩
  | 45 => ⟨S100000, .f32⟩
  | 46 => ⟨S_, .f32⟩
  | 47 => ⟨S100000, .f32⟩
  | 48 => ⟨S100000, .f32⟩
  | 49 => ⟨S100000x64, .bf16⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x64, .bf16⟩
  | 59 => ⟨S20000x64, .bf16⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .bf16⟩
  | 69 => ⟨S1000000x64, .f32⟩
  | 70 => ⟨S_, .f32⟩
  | 71 => ⟨S20000x64, .f32⟩
  | 72 => ⟨S1000000x1, .i32⟩
  | 73 => ⟨S20000x64, .f32⟩
  | 74 => ⟨S20000x1, .f32⟩
  | 75 => ⟨S20000x64, .f32⟩
  | 76 => ⟨S20000x64, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .bf16⟩
  | 86 => ⟨S1000000x64, .f32⟩
  | 87 => ⟨S_, .f32⟩
  | 88 => ⟨S100000x64, .f32⟩
  | 89 => ⟨S1000000x1, .i32⟩
  | 90 => ⟨S100000x64, .f32⟩
  | 91 => ⟨S100000x1, .f32⟩
  | 92 => ⟨S100000x64, .f32⟩
  | 93 => ⟨S100000x64, .f32⟩
  | 94 => ⟨S1x64x64, .f32⟩
  | 95 => ⟨S64x64, .f32⟩
  | 96 => ⟨S1x64, .f32⟩
  | 97 => ⟨S64, .f32⟩
  | 98 => ⟨S1x64x64, .f32⟩
  | 99 => ⟨S64x64, .f32⟩
  | 100 => ⟨S1x64, .f32⟩
  | 101 => ⟨S20000x64, .bf16⟩
  | 102 => ⟨S1x64x64, .f32⟩
  | 103 => ⟨S64x64, .f32⟩
  | 104 => ⟨S1x64, .f32⟩
  | 105 => ⟨S64, .f32⟩
  | 106 => ⟨S1x64x64, .f32⟩
  | 107 => ⟨S64x64, .f32⟩
  | 108 => ⟨S1x64, .f32⟩
  | 109 => ⟨S100000x64, .bf16⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x64, .bf16⟩
  | 119 => ⟨S1000000x64, .f32⟩
  | 120 => ⟨S_, .f32⟩
  | 121 => ⟨S20000x64, .f32⟩
  | 122 => ⟨S1000000x1, .i32⟩
  | 123 => ⟨S20000x64, .f32⟩
  | 124 => ⟨S20000x1, .f32⟩
  | 125 => ⟨S20000x64, .f32⟩
  | 126 => ⟨S20000x64, .f32⟩
  | 127 => ⟨S_, .i32⟩
  | _ => ⟨S100000, .i32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S1000000x64, .bf16⟩
  | 8 => ⟨S1000000x64, .f32⟩
  | 9 => ⟨S_, .f32⟩
  | 10 => ⟨S100000x64, .f32⟩
  | 11 => ⟨S1000000x1, .i32⟩
  | 12 => ⟨S100000x64, .f32⟩
  | 13 => ⟨S100000x1, .f32⟩
  | 14 => ⟨S100000x64, .f32⟩
  | 15 => ⟨S100000x64, .f32⟩
  | 16 => ⟨S1x64x64, .f32⟩
  | 17 => ⟨S64x64, .f32⟩
  | 18 => ⟨S1x64, .f32⟩
  | 19 => ⟨S64, .f32⟩
  | 20 => ⟨S1x64x64, .f32⟩
  | 21 => ⟨S64x64, .f32⟩
  | 22 => ⟨S1x64, .f32⟩
  | 23 => ⟨S20000x64, .bf16⟩
  | 24 => ⟨S1x64x64, .f32⟩
  | 25 => ⟨S64x64, .f32⟩
  | 26 => ⟨S1x64, .f32⟩
  | 27 => ⟨S64, .f32⟩
  | 28 => ⟨S1x64x64, .f32⟩
  | 29 => ⟨S64x64, .f32⟩
  | 30 => ⟨S1x64, .f32⟩
  | 31 => ⟨S100000x64, .bf16⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .bf16⟩
  | 41 => ⟨S1000000x64, .f32⟩
  | 42 => ⟨S_, .f32⟩
  | 43 => ⟨S20000x64, .f32⟩
  | 44 => ⟨S1000000x1, .i32⟩
  | 45 => ⟨S20000x64, .f32⟩
  | 46 => ⟨S20000x1, .f32⟩
  | 47 => ⟨S20000x64, .f32⟩
  | 48 => ⟨S20000x64, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x64, .bf16⟩
  | 58 => ⟨S1000000x64, .f32⟩
  | 59 => ⟨S_, .f32⟩
  | 60 => ⟨S100000x64, .f32⟩
  | 61 => ⟨S1000000x1, .i32⟩
  | 62 => ⟨S100000x64, .f32⟩
  | 63 => ⟨S100000x1, .f32⟩
  | 64 => ⟨S100000x64, .f32⟩
  | 65 => ⟨S100000x64, .f32⟩
  | 66 => ⟨S1x64x64, .f32⟩
  | 67 => ⟨S64x64, .f32⟩
  | 68 => ⟨S1x64, .f32⟩
  | 69 => ⟨S64, .f32⟩
  | 70 => ⟨S1x64x64, .f32⟩
  | 71 => ⟨S64x64, .f32⟩
  | 72 => ⟨S1x64, .f32⟩
  | 73 => ⟨S20000x64, .bf16⟩
  | 74 => ⟨S1x64x64, .f32⟩
  | 75 => ⟨S64x64, .f32⟩
  | 76 => ⟨S1x64, .f32⟩
  | 77 => ⟨S64, .f32⟩
  | 78 => ⟨S1x64x64, .f32⟩
  | 79 => ⟨S64x64, .f32⟩
  | 80 => ⟨S1x64, .f32⟩
  | 81 => ⟨S100000x64, .bf16⟩
  | 82 => ⟨S64x64, .f32⟩
  | 83 => ⟨S64x64, .f32⟩
  | 84 => ⟨S64x64, .f32⟩
  | 85 => ⟨S1x64, .f32⟩
  | 86 => ⟨S100000x64, .bf16⟩
  | 87 => ⟨S64x64, .f32⟩
  | 88 => ⟨S64x64, .f32⟩
  | 89 => ⟨S64x64, .f32⟩
  | 90 => ⟨S1x64, .f32⟩
  | 91 => ⟨S20000x64, .bf16⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x64, .bf16⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x64, .bf16⟩
  | 110 => ⟨S64x64, .f32⟩
  | 111 => ⟨S64x64, .f32⟩
  | 112 => ⟨S1x64, .f32⟩
  | 113 => ⟨S500000x64, .f32⟩
  | 114 => ⟨S1x64, .f32⟩
  | 115 => ⟨S1x64, .f32⟩
  | 116 => ⟨S64, .f32⟩
  | 117 => ⟨S_, .f32⟩
  | 118 => ⟨S64, .f32⟩
  | 119 => ⟨S64, .f32⟩
  | 120 => ⟨S64, .f32⟩
  | 121 => ⟨S_, .f32⟩
  | 122 => ⟨S64, .f32⟩
  | 123 => ⟨S64, .f32⟩
  | 124 => ⟨S64, .f32⟩
  | 125 => ⟨S64, .f32⟩
  | 126 => ⟨S1x64, .f32⟩
  | 127 => ⟨S1x64, .f32⟩
  | _ => ⟨S100000, .i32⟩

abbrev hbmTy0_2 (i : Nat) : BufTy := match i % 128 with
  | 0 => ⟨S1x64, .f32⟩
  | 1 => ⟨S1x64, .f32⟩
  | 2 => ⟨S1x32, .f32⟩
  | 3 => ⟨S500000x32, .f32⟩
  | 4 => ⟨S1x32, .f32⟩
  | 5 => ⟨S1x32, .f32⟩
  | 6 => ⟨S32, .f32⟩
  | 7 => ⟨S_, .f32⟩
  | 8 => ⟨S32, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S32, .f32⟩
  | 16 => ⟨S1x32, .f32⟩
  | 17 => ⟨S1x32, .f32⟩
  | 18 => ⟨S1x32, .f32⟩
  | 19 => ⟨S1x32, .f32⟩
  | 20 => ⟨S1x1, .f32⟩
  | 21 => ⟨S500000x1, .f32⟩
  | 22 => ⟨S500000, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .bf16⟩
  | .local _ .vmem, ⟨3, _⟩ => ⟨S5000x64, .bf16⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .bf16⟩
  | .local _ .vmem, ⟨8, _⟩ => ⟨S5000x64, .bf16⟩
  | .local _ .vmem, ⟨9, _⟩ => ⟨S5000x64, .f32⟩
  | .local _ .vmem, ⟨10, _⟩ => ⟨S5000x64, .f32⟩
  | .local _ .vmem, ⟨11, _⟩ => ⟨S5000x64, .bf16⟩
  | .local _ .vmem, ⟨12, _⟩ => ⟨S5000x64, .bf16⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .bf16⟩
  | .local _ .vmem, ⟨17, _⟩ => ⟨S5000x64, .bf16⟩
  | .local _ .vmem, ⟨18, _⟩ => ⟨S5000x64, .f32⟩
  | .local _ .vmem, ⟨19, _⟩ => ⟨S5000x64, .f32⟩
  | .local _ .vmem, ⟨20, _⟩ => ⟨S5000x64, .bf16⟩
  | .local _ .vmem, ⟨21, _⟩ => ⟨S5000x64, .bf16⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .bf16⟩
  | .local _ .vmem, ⟨26, _⟩ => ⟨S5000x64, .bf16⟩
  | .local _ .vmem, ⟨27, _⟩ => ⟨S5000x64, .f32⟩
  | .local _ .vmem, ⟨28, _⟩ => ⟨S5000x64, .f32⟩
  | .local _ .vmem, ⟨29, _⟩ => ⟨S5000x64, .bf16⟩
  | .local _ .vmem, ⟨30, _⟩ => ⟨S5000x64, .bf16⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S5000x64, .bf16⟩
  | .local _ .vmem, ⟨35, _⟩ => ⟨S5000x64, .bf16⟩
  | .local _ .vmem, ⟨36, _⟩ => ⟨S5000x64, .f32⟩
  | .local _ .vmem, ⟨37, _⟩ => ⟨S5000x64, .f32⟩
  | .local _ .vmem, ⟨38, _⟩ => ⟨S5000x64, .bf16⟩
  | .local _ .vmem, ⟨39, _⟩ => ⟨S5000x64, .bf16⟩
  | .local _ .vmem, ⟨40, _⟩ => ⟨S64x64, .f32⟩
  | .local _ .vmem, ⟨41, _⟩ => ⟨S1x64, .f32⟩
  | .local _ .vmem, ⟨42, _⟩ => ⟨S64x64, .f32⟩
  | .local _ .vmem, ⟨43, _⟩ => ⟨S5000x64, .bf16⟩
  | .local _ .vmem, ⟨44, _⟩ => ⟨S5000x64, .bf16⟩
  | .local _ .vmem, ⟨45, _⟩ => ⟨S5000x64, .f32⟩
  | .local _ .vmem, ⟨46, _⟩ => ⟨S5000x64, .f32⟩
  | .local _ .vmem, ⟨47, _⟩ => ⟨S5000x64, .bf16⟩
  | .local _ .vmem, ⟨48, _⟩ => ⟨S5000x64, .bf16⟩
  | .local _ .vmem, ⟨49, _⟩ => ⟨S64x64, .f32⟩
  | .local _ .vmem, ⟨50, _⟩ => ⟨S1x64, .f32⟩
  | .local _ .vmem, ⟨51, _⟩ => ⟨S64x64, .f32⟩
  | .local _ .vmem, ⟨52, _⟩ => ⟨S5000x64, .bf16⟩
  | .local _ .vmem, ⟨53, _⟩ => ⟨S5000x64, .bf16⟩
  | .local _ .vmem, ⟨54, _⟩ => ⟨S5000x64, .bf16⟩
  | .local _ .vmem, ⟨55, _⟩ => ⟨S5000x64, .bf16⟩
  | .local _ .vmem, ⟨56, _⟩ => ⟨S5000x64, .bf16⟩
  | .local _ .vmem, ⟨57, _⟩ => ⟨S5000x64, .bf16⟩
  | .local _ .vmem, ⟨58, _⟩ => ⟨S5000x64, .bf16⟩
  | .local _ .vmem, ⟨59, _⟩ => ⟨S5000x64, .bf16⟩
  | .local _ .vmem, ⟨60, _⟩ => ⟨S64x64, .f32⟩
  | .local _ .vmem, ⟨61, _⟩ => ⟨S64x64, .f32⟩
  | .local _ .vmem, ⟨62, _⟩ => ⟨S64x64, .f32⟩
  | .local _ .vmem, ⟨63, _⟩ => ⟨S1x64, .f32⟩
  | .local _ .vmem, ⟨64, _⟩ => ⟨S5000x64, .bf16⟩
  | .local _ .vmem, ⟨65, _⟩ => ⟨S5000x64, .bf16⟩
  | .local _ .vmem, ⟨66, _⟩ => ⟨S5000x64, .bf16⟩
  | .local _ .vmem, ⟨67, _⟩ => ⟨S5000x64, .bf16⟩
  | .local _ .vmem, ⟨68, _⟩ => ⟨S5000x64, .bf16⟩
  | .local _ .vmem, ⟨69, _⟩ => ⟨S5000x64, .bf16⟩
  | .local _ .vmem, ⟨70, _⟩ => ⟨S5000x64, .bf16⟩
  | .local _ .vmem, ⟨71, _⟩ => ⟨S5000x64, .bf16⟩
  | .local _ .vmem, ⟨72, _⟩ => ⟨S64x64, .f32⟩
  | .local _ .vmem, ⟨73, _⟩ => ⟨S64x64, .f32⟩
  | .local _ .vmem, ⟨74, _⟩ => ⟨S64x64, .f32⟩
  | .local _ .vmem, ⟨75, _⟩ => ⟨S1x64, .f32⟩
  | .local _ .vmem, ⟨76, _⟩ => ⟨S5000x64, .bf16⟩
  | .local _ .vmem, ⟨77, _⟩ => ⟨S5000x64, .bf16⟩
  | .local _ .vmem, ⟨78, _⟩ => ⟨S5000x64, .bf16⟩
  | .local _ .vmem, ⟨79, _⟩ => ⟨S5000x64, .bf16⟩
  | .local _ .vmem, ⟨80, _⟩ => ⟨S5000x64, .bf16⟩
  | .local _ .vmem, ⟨81, _⟩ => ⟨S5000x64, .bf16⟩
  | .local _ .vmem, ⟨82, _⟩ => ⟨S64x64, .f32⟩
  | .local _ .vmem, ⟨83, _⟩ => ⟨S64x64, .f32⟩
  | .local _ .vmem, ⟨84, _⟩ => ⟨S1x64, .f32⟩
  | .local _ .vmem, ⟨85, _⟩ => ⟨S5000x64, .f32⟩
  | .local _ .vmem, ⟨86, _⟩ => ⟨S5000x64, .f32⟩
  | .local _ .vmem, ⟨87, _⟩ => ⟨S1x64, .f32⟩
  | .local _ .vmem, ⟨88, _⟩ => ⟨S1x64, .f32⟩
  | .local _ .vmem, ⟨89, _⟩ => ⟨S1x64, .f32⟩
  | .local _ .vmem, ⟨90, _⟩ => ⟨S1x64, .f32⟩
  | .local _ .vmem, ⟨91, _⟩ => ⟨S5000x64, .f32⟩
  | .local _ .vmem, ⟨92, _⟩ => ⟨S5000x64, .f32⟩
  | .local _ .vmem, ⟨93, _⟩ => ⟨S1x64, .f32⟩
  | .local _ .vmem, ⟨94, _⟩ => ⟨S1x64, .f32⟩
  | .local _ .vmem, ⟨95, _⟩ => ⟨S1x64, .f32⟩
  | .local _ .vmem, ⟨96, _⟩ => ⟨S1x64, .f32⟩
  | .local _ .vmem, ⟨97, _⟩ => ⟨S64x32, .f32⟩
  | .local _ .vmem, ⟨98, _⟩ => ⟨S1x32, .f32⟩
  | .local _ .vmem, ⟨99, _⟩ => ⟨S5000x32, .f32⟩
  | .local _ .vmem, ⟨100, _⟩ => ⟨S5000x32, .f32⟩
  | .local _ .vmem, ⟨101, _⟩ => ⟨S1x32, .f32⟩
  | .local _ .vmem, ⟨102, _⟩ => ⟨S1x32, .f32⟩
  | .local _ .vmem, ⟨103, _⟩ => ⟨S1x32, .f32⟩
  | .local _ .vmem, ⟨104, _⟩ => ⟨S1x32, .f32⟩
  | .local _ .vmem, ⟨105, _⟩ => ⟨S5000x32, .f32⟩
  | .local _ .vmem, ⟨106, _⟩ => ⟨S5000x32, .f32⟩
  | .local _ .vmem, ⟨107, _⟩ => ⟨S1x32, .f32⟩
  | .local _ .vmem, ⟨108, _⟩ => ⟨S1x32, .f32⟩
  | .local _ .vmem, ⟨109, _⟩ => ⟨S1x32, .f32⟩
  | .local _ .vmem, ⟨110, _⟩ => ⟨S1x32, .f32⟩
  | .local _ .vmem, ⟨111, _⟩ => ⟨S32x1, .f32⟩
  | .local _ .vmem, ⟨112, _⟩ => ⟨S1x1, .f32⟩
  | .local _ .vmem, ⟨113, _⟩ => ⟨S5000x1, .f32⟩
  | .local _ .vmem, ⟨114, _⟩ => ⟨S5000x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | _, _ => false

abbrev semScoped : Fin 0 → Bool
  | ⟨_, h⟩ => absurd h (Nat.not_lt_zero _)

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  ofTc nBuf bufTy 0 111 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_cst_0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst_1 : Ref sig .tc := ⟨.hbm, 33, rfl⟩
abbrev main_v4 : Ref sig .tc := ⟨.hbm, 34, rfl⟩
abbrev main_v5 : Ref sig .tc := ⟨.hbm, 35, rfl⟩
abbrev main_cst_2 : Ref sig .tc := ⟨.hbm, 36, rfl⟩
abbrev main_v6 : Ref sig .tc := ⟨.hbm, 37, rfl⟩
abbrev main_v7 : Ref sig .tc := ⟨.hbm, 38, rfl⟩
abbrev main_cst_3 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_4 : Ref sig .tc := ⟨.hbm, 43, rfl⟩
abbrev main_v11 : Ref sig .tc := ⟨.hbm, 44, rfl⟩
abbrev main_v12 : Ref sig .tc := ⟨.hbm, 45, rfl⟩
abbrev main_cst_5 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_c : Ref sig .tc := ⟨.hbm, 50, rfl⟩
abbrev main_v16 : Ref sig .tc := ⟨.hbm, 51, rfl⟩
abbrev main_v17 : Ref sig .tc := ⟨.hbm, 52, rfl⟩
abbrev main_c_6 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_7 : Ref sig .tc := ⟨.hbm, 60, rfl⟩
abbrev main_v24 : Ref sig .tc := ⟨.hbm, 61, rfl⟩
abbrev main_v25 : Ref sig .tc := ⟨.hbm, 62, rfl⟩
abbrev main_c_8 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_9 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_10 : Ref sig .tc := ⟨.hbm, 77, rfl⟩
abbrev main_v38 : Ref sig .tc := ⟨.hbm, 78, rfl⟩
abbrev main_v39 : Ref sig .tc := ⟨.hbm, 79, rfl⟩
abbrev main_c_11 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_12 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_c_13 : Ref sig .tc := ⟨.hbm, 110, rfl⟩
abbrev main_v68 : Ref sig .tc := ⟨.hbm, 111, rfl⟩
abbrev main_v69 : Ref sig .tc := ⟨.hbm, 112, rfl⟩
abbrev main_c_14 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_15 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_16 : Ref sig .tc := ⟨.hbm, 127, rfl⟩
abbrev main_v82 : Ref sig .tc := ⟨.hbm, 128, rfl⟩
abbrev main_v83 : Ref sig .tc := ⟨.hbm, 129, rfl⟩
abbrev main_c_17 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_18 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_c_19 : Ref sig .tc := ⟨.hbm, 160, rfl⟩
abbrev main_v112 : Ref sig .tc := ⟨.hbm, 161, rfl⟩
abbrev main_v113 : Ref sig .tc := ⟨.hbm, 162, rfl⟩
abbrev main_c_20 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_21 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_c_22 : Ref sig .tc := ⟨.hbm, 177, rfl⟩
abbrev main_v126 : Ref sig .tc := ⟨.hbm, 178, rfl⟩
abbrev main_v127 : Ref sig .tc := ⟨.hbm, 179, rfl⟩
abbrev main_c_23 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_24 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_c_25 : Ref sig .tc := ⟨.hbm, 220, rfl⟩
abbrev main_v166 : Ref sig .tc := ⟨.hbm, 221, rfl⟩
abbrev main_v167 : Ref sig .tc := ⟨.hbm, 222, rfl⟩
abbrev main_c_26 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_c_27 : Ref sig .tc := ⟨.hbm, 229, rfl⟩
abbrev main_v173 : Ref sig .tc := ⟨.hbm, 230, rfl⟩
abbrev main_v174 : Ref sig .tc := ⟨.hbm, 231, rfl⟩
abbrev main_c_28 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183_0 : Ref sig .tc := ⟨.hbm, 241, rfl⟩
abbrev main_v183_1 : Ref sig .tc := ⟨.hbm, 242, rfl⟩
abbrev main_v183_2 : Ref sig .tc := ⟨.hbm, 243, rfl⟩
abbrev main_v184 : Ref sig .tc := ⟨.hbm, 244, rfl⟩
abbrev main_cst_29 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_cst_30 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197_0 : Ref sig .tc := ⟨.hbm, 259, rfl⟩
abbrev main_v197_1 : Ref sig .tc := ⟨.hbm, 260, rfl⟩
abbrev main_v197_2 : Ref sig .tc := ⟨.hbm, 261, rfl⟩
abbrev main_v198 : Ref sig .tc := ⟨.hbm, 262, rfl⟩
abbrev main_cst_31 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_cst_32 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg6_0 : Ref sig .tc := ⟨.vmem, 63, rfl⟩
abbrev cc6_stg7_0 : Ref sig .tc := ⟨.vmem, 64, rfl⟩
abbrev cc6_stg7_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg1_1 : Ref sig .tc := ⟨.vmem, 69, rfl⟩
abbrev cc7_stg2_0 : Ref sig .tc := ⟨.vmem, 70, rfl⟩
abbrev cc7_stg2_1 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg6_0 : Ref sig .tc := ⟨.vmem, 75, rfl⟩
abbrev cc7_stg7_0 : Ref sig .tc := ⟨.vmem, 76, rfl⟩
abbrev cc7_stg7_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg3_0 : Ref sig .tc := ⟨.vmem, 83, rfl⟩
abbrev cc8_stg4_0 : Ref sig .tc := ⟨.vmem, 84, rfl⟩
abbrev cc8_stg5_0 : Ref sig .tc := ⟨.vmem, 85, rfl⟩
abbrev cc8_stg5_1 : Ref sig .tc := ⟨.vmem, 86, rfl⟩
abbrev cc8_stg6_0 : Ref sig .tc := ⟨.vmem, 87, rfl⟩
abbrev cc8_stg7_0 : Ref sig .tc := ⟨.vmem, 88, rfl⟩
abbrev cc8_scratch0 : Ref sig .tc := ⟨.vmem, 89, rfl⟩
abbrev cc8_scratch1 : Ref sig .tc := ⟨.vmem, 90, rfl⟩
abbrev cc9_stg0_0 : Ref sig .tc := ⟨.vmem, 91, rfl⟩
abbrev cc9_stg0_1 : Ref sig .tc := ⟨.vmem, 92, rfl⟩
abbrev cc9_stg1_0 : Ref sig .tc := ⟨.vmem, 93, rfl⟩
abbrev cc9_stg2_0 : Ref sig .tc := ⟨.vmem, 94, rfl⟩
abbrev cc9_stg3_0 : Ref sig .tc := ⟨.vmem, 95, rfl⟩
abbrev cc9_stg4_0 : Ref sig .tc := ⟨.vmem, 96, rfl⟩
abbrev cc9_stg5_0 : Ref sig .tc := ⟨.vmem, 97, rfl⟩
abbrev cc9_stg6_0 : Ref sig .tc := ⟨.vmem, 98, rfl⟩
abbrev cc9_stg7_0 : Ref sig .tc := ⟨.vmem, 99, rfl⟩
abbrev cc9_stg7_1 : Ref sig .tc := ⟨.vmem, 100, rfl⟩
abbrev cc9_stg8_0 : Ref sig .tc := ⟨.vmem, 101, rfl⟩
abbrev cc9_stg9_0 : Ref sig .tc := ⟨.vmem, 102, rfl⟩
abbrev cc9_scratch0 : Ref sig .tc := ⟨.vmem, 103, rfl⟩
abbrev cc9_scratch1 : Ref sig .tc := ⟨.vmem, 104, rfl⟩
abbrev cc10_stg0_0 : Ref sig .tc := ⟨.vmem, 105, rfl⟩
abbrev cc10_stg0_1 : Ref sig .tc := ⟨.vmem, 106, rfl⟩
abbrev cc10_stg1_0 : Ref sig .tc := ⟨.vmem, 107, rfl⟩
abbrev cc10_stg2_0 : Ref sig .tc := ⟨.vmem, 108, rfl⟩
abbrev cc10_stg3_0 : Ref sig .tc := ⟨.vmem, 109, rfl⟩
abbrev cc10_stg4_0 : Ref sig .tc := ⟨.vmem, 110, rfl⟩
abbrev cc10_stg5_0 : Ref sig .tc := ⟨.vmem, 111, rfl⟩
abbrev cc10_stg6_0 : Ref sig .tc := ⟨.vmem, 112, rfl⟩
abbrev cc10_stg7_0 : Ref sig .tc := ⟨.vmem, 113, rfl⟩
abbrev cc10_stg7_1 : Ref sig .tc := ⟨.vmem, 114, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc6_sem3_0 : DmaSem sig := 60
abbrev cc6_sem4_0 : DmaSem sig := 61
abbrev cc6_sem5_0 : DmaSem sig := 62
abbrev cc6_sem6_0 : DmaSem sig := 63
abbrev cc6_sem7_0 : DmaSem sig := 64
abbrev cc6_sem7_1 : DmaSem sig := 65
abbrev cc7_sem0_0 : DmaSem sig := 66
abbrev cc7_sem0_1 : DmaSem sig := 67
abbrev cc7_sem1_0 : DmaSem sig := 68
abbrev cc7_sem1_1 : DmaSem sig := 69
abbrev cc7_sem2_0 : DmaSem sig := 70
abbrev cc7_sem2_1 : DmaSem sig := 71
abbrev cc7_sem3_0 : DmaSem sig := 72
abbrev cc7_sem4_0 : DmaSem sig := 73
abbrev cc7_sem5_0 : DmaSem sig := 74
abbrev cc7_sem6_0 : DmaSem sig := 75
abbrev cc7_sem7_0 : DmaSem sig := 76
abbrev cc7_sem7_1 : DmaSem sig := 77
abbrev cc8_sem0_0 : DmaSem sig := 78
abbrev cc8_sem0_1 : DmaSem sig := 79
abbrev cc8_sem1_0 : DmaSem sig := 80
abbrev cc8_sem1_1 : DmaSem sig := 81
abbrev cc8_sem2_0 : DmaSem sig := 82
abbrev cc8_sem3_0 : DmaSem sig := 83
abbrev cc8_sem4_0 : DmaSem sig := 84
abbrev cc8_sem5_0 : DmaSem sig := 85
abbrev cc8_sem5_1 : DmaSem sig := 86
abbrev cc8_sem6_0 : DmaSem sig := 87
abbrev cc8_sem7_0 : DmaSem sig := 88
abbrev cc9_sem0_0 : DmaSem sig := 89
abbrev cc9_sem0_1 : DmaSem sig := 90
abbrev cc9_sem1_0 : DmaSem sig := 91
abbrev cc9_sem2_0 : DmaSem sig := 92
abbrev cc9_sem3_0 : DmaSem sig := 93
abbrev cc9_sem4_0 : DmaSem sig := 94
abbrev cc9_sem5_0 : DmaSem sig := 95
abbrev cc9_sem6_0 : DmaSem sig := 96
abbrev cc9_sem7_0 : DmaSem sig := 97
abbrev cc9_sem7_1 : DmaSem sig := 98
abbrev cc9_sem8_0 : DmaSem sig := 99
abbrev cc9_sem9_0 : DmaSem sig := 100
abbrev cc10_sem0_0 : DmaSem sig := 101
abbrev cc10_sem0_1 : DmaSem sig := 102
abbrev cc10_sem1_0 : DmaSem sig := 103
abbrev cc10_sem2_0 : DmaSem sig := 104
abbrev cc10_sem3_0 : DmaSem sig := 105
abbrev cc10_sem4_0 : DmaSem sig := 106
abbrev cc10_sem5_0 : DmaSem sig := 107
abbrev cc10_sem6_0 : DmaSem sig := 108
abbrev cc10_sem7_0 : DmaSem sig := 109
abbrev cc10_sem7_1 : DmaSem sig := 110

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x64 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x64 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![100], ![false]⟩

def k8_cond2 (i : grid8.Coords) : BitVec 1 :=
  let arg0 : BitVec 32 := BitVec.ofNat 32 (i 0).val
  let c99_i32 : BitVec 32 := 99#32
  let v36 : BitVec 1 := Scalar.cmpi .eq arg0 c99_i32
  let v37 : BitVec 32 := Scalar.extui v36
  let c0_i32_23 : BitVec 32 := 0#32
  let v38 : BitVec 1 := Scalar.cmpi .ne v37 c0_i32_23
  v38

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![100], ![false]⟩

def k9_cond2 (i : grid9.Coords) : BitVec 1 :=
  let arg0 : BitVec 32 := BitVec.ofNat 32 (i 0).val
  let c99_i32 : BitVec 32 := 99#32
  let v50 : BitVec 1 := Scalar.cmpi .eq arg0 c99_i32
  let v51 : BitVec 32 := Scalar.extui v50
  let c0_i32_28 : BitVec 32 := 0#32
  let v52 : BitVec 1 := Scalar.cmpi .ne v51 c0_i32_28
  v52

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x32 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x32 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x32 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 1 → Memref sig .tc .vmem S1x32 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x32 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev grid10 : Pipeline.Grid := ⟨1, ![100], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x32 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x32 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S32x1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x1 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x1 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

class Facts₀ : Prop where
  bcast_S_S1000000 : S_.BroadcastsInDim S1000000 (![] : Fin 0 → Fin S1000000.rank)
  bcast_S_S20000 : S_.BroadcastsInDim S20000 (![] : Fin 0 → Fin S20000.rank)
  bcast_S1000000_S1000000x1_0 : S1000000.BroadcastsInDim S1000000x1 (![0] : Fin 1 → Fin S1000000x1.rank)
  bcast_S_S100000 : S_.BroadcastsInDim S100000 (![] : Fin 0 → Fin S100000.rank)
  bitsLt_bf16_f32 : FTy.bits .bf16 < FTy.bits .f32
  bcast_S100000_S100000x1_0 : S100000.BroadcastsInDim S100000x1 (![0] : Fin 1 → Fin S100000x1.rank)
  bcast_S_S20000x64 : S_.BroadcastsInDim S20000x64 (![] : Fin 0 → Fin S20000x64.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S192x64_S64x64_0_0 : S192x64.Slices ![0, 0] S64x64
  slices_S192x64_S64x64_64_0 : S192x64.Slices ![64, 0] S64x64
  slices_S192x64_S64x64_128_0 : S192x64.Slices ![128, 0] S64x64
  bcast_S_S500000 : S_.BroadcastsInDim S500000 (![] : Fin 0 → Fin S500000.rank)
  bcast_S500000_S500000x1_0 : S500000.BroadcastsInDim S500000x1 (![0] : Fin 1 → Fin S500000x1.rank)
  slices_S128x64_S64x64_0_0 : S128x64.Slices ![0, 0] S64x64
  slices_S128x64_S64x64_64_0 : S128x64.Slices ![64, 0] S64x64
  reduces_S5000x64_S64 : S5000x64.Reduces [0] S64
  bcast_S_S64 : S_.BroadcastsInDim S64 (![] : Fin 0 → Fin S64.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S64x32_S64x32_0_0 : ∀ a, (![0, 0] : Fin 2 → Nat) a + S64x32.size a ≤ S64x32.size a
  h_S64x32 : 0 < S64x32.numel
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  reduces_S5000x32_S32 : S5000x32.Reduces [0] S32
  shapeCasts_S1x32_S32 : S1x32.ShapeCasts S32
  bcast_S_S32 : S_.BroadcastsInDim S32 (![] : Fin 0 → Fin S32.rank)
  shapeCasts_S1_S1x1 : S1.ShapeCasts S1x1
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  scatter_S20000_S1000000x1_S1000000_n_0_0_1_wf : ScatterDims.WF S20000 S1000000x1 S1000000 [] [0] [0] 1
  scatter_S100000_S1000000x1_S1000000_n_0_0_1_wf : ScatterDims.WF S100000 S1000000x1 S1000000 [] [0] [0] 1
  gather_S100000x64_S100000x1_S100000x64_1_0_n_n_0_1_164_wf : GatherDims.WF S100000x64 S100000x1 S100000x64 [1] [0] [] [0] [] 1 ![1, 64]
  gather_S100000x64_S1000000x1_S1000000x64_1_0_n_n_0_1_164_wf : GatherDims.WF S100000x64 S1000000x1 S1000000x64 [1] [0] [] [0] [] 1 ![1, 64]
  scatter_S20000x64_S1000000x1_S1000000x64_1_0_0_1_wf : ScatterDims.WF S20000x64 S1000000x1 S1000000x64 [1] [0] [0] 1
  gather_S20000x64_S1000000x1_S1000000x64_1_0_n_n_0_1_164_wf : GatherDims.WF S20000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  gather_S100000x64_S500000x1_S500000x64_1_0_n_n_0_1_164_wf : GatherDims.WF S100000x64 S500000x1 S500000x64 [1] [0] [] [0] [] 1 ![1, 64]
  gather_S20000x64_S500000x1_S500000x64_1_0_n_n_0_1_164_wf : GatherDims.WF S20000x64 S500000x1 S500000x64 [1] [0] [] [0] [] 1 ![1, 64]
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S20000x64.size a
  hwx0_0 : ∀ i : grid0.Coords, EltTy.bits .f32 = 32 ∨ (Rect.block (s := S20000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S20000x64.size a
  hwx0_1 : ∀ i : grid0.Coords, EltTy.bits .bf16 = 32 ∨ (Rect.block (s := S20000x64) S5000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S20000x64.size a
  hwx0_5 : ∀ i : grid0.Coords, EltTy.bits .bf16 = 32 ∨ (Rect.block (s := S20000x64) S5000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S20000x64.size a
  hwx2_0 : ∀ i : grid2.Coords, EltTy.bits .f32 = 32 ∨ (Rect.block (s := S20000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S20000x64.size a
  hwx2_1 : ∀ i : grid2.Coords, EltTy.bits .bf16 = 32 ∨ (Rect.block (s := S20000x64) S5000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S20000x64.size a
  hwx2_5 : ∀ i : grid2.Coords, EltTy.bits .bf16 = 32 ∨ (Rect.block (s := S20000x64) S5000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .bf16 = 32 ∨ (Rect.block (s := S100000x64) S5000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .bf16 = 32 ∨ (Rect.block (s := S100000x64) S5000x64.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S20000x64.size a
  hwx4_0 : ∀ i : grid4.Coords, EltTy.bits .f32 = 32 ∨ (Rect.block (s := S20000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S20000x64.size a
  hwx4_1 : ∀ i : grid4.Coords, EltTy.bits .bf16 = 32 ∨ (Rect.block (s := S20000x64) S5000x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S20000x64.size a
  hwx4_5 : ∀ i : grid4.Coords, EltTy.bits .bf16 = 32 ∨ (Rect.block (s := S20000x64) S5000x64.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .bf16 = 32 ∨ (Rect.block (s := S100000x64) S5000x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .bf16 = 32 ∨ (Rect.block (s := S100000x64) S5000x64.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .bf16 = 32 ∨ (Rect.block (s := S100000x64) S5000x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .bf16 = 32 ∨ (Rect.block (s := S100000x64) S5000x64.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .bf16 = 32 ∨ (Rect.block (s := S100000x64) S5000x64.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S100000x64.size a
  hwx6_7 : ∀ i : grid6.Coords, EltTy.bits .bf16 = 32 ∨ (Rect.block (s := S100000x64) S5000x64.size (cc6_transform_7 i) (hinb6_7 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S20000x64.size a
  hwx7_0 : ∀ i : grid7.Coords, EltTy.bits .bf16 = 32 ∨ (Rect.block (s := S20000x64) S5000x64.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S20000x64.size a
  hwx7_1 : ∀ i : grid7.Coords, EltTy.bits .bf16 = 32 ∨ (Rect.block (s := S20000x64) S5000x64.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S20000x64.size a
  hwx7_2 : ∀ i : grid7.Coords, EltTy.bits .bf16 = 32 ∨ (Rect.block (s := S20000x64) S5000x64.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x64.size a ≤ S20000x64.size a
  hwx7_7 : ∀ i : grid7.Coords, EltTy.bits .bf16 = 32 ∨ (Rect.block (s := S20000x64) S5000x64.size (cc7_transform_7 i) (hinb7_7 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S500000x64.size a
  hwx8_0 : ∀ i : grid8.Coords, EltTy.bits .bf16 = 32 ∨ (Rect.block (s := S500000x64) S5000x64.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S500000x64.size a
  hwx8_1 : ∀ i : grid8.Coords, EltTy.bits .bf16 = 32 ∨ (Rect.block (s := S500000x64) S5000x64.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S500000x64.size a
  hwx8_5 : ∀ i : grid8.Coords, EltTy.bits .f32 = 32 ∨ (Rect.block (s := S500000x64) S5000x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x64.size a ≤ S1x64.size a
  hwx8_7 : ∀ i : grid8.Coords, EltTy.bits .f32 = 32 ∨ (Rect.block (s := S1x64) S1x64.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S500000x64.size a
  hwx9_0 : ∀ i : grid9.Coords, EltTy.bits .f32 = 32 ∨ (Rect.block (s := S500000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x32.size a ≤ S64x32.size a
  hwx9_5 : ∀ i : grid9.Coords, EltTy.bits .f32 = 32 ∨ (Rect.block (s := S64x32) S64x32.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x32.size a ≤ S1x32.size a
  hwx9_6 : ∀ i : grid9.Coords, EltTy.bits .f32 = 32 ∨ (Rect.block (s := S1x32) S1x32.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x32.size a ≤ S500000x32.size a
  hwx9_7 : ∀ i : grid9.Coords, EltTy.bits .f32 = 32 ∨ (Rect.block (s := S500000x32) S5000x32.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x32.size a ≤ S1x32.size a
  hwx9_8 : ∀ i : grid9.Coords, EltTy.bits .f32 = 32 ∨ (Rect.block (s := S1x32) S1x32.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1x32.size a ≤ S1x32.size a
  hwx9_9 : ∀ i : grid9.Coords, EltTy.bits .f32 = 32 ∨ (Rect.block (s := S1x32) S1x32.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x32.size a ≤ S500000x32.size a
  hwx10_0 : ∀ i : grid10.Coords, EltTy.bits .f32 = 32 ∨ (Rect.block (s := S500000x32) S5000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x32.size a ≤ S1x32.size a
  hwx10_1 : ∀ i : grid10.Coords, EltTy.bits .f32 = 32 ∨ (Rect.block (s := S1x32) S1x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x32.size a ≤ S1x32.size a
  hwx10_2 : ∀ i : grid10.Coords, EltTy.bits .f32 = 32 ∨ (Rect.block (s := S1x32) S1x32.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x32.size a ≤ S1x32.size a
  hwx10_3 : ∀ i : grid10.Coords, EltTy.bits .f32 = 32 ∨ (Rect.block (s := S1x32) S1x32.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x32.size a ≤ S1x32.size a
  hwx10_4 : ∀ i : grid10.Coords, EltTy.bits .f32 = 32 ∨ (Rect.block (s := S1x32) S1x32.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S32x1.size a ≤ S32x1.size a
  hwx10_5 : ∀ i : grid10.Coords, EltTy.bits .f32 = 32 ∨ (Rect.block (s := S32x1) S32x1.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x1.size a ≤ S1x1.size a
  hwx10_6 : ∀ i : grid10.Coords, EltTy.bits .f32 = 32 ∨ (Rect.block (s := S1x1) S1x1.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x1.size a ≤ S500000x1.size a
  hwx10_7 : ∀ i : grid10.Coords, EltTy.bits .f32 = 32 ∨ (Rect.block (s := S500000x1) S5000x1.size (cc10_transform_7 i) (hinb10_7 i)).WholeWords (EltTy.packing .f32)

variable [Facts₀]

def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v37) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v81) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v97) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v102) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v101) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v103) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v95) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v105) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v110) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v109) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v111) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v125) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v103) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v141) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v146) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v145) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v147) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v139) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v149) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v154) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v153) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v155) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v67) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v155) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v156) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v157) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v158) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v159) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v160) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v59) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v103) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v147) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v161) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v162) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v163) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v164) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v165) S5000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v172) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v179) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v180) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v181) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v182) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v183_0) S5000x64.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v183_1) S1x64.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v183_2) S1x64.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev idle8 : Fin 8 → grid8.Coords → Bool := fun | 0 => fun _ => false | 1 => fun _ => false | 2 => fun _ => false | 3 => fun _ => false | 4 => fun _ => false | 5 => fun _ => false | 6 => fun i => !(k8_cond2 i == 1#1) | 7 => fun i => !(k8_cond2 i == 1#1) | ⟨_ + 8, h⟩ => absurd h (Nat.not_lt.2 (Nat.le_add_left _ _))

abbrev win9_0 : Pipeline.Window sig grid9 :=
  Pipeline.Window.ofSpec (Memref.whole main_v183_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v192) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v193) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v194) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v195) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg21) S64x32.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v196) S1x32.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v197_0) S5000x32.size cc9_transform_7 reads9_7 true false 2 stage9_7 sem9_7
    hrank9 hreads9_7 hinb9_7 nbuf9_7 (Memref.isWhole_whole _) hwx9_7 hstage9_7

abbrev win9_8 : Pipeline.Window sig grid9 :=
  Pipeline.Window.ofSpec (Memref.whole main_v197_1) S1x32.size cc9_transform_8 reads9_8 true true 1 stage9_8 sem9_8
    hrank9 hreads9_8 hinb9_8 nbuf9_8 (Memref.isWhole_whole _) hwx9_8 hstage9_8

abbrev win9_9 : Pipeline.Window sig grid9 :=
  Pipeline.Window.ofSpec (Memref.whole main_v197_2) S1x32.size cc9_transform_9 reads9_9 true true 1 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev idle9 : Fin 10 → grid9.Coords → Bool := fun | 0 => fun _ => false | 1 => fun _ => false | 2 => fun _ => false | 3 => fun _ => false | 4 => fun _ => false | 5 => fun _ => false | 6 => fun _ => false | 7 => fun _ => false | 8 => fun i => !(k9_cond2 i == 1#1) | 9 => fun i => !(k9_cond2 i == 1#1) | ⟨_ + 10, h⟩ => absurd h (Nat.not_lt.2 (Nat.le_add_left _ _))

abbrev win10_0 : Pipeline.Window sig grid10 :=
  Pipeline.Window.ofSpec (Memref.whole main_v197_0) S5000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v206) S1x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v207) S1x32.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v208) S1x32.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v209) S1x32.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg25) S32x1.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v210) S1x1.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v211) S5000x1.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

class Facts : Prop extends Facts₀ where

variable [Facts]
-- ==== ReferenceIdeal.lean ====
abbrev S100000 : Shape := ⟨1, ![100000]⟩
abbrev S20000x64 : Shape := ⟨2, ![20000, 64]⟩
abbrev S1000000 : Shape := ⟨1, ![1000000]⟩
abbrev S500000 : Shape := ⟨1, ![500000]⟩
abbrev S100000x64 : Shape := ⟨2, ![100000, 64]⟩
abbrev S3x64x64 : Shape := ⟨3, ![3, 64, 64]⟩
abbrev S3x64 : Shape := ⟨2, ![3, 64]⟩
abbrev S192x64 : Shape := ⟨2, ![192, 64]⟩
abbrev S64 : Shape := ⟨1, ![64]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S100000x1 : Shape := ⟨2, ![100000, 1]⟩
abbrev S1x64x64 : Shape := ⟨3, ![1, 64, 64]⟩
abbrev S64x64 : Shape := ⟨2, ![64, 64]⟩
abbrev S1x64 : Shape := ⟨2, ![1, 64]⟩
abbrev S1000000x1 : Shape := ⟨2, ![1000000, 1]⟩
abbrev S1000000x64 : Shape := ⟨2, ![1000000, 64]⟩
abbrev S20000 : Shape := ⟨1, ![20000]⟩
abbrev S20000x1 : Shape := ⟨2, ![20000, 1]⟩
abbrev S100000x192 : Shape := ⟨2, ![100000, 192]⟩
abbrev S20000x192 : Shape := ⟨2, ![20000, 192]⟩
abbrev S500000x1 : Shape := ⟨2, ![500000, 1]⟩
abbrev S500000x64 : Shape := ⟨2, ![500000, 64]⟩
abbrev S500000x128 : Shape := ⟨2, ![500000, 128]⟩
abbrev S500000x32 : Shape := ⟨2, ![500000, 32]⟩
abbrev S1x32 : Shape := ⟨2, ![1, 32]⟩
abbrev S1x1 : Shape := ⟨2, ![1, 1]⟩

abbrev nBuf : Space → Nat
  | .hbm => 412
  | .vmem => 0
  | .smem => 0
  | _ => 0

abbrev hbmTy0_0 (i : Nat) : BufTy := match i % 128 with
  | 0 => ⟨S100000, .i32⟩
  | 1 => ⟨S20000x64, .f32⟩
  | 2 => ⟨S1000000, .i32⟩
  | 3 => ⟨S1000000, .i32⟩
  | 4 => ⟨S500000, .i32⟩
  | 5 => ⟨S500000, .i32⟩
  | 6 => ⟨S100000x64, .f32⟩
  | 7 => ⟨S3x64x64, .f32⟩
  | 8 => ⟨S3x64, .f32⟩
  | 9 => ⟨S3x64x64, .f32⟩
  | 10 => ⟨S3x64x64, .f32⟩
  | 11 => ⟨S3x64, .f32⟩
  | 12 => ⟨S3x64x64, .f32⟩
  | 13 => ⟨S192x64, .f32⟩
  | 14 => ⟨S64, .f32⟩
  | 15 => ⟨S192x64, .f32⟩
  | 16 => ⟨S64, .f32⟩
  | 17 => ⟨S128x64, .f32⟩
  | 18 => ⟨S64, .f32⟩
  | 19 => ⟨S64, .f32⟩
  | 20 => ⟨S64, .f32⟩
  | 21 => ⟨S64x32, .f32⟩
  | 22 => ⟨S32, .f32⟩
  | 23 => ⟨S32, .f32⟩
  | 24 => ⟨S32, .f32⟩
  | 25 => ⟨S32x1, .f32⟩
  | 26 => ⟨S1, .f32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x64, .f32⟩
  | 36 => ⟨S1x64x64, .f32⟩
  | 37 => ⟨S64x64, .f32⟩
  | 38 => ⟨S1x64, .f32⟩
  | 39 => ⟨S64, .f32⟩
  | 40 => ⟨S1x64x64, .f32⟩
  | 41 => ⟨S64x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x64, .f32⟩
  | 51 => ⟨S_, .f32⟩
  | 52 => ⟨S20000x64, .f32⟩
  | 53 => ⟨S1000000x1, .i32⟩
  | 54 => ⟨S20000x64, .f32⟩
  | 55 => ⟨S_, .f32⟩
  | 56 => ⟨S1000000, .f32⟩
  | 57 => ⟨S_, .f32⟩
  | 58 => ⟨S20000, .f32⟩
  | 59 => ⟨S1000000x1, .i32⟩
  | 60 => ⟨S20000, .f32⟩
  | 61 => ⟨S_, .f32⟩
  | 62 => ⟨S20000, .f32⟩
  | 63 => ⟨S20000, .f32⟩
  | 64 => ⟨S20000x1, .f32⟩
  | 65 => ⟨S20000x64, .f32⟩
  | 66 => ⟨S20000x64, .f32⟩
  | 67 => ⟨S20000x64, .f32⟩
  | 68 => ⟨S1x64, .f32⟩
  | 69 => ⟨S20000x64, .f32⟩
  | 70 => ⟨S20000x64, .f32⟩
  | 71 => ⟨S20000x64, .f32⟩
  | 72 => ⟨S20000x64, .f32⟩
  | 73 => ⟨S1x64x64, .f32⟩
  | 74 => ⟨S64x64, .f32⟩
  | 75 => ⟨S1x64, .f32⟩
  | 76 => ⟨S64, .f32⟩
  | 77 => ⟨S1x64x64, .f32⟩
  | 78 => ⟨S64x64, .f32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S1000000x1, .i32⟩
  | 87 => ⟨S1000000x64, .f32⟩
  | 88 => ⟨S_, .f32⟩
  | 89 => ⟨S100000x64, .f32⟩
  | 90 => ⟨S1000000x1, .i32⟩
  | 91 => ⟨S100000x64, .f32⟩
  | 92 => ⟨S_, .f32⟩
  | 93 => ⟨S1000000, .f32⟩
  | 94 => ⟨S_, .f32⟩
  | 95 => ⟨S100000, .f32⟩
  | 96 => ⟨S1000000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S100000x64, .f32⟩
  | 109 => ⟨S100000x64, .f32⟩
  | 110 => ⟨S_, .f32⟩
  | 111 => ⟨S20000x64, .f32⟩
  | 112 => ⟨S20000x64, .f32⟩
  | 113 => ⟨S_, .f32⟩
  | 114 => ⟨S100000x64, .f32⟩
  | 115 => ⟨S100000x64, .f32⟩
  | 116 => ⟨S1x64x64, .f32⟩
  | 117 => ⟨S64x64, .f32⟩
  | 118 => ⟨S1x64, .f32⟩
  | 119 => ⟨S64, .f32⟩
  | 120 => ⟨S1x64x64, .f32⟩
  | 121 => ⟨S64x64, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S100000, .i32⟩

abbrev hbmTy0_1 (i : Nat) : BufTy := match i % 128 with
  | 0 => ⟨S1000000, .i32⟩
  | 1 => ⟨S1000000x1, .i32⟩
  | 2 => ⟨S1000000x64, .f32⟩
  | 3 => ⟨S_, .f32⟩
  | 4 => ⟨S20000x64, .f32⟩
  | 5 => ⟨S1000000x1, .i32⟩
  | 6 => ⟨S20000x64, .f32⟩
  | 7 => ⟨S_, .f32⟩
  | 8 => ⟨S1000000, .f32⟩
  | 9 => ⟨S_, .f32⟩
  | 10 => ⟨S20000, .f32⟩
  | 11 => ⟨S1000000x1, .i32⟩
  | 12 => ⟨S20000, .f32⟩
  | 13 => ⟨S_, .f32⟩
  | 14 => ⟨S20000, .f32⟩
  | 15 => ⟨S20000, .f32⟩
  | 16 => ⟨S20000x1, .f32⟩
  | 17 => ⟨S20000x64, .f32⟩
  | 18 => ⟨S20000x64, .f32⟩
  | 19 => ⟨S20000x64, .f32⟩
  | 20 => ⟨S1x64, .f32⟩
  | 21 => ⟨S20000x64, .f32⟩
  | 22 => ⟨S20000x64, .f32⟩
  | 23 => ⟨S20000x64, .f32⟩
  | 24 => ⟨S20000x64, .f32⟩
  | 25 => ⟨S1x64x64, .f32⟩
  | 26 => ⟨S64x64, .f32⟩
  | 27 => ⟨S1x64, .f32⟩
  | 28 => ⟨S64, .f32⟩
  | 29 => ⟨S1x64x64, .f32⟩
  | 30 => ⟨S64x64, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x64, .f32⟩
  | 40 => ⟨S_, .f32⟩
  | 41 => ⟨S100000x64, .f32⟩
  | 42 => ⟨S1000000x1, .i32⟩
  | 43 => ⟨S100000x64, .f32⟩
  | 44 => ⟨S_, .f32⟩
  | 45 => ⟨S1000000, .f32⟩
  | 46 => ⟨S_, .f32⟩
  | 47 => ⟨S100000, .f32⟩
  | 48 => ⟨S1000000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S100000x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S100000x64, .f32⟩
  | 61 => ⟨S100000x64, .f32⟩
  | 62 => ⟨S_, .f32⟩
  | 63 => ⟨S20000x64, .f32⟩
  | 64 => ⟨S20000x64, .f32⟩
  | 65 => ⟨S_, .f32⟩
  | 66 => ⟨S100000x64, .f32⟩
  | 67 => ⟨S100000x64, .f32⟩
  | 68 => ⟨S1x64x64, .f32⟩
  | 69 => ⟨S64x64, .f32⟩
  | 70 => ⟨S1x64, .f32⟩
  | 71 => ⟨S64, .f32⟩
  | 72 => ⟨S1x64x64, .f32⟩
  | 73 => ⟨S64x64, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x64, .f32⟩
  | 83 => ⟨S_, .f32⟩
  | 84 => ⟨S20000x64, .f32⟩
  | 85 => ⟨S1000000x1, .i32⟩
  | 86 => ⟨S20000x64, .f32⟩
  | 87 => ⟨S_, .f32⟩
  | 88 => ⟨S1000000, .f32⟩
  | 89 => ⟨S_, .f32⟩
  | 90 => ⟨S20000, .f32⟩
  | 91 => ⟨S1000000x1, .i32⟩
  | 92 => ⟨S20000, .f32⟩
  | 93 => ⟨S_, .f32⟩
  | 94 => ⟨S20000, .f32⟩
  | 95 => ⟨S20000, .f32⟩
  | 96 => ⟨S20000x1, .f32⟩
  | 97 => ⟨S20000x64, .f32⟩
  | 98 => ⟨S20000x64, .f32⟩
  | 99 => ⟨S20000x64, .f32⟩
  | 100 => ⟨S1x64, .f32⟩
  | 101 => ⟨S20000x64, .f32⟩
  | 102 => ⟨S20000x64, .f32⟩
  | 103 => ⟨S20000x64, .f32⟩
  | 104 => ⟨S20000x64, .f32⟩
  | 105 => ⟨S1x64x64, .f32⟩
  | 106 => ⟨S64x64, .f32⟩
  | 107 => ⟨S1x64, .f32⟩
  | 108 => ⟨S64, .f32⟩
  | 109 => ⟨S1x64x64, .f32⟩
  | 110 => ⟨S64x64, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x64, .f32⟩
  | 120 => ⟨S_, .f32⟩
  | 121 => ⟨S100000x64, .f32⟩
  | 122 => ⟨S1000000x1, .i32⟩
  | 123 => ⟨S100000x64, .f32⟩
  | 124 => ⟨S_, .f32⟩
  | 125 => ⟨S1000000, .f32⟩
  | 126 => ⟨S_, .f32⟩
  | 127 => ⟨S100000, .f32⟩
  | _ => ⟨S100000, .i32⟩

abbrev hbmTy0_2 (i : Nat) : BufTy := match i % 128 with
  | 0 => ⟨S1000000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S100000x64, .f32⟩
  | 13 => ⟨S100000x64, .f32⟩
  | 14 => ⟨S_, .f32⟩
  | 15 => ⟨S20000x64, .f32⟩
  | 16 => ⟨S20000x64, .f32⟩
  | 17 => ⟨S_, .f32⟩
  | 18 => ⟨S100000x64, .f32⟩
  | 19 => ⟨S100000x64, .f32⟩
  | 20 => ⟨S100000x192, .f32⟩
  | 21 => ⟨S100000x64, .f32⟩
  | 22 => ⟨S1x64, .f32⟩
  | 23 => ⟨S100000x64, .f32⟩
  | 24 => ⟨S100000x64, .f32⟩
  | 25 => ⟨S20000x192, .f32⟩
  | 26 => ⟨S20000x64, .f32⟩
  | 27 => ⟨S1x64, .f32⟩
  | 28 => ⟨S20000x64, .f32⟩
  | 29 => ⟨S20000x64, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x64, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x64, .f32⟩
  | 48 => ⟨S500000x128, .f32⟩
  | 49 => ⟨S500000x64, .f32⟩
  | 50 => ⟨S1x64, .f32⟩
  | 51 => ⟨S500000x64, .f32⟩
  | 52 => ⟨S500000x64, .f32⟩
  | 53 => ⟨S_, .f32⟩
  | 54 => ⟨S64, .f32⟩
  | 55 => ⟨S_, .f32⟩
  | 56 => ⟨S64, .f32⟩
  | 57 => ⟨S64, .f32⟩
  | 58 => ⟨S_, .i32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S500000x64, .f32⟩
  | 66 => ⟨S500000x64, .f32⟩
  | 67 => ⟨S500000x64, .f32⟩
  | 68 => ⟨S_, .f32⟩
  | 69 => ⟨S_, .f32⟩
  | 70 => ⟨S_, .f32⟩
  | 71 => ⟨S_, .f32⟩
  | 72 => ⟨S64, .f32⟩
  | 73 => ⟨S64, .f32⟩
  | 74 => ⟨S64, .f32⟩
  | 75 => ⟨S_, .f32⟩
  | 76 => ⟨S_, .i1⟩
  | 77 => ⟨S_, .f32⟩
  | 78 => ⟨S_, .f32⟩
  | 79 => ⟨S64, .f32⟩
  | 80 => ⟨S64, .f32⟩
  | 81 => ⟨S1x64, .f32⟩
  | 82 => ⟨S500000x64, .f32⟩
  | 83 => ⟨S500000x64, .f32⟩
  | 84 => ⟨S1x64, .f32⟩
  | 85 => ⟨S500000x64, .f32⟩
  | 86 => ⟨S500000x64, .f32⟩
  | 87 => ⟨S_, .f32⟩
  | 88 => ⟨S64, .f32⟩
  | 89 => ⟨S64, .f32⟩
  | 90 => ⟨S64, .f32⟩
  | 91 => ⟨S1x64, .f32⟩
  | 92 => ⟨S500000x64, .f32⟩
  | 93 => ⟨S500000x64, .f32⟩
  | 94 => ⟨S1x64, .f32⟩
  | 95 => ⟨S500000x64, .f32⟩
  | 96 => ⟨S500000x64, .f32⟩
  | 97 => ⟨S_, .f32⟩
  | 98 => ⟨S500000x64, .f32⟩
  | 99 => ⟨S500000x64, .f32⟩
  | 100 => ⟨S500000x32, .f32⟩
  | 101 => ⟨S1x32, .f32⟩
  | 102 => ⟨S500000x32, .f32⟩
  | 103 => ⟨S500000x32, .f32⟩
  | 104 => ⟨S_, .f32⟩
  | 105 => ⟨S32, .f32⟩
  | 106 => ⟨S_, .f32⟩
  | 107 => ⟨S32, .f32⟩
  | 108 => ⟨S32, .f32⟩
  | 109 => ⟨S_, .i32⟩
  | 110 => ⟨S_, .f32⟩
  | 111 => ⟨S32, .f32⟩
  | 112 => ⟨S1x32, .f32⟩
  | 113 => ⟨S_, .f32⟩
  | 114 => ⟨S1x32, .f32⟩
  | 115 => ⟨S1x32, .f32⟩
  | 116 => ⟨S500000x32, .f32⟩
  | 117 => ⟨S500000x32, .f32⟩
  | 118 => ⟨S500000x32, .f32⟩
  | 119 => ⟨S_, .f32⟩
  | 120 => ⟨S_, .f32⟩
  | 121 => ⟨S_, .f32⟩
  | 122 => ⟨S_, .f32⟩
  | 123 => ⟨S32, .f32⟩
  | 124 => ⟨S32, .f32⟩
  | 125 => ⟨S32, .f32⟩
  | 126 => ⟨S_, .f32⟩
  | 127 => ⟨S_, .i1⟩
  | _ => ⟨S100000, .i32⟩

abbrev hbmTy0_3 (i : Nat) : BufTy := match i % 128 with
  | 0 => ⟨S_, .f32⟩
  | 1 => ⟨S_, .f32⟩
  | 2 => ⟨S32, .f32⟩
  | 3 => ⟨S32, .f32⟩
  | 4 => ⟨S1x32, .f32⟩
  | 5 => ⟨S500000x32, .f32⟩
  | 6 => ⟨S500000x32, .f32⟩
  | 7 => ⟨S1x32, .f32⟩
  | 8 => ⟨S500000x32, .f32⟩
  | 9 => ⟨S500000x32, .f32⟩
  | 10 => ⟨S_, .f32⟩
  | 11 => ⟨S32, .f32⟩
  | 12 => ⟨S32, .f32⟩
  | 13 => ⟨S32, .f32⟩
  | 14 => ⟨S1x32, .f32⟩
  | 15 => ⟨S500000x32, .f32⟩
  | 16 => ⟨S500000x32, .f32⟩
  | 17 => ⟨S1x32, .f32⟩
  | 18 => ⟨S500000x32, .f32⟩
  | 19 => ⟨S500000x32, .f32⟩
  | 20 => ⟨S_, .f32⟩
  | 21 => ⟨S500000x32, .f32⟩
  | 22 => ⟨S500000x32, .f32⟩
  | 23 => ⟨S500000x1, .f32⟩
  | 24 => ⟨S1x1, .f32⟩
  | 25 => ⟨S500000x1, .f32⟩
  | 26 => ⟨S500000x1, .f32⟩
  | 27 => ⟨S500000, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_1 : Ref sig .tc := ⟨.hbm, 42, rfl⟩
abbrev main_v13 : Ref sig .tc := ⟨.hbm, 43, rfl⟩
abbrev main_v14 : Ref sig .tc := ⟨.hbm, 44, rfl⟩
abbrev main_c_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_6 : Ref sig .tc := ⟨.hbm, 79, rfl⟩
abbrev main_v44 : Ref sig .tc := ⟨.hbm, 80, rfl⟩
abbrev main_v45 : Ref sig .tc := ⟨.hbm, 81, rfl⟩
abbrev main_c_7 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_8 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_9 : Ref sig .tc := ⟨.hbm, 92, rfl⟩
abbrev main_v54 : Ref sig .tc := ⟨.hbm, 93, rfl⟩
abbrev main_cst_10 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_11 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call0_cst : Ref sig .tc := ⟨.hbm, 110, rfl⟩
abbrev main_call0_v0 : Ref sig .tc := ⟨.hbm, 111, rfl⟩
abbrev main_v69 : Ref sig .tc := ⟨.hbm, 112, rfl⟩
abbrev main_call1_cst : Ref sig .tc := ⟨.hbm, 113, rfl⟩
abbrev main_call1_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_12 : Ref sig .tc := ⟨.hbm, 122, rfl⟩
abbrev main_v77 : Ref sig .tc := ⟨.hbm, 123, rfl⟩
abbrev main_v78 : Ref sig .tc := ⟨.hbm, 124, rfl⟩
abbrev main_c_13 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_14 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_15 : Ref sig .tc := ⟨.hbm, 135, rfl⟩
abbrev main_v87 : Ref sig .tc := ⟨.hbm, 136, rfl⟩
abbrev main_cst_16 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_17 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_18 : Ref sig .tc := ⟨.hbm, 159, rfl⟩
abbrev main_v108 : Ref sig .tc := ⟨.hbm, 160, rfl⟩
abbrev main_v109 : Ref sig .tc := ⟨.hbm, 161, rfl⟩
abbrev main_c_19 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_20 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_21 : Ref sig .tc := ⟨.hbm, 172, rfl⟩
abbrev main_v118 : Ref sig .tc := ⟨.hbm, 173, rfl⟩
abbrev main_cst_22 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_23 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_call2_cst : Ref sig .tc := ⟨.hbm, 190, rfl⟩
abbrev main_call2_v0 : Ref sig .tc := ⟨.hbm, 191, rfl⟩
abbrev main_v133 : Ref sig .tc := ⟨.hbm, 192, rfl⟩
abbrev main_call3_cst : Ref sig .tc := ⟨.hbm, 193, rfl⟩
abbrev main_call3_v0 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_c_24 : Ref sig .tc := ⟨.hbm, 202, rfl⟩
abbrev main_v141 : Ref sig .tc := ⟨.hbm, 203, rfl⟩
abbrev main_v142 : Ref sig .tc := ⟨.hbm, 204, rfl⟩
abbrev main_c_25 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_cst_26 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_cst_27 : Ref sig .tc := ⟨.hbm, 215, rfl⟩
abbrev main_v151 : Ref sig .tc := ⟨.hbm, 216, rfl⟩
abbrev main_cst_28 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_29 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_c_30 : Ref sig .tc := ⟨.hbm, 239, rfl⟩
abbrev main_v172 : Ref sig .tc := ⟨.hbm, 240, rfl⟩
abbrev main_v173 : Ref sig .tc := ⟨.hbm, 241, rfl⟩
abbrev main_c_31 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_cst_32 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_cst_33 : Ref sig .tc := ⟨.hbm, 252, rfl⟩
abbrev main_v182 : Ref sig .tc := ⟨.hbm, 253, rfl⟩
abbrev main_cst_34 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_cst_35 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_call4_cst : Ref sig .tc := ⟨.hbm, 270, rfl⟩
abbrev main_call4_v0 : Ref sig .tc := ⟨.hbm, 271, rfl⟩
abbrev main_v197 : Ref sig .tc := ⟨.hbm, 272, rfl⟩
abbrev main_call5_cst : Ref sig .tc := ⟨.hbm, 273, rfl⟩
abbrev main_call5_v0 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_c_36 : Ref sig .tc := ⟨.hbm, 286, rfl⟩
abbrev main_v209 : Ref sig .tc := ⟨.hbm, 287, rfl⟩
abbrev main_v210 : Ref sig .tc := ⟨.hbm, 288, rfl⟩
abbrev main_c_37 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_c_38 : Ref sig .tc := ⟨.hbm, 295, rfl⟩
abbrev main_v216 : Ref sig .tc := ⟨.hbm, 296, rfl⟩
abbrev main_v217 : Ref sig .tc := ⟨.hbm, 297, rfl⟩
abbrev main_c_39 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_cst_40 : Ref sig .tc := ⟨.hbm, 309, rfl⟩
abbrev main_v228 : Ref sig .tc := ⟨.hbm, 310, rfl⟩
abbrev main_cst_41 : Ref sig .tc := ⟨.hbm, 311, rfl⟩
abbrev main_v229 : Ref sig .tc := ⟨.hbm, 312, rfl⟩
abbrev main_v230 : Ref sig .tc := ⟨.hbm, 313, rfl⟩
abbrev main_c_42 : Ref sig .tc := ⟨.hbm, 314, rfl⟩
abbrev main_call6_cst : Ref sig .tc := ⟨.hbm, 315, rfl⟩
abbrev main_call6_v0 : Ref sig .tc := ⟨.hbm, 316, rfl⟩
abbrev main_call6_v1 : Ref sig .tc := ⟨.hbm, 317, rfl⟩
abbrev main_call6_cst_0 : Ref sig .tc := ⟨.hbm, 318, rfl⟩
abbrev main_call6_v2 : Ref sig .tc := ⟨.hbm, 319, rfl⟩
abbrev main_call6_v3 : Ref sig .tc := ⟨.hbm, 320, rfl⟩
abbrev main_call6_v4 : Ref sig .tc := ⟨.hbm, 321, rfl⟩
abbrev main_call6_v5 : Ref sig .tc := ⟨.hbm, 322, rfl⟩
abbrev main_call6_v6 : Ref sig .tc := ⟨.hbm, 323, rfl⟩
abbrev main_call6_v7 : Ref sig .tc := ⟨.hbm, 324, rfl⟩
abbrev main_call6_cst_1 : Ref sig .tc := ⟨.hbm, 325, rfl⟩
abbrev main_call6_v8 : Ref sig .tc := ⟨.hbm, 326, rfl⟩
abbrev main_call6_cst_2 : Ref sig .tc := ⟨.hbm, 327, rfl⟩
abbrev main_call6_v9 : Ref sig .tc := ⟨.hbm, 328, rfl⟩
abbrev main_call6_v10 : Ref sig .tc := ⟨.hbm, 329, rfl⟩
abbrev main_call6_v11 : Ref sig .tc := ⟨.hbm, 330, rfl⟩
abbrev main_call6_cst_3 : Ref sig .tc := ⟨.hbm, 331, rfl⟩
abbrev main_call6_v12 : Ref sig .tc := ⟨.hbm, 332, rfl⟩
abbrev main_call6_cst_4 : Ref sig .tc := ⟨.hbm, 333, rfl⟩
abbrev main_call6_call0_v0 : Ref sig .tc := ⟨.hbm, 334, rfl⟩
abbrev main_call6_call0_v1 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_cst_43 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_call7_cst : Ref sig .tc := ⟨.hbm, 353, rfl⟩
abbrev main_call7_v0 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_cst_44 : Ref sig .tc := ⟨.hbm, 360, rfl⟩
abbrev main_v252 : Ref sig .tc := ⟨.hbm, 361, rfl⟩
abbrev main_cst_45 : Ref sig .tc := ⟨.hbm, 362, rfl⟩
abbrev main_v253 : Ref sig .tc := ⟨.hbm, 363, rfl⟩
abbrev main_v254 : Ref sig .tc := ⟨.hbm, 364, rfl⟩
abbrev main_c_46 : Ref sig .tc := ⟨.hbm, 365, rfl⟩
abbrev main_call8_cst : Ref sig .tc := ⟨.hbm, 366, rfl⟩
abbrev main_call8_v0 : Ref sig .tc := ⟨.hbm, 367, rfl⟩
abbrev main_call8_v1 : Ref sig .tc := ⟨.hbm, 368, rfl⟩
abbrev main_call8_cst_0 : Ref sig .tc := ⟨.hbm, 369, rfl⟩
abbrev main_call8_v2 : Ref sig .tc := ⟨.hbm, 370, rfl⟩
abbrev main_call8_v3 : Ref sig .tc := ⟨.hbm, 371, rfl⟩
abbrev main_call8_v4 : Ref sig .tc := ⟨.hbm, 372, rfl⟩
abbrev main_call8_v5 : Ref sig .tc := ⟨.hbm, 373, rfl⟩
abbrev main_call8_v6 : Ref sig .tc := ⟨.hbm, 374, rfl⟩
abbrev main_call8_v7 : Ref sig .tc := ⟨.hbm, 375, rfl⟩
abbrev main_call8_cst_1 : Ref sig .tc := ⟨.hbm, 376, rfl⟩
abbrev main_call8_v8 : Ref sig .tc := ⟨.hbm, 377, rfl⟩
abbrev main_call8_cst_2 : Ref sig .tc := ⟨.hbm, 378, rfl⟩
abbrev main_call8_v9 : Ref sig .tc := ⟨.hbm, 379, rfl⟩
abbrev main_call8_v10 : Ref sig .tc := ⟨.hbm, 380, rfl⟩
abbrev main_call8_v11 : Ref sig .tc := ⟨.hbm, 381, rfl⟩
abbrev main_call8_cst_3 : Ref sig .tc := ⟨.hbm, 382, rfl⟩
abbrev main_call8_v12 : Ref sig .tc := ⟨.hbm, 383, rfl⟩
abbrev main_call8_cst_4 : Ref sig .tc := ⟨.hbm, 384, rfl⟩
abbrev main_call8_call0_v0 : Ref sig .tc := ⟨.hbm, 385, rfl⟩
abbrev main_call8_call0_v1 : Ref sig .tc := ⟨.hbm, 386, rfl⟩
abbrev main_v255 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_v260 : Ref sig .tc := ⟨.hbm, 392, rfl⟩
abbrev main_v261 : Ref sig .tc := ⟨.hbm, 393, rfl⟩
abbrev main_cst_47 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_v265 : Ref sig .tc := ⟨.hbm, 398, rfl⟩
abbrev main_v266 : Ref sig .tc := ⟨.hbm, 399, rfl⟩
abbrev main_v267 : Ref sig .tc := ⟨.hbm, 400, rfl⟩
abbrev main_v268 : Ref sig .tc := ⟨.hbm, 401, rfl⟩
abbrev main_v269 : Ref sig .tc := ⟨.hbm, 402, rfl⟩
abbrev main_v270 : Ref sig .tc := ⟨.hbm, 403, rfl⟩
abbrev main_call9_cst : Ref sig .tc := ⟨.hbm, 404, rfl⟩
abbrev main_call9_v0 : Ref sig .tc := ⟨.hbm, 405, rfl⟩
abbrev main_v271 : Ref sig .tc := ⟨.hbm, 406, rfl⟩
abbrev main_v272 : Ref sig .tc := ⟨.hbm, 407, rfl⟩
abbrev main_v273 : Ref sig .tc := ⟨.hbm, 408, rfl⟩
abbrev main_v274 : Ref sig .tc := ⟨.hbm, 409, rfl⟩
abbrev main_v275 : Ref sig .tc := ⟨.hbm, 410, rfl⟩
abbrev main_v276 : Ref sig .tc := ⟨.hbm, 411, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S100000x64_S100000x64_S100000x64_S100000x192_d1 : Shape.Concatenates [S100000x64, S100000x64, S100000x64] S100000x192 1
  concatenates_S20000x64_S20000x64_S20000x64_S20000x192_d1 : Shape.Concatenates [S20000x64, S20000x64, S20000x64] S20000x192 1
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  bcast_S1x64_S500000x64_0_1 : S1x64.BroadcastsInDim S500000x64 (![0, 1] : Fin 2 → Fin S500000x64.rank)
  reducesTo_S500000x64_S64_d0 : S500000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S500000x64 : S_.BroadcastsInDim S500000x64 (![] : Fin 0 → Fin S500000x64.rank)
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  reducesTo_S500000x32_S32_d0 : S500000x32.ReducesTo [0] S32
  bcast_S_S32 : S_.BroadcastsInDim S32 (![] : Fin 0 → Fin S32.rank)
  bcast_S_S1x32 : S_.BroadcastsInDim S1x32 (![] : Fin 0 → Fin S1x32.rank)
  bcast_S_S500000x32 : S_.BroadcastsInDim S500000x32 (![] : Fin 0 → Fin S500000x32.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x64_S100000x1_S100000x64_1_0_n_n_0_1_164_wf : GatherDims.WF S100000x64 S100000x1 S100000x64 [1] [0] [] [0] [] 1 ![1, 64]
  gather_S100000x64_S1000000x1_S1000000x64_1_0_n_n_0_1_164_wf : GatherDims.WF S100000x64 S1000000x1 S1000000x64 [1] [0] [] [0] [] 1 ![1, 64]
  scatter_S20000x64_S1000000x1_S1000000x64_1_0_0_1_wf : ScatterDims.WF S20000x64 S1000000x1 S1000000x64 [1] [0] [0] 1
  scatter_S20000_S1000000x1_S1000000_n_0_0_1_wf : ScatterDims.WF S20000 S1000000x1 S1000000 [] [0] [0] 1
  dot_S20000x64_S64x64_S20000x64_1_0_0_1_n_n_wf : DotDims.WF S20000x64 S64x64 S20000x64 [1] [0] [0] [1] [] []
  gather_S20000x64_S1000000x1_S1000000x64_1_0_n_n_0_1_164_wf : GatherDims.WF S20000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x192_S192x64_S100000x64_1_0_0_1_n_n_wf : DotDims.WF S100000x192 S192x64 S100000x64 [1] [0] [0] [1] [] []
  dot_S20000x192_S192x64_S20000x64_1_0_0_1_n_n_wf : DotDims.WF S20000x192 S192x64 S20000x64 [1] [0] [0] [1] [] []
  gather_S100000x64_S500000x1_S500000x64_1_0_n_n_0_1_164_wf : GatherDims.WF S100000x64 S500000x1 S500000x64 [1] [0] [] [0] [] 1 ![1, 64]
  gather_S20000x64_S500000x1_S500000x64_1_0_n_n_0_1_164_wf : GatherDims.WF S20000x64 S500000x1 S500000x64 [1] [0] [] [0] [] 1 ![1, 64]
  dot_S500000x128_S128x64_S500000x64_1_0_0_1_n_n_wf : DotDims.WF S500000x128 S128x64 S500000x64 [1] [0] [0] [1] [] []
  dot_S500000x64_S64x32_S500000x32_1_0_0_1_n_n_wf : DotDims.WF S500000x64 S64x32 S500000x32 [1] [0] [0] [1] [] []
  dot_S500000x32_S32x1_S500000x1_1_0_0_1_n_n_wf : DotDims.WF S500000x32 S32x1 S500000x1 [1] [0] [0] [1] [] []

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S20000x192_S192x64_S20000x64_1_0_0_1_n_n : DotDims S20000x192 S192x64 S20000x64 where
  lhsContracting := [1]
  rhsContracting := [0]
  lhsNonContracting := [0]
  rhsNonContracting := [1]
  lhsBatch := []
  rhsBatch := []
  wf := dot_S20000x192_S192x64_S20000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x32_S500000x32_1_0_0_1_n_n : DotDims S500000x64 S64x32 S500000x32 where
  lhsContracting := [1]
  rhsContracting := [0]
  lhsNonContracting := [0]
  rhsNonContracting := [1]
  lhsBatch := []
  rhsBatch := []
  wf := dot_S500000x64_S64x32_S500000x32_1_0_0_1_n_n_wf
def dot_S500000x32_S32x1_S500000x1_1_0_0_1_n_n : DotDims S500000x32 S32x1 S500000x1 where
  lhsContracting := [1]
  rhsContracting := [0]
  lhsNonContracting := [0]
  rhsNonContracting := [1]
  lhsBatch := []
  rhsBatch := []
  wf := dot_S500000x32_S32x1_S500000x1_1_0_0_1_n_n_wf

class Facts : Prop extends Facts₀ where

variable [Facts]
-- ==== Proof.K.R0.lean ====
/- Pipeline 0 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every grid point, whether or not the block was
    fetched there (where it was not, the block index has not moved since the fetch), for any proof data whose array
    is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: its current staging buffer holds its block at every grid point, whether or not the block was
    fetched there (where it was not, the block index has not moved since the fetch), for any proof data whose array
    is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: its current staging buffer holds its block at every grid point, whether or not the block was
    fetched there (where it was not, the block index has not moved since the fetch), for any proof data whose array
    is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: its current staging buffer holds its block at every grid point, whether or not the block was
    fetched there (where it was not, the block index has not moved since the fetch), for any proof data whose array
    is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: its current staging buffer holds its block at every grid point, whether or not the block was
    fetched there (where it was not, the block index has not moved since the fetch), for any proof data whose array
    is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each a whole buffer -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out0_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r0_0, k0_pay1 (View.ld x0 r0_0) (View.ld x1 r0_0) (View.ld x2 r0_1) (View.ld x4 r0_1) (View.ld x3 r0_2)⟩]

/-- The store's rectangle is the whole buffer, so it covers it. -/
theorem cover0_5 (p0 : Vec F S5000x64 .bf16) (y : S5000x64.Idx) :
    ∃ pc ∈ ([⟨r0_0, p0⟩] : List (View.Piece (Elt F) S5000x64 .bf16)), y ∈ pc.1.set :=
  View.cover_of_tiled [⟨r0_0, p0⟩] S5000x64.size (by rfl) y

/-! ## The body's triple -/

set_option maxHeartbeats 1000000 in
/-- The kernel body on whole staging buffers, the inputs' holding `x_w` and the output's anything, runs to the
    continuation with the inputs' as they were and the output's at `out0_5` of the inputs. -/
theorem sound_kernel0 (c : Dev nD) (E : Set ℕ) (i : grid0.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t`
    each input's buffer still at its block and the output's at `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- Pipeline 1 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every grid point, whether or not the block was
    fetched there (where it was not, the block index has not moved since the fetch), for any proof data whose array
    is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds its block at every grid point, whether or not the block was
    fetched there (where it was not, the block index has not moved since the fetch), for any proof data whose array
    is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds its block at every grid point, whether or not the block was
    fetched there (where it was not, the block index has not moved since the fetch), for any proof data whose array
    is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current staging buffer holds its block at every grid point, whether or not the block was
    fetched there (where it was not, the block index has not moved since the fetch), for any proof data whose array
    is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its current staging buffer holds its block at every grid point, whether or not the block was
    fetched there (where it was not, the block index has not moved since the fetch), for any proof data whose array
    is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each a whole buffer -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out1_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r1_0, k1_pay1 (View.ld x0 r1_0) (View.ld x1 r1_0) (View.ld x2 r1_1) (View.ld x4 r1_1) (View.ld x3 r1_2)⟩]

/-- The store's rectangle is the whole buffer, so it covers it. -/
theorem cover1_5 (p0 : Vec F S5000x64 .bf16) (y : S5000x64.Idx) :
    ∃ pc ∈ ([⟨r1_0, p0⟩] : List (View.Piece (Elt F) S5000x64 .bf16)), y ∈ pc.1.set :=
  View.cover_of_tiled [⟨r1_0, p0⟩] S5000x64.size (by rfl) y

/-! ## The body's triple -/

set_option maxHeartbeats 1000000 in
/-- The kernel body on whole staging buffers, the inputs' holding `x_w` and the output's anything, runs to the
    continuation with the inputs' as they were and the output's at `out1_5` of the inputs. -/
theorem sound_kernel1 (c : Dev nD) (E : Set ℕ) (i : grid1.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer still at its block and the output's at `out1_5` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- Pipeline 2 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: its current staging buffer holds its block at every grid point, whether or not the block was
    fetched there (where it was not, the block index has not moved since the fetch), for any proof data whose array
    is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: its current staging buffer holds its block at every grid point, whether or not the block was
    fetched there (where it was not, the block index has not moved since the fetch), for any proof data whose array
    is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: its current staging buffer holds its block at every grid point, whether or not the block was
    fetched there (where it was not, the block index has not moved since the fetch), for any proof data whose array
    is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: its current staging buffer holds its block at every grid point, whether or not the block was
    fetched there (where it was not, the block index has not moved since the fetch), for any proof data whose array
    is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: its current staging buffer holds its block at every grid point, whether or not the block was
    fetched there (where it was not, the block index has not moved since the fetch), for any proof data whose array
    is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each a whole buffer -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out2_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r2_0, k2_pay1 (View.ld x0 r2_0) (View.ld x1 r2_0) (View.ld x2 r2_1) (View.ld x4 r2_1) (View.ld x3 r2_2)⟩]

/-- The store's rectangle is the whole buffer, so it covers it. -/
theorem cover2_5 (p0 : Vec F S5000x64 .bf16) (y : S5000x64.Idx) :
    ∃ pc ∈ ([⟨r2_0, p0⟩] : List (View.Piece (Elt F) S5000x64 .bf16)), y ∈ pc.1.set :=
  View.cover_of_tiled [⟨r2_0, p0⟩] S5000x64.size (by rfl) y

/-! ## The body's triple -/

set_option maxHeartbeats 1000000 in
/-- The kernel body on whole staging buffers, the inputs' holding `x_w` and the output's anything, runs to the
    continuation with the inputs' as they were and the output's at `out2_5` of the inputs. -/
theorem sound_kernel2 (c : Dev nD) (E : Set ℕ) (i : grid2.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sage_linear_kernel i arg1 harg1 arg2 harg2 arg3 harg3 arg4 harg4 arg5 harg5 arg6 harg6) K := by
  simp only [cc2__sage_linear_kernel_eq_skeleton]; unfold cc2__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t`
    each input's buffer still at its block and the output's at `out2_5` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    the core's debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
/- Pipeline 3 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: its current staging buffer holds its block at every grid point, whether or not the block was
    fetched there (where it was not, the block index has not moved since the fetch), for any proof data whose array
    is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: its current staging buffer holds its block at every grid point, whether or not the block was
    fetched there (where it was not, the block index has not moved since the fetch), for any proof data whose array
    is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: its current staging buffer holds its block at every grid point, whether or not the block was
    fetched there (where it was not, the block index has not moved since the fetch), for any proof data whose array
    is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: its current staging buffer holds its block at every grid point, whether or not the block was
    fetched there (where it was not, the block index has not moved since the fetch), for any proof data whose array
    is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: its current staging buffer holds its block at every grid point, whether or not the block was
    fetched there (where it was not, the block index has not moved since the fetch), for any proof data whose array
    is the entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each a whole buffer -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out3_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r3_0, k3_pay1 (View.ld x0 r3_0) (View.ld x1 r3_0) (View.ld x2 r3_1) (View.ld x4 r3_1) (View.ld x3 r3_2)⟩]

/-- The store's rectangle is the whole buffer, so it covers it. -/
theorem cover3_5 (p0 : Vec F S5000x64 .bf16) (y : S5000x64.Idx) :
    ∃ pc ∈ ([⟨r3_0, p0⟩] : List (View.Piece (Elt F) S5000x64 .bf16)), y ∈ pc.1.set :=
  View.cover_of_tiled [⟨r3_0, p0⟩] S5000x64.size (by rfl) y

/-! ## The body's triple -/

set_option maxHeartbeats 1000000 in
/-- The kernel body on whole staging buffers, the inputs' holding `x_w` and the output's anything, runs to the
    continuation with the inputs' as they were and the output's at `out3_5` of the inputs. -/
theorem sound_kernel3 (c : Dev nD) (E : Set ℕ) (i : grid3.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__sage_linear_kernel i arg1 harg1 arg2 harg2 arg3 harg3 arg4 harg4 arg5 harg5 arg6 harg6) K := by
  simp only [cc3__sage_linear_kernel_eq_skeleton]; unfold cc3__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t`
    each input's buffer still at its block and the output's at `out3_5` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    the core's debts pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
/- Pipeline 4 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: its current staging buffer holds its block at every grid point, whether or not the block was
    fetched there (where it was not, the block index has not moved since the fetch), for any proof data whose array
    is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: its current staging buffer holds its block at every grid point, whether or not the block was
    fetched there (where it was not, the block index has not moved since the fetch), for any proof data whose array
    is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2: its current staging buffer holds its block at every grid point, whether or not the block was
    fetched there (where it was not, the block index has not moved since the fetch), for any proof data whose array
    is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3: its current staging buffer holds its block at every grid point, whether or not the block was
    fetched there (where it was not, the block index has not moved since the fetch), for any proof data whose array
    is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4: its current staging buffer holds its block at every grid point, whether or not the block was
    fetched there (where it was not, the block index has not moved since the fetch), for any proof data whose array
    is the entry contents and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: each a whole buffer -/

abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out4_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r4_0, k4_pay1 (View.ld x0 r4_0) (View.ld x1 r4_0) (View.ld x2 r4_1) (View.ld x4 r4_1) (View.ld x3 r4_2)⟩]

/-- The store's rectangle is the whole buffer, so it covers it. -/
theorem cover4_5 (p0 : Vec F S5000x64 .bf16) (y : S5000x64.Idx) :
    ∃ pc ∈ ([⟨r4_0, p0⟩] : List (View.Piece (Elt F) S5000x64 .bf16)), y ∈ pc.1.set :=
  View.cover_of_tiled [⟨r4_0, p0⟩] S5000x64.size (by rfl) y

/-! ## The body's triple -/

set_option maxHeartbeats 1000000 in
/-- The kernel body on whole staging buffers, the inputs' holding `x_w` and the output's anything, runs to the
    continuation with the inputs' as they were and the output's at `out4_5` of the inputs. -/
theorem sound_kernel4 (c : Dev nD) (E : Set ℕ) (i : grid4.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__sage_linear_kernel i arg1 harg1 arg2 harg2 arg3 harg3 arg4 harg4 arg5 harg5 arg6 harg6) K := by
  simp only [cc4__sage_linear_kernel_eq_skeleton]; unfold cc4__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them; after the body at point `t`
    each input's buffer still at its block and the output's at `out4_5` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and
    the core's debts pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
/- Pipeline 5 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: its current staging buffer holds its block at every grid point, whether or not the block was
    fetched there (where it was not, the block index has not moved since the fetch), for any proof data whose array
    is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: its current staging buffer holds its block at every grid point, whether or not the block was
    fetched there (where it was not, the block index has not moved since the fetch), for any proof data whose array
    is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: its current staging buffer holds its block at every grid point, whether or not the block was
    fetched there (where it was not, the block index has not moved since the fetch), for any proof data whose array
    is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: its current staging buffer holds its block at every grid point, whether or not the block was
    fetched there (where it was not, the block index has not moved since the fetch), for any proof data whose array
    is the entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4: its current staging buffer holds its block at every grid point, whether or not the block was
    fetched there (where it was not, the block index has not moved since the fetch), for any proof data whose array
    is the entry contents and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes: each a whole buffer -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out5_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r5_0, k5_pay1 (View.ld x0 r5_0) (View.ld x1 r5_0) (View.ld x2 r5_1) (View.ld x4 r5_1) (View.ld x3 r5_2)⟩]

/-- The store's rectangle is the whole buffer, so it covers it. -/
theorem cover5_5 (p0 : Vec F S5000x64 .bf16) (y : S5000x64.Idx) :
    ∃ pc ∈ ([⟨r5_0, p0⟩] : List (View.Piece (Elt F) S5000x64 .bf16)), y ∈ pc.1.set :=
  View.cover_of_tiled [⟨r5_0, p0⟩] S5000x64.size (by rfl) y

/-! ## The body's triple -/

set_option maxHeartbeats 1000000 in
/-- The kernel body on whole staging buffers, the inputs' holding `x_w` and the output's anything, runs to the
    continuation with the inputs' as they were and the output's at `out5_5` of the inputs. -/
theorem sound_kernel5 (c : Dev nD) (E : Set ℕ) (i : grid5.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__sage_linear_kernel i arg1 harg1 arg2 harg2 arg3 harg3 arg4 harg4 arg5 harg5 arg6 harg6) K := by
  simp only [cc5__sage_linear_kernel_eq_skeleton]; unfold cc5__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at point `t`
    each input's buffer still at its block and the output's at `out5_5` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    the core's debts pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
/- Pipeline 6 of @main — the projection of the three layers' features on one block of 5000 rows: each layer's
   block times its own 64×64 weight, the three products summed, plus the bias row, stored as the output window's whole
   block. This module gives the region's proof data at any entry contents `V`: every input window's buffer holds its
   block of `V` at every grid point (the weights and the bias are fetched once and never move), the output's buffer
   after the body is the body's one store, and the body obligation of the pipeline. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: its current staging buffer holds its block at every grid point, whether or not the block was
    fetched there (where it was not, the block index has not moved since the fetch), for any proof data whose array
    is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: its current staging buffer holds its block at every grid point, whether or not the block was
    fetched there (where it was not, the block index has not moved since the fetch), for any proof data whose array
    is the entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: its current staging buffer holds its block at every grid point, whether or not the block was
    fetched there (where it was not, the block index has not moved since the fetch), for any proof data whose array
    is the entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3: its current staging buffer holds its block at every grid point, whether or not the block was
    fetched there (where it was not, the block index has not moved since the fetch), for any proof data whose array
    is the entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4: its current staging buffer holds its block at every grid point, whether or not the block was
    fetched there (where it was not, the block index has not moved since the fetch), for any proof data whose array
    is the entry contents and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5: its current staging buffer holds its block at every grid point, whether or not the block was
    fetched there (where it was not, the block index has not moved since the fetch), for any proof data whose array
    is the entry contents and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6: its current staging buffer holds its block at every grid point, whether or not the block was
    fetched there (where it was not, the block index has not moved since the fetch), for any proof data whose array
    is the entry contents and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes: each a whole buffer -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0

/-! ## What the body leaves in the output window's buffer -/

/-- Window 7's staging buffer after the body, as a function of the input blocks: the body's one store, of the whole
    block, whose value is the skeleton's payload of the loaded input blocks. -/
def out6_7 (x0 : Vec F S5000x64 .bf16) (x1 : Vec F S5000x64 .bf16) (x2 : Vec F S5000x64 .bf16) (x3 : Vec F S64x64 .f32) (x4 : Vec F S64x64 .f32) (x5 : Vec F S64x64 .f32) (x6 : Vec F S1x64 .f32) : Vec F S5000x64 .bf16 :=
  View.canon [⟨r6_0, k6_pay1 (View.ld x0 r6_0) (View.ld x1 r6_0) (View.ld x2 r6_0) (View.ld x3 r6_1) (View.ld x4 r6_1) (View.ld x5 r6_1) (View.ld x6 r6_2)⟩]

/-- The store's rectangle is the whole buffer, so it covers it. -/
theorem cover6_7 (p0 : Vec F S5000x64 .bf16) (y : S5000x64.Idx) :
    ∃ pc ∈ ([⟨r6_0, p0⟩] : List (View.Piece (Elt F) S5000x64 .bf16)), y ∈ pc.1.set :=
  View.cover_of_tiled [⟨r6_0, p0⟩] S5000x64.size (by rfl) y

/-! ## The body's triple -/

set_option maxHeartbeats 1000000 in
/-- The kernel body on whole staging buffers, the inputs' holding `x_w` and the output's anything, runs to the
    continuation with the inputs' as they were and the output's at `out6_7` of the inputs. -/
theorem sound_kernel6 (c : Dev nD) (E : Set ℕ) (i : grid6.Coords) (arg1 : Memref sig .tc .vmem S5000x64 .bf16) (harg1 : arg1.IsWhole) (arg2 : Memref sig .tc .vmem S5000x64 .bf16) (harg2 : arg2.IsWhole) (arg3 : Memref sig .tc .vmem S5000x64 .bf16) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .bf16) (harg8 : arg8.IsWhole)
    (x0 : Vec F S5000x64 .bf16) (x1 : Vec F S5000x64 .bf16) (x2 : Vec F S5000x64 .bf16) (x3 : Vec F S64x64 .f32) (x4 : Vec F S64x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__proj3_kernel i arg1 harg1 arg2 harg2 arg3 harg3 arg4 harg4 arg5 harg5 arg6 harg6 arg7 harg7 arg8 harg8) K := by
  simp only [cc6__proj3_kernel_eq_skeleton]; unfold cc6__proj3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of pipeline 6 on core `c`: the arrays as the region finds them; after the body at point `t`
    each input's buffer still at its block and the output's at `out6_7` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' buffers hold their blocks, so the body's triple applies; the invariant and
    the core's debts pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
/- Pipeline 7 of @main — the projection of the three layers' features on one block of 5000 rows: each layer's
   block times its own 64×64 weight, the three products summed, plus the bias row, stored as the output window's whole
   block. This module gives the region's proof data at any entry contents `V`: every input window's buffer holds its
   block of `V` at every grid point (the weights and the bias are fetched once and never move), the output's buffer
   after the body is the body's one store, and the body obligation of the pipeline. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0: its current staging buffer holds its block at every grid point, whether or not the block was
    fetched there (where it was not, the block index has not moved since the fetch), for any proof data whose array
    is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1: its current staging buffer holds its block at every grid point, whether or not the block was
    fetched there (where it was not, the block index has not moved since the fetch), for any proof data whose array
    is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2: its current staging buffer holds its block at every grid point, whether or not the block was
    fetched there (where it was not, the block index has not moved since the fetch), for any proof data whose array
    is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3: its current staging buffer holds its block at every grid point, whether or not the block was
    fetched there (where it was not, the block index has not moved since the fetch), for any proof data whose array
    is the entry contents and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4: its current staging buffer holds its block at every grid point, whether or not the block was
    fetched there (where it was not, the block index has not moved since the fetch), for any proof data whose array
    is the entry contents and whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5: its current staging buffer holds its block at every grid point, whether or not the block was
    fetched there (where it was not, the block index has not moved since the fetch), for any proof data whose array
    is the entry contents and whose body leaves the block in place. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6: its current staging buffer holds its block at every grid point, whether or not the block was
    fetched there (where it was not, the block index has not moved since the fetch), for any proof data whose array
    is the entry contents and whose body leaves the block in place. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The rectangles the body reads and writes: each a whole buffer -/

abbrev r7_0 : Rect S5000x64 := Rect.unit (s := S5000x64) ![0, 0] S5000x64.size inb_S5000x64_S5000x64_0_0
abbrev r7_1 : Rect S64x64 := Rect.unit (s := S64x64) ![0, 0] S64x64.size inb_S64x64_S64x64_0_0
abbrev r7_2 : Rect S1x64 := Rect.unit (s := S1x64) ![0, 0] S1x64.size inb_S1x64_S1x64_0_0

/-! ## What the body leaves in the output window's buffer -/

/-- Window 7's staging buffer after the body, as a function of the input blocks: the body's one store, of the whole
    block, whose value is the skeleton's payload of the loaded input blocks. -/
def out7_7 (x0 : Vec F S5000x64 .bf16) (x1 : Vec F S5000x64 .bf16) (x2 : Vec F S5000x64 .bf16) (x3 : Vec F S64x64 .f32) (x4 : Vec F S64x64 .f32) (x5 : Vec F S64x64 .f32) (x6 : Vec F S1x64 .f32) : Vec F S5000x64 .bf16 :=
  View.canon [⟨r7_0, k7_pay1 (View.ld x0 r7_0) (View.ld x1 r7_0) (View.ld x2 r7_0) (View.ld x3 r7_1) (View.ld x4 r7_1) (View.ld x5 r7_1) (View.ld x6 r7_2)⟩]

/-- The store's rectangle is the whole buffer, so it covers it. -/
theorem cover7_7 (p0 : Vec F S5000x64 .bf16) (y : S5000x64.Idx) :
    ∃ pc ∈ ([⟨r7_0, p0⟩] : List (View.Piece (Elt F) S5000x64 .bf16)), y ∈ pc.1.set :=
  View.cover_of_tiled [⟨r7_0, p0⟩] S5000x64.size (by rfl) y

/-! ## The body's triple -/

set_option maxHeartbeats 1000000 in
/-- The kernel body on whole staging buffers, the inputs' holding `x_w` and the output's anything, runs to the
    continuation with the inputs' as they were and the output's at `out7_7` of the inputs. -/
theorem sound_kernel7 (c : Dev nD) (E : Set ℕ) (i : grid7.Coords) (arg1 : Memref sig .tc .vmem S5000x64 .bf16) (harg1 : arg1.IsWhole) (arg2 : Memref sig .tc .vmem S5000x64 .bf16) (harg2 : arg2.IsWhole) (arg3 : Memref sig .tc .vmem S5000x64 .bf16) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .bf16) (harg8 : arg8.IsWhole)
    (x0 : Vec F S5000x64 .bf16) (x1 : Vec F S5000x64 .bf16) (x2 : Vec F S5000x64 .bf16) (x3 : Vec F S64x64 .f32) (x4 : Vec F S64x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__proj3_kernel i arg1 harg1 arg2 harg2 arg3 harg3 arg4 harg4 arg5 harg5 arg6 harg6 arg7 harg7 arg8 harg8) K := by
  simp only [cc7__proj3_kernel_eq_skeleton]; unfold cc7__proj3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The pipeline's proof data -/

/-- The proof data of pipeline 7 on core `c`: the arrays as the region finds them; after the body at point `t`
    each input's buffer still at its block and the output's at `out7_7` of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so the body's triple applies; the invariant and
    the core's debts pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ (grid7.coords t) _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.RLib.lean ====
import Idealize.ShloMosaic.Lib.Pipeline.FrameBody
import Idealize.ShloMosaic.Lib.Pipeline.Frame
import Idealize.ShloMosaic.Lib.Tactic

noncomputable section

namespace Cert.Kernel.Hand

open Idealize.ShloMosaic Idealize.SL Idealize.SL.Sem

/-! # Whole-buffer accesses at rank two

A unit-stride rectangle from the origin whose extents are the shape's own is the whole shape: it indexes the
shape identically, a load through it reads the buffer's contents, and a store through it leaves its payload as
the buffer's contents, whatever was stored before. -/

section Whole

variable {sig : RefSig} {κ : Kind} {sp : Space} {d : Fin 2 → ℕ} {e : EltTy} {Val : EltTy → Type}

theorem unit00_emb (inb : ∀ a, (![0, 0] : Fin 2 → ℕ) a + d a ≤ (⟨2, d⟩ : Shape).size a)
    (x : (Rect.unit (s := ⟨2, d⟩) ![0, 0] d inb).shape.Idx) :
    (Rect.unit (s := ⟨2, d⟩) ![0, 0] d inb).emb x = x := by
  funext a; apply Fin.ext; rw [Rect.emb_apply]
  revert a; refine Fin.forall_fin_two.mpr ⟨?_, ?_⟩ <;> simp

theorem unit00_idx (inb : ∀ a, (![0, 0] : Fin 2 → ℕ) a + d a ≤ (⟨2, d⟩ : Shape).size a)
    (x : (Rect.unit (s := ⟨2, d⟩) ![0, 0] d inb).toLoadRect.shape.Idx) :
    (Rect.unit (s := ⟨2, d⟩) ![0, 0] d inb).toLoadRect.idx x = x :=
  unit00_emb inb x

/-- A store through the whole rectangle leaves its payload, whatever the earlier stores. -/
theorem read_writes_unit00 (v : View sig κ sp ⟨2, d⟩ e) (f : v.ty.Contents Val)
    (inb : ∀ a, (![0, 0] : Fin 2 → ℕ) a + d a ≤ (⟨2, d⟩ : Shape).size a)
    (w : (Rect.unit (s := ⟨2, d⟩) ![0, 0] d inb).shape.Idx → Val e) (L : List (View.Piece Val ⟨2, d⟩ e)) :
    v.read Val (v.writes Val f (⟨Rect.unit (s := ⟨2, d⟩) ![0, 0] d inb, w⟩ :: L)) = w := by
  funext y
  have h := View.read_writes_cons_emb (v := v) (f := f) (Rect.unit (s := ⟨2, d⟩) ![0, 0] d inb) w L y
  rw [unit00_emb inb y] at h; exact h

/-- A load through the whole rectangle reads the buffer's contents. -/
theorem readAt_unit00 (v : View sig κ sp ⟨2, d⟩ e) (f : v.ty.Contents Val)
    (inb : ∀ a, (![0, 0] : Fin 2 → ℕ) a + d a ≤ (⟨2, d⟩ : Shape).size a) :
    v.readAt Val (Rect.unit (s := ⟨2, d⟩) ![0, 0] d inb).toLoadRect f = v.read Val f := by
  funext x
  rw [View.readAt_apply, unit00_idx inb x]

/-- A load through the whole rectangle of a whole buffer holding `X` reads `X`. -/
theorem readAt_unread00 {m : Memref sig κ sp ⟨2, d⟩ e} (h : m.IsWhole) (X : (⟨2, d⟩ : Shape).Idx → Val e)
    (inb : ∀ a, (![0, 0] : Fin 2 → ℕ) a + d a ≤ (⟨2, d⟩ : Shape).size a) :
    m.view.readAt Val (Rect.unit (s := ⟨2, d⟩) ![0, 0] d inb).toLoadRect (h.unread X) = X :=
  (readAt_unit00 m.view _ inb).trans (h.read_unread X)

end Whole

end Cert.Kernel.Hand

end
-- ==== Proof.K.R8Run.lean ====
import proofs.«176278_j29592324669622_2_alg».proof.Proof.K.RLib
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the kernel body on any whole staging memrefs, case by case

The body's two conditionals are decided by the grid point alone: the first is taken at the first point (the two
accumulators are zeroed), the second at the last (the accumulators are copied to the two last output windows). -/

/-! ## The body's branch conditions -/

/-- The condition of the body's first conditional, from the grid coordinates. -/
abbrev cond8_1 (i : grid8.Coords) : Prop := (Scalar.cmpi .ne (Scalar.extui (Scalar.cmpi .eq (BitVec.ofNat 32 (i 0).val) 0#32)) 0#32) = 1#1
/-- It holds at the first point only. -/
theorem hcond8_1 : ∀ t : Fin cfg8.N, cond8_1 (grid8.coords t) ↔ t.val % 100 = 0 :=
  (by decide +kernel : ∀ t : Fin grid8.N, cond8_1 (grid8.coords t) ↔ t.val % 100 = 0)
/-- The condition of the body's second conditional. -/
abbrev cond8_2 (i : grid8.Coords) : Prop := k8_cond2 i = 1#1
/-- It holds at the last point only. -/
theorem hcond8_2 : ∀ t : Fin cfg8.N, cond8_2 (grid8.coords t) ↔ t.val % 100 = 99 :=
  (by decide +kernel : ∀ t : Fin grid8.N, cond8_2 (grid8.coords t) ↔ t.val % 100 = 99)

/-! ## The three runs -/

set_option maxHeartbeats 4000000 in
/-- The body at the first point: the accumulators, at anything, are zeroed first; then as at any point. -/
theorem run8_first (c : Dev nD) (E : Set ℕ) (i : grid8.Coords) (arg1 : Memref sig .tc .vmem S5000x64 .bf16) (harg1 : arg1.IsWhole) (arg2 : Memref sig .tc .vmem S5000x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : cond8_1 i) (hc2 : ¬cond8_2 i)
    (x0 x1 : Vec F S5000x64 .bf16) (w0 w1 : Vec F S64x64 .f32) (b : Vec F S1x64 .f32) (d6 d7 : Vec F S1x64 .f32) (K : PUnit → sProp 𝕄) :
    iprop(owns (c : Thread nD τ) arg1 fullShare x0 ∗ owns (c : Thread nD τ) arg2 fullShare x1 ∗ owns (c : Thread nD τ) arg3 fullShare w0
        ∗ owns (c : Thread nD τ) arg4 fullShare w1 ∗ owns (c : Thread nD τ) arg5 fullShare b ∗ (∃ d, owns (c : Thread nD τ) arg6 fullShare d)
        ∗ owns (c : Thread nD τ) arg7 fullShare d6 ∗ owns (c : Thread nD τ) arg8 fullShare d7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare w0
            ∗ owns (c : Thread nD τ) arg4 fullShare w1 ∗ owns (c : Thread nD τ) arg5 fullShare b
            ∗ owns (c : Thread nD τ) arg6 fullShare (k8_pay4 x0 x1 w0 w1 b)
            ∗ owns (c : Thread nD τ) arg7 fullShare (d6) ∗ owns (c : Thread nD τ) arg8 fullShare (d7)
            ∗ owns (c : Thread nD τ) arg9 fullShare (k8_pay5 x0 x1 w0 w1 b (k8_pay2 (F := F)))
            ∗ owns (c : Thread nD τ) arg10 fullShare (k8_pay1 (k8_pay3 (F := F)) (k8_pay6 x0 x1 w0 w1 b))) -∗ K ⟨⟩))
      ⊢ wp frame (wpE (defs₀ (F := F)) Variants.none c none) E (cc8__affine2_stats_kernel i arg1 harg1 arg2 harg2 arg3 harg3 arg4 harg4 arg5 harg5 arg6 harg6 arg7 harg7 arg8 harg8 arg9 harg9 arg10 harg10) K := by
  simp only [cc8__affine2_stats_kernel_eq_skeleton]; unfold cc8__affine2_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6', %f6, -, H6⟩, ⟨%f7, %hf7, H7⟩, ⟨%f8, %hf8, H8⟩, ⟨%d9', %f9, -, H9⟩, ⟨%d10', %f10, -, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg7.eq_unread hf7; obtain rfl := harg8.eq_unread hf8
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    swap; · iexact H6
    ipureintro
    refine (read_writes_unit00 _ _ _ _ _).trans ?_
    rw [readAt_unread00 harg1, readAt_unread00 harg2, readAt_unread00 harg3, readAt_unread00 harg4, readAt_unread00 harg5]
  isplitl [H7]
  · iexists _; isplitr
    · ipureintro; exact hf7
    · iexact H7
  isplitl [H8]
  · iexists _; isplitr
    · ipureintro; exact hf8
    · iexact H8
  isplitl [H9]
  · iexists _; isplitr
    swap; · iexact H9
    ipureintro
    refine (read_writes_unit00 _ _ _ _ _).trans ?_
    unfold run8_first.sl.v21
    rw [readAt_unread00 harg1, readAt_unread00 harg2, readAt_unread00 harg3, readAt_unread00 harg4, readAt_unread00 harg5]
    unfold run8_first.sl.H9_1
    exact congrArg (k8_pay5 x0 x1 w0 w1 b) (View.readCov_cons_toLoadRect _ _ _ _)
  iexists _; isplitr
  swap; · iexact H10
  ipureintro
  refine (read_writes_unit00 _ _ _ _ _).trans ?_
  unfold run8_first.sl.v28 run8_first.sl.r
  rw [readAt_unread00 harg1, readAt_unread00 harg2, readAt_unread00 harg3, readAt_unread00 harg4, readAt_unread00 harg5]
  unfold run8_first.sl.H10_1
  exact congrArg (fun s => k8_pay1 s (k8_pay6 x0 x1 w0 w1 b)) (View.readCov_cons_toLoadRect _ _ _ _)

set_option maxHeartbeats 4000000 in
/-- The body at a point that is neither the first nor the last: the image stored, each accumulator raised by the point's sums,
    the two last output windows untouched. -/
theorem run8_mid (c : Dev nD) (E : Set ℕ) (i : grid8.Coords) (arg1 : Memref sig .tc .vmem S5000x64 .bf16) (harg1 : arg1.IsWhole) (arg2 : Memref sig .tc .vmem S5000x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : ¬cond8_1 i) (hc2 : ¬cond8_2 i)
    (x0 x1 : Vec F S5000x64 .bf16) (w0 w1 : Vec F S64x64 .f32) (b : Vec F S1x64 .f32) (d6 d7 s0 s1 : Vec F S1x64 .f32) (K : PUnit → sProp 𝕄) :
    iprop(owns (c : Thread nD τ) arg1 fullShare x0 ∗ owns (c : Thread nD τ) arg2 fullShare x1 ∗ owns (c : Thread nD τ) arg3 fullShare w0
        ∗ owns (c : Thread nD τ) arg4 fullShare w1 ∗ owns (c : Thread nD τ) arg5 fullShare b ∗ (∃ d, owns (c : Thread nD τ) arg6 fullShare d)
        ∗ owns (c : Thread nD τ) arg7 fullShare d6 ∗ owns (c : Thread nD τ) arg8 fullShare d7
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare w0
            ∗ owns (c : Thread nD τ) arg4 fullShare w1 ∗ owns (c : Thread nD τ) arg5 fullShare b
            ∗ owns (c : Thread nD τ) arg6 fullShare (k8_pay4 x0 x1 w0 w1 b)
            ∗ owns (c : Thread nD τ) arg7 fullShare (d6) ∗ owns (c : Thread nD τ) arg8 fullShare (d7)
            ∗ owns (c : Thread nD τ) arg9 fullShare (k8_pay5 x0 x1 w0 w1 b s0)
            ∗ owns (c : Thread nD τ) arg10 fullShare (k8_pay1 s1 (k8_pay6 x0 x1 w0 w1 b))) -∗ K ⟨⟩))
      ⊢ wp frame (wpE (defs₀ (F := F)) Variants.none c none) E (cc8__affine2_stats_kernel i arg1 harg1 arg2 harg2 arg3 harg3 arg4 harg4 arg5 harg5 arg6 harg6 arg7 harg7 arg8 harg8 arg9 harg9 arg10 harg10) K := by
  simp only [cc8__affine2_stats_kernel_eq_skeleton]; unfold cc8__affine2_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6', %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg7.eq_unread hf7; obtain rfl := harg8.eq_unread hf8
  obtain rfl := harg9.eq_unread hf9; obtain rfl := harg10.eq_unread hf10
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    swap; · iexact H6
    ipureintro
    refine (read_writes_unit00 _ _ _ _ _).trans ?_
    rw [readAt_unread00 harg1, readAt_unread00 harg2, readAt_unread00 harg3, readAt_unread00 harg4, readAt_unread00 harg5]
  isplitl [H7]
  · iexists _; isplitr
    · ipureintro; exact hf7
    · iexact H7
  isplitl [H8]
  · iexists _; isplitr
    · ipureintro; exact hf8
    · iexact H8
  isplitl [H9]
  · iexists _; isplitr
    swap; · iexact H9
    ipureintro
    refine (read_writes_unit00 _ _ _ _ _).trans ?_
    rw [readAt_unread00 harg1, readAt_unread00 harg2, readAt_unread00 harg3, readAt_unread00 harg4, readAt_unread00 harg5, readAt_unread00 harg9]
  iexists _; isplitr
  swap; · iexact H10
  ipureintro
  refine (read_writes_unit00 _ _ _ _ _).trans ?_
  unfold run8_mid.sl.r run8_mid.sl.r_1
  rw [readAt_unread00 harg1, readAt_unread00 harg2, readAt_unread00 harg3, readAt_unread00 harg4, readAt_unread00 harg5, readAt_unread00 harg10]

set_option maxHeartbeats 4000000 in
/-- The body at the last point: as at a middle point, then each accumulator is copied into its output window. -/
theorem run8_last (c : Dev nD) (E : Set ℕ) (i : grid8.Coords) (arg1 : Memref sig .tc .vmem S5000x64 .bf16) (harg1 : arg1.IsWhole) (arg2 : Memref sig .tc .vmem S5000x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : ¬cond8_1 i) (hc2 : cond8_2 i)
    (x0 x1 : Vec F S5000x64 .bf16) (w0 w1 : Vec F S64x64 .f32) (b : Vec F S1x64 .f32) (s0 s1 : Vec F S1x64 .f32) (K : PUnit → sProp 𝕄) :
    iprop(owns (c : Thread nD τ) arg1 fullShare x0 ∗ owns (c : Thread nD τ) arg2 fullShare x1 ∗ owns (c : Thread nD τ) arg3 fullShare w0
        ∗ owns (c : Thread nD τ) arg4 fullShare w1 ∗ owns (c : Thread nD τ) arg5 fullShare b ∗ (∃ d, owns (c : Thread nD τ) arg6 fullShare d)
        ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare w0
            ∗ owns (c : Thread nD τ) arg4 fullShare w1 ∗ owns (c : Thread nD τ) arg5 fullShare b
            ∗ owns (c : Thread nD τ) arg6 fullShare (k8_pay4 x0 x1 w0 w1 b)
            ∗ owns (c : Thread nD τ) arg7 fullShare (k8_pay5 x0 x1 w0 w1 b s0) ∗ owns (c : Thread nD τ) arg8 fullShare (k8_pay1 s1 (k8_pay6 x0 x1 w0 w1 b))
            ∗ owns (c : Thread nD τ) arg9 fullShare (k8_pay5 x0 x1 w0 w1 b s0)
            ∗ owns (c : Thread nD τ) arg10 fullShare (k8_pay1 s1 (k8_pay6 x0 x1 w0 w1 b))) -∗ K ⟨⟩))
      ⊢ wp frame (wpE (defs₀ (F := F)) Variants.none c none) E (cc8__affine2_stats_kernel i arg1 harg1 arg2 harg2 arg3 harg3 arg4 harg4 arg5 harg5 arg6 harg6 arg7 harg7 arg8 harg8 arg9 harg9 arg10 harg10) K := by
  simp only [cc8__affine2_stats_kernel_eq_skeleton]; unfold cc8__affine2_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6', %f6, -, H6⟩, ⟨%d7', %f7, -, H7⟩, ⟨%d8', %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    swap; · iexact H6
    ipureintro
    refine (read_writes_unit00 _ _ _ _ _).trans ?_
    rw [readAt_unread00 harg1, readAt_unread00 harg2, readAt_unread00 harg3, readAt_unread00 harg4, readAt_unread00 harg5]
  isplitl [H7]
  · iexists _; isplitr
    swap; · iexact H7
    ipureintro
    refine (read_writes_unit00 _ _ _ _ _).trans ?_
    unfold run8_last.sl.v39 run8_last.sl.H9_1
    refine (View.readCov_cons_toLoadRect _ _ _ _).trans ?_
    rw [readAt_unread00 harg1, readAt_unread00 harg2, readAt_unread00 harg3, readAt_unread00 harg4, readAt_unread00 harg5, readAt_unread00 harg9]
  isplitl [H8]
  · iexists _; isplitr
    swap; · iexact H8
    ipureintro
    refine (read_writes_unit00 _ _ _ _ _).trans ?_
    unfold run8_last.sl.v41 run8_last.sl.H10_1
    refine (View.readCov_cons_toLoadRect _ _ _ _).trans ?_
    unfold run8_last.sl.r run8_last.sl.r_1
    rw [readAt_unread00 harg1, readAt_unread00 harg2, readAt_unread00 harg3, readAt_unread00 harg4, readAt_unread00 harg5, readAt_unread00 harg10]
  isplitl [H9]
  · iexists _; isplitr
    swap; · iexact H9
    ipureintro
    unfold run8_last.sl.H9_1
    refine (read_writes_unit00 _ _ _ _ _).trans ?_
    rw [readAt_unread00 harg1, readAt_unread00 harg2, readAt_unread00 harg3, readAt_unread00 harg4, readAt_unread00 harg5, readAt_unread00 harg9]
  iexists _; isplitr
  swap; · iexact H10
  ipureintro
  unfold run8_last.sl.H10_1
  refine (read_writes_unit00 _ _ _ _ _).trans ?_
  unfold run8_last.sl.r run8_last.sl.r_1
  rw [readAt_unread00 harg1, readAt_unread00 harg2, readAt_unread00 harg3, readAt_unread00 harg4, readAt_unread00 harg5, readAt_unread00 harg10]

end Cert.Kernel.Hand

end
-- ==== Proof.K.R8.lean ====
import proofs.«176278_j29592324669622_2_alg».proof.Proof.K.R8Run
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the affine map of two inputs with running column sums -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The affine image of the two input blocks at point `t`: what the body stores into output window 5. -/
def acc8 (c : Dev nD) (t : Fin cfg8.N) : Vec F S5000x64 .f32 :=
  k8_pay4 (iblk8 V c 0 t) (iblk8 V c 1 t) (iblk8 V c 2 t) (iblk8 V c 3 t) (iblk8 V c 4 t)

/-- The first accumulator after a point, from its contents `s` before: `s` plus the column sums of the point's image. -/
def sum8 (c : Dev nD) (t : Fin cfg8.N) (s : Vec F S1x64 .f32) : Vec F S1x64 .f32 :=
  k8_pay5 (iblk8 V c 0 t) (iblk8 V c 1 t) (iblk8 V c 2 t) (iblk8 V c 3 t) (iblk8 V c 4 t) s

/-- The second accumulator after a point, from its contents `s` before: `s` plus the column sums of the squared image. -/
def sq8 (c : Dev nD) (t : Fin cfg8.N) (s : Vec F S1x64 .f32) : Vec F S1x64 .f32 :=
  k8_pay1 s (k8_pay6 (iblk8 V c 0 t) (iblk8 V c 1 t) (iblk8 V c 2 t) (iblk8 V c 3 t) (iblk8 V c 4 t))

/-- The two accumulators after the body at point `n`: zeroed at the first point, then each point adds its sums. -/
def sc8 (c : Dev nD) : (n : ℕ) → n < cfg8.N → Vec F S1x64 .f32 × Vec F S1x64 .f32
  | 0, hn => (sum8 V c ⟨0, hn⟩ (k8_pay2 (F := F)), sq8 V c ⟨0, hn⟩ (k8_pay3 (F := F)))
  | n + 1, hn => (sum8 V c ⟨n + 1, hn⟩ (sc8 c n (Nat.lt_of_succ_lt hn)).1, sq8 V c ⟨n + 1, hn⟩ (sc8 c n (Nat.lt_of_succ_lt hn)).2)

theorem sc8_zero (c : Dev nD) (t : Fin cfg8.N) (h : t.val = 0) :
    sc8 V c t.val t.isLt = (sum8 V c t (k8_pay2 (F := F)), sq8 V c t (k8_pay3 (F := F))) := by
  obtain ⟨n, hn⟩ := t
  cases n with
  | zero => rfl
  | succ n => exact absurd h (Nat.succ_ne_zero n)

theorem sc8_pos (c : Dev nD) (t : Fin cfg8.N) (h : t.val ≠ 0) :
    sc8 V c t.val t.isLt = (sum8 V c t (sc8 V c (t.val - 1) (Nat.lt_of_le_of_lt (Nat.sub_le _ _) t.isLt)).1,
      sq8 V c t (sc8 V c (t.val - 1) (Nat.lt_of_le_of_lt (Nat.sub_le _ _) t.isLt)).2) := by
  obtain ⟨n, hn⟩ := t
  cases n with
  | zero => exact absurd rfl h
  | succ n => rfl

/-- The two scratch operands as memrefs. -/
abbrev scM8_0 : Memref sig .tc .vmem S1x64 .f32 := Memref.whole cc8_scratch0
abbrev scM8_1 : Memref sig .tc .vmem S1x64 .f32 := Memref.whole cc8_scratch1

/-- The region's invariant before position `n`. Before the first point it holds the generator register and every scoped
    buffer that no window stages, each at some contents; afterwards it holds the two accumulators at what the point before
    left in them, and the other such buffers at some contents. -/
def Phi8 (c : Dev nD) : (n : ℕ) → n ≤ cfg8.N → sProp 𝕄
  | 0, _ => iprop((∃ r, prngReg c r) ∗ Pipeline.scopedRest spec8 c)
  | n + 1, hn => iprop((∃ r, prngReg c r) ∗ owns (c : Thread nD τ) scM8_0 fullShare (sc8 V c n hn).1
      ∗ owns (c : Thread nD τ) scM8_1 fullShare (sc8 V c n hn).2
      ∗ Pipeline.scopedRestBut spec8 c [cc8_scratch0, cc8_scratch1])

/-- The proof data of pipeline 8 on core `c`. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => acc8 V c t
    | ⟨6, _⟩ => (sc8 V c t.val t.isLt).1
    | ⟨7, _⟩ => (sc8 V c t.val t.isLt).2
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem Phi8_zero (c : Dev nD) (n : ℕ) (h : n ≤ cfg8.N) (hz : n = 0) :
    Phi8 V c n h = iprop((∃ r, prngReg c r) ∗ Pipeline.scopedRest spec8 c) := by
  subst hz; rfl

theorem Phi8_succ (c : Dev nD) (n : ℕ) (hn : n < cfg8.N) :
    Phi8 V c (n + 1) hn = iprop((∃ r, prngReg c r) ∗ owns (c : Thread nD τ) scM8_0 fullShare (sc8 V c n hn).1
      ∗ owns (c : Thread nD τ) scM8_1 fullShare (sc8 V c n hn).2
      ∗ Pipeline.scopedRestBut spec8 c [cc8_scratch0, cc8_scratch1]) := rfl

theorem Phi8_pos (c : Dev nD) (n : ℕ) (h : n ≤ cfg8.N) (hz : n ≠ 0) :
    Phi8 V c n h = iprop((∃ r, prngReg c r) ∗ owns (c : Thread nD τ) scM8_0 fullShare (sc8 V c (n - 1) (by omega)).1
      ∗ owns (c : Thread nD τ) scM8_1 fullShare (sc8 V c (n - 1) (by omega)).2
      ∗ Pipeline.scopedRestBut spec8 c [cc8_scratch0, cc8_scratch1]) := by
  cases n with
  | zero => exact absurd rfl hz
  | succ n => rfl

theorem Phi8_castSucc (c : Dev nD) (t : Fin cfg8.N) :
    (dat8 V c).Φ t.castSucc = Phi8 V c t.val (Nat.le_of_lt t.isLt) := by
  dsimp only [dat8]; simp only [Fin.coe_castSucc]

/-- The scoped buffers no window stages, with the two accumulators as memrefs owned at some contents. -/
theorem scopedRest8_owns (c : Dev nD) :
    (Pipeline.scopedRest spec8 c : sProp 𝕄)
      = iprop(iprop((∃ d, owns (c : Thread nD τ) scM8_0 fullShare d) ∗ (∃ d, owns (c : Thread nD τ) scM8_1 fullShare d))
          ∗ Pipeline.scopedRestBut spec8 c [cc8_scratch0, cc8_scratch1]) := by
  rw [scopedRest8_split]; simp only [scM8_0, scM8_1, owns_whole]; try rfl

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = acc8 V c t := by dsimp only [dat8]
theorem after8_6 (c : Dev nD) (t : Fin cfg8.N) : (dat8 V c).after 6 t = (sc8 V c t.val t.isLt).1 := by dsimp only [dat8]
theorem after8_7 (c : Dev nD) (t : Fin cfg8.N) : (dat8 V c).after 7 t = (sc8 V c t.val t.isLt).2 := by dsimp only [dat8]

/-- Input window 0's current staging buffer holds its block at every point, fetched there or not. -/
theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
/-- Input window 1's current staging buffer holds its block at every point, fetched there or not. -/
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)
/-- Input window 2's current staging buffer holds its block at every point, fetched there or not. -/
theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)
/-- Input window 3's current staging buffer holds its block at every point, fetched there or not. -/
theorem before8_3 (c : Dev nD) (t : Fin cfg8.N) (d) : (dat8 V c).before 3 t d = iblk8 V c 3 t :=
  ((dat8 V c).before_in_eq_fetched 3 rfl (fun _ => rfl) (fun _ _ _ => rfl) (fun t => by rw [after8_3]; unfold Dat.blockOf iblk8; rw [A_eq8]; try rfl) t d).trans
    (by unfold Dat.fetched Dat.blockOf iblk8; rw [A_eq8]; try rfl)
/-- Input window 4's current staging buffer holds its block at every point, fetched there or not. -/
theorem before8_4 (c : Dev nD) (t : Fin cfg8.N) (d) : (dat8 V c).before 4 t d = iblk8 V c 4 t :=
  ((dat8 V c).before_in_eq_fetched 4 rfl (fun _ => rfl) (fun _ _ _ => rfl) (fun t => by rw [after8_4]; unfold Dat.blockOf iblk8; rw [A_eq8]; try rfl) t d).trans
    (by unfold Dat.fetched Dat.blockOf iblk8; rw [A_eq8]; try rfl)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
theorem liveAt8_4 : ∀ t : Fin cfg8.N, cfg8.idle 4 (grid8.coords t) = false := by decide +kernel
theorem liveAt8_5 : ∀ t : Fin cfg8.N, cfg8.idle 5 (grid8.coords t) = false := by decide +kernel
theorem idleAt8_6 : ∀ t : Fin cfg8.N, ¬cond8_2 (grid8.coords t) → cfg8.idle 6 (grid8.coords t) = true := by decide +kernel
theorem noFlush8_6 : ∀ t : Fin cfg8.N, ¬cond8_2 (grid8.coords t) → (cfg8.win 6).flush t = false := by decide +kernel
theorem liveAt8_6 : ∀ t : Fin cfg8.N, cond8_2 (grid8.coords t) → cfg8.idle 6 (grid8.coords t) = false := by decide +kernel
theorem idleAt8_7 : ∀ t : Fin cfg8.N, ¬cond8_2 (grid8.coords t) → cfg8.idle 7 (grid8.coords t) = true := by decide +kernel
theorem noFlush8_7 : ∀ t : Fin cfg8.N, ¬cond8_2 (grid8.coords t) → (cfg8.win 7).flush t = false := by decide +kernel
theorem liveAt8_7 : ∀ t : Fin cfg8.N, cond8_2 (grid8.coords t) → cfg8.idle 7 (grid8.coords t) = false := by decide +kernel

/-! ## The body obligation -/

abbrev ms8_0 (t : Fin cfg8.N) := win8_0.stage (cfg8.slots t 0)
abbrev ms8_1 (t : Fin cfg8.N) := win8_1.stage (cfg8.slots t 1)
abbrev ms8_2 (t : Fin cfg8.N) := win8_2.stage (cfg8.slots t 2)
abbrev ms8_3 (t : Fin cfg8.N) := win8_3.stage (cfg8.slots t 3)
abbrev ms8_4 (t : Fin cfg8.N) := win8_4.stage (cfg8.slots t 4)
abbrev ms8_5 (t : Fin cfg8.N) := win8_5.stage (cfg8.slots t 5)
abbrev ms8_6 (t : Fin cfg8.N) := win8_6.stage (cfg8.slots t 6)
abbrev ms8_7 (t : Fin cfg8.N) := win8_7.stage (cfg8.slots t 7)

/-- What the body is called with at point `t`, the windows one by one. -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

/-- What the body returns at point `t`. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
/-- The body at any point: the inputs' memrefs hold their blocks; the point decides the case; the invariant hands the body the
    two accumulators at what the point before left (at anything at the first point) and takes them back at this point's contents. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = Phi8 V c (t.val + 1) t.isLt from rfl, Phi8_succ]
  have hN : t.val < 100 := lt_of_lt_of_eq t.isLt (show cfg8.N = 100 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5 t], after8_5]
  unfold acc8
  by_cases h1 : t.val % 100 = 0
  · have hc1 : cond8_1 (grid8.coords t) := (hcond8_1 t).mpr h1
    have hc2 : ¬cond8_2 (grid8.coords t) := fun h => by have := (hcond8_2 t).mp h; omega
    have hz : t.val = 0 := by omega
    rw [Dat.leavesExact_idle (dat8 V c) 6 t (idleAt8_6 t hc2) (noFlush8_6 t hc2),
      Dat.leavesExact_idle (dat8 V c) 7 t (idleAt8_7 t hc2) (noFlush8_7 t hc2)]
    rw [sc8_zero V c t hz]
    unfold sum8 sq8; (try dsimp only)
    rw [Phi8_castSucc, Phi8_zero V c _ _ hz, scopedRest8_owns]
    iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run8_first c Set.univ (grid8.coords t) _ _ _ _ _ _ _ _ _ _ _ _ _ _ _ _ _ _ _ _ hc1 hc2 (iblk8 V c 0 t) (iblk8 V c 1 t) (iblk8 V c 2 t) (iblk8 V c 3 t) (iblk8 V c 4 t) ((dat8 V c).before 6 t d6) ((dat8 V c).before 7 t d7) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [Hg HS0 HS1 Hrest]
    · isplitl [Hg]; · iexact Hg
      isplitl [HS0]; · iexact HS0
      isplitl [HS1]; · iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc1 : ¬cond8_1 (grid8.coords t) := fun h => h1 ((hcond8_1 t).mp h)
    have hz : t.val ≠ 0 := by omega
    rw [sc8_pos V c t hz]
    unfold sum8 sq8; (try dsimp only)
    rw [Phi8_castSucc, Phi8_pos V c _ _ hz]
    by_cases h2 : t.val % 100 = 99
    · have hc2 : cond8_2 (grid8.coords t) := (hcond8_2 t).mpr h2
      rw [show (dat8 V c).leavesExact 6 t = owns (c : Thread nD τ) (ms8_6 t) fullShare ((dat8 V c).after 6 t) from by
        unfold Dat.leavesExact; rw [liveAt8_6 t hc2], after8_6]
      rw [show (dat8 V c).leavesExact 7 t = owns (c : Thread nD τ) (ms8_7 t) fullShare ((dat8 V c).after 7 t) from by
        unfold Dat.leavesExact; rw [liveAt8_7 t hc2], after8_7]
      rw [sc8_pos V c t hz]
      unfold sum8 sq8; (try dsimp only)
      iintro ⟨⟨Hg, HS0, HS1, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run8_last c Set.univ (grid8.coords t) _ _ _ _ _ _ _ _ _ _ _ _ _ _ _ _ _ _ _ _ hc1 hc2 (iblk8 V c 0 t) (iblk8 V c 1 t) (iblk8 V c 2 t) (iblk8 V c 3 t) (iblk8 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [Hg HS0 HS1 Hrest]
      · isplitl [Hg]; · iexact Hg
        isplitl [HS0]; · iexact HS0
        isplitl [HS1]; · iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc2 : ¬cond8_2 (grid8.coords t) := fun h => h2 ((hcond8_2 t).mp h)
      rw [Dat.leavesExact_idle (dat8 V c) 6 t (idleAt8_6 t hc2) (noFlush8_6 t hc2),
        Dat.leavesExact_idle (dat8 V c) 7 t (idleAt8_7 t hc2) (noFlush8_7 t hc2)]
      iintro ⟨⟨Hg, HS0, HS1, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run8_mid c Set.univ (grid8.coords t) _ _ _ _ _ _ _ _ _ _ _ _ _ _ _ _ _ _ _ _ hc1 hc2 (iblk8 V c 0 t) (iblk8 V c 1 t) (iblk8 V c 2 t) (iblk8 V c 3 t) (iblk8 V c 4 t) ((dat8 V c).before 6 t d6) ((dat8 V c).before 7 t d7) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [Hg HS0 HS1 Hrest]
      · isplitl [Hg]; · iexact Hg
        isplitl [HS0]; · iexact HS0
        isplitl [HS1]; · iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point: the table share (nothing is prefetched) is dropped. -/
theorem hin8 (c : Dev nD) (T : (pcfgs (F := F) 8).pre.Contents (Elt F)) :
    iprop((∃ r, prngReg c r) ∗ Pipeline.prefHeld (pcfgs (F := F) 8).pre c (fun _ => fullShare) T ∗ Pipeline.scopedRest spec8 c) ⊢ (dat8 V c).Φ 0 := by
  rw [show (dat8 V c).Φ 0 = Phi8 V c 0 (Nat.zero_le _) from rfl, Phi8_zero V c 0 _ rfl]
  iintro ⟨Hp, -, Hr⟩
  isplitl [Hp]; · iexact Hp
  iexact Hr

/-- After the last point the invariant gives the scoped buffers back: the accumulators' named contents are forgotten. -/
theorem hout8 (c : Dev nD) :
    (dat8 V c).Φ (Fin.last _) ⊢ iprop((∃ r, prngReg c r) ∗ Pipeline.ownSems0 (fun k : PEmpty => k.elim) c ∗ Pipeline.scopedRest spec8 c) := by
  rw [Pipeline.ownSems0_none, show (dat8 V c).Φ (Fin.last _) = Phi8 V c (Fin.last cfg8.N).val (Nat.le_of_lt_succ (Fin.last cfg8.N).isLt) from rfl,
    Phi8_pos V c _ _ (by rw [Fin.val_last]; have : cfg8.N = 100 := N_8; omega), scopedRest8_owns]
  iintro ⟨Hp, H0, H1, Hr⟩
  isplitl [Hp]; · iexact Hp
  isplitr; · iempintro
  isplitl [H0 H1]
  · isplitl [H0]; · iexists _; iexact H0
    iexists _; iexact H1
  iexact Hr

end Cert.Kernel.Hand

end
-- ==== Proof.K.R9Run.lean ====
import proofs.«176278_j29592324669622_2_alg».proof.Proof.K.RLib
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: the kernel body on any whole staging memrefs, case by case

The body's two conditionals are decided by the grid point alone: the first is taken at the first point (the two
accumulators are zeroed), the second at the last (the accumulators are copied to the two last output windows). -/

/-! ## The body's branch conditions -/

/-- The condition of the body's first conditional, from the grid coordinates. -/
abbrev cond9_1 (i : grid9.Coords) : Prop := (Scalar.cmpi .ne (Scalar.extui (Scalar.cmpi .eq (BitVec.ofNat 32 (i 0).val) 0#32)) 0#32) = 1#1
/-- It holds at the first point only. -/
theorem hcond9_1 : ∀ t : Fin cfg9.N, cond9_1 (grid9.coords t) ↔ t.val % 100 = 0 :=
  (by decide +kernel : ∀ t : Fin grid9.N, cond9_1 (grid9.coords t) ↔ t.val % 100 = 0)
/-- The condition of the body's second conditional. -/
abbrev cond9_2 (i : grid9.Coords) : Prop := k9_cond2 i = 1#1
/-- It holds at the last point only. -/
theorem hcond9_2 : ∀ t : Fin cfg9.N, cond9_2 (grid9.coords t) ↔ t.val % 100 = 99 :=
  (by decide +kernel : ∀ t : Fin grid9.N, cond9_2 (grid9.coords t) ↔ t.val % 100 = 99)

/-! ## The three runs -/

set_option maxHeartbeats 4000000 in
/-- The body at the first point: the accumulators, at anything, are zeroed first; then as at any point. -/
theorem run9_first (c : Dev nD) (E : Set ℕ) (i : grid9.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole)
    (hc1 : cond9_1 i) (hc2 : ¬cond9_2 i)
    (x0 : Vec F S5000x64 .f32) (g bt mu vr : Vec F S1x64 .f32) (w : Vec F S64x32 .f32) (b : Vec F S1x32 .f32) (d8 d9 : Vec F S1x32 .f32) (K : PUnit → sProp 𝕄) :
    iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
        ∗ (∃ d, owns (c : Thread nD τ) arg8 fullShare d) ∗ owns (c : Thread nD τ) arg9 fullShare d8 ∗ owns (c : Thread nD τ) arg10 fullShare d9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
            ∗ owns (c : Thread nD τ) arg8 fullShare (k9_pay5 x0 g bt mu vr w b) ∗ owns (c : Thread nD τ) arg9 fullShare (d8) ∗ owns (c : Thread nD τ) arg10 fullShare (d9)
            ∗ owns (c : Thread nD τ) arg11 fullShare (k9_pay1 (k9_pay5 x0 g bt mu vr w b) (k9_pay3 (F := F))) ∗ owns (c : Thread nD τ) arg12 fullShare (k9_pay2 (k9_pay5 x0 g bt mu vr w b) (k9_pay4 (F := F)))) -∗ K ⟨⟩))
      ⊢ wp frame (wpE (defs₀ (F := F)) Variants.none c none) E (cc9__bn_relu_affine_stats_kernel i arg1 harg1 arg2 harg2 arg3 harg3 arg4 harg4 arg5 harg5 arg6 harg6 arg7 harg7 arg8 harg8 arg9 harg9 arg10 harg10 arg11 harg11 arg12 harg12) K := by
  simp only [cc9__bn_relu_affine_stats_kernel_eq_skeleton]; unfold cc9__bn_relu_affine_stats_kernel_skel
  simp only [k9_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8', %f8, -, H8⟩, ⟨%f9, %hf9, H9⟩, ⟨%f10, %hf10, H10⟩, ⟨%d11', %f11, -, H11⟩, ⟨%d12', %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg9.eq_unread hf9; obtain rfl := harg10.eq_unread hf10
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    swap; · iexact H8
    ipureintro
    refine (read_writes_unit00 _ _ _ _ _).trans ?_
    rw [readAt_unread00 harg1, readAt_unread00 harg2, readAt_unread00 harg3, readAt_unread00 harg4, readAt_unread00 harg5, readAt_unread00 harg6, readAt_unread00 harg7]
  isplitl [H9]
  · iexists _; isplitr
    · ipureintro; exact hf9
    · iexact H9
  isplitl [H10]
  · iexists _; isplitr
    · ipureintro; exact hf10
    · iexact H10
  isplitl [H11]
  · iexists _; isplitr
    swap; · iexact H11
    ipureintro
    refine (read_writes_unit00 _ _ _ _ _).trans ?_
    unfold run9_first.sl.r run9_first.sl.v35 run9_first.sl.H11_1
    rw [readAt_unread00 harg1, readAt_unread00 harg2, readAt_unread00 harg3, readAt_unread00 harg4, readAt_unread00 harg5, readAt_unread00 harg6, readAt_unread00 harg7]
    exact congrArg (k9_pay1 (k9_pay5 x0 g bt mu vr w b)) (View.readCov_cons_toLoadRect _ _ _ _)
  iexists _; isplitr
  swap; · iexact H12
  ipureintro
  refine (read_writes_unit00 _ _ _ _ _).trans ?_
  unfold run9_first.sl.r run9_first.sl.v42 run9_first.sl.H12_1
  rw [readAt_unread00 harg1, readAt_unread00 harg2, readAt_unread00 harg3, readAt_unread00 harg4, readAt_unread00 harg5, readAt_unread00 harg6, readAt_unread00 harg7]
  exact congrArg (k9_pay2 (k9_pay5 x0 g bt mu vr w b)) (View.readCov_cons_toLoadRect _ _ _ _)

set_option maxHeartbeats 4000000 in
/-- The body at a point that is neither the first nor the last: the image stored, each accumulator raised by the point's sums,
    the two last output windows untouched. -/
theorem run9_mid (c : Dev nD) (E : Set ℕ) (i : grid9.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole)
    (hc1 : ¬cond9_1 i) (hc2 : ¬cond9_2 i)
    (x0 : Vec F S5000x64 .f32) (g bt mu vr : Vec F S1x64 .f32) (w : Vec F S64x32 .f32) (b : Vec F S1x32 .f32) (d8 d9 s0 s1 : Vec F S1x32 .f32) (K : PUnit → sProp 𝕄) :
    iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
        ∗ (∃ d, owns (c : Thread nD τ) arg8 fullShare d) ∗ owns (c : Thread nD τ) arg9 fullShare d8 ∗ owns (c : Thread nD τ) arg10 fullShare d9 ∗ owns (c : Thread nD τ) arg11 fullShare s0 ∗ owns (c : Thread nD τ) arg12 fullShare s1
        ∗ (iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
            ∗ owns (c : Thread nD τ) arg8 fullShare (k9_pay5 x0 g bt mu vr w b) ∗ owns (c : Thread nD τ) arg9 fullShare (d8) ∗ owns (c : Thread nD τ) arg10 fullShare (d9)
            ∗ owns (c : Thread nD τ) arg11 fullShare (k9_pay1 (k9_pay5 x0 g bt mu vr w b) s0) ∗ owns (c : Thread nD τ) arg12 fullShare (k9_pay2 (k9_pay5 x0 g bt mu vr w b) s1)) -∗ K ⟨⟩))
      ⊢ wp frame (wpE (defs₀ (F := F)) Variants.none c none) E (cc9__bn_relu_affine_stats_kernel i arg1 harg1 arg2 harg2 arg3 harg3 arg4 harg4 arg5 harg5 arg6 harg6 arg7 harg7 arg8 harg8 arg9 harg9 arg10 harg10 arg11 harg11 arg12 harg12) K := by
  simp only [cc9__bn_relu_affine_stats_kernel_eq_skeleton]; unfold cc9__bn_relu_affine_stats_kernel_skel
  simp only [k9_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8', %f8, -, H8⟩, ⟨%f9, %hf9, H9⟩, ⟨%f10, %hf10, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg9.eq_unread hf9; obtain rfl := harg10.eq_unread hf10; obtain rfl := harg11.eq_unread hf11; obtain rfl := harg12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    swap; · iexact H8
    ipureintro
    refine (read_writes_unit00 _ _ _ _ _).trans ?_
    rw [readAt_unread00 harg1, readAt_unread00 harg2, readAt_unread00 harg3, readAt_unread00 harg4, readAt_unread00 harg5, readAt_unread00 harg6, readAt_unread00 harg7]
  isplitl [H9]
  · iexists _; isplitr
    · ipureintro; exact hf9
    · iexact H9
  isplitl [H10]
  · iexists _; isplitr
    · ipureintro; exact hf10
    · iexact H10
  isplitl [H11]
  · iexists _; isplitr
    swap; · iexact H11
    ipureintro
    refine (read_writes_unit00 _ _ _ _ _).trans ?_
    unfold run9_mid.sl.r
    rw [readAt_unread00 harg1, readAt_unread00 harg2, readAt_unread00 harg3, readAt_unread00 harg4, readAt_unread00 harg5, readAt_unread00 harg6, readAt_unread00 harg7, readAt_unread00 harg11]
  iexists _; isplitr
  swap; · iexact H12
  ipureintro
  refine (read_writes_unit00 _ _ _ _ _).trans ?_
  unfold run9_mid.sl.r
  rw [readAt_unread00 harg1, readAt_unread00 harg2, readAt_unread00 harg3, readAt_unread00 harg4, readAt_unread00 harg5, readAt_unread00 harg6, readAt_unread00 harg7, readAt_unread00 harg12]

set_option maxHeartbeats 4000000 in
/-- The body at the last point: as at a middle point, then each accumulator is copied into its output window. -/
theorem run9_last (c : Dev nD) (E : Set ℕ) (i : grid9.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole)
    (hc1 : ¬cond9_1 i) (hc2 : cond9_2 i)
    (x0 : Vec F S5000x64 .f32) (g bt mu vr : Vec F S1x64 .f32) (w : Vec F S64x32 .f32) (b : Vec F S1x32 .f32) (s0 s1 : Vec F S1x32 .f32) (K : PUnit → sProp 𝕄) :
    iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s0 ∗ owns (c : Thread nD τ) arg12 fullShare s1
        ∗ (iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
            ∗ owns (c : Thread nD τ) arg8 fullShare (k9_pay5 x0 g bt mu vr w b) ∗ owns (c : Thread nD τ) arg9 fullShare (k9_pay1 (k9_pay5 x0 g bt mu vr w b) s0) ∗ owns (c : Thread nD τ) arg10 fullShare (k9_pay2 (k9_pay5 x0 g bt mu vr w b) s1)
            ∗ owns (c : Thread nD τ) arg11 fullShare (k9_pay1 (k9_pay5 x0 g bt mu vr w b) s0) ∗ owns (c : Thread nD τ) arg12 fullShare (k9_pay2 (k9_pay5 x0 g bt mu vr w b) s1)) -∗ K ⟨⟩))
      ⊢ wp frame (wpE (defs₀ (F := F)) Variants.none c none) E (cc9__bn_relu_affine_stats_kernel i arg1 harg1 arg2 harg2 arg3 harg3 arg4 harg4 arg5 harg5 arg6 harg6 arg7 harg7 arg8 harg8 arg9 harg9 arg10 harg10 arg11 harg11 arg12 harg12) K := by
  simp only [cc9__bn_relu_affine_stats_kernel_eq_skeleton]; unfold cc9__bn_relu_affine_stats_kernel_skel
  simp only [k9_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8', %f8, -, H8⟩, ⟨%d9', %f9, -, H9⟩, ⟨%d10', %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    swap; · iexact H8
    ipureintro
    refine (read_writes_unit00 _ _ _ _ _).trans ?_
    rw [readAt_unread00 harg1, readAt_unread00 harg2, readAt_unread00 harg3, readAt_unread00 harg4, readAt_unread00 harg5, readAt_unread00 harg6, readAt_unread00 harg7]
  isplitl [H9]
  · iexists _; isplitr
    swap; · iexact H9
    ipureintro
    refine (read_writes_unit00 _ _ _ _ _).trans ?_
    unfold run9_last.sl.v53 run9_last.sl.H11_1
    refine (View.readCov_cons_toLoadRect _ _ _ _).trans ?_
    unfold run9_last.sl.r
    rw [readAt_unread00 harg1, readAt_unread00 harg2, readAt_unread00 harg3, readAt_unread00 harg4, readAt_unread00 harg5, readAt_unread00 harg6, readAt_unread00 harg7, readAt_unread00 harg11]
  isplitl [H10]
  · iexists _; isplitr
    swap; · iexact H10
    ipureintro
    refine (read_writes_unit00 _ _ _ _ _).trans ?_
    unfold run9_last.sl.v55 run9_last.sl.H12_1
    refine (View.readCov_cons_toLoadRect _ _ _ _).trans ?_
    unfold run9_last.sl.r
    rw [readAt_unread00 harg1, readAt_unread00 harg2, readAt_unread00 harg3, readAt_unread00 harg4, readAt_unread00 harg5, readAt_unread00 harg6, readAt_unread00 harg7, readAt_unread00 harg12]
  isplitl [H11]
  · iexists _; isplitr
    swap; · iexact H11
    ipureintro
    unfold run9_last.sl.H11_1
    refine (read_writes_unit00 _ _ _ _ _).trans ?_
    unfold run9_last.sl.r
    rw [readAt_unread00 harg1, readAt_unread00 harg2, readAt_unread00 harg3, readAt_unread00 harg4, readAt_unread00 harg5, readAt_unread00 harg6, readAt_unread00 harg7, readAt_unread00 harg11]
  iexists _; isplitr
  swap; · iexact H12
  ipureintro
  unfold run9_last.sl.H12_1
  refine (read_writes_unit00 _ _ _ _ _).trans ?_
  unfold run9_last.sl.r
  rw [readAt_unread00 harg1, readAt_unread00 harg2, readAt_unread00 harg3, readAt_unread00 harg4, readAt_unread00 harg5, readAt_unread00 harg6, readAt_unread00 harg7, readAt_unread00 harg12]

end Cert.Kernel.Hand

end
-- ==== Proof.K.R9.lean ====
import proofs.«176278_j29592324669622_2_alg».proof.Proof.K.R9Run
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: normalization, rectifier and affine map with running column sums -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The image of the input block at point `t`: what the body stores into output window 7. -/
def acc9 (c : Dev nD) (t : Fin cfg9.N) : Vec F S5000x32 .f32 :=
  k9_pay5 (iblk9 V c 0 t) (iblk9 V c 1 t) (iblk9 V c 2 t) (iblk9 V c 3 t) (iblk9 V c 4 t) (iblk9 V c 5 t) (iblk9 V c 6 t)

/-- The first accumulator after a point, from its contents `s` before: `s` plus the column sums of the point's image. -/
def sum9 (c : Dev nD) (t : Fin cfg9.N) (s : Vec F S1x32 .f32) : Vec F S1x32 .f32 :=
  k9_pay1 (k9_pay5 (iblk9 V c 0 t) (iblk9 V c 1 t) (iblk9 V c 2 t) (iblk9 V c 3 t) (iblk9 V c 4 t) (iblk9 V c 5 t) (iblk9 V c 6 t)) s

/-- The second accumulator after a point, from its contents `s` before: `s` plus the column sums of the squared image. -/
def sq9 (c : Dev nD) (t : Fin cfg9.N) (s : Vec F S1x32 .f32) : Vec F S1x32 .f32 :=
  k9_pay2 (k9_pay5 (iblk9 V c 0 t) (iblk9 V c 1 t) (iblk9 V c 2 t) (iblk9 V c 3 t) (iblk9 V c 4 t) (iblk9 V c 5 t) (iblk9 V c 6 t)) s

/-- The two accumulators after the body at point `n`: zeroed at the first point, then each point adds its sums. -/
def sc9 (c : Dev nD) : (n : ℕ) → n < cfg9.N → Vec F S1x32 .f32 × Vec F S1x32 .f32
  | 0, hn => (sum9 V c ⟨0, hn⟩ (k9_pay3 (F := F)), sq9 V c ⟨0, hn⟩ (k9_pay4 (F := F)))
  | n + 1, hn => (sum9 V c ⟨n + 1, hn⟩ (sc9 c n (Nat.lt_of_succ_lt hn)).1, sq9 V c ⟨n + 1, hn⟩ (sc9 c n (Nat.lt_of_succ_lt hn)).2)

theorem sc9_zero (c : Dev nD) (t : Fin cfg9.N) (h : t.val = 0) :
    sc9 V c t.val t.isLt = (sum9 V c t (k9_pay3 (F := F)), sq9 V c t (k9_pay4 (F := F))) := by
  obtain ⟨n, hn⟩ := t
  cases n with
  | zero => rfl
  | succ n => exact absurd h (Nat.succ_ne_zero n)

theorem sc9_pos (c : Dev nD) (t : Fin cfg9.N) (h : t.val ≠ 0) :
    sc9 V c t.val t.isLt = (sum9 V c t (sc9 V c (t.val - 1) (Nat.lt_of_le_of_lt (Nat.sub_le _ _) t.isLt)).1,
      sq9 V c t (sc9 V c (t.val - 1) (Nat.lt_of_le_of_lt (Nat.sub_le _ _) t.isLt)).2) := by
  obtain ⟨n, hn⟩ := t
  cases n with
  | zero => exact absurd rfl h
  | succ n => rfl

/-- The two scratch operands as memrefs. -/
abbrev scM9_0 : Memref sig .tc .vmem S1x32 .f32 := Memref.whole cc9_scratch0
abbrev scM9_1 : Memref sig .tc .vmem S1x32 .f32 := Memref.whole cc9_scratch1

/-- The region's invariant before position `n`. Before the first point it holds the generator register and every scoped
    buffer that no window stages, each at some contents; afterwards it holds the two accumulators at what the point before
    left in them, and the other such buffers at some contents. -/
def Phi9 (c : Dev nD) : (n : ℕ) → n ≤ cfg9.N → sProp 𝕄
  | 0, _ => iprop((∃ r, prngReg c r) ∗ Pipeline.scopedRest spec9 c)
  | n + 1, hn => iprop((∃ r, prngReg c r) ∗ owns (c : Thread nD τ) scM9_0 fullShare (sc9 V c n hn).1
      ∗ owns (c : Thread nD τ) scM9_1 fullShare (sc9 V c n hn).2
      ∗ Pipeline.scopedRestBut spec9 c [cc9_scratch0, cc9_scratch1])

/-- The proof data of pipeline 9 on core `c`. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => acc9 V c t
    | ⟨8, _⟩ => (sc9 V c t.val t.isLt).1
    | ⟨9, _⟩ => (sc9 V c t.val t.isLt).2
  Φ t := Phi9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem Phi9_zero (c : Dev nD) (n : ℕ) (h : n ≤ cfg9.N) (hz : n = 0) :
    Phi9 V c n h = iprop((∃ r, prngReg c r) ∗ Pipeline.scopedRest spec9 c) := by
  subst hz; rfl

theorem Phi9_succ (c : Dev nD) (n : ℕ) (hn : n < cfg9.N) :
    Phi9 V c (n + 1) hn = iprop((∃ r, prngReg c r) ∗ owns (c : Thread nD τ) scM9_0 fullShare (sc9 V c n hn).1
      ∗ owns (c : Thread nD τ) scM9_1 fullShare (sc9 V c n hn).2
      ∗ Pipeline.scopedRestBut spec9 c [cc9_scratch0, cc9_scratch1]) := rfl

theorem Phi9_pos (c : Dev nD) (n : ℕ) (h : n ≤ cfg9.N) (hz : n ≠ 0) :
    Phi9 V c n h = iprop((∃ r, prngReg c r) ∗ owns (c : Thread nD τ) scM9_0 fullShare (sc9 V c (n - 1) (by omega)).1
      ∗ owns (c : Thread nD τ) scM9_1 fullShare (sc9 V c (n - 1) (by omega)).2
      ∗ Pipeline.scopedRestBut spec9 c [cc9_scratch0, cc9_scratch1]) := by
  cases n with
  | zero => exact absurd rfl hz
  | succ n => rfl

theorem Phi9_castSucc (c : Dev nD) (t : Fin cfg9.N) :
    (dat9 V c).Φ t.castSucc = Phi9 V c t.val (Nat.le_of_lt t.isLt) := by
  dsimp only [dat9]; simp only [Fin.coe_castSucc]

/-- The scoped buffers no window stages, with the two accumulators as memrefs owned at some contents. -/
theorem scopedRest9_owns (c : Dev nD) :
    (Pipeline.scopedRest spec9 c : sProp 𝕄)
      = iprop(iprop((∃ d, owns (c : Thread nD τ) scM9_0 fullShare d) ∗ (∃ d, owns (c : Thread nD τ) scM9_1 fullShare d))
          ∗ Pipeline.scopedRestBut spec9 c [cc9_scratch0, cc9_scratch1]) := by
  rw [scopedRest9_split]; simp only [scM9_0, scM9_1, owns_whole]; try rfl

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = acc9 V c t := by dsimp only [dat9]
theorem after9_8 (c : Dev nD) (t : Fin cfg9.N) : (dat9 V c).after 8 t = (sc9 V c t.val t.isLt).1 := by dsimp only [dat9]
theorem after9_9 (c : Dev nD) (t : Fin cfg9.N) : (dat9 V c).after 9 t = (sc9 V c t.val t.isLt).2 := by dsimp only [dat9]

/-- Input window 0's current staging buffer holds its block at every point, fetched there or not. -/
theorem before9_0 (c : Dev nD) (t : Fin cfg9.N) (d) : (dat9 V c).before 0 t d = iblk9 V c 0 t :=
  ((dat9 V c).before_in_eq_fetched 0 rfl (fun _ => rfl) (fun _ _ _ => rfl) (fun t => by rw [after9_0]; unfold Dat.blockOf iblk9; rw [A_eq9]; try rfl) t d).trans
    (by unfold Dat.fetched Dat.blockOf iblk9; rw [A_eq9]; try rfl)
/-- Input window 1's current staging buffer holds its block at every point, fetched there or not. -/
theorem before9_1 (c : Dev nD) (t : Fin cfg9.N) (d) : (dat9 V c).before 1 t d = iblk9 V c 1 t :=
  ((dat9 V c).before_in_eq_fetched 1 rfl (fun _ => rfl) (fun _ _ _ => rfl) (fun t => by rw [after9_1]; unfold Dat.blockOf iblk9; rw [A_eq9]; try rfl) t d).trans
    (by unfold Dat.fetched Dat.blockOf iblk9; rw [A_eq9]; try rfl)
/-- Input window 2's current staging buffer holds its block at every point, fetched there or not. -/
theorem before9_2 (c : Dev nD) (t : Fin cfg9.N) (d) : (dat9 V c).before 2 t d = iblk9 V c 2 t :=
  ((dat9 V c).before_in_eq_fetched 2 rfl (fun _ => rfl) (fun _ _ _ => rfl) (fun t => by rw [after9_2]; unfold Dat.blockOf iblk9; rw [A_eq9]; try rfl) t d).trans
    (by unfold Dat.fetched Dat.blockOf iblk9; rw [A_eq9]; try rfl)
/-- Input window 3's current staging buffer holds its block at every point, fetched there or not. -/
theorem before9_3 (c : Dev nD) (t : Fin cfg9.N) (d) : (dat9 V c).before 3 t d = iblk9 V c 3 t :=
  ((dat9 V c).before_in_eq_fetched 3 rfl (fun _ => rfl) (fun _ _ _ => rfl) (fun t => by rw [after9_3]; unfold Dat.blockOf iblk9; rw [A_eq9]; try rfl) t d).trans
    (by unfold Dat.fetched Dat.blockOf iblk9; rw [A_eq9]; try rfl)
/-- Input window 4's current staging buffer holds its block at every point, fetched there or not. -/
theorem before9_4 (c : Dev nD) (t : Fin cfg9.N) (d) : (dat9 V c).before 4 t d = iblk9 V c 4 t :=
  ((dat9 V c).before_in_eq_fetched 4 rfl (fun _ => rfl) (fun _ _ _ => rfl) (fun t => by rw [after9_4]; unfold Dat.blockOf iblk9; rw [A_eq9]; try rfl) t d).trans
    (by unfold Dat.fetched Dat.blockOf iblk9; rw [A_eq9]; try rfl)
/-- Input window 5's current staging buffer holds its block at every point, fetched there or not. -/
theorem before9_5 (c : Dev nD) (t : Fin cfg9.N) (d) : (dat9 V c).before 5 t d = iblk9 V c 5 t :=
  ((dat9 V c).before_in_eq_fetched 5 rfl (fun _ => rfl) (fun _ _ _ => rfl) (fun t => by rw [after9_5]; unfold Dat.blockOf iblk9; rw [A_eq9]; try rfl) t d).trans
    (by unfold Dat.fetched Dat.blockOf iblk9; rw [A_eq9]; try rfl)
/-- Input window 6's current staging buffer holds its block at every point, fetched there or not. -/
theorem before9_6 (c : Dev nD) (t : Fin cfg9.N) (d) : (dat9 V c).before 6 t d = iblk9 V c 6 t :=
  ((dat9 V c).before_in_eq_fetched 6 rfl (fun _ => rfl) (fun _ _ _ => rfl) (fun t => by rw [after9_6]; unfold Dat.blockOf iblk9; rw [A_eq9]; try rfl) t d).trans
    (by unfold Dat.fetched Dat.blockOf iblk9; rw [A_eq9]; try rfl)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
theorem liveAt9_4 : ∀ t : Fin cfg9.N, cfg9.idle 4 (grid9.coords t) = false := by decide +kernel
theorem liveAt9_5 : ∀ t : Fin cfg9.N, cfg9.idle 5 (grid9.coords t) = false := by decide +kernel
theorem liveAt9_6 : ∀ t : Fin cfg9.N, cfg9.idle 6 (grid9.coords t) = false := by decide +kernel
theorem liveAt9_7 : ∀ t : Fin cfg9.N, cfg9.idle 7 (grid9.coords t) = false := by decide +kernel
theorem idleAt9_8 : ∀ t : Fin cfg9.N, ¬cond9_2 (grid9.coords t) → cfg9.idle 8 (grid9.coords t) = true := by decide +kernel
theorem noFlush9_8 : ∀ t : Fin cfg9.N, ¬cond9_2 (grid9.coords t) → (cfg9.win 8).flush t = false := by decide +kernel
theorem liveAt9_8 : ∀ t : Fin cfg9.N, cond9_2 (grid9.coords t) → cfg9.idle 8 (grid9.coords t) = false := by decide +kernel
theorem idleAt9_9 : ∀ t : Fin cfg9.N, ¬cond9_2 (grid9.coords t) → cfg9.idle 9 (grid9.coords t) = true := by decide +kernel
theorem noFlush9_9 : ∀ t : Fin cfg9.N, ¬cond9_2 (grid9.coords t) → (cfg9.win 9).flush t = false := by decide +kernel
theorem liveAt9_9 : ∀ t : Fin cfg9.N, cond9_2 (grid9.coords t) → cfg9.idle 9 (grid9.coords t) = false := by decide +kernel

/-! ## The body obligation -/

abbrev ms9_0 (t : Fin cfg9.N) := win9_0.stage (cfg9.slots t 0)
abbrev ms9_1 (t : Fin cfg9.N) := win9_1.stage (cfg9.slots t 1)
abbrev ms9_2 (t : Fin cfg9.N) := win9_2.stage (cfg9.slots t 2)
abbrev ms9_3 (t : Fin cfg9.N) := win9_3.stage (cfg9.slots t 3)
abbrev ms9_4 (t : Fin cfg9.N) := win9_4.stage (cfg9.slots t 4)
abbrev ms9_5 (t : Fin cfg9.N) := win9_5.stage (cfg9.slots t 5)
abbrev ms9_6 (t : Fin cfg9.N) := win9_6.stage (cfg9.slots t 6)
abbrev ms9_7 (t : Fin cfg9.N) := win9_7.stage (cfg9.slots t 7)
abbrev ms9_8 (t : Fin cfg9.N) := win9_8.stage (cfg9.slots t 8)
abbrev ms9_9 (t : Fin cfg9.N) := win9_9.stage (cfg9.slots t 9)

/-- What the body is called with at point `t`, the windows one by one. -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d))
    ∗ (∃ d, owns (c : Thread nD τ) (ms9_7 t) fullShare ((dat9 V c).before 7 t d))
    ∗ (∃ d, owns (c : Thread nD τ) (ms9_8 t) fullShare ((dat9 V c).before 8 t d))
    ∗ (∃ d, owns (c : Thread nD τ) (ms9_9 t) fullShare ((dat9 V c).before 9 t d)))

/-- What the body returns at point `t`. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t
    ∗ (dat9 V c).leavesExact 7 t
    ∗ (dat9 V c).leavesExact 8 t
    ∗ (dat9 V c).leavesExact 9 t)

set_option maxHeartbeats 4800000 in
/-- The body at any point: the inputs' memrefs hold their blocks; the point decides the case; the invariant hands the body the
    two accumulators at what the point before left (at anything at the first point) and takes them back at this point's contents. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).owesAt () t.succ = (dat9 V c).owesAt () t.castSucc from rfl]
  rw [show (dat9 V c).Φ t.succ = Phi9 V c (t.val + 1) t.isLt from rfl, Phi9_succ]
  have hN : t.val < 100 := lt_of_lt_of_eq t.isLt (show cfg9.N = 100 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  rw [show (dat9 V c).leavesExact 4 t = owns (c : Thread nD τ) (ms9_4 t) fullShare ((dat9 V c).after 4 t) from by
    unfold Dat.leavesExact; rw [liveAt9_4 t], after9_4]
  rw [show (dat9 V c).leavesExact 5 t = owns (c : Thread nD τ) (ms9_5 t) fullShare ((dat9 V c).after 5 t) from by
    unfold Dat.leavesExact; rw [liveAt9_5 t], after9_5]
  rw [show (dat9 V c).leavesExact 6 t = owns (c : Thread nD τ) (ms9_6 t) fullShare ((dat9 V c).after 6 t) from by
    unfold Dat.leavesExact; rw [liveAt9_6 t], after9_6]
  rw [show (dat9 V c).leavesExact 7 t = owns (c : Thread nD τ) (ms9_7 t) fullShare ((dat9 V c).after 7 t) from by
    unfold Dat.leavesExact; rw [liveAt9_7 t], after9_7]
  unfold acc9
  by_cases h1 : t.val % 100 = 0
  · have hc1 : cond9_1 (grid9.coords t) := (hcond9_1 t).mpr h1
    have hc2 : ¬cond9_2 (grid9.coords t) := fun h => by have := (hcond9_2 t).mp h; omega
    have hz : t.val = 0 := by omega
    rw [Dat.leavesExact_idle (dat9 V c) 8 t (idleAt9_8 t hc2) (noFlush9_8 t hc2),
      Dat.leavesExact_idle (dat9 V c) 9 t (idleAt9_9 t hc2) (noFlush9_9 t hc2)]
    rw [sc9_zero V c t hz]
    unfold sum9 sq9; (try dsimp only)
    rw [Phi9_castSucc, Phi9_zero V c _ _ hz, scopedRest9_owns]
    iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run9_first c Set.univ (grid9.coords t) _ _ _ _ _ _ _ _ _ _ _ _ _ _ _ _ _ _ _ _ _ _ _ _ hc1 hc2 (iblk9 V c 0 t) (iblk9 V c 1 t) (iblk9 V c 2 t) (iblk9 V c 3 t) (iblk9 V c 4 t) (iblk9 V c 5 t) (iblk9 V c 6 t) ((dat9 V c).before 8 t d8) ((dat9 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [Hg HS0 HS1 Hrest]
    · isplitl [Hg]; · iexact Hg
      isplitl [HS0]; · iexact HS0
      isplitl [HS1]; · iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · have hc1 : ¬cond9_1 (grid9.coords t) := fun h => h1 ((hcond9_1 t).mp h)
    have hz : t.val ≠ 0 := by omega
    rw [sc9_pos V c t hz]
    unfold sum9 sq9; (try dsimp only)
    rw [Phi9_castSucc, Phi9_pos V c _ _ hz]
    by_cases h2 : t.val % 100 = 99
    · have hc2 : cond9_2 (grid9.coords t) := (hcond9_2 t).mpr h2
      rw [show (dat9 V c).leavesExact 8 t = owns (c : Thread nD τ) (ms9_8 t) fullShare ((dat9 V c).after 8 t) from by
        unfold Dat.leavesExact; rw [liveAt9_8 t hc2], after9_8]
      rw [show (dat9 V c).leavesExact 9 t = owns (c : Thread nD τ) (ms9_9 t) fullShare ((dat9 V c).after 9 t) from by
        unfold Dat.leavesExact; rw [liveAt9_9 t hc2], after9_9]
      rw [sc9_pos V c t hz]
      unfold sum9 sq9; (try dsimp only)
      iintro ⟨⟨Hg, HS0, HS1, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run9_last c Set.univ (grid9.coords t) _ _ _ _ _ _ _ _ _ _ _ _ _ _ _ _ _ _ _ _ _ _ _ _ hc1 hc2 (iblk9 V c 0 t) (iblk9 V c 1 t) (iblk9 V c 2 t) (iblk9 V c 3 t) (iblk9 V c 4 t) (iblk9 V c 5 t) (iblk9 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [Hg HS0 HS1 Hrest]
      · isplitl [Hg]; · iexact Hg
        isplitl [HS0]; · iexact HS0
        isplitl [HS1]; · iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc2 : ¬cond9_2 (grid9.coords t) := fun h => h2 ((hcond9_2 t).mp h)
      rw [Dat.leavesExact_idle (dat9 V c) 8 t (idleAt9_8 t hc2) (noFlush9_8 t hc2),
        Dat.leavesExact_idle (dat9 V c) 9 t (idleAt9_9 t hc2) (noFlush9_9 t hc2)]
      iintro ⟨⟨Hg, HS0, HS1, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run9_mid c Set.univ (grid9.coords t) _ _ _ _ _ _ _ _ _ _ _ _ _ _ _ _ _ _ _ _ _ _ _ _ hc1 hc2 (iblk9 V c 0 t) (iblk9 V c 1 t) (iblk9 V c 2 t) (iblk9 V c 3 t) (iblk9 V c 4 t) (iblk9 V c 5 t) (iblk9 V c 6 t) ((dat9 V c).before 8 t d8) ((dat9 V c).before 9 t d9) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [Hg HS0 HS1 Hrest]
      · isplitl [Hg]; · iexact Hg
        isplitl [HS0]; · iexact HS0
        isplitl [HS1]; · iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the region is entered with is the invariant before the first point: the table share (nothing is prefetched) is dropped. -/
theorem hin9 (c : Dev nD) (T : (pcfgs (F := F) 9).pre.Contents (Elt F)) :
    iprop((∃ r, prngReg c r) ∗ Pipeline.prefHeld (pcfgs (F := F) 9).pre c (fun _ => fullShare) T ∗ Pipeline.scopedRest spec9 c) ⊢ (dat9 V c).Φ 0 := by
  rw [show (dat9 V c).Φ 0 = Phi9 V c 0 (Nat.zero_le _) from rfl, Phi9_zero V c 0 _ rfl]
  iintro ⟨Hp, -, Hr⟩
  isplitl [Hp]; · iexact Hp
  iexact Hr

/-- After the last point the invariant gives the scoped buffers back: the accumulators' named contents are forgotten. -/
theorem hout9 (c : Dev nD) :
    (dat9 V c).Φ (Fin.last _) ⊢ iprop((∃ r, prngReg c r) ∗ Pipeline.ownSems0 (fun k : PEmpty => k.elim) c ∗ Pipeline.scopedRest spec9 c) := by
  rw [Pipeline.ownSems0_none, show (dat9 V c).Φ (Fin.last _) = Phi9 V c (Fin.last cfg9.N).val (Nat.le_of_lt_succ (Fin.last cfg9.N).isLt) from rfl,
    Phi9_pos V c _ _ (by rw [Fin.val_last]; have : cfg9.N = 100 := N_9; omega), scopedRest9_owns]
  iintro ⟨Hp, H0, H1, Hr⟩
  isplitl [Hp]; · iexact Hp
  isplitr; · iempintro
  isplitl [H0 H1]
  · isplitl [H0]; · iexists _; iexact H0
    iexists _; iexact H1
  iexact Hr

end Cert.Kernel.Hand

end
-- ==== Proof.K.R10.lean ====
/- Pipeline 10 of @main — the last stage of the edge classifier on one block of 5000 rows: the block normalised with
   the batch mean and variance rows (scale times the centred block times the reciprocal square root of variance plus
   epsilon, plus shift), clamped below at zero, times the 32×1 weight, plus the 1×1 bias, stored as the output window's
   whole block. This module gives the region's proof data at any entry contents `V`: every input window's buffer
   holds its block of `V` at every grid point (the rows, the weight and the bias are fetched once and never move),
   the output's buffer after the body is the body's one store, and the body obligation of the pipeline. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0: its current staging buffer holds its block at every grid point, whether or not the block was
    fetched there (where it was not, the block index has not moved since the fetch), for any proof data whose array
    is the entry contents and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1: its current staging buffer holds its block at every grid point, whether or not the block was
    fetched there (where it was not, the block index has not moved since the fetch), for any proof data whose array
    is the entry contents and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2: its current staging buffer holds its block at every grid point, whether or not the block was
    fetched there (where it was not, the block index has not moved since the fetch), for any proof data whose array
    is the entry contents and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3: its current staging buffer holds its block at every grid point, whether or not the block was
    fetched there (where it was not, the block index has not moved since the fetch), for any proof data whose array
    is the entry contents and whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4: its current staging buffer holds its block at every grid point, whether or not the block was
    fetched there (where it was not, the block index has not moved since the fetch), for any proof data whose array
    is the entry contents and whose body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5: its current staging buffer holds its block at every grid point, whether or not the block was
    fetched there (where it was not, the block index has not moved since the fetch), for any proof data whose array
    is the entry contents and whose body leaves the block in place. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6: its current staging buffer holds its block at every grid point, whether or not the block was
    fetched there (where it was not, the block index has not moved since the fetch), for any proof data whose array
    is the entry contents and whose body leaves the block in place. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The rectangles the body reads and writes: each a whole buffer -/

abbrev r10_0 : Rect S5000x32 := Rect.unit (s := S5000x32) ![0, 0] S5000x32.size inb_S5000x32_S5000x32_0_0
abbrev r10_1 : Rect S1x32 := Rect.unit (s := S1x32) ![0, 0] S1x32.size inb_S1x32_S1x32_0_0
abbrev r10_2 : Rect S32x1 := Rect.unit (s := S32x1) ![0, 0] S32x1.size inb_S32x1_S32x1_0_0
abbrev r10_3 : Rect S1x1 := Rect.unit (s := S1x1) ![0, 0] S1x1.size inb_S1x1_S1x1_0_0
abbrev r10_4 : Rect S5000x1 := Rect.unit (s := S5000x1) ![0, 0] S5000x1.size inb_S5000x1_S5000x1_0_0

/-! ## What the body leaves in the output window's buffer -/

/-- Window 7's staging buffer after the body, as a function of the input blocks: the body's one store, of the whole
    block, whose value is the skeleton's payload of the loaded input blocks. -/
def out10_7 (x0 : Vec F S5000x32 .f32) (x1 : Vec F S1x32 .f32) (x2 : Vec F S1x32 .f32) (x3 : Vec F S1x32 .f32) (x4 : Vec F S1x32 .f32) (x5 : Vec F S32x1 .f32) (x6 : Vec F S1x1 .f32) : Vec F S5000x1 .f32 :=
  View.canon [⟨r10_4, k10_pay1 (View.ld x0 r10_0) (View.ld x1 r10_1) (View.ld x2 r10_1) (View.ld x3 r10_1) (View.ld x4 r10_1) (View.ld x5 r10_2) (View.ld x6 r10_3)⟩]

/-- The store's rectangle is the whole buffer, so it covers it. -/
theorem cover10_7 (p0 : Vec F S5000x1 .f32) (y : S5000x1.Idx) :
    ∃ pc ∈ ([⟨r10_4, p0⟩] : List (View.Piece (Elt F) S5000x1 .f32)), y ∈ pc.1.set :=
  View.cover_of_tiled [⟨r10_4, p0⟩] S5000x1.size (by rfl) y

/-! ## The body's triple -/

set_option maxHeartbeats 1000000 in
/-- The kernel body on whole staging buffers, the inputs' holding `x_w` and the output's anything, runs to the
    continuation with the inputs' as they were and the output's at `out10_7` of the inputs. -/
theorem sound_kernel10 (c : Dev nD) (E : Set ℕ) (i : grid10.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x1 .f32) (harg6 : arg6.IsWhole) (arg7 : Memref sig .tc .vmem S1x1 .f32) (harg7 : arg7.IsWhole) (arg8 : Memref sig .tc .vmem S5000x1 .f32) (harg8 : arg8.IsWhole)
    (x0 : Vec F S5000x32 .f32) (x1 : Vec F S1x32 .f32) (x2 : Vec F S1x32 .f32) (x3 : Vec F S1x32 .f32) (x4 : Vec F S1x32 .f32) (x5 : Vec F S32x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6)) -∗ K ⟨⟩))
      ⊢ wp frame (wpE (defs₀ (F := F)) Variants.none c none) E (cc10__bn_relu_affine_kernel i arg1 harg1 arg2 harg2 arg3 harg3 arg4 harg4 arg5 harg5 arg6 harg6 arg7 harg7 arg8 harg8) K := by
  simp only [cc10__bn_relu_affine_kernel_eq_skeleton]; unfold cc10__bn_relu_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-! ## The pipeline's proof data -/

/-- The proof data of pipeline 10 on core `c`: the arrays as the region finds them; after the body at point `t`
    each input's buffer still at its block and the output's at `out10_7` of the input blocks; nothing owed, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' buffers hold their blocks, so the body's triple applies; the invariant and
    the core's debts pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ (grid10.coords t) _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Main.lean ====
/- The run of @main: twelve stretches of host operations around eleven pipelined regions.
   The buffer contents at each boundary are a fold from the launch memory: a stretch applies its operations in order;
   a region replaces its windows' arrays by what its write-backs leave and keeps every other buffer. Every execution
   terminates with each unscoped buffer at the fold's last contents; an argument array is written by no host operation
   and is no region's output window, so the fold at an argument walks back to the launch memory. -/
import proofs.«176278_j29592324669622_2_alg».proof.Proof.Gen.Kernel.Launch
import proofs.«176278_j29592324669622_2_alg».proof.Proof.Gen.Kernel.Skeleton
import proofs.«176278_j29592324669622_2_alg».proof.Proof.Gen.Kernel.Points
import proofs.«176278_j29592324669622_2_alg».proof.Proof.K.R0
import proofs.«176278_j29592324669622_2_alg».proof.Proof.K.R1
import proofs.«176278_j29592324669622_2_alg».proof.Proof.K.R2
import proofs.«176278_j29592324669622_2_alg».proof.Proof.K.R3
import proofs.«176278_j29592324669622_2_alg».proof.Proof.K.R4
import proofs.«176278_j29592324669622_2_alg».proof.Proof.K.R5
import proofs.«176278_j29592324669622_2_alg».proof.Proof.K.R6
import proofs.«176278_j29592324669622_2_alg».proof.Proof.K.R7
import proofs.«176278_j29592324669622_2_alg».proof.Proof.K.R8
import proofs.«176278_j29592324669622_2_alg».proof.Proof.K.R9
import proofs.«176278_j29592324669622_2_alg».proof.Proof.K.R10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's 23 items from the launch to the return

The buffer contents at each boundary are a fold from the launch memory: a stretch of host operations applies them
in order; a region replaces its windows' arrays by what its write-backs leave and keeps every other buffer. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what region 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: what region 4 is entered from. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5`: what region 5 is entered from. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6`: what region 6 is entered from. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch `hostOps7`: what region 7 is entered from. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch `hostOps8`: what region 8 is entered from. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its windows' arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch `hostOps9`: what region 9 is entered from. -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- At region 9's exit: its windows' arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the host stretch `hostOps10`: what region 10 is entered from. -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- At region 10's exit: its windows' arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After the last host stretch `hostOps11`: the contents @main returns with. -/
abbrev W23 : Dev nD → Valuation τ sig (Elt F) := fun c => StableHlo.after hostOps11 (W22 m ρ c)

/-! ## What each host stretch writes, and that none allocates -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_cst, main_v0, main_cst_0, main_v1, main_v2, main_v3, main_cst_1, main_v4, main_v5, main_cst_2, main_v6, main_v7, main_cst_3, main_v8, main_v9, main_v10, main_cst_4, main_v11, main_v12, main_cst_5, main_v13, main_v14, main_v15, main_c, main_v16, main_v17, main_c_6, main_v18, main_v19, main_v20, main_v21, main_v22, main_v23, main_c_7, main_v24, main_v25, main_c_8, main_v26, main_v27, main_v28, main_v29, main_v30, main_v31, main_cst_9, main_v32, main_v33, main_v34, main_v35, main_v36, main_v37, main_c_10, main_v38, main_v39, main_c_11, main_v40, main_v41, main_v42, main_v43, main_v44, main_v45, main_cst_12, main_v46, main_v47, main_v48, main_v49, main_v50, main_v51, main_v52, main_v53, main_v54, main_v55, main_v56, main_v57, main_v58]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W1_of (c : Dev nD) (r : Ref sig .tc) (h : r ∉ hostOps0_W) : W1 m ρ c r = W0 m ρ c r :=
  StableHlo.after_of_writes_sub hostOps0 _ hostOps0_writes h

theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v60, main_v61, main_v62, main_v63, main_v64, main_v65, main_v66]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W3_of (c : Dev nD) (r : Ref sig .tc) (h : r ∉ hostOps1_W) : W3 m ρ c r = W2 m ρ c r :=
  StableHlo.after_of_writes_sub hostOps1 _ hostOps1_writes h

theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_c_13, main_v68, main_v69, main_c_14, main_v70, main_v71, main_v72, main_v73, main_v74, main_v75, main_cst_15, main_v76, main_v77, main_v78, main_v79, main_v80, main_v81, main_c_16, main_v82, main_v83, main_c_17, main_v84, main_v85, main_v86, main_v87, main_v88, main_v89, main_cst_18, main_v90, main_v91, main_v92, main_v93, main_v94, main_v95, main_v96, main_v97, main_v98, main_v99, main_v100, main_v101, main_v102]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W5_of (c : Dev nD) (r : Ref sig .tc) (h : r ∉ hostOps2_W) : W5 m ρ c r = W4 m ρ c r :=
  StableHlo.after_of_writes_sub hostOps2 _ hostOps2_writes h

theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v104, main_v105, main_v106, main_v107, main_v108, main_v109, main_v110]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W7_of (c : Dev nD) (r : Ref sig .tc) (h : r ∉ hostOps3_W) : W7 m ρ c r = W6 m ρ c r :=
  StableHlo.after_of_writes_sub hostOps3 _ hostOps3_writes h

theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_c_19, main_v112, main_v113, main_c_20, main_v114, main_v115, main_v116, main_v117, main_v118, main_v119, main_cst_21, main_v120, main_v121, main_v122, main_v123, main_v124, main_v125, main_c_22, main_v126, main_v127, main_c_23, main_v128, main_v129, main_v130, main_v131, main_v132, main_v133, main_cst_24, main_v134, main_v135, main_v136, main_v137, main_v138, main_v139, main_v140, main_v141, main_v142, main_v143, main_v144, main_v145, main_v146]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W9_of (c : Dev nD) (r : Ref sig .tc) (h : r ∉ hostOps4_W) : W9 m ρ c r = W8 m ρ c r :=
  StableHlo.after_of_writes_sub hostOps4 _ hostOps4_writes h

theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v148, main_v149, main_v150, main_v151, main_v152, main_v153, main_v154]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W11_of (c : Dev nD) (r : Ref sig .tc) (h : r ∉ hostOps5_W) : W11 m ρ c r = W10 m ρ c r :=
  StableHlo.after_of_writes_sub hostOps5 _ hostOps5_writes h

theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_v156, main_v157, main_v158, main_v159]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W13_of (c : Dev nD) (r : Ref sig .tc) (h : r ∉ hostOps6_W) : W13 m ρ c r = W12 m ρ c r :=
  StableHlo.after_of_writes_sub hostOps6 _ hostOps6_writes h

theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v161, main_v162, main_v163, main_v164]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W15_of (c : Dev nD) (r : Ref sig .tc) (h : r ∉ hostOps7_W) : W15 m ρ c r = W14 m ρ c r :=
  StableHlo.after_of_writes_sub hostOps7 _ hostOps7_writes h

theorem hostOps8_fresh : (hostOps8 : List (HloOp τ sig (Elt F))).Forall fun op => op.fresh = ∅ := by
  simp only [List.Forall]; repeat' constructor
/-- The references `hostOps8`'s operations write. -/
abbrev hostOps8_W : List (Ref sig .tc) := [main_c_25, main_v166, main_v167, main_c_26, main_v168, main_v169, main_v170, main_v171, main_v172, main_c_27, main_v173, main_v174, main_c_28, main_v175, main_v176, main_v177, main_v178, main_v179, main_v180, main_v181, main_v182]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W17_of (c : Dev nD) (r : Ref sig .tc) (h : r ∉ hostOps8_W) : W17 m ρ c r = W16 m ρ c r :=
  StableHlo.after_of_writes_sub hostOps8 _ hostOps8_writes h

theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v184, main_cst_29, main_v185, main_v186, main_v187, main_cst_30, main_v188, main_v189, main_v190, main_v191, main_v192, main_v193, main_v194, main_v195, main_v196]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W19_of (c : Dev nD) (r : Ref sig .tc) (h : r ∉ hostOps9_W) : W19 m ρ c r = W18 m ρ c r :=
  StableHlo.after_of_writes_sub hostOps9 _ hostOps9_writes h

theorem hostOps10_fresh : (hostOps10 : List (HloOp τ sig (Elt F))).Forall fun op => op.fresh = ∅ := by
  simp only [List.Forall]; repeat' constructor
/-- The references `hostOps10`'s operations write. -/
abbrev hostOps10_W : List (Ref sig .tc) := [main_v198, main_cst_31, main_v199, main_v200, main_v201, main_cst_32, main_v202, main_v203, main_v204, main_v205, main_v206, main_v207, main_v208, main_v209, main_v210]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W21_of (c : Dev nD) (r : Ref sig .tc) (h : r ∉ hostOps10_W) : W21 m ρ c r = W20 m ρ c r :=
  StableHlo.after_of_writes_sub hostOps10 _ hostOps10_writes h

theorem hostOps11_fresh : (hostOps11 : List (HloOp τ sig (Elt F))).Forall fun op => op.fresh = ∅ := by
  simp only [List.Forall]; repeat' constructor
/-- The references `hostOps11`'s operations write. -/
abbrev hostOps11_W : List (Ref sig .tc) := [main_v212]
theorem hostOps11_writes : (hostOps11 : List (HloOp τ sig (Elt F))).Forall fun op => op.writes ⊆ (hostOps11_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W23_of (c : Dev nD) (r : Ref sig .tc) (h : r ∉ hostOps11_W) : W23 m ρ c r = W22 m ρ c r :=
  StableHlo.after_of_writes_sub hostOps11 _ hostOps11_writes h

/-! ## A buffer no host operation writes and no region stages ends as launched -/

theorem W23_of_untouched (c : Dev nD) (r : Ref sig .tc)
    (h0 : r ∉ hostOps0_W)
    (h1 : r ∉ hostOps1_W)
    (h2 : r ∉ hostOps2_W)
    (h3 : r ∉ hostOps3_W)
    (h4 : r ∉ hostOps4_W)
    (h5 : r ∉ hostOps5_W)
    (h6 : r ∉ hostOps6_W)
    (h7 : r ∉ hostOps7_W)
    (h8 : r ∉ hostOps8_W)
    (h9 : r ∉ hostOps9_W)
    (h10 : r ∉ hostOps10_W)
    (h11 : r ∉ hostOps11_W)
    (g0 : ∀ w, Pipeline.arrRef spec0 w ≠ r)
    (g1 : ∀ w, Pipeline.arrRef spec1 w ≠ r)
    (g2 : ∀ w, Pipeline.arrRef spec2 w ≠ r)
    (g3 : ∀ w, Pipeline.arrRef spec3 w ≠ r)
    (g4 : ∀ w, Pipeline.arrRef spec4 w ≠ r)
    (g5 : ∀ w, Pipeline.arrRef spec5 w ≠ r)
    (g6 : ∀ w, Pipeline.arrRef spec6 w ≠ r)
    (g7 : ∀ w, Pipeline.arrRef spec7 w ≠ r)
    (g8 : ∀ w, Pipeline.arrRef spec8 w ≠ r)
    (g9 : ∀ w, Pipeline.arrRef spec9 w ≠ r)
    (g10 : ∀ w, Pipeline.arrRef spec10 w ≠ r) :
    W23 m ρ c r = m ((c : Thread nD τ).loc r) :=
  calc W23 m ρ c r
    _ = W22 m ρ c r := W23_of m ρ c r h11
    _ = W21 m ρ c r := W22_of_ne m ρ c r g10
    _ = W20 m ρ c r := W21_of m ρ c r h10
    _ = W19 m ρ c r := W20_of_ne m ρ c r g9
    _ = W18 m ρ c r := W19_of m ρ c r h9
    _ = W17 m ρ c r := W18_of_ne m ρ c r g8
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0
    _ = m ((c : Thread nD τ).loc r) := rfl

/-! ## Every argument array ends as launched -/

theorem W23_eq_W20 (c : Dev nD) (r : Ref sig .tc) (h11 : r ∉ hostOps11_W) (g10 : ∀ w, Pipeline.arrRef spec10 w ≠ r) (h10 : r ∉ hostOps10_W) :
    W23 m ρ c r = W20 m ρ c r :=
  calc W23 m ρ c r
    _ = W22 m ρ c r := W23_of m ρ c r h11
    _ = W21 m ρ c r := W22_of_ne m ρ c r g10
    _ = W20 m ρ c r := W21_of m ρ c r h10

theorem W19_eq_W0 (c : Dev nD) (r : Ref sig .tc) (h9 : r ∉ hostOps9_W) (g8 : ∀ w, Pipeline.arrRef spec8 w ≠ r) (h8 : r ∉ hostOps8_W) (g7 : ∀ w, Pipeline.arrRef spec7 w ≠ r) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W19 m ρ c r = W0 m ρ c r :=
  calc W19 m ρ c r
    _ = W18 m ρ c r := W19_of m ρ c r h9
    _ = W17 m ρ c r := W18_of_ne m ρ c r g8
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W21_eq_W0 (c : Dev nD) (r : Ref sig .tc) (h10 : r ∉ hostOps10_W) (g9 : ∀ w, Pipeline.arrRef spec9 w ≠ r) (h9 : r ∉ hostOps9_W) (g8 : ∀ w, Pipeline.arrRef spec8 w ≠ r) (h8 : r ∉ hostOps8_W) (g7 : ∀ w, Pipeline.arrRef spec7 w ≠ r) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W21 m ρ c r = W0 m ρ c r :=
  calc W21 m ρ c r
    _ = W20 m ρ c r := W21_of m ρ c r h10
    _ = W19 m ρ c r := W20_of_ne m ρ c r g9
    _ = W18 m ρ c r := W19_of m ρ c r h9
    _ = W17 m ρ c r := W18_of_ne m ρ c r g8
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W23_main_arg0 (c : Dev nD) : W23 m ρ c main_arg0 = m ((c : Thread nD τ).loc main_arg0) :=
  W23_of_untouched m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg1 (c : Dev nD) : W23 m ρ c main_arg1 = m ((c : Thread nD τ).loc main_arg1) :=
  W23_of_untouched m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg2 (c : Dev nD) : W23 m ρ c main_arg2 = m ((c : Thread nD τ).loc main_arg2) :=
  W23_of_untouched m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg3 (c : Dev nD) : W23 m ρ c main_arg3 = m ((c : Thread nD τ).loc main_arg3) :=
  W23_of_untouched m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg4 (c : Dev nD) : W23 m ρ c main_arg4 = m ((c : Thread nD τ).loc main_arg4) :=
  W23_of_untouched m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg5 (c : Dev nD) : W23 m ρ c main_arg5 = m ((c : Thread nD τ).loc main_arg5) :=
  W23_of_untouched m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg6 (c : Dev nD) : W23 m ρ c main_arg6 = m ((c : Thread nD τ).loc main_arg6) :=
  W23_of_untouched m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg7 (c : Dev nD) : W23 m ρ c main_arg7 = m ((c : Thread nD τ).loc main_arg7) :=
  W23_of_untouched m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg8 (c : Dev nD) : W23 m ρ c main_arg8 = m ((c : Thread nD τ).loc main_arg8) :=
  W23_of_untouched m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg9 (c : Dev nD) : W23 m ρ c main_arg9 = m ((c : Thread nD τ).loc main_arg9) :=
  W23_of_untouched m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg10 (c : Dev nD) : W23 m ρ c main_arg10 = m ((c : Thread nD τ).loc main_arg10) :=
  W23_of_untouched m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg11 (c : Dev nD) : W23 m ρ c main_arg11 = m ((c : Thread nD τ).loc main_arg11) :=
  W23_of_untouched m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg12 (c : Dev nD) : W23 m ρ c main_arg12 = m ((c : Thread nD τ).loc main_arg12) :=
  W23_of_untouched m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg13 (c : Dev nD) : W23 m ρ c main_arg13 = m ((c : Thread nD τ).loc main_arg13) :=
  W23_of_untouched m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg14 (c : Dev nD) : W23 m ρ c main_arg14 = m ((c : Thread nD τ).loc main_arg14) :=
  W23_of_untouched m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg15 (c : Dev nD) : W23 m ρ c main_arg15 = m ((c : Thread nD τ).loc main_arg15) :=
  W23_of_untouched m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg16 (c : Dev nD) : W23 m ρ c main_arg16 = m ((c : Thread nD τ).loc main_arg16) :=
  W23_of_untouched m ρ c main_arg16 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg17 (c : Dev nD) : W23 m ρ c main_arg17 = m ((c : Thread nD τ).loc main_arg17) :=
  W23_of_untouched m ρ c main_arg17 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg18 (c : Dev nD) : W23 m ρ c main_arg18 = m ((c : Thread nD τ).loc main_arg18) :=
  W23_of_untouched m ρ c main_arg18 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg19 (c : Dev nD) : W23 m ρ c main_arg19 = m ((c : Thread nD τ).loc main_arg19) :=
  W23_of_untouched m ρ c main_arg19 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg20 (c : Dev nD) : W23 m ρ c main_arg20 = m ((c : Thread nD τ).loc main_arg20) :=
  W23_of_untouched m ρ c main_arg20 (by decide) (by decide) (by decide) (by decide) (by decide) (by decide) (by decide) (by decide) (by decide) (by decide) (by decide) (by decide) (by decide) (by decide) (by decide) (by decide) (by decide) (by decide) (by decide) (by decide) (by decide) (by decide) (by decide)

/-- `main_arg21` is an input window's array of region 9, which a pipeline leaves as it found it. -/
theorem W23_main_arg21 (c : Dev nD) : W23 m ρ c main_arg21 = m ((c : Thread nD τ).loc main_arg21) :=
  (W23_eq_W20 m ρ c main_arg21 (by decide) (by decide) (by decide)).trans <|
    ((W20_arr m ρ c 5).trans (((dat9 (V19 m ρ) c).arrAt_in 5 rfl _).trans (A_eq9 (V19 m ρ) c 5))).trans <|
    (W19_eq_W0 m ρ c main_arg21 (by decide) (by decide) (by decide) (by decide) (by decide) (by decide) (by decide) (by decide) (by decide) (by decide) (by decide) (by decide) (by decide) (by decide) (by decide) (by decide) (by decide) (by decide) (by decide)).trans rfl
theorem W23_main_arg22 (c : Dev nD) : W23 m ρ c main_arg22 = m ((c : Thread nD τ).loc main_arg22) :=
  W23_of_untouched m ρ c main_arg22 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg23 (c : Dev nD) : W23 m ρ c main_arg23 = m ((c : Thread nD τ).loc main_arg23) :=
  W23_of_untouched m ρ c main_arg23 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg24 (c : Dev nD) : W23 m ρ c main_arg24 = m ((c : Thread nD τ).loc main_arg24) :=
  W23_of_untouched m ρ c main_arg24 (by decide) (by decide) (by decide) (by decide) (by decide) (by decide) (by decide) (by decide) (by decide) (by decide) (by decide) (by decide) (by decide) (by decide) (by decide) (by decide) (by decide) (by decide) (by decide) (by decide) (by decide) (by decide) (by decide)

/-- `main_arg25` is an input window's array of region 10, which a pipeline leaves as it found it. -/
theorem W23_main_arg25 (c : Dev nD) : W23 m ρ c main_arg25 = m ((c : Thread nD τ).loc main_arg25) :=
  (W23_of m ρ c main_arg25 (by decide)).trans <|
    ((W22_arr m ρ c 5).trans (((dat10 (V21 m ρ) c).arrAt_in 5 rfl _).trans (A_eq10 (V21 m ρ) c 5))).trans <|
    (W21_eq_W0 m ρ c main_arg25 (by decide) (by decide) (by decide) (by decide) (by decide) (by decide) (by decide) (by decide) (by decide) (by decide) (by decide) (by decide) (by decide) (by decide) (by decide) (by decide) (by decide) (by decide) (by decide) (by decide) (by decide)).trans rfl
theorem W23_main_arg26 (c : Dev nD) : W23 m ρ c main_arg26 = m ((c : Thread nD τ).loc main_arg26) :=
  W23_of_untouched m ρ c main_arg26 (by decide) (by decide) (by decide) (by decide) (by decide) (by decide) (by decide) (by decide) (by decide) (by decide) (by decide) (by decide) (by decide) (by decide) (by decide) (by decide) (by decide) (by decide) (by decide) (by decide) (by decide) (by decide) (by decide)

/-! ## The proof data family and the thread state -/

/-- No pipeline reads a prefetched table. -/
abbrev adm : (p : Fin 11) → (pcfgs (F := F) p).Adm := fun p => (cfgs p).toPCfg_adm
/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as an item: the unscoped buffers go from the contents `W` to the operations applied in order. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents @main returns with. -/
abbrev Tₙ (c : Dev nD) : sProp 𝕄 := iprop(StableHlo.held (c : Thread nD τ) (Pipeline.ucRefs τ sig) (W23 m ρ c) ∗ ∃ r, prngReg c r)

/-! ## The regions as items -/

set_option backward.isDefEq.respectTransparency.types false in
/-- Region 0 over the thread state: entered from every unscoped buffer at `W1`, left at `W2`. Its windows'
    arrays are split out of the unscoped buffers and put back at the exit contents; the generator register goes into
    the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows'
    arrays are split out of the unscoped buffers and put back at the exit contents; the generator register goes into
    the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its windows'
    arrays are split out of the unscoped buffers and put back at the exit contents; the generator register goes into
    the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its windows'
    arrays are split out of the unscoped buffers and put back at the exit contents; the generator register goes into
    the pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its windows'
    arrays are split out of the unscoped buffers and put back at the exit contents; the generator register goes into
    the pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its windows'
    arrays are split out of the unscoped buffers and put back at the exit contents; the generator register goes into
    the pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its windows'
    arrays are split out of the unscoped buffers and put back at the exit contents; the generator register goes into
    the pipeline's invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its windows'
    arrays are split out of the unscoped buffers and put back at the exit contents; the generator register goes into
    the pipeline's invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. Its windows'
    arrays are split out of the unscoped buffers and put back at the exit contents; the generator register goes into
    the pipeline's invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    exact hin8 (V17 m ρ) c _
  hout c := by
    rw [show (pdats m ρ 8 c).Φ (Fin.last _) = (dat8 (V17 m ρ) c).Φ (Fin.last _) from rfl]
    exact hout8 (V17 m ρ) c
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W19`, left at `W20`. Its windows'
    arrays are split out of the unscoped buffers and put back at the exit contents; the generator register goes into
    the pipeline's invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V19 m ρ) c).Φ 0 from rfl]
    exact hin9 (V19 m ρ) c _
  hout c := by
    rw [show (pdats m ρ 9 c).Φ (Fin.last _) = (dat9 (V19 m ρ) c).Φ (Fin.last _) from rfl]
    exact hout9 (V19 m ρ) c
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W21`, left at `W22`. Its windows'
    arrays are split out of the unscoped buffers and put back at the exit contents; the generator register goes into
    the pipeline's invariant and comes out; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's 23 items in order: a stretch of host operations from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)) ]
/-- @main is the run of these items. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final memory holds each unscoped buffer at the fold's last contents `W23`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W23 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h => h)

/-! ## The frame: every argument array ends as launched -/

theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_arg0 (by decide))).trans (W23_main_arg0 m ρ c),
     (h c _ (mem_uc main_arg1 (by decide))).trans (W23_main_arg1 m ρ c),
     (h c _ (mem_uc main_arg2 (by decide))).trans (W23_main_arg2 m ρ c),
     (h c _ (mem_uc main_arg3 (by decide))).trans (W23_main_arg3 m ρ c),
     (h c _ (mem_uc main_arg4 (by decide))).trans (W23_main_arg4 m ρ c),
     (h c _ (mem_uc main_arg5 (by decide))).trans (W23_main_arg5 m ρ c),
     (h c _ (mem_uc main_arg6 (by decide))).trans (W23_main_arg6 m ρ c),
     (h c _ (mem_uc main_arg7 (by decide))).trans (W23_main_arg7 m ρ c),
     (h c _ (mem_uc main_arg8 (by decide))).trans (W23_main_arg8 m ρ c),
     (h c _ (mem_uc main_arg9 (by decide))).trans (W23_main_arg9 m ρ c),
     (h c _ (mem_uc main_arg10 (by decide))).trans (W23_main_arg10 m ρ c),
     (h c _ (mem_uc main_arg11 (by decide))).trans (W23_main_arg11 m ρ c),
     (h c _ (mem_uc main_arg12 (by decide))).trans (W23_main_arg12 m ρ c),
     (h c _ (mem_uc main_arg13 (by decide))).trans (W23_main_arg13 m ρ c),
     (h c _ (mem_uc main_arg14 (by decide))).trans (W23_main_arg14 m ρ c),
     (h c _ (mem_uc main_arg15 (by decide))).trans (W23_main_arg15 m ρ c),
     (h c _ (mem_uc main_arg16 (by decide))).trans (W23_main_arg16 m ρ c),
     (h c _ (mem_uc main_arg17 (by decide))).trans (W23_main_arg17 m ρ c),
     (h c _ (mem_uc main_arg18 (by decide))).trans (W23_main_arg18 m ρ c),
     (h c _ (mem_uc main_arg19 (by decide))).trans (W23_main_arg19 m ρ c),
     (h c _ (mem_uc main_arg20 (by decide))).trans (W23_main_arg20 m ρ c),
     (h c _ (mem_uc main_arg21 (by decide))).trans (W23_main_arg21 m ρ c),
     (h c _ (mem_uc main_arg22 (by decide))).trans (W23_main_arg22 m ρ c),
     (h c _ (mem_uc main_arg23 (by decide))).trans (W23_main_arg23 m ρ c),
     (h c _ (mem_uc main_arg24 (by decide))).trans (W23_main_arg24 m ρ c),
     (h c _ (mem_uc main_arg25 (by decide))).trans (W23_main_arg25 m ρ c),
     (h c _ (mem_uc main_arg26 (by decide))).trans (W23_main_arg26 m ρ c)⟩) (run_all m ρ)

end Cert.Kernel.Hand

end
-- ==== Proof.KI.R0.lean ====
/- Pipeline 0 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every grid point, whether or not the block was
    fetched there (where it was not, the block index has not moved since the fetch), for any proof data whose array
    is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: its current staging buffer holds its block at every grid point, whether or not the block was
    fetched there (where it was not, the block index has not moved since the fetch), for any proof data whose array
    is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: its current staging buffer holds its block at every grid point, whether or not the block was
    fetched there (where it was not, the block index has not moved since the fetch), for any proof data whose array
    is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: its current staging buffer holds its block at every grid point, whether or not the block was
    fetched there (where it was not, the block index has not moved since the fetch), for any proof data whose array
    is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: its current staging buffer holds its block at every grid point, whether or not the block was
    fetched there (where it was not, the block index has not moved since the fetch), for any proof data whose array
    is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each a whole buffer -/

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out0_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r0_0, k0_pay1 (View.ld x0 r0_0) (View.ld x1 r0_0) (View.ld x2 r0_1) (View.ld x4 r0_1) (View.ld x3 r0_2)⟩]

/-- The store's rectangle is the whole buffer, so it covers it. -/
theorem cover0_5 (p0 : Vec F S5000x64 .bf16) (y : S5000x64.Idx) :
    ∃ pc ∈ ([⟨r0_0, p0⟩] : List (View.Piece (Elt F) S5000x64 .bf16)), y ∈ pc.1.set :=
  View.cover_of_tiled [⟨r0_0, p0⟩] S5000x64.size (by rfl) y

/-! ## The body's triple -/

set_option maxHeartbeats 1000000 in
/-- The kernel body on whole staging buffers, the inputs' holding `x_w` and the output's anything, runs to the
    continuation with the inputs' as they were and the output's at `out0_5` of the inputs. -/
theorem sound_kernel0 (c : Dev nD) (E : Set ℕ) (i : grid0.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t`
    each input's buffer still at its block and the output's at `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and
    the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Pipeline 1 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every grid point, whether or not the block was
    fetched there (where it was not, the block index has not moved since the fetch), for any proof data whose array
    is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds its block at every grid point, whether or not the block was
    fetched there (where it was not, the block index has not moved since the fetch), for any proof data whose array
    is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds its block at every grid point, whether or not the block was
    fetched there (where it was not, the block index has not moved since the fetch), for any proof data whose array
    is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current staging buffer holds its block at every grid point, whether or not the block was
    fetched there (where it was not, the block index has not moved since the fetch), for any proof data whose array
    is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its current staging buffer holds its block at every grid point, whether or not the block was
    fetched there (where it was not, the block index has not moved since the fetch), for any proof data whose array
    is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each a whole buffer -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out1_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r1_0, k1_pay1 (View.ld x0 r1_0) (View.ld x1 r1_0) (View.ld x2 r1_1) (View.ld x4 r1_1) (View.ld x3 r1_2)⟩]

/-- The store's rectangle is the whole buffer, so it covers it. -/
theorem cover1_5 (p0 : Vec F S5000x64 .bf16) (y : S5000x64.Idx) :
    ∃ pc ∈ ([⟨r1_0, p0⟩] : List (View.Piece (Elt F) S5000x64 .bf16)), y ∈ pc.1.set :=
  View.cover_of_tiled [⟨r1_0, p0⟩] S5000x64.size (by rfl) y

/-! ## The body's triple -/

set_option maxHeartbeats 1000000 in
/-- The kernel body on whole staging buffers, the inputs' holding `x_w` and the output's anything, runs to the
    continuation with the inputs' as they were and the output's at `out1_5` of the inputs. -/
theorem sound_kernel1 (c : Dev nD) (E : Set ℕ) (i : grid1.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t`
    each input's buffer still at its block and the output's at `out1_5` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Pipeline 2 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: its current staging buffer holds its block at every grid point, whether or not the block was
    fetched there (where it was not, the block index has not moved since the fetch), for any proof data whose array
    is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: its current staging buffer holds its block at every grid point, whether or not the block was
    fetched there (where it was not, the block index has not moved since the fetch), for any proof data whose array
    is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: its current staging buffer holds its block at every grid point, whether or not the block was
    fetched there (where it was not, the block index has not moved since the fetch), for any proof data whose array
    is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: its current staging buffer holds its block at every grid point, whether or not the block was
    fetched there (where it was not, the block index has not moved since the fetch), for any proof data whose array
    is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: its current staging buffer holds its block at every grid point, whether or not the block was
    fetched there (where it was not, the block index has not moved since the fetch), for any proof data whose array
    is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each a whole buffer -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out2_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r2_0, k2_pay1 (View.ld x0 r2_0) (View.ld x1 r2_0) (View.ld x2 r2_1) (View.ld x4 r2_1) (View.ld x3 r2_2)⟩]

/-- The store's rectangle is the whole buffer, so it covers it. -/
theorem cover2_5 (p0 : Vec F S5000x64 .bf16) (y : S5000x64.Idx) :
    ∃ pc ∈ ([⟨r2_0, p0⟩] : List (View.Piece (Elt F) S5000x64 .bf16)), y ∈ pc.1.set :=
  View.cover_of_tiled [⟨r2_0, p0⟩] S5000x64.size (by rfl) y

/-! ## The body's triple -/

set_option maxHeartbeats 1000000 in
/-- The kernel body on whole staging buffers, the inputs' holding `x_w` and the output's anything, runs to the
    continuation with the inputs' as they were and the output's at `out2_5` of the inputs. -/
theorem sound_kernel2 (c : Dev nD) (E : Set ℕ) (i : grid2.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sage_linear_kernel i arg1 harg1 arg2 harg2 arg3 harg3 arg4 harg4 arg5 harg5 arg6 harg6) K := by
  simp only [cc2__sage_linear_kernel_eq_skeleton]; unfold cc2__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t`
    each input's buffer still at its block and the output's at `out2_5` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    the core's debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
/- Pipeline 3 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: its current staging buffer holds its block at every grid point, whether or not the block was
    fetched there (where it was not, the block index has not moved since the fetch), for any proof data whose array
    is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: its current staging buffer holds its block at every grid point, whether or not the block was
    fetched there (where it was not, the block index has not moved since the fetch), for any proof data whose array
    is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: its current staging buffer holds its block at every grid point, whether or not the block was
    fetched there (where it was not, the block index has not moved since the fetch), for any proof data whose array
    is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: its current staging buffer holds its block at every grid point, whether or not the block was
    fetched there (where it was not, the block index has not moved since the fetch), for any proof data whose array
    is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: its current staging buffer holds its block at every grid point, whether or not the block was
    fetched there (where it was not, the block index has not moved since the fetch), for any proof data whose array
    is the entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each a whole buffer -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out3_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r3_0, k3_pay1 (View.ld x0 r3_0) (View.ld x1 r3_0) (View.ld x2 r3_1) (View.ld x4 r3_1) (View.ld x3 r3_2)⟩]

/-- The store's rectangle is the whole buffer, so it covers it. -/
theorem cover3_5 (p0 : Vec F S5000x64 .bf16) (y : S5000x64.Idx) :
    ∃ pc ∈ ([⟨r3_0, p0⟩] : List (View.Piece (Elt F) S5000x64 .bf16)), y ∈ pc.1.set :=
  View.cover_of_tiled [⟨r3_0, p0⟩] S5000x64.size (by rfl) y

/-! ## The body's triple -/

set_option maxHeartbeats 1000000 in
/-- The kernel body on whole staging buffers, the inputs' holding `x_w` and the output's anything, runs to the
    continuation with the inputs' as they were and the output's at `out3_5` of the inputs. -/
theorem sound_kernel3 (c : Dev nD) (E : Set ℕ) (i : grid3.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__sage_linear_kernel i arg1 harg1 arg2 harg2 arg3 harg3 arg4 harg4 arg5 harg5 arg6 harg6) K := by
  simp only [cc3__sage_linear_kernel_eq_skeleton]; unfold cc3__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t`
    each input's buffer still at its block and the output's at `out3_5` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    the core's debts pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
/- Pipeline 4 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: its current staging buffer holds its block at every grid point, whether or not the block was
    fetched there (where it was not, the block index has not moved since the fetch), for any proof data whose array
    is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: its current staging buffer holds its block at every grid point, whether or not the block was
    fetched there (where it was not, the block index has not moved since the fetch), for any proof data whose array
    is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2: its current staging buffer holds its block at every grid point, whether or not the block was
    fetched there (where it was not, the block index has not moved since the fetch), for any proof data whose array
    is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3: its current staging buffer holds its block at every grid point, whether or not the block was
    fetched there (where it was not, the block index has not moved since the fetch), for any proof data whose array
    is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4: its current staging buffer holds its block at every grid point, whether or not the block was
    fetched there (where it was not, the block index has not moved since the fetch), for any proof data whose array
    is the entry contents and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: each a whole buffer -/

abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out4_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r4_0, k4_pay1 (View.ld x0 r4_0) (View.ld x1 r4_0) (View.ld x2 r4_1) (View.ld x4 r4_1) (View.ld x3 r4_2)⟩]

/-- The store's rectangle is the whole buffer, so it covers it. -/
theorem cover4_5 (p0 : Vec F S5000x64 .bf16) (y : S5000x64.Idx) :
    ∃ pc ∈ ([⟨r4_0, p0⟩] : List (View.Piece (Elt F) S5000x64 .bf16)), y ∈ pc.1.set :=
  View.cover_of_tiled [⟨r4_0, p0⟩] S5000x64.size (by rfl) y

/-! ## The body's triple -/

set_option maxHeartbeats 1000000 in
/-- The kernel body on whole staging buffers, the inputs' holding `x_w` and the output's anything, runs to the
    continuation with the inputs' as they were and the output's at `out4_5` of the inputs. -/
theorem sound_kernel4 (c : Dev nD) (E : Set ℕ) (i : grid4.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__sage_linear_kernel i arg1 harg1 arg2 harg2 arg3 harg3 arg4 harg4 arg5 harg5 arg6 harg6) K := by
  simp only [cc4__sage_linear_kernel_eq_skeleton]; unfold cc4__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them; after the body at point `t`
    each input's buffer still at its block and the output's at `out4_5` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and
    the core's debts pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
/- Pipeline 5 of @main — a SAGE linear layer on one block of 5000 rows: the neighbour aggregate and the
   destination features each times a 64×64 weight, summed, plus the bias row, clamped below at zero, stored as the
   output window's whole block. This module gives the region's proof data at any entry contents `V`: every input
   window's buffer holds its block of `V` at every grid point (the weights and the bias are fetched once and never
   move), the output's buffer after the body is the body's one store, and the body obligation of the pipeline. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: its current staging buffer holds its block at every grid point, whether or not the block was
    fetched there (where it was not, the block index has not moved since the fetch), for any proof data whose array
    is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: its current staging buffer holds its block at every grid point, whether or not the block was
    fetched there (where it was not, the block index has not moved since the fetch), for any proof data whose array
    is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: its current staging buffer holds its block at every grid point, whether or not the block was
    fetched there (where it was not, the block index has not moved since the fetch), for any proof data whose array
    is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: its current staging buffer holds its block at every grid point, whether or not the block was
    fetched there (where it was not, the block index has not moved since the fetch), for any proof data whose array
    is the entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4: its current staging buffer holds its block at every grid point, whether or not the block was
    fetched there (where it was not, the block index has not moved since the fetch), for any proof data whose array
    is the entry contents and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The rectangles the body reads and writes: each a whole buffer -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-! ## What the body leaves in the output window's buffer -/

/-- Window 5's staging buffer after the body, as a function of the input blocks: the body's one store, of the whole
    block, whose value is the skeleton's payload of the loaded input blocks. -/
def out5_5 (x0 : Vec F S5000x64 .f32) (x1 : Vec F S5000x64 .bf16) (x2 : Vec F S64x64 .f32) (x3 : Vec F S1x64 .f32) (x4 : Vec F S64x64 .f32) : Vec F S5000x64 .bf16 :=
  View.canon [⟨r5_0, k5_pay1 (View.ld x0 r5_0) (View.ld x1 r5_0) (View.ld x2 r5_1) (View.ld x4 r5_1) (View.ld x3 r5_2)⟩]

/-- The store's rectangle is the whole buffer, so it covers it. -/
theorem cover5_5 (p0 : Vec F S5000x64 .bf16) (y : S5000x64.Idx) :
    ∃ pc ∈ ([⟨r5_0, p0⟩] : List (View.Piece (Elt F) S5000x64 .bf16)), y ∈ pc.1.set :=
  View.cover_of_tiled [⟨r5_0, p0⟩] S5000x64.size (by rfl) y

/-! ## The body's triple -/

set_option maxHeartbeats 1000000 in
/-- The kernel body on whole staging buffers, the inputs' holding `x_w` and the output's anything, runs to the
    continuation with the inputs' as they were and the output's at `out5_5` of the inputs. -/
theorem sound_kernel5 (c : Dev nD) (E : Set ℕ) (i : grid5.Coords) (arg1 : Memref sig .tc .vmem S5000x64 .f32) (harg1 : arg1.IsWhole) (arg2 : Memref sig .tc .vmem S5000x64 .bf16) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S5000x64 .bf16) (harg6 : arg6.IsWhole)
    (x0 : Vec F S5000x64 .f32) (x1 : Vec F S5000x64 .bf16) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__sage_linear_kernel i arg1 harg1 arg2 harg2 arg3 harg3 arg4 harg4 arg5 harg5 arg6 harg6) K := by
  simp only [cc5__sage_linear_kernel_eq_skeleton]; unfold cc5__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at point `t`
    each input's buffer still at its block and the output's at `out5_5` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and
    the core's debts pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
/- Pipeline 6 of @main — the projection of the three layers' features on one block of 5000 rows: each layer's
   block times its own 64×64 weight, the three products summed, plus the bias row, stored as the output window's whole
   block. This module gives the region's proof data at any entry contents `V`: every input window's buffer holds its
   block of `V` at every grid point (the weights and the bias are fetched once and never move), the output's buffer
   after the body is the body's one store, and the body obligation of the pipeline. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: its current staging buffer holds its block at every grid point, whether or not the block was
    fetched there (where it was not, the block index has not moved since the fetch), for any proof data whose array
    is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: its current staging buffer holds its block at every grid point, whether or not the block was
    fetched there (where it was not, the block index has not moved since the fetch), for any proof data whose array
    is the entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: its current staging buffer holds its block at every grid point, whether or not the block was
    fetched there (where it was not, the block index has not moved since the fetch), for any proof data whose array
    is the entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3: its current staging buffer holds its block at every grid point, whether or not the block was
    fetched there (where it was not, the block index has not moved since the fetch), for any proof data whose array
    is the entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4: its current staging buffer holds its block at every grid point, whether or not the block was
    fetched there (where it was not, the block index has not moved since the fetch), for any proof data whose array
    is the entry contents and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5: its current staging buffer holds its block at every grid point, whether or not the block was
    fetched there (where it was not, the block index has not moved since the fetch), for any proof data whose array
    is the entry contents and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6: its current staging buffer holds its block at every grid point, whether or not the block was
    fetched there (where it was not, the block index has not moved since the fetch), for any proof data whose array
    is the entry contents and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The rectangles the body reads and writes: each a whole buffer -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0

/-! ## What the body leaves in the output window's buffer -/

/-- Window 7's staging buffer after the body, as a function of the input blocks: the body's one store, of the whole
    block, whose value is the skeleton's payload of the loaded input blocks. -/
def out6_7 (x0 : Vec F S5000x64 .bf16) (x1 : Vec F S5000x64 .bf16) (x2 : Vec F S5000x64 .bf16) (x3 : Vec F S64x64 .f32) (x4 : Vec F S64x64 .f32) (x5 : Vec F S64x64 .f32) (x6 : Vec F S1x64 .f32) : Vec F S5000x64 .bf16 :=
  View.canon [⟨r6_0, k6_pay1 (View.ld x0 r6_0) (View.ld x1 r6_0) (View.ld x2 r6_0) (View.ld x3 r6_1) (View.ld x4 r6_1) (View.ld x5 r6_1) (View.ld x6 r6_2)⟩]

/-- The store's rectangle is the whole buffer, so it covers it. -/
theorem cover6_7 (p0 : Vec F S5000x64 .bf16) (y : S5000x64.Idx) :
    ∃ pc ∈ ([⟨r6_0, p0⟩] : List (View.Piece (Elt F) S5000x64 .bf16)), y ∈ pc.1.set :=
  View.cover_of_tiled [⟨r6_0, p0⟩] S5000x64.size (by rfl) y

/-! ## The body's triple -/

set_option maxHeartbeats 1000000 in
/-- The kernel body on whole staging buffers, the inputs' holding `x_w` and the output's anything, runs to the
    continuation with the inputs' as they were and the output's at `out6_7` of the inputs. -/
theorem sound_kernel6 (c : Dev nD) (E : Set ℕ) (i : grid6.Coords) (arg1 : Memref sig .tc .vmem S5000x64 .bf16) (harg1 : arg1.IsWhole) (arg2 : Memref sig .tc .vmem S5000x64 .bf16) (harg2 : arg2.IsWhole) (arg3 : Memref sig .tc .vmem S5000x64 .bf16) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .bf16) (harg8 : arg8.IsWhole)
    (x0 : Vec F S5000x64 .bf16) (x1 : Vec F S5000x64 .bf16) (x2 : Vec F S5000x64 .bf16) (x3 : Vec F S64x64 .f32) (x4 : Vec F S64x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__proj3_kernel i arg1 harg1 arg2 harg2 arg3 harg3 arg4 harg4 arg5 harg5 arg6 harg6 arg7 harg7 arg8 harg8) K := by
  simp only [cc6__proj3_kernel_eq_skeleton]; unfold cc6__proj3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of pipeline 6 on core `c`: the arrays as the region finds them; after the body at point `t`
    each input's buffer still at its block and the output's at `out6_7` of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' buffers hold their blocks, so the body's triple applies; the invariant and
    the core's debts pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
/- Pipeline 7 of @main — the projection of the three layers' features on one block of 5000 rows: each layer's
   block times its own 64×64 weight, the three products summed, plus the bias row, stored as the output window's whole
   block. This module gives the region's proof data at any entry contents `V`: every input window's buffer holds its
   block of `V` at every grid point (the weights and the bias are fetched once and never move), the output's buffer
   after the body is the body's one store, and the body obligation of the pipeline. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0: its current staging buffer holds its block at every grid point, whether or not the block was
    fetched there (where it was not, the block index has not moved since the fetch), for any proof data whose array
    is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1: its current staging buffer holds its block at every grid point, whether or not the block was
    fetched there (where it was not, the block index has not moved since the fetch), for any proof data whose array
    is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2: its current staging buffer holds its block at every grid point, whether or not the block was
    fetched there (where it was not, the block index has not moved since the fetch), for any proof data whose array
    is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3: its current staging buffer holds its block at every grid point, whether or not the block was
    fetched there (where it was not, the block index has not moved since the fetch), for any proof data whose array
    is the entry contents and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4: its current staging buffer holds its block at every grid point, whether or not the block was
    fetched there (where it was not, the block index has not moved since the fetch), for any proof data whose array
    is the entry contents and whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5: its current staging buffer holds its block at every grid point, whether or not the block was
    fetched there (where it was not, the block index has not moved since the fetch), for any proof data whose array
    is the entry contents and whose body leaves the block in place. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6: its current staging buffer holds its block at every grid point, whether or not the block was
    fetched there (where it was not, the block index has not moved since the fetch), for any proof data whose array
    is the entry contents and whose body leaves the block in place. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-! ## The rectangles the body reads and writes: each a whole buffer -/

abbrev r7_0 : Rect S5000x64 := Rect.unit (s := S5000x64) ![0, 0] S5000x64.size inb_S5000x64_S5000x64_0_0
abbrev r7_1 : Rect S64x64 := Rect.unit (s := S64x64) ![0, 0] S64x64.size inb_S64x64_S64x64_0_0
abbrev r7_2 : Rect S1x64 := Rect.unit (s := S1x64) ![0, 0] S1x64.size inb_S1x64_S1x64_0_0

/-! ## What the body leaves in the output window's buffer -/

/-- Window 7's staging buffer after the body, as a function of the input blocks: the body's one store, of the whole
    block, whose value is the skeleton's payload of the loaded input blocks. -/
def out7_7 (x0 : Vec F S5000x64 .bf16) (x1 : Vec F S5000x64 .bf16) (x2 : Vec F S5000x64 .bf16) (x3 : Vec F S64x64 .f32) (x4 : Vec F S64x64 .f32) (x5 : Vec F S64x64 .f32) (x6 : Vec F S1x64 .f32) : Vec F S5000x64 .bf16 :=
  View.canon [⟨r7_0, k7_pay1 (View.ld x0 r7_0) (View.ld x1 r7_0) (View.ld x2 r7_0) (View.ld x3 r7_1) (View.ld x4 r7_1) (View.ld x5 r7_1) (View.ld x6 r7_2)⟩]

/-- The store's rectangle is the whole buffer, so it covers it. -/
theorem cover7_7 (p0 : Vec F S5000x64 .bf16) (y : S5000x64.Idx) :
    ∃ pc ∈ ([⟨r7_0, p0⟩] : List (View.Piece (Elt F) S5000x64 .bf16)), y ∈ pc.1.set :=
  View.cover_of_tiled [⟨r7_0, p0⟩] S5000x64.size (by rfl) y

/-! ## The body's triple -/

set_option maxHeartbeats 1000000 in
/-- The kernel body on whole staging buffers, the inputs' holding `x_w` and the output's anything, runs to the
    continuation with the inputs' as they were and the output's at `out7_7` of the inputs. -/
theorem sound_kernel7 (c : Dev nD) (E : Set ℕ) (i : grid7.Coords) (arg1 : Memref sig .tc .vmem S5000x64 .bf16) (harg1 : arg1.IsWhole) (arg2 : Memref sig .tc .vmem S5000x64 .bf16) (harg2 : arg2.IsWhole) (arg3 : Memref sig .tc .vmem S5000x64 .bf16) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .bf16) (harg8 : arg8.IsWhole)
    (x0 : Vec F S5000x64 .bf16) (x1 : Vec F S5000x64 .bf16) (x2 : Vec F S5000x64 .bf16) (x3 : Vec F S64x64 .f32) (x4 : Vec F S64x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__proj3_kernel i arg1 harg1 arg2 harg2 arg3 harg3 arg4 harg4 arg5 harg5 arg6 harg6 arg7 harg7 arg8 harg8) K := by
  simp only [cc7__proj3_kernel_eq_skeleton]; unfold cc7__proj3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7_7 _)

/-! ## The pipeline's proof data -/

/-- The proof data of pipeline 7 on core `c`: the arrays as the region finds them; after the body at point `t`
    each input's buffer still at its block and the output's at `out7_7` of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so the body's triple applies; the invariant and
    the core's debts pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ (grid7.coords t) _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.RLib.lean ====
import Idealize.ShloMosaic.Lib.Pipeline.FrameBody
import Idealize.ShloMosaic.Lib.Pipeline.Frame
import Idealize.ShloMosaic.Lib.Tactic

noncomputable section

namespace Cert.KernelIdeal.Hand

open Idealize.ShloMosaic Idealize.SL Idealize.SL.Sem

/-! # Whole-buffer accesses at rank two

A unit-stride rectangle from the origin whose extents are the shape's own is the whole shape: it indexes the
shape identically, a load through it reads the buffer's contents, and a store through it leaves its payload as
the buffer's contents, whatever was stored before. -/

section Whole

variable {sig : RefSig} {κ : Kind} {sp : Space} {d : Fin 2 → ℕ} {e : EltTy} {Val : EltTy → Type}

theorem unit00_emb (inb : ∀ a, (![0, 0] : Fin 2 → ℕ) a + d a ≤ (⟨2, d⟩ : Shape).size a)
    (x : (Rect.unit (s := ⟨2, d⟩) ![0, 0] d inb).shape.Idx) :
    (Rect.unit (s := ⟨2, d⟩) ![0, 0] d inb).emb x = x := by
  funext a; apply Fin.ext; rw [Rect.emb_apply]
  revert a; refine Fin.forall_fin_two.mpr ⟨?_, ?_⟩ <;> simp

theorem unit00_idx (inb : ∀ a, (![0, 0] : Fin 2 → ℕ) a + d a ≤ (⟨2, d⟩ : Shape).size a)
    (x : (Rect.unit (s := ⟨2, d⟩) ![0, 0] d inb).toLoadRect.shape.Idx) :
    (Rect.unit (s := ⟨2, d⟩) ![0, 0] d inb).toLoadRect.idx x = x :=
  unit00_emb inb x

/-- A store through the whole rectangle leaves its payload, whatever the earlier stores. -/
theorem read_writes_unit00 (v : View sig κ sp ⟨2, d⟩ e) (f : v.ty.Contents Val)
    (inb : ∀ a, (![0, 0] : Fin 2 → ℕ) a + d a ≤ (⟨2, d⟩ : Shape).size a)
    (w : (Rect.unit (s := ⟨2, d⟩) ![0, 0] d inb).shape.Idx → Val e) (L : List (View.Piece Val ⟨2, d⟩ e)) :
    v.read Val (v.writes Val f (⟨Rect.unit (s := ⟨2, d⟩) ![0, 0] d inb, w⟩ :: L)) = w := by
  funext y
  have h := View.read_writes_cons_emb (v := v) (f := f) (Rect.unit (s := ⟨2, d⟩) ![0, 0] d inb) w L y
  rw [unit00_emb inb y] at h; exact h

/-- A load through the whole rectangle reads the buffer's contents. -/
theorem readAt_unit00 (v : View sig κ sp ⟨2, d⟩ e) (f : v.ty.Contents Val)
    (inb : ∀ a, (![0, 0] : Fin 2 → ℕ) a + d a ≤ (⟨2, d⟩ : Shape).size a) :
    v.readAt Val (Rect.unit (s := ⟨2, d⟩) ![0, 0] d inb).toLoadRect f = v.read Val f := by
  funext x
  rw [View.readAt_apply, unit00_idx inb x]

/-- A load through the whole rectangle of a whole buffer holding `X` reads `X`. -/
theorem readAt_unread00 {m : Memref sig κ sp ⟨2, d⟩ e} (h : m.IsWhole) (X : (⟨2, d⟩ : Shape).Idx → Val e)
    (inb : ∀ a, (![0, 0] : Fin 2 → ℕ) a + d a ≤ (⟨2, d⟩ : Shape).size a) :
    m.view.readAt Val (Rect.unit (s := ⟨2, d⟩) ![0, 0] d inb).toLoadRect (h.unread X) = X :=
  (readAt_unit00 m.view _ inb).trans (h.read_unread X)

end Whole

end Cert.KernelIdeal.Hand

end
-- ==== Proof.KI.R8Run.lean ====
import proofs.«176278_j29592324669622_2_alg».proof.Proof.KI.RLib
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: the kernel body on any whole staging memrefs, case by case

The body's two conditionals are decided by the grid point alone: the first is taken at the first point (the two
accumulators are zeroed), the second at the last (the accumulators are copied to the two last output windows). -/

/-! ## The body's branch conditions -/

/-- The condition of the body's first conditional, from the grid coordinates. -/
abbrev cond8_1 (i : grid8.Coords) : Prop := (Scalar.cmpi .ne (Scalar.extui (Scalar.cmpi .eq (BitVec.ofNat 32 (i 0).val) 0#32)) 0#32) = 1#1
/-- It holds at the first point only. -/
theorem hcond8_1 : ∀ t : Fin cfg8.N, cond8_1 (grid8.coords t) ↔ t.val % 100 = 0 :=
  (by decide +kernel : ∀ t : Fin grid8.N, cond8_1 (grid8.coords t) ↔ t.val % 100 = 0)
/-- The condition of the body's second conditional. -/
abbrev cond8_2 (i : grid8.Coords) : Prop := k8_cond2 i = 1#1
/-- It holds at the last point only. -/
theorem hcond8_2 : ∀ t : Fin cfg8.N, cond8_2 (grid8.coords t) ↔ t.val % 100 = 99 :=
  (by decide +kernel : ∀ t : Fin grid8.N, cond8_2 (grid8.coords t) ↔ t.val % 100 = 99)

/-! ## The three runs -/

set_option maxHeartbeats 4000000 in
/-- The body at the first point: the accumulators, at anything, are zeroed first; then as at any point. -/
theorem run8_first (c : Dev nD) (E : Set ℕ) (i : grid8.Coords) (arg1 : Memref sig .tc .vmem S5000x64 .bf16) (harg1 : arg1.IsWhole) (arg2 : Memref sig .tc .vmem S5000x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : cond8_1 i) (hc2 : ¬cond8_2 i)
    (x0 x1 : Vec F S5000x64 .bf16) (w0 w1 : Vec F S64x64 .f32) (b : Vec F S1x64 .f32) (d6 d7 : Vec F S1x64 .f32) (K : PUnit → sProp 𝕄) :
    iprop(owns (c : Thread nD τ) arg1 fullShare x0 ∗ owns (c : Thread nD τ) arg2 fullShare x1 ∗ owns (c : Thread nD τ) arg3 fullShare w0
        ∗ owns (c : Thread nD τ) arg4 fullShare w1 ∗ owns (c : Thread nD τ) arg5 fullShare b ∗ (∃ d, owns (c : Thread nD τ) arg6 fullShare d)
        ∗ owns (c : Thread nD τ) arg7 fullShare d6 ∗ owns (c : Thread nD τ) arg8 fullShare d7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare w0
            ∗ owns (c : Thread nD τ) arg4 fullShare w1 ∗ owns (c : Thread nD τ) arg5 fullShare b
            ∗ owns (c : Thread nD τ) arg6 fullShare (k8_pay4 x0 x1 w0 w1 b)
            ∗ owns (c : Thread nD τ) arg7 fullShare (d6) ∗ owns (c : Thread nD τ) arg8 fullShare (d7)
            ∗ owns (c : Thread nD τ) arg9 fullShare (k8_pay5 x0 x1 w0 w1 b (k8_pay2 (F := F)))
            ∗ owns (c : Thread nD τ) arg10 fullShare (k8_pay1 (k8_pay3 (F := F)) (k8_pay6 x0 x1 w0 w1 b))) -∗ K ⟨⟩))
      ⊢ wp frame (wpE (defs₀ (F := F)) Variants.none c none) E (cc8__affine2_stats_kernel i arg1 harg1 arg2 harg2 arg3 harg3 arg4 harg4 arg5 harg5 arg6 harg6 arg7 harg7 arg8 harg8 arg9 harg9 arg10 harg10) K := by
  simp only [cc8__affine2_stats_kernel_eq_skeleton]; unfold cc8__affine2_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6', %f6, -, H6⟩, ⟨%f7, %hf7, H7⟩, ⟨%f8, %hf8, H8⟩, ⟨%d9', %f9, -, H9⟩, ⟨%d10', %f10, -, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg7.eq_unread hf7; obtain rfl := harg8.eq_unread hf8
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    swap; · iexact H6
    ipureintro
    refine (read_writes_unit00 _ _ _ _ _).trans ?_
    rw [readAt_unread00 harg1, readAt_unread00 harg2, readAt_unread00 harg3, readAt_unread00 harg4, readAt_unread00 harg5]
  isplitl [H7]
  · iexists _; isplitr
    · ipureintro; exact hf7
    · iexact H7
  isplitl [H8]
  · iexists _; isplitr
    · ipureintro; exact hf8
    · iexact H8
  isplitl [H9]
  · iexists _; isplitr
    swap; · iexact H9
    ipureintro
    refine (read_writes_unit00 _ _ _ _ _).trans ?_
    unfold run8_first.sl.v21
    rw [readAt_unread00 harg1, readAt_unread00 harg2, readAt_unread00 harg3, readAt_unread00 harg4, readAt_unread00 harg5]
    unfold run8_first.sl.H9_1
    exact congrArg (k8_pay5 x0 x1 w0 w1 b) (View.readCov_cons_toLoadRect _ _ _ _)
  iexists _; isplitr
  swap; · iexact H10
  ipureintro
  refine (read_writes_unit00 _ _ _ _ _).trans ?_
  unfold run8_first.sl.v28 run8_first.sl.r
  rw [readAt_unread00 harg1, readAt_unread00 harg2, readAt_unread00 harg3, readAt_unread00 harg4, readAt_unread00 harg5]
  unfold run8_first.sl.H10_1
  exact congrArg (fun s => k8_pay1 s (k8_pay6 x0 x1 w0 w1 b)) (View.readCov_cons_toLoadRect _ _ _ _)

set_option maxHeartbeats 4000000 in
/-- The body at a point that is neither the first nor the last: the image stored, each accumulator raised by the point's sums,
    the two last output windows untouched. -/
theorem run8_mid (c : Dev nD) (E : Set ℕ) (i : grid8.Coords) (arg1 : Memref sig .tc .vmem S5000x64 .bf16) (harg1 : arg1.IsWhole) (arg2 : Memref sig .tc .vmem S5000x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : ¬cond8_1 i) (hc2 : ¬cond8_2 i)
    (x0 x1 : Vec F S5000x64 .bf16) (w0 w1 : Vec F S64x64 .f32) (b : Vec F S1x64 .f32) (d6 d7 s0 s1 : Vec F S1x64 .f32) (K : PUnit → sProp 𝕄) :
    iprop(owns (c : Thread nD τ) arg1 fullShare x0 ∗ owns (c : Thread nD τ) arg2 fullShare x1 ∗ owns (c : Thread nD τ) arg3 fullShare w0
        ∗ owns (c : Thread nD τ) arg4 fullShare w1 ∗ owns (c : Thread nD τ) arg5 fullShare b ∗ (∃ d, owns (c : Thread nD τ) arg6 fullShare d)
        ∗ owns (c : Thread nD τ) arg7 fullShare d6 ∗ owns (c : Thread nD τ) arg8 fullShare d7
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare w0
            ∗ owns (c : Thread nD τ) arg4 fullShare w1 ∗ owns (c : Thread nD τ) arg5 fullShare b
            ∗ owns (c : Thread nD τ) arg6 fullShare (k8_pay4 x0 x1 w0 w1 b)
            ∗ owns (c : Thread nD τ) arg7 fullShare (d6) ∗ owns (c : Thread nD τ) arg8 fullShare (d7)
            ∗ owns (c : Thread nD τ) arg9 fullShare (k8_pay5 x0 x1 w0 w1 b s0)
            ∗ owns (c : Thread nD τ) arg10 fullShare (k8_pay1 s1 (k8_pay6 x0 x1 w0 w1 b))) -∗ K ⟨⟩))
      ⊢ wp frame (wpE (defs₀ (F := F)) Variants.none c none) E (cc8__affine2_stats_kernel i arg1 harg1 arg2 harg2 arg3 harg3 arg4 harg4 arg5 harg5 arg6 harg6 arg7 harg7 arg8 harg8 arg9 harg9 arg10 harg10) K := by
  simp only [cc8__affine2_stats_kernel_eq_skeleton]; unfold cc8__affine2_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6', %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg7.eq_unread hf7; obtain rfl := harg8.eq_unread hf8
  obtain rfl := harg9.eq_unread hf9; obtain rfl := harg10.eq_unread hf10
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    swap; · iexact H6
    ipureintro
    refine (read_writes_unit00 _ _ _ _ _).trans ?_
    rw [readAt_unread00 harg1, readAt_unread00 harg2, readAt_unread00 harg3, readAt_unread00 harg4, readAt_unread00 harg5]
  isplitl [H7]
  · iexists _; isplitr
    · ipureintro; exact hf7
    · iexact H7
  isplitl [H8]
  · iexists _; isplitr
    · ipureintro; exact hf8
    · iexact H8
  isplitl [H9]
  · iexists _; isplitr
    swap; · iexact H9
    ipureintro
    refine (read_writes_unit00 _ _ _ _ _).trans ?_
    rw [readAt_unread00 harg1, readAt_unread00 harg2, readAt_unread00 harg3, readAt_unread00 harg4, readAt_unread00 harg5, readAt_unread00 harg9]
  iexists _; isplitr
  swap; · iexact H10
  ipureintro
  refine (read_writes_unit00 _ _ _ _ _).trans ?_
  unfold run8_mid.sl.r run8_mid.sl.r_1
  rw [readAt_unread00 harg1, readAt_unread00 harg2, readAt_unread00 harg3, readAt_unread00 harg4, readAt_unread00 harg5, readAt_unread00 harg10]

set_option maxHeartbeats 4000000 in
/-- The body at the last point: as at a middle point, then each accumulator is copied into its output window. -/
theorem run8_last (c : Dev nD) (E : Set ℕ) (i : grid8.Coords) (arg1 : Memref sig .tc .vmem S5000x64 .bf16) (harg1 : arg1.IsWhole) (arg2 : Memref sig .tc .vmem S5000x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc1 : ¬cond8_1 i) (hc2 : cond8_2 i)
    (x0 x1 : Vec F S5000x64 .bf16) (w0 w1 : Vec F S64x64 .f32) (b : Vec F S1x64 .f32) (s0 s1 : Vec F S1x64 .f32) (K : PUnit → sProp 𝕄) :
    iprop(owns (c : Thread nD τ) arg1 fullShare x0 ∗ owns (c : Thread nD τ) arg2 fullShare x1 ∗ owns (c : Thread nD τ) arg3 fullShare w0
        ∗ owns (c : Thread nD τ) arg4 fullShare w1 ∗ owns (c : Thread nD τ) arg5 fullShare b ∗ (∃ d, owns (c : Thread nD τ) arg6 fullShare d)
        ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare w0
            ∗ owns (c : Thread nD τ) arg4 fullShare w1 ∗ owns (c : Thread nD τ) arg5 fullShare b
            ∗ owns (c : Thread nD τ) arg6 fullShare (k8_pay4 x0 x1 w0 w1 b)
            ∗ owns (c : Thread nD τ) arg7 fullShare (k8_pay5 x0 x1 w0 w1 b s0) ∗ owns (c : Thread nD τ) arg8 fullShare (k8_pay1 s1 (k8_pay6 x0 x1 w0 w1 b))
            ∗ owns (c : Thread nD τ) arg9 fullShare (k8_pay5 x0 x1 w0 w1 b s0)
            ∗ owns (c : Thread nD τ) arg10 fullShare (k8_pay1 s1 (k8_pay6 x0 x1 w0 w1 b))) -∗ K ⟨⟩))
      ⊢ wp frame (wpE (defs₀ (F := F)) Variants.none c none) E (cc8__affine2_stats_kernel i arg1 harg1 arg2 harg2 arg3 harg3 arg4 harg4 arg5 harg5 arg6 harg6 arg7 harg7 arg8 harg8 arg9 harg9 arg10 harg10) K := by
  simp only [cc8__affine2_stats_kernel_eq_skeleton]; unfold cc8__affine2_stats_kernel_skel
  simp only [k8_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6', %f6, -, H6⟩, ⟨%d7', %f7, -, H7⟩, ⟨%d8', %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5
  obtain rfl := harg9.eq_unread hf9; obtain rfl := harg10.eq_unread hf10
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    swap; · iexact H6
    ipureintro
    refine (read_writes_unit00 _ _ _ _ _).trans ?_
    rw [readAt_unread00 harg1, readAt_unread00 harg2, readAt_unread00 harg3, readAt_unread00 harg4, readAt_unread00 harg5]
  isplitl [H7]
  · iexists _; isplitr
    swap; · iexact H7
    ipureintro
    refine (read_writes_unit00 _ _ _ _ _).trans ?_
    unfold run8_last.sl.v39 run8_last.sl.H9_1
    refine (View.readCov_cons_toLoadRect _ _ _ _).trans ?_
    rw [readAt_unread00 harg1, readAt_unread00 harg2, readAt_unread00 harg3, readAt_unread00 harg4, readAt_unread00 harg5, readAt_unread00 harg9]
  isplitl [H8]
  · iexists _; isplitr
    swap; · iexact H8
    ipureintro
    refine (read_writes_unit00 _ _ _ _ _).trans ?_
    unfold run8_last.sl.v41 run8_last.sl.H10_1
    refine (View.readCov_cons_toLoadRect _ _ _ _).trans ?_
    unfold run8_last.sl.r run8_last.sl.r_1
    rw [readAt_unread00 harg1, readAt_unread00 harg2, readAt_unread00 harg3, readAt_unread00 harg4, readAt_unread00 harg5, readAt_unread00 harg10]
  isplitl [H9]
  · iexists _; isplitr
    swap; · iexact H9
    ipureintro
    unfold run8_last.sl.H9_1
    refine (read_writes_unit00 _ _ _ _ _).trans ?_
    rw [readAt_unread00 harg1, readAt_unread00 harg2, readAt_unread00 harg3, readAt_unread00 harg4, readAt_unread00 harg5, readAt_unread00 harg9]
  iexists _; isplitr
  swap; · iexact H10
  ipureintro
  unfold run8_last.sl.H10_1
  refine (read_writes_unit00 _ _ _ _ _).trans ?_
  unfold run8_last.sl.r run8_last.sl.r_1
  rw [readAt_unread00 harg1, readAt_unread00 harg2, readAt_unread00 harg3, readAt_unread00 harg4, readAt_unread00 harg5, readAt_unread00 harg10]

end Cert.KernelIdeal.Hand

end
-- ==== Proof.KI.R8.lean ====
import proofs.«176278_j29592324669622_2_alg».proof.Proof.KI.R8Run
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the affine map of two inputs with running column sums -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The affine image of the two input blocks at point `t`: what the body stores into output window 5. -/
def acc8 (c : Dev nD) (t : Fin cfg8.N) : Vec F S5000x64 .f32 :=
  k8_pay4 (iblk8 V c 0 t) (iblk8 V c 1 t) (iblk8 V c 2 t) (iblk8 V c 3 t) (iblk8 V c 4 t)

/-- The first accumulator after a point, from its contents `s` before: `s` plus the column sums of the point's image. -/
def sum8 (c : Dev nD) (t : Fin cfg8.N) (s : Vec F S1x64 .f32) : Vec F S1x64 .f32 :=
  k8_pay5 (iblk8 V c 0 t) (iblk8 V c 1 t) (iblk8 V c 2 t) (iblk8 V c 3 t) (iblk8 V c 4 t) s

/-- The second accumulator after a point, from its contents `s` before: `s` plus the column sums of the squared image. -/
def sq8 (c : Dev nD) (t : Fin cfg8.N) (s : Vec F S1x64 .f32) : Vec F S1x64 .f32 :=
  k8_pay1 s (k8_pay6 (iblk8 V c 0 t) (iblk8 V c 1 t) (iblk8 V c 2 t) (iblk8 V c 3 t) (iblk8 V c 4 t))

/-- The two accumulators after the body at point `n`: zeroed at the first point, then each point adds its sums. -/
def sc8 (c : Dev nD) : (n : ℕ) → n < cfg8.N → Vec F S1x64 .f32 × Vec F S1x64 .f32
  | 0, hn => (sum8 V c ⟨0, hn⟩ (k8_pay2 (F := F)), sq8 V c ⟨0, hn⟩ (k8_pay3 (F := F)))
  | n + 1, hn => (sum8 V c ⟨n + 1, hn⟩ (sc8 c n (Nat.lt_of_succ_lt hn)).1, sq8 V c ⟨n + 1, hn⟩ (sc8 c n (Nat.lt_of_succ_lt hn)).2)

theorem sc8_zero (c : Dev nD) (t : Fin cfg8.N) (h : t.val = 0) :
    sc8 V c t.val t.isLt = (sum8 V c t (k8_pay2 (F := F)), sq8 V c t (k8_pay3 (F := F))) := by
  obtain ⟨n, hn⟩ := t
  cases n with
  | zero => rfl
  | succ n => exact absurd h (Nat.succ_ne_zero n)

theorem sc8_pos (c : Dev nD) (t : Fin cfg8.N) (h : t.val ≠ 0) :
    sc8 V c t.val t.isLt = (sum8 V c t (sc8 V c (t.val - 1) (Nat.lt_of_le_of_lt (Nat.sub_le _ _) t.isLt)).1,
      sq8 V c t (sc8 V c (t.val - 1) (Nat.lt_of_le_of_lt (Nat.sub_le _ _) t.isLt)).2) := by
  obtain ⟨n, hn⟩ := t
  cases n with
  | zero => exact absurd rfl h
  | succ n => rfl

/-- The two scratch operands as memrefs. -/
abbrev scM8_0 : Memref sig .tc .vmem S1x64 .f32 := Memref.whole cc8_scratch0
abbrev scM8_1 : Memref sig .tc .vmem S1x64 .f32 := Memref.whole cc8_scratch1

/-- The region's invariant before position `n`. Before the first point it holds the generator register and every scoped
    buffer that no window stages, each at some contents; afterwards it holds the two accumulators at what the point before
    left in them, and the other such buffers at some contents. -/
def Phi8 (c : Dev nD) : (n : ℕ) → n ≤ cfg8.N → sProp 𝕄
  | 0, _ => iprop((∃ r, prngReg c r) ∗ Pipeline.scopedRest spec8 c)
  | n + 1, hn => iprop((∃ r, prngReg c r) ∗ owns (c : Thread nD τ) scM8_0 fullShare (sc8 V c n hn).1
      ∗ owns (c : Thread nD τ) scM8_1 fullShare (sc8 V c n hn).2
      ∗ Pipeline.scopedRestBut spec8 c [cc8_scratch0, cc8_scratch1])

/-- The proof data of pipeline 8 on core `c`. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => acc8 V c t
    | ⟨6, _⟩ => (sc8 V c t.val t.isLt).1
    | ⟨7, _⟩ => (sc8 V c t.val t.isLt).2
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem Phi8_zero (c : Dev nD) (n : ℕ) (h : n ≤ cfg8.N) (hz : n = 0) :
    Phi8 V c n h = iprop((∃ r, prngReg c r) ∗ Pipeline.scopedRest spec8 c) := by
  subst hz; rfl

theorem Phi8_succ (c : Dev nD) (n : ℕ) (hn : n < cfg8.N) :
    Phi8 V c (n + 1) hn = iprop((∃ r, prngReg c r) ∗ owns (c : Thread nD τ) scM8_0 fullShare (sc8 V c n hn).1
      ∗ owns (c : Thread nD τ) scM8_1 fullShare (sc8 V c n hn).2
      ∗ Pipeline.scopedRestBut spec8 c [cc8_scratch0, cc8_scratch1]) := rfl

theorem Phi8_pos (c : Dev nD) (n : ℕ) (h : n ≤ cfg8.N) (hz : n ≠ 0) :
    Phi8 V c n h = iprop((∃ r, prngReg c r) ∗ owns (c : Thread nD τ) scM8_0 fullShare (sc8 V c (n - 1) (by omega)).1
      ∗ owns (c : Thread nD τ) scM8_1 fullShare (sc8 V c (n - 1) (by omega)).2
      ∗ Pipeline.scopedRestBut spec8 c [cc8_scratch0, cc8_scratch1]) := by
  cases n with
  | zero => exact absurd rfl hz
  | succ n => rfl

theorem Phi8_castSucc (c : Dev nD) (t : Fin cfg8.N) :
    (dat8 V c).Φ t.castSucc = Phi8 V c t.val (Nat.le_of_lt t.isLt) := by
  dsimp only [dat8]; simp only [Fin.coe_castSucc]

/-- The scoped buffers no window stages, with the two accumulators as memrefs owned at some contents. -/
theorem scopedRest8_owns (c : Dev nD) :
    (Pipeline.scopedRest spec8 c : sProp 𝕄)
      = iprop(iprop((∃ d, owns (c : Thread nD τ) scM8_0 fullShare d) ∗ (∃ d, owns (c : Thread nD τ) scM8_1 fullShare d))
          ∗ Pipeline.scopedRestBut spec8 c [cc8_scratch0, cc8_scratch1]) := by
  rw [scopedRest8_split]; simp only [scM8_0, scM8_1, owns_whole]; try rfl

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = acc8 V c t := by dsimp only [dat8]
theorem after8_6 (c : Dev nD) (t : Fin cfg8.N) : (dat8 V c).after 6 t = (sc8 V c t.val t.isLt).1 := by dsimp only [dat8]
theorem after8_7 (c : Dev nD) (t : Fin cfg8.N) : (dat8 V c).after 7 t = (sc8 V c t.val t.isLt).2 := by dsimp only [dat8]

/-- Input window 0's current staging buffer holds its block at every point, fetched there or not. -/
theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
/-- Input window 1's current staging buffer holds its block at every point, fetched there or not. -/
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)
/-- Input window 2's current staging buffer holds its block at every point, fetched there or not. -/
theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)
/-- Input window 3's current staging buffer holds its block at every point, fetched there or not. -/
theorem before8_3 (c : Dev nD) (t : Fin cfg8.N) (d) : (dat8 V c).before 3 t d = iblk8 V c 3 t :=
  ((dat8 V c).before_in_eq_fetched 3 rfl (fun _ => rfl) (fun _ _ _ => rfl) (fun t => by rw [after8_3]; unfold Dat.blockOf iblk8; rw [A_eq8]; try rfl) t d).trans
    (by unfold Dat.fetched Dat.blockOf iblk8; rw [A_eq8]; try rfl)
/-- Input window 4's current staging buffer holds its block at every point, fetched there or not. -/
theorem before8_4 (c : Dev nD) (t : Fin cfg8.N) (d) : (dat8 V c).before 4 t d = iblk8 V c 4 t :=
  ((dat8 V c).before_in_eq_fetched 4 rfl (fun _ => rfl) (fun _ _ _ => rfl) (fun t => by rw [after8_4]; unfold Dat.blockOf iblk8; rw [A_eq8]; try rfl) t d).trans
    (by unfold Dat.fetched Dat.blockOf iblk8; rw [A_eq8]; try rfl)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
theorem liveAt8_4 : ∀ t : Fin cfg8.N, cfg8.idle 4 (grid8.coords t) = false := by decide +kernel
theorem liveAt8_5 : ∀ t : Fin cfg8.N, cfg8.idle 5 (grid8.coords t) = false := by decide +kernel
theorem idleAt8_6 : ∀ t : Fin cfg8.N, ¬cond8_2 (grid8.coords t) → cfg8.idle 6 (grid8.coords t) = true := by decide +kernel
theorem noFlush8_6 : ∀ t : Fin cfg8.N, ¬cond8_2 (grid8.coords t) → (cfg8.win 6).flush t = false := by decide +kernel
theorem liveAt8_6 : ∀ t : Fin cfg8.N, cond8_2 (grid8.coords t) → cfg8.idle 6 (grid8.coords t) = false := by decide +kernel
theorem idleAt8_7 : ∀ t : Fin cfg8.N, ¬cond8_2 (grid8.coords t) → cfg8.idle 7 (grid8.coords t) = true := by decide +kernel
theorem noFlush8_7 : ∀ t : Fin cfg8.N, ¬cond8_2 (grid8.coords t) → (cfg8.win 7).flush t = false := by decide +kernel
theorem liveAt8_7 : ∀ t : Fin cfg8.N, cond8_2 (grid8.coords t) → cfg8.idle 7 (grid8.coords t) = false := by decide +kernel

/-! ## The body obligation -/

abbrev ms8_0 (t : Fin cfg8.N) := win8_0.stage (cfg8.slots t 0)
abbrev ms8_1 (t : Fin cfg8.N) := win8_1.stage (cfg8.slots t 1)
abbrev ms8_2 (t : Fin cfg8.N) := win8_2.stage (cfg8.slots t 2)
abbrev ms8_3 (t : Fin cfg8.N) := win8_3.stage (cfg8.slots t 3)
abbrev ms8_4 (t : Fin cfg8.N) := win8_4.stage (cfg8.slots t 4)
abbrev ms8_5 (t : Fin cfg8.N) := win8_5.stage (cfg8.slots t 5)
abbrev ms8_6 (t : Fin cfg8.N) := win8_6.stage (cfg8.slots t 6)
abbrev ms8_7 (t : Fin cfg8.N) := win8_7.stage (cfg8.slots t 7)

/-- What the body is called with at point `t`, the windows one by one. -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

/-- What the body returns at point `t`. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
/-- The body at any point: the inputs' memrefs hold their blocks; the point decides the case; the invariant hands the body the
    two accumulators at what the point before left (at anything at the first point) and takes them back at this point's contents. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = Phi8 V c (t.val + 1) t.isLt from rfl, Phi8_succ]
  have hN : t.val < 100 := lt_of_lt_of_eq t.isLt (show cfg8.N = 100 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5 t], after8_5]
  unfold acc8
  by_cases h1 : t.val % 100 = 0
  · have hc1 : cond8_1 (grid8.coords t) := (hcond8_1 t).mpr h1
    have hc2 : ¬cond8_2 (grid8.coords t) := fun h => by have := (hcond8_2 t).mp h; omega
    have hz : t.val = 0 := by omega
    rw [Dat.leavesExact_idle (dat8 V c) 6 t (idleAt8_6 t hc2) (noFlush8_6 t hc2),
      Dat.leavesExact_idle (dat8 V c) 7 t (idleAt8_7 t hc2) (noFlush8_7 t hc2)]
    rw [sc8_zero V c t hz]
    unfold sum8 sq8; (try dsimp only)
    rw [Phi8_castSucc, Phi8_zero V c _ _ hz, scopedRest8_owns]
    iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run8_first c Set.univ (grid8.coords t) _ _ _ _ _ _ _ _ _ _ _ _ _ _ _ _ _ _ _ _ hc1 hc2 (iblk8 V c 0 t) (iblk8 V c 1 t) (iblk8 V c 2 t) (iblk8 V c 3 t) (iblk8 V c 4 t) ((dat8 V c).before 6 t d6) ((dat8 V c).before 7 t d7) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [Hg HS0 HS1 Hrest]
    · isplitl [Hg]; · iexact Hg
      isplitl [HS0]; · iexact HS0
      isplitl [HS1]; · iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have hc1 : ¬cond8_1 (grid8.coords t) := fun h => h1 ((hcond8_1 t).mp h)
    have hz : t.val ≠ 0 := by omega
    rw [sc8_pos V c t hz]
    unfold sum8 sq8; (try dsimp only)
    rw [Phi8_castSucc, Phi8_pos V c _ _ hz]
    by_cases h2 : t.val % 100 = 99
    · have hc2 : cond8_2 (grid8.coords t) := (hcond8_2 t).mpr h2
      rw [show (dat8 V c).leavesExact 6 t = owns (c : Thread nD τ) (ms8_6 t) fullShare ((dat8 V c).after 6 t) from by
        unfold Dat.leavesExact; rw [liveAt8_6 t hc2], after8_6]
      rw [show (dat8 V c).leavesExact 7 t = owns (c : Thread nD τ) (ms8_7 t) fullShare ((dat8 V c).after 7 t) from by
        unfold Dat.leavesExact; rw [liveAt8_7 t hc2], after8_7]
      rw [sc8_pos V c t hz]
      unfold sum8 sq8; (try dsimp only)
      iintro ⟨⟨Hg, HS0, HS1, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run8_last c Set.univ (grid8.coords t) _ _ _ _ _ _ _ _ _ _ _ _ _ _ _ _ _ _ _ _ hc1 hc2 (iblk8 V c 0 t) (iblk8 V c 1 t) (iblk8 V c 2 t) (iblk8 V c 3 t) (iblk8 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [Hg HS0 HS1 Hrest]
      · isplitl [Hg]; · iexact Hg
        isplitl [HS0]; · iexact HS0
        isplitl [HS1]; · iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc2 : ¬cond8_2 (grid8.coords t) := fun h => h2 ((hcond8_2 t).mp h)
      rw [Dat.leavesExact_idle (dat8 V c) 6 t (idleAt8_6 t hc2) (noFlush8_6 t hc2),
        Dat.leavesExact_idle (dat8 V c) 7 t (idleAt8_7 t hc2) (noFlush8_7 t hc2)]
      iintro ⟨⟨Hg, HS0, HS1, Hrest⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run8_mid c Set.univ (grid8.coords t) _ _ _ _ _ _ _ _ _ _ _ _ _ _ _ _ _ _ _ _ hc1 hc2 (iblk8 V c 0 t) (iblk8 V c 1 t) (iblk8 V c 2 t) (iblk8 V c 3 t) (iblk8 V c 4 t) ((dat8 V c).before 6 t d6) ((dat8 V c).before 7 t d7) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [Hg HS0 HS1 Hrest]
      · isplitl [Hg]; · iexact Hg
        isplitl [HS0]; · iexact HS0
        isplitl [HS1]; · iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point: the table share (nothing is prefetched) is dropped. -/
theorem hin8 (c : Dev nD) (T : (pcfgs (F := F) 8).pre.Contents (Elt F)) :
    iprop((∃ r, prngReg c r) ∗ Pipeline.prefHeld (pcfgs (F := F) 8).pre c (fun _ => fullShare) T ∗ Pipeline.scopedRest spec8 c) ⊢ (dat8 V c).Φ 0 := by
  rw [show (dat8 V c).Φ 0 = Phi8 V c 0 (Nat.zero_le _) from rfl, Phi8_zero V c 0 _ rfl]
  iintro ⟨Hp, -, Hr⟩
  isplitl [Hp]; · iexact Hp
  iexact Hr

/-- After the last point the invariant gives the scoped buffers back: the accumulators' named contents are forgotten. -/
theorem hout8 (c : Dev nD) :
    (dat8 V c).Φ (Fin.last _) ⊢ iprop((∃ r, prngReg c r) ∗ Pipeline.ownSems0 (fun k : PEmpty => k.elim) c ∗ Pipeline.scopedRest spec8 c) := by
  rw [Pipeline.ownSems0_none, show (dat8 V c).Φ (Fin.last _) = Phi8 V c (Fin.last cfg8.N).val (Nat.le_of_lt_succ (Fin.last cfg8.N).isLt) from rfl,
    Phi8_pos V c _ _ (by rw [Fin.val_last]; have : cfg8.N = 100 := N_8; omega), scopedRest8_owns]
  iintro ⟨Hp, H0, H1, Hr⟩
  isplitl [Hp]; · iexact Hp
  isplitr; · iempintro
  isplitl [H0 H1]
  · isplitl [H0]; · iexists _; iexact H0
    iexists _; iexact H1
  iexact Hr

end Cert.KernelIdeal.Hand

end
-- ==== Proof.KI.R9Run.lean ====
import proofs.«176278_j29592324669622_2_alg».proof.Proof.KI.RLib
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: the kernel body on any whole staging memrefs, case by case

The body's two conditionals are decided by the grid point alone: the first is taken at the first point (the two
accumulators are zeroed), the second at the last (the accumulators are copied to the two last output windows). -/

/-! ## The body's branch conditions -/

/-- The condition of the body's first conditional, from the grid coordinates. -/
abbrev cond9_1 (i : grid9.Coords) : Prop := (Scalar.cmpi .ne (Scalar.extui (Scalar.cmpi .eq (BitVec.ofNat 32 (i 0).val) 0#32)) 0#32) = 1#1
/-- It holds at the first point only. -/
theorem hcond9_1 : ∀ t : Fin cfg9.N, cond9_1 (grid9.coords t) ↔ t.val % 100 = 0 :=
  (by decide +kernel : ∀ t : Fin grid9.N, cond9_1 (grid9.coords t) ↔ t.val % 100 = 0)
/-- The condition of the body's second conditional. -/
abbrev cond9_2 (i : grid9.Coords) : Prop := k9_cond2 i = 1#1
/-- It holds at the last point only. -/
theorem hcond9_2 : ∀ t : Fin cfg9.N, cond9_2 (grid9.coords t) ↔ t.val % 100 = 99 :=
  (by decide +kernel : ∀ t : Fin grid9.N, cond9_2 (grid9.coords t) ↔ t.val % 100 = 99)

/-! ## The three runs -/

set_option maxHeartbeats 4000000 in
/-- The body at the first point: the accumulators, at anything, are zeroed first; then as at any point. -/
theorem run9_first (c : Dev nD) (E : Set ℕ) (i : grid9.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole)
    (hc1 : cond9_1 i) (hc2 : ¬cond9_2 i)
    (x0 : Vec F S5000x64 .f32) (g bt mu vr : Vec F S1x64 .f32) (w : Vec F S64x32 .f32) (b : Vec F S1x32 .f32) (d8 d9 : Vec F S1x32 .f32) (K : PUnit → sProp 𝕄) :
    iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
        ∗ (∃ d, owns (c : Thread nD τ) arg8 fullShare d) ∗ owns (c : Thread nD τ) arg9 fullShare d8 ∗ owns (c : Thread nD τ) arg10 fullShare d9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
            ∗ owns (c : Thread nD τ) arg8 fullShare (k9_pay5 x0 g bt mu vr w b) ∗ owns (c : Thread nD τ) arg9 fullShare (d8) ∗ owns (c : Thread nD τ) arg10 fullShare (d9)
            ∗ owns (c : Thread nD τ) arg11 fullShare (k9_pay1 (k9_pay5 x0 g bt mu vr w b) (k9_pay3 (F := F))) ∗ owns (c : Thread nD τ) arg12 fullShare (k9_pay2 (k9_pay5 x0 g bt mu vr w b) (k9_pay4 (F := F)))) -∗ K ⟨⟩))
      ⊢ wp frame (wpE (defs₀ (F := F)) Variants.none c none) E (cc9__bn_relu_affine_stats_kernel i arg1 harg1 arg2 harg2 arg3 harg3 arg4 harg4 arg5 harg5 arg6 harg6 arg7 harg7 arg8 harg8 arg9 harg9 arg10 harg10 arg11 harg11 arg12 harg12) K := by
  simp only [cc9__bn_relu_affine_stats_kernel_eq_skeleton]; unfold cc9__bn_relu_affine_stats_kernel_skel
  simp only [k9_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8', %f8, -, H8⟩, ⟨%f9, %hf9, H9⟩, ⟨%f10, %hf10, H10⟩, ⟨%d11', %f11, -, H11⟩, ⟨%d12', %f12, -, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg9.eq_unread hf9; obtain rfl := harg10.eq_unread hf10
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    swap; · iexact H8
    ipureintro
    refine (read_writes_unit00 _ _ _ _ _).trans ?_
    rw [readAt_unread00 harg1, readAt_unread00 harg2, readAt_unread00 harg3, readAt_unread00 harg4, readAt_unread00 harg5, readAt_unread00 harg6, readAt_unread00 harg7]
  isplitl [H9]
  · iexists _; isplitr
    · ipureintro; exact hf9
    · iexact H9
  isplitl [H10]
  · iexists _; isplitr
    · ipureintro; exact hf10
    · iexact H10
  isplitl [H11]
  · iexists _; isplitr
    swap; · iexact H11
    ipureintro
    refine (read_writes_unit00 _ _ _ _ _).trans ?_
    unfold run9_first.sl.r run9_first.sl.v35 run9_first.sl.H11_1
    rw [readAt_unread00 harg1, readAt_unread00 harg2, readAt_unread00 harg3, readAt_unread00 harg4, readAt_unread00 harg5, readAt_unread00 harg6, readAt_unread00 harg7]
    exact congrArg (k9_pay1 (k9_pay5 x0 g bt mu vr w b)) (View.readCov_cons_toLoadRect _ _ _ _)
  iexists _; isplitr
  swap; · iexact H12
  ipureintro
  refine (read_writes_unit00 _ _ _ _ _).trans ?_
  unfold run9_first.sl.r run9_first.sl.v42 run9_first.sl.H12_1
  rw [readAt_unread00 harg1, readAt_unread00 harg2, readAt_unread00 harg3, readAt_unread00 harg4, readAt_unread00 harg5, readAt_unread00 harg6, readAt_unread00 harg7]
  exact congrArg (k9_pay2 (k9_pay5 x0 g bt mu vr w b)) (View.readCov_cons_toLoadRect _ _ _ _)

set_option maxHeartbeats 4000000 in
/-- The body at a point that is neither the first nor the last: the image stored, each accumulator raised by the point's sums,
    the two last output windows untouched. -/
theorem run9_mid (c : Dev nD) (E : Set ℕ) (i : grid9.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole)
    (hc1 : ¬cond9_1 i) (hc2 : ¬cond9_2 i)
    (x0 : Vec F S5000x64 .f32) (g bt mu vr : Vec F S1x64 .f32) (w : Vec F S64x32 .f32) (b : Vec F S1x32 .f32) (d8 d9 s0 s1 : Vec F S1x32 .f32) (K : PUnit → sProp 𝕄) :
    iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
        ∗ (∃ d, owns (c : Thread nD τ) arg8 fullShare d) ∗ owns (c : Thread nD τ) arg9 fullShare d8 ∗ owns (c : Thread nD τ) arg10 fullShare d9 ∗ owns (c : Thread nD τ) arg11 fullShare s0 ∗ owns (c : Thread nD τ) arg12 fullShare s1
        ∗ (iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
            ∗ owns (c : Thread nD τ) arg8 fullShare (k9_pay5 x0 g bt mu vr w b) ∗ owns (c : Thread nD τ) arg9 fullShare (d8) ∗ owns (c : Thread nD τ) arg10 fullShare (d9)
            ∗ owns (c : Thread nD τ) arg11 fullShare (k9_pay1 (k9_pay5 x0 g bt mu vr w b) s0) ∗ owns (c : Thread nD τ) arg12 fullShare (k9_pay2 (k9_pay5 x0 g bt mu vr w b) s1)) -∗ K ⟨⟩))
      ⊢ wp frame (wpE (defs₀ (F := F)) Variants.none c none) E (cc9__bn_relu_affine_stats_kernel i arg1 harg1 arg2 harg2 arg3 harg3 arg4 harg4 arg5 harg5 arg6 harg6 arg7 harg7 arg8 harg8 arg9 harg9 arg10 harg10 arg11 harg11 arg12 harg12) K := by
  simp only [cc9__bn_relu_affine_stats_kernel_eq_skeleton]; unfold cc9__bn_relu_affine_stats_kernel_skel
  simp only [k9_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8', %f8, -, H8⟩, ⟨%f9, %hf9, H9⟩, ⟨%f10, %hf10, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg9.eq_unread hf9; obtain rfl := harg10.eq_unread hf10; obtain rfl := harg11.eq_unread hf11; obtain rfl := harg12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    swap; · iexact H8
    ipureintro
    refine (read_writes_unit00 _ _ _ _ _).trans ?_
    rw [readAt_unread00 harg1, readAt_unread00 harg2, readAt_unread00 harg3, readAt_unread00 harg4, readAt_unread00 harg5, readAt_unread00 harg6, readAt_unread00 harg7]
  isplitl [H9]
  · iexists _; isplitr
    · ipureintro; exact hf9
    · iexact H9
  isplitl [H10]
  · iexists _; isplitr
    · ipureintro; exact hf10
    · iexact H10
  isplitl [H11]
  · iexists _; isplitr
    swap; · iexact H11
    ipureintro
    refine (read_writes_unit00 _ _ _ _ _).trans ?_
    unfold run9_mid.sl.r
    rw [readAt_unread00 harg1, readAt_unread00 harg2, readAt_unread00 harg3, readAt_unread00 harg4, readAt_unread00 harg5, readAt_unread00 harg6, readAt_unread00 harg7, readAt_unread00 harg11]
  iexists _; isplitr
  swap; · iexact H12
  ipureintro
  refine (read_writes_unit00 _ _ _ _ _).trans ?_
  unfold run9_mid.sl.r
  rw [readAt_unread00 harg1, readAt_unread00 harg2, readAt_unread00 harg3, readAt_unread00 harg4, readAt_unread00 harg5, readAt_unread00 harg6, readAt_unread00 harg7, readAt_unread00 harg12]

set_option maxHeartbeats 4000000 in
/-- The body at the last point: as at a middle point, then each accumulator is copied into its output window. -/
theorem run9_last (c : Dev nD) (E : Set ℕ) (i : grid9.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S5000x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x32 .f32) (harg12 : arg12.IsWhole)
    (hc1 : ¬cond9_1 i) (hc2 : cond9_2 i)
    (x0 : Vec F S5000x64 .f32) (g bt mu vr : Vec F S1x64 .f32) (w : Vec F S64x32 .f32) (b : Vec F S1x32 .f32) (s0 s1 : Vec F S1x32 .f32) (K : PUnit → sProp 𝕄) :
    iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
        ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s0 ∗ owns (c : Thread nD τ) arg12 fullShare s1
        ∗ (iprop(owns (c : Thread nD τ) arg1 fullShare x0 ∗ owns (c : Thread nD τ) arg2 fullShare g ∗ owns (c : Thread nD τ) arg3 fullShare bt ∗ owns (c : Thread nD τ) arg4 fullShare mu ∗ owns (c : Thread nD τ) arg5 fullShare vr ∗ owns (c : Thread nD τ) arg6 fullShare w ∗ owns (c : Thread nD τ) arg7 fullShare b
            ∗ owns (c : Thread nD τ) arg8 fullShare (k9_pay5 x0 g bt mu vr w b) ∗ owns (c : Thread nD τ) arg9 fullShare (k9_pay1 (k9_pay5 x0 g bt mu vr w b) s0) ∗ owns (c : Thread nD τ) arg10 fullShare (k9_pay2 (k9_pay5 x0 g bt mu vr w b) s1)
            ∗ owns (c : Thread nD τ) arg11 fullShare (k9_pay1 (k9_pay5 x0 g bt mu vr w b) s0) ∗ owns (c : Thread nD τ) arg12 fullShare (k9_pay2 (k9_pay5 x0 g bt mu vr w b) s1)) -∗ K ⟨⟩))
      ⊢ wp frame (wpE (defs₀ (F := F)) Variants.none c none) E (cc9__bn_relu_affine_stats_kernel i arg1 harg1 arg2 harg2 arg3 harg3 arg4 harg4 arg5 harg5 arg6 harg6 arg7 harg7 arg8 harg8 arg9 harg9 arg10 harg10 arg11 harg11 arg12 harg12) K := by
  simp only [cc9__bn_relu_affine_stats_kernel_eq_skeleton]; unfold cc9__bn_relu_affine_stats_kernel_skel
  simp only [k9_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8', %f8, -, H8⟩, ⟨%d9', %f9, -, H9⟩, ⟨%d10', %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  obtain rfl := harg11.eq_unread hf11; obtain rfl := harg12.eq_unread hf12
  sl_exec (disch := first | exact hc1 | exact hc2)
  sl_step
  iapply Hk
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    · ipureintro; exact hf7
    · iexact H7
  isplitl [H8]
  · iexists _; isplitr
    swap; · iexact H8
    ipureintro
    refine (read_writes_unit00 _ _ _ _ _).trans ?_
    rw [readAt_unread00 harg1, readAt_unread00 harg2, readAt_unread00 harg3, readAt_unread00 harg4, readAt_unread00 harg5, readAt_unread00 harg6, readAt_unread00 harg7]
  isplitl [H9]
  · iexists _; isplitr
    swap; · iexact H9
    ipureintro
    refine (read_writes_unit00 _ _ _ _ _).trans ?_
    unfold run9_last.sl.v53 run9_last.sl.H11_1
    refine (View.readCov_cons_toLoadRect _ _ _ _).trans ?_
    unfold run9_last.sl.r
    rw [readAt_unread00 harg1, readAt_unread00 harg2, readAt_unread00 harg3, readAt_unread00 harg4, readAt_unread00 harg5, readAt_unread00 harg6, readAt_unread00 harg7, readAt_unread00 harg11]
  isplitl [H10]
  · iexists _; isplitr
    swap; · iexact H10
    ipureintro
    refine (read_writes_unit00 _ _ _ _ _).trans ?_
    unfold run9_last.sl.v55 run9_last.sl.H12_1
    refine (View.readCov_cons_toLoadRect _ _ _ _).trans ?_
    unfold run9_last.sl.r
    rw [readAt_unread00 harg1, readAt_unread00 harg2, readAt_unread00 harg3, readAt_unread00 harg4, readAt_unread00 harg5, readAt_unread00 harg6, readAt_unread00 harg7, readAt_unread00 harg12]
  isplitl [H11]
  · iexists _; isplitr
    swap; · iexact H11
    ipureintro
    unfold run9_last.sl.H11_1
    refine (read_writes_unit00 _ _ _ _ _).trans ?_
    unfold run9_last.sl.r
    rw [readAt_unread00 harg1, readAt_unread00 harg2, readAt_unread00 harg3, readAt_unread00 harg4, readAt_unread00 harg5, readAt_unread00 harg6, readAt_unread00 harg7, readAt_unread00 harg11]
  iexists _; isplitr
  swap; · iexact H12
  ipureintro
  unfold run9_last.sl.H12_1
  refine (read_writes_unit00 _ _ _ _ _).trans ?_
  unfold run9_last.sl.r
  rw [readAt_unread00 harg1, readAt_unread00 harg2, readAt_unread00 harg3, readAt_unread00 harg4, readAt_unread00 harg5, readAt_unread00 harg6, readAt_unread00 harg7, readAt_unread00 harg12]

end Cert.KernelIdeal.Hand

end
-- ==== Proof.KI.R9.lean ====
import proofs.«176278_j29592324669622_2_alg».proof.Proof.KI.R9Run
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: normalization, rectifier and affine map with running column sums -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The image of the input block at point `t`: what the body stores into output window 7. -/
def acc9 (c : Dev nD) (t : Fin cfg9.N) : Vec F S5000x32 .f32 :=
  k9_pay5 (iblk9 V c 0 t) (iblk9 V c 1 t) (iblk9 V c 2 t) (iblk9 V c 3 t) (iblk9 V c 4 t) (iblk9 V c 5 t) (iblk9 V c 6 t)

/-- The first accumulator after a point, from its contents `s` before: `s` plus the column sums of the point's image. -/
def sum9 (c : Dev nD) (t : Fin cfg9.N) (s : Vec F S1x32 .f32) : Vec F S1x32 .f32 :=
  k9_pay1 (k9_pay5 (iblk9 V c 0 t) (iblk9 V c 1 t) (iblk9 V c 2 t) (iblk9 V c 3 t) (iblk9 V c 4 t) (iblk9 V c 5 t) (iblk9 V c 6 t)) s

/-- The second accumulator after a point, from its contents `s` before: `s` plus the column sums of the squared image. -/
def sq9 (c : Dev nD) (t : Fin cfg9.N) (s : Vec F S1x32 .f32) : Vec F S1x32 .f32 :=
  k9_pay2 (k9_pay5 (iblk9 V c 0 t) (iblk9 V c 1 t) (iblk9 V c 2 t) (iblk9 V c 3 t) (iblk9 V c 4 t) (iblk9 V c 5 t) (iblk9 V c 6 t)) s

/-- The two accumulators after the body at point `n`: zeroed at the first point, then each point adds its sums. -/
def sc9 (c : Dev nD) : (n : ℕ) → n < cfg9.N → Vec F S1x32 .f32 × Vec F S1x32 .f32
  | 0, hn => (sum9 V c ⟨0, hn⟩ (k9_pay3 (F := F)), sq9 V c ⟨0, hn⟩ (k9_pay4 (F := F)))
  | n + 1, hn => (sum9 V c ⟨n + 1, hn⟩ (sc9 c n (Nat.lt_of_succ_lt hn)).1, sq9 V c ⟨n + 1, hn⟩ (sc9 c n (Nat.lt_of_succ_lt hn)).2)

theorem sc9_zero (c : Dev nD) (t : Fin cfg9.N) (h : t.val = 0) :
    sc9 V c t.val t.isLt = (sum9 V c t (k9_pay3 (F := F)), sq9 V c t (k9_pay4 (F := F))) := by
  obtain ⟨n, hn⟩ := t
  cases n with
  | zero => rfl
  | succ n => exact absurd h (Nat.succ_ne_zero n)

theorem sc9_pos (c : Dev nD) (t : Fin cfg9.N) (h : t.val ≠ 0) :
    sc9 V c t.val t.isLt = (sum9 V c t (sc9 V c (t.val - 1) (Nat.lt_of_le_of_lt (Nat.sub_le _ _) t.isLt)).1,
      sq9 V c t (sc9 V c (t.val - 1) (Nat.lt_of_le_of_lt (Nat.sub_le _ _) t.isLt)).2) := by
  obtain ⟨n, hn⟩ := t
  cases n with
  | zero => exact absurd rfl h
  | succ n => rfl

/-- The two scratch operands as memrefs. -/
abbrev scM9_0 : Memref sig .tc .vmem S1x32 .f32 := Memref.whole cc9_scratch0
abbrev scM9_1 : Memref sig .tc .vmem S1x32 .f32 := Memref.whole cc9_scratch1

/-- The region's invariant before position `n`. Before the first point it holds the generator register and every scoped
    buffer that no window stages, each at some contents; afterwards it holds the two accumulators at what the point before
    left in them, and the other such buffers at some contents. -/
def Phi9 (c : Dev nD) : (n : ℕ) → n ≤ cfg9.N → sProp 𝕄
  | 0, _ => iprop((∃ r, prngReg c r) ∗ Pipeline.scopedRest spec9 c)
  | n + 1, hn => iprop((∃ r, prngReg c r) ∗ owns (c : Thread nD τ) scM9_0 fullShare (sc9 V c n hn).1
      ∗ owns (c : Thread nD τ) scM9_1 fullShare (sc9 V c n hn).2
      ∗ Pipeline.scopedRestBut spec9 c [cc9_scratch0, cc9_scratch1])

/-- The proof data of pipeline 9 on core `c`. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => acc9 V c t
    | ⟨8, _⟩ => (sc9 V c t.val t.isLt).1
    | ⟨9, _⟩ => (sc9 V c t.val t.isLt).2
  Φ t := Phi9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem Phi9_zero (c : Dev nD) (n : ℕ) (h : n ≤ cfg9.N) (hz : n = 0) :
    Phi9 V c n h = iprop((∃ r, prngReg c r) ∗ Pipeline.scopedRest spec9 c) := by
  subst hz; rfl

theorem Phi9_succ (c : Dev nD) (n : ℕ) (hn : n < cfg9.N) :
    Phi9 V c (n + 1) hn = iprop((∃ r, prngReg c r) ∗ owns (c : Thread nD τ) scM9_0 fullShare (sc9 V c n hn).1
      ∗ owns (c : Thread nD τ) scM9_1 fullShare (sc9 V c n hn).2
      ∗ Pipeline.scopedRestBut spec9 c [cc9_scratch0, cc9_scratch1]) := rfl

theorem Phi9_pos (c : Dev nD) (n : ℕ) (h : n ≤ cfg9.N) (hz : n ≠ 0) :
    Phi9 V c n h = iprop((∃ r, prngReg c r) ∗ owns (c : Thread nD τ) scM9_0 fullShare (sc9 V c (n - 1) (by omega)).1
      ∗ owns (c : Thread nD τ) scM9_1 fullShare (sc9 V c (n - 1) (by omega)).2
      ∗ Pipeline.scopedRestBut spec9 c [cc9_scratch0, cc9_scratch1]) := by
  cases n with
  | zero => exact absurd rfl hz
  | succ n => rfl

theorem Phi9_castSucc (c : Dev nD) (t : Fin cfg9.N) :
    (dat9 V c).Φ t.castSucc = Phi9 V c t.val (Nat.le_of_lt t.isLt) := by
  dsimp only [dat9]; simp only [Fin.coe_castSucc]

/-- The scoped buffers no window stages, with the two accumulators as memrefs owned at some contents. -/
theorem scopedRest9_owns (c : Dev nD) :
    (Pipeline.scopedRest spec9 c : sProp 𝕄)
      = iprop(iprop((∃ d, owns (c : Thread nD τ) scM9_0 fullShare d) ∗ (∃ d, owns (c : Thread nD τ) scM9_1 fullShare d))
          ∗ Pipeline.scopedRestBut spec9 c [cc9_scratch0, cc9_scratch1]) := by
  rw [scopedRest9_split]; simp only [scM9_0, scM9_1, owns_whole]; try rfl

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = acc9 V c t := by dsimp only [dat9]
theorem after9_8 (c : Dev nD) (t : Fin cfg9.N) : (dat9 V c).after 8 t = (sc9 V c t.val t.isLt).1 := by dsimp only [dat9]
theorem after9_9 (c : Dev nD) (t : Fin cfg9.N) : (dat9 V c).after 9 t = (sc9 V c t.val t.isLt).2 := by dsimp only [dat9]

/-- Input window 0's current staging buffer holds its block at every point, fetched there or not. -/
theorem before9_0 (c : Dev nD) (t : Fin cfg9.N) (d) : (dat9 V c).before 0 t d = iblk9 V c 0 t :=
  ((dat9 V c).before_in_eq_fetched 0 rfl (fun _ => rfl) (fun _ _ _ => rfl) (fun t => by rw [after9_0]; unfold Dat.blockOf iblk9; rw [A_eq9]; try rfl) t d).trans
    (by unfold Dat.fetched Dat.blockOf iblk9; rw [A_eq9]; try rfl)
/-- Input window 1's current staging buffer holds its block at every point, fetched there or not. -/
theorem before9_1 (c : Dev nD) (t : Fin cfg9.N) (d) : (dat9 V c).before 1 t d = iblk9 V c 1 t :=
  ((dat9 V c).before_in_eq_fetched 1 rfl (fun _ => rfl) (fun _ _ _ => rfl) (fun t => by rw [after9_1]; unfold Dat.blockOf iblk9; rw [A_eq9]; try rfl) t d).trans
    (by unfold Dat.fetched Dat.blockOf iblk9; rw [A_eq9]; try rfl)
/-- Input window 2's current staging buffer holds its block at every point, fetched there or not. -/
theorem before9_2 (c : Dev nD) (t : Fin cfg9.N) (d) : (dat9 V c).before 2 t d = iblk9 V c 2 t :=
  ((dat9 V c).before_in_eq_fetched 2 rfl (fun _ => rfl) (fun _ _ _ => rfl) (fun t => by rw [after9_2]; unfold Dat.blockOf iblk9; rw [A_eq9]; try rfl) t d).trans
    (by unfold Dat.fetched Dat.blockOf iblk9; rw [A_eq9]; try rfl)
/-- Input window 3's current staging buffer holds its block at every point, fetched there or not. -/
theorem before9_3 (c : Dev nD) (t : Fin cfg9.N) (d) : (dat9 V c).before 3 t d = iblk9 V c 3 t :=
  ((dat9 V c).before_in_eq_fetched 3 rfl (fun _ => rfl) (fun _ _ _ => rfl) (fun t => by rw [after9_3]; unfold Dat.blockOf iblk9; rw [A_eq9]; try rfl) t d).trans
    (by unfold Dat.fetched Dat.blockOf iblk9; rw [A_eq9]; try rfl)
/-- Input window 4's current staging buffer holds its block at every point, fetched there or not. -/
theorem before9_4 (c : Dev nD) (t : Fin cfg9.N) (d) : (dat9 V c).before 4 t d = iblk9 V c 4 t :=
  ((dat9 V c).before_in_eq_fetched 4 rfl (fun _ => rfl) (fun _ _ _ => rfl) (fun t => by rw [after9_4]; unfold Dat.blockOf iblk9; rw [A_eq9]; try rfl) t d).trans
    (by unfold Dat.fetched Dat.blockOf iblk9; rw [A_eq9]; try rfl)
/-- Input window 5's current staging buffer holds its block at every point, fetched there or not. -/
theorem before9_5 (c : Dev nD) (t : Fin cfg9.N) (d) : (dat9 V c).before 5 t d = iblk9 V c 5 t :=
  ((dat9 V c).before_in_eq_fetched 5 rfl (fun _ => rfl) (fun _ _ _ => rfl) (fun t => by rw [after9_5]; unfold Dat.blockOf iblk9; rw [A_eq9]; try rfl) t d).trans
    (by unfold Dat.fetched Dat.blockOf iblk9; rw [A_eq9]; try rfl)
/-- Input window 6's current staging buffer holds its block at every point, fetched there or not. -/
theorem before9_6 (c : Dev nD) (t : Fin cfg9.N) (d) : (dat9 V c).before 6 t d = iblk9 V c 6 t :=
  ((dat9 V c).before_in_eq_fetched 6 rfl (fun _ => rfl) (fun _ _ _ => rfl) (fun t => by rw [after9_6]; unfold Dat.blockOf iblk9; rw [A_eq9]; try rfl) t d).trans
    (by unfold Dat.fetched Dat.blockOf iblk9; rw [A_eq9]; try rfl)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
theorem liveAt9_4 : ∀ t : Fin cfg9.N, cfg9.idle 4 (grid9.coords t) = false := by decide +kernel
theorem liveAt9_5 : ∀ t : Fin cfg9.N, cfg9.idle 5 (grid9.coords t) = false := by decide +kernel
theorem liveAt9_6 : ∀ t : Fin cfg9.N, cfg9.idle 6 (grid9.coords t) = false := by decide +kernel
theorem liveAt9_7 : ∀ t : Fin cfg9.N, cfg9.idle 7 (grid9.coords t) = false := by decide +kernel
theorem idleAt9_8 : ∀ t : Fin cfg9.N, ¬cond9_2 (grid9.coords t) → cfg9.idle 8 (grid9.coords t) = true := by decide +kernel
theorem noFlush9_8 : ∀ t : Fin cfg9.N, ¬cond9_2 (grid9.coords t) → (cfg9.win 8).flush t = false := by decide +kernel
theorem liveAt9_8 : ∀ t : Fin cfg9.N, cond9_2 (grid9.coords t) → cfg9.idle 8 (grid9.coords t) = false := by decide +kernel
theorem idleAt9_9 : ∀ t : Fin cfg9.N, ¬cond9_2 (grid9.coords t) → cfg9.idle 9 (grid9.coords t) = true := by decide +kernel
theorem noFlush9_9 : ∀ t : Fin cfg9.N, ¬cond9_2 (grid9.coords t) → (cfg9.win 9).flush t = false := by decide +kernel
theorem liveAt9_9 : ∀ t : Fin cfg9.N, cond9_2 (grid9.coords t) → cfg9.idle 9 (grid9.coords t) = false := by decide +kernel

/-! ## The body obligation -/

abbrev ms9_0 (t : Fin cfg9.N) := win9_0.stage (cfg9.slots t 0)
abbrev ms9_1 (t : Fin cfg9.N) := win9_1.stage (cfg9.slots t 1)
abbrev ms9_2 (t : Fin cfg9.N) := win9_2.stage (cfg9.slots t 2)
abbrev ms9_3 (t : Fin cfg9.N) := win9_3.stage (cfg9.slots t 3)
abbrev ms9_4 (t : Fin cfg9.N) := win9_4.stage (cfg9.slots t 4)
abbrev ms9_5 (t : Fin cfg9.N) := win9_5.stage (cfg9.slots t 5)
abbrev ms9_6 (t : Fin cfg9.N) := win9_6.stage (cfg9.slots t 6)
abbrev ms9_7 (t : Fin cfg9.N) := win9_7.stage (cfg9.slots t 7)
abbrev ms9_8 (t : Fin cfg9.N) := win9_8.stage (cfg9.slots t 8)
abbrev ms9_9 (t : Fin cfg9.N) := win9_9.stage (cfg9.slots t 9)

/-- What the body is called with at point `t`, the windows one by one. -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d))
    ∗ (∃ d, owns (c : Thread nD τ) (ms9_7 t) fullShare ((dat9 V c).before 7 t d))
    ∗ (∃ d, owns (c : Thread nD τ) (ms9_8 t) fullShare ((dat9 V c).before 8 t d))
    ∗ (∃ d, owns (c : Thread nD τ) (ms9_9 t) fullShare ((dat9 V c).before 9 t d)))

/-- What the body returns at point `t`. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t
    ∗ (dat9 V c).leavesExact 7 t
    ∗ (dat9 V c).leavesExact 8 t
    ∗ (dat9 V c).leavesExact 9 t)

set_option maxHeartbeats 4800000 in
/-- The body at any point: the inputs' memrefs hold their blocks; the point decides the case; the invariant hands the body the
    two accumulators at what the point before left (at anything at the first point) and takes them back at this point's contents. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6]
  rw [show (dat9 V c).owesAt () t.succ = (dat9 V c).owesAt () t.castSucc from rfl]
  rw [show (dat9 V c).Φ t.succ = Phi9 V c (t.val + 1) t.isLt from rfl, Phi9_succ]
  have hN : t.val < 100 := lt_of_lt_of_eq t.isLt (show cfg9.N = 100 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  rw [show (dat9 V c).leavesExact 4 t = owns (c : Thread nD τ) (ms9_4 t) fullShare ((dat9 V c).after 4 t) from by
    unfold Dat.leavesExact; rw [liveAt9_4 t], after9_4]
  rw [show (dat9 V c).leavesExact 5 t = owns (c : Thread nD τ) (ms9_5 t) fullShare ((dat9 V c).after 5 t) from by
    unfold Dat.leavesExact; rw [liveAt9_5 t], after9_5]
  rw [show (dat9 V c).leavesExact 6 t = owns (c : Thread nD τ) (ms9_6 t) fullShare ((dat9 V c).after 6 t) from by
    unfold Dat.leavesExact; rw [liveAt9_6 t], after9_6]
  rw [show (dat9 V c).leavesExact 7 t = owns (c : Thread nD τ) (ms9_7 t) fullShare ((dat9 V c).after 7 t) from by
    unfold Dat.leavesExact; rw [liveAt9_7 t], after9_7]
  unfold acc9
  by_cases h1 : t.val % 100 = 0
  · have hc1 : cond9_1 (grid9.coords t) := (hcond9_1 t).mpr h1
    have hc2 : ¬cond9_2 (grid9.coords t) := fun h => by have := (hcond9_2 t).mp h; omega
    have hz : t.val = 0 := by omega
    rw [Dat.leavesExact_idle (dat9 V c) 8 t (idleAt9_8 t hc2) (noFlush9_8 t hc2),
      Dat.leavesExact_idle (dat9 V c) 9 t (idleAt9_9 t hc2) (noFlush9_9 t hc2)]
    rw [sc9_zero V c t hz]
    unfold sum9 sq9; (try dsimp only)
    rw [Phi9_castSucc, Phi9_zero V c _ _ hz, scopedRest9_owns]
    iintro ⟨⟨Hg, ⟨HS0, HS1⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run9_first c Set.univ (grid9.coords t) _ _ _ _ _ _ _ _ _ _ _ _ _ _ _ _ _ _ _ _ _ _ _ _ hc1 hc2 (iblk9 V c 0 t) (iblk9 V c 1 t) (iblk9 V c 2 t) (iblk9 V c 3 t) (iblk9 V c 4 t) (iblk9 V c 5 t) (iblk9 V c 6 t) ((dat9 V c).before 8 t d8) ((dat9 V c).before 9 t d9) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [Hg HS0 HS1 Hrest]
    · isplitl [Hg]; · iexact Hg
      isplitl [HS0]; · iexact HS0
      isplitl [HS1]; · iexact HS1
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · have hc1 : ¬cond9_1 (grid9.coords t) := fun h => h1 ((hcond9_1 t).mp h)
    have hz : t.val ≠ 0 := by omega
    rw [sc9_pos V c t hz]
    unfold sum9 sq9; (try dsimp only)
    rw [Phi9_castSucc, Phi9_pos V c _ _ hz]
    by_cases h2 : t.val % 100 = 99
    · have hc2 : cond9_2 (grid9.coords t) := (hcond9_2 t).mpr h2
      rw [show (dat9 V c).leavesExact 8 t = owns (c : Thread nD τ) (ms9_8 t) fullShare ((dat9 V c).after 8 t) from by
        unfold Dat.leavesExact; rw [liveAt9_8 t hc2], after9_8]
      rw [show (dat9 V c).leavesExact 9 t = owns (c : Thread nD τ) (ms9_9 t) fullShare ((dat9 V c).after 9 t) from by
        unfold Dat.leavesExact; rw [liveAt9_9 t hc2], after9_9]
      rw [sc9_pos V c t hz]
      unfold sum9 sq9; (try dsimp only)
      iintro ⟨⟨Hg, HS0, HS1, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run9_last c Set.univ (grid9.coords t) _ _ _ _ _ _ _ _ _ _ _ _ _ _ _ _ _ _ _ _ _ _ _ _ hc1 hc2 (iblk9 V c 0 t) (iblk9 V c 1 t) (iblk9 V c 2 t) (iblk9 V c 3 t) (iblk9 V c 4 t) (iblk9 V c 5 t) (iblk9 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [Hg HS0 HS1 Hrest]
      · isplitl [Hg]; · iexact Hg
        isplitl [HS0]; · iexact HS0
        isplitl [HS1]; · iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc2 : ¬cond9_2 (grid9.coords t) := fun h => h2 ((hcond9_2 t).mp h)
      rw [Dat.leavesExact_idle (dat9 V c) 8 t (idleAt9_8 t hc2) (noFlush9_8 t hc2),
        Dat.leavesExact_idle (dat9 V c) 9 t (idleAt9_9 t hc2) (noFlush9_9 t hc2)]
      iintro ⟨⟨Hg, HS0, HS1, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run9_mid c Set.univ (grid9.coords t) _ _ _ _ _ _ _ _ _ _ _ _ _ _ _ _ _ _ _ _ _ _ _ _ hc1 hc2 (iblk9 V c 0 t) (iblk9 V c 1 t) (iblk9 V c 2 t) (iblk9 V c 3 t) (iblk9 V c 4 t) (iblk9 V c 5 t) (iblk9 V c 6 t) ((dat9 V c).before 8 t d8) ((dat9 V c).before 9 t d9) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [Hg HS0 HS1 Hrest]
      · isplitl [Hg]; · iexact Hg
        isplitl [HS0]; · iexact HS0
        isplitl [HS1]; · iexact HS1
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the region is entered with is the invariant before the first point: the table share (nothing is prefetched) is dropped. -/
theorem hin9 (c : Dev nD) (T : (pcfgs (F := F) 9).pre.Contents (Elt F)) :
    iprop((∃ r, prngReg c r) ∗ Pipeline.prefHeld (pcfgs (F := F) 9).pre c (fun _ => fullShare) T ∗ Pipeline.scopedRest spec9 c) ⊢ (dat9 V c).Φ 0 := by
  rw [show (dat9 V c).Φ 0 = Phi9 V c 0 (Nat.zero_le _) from rfl, Phi9_zero V c 0 _ rfl]
  iintro ⟨Hp, -, Hr⟩
  isplitl [Hp]; · iexact Hp
  iexact Hr

/-- After the last point the invariant gives the scoped buffers back: the accumulators' named contents are forgotten. -/
theorem hout9 (c : Dev nD) :
    (dat9 V c).Φ (Fin.last _) ⊢ iprop((∃ r, prngReg c r) ∗ Pipeline.ownSems0 (fun k : PEmpty => k.elim) c ∗ Pipeline.scopedRest spec9 c) := by
  rw [Pipeline.ownSems0_none, show (dat9 V c).Φ (Fin.last _) = Phi9 V c (Fin.last cfg9.N).val (Nat.le_of_lt_succ (Fin.last cfg9.N).isLt) from rfl,
    Phi9_pos V c _ _ (by rw [Fin.val_last]; have : cfg9.N = 100 := N_9; omega), scopedRest9_owns]
  iintro ⟨Hp, H0, H1, Hr⟩
  isplitl [Hp]; · iexact Hp
  isplitr; · iempintro
  isplitl [H0 H1]
  · isplitl [H0]; · iexists _; iexact H0
    iexists _; iexact H1
  iexact Hr

end Cert.KernelIdeal.Hand

end
-- ==== Proof.KI.R10.lean ====
/- Pipeline 10 of @main — the last stage of the edge classifier on one block of 5000 rows: the block normalised with
   the batch mean and variance rows (scale times the centred block times the reciprocal square root of variance plus
   epsilon, plus shift), clamped below at zero, times the 32×1 weight, plus the 1×1 bias, stored as the output window's
   whole block. This module gives the region's proof data at any entry contents `V`: every input window's buffer
   holds its block of `V` at every grid point (the rows, the weight and the bias are fetched once and never move),
   the output's buffer after the body is the body's one store, and the body obligation of the pipeline. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter of everything below
variable (V : (c : Dev nD) → (b : Ref sig .tc) → Buf (Elt F) ((c : Thread nD τ).loc b))

/-! ## The windows' blocks -/

/-- Window `w`'s block at grid point `t`: the part of the window's array, as the region finds it, that the
    window's index map selects there. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0: its current staging buffer holds its block at every grid point, whether or not the block was
    fetched there (where it was not, the block index has not moved since the fetch), for any proof data whose array
    is the entry contents and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1: its current staging buffer holds its block at every grid point, whether or not the block was
    fetched there (where it was not, the block index has not moved since the fetch), for any proof data whose array
    is the entry contents and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2: its current staging buffer holds its block at every grid point, whether or not the block was
    fetched there (where it was not, the block index has not moved since the fetch), for any proof data whose array
    is the entry contents and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3: its current staging buffer holds its block at every grid point, whether or not the block was
    fetched there (where it was not, the block index has not moved since the fetch), for any proof data whose array
    is the entry contents and whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4: its current staging buffer holds its block at every grid point, whether or not the block was
    fetched there (where it was not, the block index has not moved since the fetch), for any proof data whose array
    is the entry contents and whose body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5: its current staging buffer holds its block at every grid point, whether or not the block was
    fetched there (where it was not, the block index has not moved since the fetch), for any proof data whose array
    is the entry contents and whose body leaves the block in place. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6: its current staging buffer holds its block at every grid point, whether or not the block was
    fetched there (where it was not, the block index has not moved since the fetch), for any proof data whose array
    is the entry contents and whose body leaves the block in place. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-! ## The rectangles the body reads and writes: each a whole buffer -/

abbrev r10_0 : Rect S5000x32 := Rect.unit (s := S5000x32) ![0, 0] S5000x32.size inb_S5000x32_S5000x32_0_0
abbrev r10_1 : Rect S1x32 := Rect.unit (s := S1x32) ![0, 0] S1x32.size inb_S1x32_S1x32_0_0
abbrev r10_2 : Rect S32x1 := Rect.unit (s := S32x1) ![0, 0] S32x1.size inb_S32x1_S32x1_0_0
abbrev r10_3 : Rect S1x1 := Rect.unit (s := S1x1) ![0, 0] S1x1.size inb_S1x1_S1x1_0_0
abbrev r10_4 : Rect S5000x1 := Rect.unit (s := S5000x1) ![0, 0] S5000x1.size inb_S5000x1_S5000x1_0_0

/-! ## What the body leaves in the output window's buffer -/

/-- Window 7's staging buffer after the body, as a function of the input blocks: the body's one store, of the whole
    block, whose value is the skeleton's payload of the loaded input blocks. -/
def out10_7 (x0 : Vec F S5000x32 .f32) (x1 : Vec F S1x32 .f32) (x2 : Vec F S1x32 .f32) (x3 : Vec F S1x32 .f32) (x4 : Vec F S1x32 .f32) (x5 : Vec F S32x1 .f32) (x6 : Vec F S1x1 .f32) : Vec F S5000x1 .f32 :=
  View.canon [⟨r10_4, k10_pay1 (View.ld x0 r10_0) (View.ld x1 r10_1) (View.ld x2 r10_1) (View.ld x3 r10_1) (View.ld x4 r10_1) (View.ld x5 r10_2) (View.ld x6 r10_3)⟩]

/-- The store's rectangle is the whole buffer, so it covers it. -/
theorem cover10_7 (p0 : Vec F S5000x1 .f32) (y : S5000x1.Idx) :
    ∃ pc ∈ ([⟨r10_4, p0⟩] : List (View.Piece (Elt F) S5000x1 .f32)), y ∈ pc.1.set :=
  View.cover_of_tiled [⟨r10_4, p0⟩] S5000x1.size (by rfl) y

/-! ## The body's triple -/

set_option maxHeartbeats 1000000 in
/-- The kernel body on whole staging buffers, the inputs' holding `x_w` and the output's anything, runs to the
    continuation with the inputs' as they were and the output's at `out10_7` of the inputs. -/
theorem sound_kernel10 (c : Dev nD) (E : Set ℕ) (i : grid10.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x1 .f32) (harg6 : arg6.IsWhole) (arg7 : Memref sig .tc .vmem S1x1 .f32) (harg7 : arg7.IsWhole) (arg8 : Memref sig .tc .vmem S5000x1 .f32) (harg8 : arg8.IsWhole)
    (x0 : Vec F S5000x32 .f32) (x1 : Vec F S1x32 .f32) (x2 : Vec F S1x32 .f32) (x3 : Vec F S1x32 .f32) (x4 : Vec F S1x32 .f32) (x5 : Vec F S32x1 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6)) -∗ K ⟨⟩))
      ⊢ wp frame (wpE (defs₀ (F := F)) Variants.none c none) E (cc10__bn_relu_affine_kernel i arg1 harg1 arg2 harg2 arg3 harg3 arg4 harg4 arg5 harg5 arg6 harg6 arg7 harg7 arg8 harg8) K := by
  simp only [cc10__bn_relu_affine_kernel_eq_skeleton]; unfold cc10__bn_relu_affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover10_7 _)

/-! ## The pipeline's proof data -/

/-- The proof data of pipeline 10 on core `c`: the arrays as the region finds them; after the body at point `t`
    each input's buffer still at its block and the output's at `out10_7` of the input blocks; nothing owed, full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t))

/-- The body at any point: the inputs' buffers hold their blocks, so the body's triple applies; the invariant and
    the core's debts pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel10 c Set.univ (grid10.coords t) _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Main.lean ====
/- The run of @main: twelve stretches of host operations around eleven pipelined regions.
   The buffer contents at each boundary are a fold from the launch memory: a stretch applies its operations in order;
   a region replaces its windows' arrays by what its write-backs leave and keeps every other buffer. Every execution
   terminates with each unscoped buffer at the fold's last contents; an argument array is written by no host operation
   and is no region's output window, so the fold at an argument walks back to the launch memory. -/
import proofs.«176278_j29592324669622_2_alg».proof.Proof.Gen.KernelIdeal.Launch
import proofs.«176278_j29592324669622_2_alg».proof.Proof.Gen.KernelIdeal.Skeleton
import proofs.«176278_j29592324669622_2_alg».proof.Proof.Gen.KernelIdeal.Points
import proofs.«176278_j29592324669622_2_alg».proof.Proof.KI.R0
import proofs.«176278_j29592324669622_2_alg».proof.Proof.KI.R1
import proofs.«176278_j29592324669622_2_alg».proof.Proof.KI.R2
import proofs.«176278_j29592324669622_2_alg».proof.Proof.KI.R3
import proofs.«176278_j29592324669622_2_alg».proof.Proof.KI.R4
import proofs.«176278_j29592324669622_2_alg».proof.Proof.KI.R5
import proofs.«176278_j29592324669622_2_alg».proof.Proof.KI.R6
import proofs.«176278_j29592324669622_2_alg».proof.Proof.KI.R7
import proofs.«176278_j29592324669622_2_alg».proof.Proof.KI.R8
import proofs.«176278_j29592324669622_2_alg».proof.Proof.KI.R9
import proofs.«176278_j29592324669622_2_alg».proof.Proof.KI.R10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's 23 items from the launch to the return

The buffer contents at each boundary are a fold from the launch memory: a stretch of host operations applies them
in order; a region replaces its windows' arrays by what its write-backs leave and keeps every other buffer. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its windows' arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what region 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: what region 4 is entered from. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its windows' arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5`: what region 5 is entered from. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its windows' arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6`: what region 6 is entered from. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its windows' arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch `hostOps7`: what region 7 is entered from. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its windows' arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch `hostOps8`: what region 8 is entered from. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its windows' arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch `hostOps9`: what region 9 is entered from. -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- At region 9's exit: its windows' arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the host stretch `hostOps10`: what region 10 is entered from. -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- At region 10's exit: its windows' arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After the last host stretch `hostOps11`: the contents @main returns with. -/
abbrev W23 : Dev nD → Valuation τ sig (Elt F) := fun c => StableHlo.after hostOps11 (W22 m ρ c)

/-! ## What each host stretch writes, and that none allocates -/

theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_cst, main_v0, main_cst_0, main_v1, main_v2, main_v3, main_cst_1, main_v4, main_v5, main_cst_2, main_v6, main_v7, main_cst_3, main_v8, main_v9, main_v10, main_cst_4, main_v11, main_v12, main_cst_5, main_v13, main_v14, main_v15, main_c, main_v16, main_v17, main_c_6, main_v18, main_v19, main_v20, main_v21, main_v22, main_v23, main_c_7, main_v24, main_v25, main_c_8, main_v26, main_v27, main_v28, main_v29, main_v30, main_v31, main_cst_9, main_v32, main_v33, main_v34, main_v35, main_v36, main_v37, main_c_10, main_v38, main_v39, main_c_11, main_v40, main_v41, main_v42, main_v43, main_v44, main_v45, main_cst_12, main_v46, main_v47, main_v48, main_v49, main_v50, main_v51, main_v52, main_v53, main_v54, main_v55, main_v56, main_v57, main_v58]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W1_of (c : Dev nD) (r : Ref sig .tc) (h : r ∉ hostOps0_W) : W1 m ρ c r = W0 m ρ c r :=
  StableHlo.after_of_writes_sub hostOps0 _ hostOps0_writes h

theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v60, main_v61, main_v62, main_v63, main_v64, main_v65, main_v66]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W3_of (c : Dev nD) (r : Ref sig .tc) (h : r ∉ hostOps1_W) : W3 m ρ c r = W2 m ρ c r :=
  StableHlo.after_of_writes_sub hostOps1 _ hostOps1_writes h

theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_c_13, main_v68, main_v69, main_c_14, main_v70, main_v71, main_v72, main_v73, main_v74, main_v75, main_cst_15, main_v76, main_v77, main_v78, main_v79, main_v80, main_v81, main_c_16, main_v82, main_v83, main_c_17, main_v84, main_v85, main_v86, main_v87, main_v88, main_v89, main_cst_18, main_v90, main_v91, main_v92, main_v93, main_v94, main_v95, main_v96, main_v97, main_v98, main_v99, main_v100, main_v101, main_v102]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W5_of (c : Dev nD) (r : Ref sig .tc) (h : r ∉ hostOps2_W) : W5 m ρ c r = W4 m ρ c r :=
  StableHlo.after_of_writes_sub hostOps2 _ hostOps2_writes h

theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v104, main_v105, main_v106, main_v107, main_v108, main_v109, main_v110]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W7_of (c : Dev nD) (r : Ref sig .tc) (h : r ∉ hostOps3_W) : W7 m ρ c r = W6 m ρ c r :=
  StableHlo.after_of_writes_sub hostOps3 _ hostOps3_writes h

theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_c_19, main_v112, main_v113, main_c_20, main_v114, main_v115, main_v116, main_v117, main_v118, main_v119, main_cst_21, main_v120, main_v121, main_v122, main_v123, main_v124, main_v125, main_c_22, main_v126, main_v127, main_c_23, main_v128, main_v129, main_v130, main_v131, main_v132, main_v133, main_cst_24, main_v134, main_v135, main_v136, main_v137, main_v138, main_v139, main_v140, main_v141, main_v142, main_v143, main_v144, main_v145, main_v146]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W9_of (c : Dev nD) (r : Ref sig .tc) (h : r ∉ hostOps4_W) : W9 m ρ c r = W8 m ρ c r :=
  StableHlo.after_of_writes_sub hostOps4 _ hostOps4_writes h

theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v148, main_v149, main_v150, main_v151, main_v152, main_v153, main_v154]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W11_of (c : Dev nD) (r : Ref sig .tc) (h : r ∉ hostOps5_W) : W11 m ρ c r = W10 m ρ c r :=
  StableHlo.after_of_writes_sub hostOps5 _ hostOps5_writes h

theorem hostOps6_fresh : (hostOps6 : List (HloOp τ sig (Elt F))).Forall fun op => op.fresh = ∅ := by
  simp only [List.Forall]; repeat' constructor
/-- The references `hostOps6`'s operations write. -/
abbrev hostOps6_W : List (Ref sig .tc) := [main_v156, main_v157, main_v158, main_v159]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W13_of (c : Dev nD) (r : Ref sig .tc) (h : r ∉ hostOps6_W) : W13 m ρ c r = W12 m ρ c r :=
  StableHlo.after_of_writes_sub hostOps6 _ hostOps6_writes h

theorem hostOps7_fresh : (hostOps7 : List (HloOp τ sig (Elt F))).Forall fun op => op.fresh = ∅ := by
  simp only [List.Forall]; repeat' constructor
/-- The references `hostOps7`'s operations write. -/
abbrev hostOps7_W : List (Ref sig .tc) := [main_v161, main_v162, main_v163, main_v164]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W15_of (c : Dev nD) (r : Ref sig .tc) (h : r ∉ hostOps7_W) : W15 m ρ c r = W14 m ρ c r :=
  StableHlo.after_of_writes_sub hostOps7 _ hostOps7_writes h

theorem hostOps8_fresh : (hostOps8 : List (HloOp τ sig (Elt F))).Forall fun op => op.fresh = ∅ := by
  simp only [List.Forall]; repeat' constructor
/-- The references `hostOps8`'s operations write. -/
abbrev hostOps8_W : List (Ref sig .tc) := [main_c_25, main_v166, main_v167, main_c_26, main_v168, main_v169, main_v170, main_v171, main_v172, main_c_27, main_v173, main_v174, main_c_28, main_v175, main_v176, main_v177, main_v178, main_v179, main_v180, main_v181, main_v182]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W17_of (c : Dev nD) (r : Ref sig .tc) (h : r ∉ hostOps8_W) : W17 m ρ c r = W16 m ρ c r :=
  StableHlo.after_of_writes_sub hostOps8 _ hostOps8_writes h

theorem hostOps9_fresh : (hostOps9 : List (HloOp τ sig (Elt F))).Forall fun op => op.fresh = ∅ := by
  simp only [List.Forall]; repeat' constructor
/-- The references `hostOps9`'s operations write. -/
abbrev hostOps9_W : List (Ref sig .tc) := [main_v184, main_cst_29, main_v185, main_v186, main_v187, main_cst_30, main_v188, main_v189, main_v190, main_v191, main_v192, main_v193, main_v194, main_v195, main_v196]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W19_of (c : Dev nD) (r : Ref sig .tc) (h : r ∉ hostOps9_W) : W19 m ρ c r = W18 m ρ c r :=
  StableHlo.after_of_writes_sub hostOps9 _ hostOps9_writes h

theorem hostOps10_fresh : (hostOps10 : List (HloOp τ sig (Elt F))).Forall fun op => op.fresh = ∅ := by
  simp only [List.Forall]; repeat' constructor
/-- The references `hostOps10`'s operations write. -/
abbrev hostOps10_W : List (Ref sig .tc) := [main_v198, main_cst_31, main_v199, main_v200, main_v201, main_cst_32, main_v202, main_v203, main_v204, main_v205, main_v206, main_v207, main_v208, main_v209, main_v210]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W21_of (c : Dev nD) (r : Ref sig .tc) (h : r ∉ hostOps10_W) : W21 m ρ c r = W20 m ρ c r :=
  StableHlo.after_of_writes_sub hostOps10 _ hostOps10_writes h

theorem hostOps11_fresh : (hostOps11 : List (HloOp τ sig (Elt F))).Forall fun op => op.fresh = ∅ := by
  simp only [List.Forall]; repeat' constructor
/-- The references `hostOps11`'s operations write. -/
abbrev hostOps11_W : List (Ref sig .tc) := [main_v212]
theorem hostOps11_writes : (hostOps11 : List (HloOp τ sig (Elt F))).Forall fun op => op.writes ⊆ (hostOps11_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W23_of (c : Dev nD) (r : Ref sig .tc) (h : r ∉ hostOps11_W) : W23 m ρ c r = W22 m ρ c r :=
  StableHlo.after_of_writes_sub hostOps11 _ hostOps11_writes h

/-! ## A buffer no host operation writes and no region stages ends as launched -/

theorem W23_of_untouched (c : Dev nD) (r : Ref sig .tc)
    (h0 : r ∉ hostOps0_W)
    (h1 : r ∉ hostOps1_W)
    (h2 : r ∉ hostOps2_W)
    (h3 : r ∉ hostOps3_W)
    (h4 : r ∉ hostOps4_W)
    (h5 : r ∉ hostOps5_W)
    (h6 : r ∉ hostOps6_W)
    (h7 : r ∉ hostOps7_W)
    (h8 : r ∉ hostOps8_W)
    (h9 : r ∉ hostOps9_W)
    (h10 : r ∉ hostOps10_W)
    (h11 : r ∉ hostOps11_W)
    (g0 : ∀ w, Pipeline.arrRef spec0 w ≠ r)
    (g1 : ∀ w, Pipeline.arrRef spec1 w ≠ r)
    (g2 : ∀ w, Pipeline.arrRef spec2 w ≠ r)
    (g3 : ∀ w, Pipeline.arrRef spec3 w ≠ r)
    (g4 : ∀ w, Pipeline.arrRef spec4 w ≠ r)
    (g5 : ∀ w, Pipeline.arrRef spec5 w ≠ r)
    (g6 : ∀ w, Pipeline.arrRef spec6 w ≠ r)
    (g7 : ∀ w, Pipeline.arrRef spec7 w ≠ r)
    (g8 : ∀ w, Pipeline.arrRef spec8 w ≠ r)
    (g9 : ∀ w, Pipeline.arrRef spec9 w ≠ r)
    (g10 : ∀ w, Pipeline.arrRef spec10 w ≠ r) :
    W23 m ρ c r = m ((c : Thread nD τ).loc r) :=
  calc W23 m ρ c r
    _ = W22 m ρ c r := W23_of m ρ c r h11
    _ = W21 m ρ c r := W22_of_ne m ρ c r g10
    _ = W20 m ρ c r := W21_of m ρ c r h10
    _ = W19 m ρ c r := W20_of_ne m ρ c r g9
    _ = W18 m ρ c r := W19_of m ρ c r h9
    _ = W17 m ρ c r := W18_of_ne m ρ c r g8
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0
    _ = m ((c : Thread nD τ).loc r) := rfl

/-! ## Every argument array ends as launched -/

theorem W23_eq_W20 (c : Dev nD) (r : Ref sig .tc) (h11 : r ∉ hostOps11_W) (g10 : ∀ w, Pipeline.arrRef spec10 w ≠ r) (h10 : r ∉ hostOps10_W) :
    W23 m ρ c r = W20 m ρ c r :=
  calc W23 m ρ c r
    _ = W22 m ρ c r := W23_of m ρ c r h11
    _ = W21 m ρ c r := W22_of_ne m ρ c r g10
    _ = W20 m ρ c r := W21_of m ρ c r h10

theorem W19_eq_W0 (c : Dev nD) (r : Ref sig .tc) (h9 : r ∉ hostOps9_W) (g8 : ∀ w, Pipeline.arrRef spec8 w ≠ r) (h8 : r ∉ hostOps8_W) (g7 : ∀ w, Pipeline.arrRef spec7 w ≠ r) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W19 m ρ c r = W0 m ρ c r :=
  calc W19 m ρ c r
    _ = W18 m ρ c r := W19_of m ρ c r h9
    _ = W17 m ρ c r := W18_of_ne m ρ c r g8
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W21_eq_W0 (c : Dev nD) (r : Ref sig .tc) (h10 : r ∉ hostOps10_W) (g9 : ∀ w, Pipeline.arrRef spec9 w ≠ r) (h9 : r ∉ hostOps9_W) (g8 : ∀ w, Pipeline.arrRef spec8 w ≠ r) (h8 : r ∉ hostOps8_W) (g7 : ∀ w, Pipeline.arrRef spec7 w ≠ r) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W21 m ρ c r = W0 m ρ c r :=
  calc W21 m ρ c r
    _ = W20 m ρ c r := W21_of m ρ c r h10
    _ = W19 m ρ c r := W20_of_ne m ρ c r g9
    _ = W18 m ρ c r := W19_of m ρ c r h9
    _ = W17 m ρ c r := W18_of_ne m ρ c r g8
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W23_main_arg0 (c : Dev nD) : W23 m ρ c main_arg0 = m ((c : Thread nD τ).loc main_arg0) :=
  W23_of_untouched m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg1 (c : Dev nD) : W23 m ρ c main_arg1 = m ((c : Thread nD τ).loc main_arg1) :=
  W23_of_untouched m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg2 (c : Dev nD) : W23 m ρ c main_arg2 = m ((c : Thread nD τ).loc main_arg2) :=
  W23_of_untouched m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg3 (c : Dev nD) : W23 m ρ c main_arg3 = m ((c : Thread nD τ).loc main_arg3) :=
  W23_of_untouched m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg4 (c : Dev nD) : W23 m ρ c main_arg4 = m ((c : Thread nD τ).loc main_arg4) :=
  W23_of_untouched m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg5 (c : Dev nD) : W23 m ρ c main_arg5 = m ((c : Thread nD τ).loc main_arg5) :=
  W23_of_untouched m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg6 (c : Dev nD) : W23 m ρ c main_arg6 = m ((c : Thread nD τ).loc main_arg6) :=
  W23_of_untouched m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg7 (c : Dev nD) : W23 m ρ c main_arg7 = m ((c : Thread nD τ).loc main_arg7) :=
  W23_of_untouched m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg8 (c : Dev nD) : W23 m ρ c main_arg8 = m ((c : Thread nD τ).loc main_arg8) :=
  W23_of_untouched m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg9 (c : Dev nD) : W23 m ρ c main_arg9 = m ((c : Thread nD τ).loc main_arg9) :=
  W23_of_untouched m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg10 (c : Dev nD) : W23 m ρ c main_arg10 = m ((c : Thread nD τ).loc main_arg10) :=
  W23_of_untouched m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg11 (c : Dev nD) : W23 m ρ c main_arg11 = m ((c : Thread nD τ).loc main_arg11) :=
  W23_of_untouched m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg12 (c : Dev nD) : W23 m ρ c main_arg12 = m ((c : Thread nD τ).loc main_arg12) :=
  W23_of_untouched m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg13 (c : Dev nD) : W23 m ρ c main_arg13 = m ((c : Thread nD τ).loc main_arg13) :=
  W23_of_untouched m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg14 (c : Dev nD) : W23 m ρ c main_arg14 = m ((c : Thread nD τ).loc main_arg14) :=
  W23_of_untouched m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg15 (c : Dev nD) : W23 m ρ c main_arg15 = m ((c : Thread nD τ).loc main_arg15) :=
  W23_of_untouched m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg16 (c : Dev nD) : W23 m ρ c main_arg16 = m ((c : Thread nD τ).loc main_arg16) :=
  W23_of_untouched m ρ c main_arg16 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg17 (c : Dev nD) : W23 m ρ c main_arg17 = m ((c : Thread nD τ).loc main_arg17) :=
  W23_of_untouched m ρ c main_arg17 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg18 (c : Dev nD) : W23 m ρ c main_arg18 = m ((c : Thread nD τ).loc main_arg18) :=
  W23_of_untouched m ρ c main_arg18 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg19 (c : Dev nD) : W23 m ρ c main_arg19 = m ((c : Thread nD τ).loc main_arg19) :=
  W23_of_untouched m ρ c main_arg19 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg20 (c : Dev nD) : W23 m ρ c main_arg20 = m ((c : Thread nD τ).loc main_arg20) :=
  W23_of_untouched m ρ c main_arg20 (by decide) (by decide) (by decide) (by decide) (by decide) (by decide) (by decide) (by decide) (by decide) (by decide) (by decide) (by decide) (by decide) (by decide) (by decide) (by decide) (by decide) (by decide) (by decide) (by decide) (by decide) (by decide) (by decide)

/-- `main_arg21` is an input window's array of region 9, which a pipeline leaves as it found it. -/
theorem W23_main_arg21 (c : Dev nD) : W23 m ρ c main_arg21 = m ((c : Thread nD τ).loc main_arg21) :=
  (W23_eq_W20 m ρ c main_arg21 (by decide) (by decide) (by decide)).trans <|
    ((W20_arr m ρ c 5).trans (((dat9 (V19 m ρ) c).arrAt_in 5 rfl _).trans (A_eq9 (V19 m ρ) c 5))).trans <|
    (W19_eq_W0 m ρ c main_arg21 (by decide) (by decide) (by decide) (by decide) (by decide) (by decide) (by decide) (by decide) (by decide) (by decide) (by decide) (by decide) (by decide) (by decide) (by decide) (by decide) (by decide) (by decide) (by decide)).trans rfl
theorem W23_main_arg22 (c : Dev nD) : W23 m ρ c main_arg22 = m ((c : Thread nD τ).loc main_arg22) :=
  W23_of_untouched m ρ c main_arg22 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg23 (c : Dev nD) : W23 m ρ c main_arg23 = m ((c : Thread nD τ).loc main_arg23) :=
  W23_of_untouched m ρ c main_arg23 (by decide) (by decide) (by decide) (by decide) (by decide) (by decide) (by decide) (by decide) (by decide) (by decide) (by decide) (by decide) (by decide) (by decide) (by decide) (by decide) (by decide) (by decide) (by decide) (by decide) (by decide) (by decide) (by decide)
theorem W23_main_arg24 (c : Dev nD) : W23 m ρ c main_arg24 = m ((c : Thread nD τ).loc main_arg24) :=
  W23_of_untouched m ρ c main_arg24 (by decide) (by decide) (by decide) (by decide) (by decide) (by decide) (by decide) (by decide) (by decide) (by decide) (by decide) (by decide) (by decide) (by decide) (by decide) (by decide) (by decide) (by decide) (by decide) (by decide) (by decide) (by decide) (by decide)

/-- `main_arg25` is an input window's array of region 10, which a pipeline leaves as it found it. -/
theorem W23_main_arg25 (c : Dev nD) : W23 m ρ c main_arg25 = m ((c : Thread nD τ).loc main_arg25) :=
  (W23_of m ρ c main_arg25 (by decide)).trans <|
    ((W22_arr m ρ c 5).trans (((dat10 (V21 m ρ) c).arrAt_in 5 rfl _).trans (A_eq10 (V21 m ρ) c 5))).trans <|
    (W21_eq_W0 m ρ c main_arg25 (by decide) (by decide) (by decide) (by decide) (by decide) (by decide) (by decide) (by decide) (by decide) (by decide) (by decide) (by decide) (by decide) (by decide) (by decide) (by decide) (by decide) (by decide) (by decide) (by decide) (by decide)).trans rfl
theorem W23_main_arg26 (c : Dev nD) : W23 m ρ c main_arg26 = m ((c : Thread nD τ).loc main_arg26) :=
  W23_of_untouched m ρ c main_arg26 (by decide) (by decide) (by decide) (by decide) (by decide) (by decide) (by decide) (by decide) (by decide) (by decide) (by decide) (by decide) (by decide) (by decide) (by decide) (by decide) (by decide) (by decide) (by decide) (by decide) (by decide) (by decide) (by decide)

/-! ## The proof data family and the thread state -/

/-- No pipeline reads a prefetched table. -/
abbrev adm : (p : Fin 11) → (pcfgs (F := F) p).Adm := fun p => (cfgs p).toPCfg_adm
/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as an item: the unscoped buffers go from the contents `W` to the operations applied in order. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents @main returns with. -/
abbrev Tₙ (c : Dev nD) : sProp 𝕄 := iprop(StableHlo.held (c : Thread nD τ) (Pipeline.ucRefs τ sig) (W23 m ρ c) ∗ ∃ r, prngReg c r)

/-! ## The regions as items -/

set_option backward.isDefEq.respectTransparency.types false in
/-- Region 0 over the thread state: entered from every unscoped buffer at `W1`, left at `W2`. Its windows'
    arrays are split out of the unscoped buffers and put back at the exit contents; the generator register goes into
    the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its windows'
    arrays are split out of the unscoped buffers and put back at the exit contents; the generator register goes into
    the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its windows'
    arrays are split out of the unscoped buffers and put back at the exit contents; the generator register goes into
    the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its windows'
    arrays are split out of the unscoped buffers and put back at the exit contents; the generator register goes into
    the pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its windows'
    arrays are split out of the unscoped buffers and put back at the exit contents; the generator register goes into
    the pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its windows'
    arrays are split out of the unscoped buffers and put back at the exit contents; the generator register goes into
    the pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its windows'
    arrays are split out of the unscoped buffers and put back at the exit contents; the generator register goes into
    the pipeline's invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its windows'
    arrays are split out of the unscoped buffers and put back at the exit contents; the generator register goes into
    the pipeline's invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. Its windows'
    arrays are split out of the unscoped buffers and put back at the exit contents; the generator register goes into
    the pipeline's invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    exact hin8 (V17 m ρ) c _
  hout c := by
    rw [show (pdats m ρ 8 c).Φ (Fin.last _) = (dat8 (V17 m ρ) c).Φ (Fin.last _) from rfl]
    exact hout8 (V17 m ρ) c
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W19`, left at `W20`. Its windows'
    arrays are split out of the unscoped buffers and put back at the exit contents; the generator register goes into
    the pipeline's invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V19 m ρ) c).Φ 0 from rfl]
    exact hin9 (V19 m ρ) c _
  hout c := by
    rw [show (pdats m ρ 9 c).Φ (Fin.last _) = (dat9 (V19 m ρ) c).Φ (Fin.last _) from rfl]
    exact hout9 (V19 m ρ) c
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W21`, left at `W22`. Its windows'
    arrays are split out of the unscoped buffers and put back at the exit contents; the generator register goes into
    the pipeline's invariant and comes out; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's 23 items in order: a stretch of host operations from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)) ]
/-- @main is the run of these items. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final memory holds each unscoped buffer at the fold's last contents `W23`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W23 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h => h)

/-! ## The frame: every argument array ends as launched -/

theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_arg0 (by decide))).trans (W23_main_arg0 m ρ c),
     (h c _ (mem_uc main_arg1 (by decide))).trans (W23_main_arg1 m ρ c),
     (h c _ (mem_uc main_arg2 (by decide))).trans (W23_main_arg2 m ρ c),
     (h c _ (mem_uc main_arg3 (by decide))).trans (W23_main_arg3 m ρ c),
     (h c _ (mem_uc main_arg4 (by decide))).trans (W23_main_arg4 m ρ c),
     (h c _ (mem_uc main_arg5 (by decide))).trans (W23_main_arg5 m ρ c),
     (h c _ (mem_uc main_arg6 (by decide))).trans (W23_main_arg6 m ρ c),
     (h c _ (mem_uc main_arg7 (by decide))).trans (W23_main_arg7 m ρ c),
     (h c _ (mem_uc main_arg8 (by decide))).trans (W23_main_arg8 m ρ c),
     (h c _ (mem_uc main_arg9 (by decide))).trans (W23_main_arg9 m ρ c),
     (h c _ (mem_uc main_arg10 (by decide))).trans (W23_main_arg10 m ρ c),
     (h c _ (mem_uc main_arg11 (by decide))).trans (W23_main_arg11 m ρ c),
     (h c _ (mem_uc main_arg12 (by decide))).trans (W23_main_arg12 m ρ c),
     (h c _ (mem_uc main_arg13 (by decide))).trans (W23_main_arg13 m ρ c),
     (h c _ (mem_uc main_arg14 (by decide))).trans (W23_main_arg14 m ρ c),
     (h c _ (mem_uc main_arg15 (by decide))).trans (W23_main_arg15 m ρ c),
     (h c _ (mem_uc main_arg16 (by decide))).trans (W23_main_arg16 m ρ c),
     (h c _ (mem_uc main_arg17 (by decide))).trans (W23_main_arg17 m ρ c),
     (h c _ (mem_uc main_arg18 (by decide))).trans (W23_main_arg18 m ρ c),
     (h c _ (mem_uc main_arg19 (by decide))).trans (W23_main_arg19 m ρ c),
     (h c _ (mem_uc main_arg20 (by decide))).trans (W23_main_arg20 m ρ c),
     (h c _ (mem_uc main_arg21 (by decide))).trans (W23_main_arg21 m ρ c),
     (h c _ (mem_uc main_arg22 (by decide))).trans (W23_main_arg22 m ρ c),
     (h c _ (mem_uc main_arg23 (by decide))).trans (W23_main_arg23 m ρ c),
     (h c _ (mem_uc main_arg24 (by decide))).trans (W23_main_arg24 m ρ c),
     (h c _ (mem_uc main_arg25 (by decide))).trans (W23_main_arg25 m ρ c),
     (h c _ (mem_uc main_arg26 (by decide))).trans (W23_main_arg26 m ρ c)⟩) (run_all m ρ)

end Cert.KernelIdeal.Hand

end
-- ==== Proof.Ref.Writes.lean ====
/- One fact about a line of host operations: an operation whose only written buffer is the reference `y`
   writes inside any list of references that holds `y`. It turns "which buffers does this stretch of the program
   write" into membership in a literal list of references, which is decided by comparing references. -/
import Idealize.ShloMosaic.Lib.StableHlo.Run

namespace Cert.ReferenceIdeal.Hand

open Idealize.ShloMosaic Idealize.ShloMosaic.StableHlo Idealize.SL.Sem

variable {τ : Topo} {sig : RefSig} {Val : EltTy → Type}

theorem writes_sub {op : HloOp τ sig Val} {W : List (Ref sig .tc)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

end Cert.ReferenceIdeal.Hand
-- ==== Proof.Ref.Run0.lean ====
/- Window 0 of the reference's @main as a list of host operations: operations 1 … 60 of 385.
   Beside the list: the window is that list run in order, every buffer it touches is a TensorCore buffer, and the
   buffers it writes are exactly the listed references (each value of the program has a buffer of its own). -/
import proofs.«176278_j29592324669622_2_alg».proof.Proof.Gen.ReferenceIdeal
import proofs.«176278_j29592324669622_2_alg».proof.Proof.Ref.Writes
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops_part0 : List (HloOp τ sig (Elt F)) :=
  [ StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg0 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 100000#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg0 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg0 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg6 main_v5 main_v6 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)),
    StableHlo.unary main_arg7 main_v7 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v7 main_v8 rfl shapeCasts_S1x64x64_S64x64,
    StableHlo.unary main_arg8 main_v9 ((extractStridedSlice S1x64 ![0, 0] · slices_S3x64_S1x64_0_0) : (⟨S3x64, .f32⟩ : BufTy).Contents (Elt F) → (⟨S1x64, .f32⟩ : BufTy).Contents (Elt F)),
    StableHlo.reshape main_v9 main_v10 rfl shapeCasts_S1x64_S64,
    StableHlo.unary main_arg9 main_v11 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v11 main_v12 rfl shapeCasts_S1x64x64_S64x64,
    StableHlo.nullary main_c_1 (constantI S_ 32 0#32),
    StableHlo.unary main_c_1 main_v13 (broadcastInDim S1000000 ![] bcast_S_S1000000 : (⟨S_, .i32⟩ : BufTy).Contents (Elt F) → (⟨S1000000, .i32⟩ : BufTy).Contents (Elt F)),
    StableHlo.binary main_arg2 main_v13 main_v14 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v15 (broadcastInDim S1000000 ![] bcast_S_S1000000 : (⟨S_, .i32⟩ : BufTy).Contents (Elt F) → (⟨S1000000, .i32⟩ : BufTy).Contents (Elt F)),
    StableHlo.binary main_arg2 main_v15 main_v16 (addi : (⟨S1000000, .i32⟩ : BufTy).Contents (Elt F) → (⟨S1000000, .i32⟩ : BufTy).Contents (Elt F) → (⟨S1000000, .i32⟩ : BufTy).Contents (Elt F)),
    StableHlo.ternary main_v14 main_v16 main_arg2 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v17 main_v18 (broadcastInDim S1000000x1 ![0] bcast_S1000000_S1000000x1_0 : (⟨S1000000, .i32⟩ : BufTy).Contents (Elt F) → (⟨S1000000x1, .i32⟩ : BufTy).Contents (Elt F)),
    StableHlo.binary main_v6 main_v18 main_v19 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst (constant S_ .f32 0x00000000#32),
    StableHlo.unary main_cst main_v20 (broadcastInDim S20000x64 ![] bcast_S_S20000x64 : (⟨S_, .f32⟩ : BufTy).Contents (Elt F) → (⟨S20000x64, .f32⟩ : BufTy).Contents (Elt F)),
    StableHlo.unary main_arg3 main_v21 (broadcastInDim S1000000x1 ![0] bcast_S1000000_S1000000x1_0 : (⟨S1000000, .i32⟩ : BufTy).Contents (Elt F) → (⟨S1000000x1, .i32⟩ : BufTy).Contents (Elt F)),
    StableHlo.ternary main_v20 main_v21 main_v19 main_v22 ((fun x i u => Host.scatterAdd scatter_S20000x64_S1000000x1_S1000000x64_1_0_0_1 x i u) : (⟨S20000x64, .f32⟩ : BufTy).Contents (Elt F) → (⟨S1000000x1, .i32⟩ : BufTy).Contents (Elt F) → (⟨S1000000x64, .f32⟩ : BufTy).Contents (Elt F) → (⟨S20000x64, .f32⟩ : BufTy).Contents (Elt F)),
    StableHlo.nullary main_cst_3 (constant S_ .f32 0x3F800000#32),
    StableHlo.unary main_cst_3 main_v23 (broadcastInDim S1000000 ![] bcast_S_S1000000 : (⟨S_, .f32⟩ : BufTy).Contents (Elt F) → (⟨S1000000, .f32⟩ : BufTy).Contents (Elt F)),
    StableHlo.nullary main_cst_4 (constant S_ .f32 0x00000000#32),
    StableHlo.unary main_cst_4 main_v24 (broadcastInDim S20000 ![] bcast_S_S20000 : (⟨S_, .f32⟩ : BufTy).Contents (Elt F) → (⟨S20000, .f32⟩ : BufTy).Contents (Elt F)),
    StableHlo.unary main_arg3 main_v25 (broadcastInDim S1000000x1 ![0] bcast_S1000000_S1000000x1_0 : (⟨S1000000, .i32⟩ : BufTy).Contents (Elt F) → (⟨S1000000x1, .i32⟩ : BufTy).Contents (Elt F)),
    StableHlo.ternary main_v24 main_v25 main_v23 main_v26 ((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)),
    StableHlo.nullary main_cst_5 (constant S_ .f32 0x3F800000#32),
    StableHlo.unary main_cst_5 main_v27 (broadcastInDim S20000 ![] bcast_S_S20000 : (⟨S_, .f32⟩ : BufTy).Contents (Elt F) → (⟨S20000, .f32⟩ : BufTy).Contents (Elt F)),
    StableHlo.binary main_v26 main_v27 main_v28 (maximumf : (⟨S20000, .f32⟩ : BufTy).Contents (Elt F) → (⟨S20000, .f32⟩ : BufTy).Contents (Elt F) → (⟨S20000, .f32⟩ : BufTy).Contents (Elt F)),
    StableHlo.unary main_v28 main_v29 (broadcastInDim S20000x1 ![0] bcast_S20000_S20000x1_0 : (⟨S20000, .f32⟩ : BufTy).Contents (Elt F) → (⟨S20000x1, .f32⟩ : BufTy).Contents (Elt F)),
    StableHlo.unary main_v29 main_v30 (broadcastInDim S20000x64 ![0, 1] bcast_S20000x1_S20000x64_0_1 : (⟨S20000x1, .f32⟩ : BufTy).Contents (Elt F) → (⟨S20000x64, .f32⟩ : BufTy).Contents (Elt F)),
    StableHlo.binary main_v22 main_v30 main_v31 (Host.divf : (⟨S20000x64, .f32⟩ : BufTy).Contents (Elt F) → (⟨S20000x64, .f32⟩ : BufTy).Contents (Elt F) → (⟨S20000x64, .f32⟩ : BufTy).Contents (Elt F)),
    StableHlo.binary main_v31 main_v8 main_v32 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_v10 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S20000x64 ![0, 1] bcast_S1x64_S20000x64_0_1 : (⟨S1x64, .f32⟩ : BufTy).Contents (Elt F) → (⟨S20000x64, .f32⟩ : BufTy).Contents (Elt F)),
    StableHlo.binary main_v32 main_v34 main_v35 (addf : (⟨S20000x64, .f32⟩ : BufTy).Contents (Elt F) → (⟨S20000x64, .f32⟩ : BufTy).Contents (Elt F) → (⟨S20000x64, .f32⟩ : BufTy).Contents (Elt F)),
    StableHlo.binary main_arg1 main_v12 main_v36 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.binary main_v35 main_v36 main_v37 (addf : (⟨S20000x64, .f32⟩ : BufTy).Contents (Elt F) → (⟨S20000x64, .f32⟩ : BufTy).Contents (Elt F) → (⟨S20000x64, .f32⟩ : BufTy).Contents (Elt F)),
    StableHlo.unary main_arg10 main_v38 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v38 main_v39 rfl shapeCasts_S1x64x64_S64x64,
    StableHlo.unary main_arg11 main_v40 ((extractStridedSlice S1x64 ![0, 0] · slices_S3x64_S1x64_0_0) : (⟨S3x64, .f32⟩ : BufTy).Contents (Elt F) → (⟨S1x64, .f32⟩ : BufTy).Contents (Elt F)),
    StableHlo.reshape main_v40 main_v41 rfl shapeCasts_S1x64_S64,
    StableHlo.unary main_arg12 main_v42 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v42 main_v43 rfl shapeCasts_S1x64x64_S64x64,
    StableHlo.nullary main_c_6 (constantI S_ 32 0#32),
    StableHlo.unary main_c_6 main_v44 (broadcastInDim S1000000 ![] bcast_S_S1000000 : (⟨S_, .i32⟩ : BufTy).Contents (Elt F) → (⟨S1000000, .i32⟩ : BufTy).Contents (Elt F)),
    StableHlo.binary main_arg3 main_v44 main_v45 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 20000#32),
    StableHlo.unary main_c_7 main_v46 (broadcastInDim S1000000 ![] bcast_S_S1000000 : (⟨S_, .i32⟩ : BufTy).Contents (Elt F) → (⟨S1000000, .i32⟩ : BufTy).Contents (Elt F)),
    StableHlo.binary main_arg3 main_v46 main_v47 (addi : (⟨S1000000, .i32⟩ : BufTy).Contents (Elt F) → (⟨S1000000, .i32⟩ : BufTy).Contents (Elt F) → (⟨S1000000, .i32⟩ : BufTy).Contents (Elt F)),
    StableHlo.ternary main_v45 main_v47 main_arg3 main_v48 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v48 main_v49 (broadcastInDim S1000000x1 ![0] bcast_S1000000_S1000000x1_0 : (⟨S1000000, .i32⟩ : BufTy).Contents (Elt F) → (⟨S1000000x1, .i32⟩ : BufTy).Contents (Elt F)) ]

/-- The buffers the window's operations write, in order: one per operation. -/
abbrev ops_part0_W : List (Ref sig .tc) :=
  [ main_c, main_v0, main_v1, main_c_0, main_v2, main_v3, main_v4, main_v5,
    main_v6, main_v7, main_v8, main_v9, main_v10, main_v11, main_v12, main_c_1,
    main_v13, main_v14, main_c_2, main_v15, main_v16, main_v17, main_v18, main_v19,
    main_cst, main_v20, main_v21, main_v22, main_cst_3, main_v23, main_cst_4, main_v24,
    main_v25, main_v26, main_cst_5, main_v27, main_v28, main_v29, main_v30, main_v31,
    main_v32, main_v33, main_v34, main_v35, main_v36, main_v37, main_v38, main_v39,
    main_v40, main_v41, main_v42, main_v43, main_c_6, main_v44, main_v45, main_c_7,
    main_v46, main_v47, main_v48, main_v49 ]

set_option maxRecDepth 8192 in
set_option maxHeartbeats 4000000 in
/-- The window is its operations run in order. -/
theorem main_part0_eq (c : Dev nD) : main_part0 (F := F) c = seq ops_part0 := rfl

/-- Every buffer a window's operation touches is a TensorCore buffer. -/
theorem ops_part0_sub : (ops_part0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub .., binary_bufs_sub .., binary_bufs_sub .., unary_bufs_sub .., reshape_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..⟩

/-- Each operation writes its own result buffer and nothing else. -/
theorem ops_part0_writes : (ops_part0 : List (HloOp τ sig (Elt F))).Forall fun op =>
    op.writes ⊆ (ops_part0_W.map (Proc.devRef (τ := τ) .tc)).toFinset :=
  ⟨writes_sub main_c rfl (by decide), writes_sub main_v0 rfl (by decide), writes_sub main_v1 rfl (by decide),
    writes_sub main_c_0 rfl (by decide), writes_sub main_v2 rfl (by decide), writes_sub main_v3 rfl (by decide),
    writes_sub main_v4 rfl (by decide), writes_sub main_v5 rfl (by decide), writes_sub main_v6 rfl (by decide),
    writes_sub main_v7 rfl (by decide), writes_sub main_v8 rfl (by decide), writes_sub main_v9 rfl (by decide),
    writes_sub main_v10 rfl (by decide), writes_sub main_v11 rfl (by decide), writes_sub main_v12 rfl (by decide),
    writes_sub main_c_1 rfl (by decide), writes_sub main_v13 rfl (by decide), writes_sub main_v14 rfl (by decide),
    writes_sub main_c_2 rfl (by decide), writes_sub main_v15 rfl (by decide), writes_sub main_v16 rfl (by decide),
    writes_sub main_v17 rfl (by decide), writes_sub main_v18 rfl (by decide), writes_sub main_v19 rfl (by decide),
    writes_sub main_cst rfl (by decide), writes_sub main_v20 rfl (by decide), writes_sub main_v21 rfl (by decide),
    writes_sub main_v22 rfl (by decide), writes_sub main_cst_3 rfl (by decide), writes_sub main_v23 rfl (by decide),
    writes_sub main_cst_4 rfl (by decide), writes_sub main_v24 rfl (by decide), writes_sub main_v25 rfl (by decide),
    writes_sub main_v26 rfl (by decide), writes_sub main_cst_5 rfl (by decide), writes_sub main_v27 rfl (by decide),
    writes_sub main_v28 rfl (by decide), writes_sub main_v29 rfl (by decide), writes_sub main_v30 rfl (by decide),
    writes_sub main_v31 rfl (by decide), writes_sub main_v32 rfl (by decide), writes_sub main_v33 rfl (by decide),
    writes_sub main_v34 rfl (by decide), writes_sub main_v35 rfl (by decide), writes_sub main_v36 rfl (by decide),
    writes_sub main_v37 rfl (by decide), writes_sub main_v38 rfl (by decide), writes_sub main_v39 rfl (by decide),
    writes_sub main_v40 rfl (by decide), writes_sub main_v41 rfl (by decide), writes_sub main_v42 rfl (by decide),
    writes_sub main_v43 rfl (by decide), writes_sub main_c_6 rfl (by decide), writes_sub main_v44 rfl (by decide),
    writes_sub main_v45 rfl (by decide), writes_sub main_c_7 rfl (by decide), writes_sub main_v46 rfl (by decide),
    writes_sub main_v47 rfl (by decide), writes_sub main_v48 rfl (by decide), writes_sub main_v49 rfl (by decide)⟩

end Cert.ReferenceIdeal.Hand

end
-- ==== Proof.Ref.Run1.lean ====
/- Window 1 of the reference's @main as a list of host operations: operations 61 … 124 of 385. Each call of an outlined function (@relu, @relu_0) stands as the callee's own operations over that call's buffers, its arguments the caller's.
   Beside the list: the window is that list run in order, every buffer it touches is a TensorCore buffer, and the
   buffers it writes are exactly the listed references (each value of the program has a buffer of its own). -/
import proofs.«176278_j29592324669622_2_alg».proof.Proof.Gen.ReferenceIdeal
import proofs.«176278_j29592324669622_2_alg».proof.Proof.Ref.Writes
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops_part1 : List (HloOp τ sig (Elt F)) :=
  [ StableHlo.binary main_arg1 main_v49 main_v50 ((fun x i => Host.gather gather_S20000x64_S1000000x1_S1000000x64_1_0_n_n_0_1_164 x i) : (⟨S20000x64, .f32⟩ : BufTy).Contents (Elt F) → (⟨S1000000x1, .i32⟩ : BufTy).Contents (Elt F) → (⟨S1000000x64, .f32⟩ : BufTy).Contents (Elt F)),
    StableHlo.nullary main_cst_8 (constant S_ .f32 0x00000000#32),
    StableHlo.unary main_cst_8 main_v51 (broadcastInDim S100000x64 ![] bcast_S_S100000x64 : (⟨S_, .f32⟩ : BufTy).Contents (Elt F) → (⟨S100000x64, .f32⟩ : BufTy).Contents (Elt F)),
    StableHlo.unary main_arg2 main_v52 (broadcastInDim S1000000x1 ![0] bcast_S1000000_S1000000x1_0 : (⟨S1000000, .i32⟩ : BufTy).Contents (Elt F) → (⟨S1000000x1, .i32⟩ : BufTy).Contents (Elt F)),
    StableHlo.ternary main_v51 main_v52 main_v50 main_v53 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_cst_9 (constant S_ .f32 0x3F800000#32),
    StableHlo.unary main_cst_9 main_v54 (broadcastInDim S1000000 ![] bcast_S_S1000000 : (⟨S_, .f32⟩ : BufTy).Contents (Elt F) → (⟨S1000000, .f32⟩ : BufTy).Contents (Elt F)),
    StableHlo.nullary main_cst_10 (constant S_ .f32 0x00000000#32),
    StableHlo.unary main_cst_10 main_v55 (broadcastInDim S100000 ![] bcast_S_S100000 : (⟨S_, .f32⟩ : BufTy).Contents (Elt F) → (⟨S100000, .f32⟩ : BufTy).Contents (Elt F)),
    StableHlo.unary main_arg2 main_v56 (broadcastInDim S1000000x1 ![0] bcast_S1000000_S1000000x1_0 : (⟨S1000000, .i32⟩ : BufTy).Contents (Elt F) → (⟨S1000000x1, .i32⟩ : BufTy).Contents (Elt F)),
    StableHlo.ternary main_v55 main_v56 main_v54 main_v57 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_11 (constant S_ .f32 0x3F800000#32),
    StableHlo.unary main_cst_11 main_v58 (broadcastInDim S100000 ![] bcast_S_S100000 : (⟨S_, .f32⟩ : BufTy).Contents (Elt F) → (⟨S100000, .f32⟩ : BufTy).Contents (Elt F)),
    StableHlo.binary main_v57 main_v58 main_v59 (maximumf : (⟨S100000, .f32⟩ : BufTy).Contents (Elt F) → (⟨S100000, .f32⟩ : BufTy).Contents (Elt F) → (⟨S100000, .f32⟩ : BufTy).Contents (Elt F)),
    StableHlo.unary main_v59 main_v60 (broadcastInDim S100000x1 ![0] bcast_S100000_S100000x1_0 : (⟨S100000, .f32⟩ : BufTy).Contents (Elt F) → (⟨S100000x1, .f32⟩ : BufTy).Contents (Elt F)),
    StableHlo.unary main_v60 main_v61 (broadcastInDim S100000x64 ![0, 1] bcast_S100000x1_S100000x64_0_1 : (⟨S100000x1, .f32⟩ : BufTy).Contents (Elt F) → (⟨S100000x64, .f32⟩ : BufTy).Contents (Elt F)),
    StableHlo.binary main_v53 main_v61 main_v62 (Host.divf : (⟨S100000x64, .f32⟩ : BufTy).Contents (Elt F) → (⟨S100000x64, .f32⟩ : BufTy).Contents (Elt F) → (⟨S100000x64, .f32⟩ : BufTy).Contents (Elt F)),
    StableHlo.binary main_v62 main_v39 main_v63 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v41 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (addf : (⟨S100000x64, .f32⟩ : BufTy).Contents (Elt F) → (⟨S100000x64, .f32⟩ : BufTy).Contents (Elt F) → (⟨S100000x64, .f32⟩ : BufTy).Contents (Elt F)),
    StableHlo.binary main_v6 main_v43 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v66 main_v67 main_v68 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S20000x64 ![] bcast_S_S20000x64),
    StableHlo.TRef.binary (.of main_v37 : StableHlo.TRef sig ⟨S20000x64, .f32⟩) main_call0.v0 main_call0.v1 maximumf,
    StableHlo.TRef.nullary main_call1.cst (constant S_ .f32 0x00000000#32),
    StableHlo.TRef.unary main_call1.cst main_call1.v0 (broadcastInDim S100000x64 ![] bcast_S_S100000x64),
    StableHlo.TRef.binary (.of main_v68 : StableHlo.TRef sig ⟨S100000x64, .f32⟩) main_call1.v0 main_call1.v1 maximumf,
    StableHlo.unary main_arg7 main_v71 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v71 main_v72 rfl shapeCasts_S1x64x64_S64x64,
    StableHlo.unary main_arg8 main_v73 ((extractStridedSlice S1x64 ![1, 0] · slices_S3x64_S1x64_1_0) : (⟨S3x64, .f32⟩ : BufTy).Contents (Elt F) → (⟨S1x64, .f32⟩ : BufTy).Contents (Elt F)),
    StableHlo.reshape main_v73 main_v74 rfl shapeCasts_S1x64_S64,
    StableHlo.unary main_arg9 main_v75 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v75 main_v76 rfl shapeCasts_S1x64x64_S64x64,
    StableHlo.nullary main_c_12 (constantI S_ 32 0#32),
    StableHlo.unary main_c_12 main_v77 (broadcastInDim S1000000 ![] bcast_S_S1000000 : (⟨S_, .i32⟩ : BufTy).Contents (Elt F) → (⟨S1000000, .i32⟩ : BufTy).Contents (Elt F)),
    StableHlo.binary main_arg2 main_v77 main_v78 (cmpi .slt : (⟨S1000000, .i32⟩ : BufTy).Contents (Elt F) → (⟨S1000000, .i32⟩ : BufTy).Contents (Elt F) → (⟨S1000000, .i1⟩ : BufTy).Contents (Elt F)),
    StableHlo.nullary main_c_13 (constantI S_ 32 100000#32),
    StableHlo.unary main_c_13 main_v79 (broadcastInDim S1000000 ![] bcast_S_S1000000 : (⟨S_, .i32⟩ : BufTy).Contents (Elt F) → (⟨S1000000, .i32⟩ : BufTy).Contents (Elt F)),
    StableHlo.binary main_arg2 main_v79 main_v80 (addi : (⟨S1000000, .i32⟩ : BufTy).Contents (Elt F) → (⟨S1000000, .i32⟩ : BufTy).Contents (Elt F) → (⟨S1000000, .i32⟩ : BufTy).Contents (Elt F)),
    StableHlo.ternary main_v78 main_v80 main_arg2 main_v81 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v81 main_v82 (broadcastInDim S1000000x1 ![0] bcast_S1000000_S1000000x1_0 : (⟨S1000000, .i32⟩ : BufTy).Contents (Elt F) → (⟨S1000000x1, .i32⟩ : BufTy).Contents (Elt F)),
    StableHlo.binary main_v70 main_v82 main_v83 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_14 (constant S_ .f32 0x00000000#32),
    StableHlo.unary main_cst_14 main_v84 (broadcastInDim S20000x64 ![] bcast_S_S20000x64 : (⟨S_, .f32⟩ : BufTy).Contents (Elt F) → (⟨S20000x64, .f32⟩ : BufTy).Contents (Elt F)),
    StableHlo.unary main_arg3 main_v85 (broadcastInDim S1000000x1 ![0] bcast_S1000000_S1000000x1_0 : (⟨S1000000, .i32⟩ : BufTy).Contents (Elt F) → (⟨S1000000x1, .i32⟩ : BufTy).Contents (Elt F)),
    StableHlo.ternary main_v84 main_v85 main_v83 main_v86 ((fun x i u => Host.scatterAdd scatter_S20000x64_S1000000x1_S1000000x64_1_0_0_1 x i u) : (⟨S20000x64, .f32⟩ : BufTy).Contents (Elt F) → (⟨S1000000x1, .i32⟩ : BufTy).Contents (Elt F) → (⟨S1000000x64, .f32⟩ : BufTy).Contents (Elt F) → (⟨S20000x64, .f32⟩ : BufTy).Contents (Elt F)),
    StableHlo.nullary main_cst_15 (constant S_ .f32 0x3F800000#32),
    StableHlo.unary main_cst_15 main_v87 (broadcastInDim S1000000 ![] bcast_S_S1000000 : (⟨S_, .f32⟩ : BufTy).Contents (Elt F) → (⟨S1000000, .f32⟩ : BufTy).Contents (Elt F)),
    StableHlo.nullary main_cst_16 (constant S_ .f32 0x00000000#32),
    StableHlo.unary main_cst_16 main_v88 (broadcastInDim S20000 ![] bcast_S_S20000 : (⟨S_, .f32⟩ : BufTy).Contents (Elt F) → (⟨S20000, .f32⟩ : BufTy).Contents (Elt F)),
    StableHlo.unary main_arg3 main_v89 (broadcastInDim S1000000x1 ![0] bcast_S1000000_S1000000x1_0 : (⟨S1000000, .i32⟩ : BufTy).Contents (Elt F) → (⟨S1000000x1, .i32⟩ : BufTy).Contents (Elt F)),
    StableHlo.ternary main_v88 main_v89 main_v87 main_v90 ((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)),
    StableHlo.nullary main_cst_17 (constant S_ .f32 0x3F800000#32),
    StableHlo.unary main_cst_17 main_v91 (broadcastInDim S20000 ![] bcast_S_S20000 : (⟨S_, .f32⟩ : BufTy).Contents (Elt F) → (⟨S20000, .f32⟩ : BufTy).Contents (Elt F)),
    StableHlo.binary main_v90 main_v91 main_v92 (maximumf : (⟨S20000, .f32⟩ : BufTy).Contents (Elt F) → (⟨S20000, .f32⟩ : BufTy).Contents (Elt F) → (⟨S20000, .f32⟩ : BufTy).Contents (Elt F)),
    StableHlo.unary main_v92 main_v93 (broadcastInDim S20000x1 ![0] bcast_S20000_S20000x1_0 : (⟨S20000, .f32⟩ : BufTy).Contents (Elt F) → (⟨S20000x1, .f32⟩ : BufTy).Contents (Elt F)),
    StableHlo.unary main_v93 main_v94 (broadcastInDim S20000x64 ![0, 1] bcast_S20000x1_S20000x64_0_1 : (⟨S20000x1, .f32⟩ : BufTy).Contents (Elt F) → (⟨S20000x64, .f32⟩ : BufTy).Contents (Elt F)),
    StableHlo.binary main_v86 main_v94 main_v95 (Host.divf : (⟨S20000x64, .f32⟩ : BufTy).Contents (Elt F) → (⟨S20000x64, .f32⟩ : BufTy).Contents (Elt F) → (⟨S20000x64, .f32⟩ : BufTy).Contents (Elt F)),
    StableHlo.binary main_v95 main_v72 main_v96 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_v74 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S20000x64 ![0, 1] bcast_S1x64_S20000x64_0_1 : (⟨S1x64, .f32⟩ : BufTy).Contents (Elt F) → (⟨S20000x64, .f32⟩ : BufTy).Contents (Elt F)),
    StableHlo.binary main_v96 main_v98 main_v99 (addf : (⟨S20000x64, .f32⟩ : BufTy).Contents (Elt F) → (⟨S20000x64, .f32⟩ : BufTy).Contents (Elt F) → (⟨S20000x64, .f32⟩ : BufTy).Contents (Elt F)) ]

/-- The buffers the window's operations write, in order: one per operation. -/
abbrev ops_part1_W : List (Ref sig .tc) :=
  [ main_v50, main_cst_8, main_v51, main_v52, main_v53, main_cst_9, main_v54, main_cst_10,
    main_v55, main_v56, main_v57, main_cst_11, main_v58, main_v59, main_v60, main_v61,
    main_v62, main_v63, main_v64, main_v65, main_v66, main_v67, main_v68, main_call0_cst,
    main_call0_v0, main_v69, main_call1_cst, main_call1_v0, main_v70, main_v71, main_v72, main_v73,
    main_v74, main_v75, main_v76, main_c_12, main_v77, main_v78, main_c_13, main_v79,
    main_v80, main_v81, main_v82, main_v83, main_cst_14, main_v84, main_v85, main_v86,
    main_cst_15, main_v87, main_cst_16, main_v88, main_v89, main_v90, main_cst_17, main_v91,
    main_v92, main_v93, main_v94, main_v95, main_v96, main_v97, main_v98, main_v99 ]

set_option maxRecDepth 8192 in
set_option maxHeartbeats 4000000 in
/-- The window is its operations run in order. -/
theorem main_part1_eq (c : Dev nD) : main_part1 (F := F) c = seq ops_part1 := by
  simp only [main_part1, fn_relu.body, fn_relu_0.body, seq, bind_assoc, pure_bind]
  rfl

/-- Every buffer a window's operation touches is a TensorCore buffer. -/
theorem ops_part1_sub : (ops_part1 : List (HloOp τ sig (Elt F))).Forall fun op => op.bufs ⊆ tcRefs τ sig :=
  ⟨binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., unary_bufs_sub ..,
    reshape_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., unary_bufs_sub .., unary_bufs_sub .., binary_bufs_sub ..⟩

/-- Each operation writes its own result buffer and nothing else. -/
theorem ops_part1_writes : (ops_part1 : List (HloOp τ sig (Elt F))).Forall fun op =>
    op.writes ⊆ (ops_part1_W.map (Proc.devRef (τ := τ) .tc)).toFinset :=
  ⟨writes_sub main_v50 rfl (by decide), writes_sub main_cst_8 rfl (by decide), writes_sub main_v51 rfl (by decide),
    writes_sub main_v52 rfl (by decide), writes_sub main_v53 rfl (by decide), writes_sub main_cst_9 rfl (by decide),
    writes_sub main_v54 rfl (by decide), writes_sub main_cst_10 rfl (by decide), writes_sub main_v55 rfl (by decide),
    writes_sub main_v56 rfl (by decide), writes_sub main_v57 rfl (by decide), writes_sub main_cst_11 rfl (by decide),
    writes_sub main_v58 rfl (by decide), writes_sub main_v59 rfl (by decide), writes_sub main_v60 rfl (by decide),
    writes_sub main_v61 rfl (by decide), writes_sub main_v62 rfl (by decide), writes_sub main_v63 rfl (by decide),
    writes_sub main_v64 rfl (by decide), writes_sub main_v65 rfl (by decide), writes_sub main_v66 rfl (by decide),
    writes_sub main_v67 rfl (by decide), writes_sub main_v68 rfl (by decide), writes_sub main_call0_cst rfl (by decide),
    writes_sub main_call0_v0 rfl (by decide), writes_sub main_v69 rfl (by decide), writes_sub main_call1_cst rfl (by decide),
    writes_sub main_call1_v0 rfl (by decide), writes_sub main_v70 rfl (by decide), writes_sub main_v71 rfl (by decide),
    writes_sub main_v72 rfl (by decide), writes_sub main_v73 rfl (by decide), writes_sub main_v74 rfl (by decide),
    writes_sub main_v75 rfl (by decide), writes_sub main_v76 rfl (by decide), writes_sub main_c_12 rfl (by decide),
    writes_sub main_v77 rfl (by decide), writes_sub main_v78 rfl (by decide), writes_sub main_c_13 rfl (by decide),
    writes_sub main_v79 rfl (by decide), writes_sub main_v80 rfl (by decide), writes_sub main_v81 rfl (by decide),
    writes_sub main_v82 rfl (by decide), writes_sub main_v83 rfl (by decide), writes_sub main_cst_14 rfl (by decide),
    writes_sub main_v84 rfl (by decide), writes_sub main_v85 rfl (by decide), writes_sub main_v86 rfl (by decide),
    writes_sub main_cst_15 rfl (by decide), writes_sub main_v87 rfl (by decide), writes_sub main_cst_16 rfl (by decide),
    writes_sub main_v88 rfl (by decide), writes_sub main_v89 rfl (by decide), writes_sub main_v90 rfl (by decide),
    writes_sub main_cst_17 rfl (by decide), writes_sub main_v91 rfl (by decide), writes_sub main_v92 rfl (by decide),
    writes_sub main_v93 rfl (by decide), writes_sub main_v94 rfl (by decide), writes_sub main_v95 rfl (by decide),
    writes_sub main_v96 rfl (by decide), writes_sub main_v97 rfl (by decide), writes_sub main_v98 rfl (by decide),
    writes_sub main_v99 rfl (by decide)⟩

end Cert.ReferenceIdeal.Hand

end
-- ==== Proof.Ref.Run2.lean ====
/- Window 2 of the reference's @main as a list of host operations: operations 125 … 188 of 385. Each call of an outlined function (@relu, @relu_0) stands as the callee's own operations over that call's buffers, its arguments the caller's.
   Beside the list: the window is that list run in order, every buffer it touches is a TensorCore buffer, and the
   buffers it writes are exactly the listed references (each value of the program has a buffer of its own). -/
import proofs.«176278_j29592324669622_2_alg».proof.Proof.Gen.ReferenceIdeal
import proofs.«176278_j29592324669622_2_alg».proof.Proof.Ref.Writes
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops_part2 : List (HloOp τ sig (Elt F)) :=
  [ StableHlo.binary main_v69 main_v76 main_v100 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.binary main_v99 main_v100 main_v101 (addf : (⟨S20000x64, .f32⟩ : BufTy).Contents (Elt F) → (⟨S20000x64, .f32⟩ : BufTy).Contents (Elt F) → (⟨S20000x64, .f32⟩ : BufTy).Contents (Elt F)),
    StableHlo.unary main_arg10 main_v102 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v102 main_v103 rfl shapeCasts_S1x64x64_S64x64,
    StableHlo.unary main_arg11 main_v104 ((extractStridedSlice S1x64 ![1, 0] · slices_S3x64_S1x64_1_0) : (⟨S3x64, .f32⟩ : BufTy).Contents (Elt F) → (⟨S1x64, .f32⟩ : BufTy).Contents (Elt F)),
    StableHlo.reshape main_v104 main_v105 rfl shapeCasts_S1x64_S64,
    StableHlo.unary main_arg12 main_v106 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v106 main_v107 rfl shapeCasts_S1x64x64_S64x64,
    StableHlo.nullary main_c_18 (constantI S_ 32 0#32),
    StableHlo.unary main_c_18 main_v108 (broadcastInDim S1000000 ![] bcast_S_S1000000 : (⟨S_, .i32⟩ : BufTy).Contents (Elt F) → (⟨S1000000, .i32⟩ : BufTy).Contents (Elt F)),
    StableHlo.binary main_arg3 main_v108 main_v109 (cmpi .slt : (⟨S1000000, .i32⟩ : BufTy).Contents (Elt F) → (⟨S1000000, .i32⟩ : BufTy).Contents (Elt F) → (⟨S1000000, .i1⟩ : BufTy).Contents (Elt F)),
    StableHlo.nullary main_c_19 (constantI S_ 32 20000#32),
    StableHlo.unary main_c_19 main_v110 (broadcastInDim S1000000 ![] bcast_S_S1000000 : (⟨S_, .i32⟩ : BufTy).Contents (Elt F) → (⟨S1000000, .i32⟩ : BufTy).Contents (Elt F)),
    StableHlo.binary main_arg3 main_v110 main_v111 (addi : (⟨S1000000, .i32⟩ : BufTy).Contents (Elt F) → (⟨S1000000, .i32⟩ : BufTy).Contents (Elt F) → (⟨S1000000, .i32⟩ : BufTy).Contents (Elt F)),
    StableHlo.ternary main_v109 main_v111 main_arg3 main_v112 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v112 main_v113 (broadcastInDim S1000000x1 ![0] bcast_S1000000_S1000000x1_0 : (⟨S1000000, .i32⟩ : BufTy).Contents (Elt F) → (⟨S1000000x1, .i32⟩ : BufTy).Contents (Elt F)),
    StableHlo.binary main_v69 main_v113 main_v114 ((fun x i => Host.gather gather_S20000x64_S1000000x1_S1000000x64_1_0_n_n_0_1_164 x i) : (⟨S20000x64, .f32⟩ : BufTy).Contents (Elt F) → (⟨S1000000x1, .i32⟩ : BufTy).Contents (Elt F) → (⟨S1000000x64, .f32⟩ : BufTy).Contents (Elt F)),
    StableHlo.nullary main_cst_20 (constant S_ .f32 0x00000000#32),
    StableHlo.unary main_cst_20 main_v115 (broadcastInDim S100000x64 ![] bcast_S_S100000x64 : (⟨S_, .f32⟩ : BufTy).Contents (Elt F) → (⟨S100000x64, .f32⟩ : BufTy).Contents (Elt F)),
    StableHlo.unary main_arg2 main_v116 (broadcastInDim S1000000x1 ![0] bcast_S1000000_S1000000x1_0 : (⟨S1000000, .i32⟩ : BufTy).Contents (Elt F) → (⟨S1000000x1, .i32⟩ : BufTy).Contents (Elt F)),
    StableHlo.ternary main_v115 main_v116 main_v114 main_v117 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_cst_21 (constant S_ .f32 0x3F800000#32),
    StableHlo.unary main_cst_21 main_v118 (broadcastInDim S1000000 ![] bcast_S_S1000000 : (⟨S_, .f32⟩ : BufTy).Contents (Elt F) → (⟨S1000000, .f32⟩ : BufTy).Contents (Elt F)),
    StableHlo.nullary main_cst_22 (constant S_ .f32 0x00000000#32),
    StableHlo.unary main_cst_22 main_v119 (broadcastInDim S100000 ![] bcast_S_S100000 : (⟨S_, .f32⟩ : BufTy).Contents (Elt F) → (⟨S100000, .f32⟩ : BufTy).Contents (Elt F)),
    StableHlo.unary main_arg2 main_v120 (broadcastInDim S1000000x1 ![0] bcast_S1000000_S1000000x1_0 : (⟨S1000000, .i32⟩ : BufTy).Contents (Elt F) → (⟨S1000000x1, .i32⟩ : BufTy).Contents (Elt F)),
    StableHlo.ternary main_v119 main_v120 main_v118 main_v121 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_23 (constant S_ .f32 0x3F800000#32),
    StableHlo.unary main_cst_23 main_v122 (broadcastInDim S100000 ![] bcast_S_S100000 : (⟨S_, .f32⟩ : BufTy).Contents (Elt F) → (⟨S100000, .f32⟩ : BufTy).Contents (Elt F)),
    StableHlo.binary main_v121 main_v122 main_v123 (maximumf : (⟨S100000, .f32⟩ : BufTy).Contents (Elt F) → (⟨S100000, .f32⟩ : BufTy).Contents (Elt F) → (⟨S100000, .f32⟩ : BufTy).Contents (Elt F)),
    StableHlo.unary main_v123 main_v124 (broadcastInDim S100000x1 ![0] bcast_S100000_S100000x1_0 : (⟨S100000, .f32⟩ : BufTy).Contents (Elt F) → (⟨S100000x1, .f32⟩ : BufTy).Contents (Elt F)),
    StableHlo.unary main_v124 main_v125 (broadcastInDim S100000x64 ![0, 1] bcast_S100000x1_S100000x64_0_1 : (⟨S100000x1, .f32⟩ : BufTy).Contents (Elt F) → (⟨S100000x64, .f32⟩ : BufTy).Contents (Elt F)),
    StableHlo.binary main_v117 main_v125 main_v126 (Host.divf : (⟨S100000x64, .f32⟩ : BufTy).Contents (Elt F) → (⟨S100000x64, .f32⟩ : BufTy).Contents (Elt F) → (⟨S100000x64, .f32⟩ : BufTy).Contents (Elt F)),
    StableHlo.binary main_v126 main_v103 main_v127 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v105 main_v128 (broadcastInDim S1x64 ![1] bcast_S64_S1x64_1 : (⟨S64, .f32⟩ : BufTy).Contents (Elt F) → (⟨S1x64, .f32⟩ : BufTy).Contents (Elt F)),
    StableHlo.unary main_v128 main_v129 (broadcastInDim S100000x64 ![0, 1] bcast_S1x64_S100000x64_0_1 : (⟨S1x64, .f32⟩ : BufTy).Contents (Elt F) → (⟨S100000x64, .f32⟩ : BufTy).Contents (Elt F)),
    StableHlo.binary main_v127 main_v129 main_v130 (addf : (⟨S100000x64, .f32⟩ : BufTy).Contents (Elt F) → (⟨S100000x64, .f32⟩ : BufTy).Contents (Elt F) → (⟨S100000x64, .f32⟩ : BufTy).Contents (Elt F)),
    StableHlo.binary main_v70 main_v107 main_v131 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v130 main_v131 main_v132 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S20000x64 ![] bcast_S_S20000x64),
    StableHlo.TRef.binary (.of main_v101 : StableHlo.TRef sig ⟨S20000x64, .f32⟩) main_call2.v0 main_call2.v1 maximumf,
    StableHlo.TRef.nullary main_call3.cst (constant S_ .f32 0x00000000#32),
    StableHlo.TRef.unary main_call3.cst main_call3.v0 (broadcastInDim S100000x64 ![] bcast_S_S100000x64),
    StableHlo.TRef.binary (.of main_v132 : StableHlo.TRef sig ⟨S100000x64, .f32⟩) main_call3.v0 main_call3.v1 maximumf,
    StableHlo.unary main_arg7 main_v135 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v135 main_v136 rfl shapeCasts_S1x64x64_S64x64,
    StableHlo.unary main_arg8 main_v137 ((extractStridedSlice S1x64 ![2, 0] · slices_S3x64_S1x64_2_0) : (⟨S3x64, .f32⟩ : BufTy).Contents (Elt F) → (⟨S1x64, .f32⟩ : BufTy).Contents (Elt F)),
    StableHlo.reshape main_v137 main_v138 rfl shapeCasts_S1x64_S64,
    StableHlo.unary main_arg9 main_v139 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v139 main_v140 rfl shapeCasts_S1x64x64_S64x64,
    StableHlo.nullary main_c_24 (constantI S_ 32 0#32),
    StableHlo.unary main_c_24 main_v141 (broadcastInDim S1000000 ![] bcast_S_S1000000 : (⟨S_, .i32⟩ : BufTy).Contents (Elt F) → (⟨S1000000, .i32⟩ : BufTy).Contents (Elt F)),
    StableHlo.binary main_arg2 main_v141 main_v142 (cmpi .slt : (⟨S1000000, .i32⟩ : BufTy).Contents (Elt F) → (⟨S1000000, .i32⟩ : BufTy).Contents (Elt F) → (⟨S1000000, .i1⟩ : BufTy).Contents (Elt F)),
    StableHlo.nullary main_c_25 (constantI S_ 32 100000#32),
    StableHlo.unary main_c_25 main_v143 (broadcastInDim S1000000 ![] bcast_S_S1000000 : (⟨S_, .i32⟩ : BufTy).Contents (Elt F) → (⟨S1000000, .i32⟩ : BufTy).Contents (Elt F)),
    StableHlo.binary main_arg2 main_v143 main_v144 (addi : (⟨S1000000, .i32⟩ : BufTy).Contents (Elt F) → (⟨S1000000, .i32⟩ : BufTy).Contents (Elt F) → (⟨S1000000, .i32⟩ : BufTy).Contents (Elt F)),
    StableHlo.ternary main_v142 main_v144 main_arg2 main_v145 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v145 main_v146 (broadcastInDim S1000000x1 ![0] bcast_S1000000_S1000000x1_0 : (⟨S1000000, .i32⟩ : BufTy).Contents (Elt F) → (⟨S1000000x1, .i32⟩ : BufTy).Contents (Elt F)),
    StableHlo.binary main_v134 main_v146 main_v147 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_26 (constant S_ .f32 0x00000000#32),
    StableHlo.unary main_cst_26 main_v148 (broadcastInDim S20000x64 ![] bcast_S_S20000x64 : (⟨S_, .f32⟩ : BufTy).Contents (Elt F) → (⟨S20000x64, .f32⟩ : BufTy).Contents (Elt F)),
    StableHlo.unary main_arg3 main_v149 (broadcastInDim S1000000x1 ![0] bcast_S1000000_S1000000x1_0 : (⟨S1000000, .i32⟩ : BufTy).Contents (Elt F) → (⟨S1000000x1, .i32⟩ : BufTy).Contents (Elt F)),
    StableHlo.ternary main_v148 main_v149 main_v147 main_v150 ((fun x i u => Host.scatterAdd scatter_S20000x64_S1000000x1_S1000000x64_1_0_0_1 x i u) : (⟨S20000x64, .f32⟩ : BufTy).Contents (Elt F) → (⟨S1000000x1, .i32⟩ : BufTy).Contents (Elt F) → (⟨S1000000x64, .f32⟩ : BufTy).Contents (Elt F) → (⟨S20000x64, .f32⟩ : BufTy).Contents (Elt F)) ]

/-- The buffers the window's operations write, in order: one per operation. -/
abbrev ops_part2_W : List (Ref sig .tc) :=
  [ main_v100, main_v101, main_v102, main_v103, main_v104, main_v105, main_v106, main_v107,
    main_c_18, main_v108, main_v109, main_c_19, main_v110, main_v111, main_v112, main_v113,
    main_v114, main_cst_20, main_v115, main_v116, main_v117, main_cst_21, main_v118, main_cst_22,
    main_v119, main_v120, main_v121, main_cst_23, main_v122, main_v123, main_v124, main_v125,
    main_v126, main_v127, main_v128, main_v129, main_v130, main_v131, main_v132, main_call2_cst,
    main_call2_v0, main_v133, main_call3_cst, main_call3_v0, main_v134, main_v135, main_v136, main_v137,
    main_v138, main_v139, main_v140, main_c_24, main_v141, main_v142, main_c_25, main_v143,
    main_v144, main_v145, main_v146, main_v147, main_cst_26, main_v148, main_v149, main_v150 ]

set_option maxRecDepth 8192 in
set_option maxHeartbeats 4000000 in
/-- The window is its operations run in order. -/
theorem main_part2_eq (c : Dev nD) : main_part2 (F := F) c = seq ops_part2 := by
  simp only [main_part2, fn_relu.body, fn_relu_0.body, seq, bind_assoc, pure_bind]
  rfl

/-- Every buffer a window's operation touches is a TensorCore buffer. -/
theorem ops_part2_sub : (ops_part2 : List (HloOp τ sig (Elt F))).Forall fun op => op.bufs ⊆ tcRefs τ sig :=
  ⟨binary_bufs_sub .., binary_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., binary_bufs_sub .., binary_bufs_sub .., nullary_bufs_sub .., unary_bufs_sub .., binary_bufs_sub ..,
    nullary_bufs_sub .., unary_bufs_sub .., binary_bufs_sub .., unary_bufs_sub .., reshape_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub ..⟩

/-- Each operation writes its own result buffer and nothing else. -/
theorem ops_part2_writes : (ops_part2 : List (HloOp τ sig (Elt F))).Forall fun op =>
    op.writes ⊆ (ops_part2_W.map (Proc.devRef (τ := τ) .tc)).toFinset :=
  ⟨writes_sub main_v100 rfl (by decide), writes_sub main_v101 rfl (by decide), writes_sub main_v102 rfl (by decide),
    writes_sub main_v103 rfl (by decide), writes_sub main_v104 rfl (by decide), writes_sub main_v105 rfl (by decide),
    writes_sub main_v106 rfl (by decide), writes_sub main_v107 rfl (by decide), writes_sub main_c_18 rfl (by decide),
    writes_sub main_v108 rfl (by decide), writes_sub main_v109 rfl (by decide), writes_sub main_c_19 rfl (by decide),
    writes_sub main_v110 rfl (by decide), writes_sub main_v111 rfl (by decide), writes_sub main_v112 rfl (by decide),
    writes_sub main_v113 rfl (by decide), writes_sub main_v114 rfl (by decide), writes_sub main_cst_20 rfl (by decide),
    writes_sub main_v115 rfl (by decide), writes_sub main_v116 rfl (by decide), writes_sub main_v117 rfl (by decide),
    writes_sub main_cst_21 rfl (by decide), writes_sub main_v118 rfl (by decide), writes_sub main_cst_22 rfl (by decide),
    writes_sub main_v119 rfl (by decide), writes_sub main_v120 rfl (by decide), writes_sub main_v121 rfl (by decide),
    writes_sub main_cst_23 rfl (by decide), writes_sub main_v122 rfl (by decide), writes_sub main_v123 rfl (by decide),
    writes_sub main_v124 rfl (by decide), writes_sub main_v125 rfl (by decide), writes_sub main_v126 rfl (by decide),
    writes_sub main_v127 rfl (by decide), writes_sub main_v128 rfl (by decide), writes_sub main_v129 rfl (by decide),
    writes_sub main_v130 rfl (by decide), writes_sub main_v131 rfl (by decide), writes_sub main_v132 rfl (by decide),
    writes_sub main_call2_cst rfl (by decide), writes_sub main_call2_v0 rfl (by decide), writes_sub main_v133 rfl (by decide),
    writes_sub main_call3_cst rfl (by decide), writes_sub main_call3_v0 rfl (by decide), writes_sub main_v134 rfl (by decide),
    writes_sub main_v135 rfl (by decide), writes_sub main_v136 rfl (by decide), writes_sub main_v137 rfl (by decide),
    writes_sub main_v138 rfl (by decide), writes_sub main_v139 rfl (by decide), writes_sub main_v140 rfl (by decide),
    writes_sub main_c_24 rfl (by decide), writes_sub main_v141 rfl (by decide), writes_sub main_v142 rfl (by decide),
    writes_sub main_c_25 rfl (by decide), writes_sub main_v143 rfl (by decide), writes_sub main_v144 rfl (by decide),
    writes_sub main_v145 rfl (by decide), writes_sub main_v146 rfl (by decide), writes_sub main_v147 rfl (by decide),
    writes_sub main_cst_26 rfl (by decide), writes_sub main_v148 rfl (by decide), writes_sub main_v149 rfl (by decide),
    writes_sub main_v150 rfl (by decide)⟩

end Cert.ReferenceIdeal.Hand

end
-- ==== Proof.Ref.Run3.lean ====
/- Window 3 of the reference's @main as a list of host operations: operations 189 … 252 of 385. Each call of an outlined function (@relu, @relu_0) stands as the callee's own operations over that call's buffers, its arguments the caller's.
   Beside the list: the window is that list run in order, every buffer it touches is a TensorCore buffer, and the
   buffers it writes are exactly the listed references (each value of the program has a buffer of its own). -/
import proofs.«176278_j29592324669622_2_alg».proof.Proof.Gen.ReferenceIdeal
import proofs.«176278_j29592324669622_2_alg».proof.Proof.Ref.Writes
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops_part3 : List (HloOp τ sig (Elt F)) :=
  [ StableHlo.nullary main_cst_27 (constant S_ .f32 0x3F800000#32),
    StableHlo.unary main_cst_27 main_v151 (broadcastInDim S1000000 ![] bcast_S_S1000000 : (⟨S_, .f32⟩ : BufTy).Contents (Elt F) → (⟨S1000000, .f32⟩ : BufTy).Contents (Elt F)),
    StableHlo.nullary main_cst_28 (constant S_ .f32 0x00000000#32),
    StableHlo.unary main_cst_28 main_v152 (broadcastInDim S20000 ![] bcast_S_S20000 : (⟨S_, .f32⟩ : BufTy).Contents (Elt F) → (⟨S20000, .f32⟩ : BufTy).Contents (Elt F)),
    StableHlo.unary main_arg3 main_v153 (broadcastInDim S1000000x1 ![0] bcast_S1000000_S1000000x1_0 : (⟨S1000000, .i32⟩ : BufTy).Contents (Elt F) → (⟨S1000000x1, .i32⟩ : BufTy).Contents (Elt F)),
    StableHlo.ternary main_v152 main_v153 main_v151 main_v154 ((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)),
    StableHlo.nullary main_cst_29 (constant S_ .f32 0x3F800000#32),
    StableHlo.unary main_cst_29 main_v155 (broadcastInDim S20000 ![] bcast_S_S20000 : (⟨S_, .f32⟩ : BufTy).Contents (Elt F) → (⟨S20000, .f32⟩ : BufTy).Contents (Elt F)),
    StableHlo.binary main_v154 main_v155 main_v156 (maximumf : (⟨S20000, .f32⟩ : BufTy).Contents (Elt F) → (⟨S20000, .f32⟩ : BufTy).Contents (Elt F) → (⟨S20000, .f32⟩ : BufTy).Contents (Elt F)),
    StableHlo.unary main_v156 main_v157 (broadcastInDim S20000x1 ![0] bcast_S20000_S20000x1_0 : (⟨S20000, .f32⟩ : BufTy).Contents (Elt F) → (⟨S20000x1, .f32⟩ : BufTy).Contents (Elt F)),
    StableHlo.unary main_v157 main_v158 (broadcastInDim S20000x64 ![0, 1] bcast_S20000x1_S20000x64_0_1 : (⟨S20000x1, .f32⟩ : BufTy).Contents (Elt F) → (⟨S20000x64, .f32⟩ : BufTy).Contents (Elt F)),
    StableHlo.binary main_v150 main_v158 main_v159 (Host.divf : (⟨S20000x64, .f32⟩ : BufTy).Contents (Elt F) → (⟨S20000x64, .f32⟩ : BufTy).Contents (Elt F) → (⟨S20000x64, .f32⟩ : BufTy).Contents (Elt F)),
    StableHlo.binary main_v159 main_v136 main_v160 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.unary main_v138 main_v161 (broadcastInDim S1x64 ![1] bcast_S64_S1x64_1 : (⟨S64, .f32⟩ : BufTy).Contents (Elt F) → (⟨S1x64, .f32⟩ : BufTy).Contents (Elt F)),
    StableHlo.unary main_v161 main_v162 (broadcastInDim S20000x64 ![0, 1] bcast_S1x64_S20000x64_0_1 : (⟨S1x64, .f32⟩ : BufTy).Contents (Elt F) → (⟨S20000x64, .f32⟩ : BufTy).Contents (Elt F)),
    StableHlo.binary main_v160 main_v162 main_v163 (addf : (⟨S20000x64, .f32⟩ : BufTy).Contents (Elt F) → (⟨S20000x64, .f32⟩ : BufTy).Contents (Elt F) → (⟨S20000x64, .f32⟩ : BufTy).Contents (Elt F)),
    StableHlo.binary main_v133 main_v140 main_v164 ((fun l r => Host.dotGeneral dot_S20000x64_S64x64_S20000x64_1_0_0_1_n_n none l r) : (⟨S20000x64, .f32⟩ : BufTy).Contents (Elt F) → (⟨S64x64, .f32⟩ : BufTy).Contents (Elt F) → (⟨S20000x64, .f32⟩ : BufTy).Contents (Elt F)),
    StableHlo.binary main_v163 main_v164 main_v165 (addf : (⟨S20000x64, .f32⟩ : BufTy).Contents (Elt F) → (⟨S20000x64, .f32⟩ : BufTy).Contents (Elt F) → (⟨S20000x64, .f32⟩ : BufTy).Contents (Elt F)),
    StableHlo.unary main_arg10 main_v166 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v166 main_v167 rfl shapeCasts_S1x64x64_S64x64,
    StableHlo.unary main_arg11 main_v168 ((extractStridedSlice S1x64 ![2, 0] · slices_S3x64_S1x64_2_0) : (⟨S3x64, .f32⟩ : BufTy).Contents (Elt F) → (⟨S1x64, .f32⟩ : BufTy).Contents (Elt F)),
    StableHlo.reshape main_v168 main_v169 rfl shapeCasts_S1x64_S64,
    StableHlo.unary main_arg12 main_v170 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v170 main_v171 rfl shapeCasts_S1x64x64_S64x64,
    StableHlo.nullary main_c_30 (constantI S_ 32 0#32),
    StableHlo.unary main_c_30 main_v172 (broadcastInDim S1000000 ![] bcast_S_S1000000 : (⟨S_, .i32⟩ : BufTy).Contents (Elt F) → (⟨S1000000, .i32⟩ : BufTy).Contents (Elt F)),
    StableHlo.binary main_arg3 main_v172 main_v173 (cmpi .slt : (⟨S1000000, .i32⟩ : BufTy).Contents (Elt F) → (⟨S1000000, .i32⟩ : BufTy).Contents (Elt F) → (⟨S1000000, .i1⟩ : BufTy).Contents (Elt F)),
    StableHlo.nullary main_c_31 (constantI S_ 32 20000#32),
    StableHlo.unary main_c_31 main_v174 (broadcastInDim S1000000 ![] bcast_S_S1000000 : (⟨S_, .i32⟩ : BufTy).Contents (Elt F) → (⟨S1000000, .i32⟩ : BufTy).Contents (Elt F)),
    StableHlo.binary main_arg3 main_v174 main_v175 (addi : (⟨S1000000, .i32⟩ : BufTy).Contents (Elt F) → (⟨S1000000, .i32⟩ : BufTy).Contents (Elt F) → (⟨S1000000, .i32⟩ : BufTy).Contents (Elt F)),
    StableHlo.ternary main_v173 main_v175 main_arg3 main_v176 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v176 main_v177 (broadcastInDim S1000000x1 ![0] bcast_S1000000_S1000000x1_0 : (⟨S1000000, .i32⟩ : BufTy).Contents (Elt F) → (⟨S1000000x1, .i32⟩ : BufTy).Contents (Elt F)),
    StableHlo.binary main_v133 main_v177 main_v178 ((fun x i => Host.gather gather_S20000x64_S1000000x1_S1000000x64_1_0_n_n_0_1_164 x i) : (⟨S20000x64, .f32⟩ : BufTy).Contents (Elt F) → (⟨S1000000x1, .i32⟩ : BufTy).Contents (Elt F) → (⟨S1000000x64, .f32⟩ : BufTy).Contents (Elt F)),
    StableHlo.nullary main_cst_32 (constant S_ .f32 0x00000000#32),
    StableHlo.unary main_cst_32 main_v179 (broadcastInDim S100000x64 ![] bcast_S_S100000x64 : (⟨S_, .f32⟩ : BufTy).Contents (Elt F) → (⟨S100000x64, .f32⟩ : BufTy).Contents (Elt F)),
    StableHlo.unary main_arg2 main_v180 (broadcastInDim S1000000x1 ![0] bcast_S1000000_S1000000x1_0 : (⟨S1000000, .i32⟩ : BufTy).Contents (Elt F) → (⟨S1000000x1, .i32⟩ : BufTy).Contents (Elt F)),
    StableHlo.ternary main_v179 main_v180 main_v178 main_v181 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_cst_33 (constant S_ .f32 0x3F800000#32),
    StableHlo.unary main_cst_33 main_v182 (broadcastInDim S1000000 ![] bcast_S_S1000000 : (⟨S_, .f32⟩ : BufTy).Contents (Elt F) → (⟨S1000000, .f32⟩ : BufTy).Contents (Elt F)),
    StableHlo.nullary main_cst_34 (constant S_ .f32 0x00000000#32),
    StableHlo.unary main_cst_34 main_v183 (broadcastInDim S100000 ![] bcast_S_S100000 : (⟨S_, .f32⟩ : BufTy).Contents (Elt F) → (⟨S100000, .f32⟩ : BufTy).Contents (Elt F)),
    StableHlo.unary main_arg2 main_v184 (broadcastInDim S1000000x1 ![0] bcast_S1000000_S1000000x1_0 : (⟨S1000000, .i32⟩ : BufTy).Contents (Elt F) → (⟨S1000000x1, .i32⟩ : BufTy).Contents (Elt F)),
    StableHlo.ternary main_v183 main_v184 main_v182 main_v185 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_35 (constant S_ .f32 0x3F800000#32),
    StableHlo.unary main_cst_35 main_v186 (broadcastInDim S100000 ![] bcast_S_S100000 : (⟨S_, .f32⟩ : BufTy).Contents (Elt F) → (⟨S100000, .f32⟩ : BufTy).Contents (Elt F)),
    StableHlo.binary main_v185 main_v186 main_v187 (maximumf : (⟨S100000, .f32⟩ : BufTy).Contents (Elt F) → (⟨S100000, .f32⟩ : BufTy).Contents (Elt F) → (⟨S100000, .f32⟩ : BufTy).Contents (Elt F)),
    StableHlo.unary main_v187 main_v188 (broadcastInDim S100000x1 ![0] bcast_S100000_S100000x1_0 : (⟨S100000, .f32⟩ : BufTy).Contents (Elt F) → (⟨S100000x1, .f32⟩ : BufTy).Contents (Elt F)),
    StableHlo.unary main_v188 main_v189 (broadcastInDim S100000x64 ![0, 1] bcast_S100000x1_S100000x64_0_1 : (⟨S100000x1, .f32⟩ : BufTy).Contents (Elt F) → (⟨S100000x64, .f32⟩ : BufTy).Contents (Elt F)),
    StableHlo.binary main_v181 main_v189 main_v190 (Host.divf : (⟨S100000x64, .f32⟩ : BufTy).Contents (Elt F) → (⟨S100000x64, .f32⟩ : BufTy).Contents (Elt F) → (⟨S100000x64, .f32⟩ : BufTy).Contents (Elt F)),
    StableHlo.binary main_v190 main_v167 main_v191 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v169 main_v192 (broadcastInDim S1x64 ![1] bcast_S64_S1x64_1 : (⟨S64, .f32⟩ : BufTy).Contents (Elt F) → (⟨S1x64, .f32⟩ : BufTy).Contents (Elt F)),
    StableHlo.unary main_v192 main_v193 (broadcastInDim S100000x64 ![0, 1] bcast_S1x64_S100000x64_0_1 : (⟨S1x64, .f32⟩ : BufTy).Contents (Elt F) → (⟨S100000x64, .f32⟩ : BufTy).Contents (Elt F)),
    StableHlo.binary main_v191 main_v193 main_v194 (addf : (⟨S100000x64, .f32⟩ : BufTy).Contents (Elt F) → (⟨S100000x64, .f32⟩ : BufTy).Contents (Elt F) → (⟨S100000x64, .f32⟩ : BufTy).Contents (Elt F)),
    StableHlo.binary main_v134 main_v171 main_v195 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v194 main_v195 main_v196 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S20000x64 ![] bcast_S_S20000x64),
    StableHlo.TRef.binary (.of main_v165 : StableHlo.TRef sig ⟨S20000x64, .f32⟩) main_call4.v0 main_call4.v1 maximumf,
    StableHlo.TRef.nullary main_call5.cst (constant S_ .f32 0x00000000#32),
    StableHlo.TRef.unary main_call5.cst main_call5.v0 (broadcastInDim S100000x64 ![] bcast_S_S100000x64),
    StableHlo.TRef.binary (.of main_v196 : StableHlo.TRef sig ⟨S100000x64, .f32⟩) main_call5.v0 main_call5.v1 maximumf,
    StableHlo.nary ![main_v70, main_v134, main_v198] main_v199 (fun u => concatenate S100000x192 1 [⟨S100000x64, u 0⟩, ⟨S100000x64, u 1⟩, ⟨S100000x64, u 2⟩] concatenates_S100000x64_S100000x64_S100000x64_S100000x192_d1),
    StableHlo.binary main_v199 main_arg13 main_v200 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    StableHlo.unary main_arg14 main_v201 (broadcastInDim S1x64 ![1] bcast_S64_S1x64_1 : (⟨S64, .f32⟩ : BufTy).Contents (Elt F) → (⟨S1x64, .f32⟩ : BufTy).Contents (Elt F)) ]

/-- The buffers the window's operations write, in order: one per operation. -/
abbrev ops_part3_W : List (Ref sig .tc) :=
  [ main_cst_27, main_v151, main_cst_28, main_v152, main_v153, main_v154, main_cst_29, main_v155,
    main_v156, main_v157, main_v158, main_v159, main_v160, main_v161, main_v162, main_v163,
    main_v164, main_v165, main_v166, main_v167, main_v168, main_v169, main_v170, main_v171,
    main_c_30, main_v172, main_v173, main_c_31, main_v174, main_v175, main_v176, main_v177,
    main_v178, main_cst_32, main_v179, main_v180, main_v181, main_cst_33, main_v182, main_cst_34,
    main_v183, main_v184, main_v185, main_cst_35, main_v186, main_v187, main_v188, main_v189,
    main_v190, main_v191, main_v192, main_v193, main_v194, main_v195, main_v196, main_call4_cst,
    main_call4_v0, main_v197, main_call5_cst, main_call5_v0, main_v198, main_v199, main_v200, main_v201 ]

set_option maxRecDepth 8192 in
set_option maxHeartbeats 4000000 in
/-- The window is its operations run in order. -/
theorem main_part3_eq (c : Dev nD) : main_part3 (F := F) c = seq ops_part3 := by
  simp only [main_part3, fn_relu.body, fn_relu_0.body, seq, bind_assoc, pure_bind]
  rfl

/-- Every buffer a window's operation touches is a TensorCore buffer. -/
theorem ops_part3_sub : (ops_part3 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., unary_bufs_sub .., unary_bufs_sub .., binary_bufs_sub .., binary_bufs_sub .., binary_bufs_sub ..,
    unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., unary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., nary_bufs_sub .., binary_bufs_sub .., unary_bufs_sub ..⟩

/-- Each operation writes its own result buffer and nothing else. -/
theorem ops_part3_writes : (ops_part3 : List (HloOp τ sig (Elt F))).Forall fun op =>
    op.writes ⊆ (ops_part3_W.map (Proc.devRef (τ := τ) .tc)).toFinset :=
  ⟨writes_sub main_cst_27 rfl (by decide), writes_sub main_v151 rfl (by decide), writes_sub main_cst_28 rfl (by decide),
    writes_sub main_v152 rfl (by decide), writes_sub main_v153 rfl (by decide), writes_sub main_v154 rfl (by decide),
    writes_sub main_cst_29 rfl (by decide), writes_sub main_v155 rfl (by decide), writes_sub main_v156 rfl (by decide),
    writes_sub main_v157 rfl (by decide), writes_sub main_v158 rfl (by decide), writes_sub main_v159 rfl (by decide),
    writes_sub main_v160 rfl (by decide), writes_sub main_v161 rfl (by decide), writes_sub main_v162 rfl (by decide),
    writes_sub main_v163 rfl (by decide), writes_sub main_v164 rfl (by decide), writes_sub main_v165 rfl (by decide),
    writes_sub main_v166 rfl (by decide), writes_sub main_v167 rfl (by decide), writes_sub main_v168 rfl (by decide),
    writes_sub main_v169 rfl (by decide), writes_sub main_v170 rfl (by decide), writes_sub main_v171 rfl (by decide),
    writes_sub main_c_30 rfl (by decide), writes_sub main_v172 rfl (by decide), writes_sub main_v173 rfl (by decide),
    writes_sub main_c_31 rfl (by decide), writes_sub main_v174 rfl (by decide), writes_sub main_v175 rfl (by decide),
    writes_sub main_v176 rfl (by decide), writes_sub main_v177 rfl (by decide), writes_sub main_v178 rfl (by decide),
    writes_sub main_cst_32 rfl (by decide), writes_sub main_v179 rfl (by decide), writes_sub main_v180 rfl (by decide),
    writes_sub main_v181 rfl (by decide), writes_sub main_cst_33 rfl (by decide), writes_sub main_v182 rfl (by decide),
    writes_sub main_cst_34 rfl (by decide), writes_sub main_v183 rfl (by decide), writes_sub main_v184 rfl (by decide),
    writes_sub main_v185 rfl (by decide), writes_sub main_cst_35 rfl (by decide), writes_sub main_v186 rfl (by decide),
    writes_sub main_v187 rfl (by decide), writes_sub main_v188 rfl (by decide), writes_sub main_v189 rfl (by decide),
    writes_sub main_v190 rfl (by decide), writes_sub main_v191 rfl (by decide), writes_sub main_v192 rfl (by decide),
    writes_sub main_v193 rfl (by decide), writes_sub main_v194 rfl (by decide), writes_sub main_v195 rfl (by decide),
    writes_sub main_v196 rfl (by decide), writes_sub main_call4_cst rfl (by decide), writes_sub main_call4_v0 rfl (by decide),
    writes_sub main_v197 rfl (by decide), writes_sub main_call5_cst rfl (by decide), writes_sub main_call5_v0 rfl (by decide),
    writes_sub main_v198 rfl (by decide), writes_sub main_v199 rfl (by decide), writes_sub main_v200 rfl (by decide),
    writes_sub main_v201 rfl (by decide)⟩

end Cert.ReferenceIdeal.Hand

end
-- ==== Proof.Ref.Run4.lean ====
/- Window 4 of the reference's @main as a list of host operations: operations 253 … 335 of 385. Each call of an outlined function (@var, @where, @relu_1) stands as the callee's own operations over that call's buffers, its arguments the caller's.
   Beside the list: the window is that list run in order, every buffer it touches is a TensorCore buffer, and the
   buffers it writes are exactly the listed references (each value of the program has a buffer of its own). -/
import proofs.«176278_j29592324669622_2_alg».proof.Proof.Gen.ReferenceIdeal
import proofs.«176278_j29592324669622_2_alg».proof.Proof.Ref.Writes
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops_part4 : List (HloOp τ sig (Elt F)) :=
  [ StableHlo.unary main_v201 main_v202 (broadcastInDim S100000x64 ![0, 1] bcast_S1x64_S100000x64_0_1 : (⟨S1x64, .f32⟩ : BufTy).Contents (Elt F) → (⟨S100000x64, .f32⟩ : BufTy).Contents (Elt F)),
    StableHlo.binary main_v200 main_v202 main_v203 (addf : (⟨S100000x64, .f32⟩ : BufTy).Contents (Elt F) → (⟨S100000x64, .f32⟩ : BufTy).Contents (Elt F) → (⟨S100000x64, .f32⟩ : BufTy).Contents (Elt F)),
    StableHlo.nary ![main_v69, main_v133, main_v197] main_v204 (fun u => concatenate S20000x192 1 [⟨S20000x64, u 0⟩, ⟨S20000x64, u 1⟩, ⟨S20000x64, u 2⟩] concatenates_S20000x64_S20000x64_S20000x64_S20000x192_d1),
    StableHlo.binary main_v204 main_arg15 main_v205 ((fun l r => Host.dotGeneral dot_S20000x192_S192x64_S20000x64_1_0_0_1_n_n none l r) : (⟨S20000x192, .f32⟩ : BufTy).Contents (Elt F) → (⟨S192x64, .f32⟩ : BufTy).Contents (Elt F) → (⟨S20000x64, .f32⟩ : BufTy).Contents (Elt F)),
    StableHlo.unary main_arg16 main_v206 (broadcastInDim S1x64 ![1] bcast_S64_S1x64_1 : (⟨S64, .f32⟩ : BufTy).Contents (Elt F) → (⟨S1x64, .f32⟩ : BufTy).Contents (Elt F)),
    StableHlo.unary main_v206 main_v207 (broadcastInDim S20000x64 ![0, 1] bcast_S1x64_S20000x64_0_1 : (⟨S1x64, .f32⟩ : BufTy).Contents (Elt F) → (⟨S20000x64, .f32⟩ : BufTy).Contents (Elt F)),
    StableHlo.binary main_v205 main_v207 main_v208 (addf : (⟨S20000x64, .f32⟩ : BufTy).Contents (Elt F) → (⟨S20000x64, .f32⟩ : BufTy).Contents (Elt F) → (⟨S20000x64, .f32⟩ : BufTy).Contents (Elt F)),
    StableHlo.nullary main_c_36 (constantI S_ 32 0#32),
    StableHlo.unary main_c_36 main_v209 (broadcastInDim S500000 ![] bcast_S_S500000 : (⟨S_, .i32⟩ : BufTy).Contents (Elt F) → (⟨S500000, .i32⟩ : BufTy).Contents (Elt F)),
    StableHlo.binary main_arg4 main_v209 main_v210 (cmpi .slt : (⟨S500000, .i32⟩ : BufTy).Contents (Elt F) → (⟨S500000, .i32⟩ : BufTy).Contents (Elt F) → (⟨S500000, .i1⟩ : BufTy).Contents (Elt F)),
    StableHlo.nullary main_c_37 (constantI S_ 32 100000#32),
    StableHlo.unary main_c_37 main_v211 (broadcastInDim S500000 ![] bcast_S_S500000 : (⟨S_, .i32⟩ : BufTy).Contents (Elt F) → (⟨S500000, .i32⟩ : BufTy).Contents (Elt F)),
    StableHlo.binary main_arg4 main_v211 main_v212 (addi : (⟨S500000, .i32⟩ : BufTy).Contents (Elt F) → (⟨S500000, .i32⟩ : BufTy).Contents (Elt F) → (⟨S500000, .i32⟩ : BufTy).Contents (Elt F)),
    StableHlo.ternary main_v210 main_v212 main_arg4 main_v213 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v213 main_v214 (broadcastInDim S500000x1 ![0] bcast_S500000_S500000x1_0 : (⟨S500000, .i32⟩ : BufTy).Contents (Elt F) → (⟨S500000x1, .i32⟩ : BufTy).Contents (Elt F)),
    StableHlo.binary main_v203 main_v214 main_v215 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    StableHlo.nullary main_c_38 (constantI S_ 32 0#32),
    StableHlo.unary main_c_38 main_v216 (broadcastInDim S500000 ![] bcast_S_S500000 : (⟨S_, .i32⟩ : BufTy).Contents (Elt F) → (⟨S500000, .i32⟩ : BufTy).Contents (Elt F)),
    StableHlo.binary main_arg5 main_v216 main_v217 (cmpi .slt : (⟨S500000, .i32⟩ : BufTy).Contents (Elt F) → (⟨S500000, .i32⟩ : BufTy).Contents (Elt F) → (⟨S500000, .i1⟩ : BufTy).Contents (Elt F)),
    StableHlo.nullary main_c_39 (constantI S_ 32 20000#32),
    StableHlo.unary main_c_39 main_v218 (broadcastInDim S500000 ![] bcast_S_S500000 : (⟨S_, .i32⟩ : BufTy).Contents (Elt F) → (⟨S500000, .i32⟩ : BufTy).Contents (Elt F)),
    StableHlo.binary main_arg5 main_v218 main_v219 (addi : (⟨S500000, .i32⟩ : BufTy).Contents (Elt F) → (⟨S500000, .i32⟩ : BufTy).Contents (Elt F) → (⟨S500000, .i32⟩ : BufTy).Contents (Elt F)),
    StableHlo.ternary main_v217 main_v219 main_arg5 main_v220 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v220 main_v221 (broadcastInDim S500000x1 ![0] bcast_S500000_S500000x1_0 : (⟨S500000, .i32⟩ : BufTy).Contents (Elt F) → (⟨S500000x1, .i32⟩ : BufTy).Contents (Elt F)),
    StableHlo.binary main_v208 main_v221 main_v222 ((fun x i => Host.gather gather_S20000x64_S500000x1_S500000x64_1_0_n_n_0_1_164 x i) : (⟨S20000x64, .f32⟩ : BufTy).Contents (Elt F) → (⟨S500000x1, .i32⟩ : BufTy).Contents (Elt F) → (⟨S500000x64, .f32⟩ : BufTy).Contents (Elt F)),
    StableHlo.binary main_v215 main_v222 main_v223 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    StableHlo.binary main_v223 main_arg17 main_v224 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)),
    StableHlo.unary main_arg18 main_v225 (broadcastInDim S1x64 ![1] bcast_S64_S1x64_1 : (⟨S64, .f32⟩ : BufTy).Contents (Elt F) → (⟨S1x64, .f32⟩ : BufTy).Contents (Elt F)),
    StableHlo.unary main_v225 main_v226 (broadcastInDim S500000x64 ![0, 1] bcast_S1x64_S500000x64_0_1 : (⟨S1x64, .f32⟩ : BufTy).Contents (Elt F) → (⟨S500000x64, .f32⟩ : BufTy).Contents (Elt F)),
    StableHlo.binary main_v224 main_v226 main_v227 (addf : (⟨S500000x64, .f32⟩ : BufTy).Contents (Elt F) → (⟨S500000x64, .f32⟩ : BufTy).Contents (Elt F) → (⟨S500000x64, .f32⟩ : BufTy).Contents (Elt F)),
    StableHlo.nullary main_cst_40 (constant S_ .f32 0x00000000#32),
    StableHlo.binary main_v227 main_cst_40 main_v228 ((fun x v => Host.reduceAdd x v reducesTo_S500000x64_S64_d0 h_S_) : (⟨S500000x64, .f32⟩ : BufTy).Contents (Elt F) → (⟨S_, .f32⟩ : BufTy).Contents (Elt F) → (⟨S64, .f32⟩ : BufTy).Contents (Elt F)),
    StableHlo.nullary main_cst_41 (constant S_ .f32 0x48F42400#32),
    StableHlo.unary main_cst_41 main_v229 (broadcastInDim S64 ![] bcast_S_S64 : (⟨S_, .f32⟩ : BufTy).Contents (Elt F) → (⟨S64, .f32⟩ : BufTy).Contents (Elt F)),
    StableHlo.binary main_v228 main_v229 main_v230 (Host.divf : (⟨S64, .f32⟩ : BufTy).Contents (Elt F) → (⟨S64, .f32⟩ : BufTy).Contents (Elt F) → (⟨S64, .f32⟩ : BufTy).Contents (Elt F)),
    StableHlo.nullary main_c_42 (constantI S_ 32 0#32),
    StableHlo.TRef.nullary main_call6.cst (constant S_ .f32 0x00000000#32),
    StableHlo.TRef.binary (.of main_v227 : StableHlo.TRef sig ⟨S500000x64, .f32⟩) main_call6.cst main_call6.v0 (fun x v => Host.reduceAdd x v reducesTo_S500000x64_S64_d0 h_S_),
    StableHlo.TRef.unary main_call6.v0 main_call6.v1 (broadcastInDim S1x64 ![1] bcast_S64_S1x64_1),
    StableHlo.TRef.nullary main_call6.cst_0 (constant S_ .f32 0x48F42400#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S500000x64 ![0, 1] bcast_S1x64_S500000x64_0_1),
    StableHlo.TRef.binary (.of main_v227 : StableHlo.TRef sig ⟨S500000x64, .f32⟩) main_call6.v4 main_call6.v5 subf,
    StableHlo.TRef.binary main_call6.v5 main_call6.v5 main_call6.v6 mulf,
    StableHlo.TRef.unary (.of main_c_42 : StableHlo.TRef sig ⟨S_, .i32⟩) main_call6.v7 (sitofp .f32),
    StableHlo.TRef.nullary main_call6.cst_1 (constant S_ .f32 0x48F42400#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S500000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v230 main_v232 (broadcastInDim S1x64 ![1] bcast_S64_S1x64_1 : (⟨S64, .f32⟩ : BufTy).Contents (Elt F) → (⟨S1x64, .f32⟩ : BufTy).Contents (Elt F)),
    StableHlo.unary main_v232 main_v233 (broadcastInDim S500000x64 ![0, 1] bcast_S1x64_S500000x64_0_1 : (⟨S1x64, .f32⟩ : BufTy).Contents (Elt F) → (⟨S500000x64, .f32⟩ : BufTy).Contents (Elt F)),
    StableHlo.binary main_v227 main_v233 main_v234 (subf : (⟨S500000x64, .f32⟩ : BufTy).Contents (Elt F) → (⟨S500000x64, .f32⟩ : BufTy).Contents (Elt F) → (⟨S500000x64, .f32⟩ : BufTy).Contents (Elt F)),
    StableHlo.unary main_arg19 main_v235 (broadcastInDim S1x64 ![1] bcast_S64_S1x64_1 : (⟨S64, .f32⟩ : BufTy).Contents (Elt F) → (⟨S1x64, .f32⟩ : BufTy).Contents (Elt F)),
    StableHlo.unary main_v235 main_v236 (broadcastInDim S500000x64 ![0, 1] bcast_S1x64_S500000x64_0_1 : (⟨S1x64, .f32⟩ : BufTy).Contents (Elt F) → (⟨S500000x64, .f32⟩ : BufTy).Contents (Elt F)),
    StableHlo.binary main_v236 main_v234 main_v237 (mulf : (⟨S500000x64, .f32⟩ : BufTy).Contents (Elt F) → (⟨S500000x64, .f32⟩ : BufTy).Contents (Elt F) → (⟨S500000x64, .f32⟩ : BufTy).Contents (Elt F)),
    StableHlo.nullary main_cst_43 (constant S_ .f32 0x3727C5AC#32),
    StableHlo.unary main_cst_43 main_v238 (broadcastInDim S64 ![] bcast_S_S64 : (⟨S_, .f32⟩ : BufTy).Contents (Elt F) → (⟨S64, .f32⟩ : BufTy).Contents (Elt F)),
    StableHlo.binary main_v231 main_v238 main_v239 (addf : (⟨S64, .f32⟩ : BufTy).Contents (Elt F) → (⟨S64, .f32⟩ : BufTy).Contents (Elt F) → (⟨S64, .f32⟩ : BufTy).Contents (Elt F)),
    StableHlo.unary main_v239 main_v240 (Host.rsqrt : (⟨S64, .f32⟩ : BufTy).Contents (Elt F) → (⟨S64, .f32⟩ : BufTy).Contents (Elt F)),
    StableHlo.unary main_v240 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S500000x64 ![0, 1] bcast_S1x64_S500000x64_0_1 : (⟨S1x64, .f32⟩ : BufTy).Contents (Elt F) → (⟨S500000x64, .f32⟩ : BufTy).Contents (Elt F)),
    StableHlo.binary main_v237 main_v242 main_v243 (mulf : (⟨S500000x64, .f32⟩ : BufTy).Contents (Elt F) → (⟨S500000x64, .f32⟩ : BufTy).Contents (Elt F) → (⟨S500000x64, .f32⟩ : BufTy).Contents (Elt F)),
    StableHlo.unary main_arg20 main_v244 (broadcastInDim S1x64 ![1] bcast_S64_S1x64_1 : (⟨S64, .f32⟩ : BufTy).Contents (Elt F) → (⟨S1x64, .f32⟩ : BufTy).Contents (Elt F)),
    StableHlo.unary main_v244 main_v245 (broadcastInDim S500000x64 ![0, 1] bcast_S1x64_S500000x64_0_1 : (⟨S1x64, .f32⟩ : BufTy).Contents (Elt F) → (⟨S500000x64, .f32⟩ : BufTy).Contents (Elt F)),
    StableHlo.binary main_v243 main_v245 main_v246 (addf : (⟨S500000x64, .f32⟩ : BufTy).Contents (Elt F) → (⟨S500000x64, .f32⟩ : BufTy).Contents (Elt F) → (⟨S500000x64, .f32⟩ : BufTy).Contents (Elt F)),
    StableHlo.TRef.nullary main_call7.cst (constant S_ .f32 0x00000000#32),
    StableHlo.TRef.unary main_call7.cst main_call7.v0 (broadcastInDim S500000x64 ![] bcast_S_S500000x64),
    StableHlo.TRef.binary (.of main_v246 : StableHlo.TRef sig ⟨S500000x64, .f32⟩) main_call7.v0 main_call7.v1 maximumf,
    StableHlo.binary main_v247 main_arg21 main_v248 ((fun l r => Host.dotGeneral dot_S500000x64_S64x32_S500000x32_1_0_0_1_n_n none l r) : (⟨S500000x64, .f32⟩ : BufTy).Contents (Elt F) → (⟨S64x32, .f32⟩ : BufTy).Contents (Elt F) → (⟨S500000x32, .f32⟩ : BufTy).Contents (Elt F)),
    StableHlo.unary main_arg22 main_v249 (broadcastInDim S1x32 ![1] bcast_S32_S1x32_1 : (⟨S32, .f32⟩ : BufTy).Contents (Elt F) → (⟨S1x32, .f32⟩ : BufTy).Contents (Elt F)),
    StableHlo.unary main_v249 main_v250 (broadcastInDim S500000x32 ![0, 1] bcast_S1x32_S500000x32_0_1 : (⟨S1x32, .f32⟩ : BufTy).Contents (Elt F) → (⟨S500000x32, .f32⟩ : BufTy).Contents (Elt F)),
    StableHlo.binary main_v248 main_v250 main_v251 (addf : (⟨S500000x32, .f32⟩ : BufTy).Contents (Elt F) → (⟨S500000x32, .f32⟩ : BufTy).Contents (Elt F) → (⟨S500000x32, .f32⟩ : BufTy).Contents (Elt F)),
    StableHlo.nullary main_cst_44 (constant S_ .f32 0x00000000#32),
    StableHlo.binary main_v251 main_cst_44 main_v252 ((fun x v => Host.reduceAdd x v reducesTo_S500000x32_S32_d0 h_S_) : (⟨S500000x32, .f32⟩ : BufTy).Contents (Elt F) → (⟨S_, .f32⟩ : BufTy).Contents (Elt F) → (⟨S32, .f32⟩ : BufTy).Contents (Elt F)) ]

/-- The buffers the window's operations write, in order: one per operation. -/
abbrev ops_part4_W : List (Ref sig .tc) :=
  [ main_v202, main_v203, main_v204, main_v205, main_v206, main_v207, main_v208, main_c_36,
    main_v209, main_v210, main_c_37, main_v211, main_v212, main_v213, main_v214, main_v215,
    main_c_38, main_v216, main_v217, main_c_39, main_v218, main_v219, main_v220, main_v221,
    main_v222, main_v223, main_v224, main_v225, main_v226, main_v227, main_cst_40, main_v228,
    main_cst_41, main_v229, main_v230, main_c_42, main_call6_cst, main_call6_v0, main_call6_v1, main_call6_cst_0,
    main_call6_v2, main_call6_v3, main_call6_v4, main_call6_v5, main_call6_v6, main_call6_v7, main_call6_cst_1, main_call6_v8,
    main_call6_cst_2, main_call6_v9, main_call6_v10, main_call6_v11, main_call6_cst_3, main_call6_v12, main_call6_cst_4, main_call6_call0_v0,
    main_call6_call0_v1, main_v231, main_v232, main_v233, main_v234, main_v235, main_v236, main_v237,
    main_cst_43, main_v238, main_v239, main_v240, main_v241, main_v242, main_v243, main_v244,
    main_v245, main_v246, main_call7_cst, main_call7_v0, main_v247, main_v248, main_v249, main_v250,
    main_v251, main_cst_44, main_v252 ]

set_option maxRecDepth 8192 in
set_option maxHeartbeats 4000000 in
/-- The window is its operations run in order. -/
theorem main_part4_eq (c : Dev nD) : main_part4 (F := F) c = seq ops_part4 := by
  simp only [main_part4, fn_var.body, fn_where.body, fn_relu_1.body, seq, bind_assoc, pure_bind]
  rfl

/-- Every buffer a window's operation touches is a TensorCore buffer. -/
theorem ops_part4_sub : (ops_part4 : List (HloOp τ sig (Elt F))).Forall fun op => op.bufs ⊆ tcRefs τ sig :=
  ⟨unary_bufs_sub .., binary_bufs_sub .., nary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., binary_bufs_sub ..⟩

/-- Each operation writes its own result buffer and nothing else. -/
theorem ops_part4_writes : (ops_part4 : List (HloOp τ sig (Elt F))).Forall fun op =>
    op.writes ⊆ (ops_part4_W.map (Proc.devRef (τ := τ) .tc)).toFinset :=
  ⟨writes_sub main_v202 rfl (by decide), writes_sub main_v203 rfl (by decide), writes_sub main_v204 rfl (by decide),
    writes_sub main_v205 rfl (by decide), writes_sub main_v206 rfl (by decide), writes_sub main_v207 rfl (by decide),
    writes_sub main_v208 rfl (by decide), writes_sub main_c_36 rfl (by decide), writes_sub main_v209 rfl (by decide),
    writes_sub main_v210 rfl (by decide), writes_sub main_c_37 rfl (by decide), writes_sub main_v211 rfl (by decide),
    writes_sub main_v212 rfl (by decide), writes_sub main_v213 rfl (by decide), writes_sub main_v214 rfl (by decide),
    writes_sub main_v215 rfl (by decide), writes_sub main_c_38 rfl (by decide), writes_sub main_v216 rfl (by decide),
    writes_sub main_v217 rfl (by decide), writes_sub main_c_39 rfl (by decide), writes_sub main_v218 rfl (by decide),
    writes_sub main_v219 rfl (by decide), writes_sub main_v220 rfl (by decide), writes_sub main_v221 rfl (by decide),
    writes_sub main_v222 rfl (by decide), writes_sub main_v223 rfl (by decide), writes_sub main_v224 rfl (by decide),
    writes_sub main_v225 rfl (by decide), writes_sub main_v226 rfl (by decide), writes_sub main_v227 rfl (by decide),
    writes_sub main_cst_40 rfl (by decide), writes_sub main_v228 rfl (by decide), writes_sub main_cst_41 rfl (by decide),
    writes_sub main_v229 rfl (by decide), writes_sub main_v230 rfl (by decide), writes_sub main_c_42 rfl (by decide),
    writes_sub main_call6_cst rfl (by decide), writes_sub main_call6_v0 rfl (by decide), writes_sub main_call6_v1 rfl (by decide),
    writes_sub main_call6_cst_0 rfl (by decide), writes_sub main_call6_v2 rfl (by decide), writes_sub main_call6_v3 rfl (by decide),
    writes_sub main_call6_v4 rfl (by decide), writes_sub main_call6_v5 rfl (by decide), writes_sub main_call6_v6 rfl (by decide),
    writes_sub main_call6_v7 rfl (by decide), writes_sub main_call6_cst_1 rfl (by decide), writes_sub main_call6_v8 rfl (by decide),
    writes_sub main_call6_cst_2 rfl (by decide), writes_sub main_call6_v9 rfl (by decide), writes_sub main_call6_v10 rfl (by decide),
    writes_sub main_call6_v11 rfl (by decide), writes_sub main_call6_cst_3 rfl (by decide), writes_sub main_call6_v12 rfl (by decide),
    writes_sub main_call6_cst_4 rfl (by decide), writes_sub main_call6_call0_v0 rfl (by decide), writes_sub main_call6_call0_v1 rfl (by decide),
    writes_sub main_v231 rfl (by decide), writes_sub main_v232 rfl (by decide), writes_sub main_v233 rfl (by decide),
    writes_sub main_v234 rfl (by decide), writes_sub main_v235 rfl (by decide), writes_sub main_v236 rfl (by decide),
    writes_sub main_v237 rfl (by decide), writes_sub main_cst_43 rfl (by decide), writes_sub main_v238 rfl (by decide),
    writes_sub main_v239 rfl (by decide), writes_sub main_v240 rfl (by decide), writes_sub main_v241 rfl (by decide),
    writes_sub main_v242 rfl (by decide), writes_sub main_v243 rfl (by decide), writes_sub main_v244 rfl (by decide),
    writes_sub main_v245 rfl (by decide), writes_sub main_v246 rfl (by decide), writes_sub main_call7_cst rfl (by decide),
    writes_sub main_call7_v0 rfl (by decide), writes_sub main_v247 rfl (by decide), writes_sub main_v248 rfl (by decide),
    writes_sub main_v249 rfl (by decide), writes_sub main_v250 rfl (by decide), writes_sub main_v251 rfl (by decide),
    writes_sub main_cst_44 rfl (by decide), writes_sub main_v252 rfl (by decide)⟩

end Cert.ReferenceIdeal.Hand

end
-- ==== Proof.Ref.Run5.lean ====
/- Window 5 of the reference's @main as a list of host operations: operations 336 … 385 of 385. Each call of an outlined function (@var_2, @where_3, @relu_4) stands as the callee's own operations over that call's buffers, its arguments the caller's.
   Beside the list: the window is that list run in order, every buffer it touches is a TensorCore buffer, and the
   buffers it writes are exactly the listed references (each value of the program has a buffer of its own). -/
import proofs.«176278_j29592324669622_2_alg».proof.Proof.Gen.ReferenceIdeal
import proofs.«176278_j29592324669622_2_alg».proof.Proof.Ref.Writes
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops_part5 : List (HloOp τ sig (Elt F)) :=
  [ StableHlo.nullary main_cst_45 (constant S_ .f32 0x48F42400#32),
    StableHlo.unary main_cst_45 main_v253 (broadcastInDim S32 ![] bcast_S_S32 : (⟨S_, .f32⟩ : BufTy).Contents (Elt F) → (⟨S32, .f32⟩ : BufTy).Contents (Elt F)),
    StableHlo.binary main_v252 main_v253 main_v254 (Host.divf : (⟨S32, .f32⟩ : BufTy).Contents (Elt F) → (⟨S32, .f32⟩ : BufTy).Contents (Elt F) → (⟨S32, .f32⟩ : BufTy).Contents (Elt F)),
    StableHlo.nullary main_c_46 (constantI S_ 32 0#32),
    StableHlo.TRef.nullary main_call8.cst (constant S_ .f32 0x00000000#32),
    StableHlo.TRef.binary (.of main_v251 : StableHlo.TRef sig ⟨S500000x32, .f32⟩) main_call8.cst main_call8.v0 (fun x v => Host.reduceAdd x v reducesTo_S500000x32_S32_d0 h_S_),
    StableHlo.TRef.unary main_call8.v0 main_call8.v1 (broadcastInDim S1x32 ![1] bcast_S32_S1x32_1),
    StableHlo.TRef.nullary main_call8.cst_0 (constant S_ .f32 0x48F42400#32),
    StableHlo.TRef.unary main_call8.cst_0 main_call8.v2 (broadcastInDim S1x32 ![] bcast_S_S1x32),
    StableHlo.TRef.binary main_call8.v1 main_call8.v2 main_call8.v3 Host.divf,
    StableHlo.TRef.unary main_call8.v3 main_call8.v4 (broadcastInDim S500000x32 ![0, 1] bcast_S1x32_S500000x32_0_1),
    StableHlo.TRef.binary (.of main_v251 : StableHlo.TRef sig ⟨S500000x32, .f32⟩) main_call8.v4 main_call8.v5 subf,
    StableHlo.TRef.binary main_call8.v5 main_call8.v5 main_call8.v6 mulf,
    StableHlo.TRef.unary (.of main_c_46 : StableHlo.TRef sig ⟨S_, .i32⟩) main_call8.v7 (sitofp .f32),
    StableHlo.TRef.nullary main_call8.cst_1 (constant S_ .f32 0x48F42400#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S500000x32_S32_d0 h_S_),
    StableHlo.TRef.unary main_call8.v8 main_call8.v10 (broadcastInDim S32 ![] bcast_S_S32),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S32 ![] bcast_S_S32),
    StableHlo.TRef.ternary main_call8.v12 main_call8.v11 main_call8.call0.v1 main_call8.call0.v2 (fun p a b => select (broadcastInDim S32 ![] bcast_S_S32 p) a b),
    StableHlo.unary main_v254 main_v256 (broadcastInDim S1x32 ![1] bcast_S32_S1x32_1 : (⟨S32, .f32⟩ : BufTy).Contents (Elt F) → (⟨S1x32, .f32⟩ : BufTy).Contents (Elt F)),
    StableHlo.unary main_v256 main_v257 (broadcastInDim S500000x32 ![0, 1] bcast_S1x32_S500000x32_0_1 : (⟨S1x32, .f32⟩ : BufTy).Contents (Elt F) → (⟨S500000x32, .f32⟩ : BufTy).Contents (Elt F)),
    StableHlo.binary main_v251 main_v257 main_v258 (subf : (⟨S500000x32, .f32⟩ : BufTy).Contents (Elt F) → (⟨S500000x32, .f32⟩ : BufTy).Contents (Elt F) → (⟨S500000x32, .f32⟩ : BufTy).Contents (Elt F)),
    StableHlo.unary main_arg23 main_v259 (broadcastInDim S1x32 ![1] bcast_S32_S1x32_1 : (⟨S32, .f32⟩ : BufTy).Contents (Elt F) → (⟨S1x32, .f32⟩ : BufTy).Contents (Elt F)),
    StableHlo.unary main_v259 main_v260 (broadcastInDim S500000x32 ![0, 1] bcast_S1x32_S500000x32_0_1 : (⟨S1x32, .f32⟩ : BufTy).Contents (Elt F) → (⟨S500000x32, .f32⟩ : BufTy).Contents (Elt F)),
    StableHlo.binary main_v260 main_v258 main_v261 (mulf : (⟨S500000x32, .f32⟩ : BufTy).Contents (Elt F) → (⟨S500000x32, .f32⟩ : BufTy).Contents (Elt F) → (⟨S500000x32, .f32⟩ : BufTy).Contents (Elt F)),
    StableHlo.nullary main_cst_47 (constant S_ .f32 0x3727C5AC#32),
    StableHlo.unary main_cst_47 main_v262 (broadcastInDim S32 ![] bcast_S_S32 : (⟨S_, .f32⟩ : BufTy).Contents (Elt F) → (⟨S32, .f32⟩ : BufTy).Contents (Elt F)),
    StableHlo.binary main_v255 main_v262 main_v263 (addf : (⟨S32, .f32⟩ : BufTy).Contents (Elt F) → (⟨S32, .f32⟩ : BufTy).Contents (Elt F) → (⟨S32, .f32⟩ : BufTy).Contents (Elt F)),
    StableHlo.unary main_v263 main_v264 (Host.rsqrt : (⟨S32, .f32⟩ : BufTy).Contents (Elt F) → (⟨S32, .f32⟩ : BufTy).Contents (Elt F)),
    StableHlo.unary main_v264 main_v265 (broadcastInDim S1x32 ![1] bcast_S32_S1x32_1 : (⟨S32, .f32⟩ : BufTy).Contents (Elt F) → (⟨S1x32, .f32⟩ : BufTy).Contents (Elt F)),
    StableHlo.unary main_v265 main_v266 (broadcastInDim S500000x32 ![0, 1] bcast_S1x32_S500000x32_0_1 : (⟨S1x32, .f32⟩ : BufTy).Contents (Elt F) → (⟨S500000x32, .f32⟩ : BufTy).Contents (Elt F)),
    StableHlo.binary main_v261 main_v266 main_v267 (mulf : (⟨S500000x32, .f32⟩ : BufTy).Contents (Elt F) → (⟨S500000x32, .f32⟩ : BufTy).Contents (Elt F) → (⟨S500000x32, .f32⟩ : BufTy).Contents (Elt F)),
    StableHlo.unary main_arg24 main_v268 (broadcastInDim S1x32 ![1] bcast_S32_S1x32_1 : (⟨S32, .f32⟩ : BufTy).Contents (Elt F) → (⟨S1x32, .f32⟩ : BufTy).Contents (Elt F)),
    StableHlo.unary main_v268 main_v269 (broadcastInDim S500000x32 ![0, 1] bcast_S1x32_S500000x32_0_1 : (⟨S1x32, .f32⟩ : BufTy).Contents (Elt F) → (⟨S500000x32, .f32⟩ : BufTy).Contents (Elt F)),
    StableHlo.binary main_v267 main_v269 main_v270 (addf : (⟨S500000x32, .f32⟩ : BufTy).Contents (Elt F) → (⟨S500000x32, .f32⟩ : BufTy).Contents (Elt F) → (⟨S500000x32, .f32⟩ : BufTy).Contents (Elt F)),
    StableHlo.TRef.nullary main_call9.cst (constant S_ .f32 0x00000000#32),
    StableHlo.TRef.unary main_call9.cst main_call9.v0 (broadcastInDim S500000x32 ![] bcast_S_S500000x32),
    StableHlo.TRef.binary (.of main_v270 : StableHlo.TRef sig ⟨S500000x32, .f32⟩) main_call9.v0 main_call9.v1 maximumf,
    StableHlo.binary main_v271 main_arg25 main_v272 ((fun l r => Host.dotGeneral dot_S500000x32_S32x1_S500000x1_1_0_0_1_n_n none l r) : (⟨S500000x32, .f32⟩ : BufTy).Contents (Elt F) → (⟨S32x1, .f32⟩ : BufTy).Contents (Elt F) → (⟨S500000x1, .f32⟩ : BufTy).Contents (Elt F)),
    StableHlo.unary main_arg26 main_v273 (broadcastInDim S1x1 ![1] bcast_S1_S1x1_1 : (⟨S1, .f32⟩ : BufTy).Contents (Elt F) → (⟨S1x1, .f32⟩ : BufTy).Contents (Elt F)),
    StableHlo.unary main_v273 main_v274 (broadcastInDim S500000x1 ![0, 1] bcast_S1x1_S500000x1_0_1 : (⟨S1x1, .f32⟩ : BufTy).Contents (Elt F) → (⟨S500000x1, .f32⟩ : BufTy).Contents (Elt F)),
    StableHlo.binary main_v272 main_v274 main_v275 (addf : (⟨S500000x1, .f32⟩ : BufTy).Contents (Elt F) → (⟨S500000x1, .f32⟩ : BufTy).Contents (Elt F) → (⟨S500000x1, .f32⟩ : BufTy).Contents (Elt F)),
    StableHlo.reshape main_v275 main_v276 rfl shapeCasts_S500000x1_S500000 ]

/-- The buffers the window's operations write, in order: one per operation. -/
abbrev ops_part5_W : List (Ref sig .tc) :=
  [ main_cst_45, main_v253, main_v254, main_c_46, main_call8_cst, main_call8_v0, main_call8_v1, main_call8_cst_0,
    main_call8_v2, main_call8_v3, main_call8_v4, main_call8_v5, main_call8_v6, main_call8_v7, main_call8_cst_1, main_call8_v8,
    main_call8_cst_2, main_call8_v9, main_call8_v10, main_call8_v11, main_call8_cst_3, main_call8_v12, main_call8_cst_4, main_call8_call0_v0,
    main_call8_call0_v1, main_v255, main_v256, main_v257, main_v258, main_v259, main_v260, main_v261,
    main_cst_47, main_v262, main_v263, main_v264, main_v265, main_v266, main_v267, main_v268,
    main_v269, main_v270, main_call9_cst, main_call9_v0, main_v271, main_v272, main_v273, main_v274,
    main_v275, main_v276 ]

set_option maxRecDepth 8192 in
set_option maxHeartbeats 4000000 in
/-- The window is its operations run in order. -/
theorem main_part5_eq (c : Dev nD) : main_part5 (F := F) c = seq ops_part5 := by
  simp only [main_part5, fn_var_2.body, fn_where_3.body, fn_relu_4.body, seq, bind_assoc, pure_bind]

/-- Every buffer a window's operation touches is a TensorCore buffer. -/
theorem ops_part5_sub : (ops_part5 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., reshape_bufs_sub ..⟩

/-- Each operation writes its own result buffer and nothing else. -/
theorem ops_part5_writes : (ops_part5 : List (HloOp τ sig (Elt F))).Forall fun op =>
    op.writes ⊆ (ops_part5_W.map (Proc.devRef (τ := τ) .tc)).toFinset :=
  ⟨writes_sub main_cst_45 rfl (by decide), writes_sub main_v253 rfl (by decide), writes_sub main_v254 rfl (by decide),
    writes_sub main_c_46 rfl (by decide), writes_sub main_call8_cst rfl (by decide), writes_sub main_call8_v0 rfl (by decide),
    writes_sub main_call8_v1 rfl (by decide), writes_sub main_call8_cst_0 rfl (by decide), writes_sub main_call8_v2 rfl (by decide),
    writes_sub main_call8_v3 rfl (by decide), writes_sub main_call8_v4 rfl (by decide), writes_sub main_call8_v5 rfl (by decide),
    writes_sub main_call8_v6 rfl (by decide), writes_sub main_call8_v7 rfl (by decide), writes_sub main_call8_cst_1 rfl (by decide),
    writes_sub main_call8_v8 rfl (by decide), writes_sub main_call8_cst_2 rfl (by decide), writes_sub main_call8_v9 rfl (by decide),
    writes_sub main_call8_v10 rfl (by decide), writes_sub main_call8_v11 rfl (by decide), writes_sub main_call8_cst_3 rfl (by decide),
    writes_sub main_call8_v12 rfl (by decide), writes_sub main_call8_cst_4 rfl (by decide), writes_sub main_call8_call0_v0 rfl (by decide),
    writes_sub main_call8_call0_v1 rfl (by decide), writes_sub main_v255 rfl (by decide), writes_sub main_v256 rfl (by decide),
    writes_sub main_v257 rfl (by decide), writes_sub main_v258 rfl (by decide), writes_sub main_v259 rfl (by decide),
    writes_sub main_v260 rfl (by decide), writes_sub main_v261 rfl (by decide), writes_sub main_cst_47 rfl (by decide),
    writes_sub main_v262 rfl (by decide), writes_sub main_v263 rfl (by decide), writes_sub main_v264 rfl (by decide),
    writes_sub main_v265 rfl (by decide), writes_sub main_v266 rfl (by decide), writes_sub main_v267 rfl (by decide),
    writes_sub main_v268 rfl (by decide), writes_sub main_v269 rfl (by decide), writes_sub main_v270 rfl (by decide),
    writes_sub main_call9_cst rfl (by decide), writes_sub main_call9_v0 rfl (by decide), writes_sub main_v271 rfl (by decide),
    writes_sub main_v272 rfl (by decide), writes_sub main_v273 rfl (by decide), writes_sub main_v274 rfl (by decide),
    writes_sub main_v275 rfl (by decide), writes_sub main_v276 rfl (by decide)⟩

end Cert.ReferenceIdeal.Hand

end
-- ==== Proof.Ref.Run.lean ====
/- The reference's run, read back. Its @main is a straight line of 385 host operations once each call of an outlined
   function is replaced by the callee's operations over that call's buffers; the line is kept as the six windows the
   program is printed in, one list each, and `ops` is their concatenation. From the library's rule for a straight line:
   every weakly fair execution of @main terminates, the result buffer ends at the fold of the operations over the
   launch contents, and every argument buffer ends as it started — no operation writes an argument, since each value
   of the program has a buffer of its own. -/
import proofs.«176278_j29592324669622_2_alg».proof.Proof.Ref.Run0
import proofs.«176278_j29592324669622_2_alg».proof.Proof.Ref.Run1
import proofs.«176278_j29592324669622_2_alg».proof.Proof.Ref.Run2
import proofs.«176278_j29592324669622_2_alg».proof.Proof.Ref.Run3
import proofs.«176278_j29592324669622_2_alg».proof.Proof.Ref.Run4
import proofs.«176278_j29592324669622_2_alg».proof.Proof.Ref.Run5
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 385 operations, in order: the six windows one after the other, every call inlined over its record. -/
abbrev ops : List (HloOp τ sig (Elt F)) :=
  ops_part0 ++ (ops_part1 ++ (ops_part2 ++ (ops_part3 ++ (ops_part4 ++ ops_part5))))

/-- @main is that line: it runs its windows in order, each window is its list, and lists run one after the other
    are their concatenation run as one. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every buffer an operation of the line touches is a TensorCore buffer: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h, List.forall_iff_forall_mem.mp ops_part5_sub op h]

/-- A buffer that none of the six windows writes keeps its contents through the whole line. -/
theorem ops_keep (V : Valuation τ sig (Elt F)) (r : Ref sig .tc)
    (h0 : r ∉ ops_part0_W) (h1 : r ∉ ops_part1_W) (h2 : r ∉ ops_part2_W) (h3 : r ∉ ops_part3_W)
    (h4 : r ∉ ops_part4_W) (h5 : r ∉ ops_part5_W) :
    after ops V (Proc.devRef .tc r) = V (Proc.devRef .tc r) := by
  show after (ops_part0 ++ (ops_part1 ++ (ops_part2 ++ (ops_part3 ++ (ops_part4 ++ ops_part5))))) V _ = _
  rw [StableHlo.after_append, StableHlo.after_append, StableHlo.after_append, StableHlo.after_append,
    StableHlo.after_append,
    after_of_writes_sub ops_part5 _ ops_part5_writes h5, after_of_writes_sub ops_part4 _ ops_part4_writes h4,
    after_of_writes_sub ops_part3 _ ops_part3_writes h3, after_of_writes_sub ops_part2 _ ops_part2_writes h2,
    after_of_writes_sub ops_part1 _ ops_part1_writes h1, after_of_writes_sub ops_part0 _ ops_part0_writes h0]

/-- On the device, for any float values, from any memory with zero counters: every weakly fair execution of @main
    terminates, with the result buffer at the operations' fold over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v276) = StableHlo.after ops (fun b => m (c, b)) (Proc.devRef .tc main_v276)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨h c main_v276,
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide)),
      (h c main_arg13).trans (ops_keep _ main_arg13 (by decide) (by decide) (by decide) (by decide) (by decide) (by decide)),
      (h c main_arg14).trans (ops_keep _ main_arg14 (by decide) (by decide) (by decide) (by decide) (by decide) (by decide)),
      (h c main_arg15).trans (ops_keep _ main_arg15 (by decide) (by decide) (by decide) (by decide) (by decide) (by decide)),
      (h c main_arg16).trans (ops_keep _ main_arg16 (by decide) (by decide) (by decide) (by decide) (by decide) (by decide)),
      (h c main_arg17).trans (ops_keep _ main_arg17 (by decide) (by decide) (by decide) (by decide) (by decide) (by decide)),
      (h c main_arg18).trans (ops_keep _ main_arg18 (by decide) (by decide) (by decide) (by decide) (by decide) (by decide)),
      (h c main_arg19).trans (ops_keep _ main_arg19 (by decide) (by decide) (by decide) (by decide) (by decide) (by decide)),
      (h c main_arg20).trans (ops_keep _ main_arg20 (by decide) (by decide) (by decide) (by decide) (by decide) (by decide)),
      (h c main_arg21).trans (ops_keep _ main_arg21 (by decide) (by decide) (by decide) (by decide) (by decide) (by decide)),
      (h c main_arg22).trans (ops_keep _ main_arg22 (by decide) (by decide) (by decide) (by decide) (by decide) (by decide)),
      (h c main_arg23).trans (ops_keep _ main_arg23 (by decide) (by decide) (by decide) (by decide) (by decide) (by decide)),
      (h c main_arg24).trans (ops_keep _ main_arg24 (by decide) (by decide) (by decide) (by decide) (by decide) (by decide)),
      (h c main_arg25).trans (ops_keep _ main_arg25 (by decide) (by decide) (by decide) (by decide) (by decide) (by decide)),
      (h c main_arg26).trans (ops_keep _ main_arg26 (by decide) (by decide) (by decide) (by decide) (by decide) (by decide))⟩)
    (run_seq scopedRefs_eq scopedSems_eq defs main (fun _ => ops) main_eq (fun _ => ops_sub) m ρ)

/-- The frame: @main runs to the end without a fault and leaves its argument arrays as it found them
    (the run above with the result dropped). -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => (h c).2) (run m ρ)

end Cert.ReferenceIdeal.Hand

end
-- ==== Proof.Bridge.Defs.lean ====
/- The stage arrays of the two programs, named: the node features after each of the three layers, the two projected
   feature arrays, the two pre-normalisation activations of the classifier with their column sums, and the result. The
   algebraic claim is proved stage by stage: each kernel-side array equals the reference's, given the stages before. -/
import proofs.«176278_j29592324669622_2_alg».proof.Proof.KI.Main
import proofs.«176278_j29592324669622_2_alg».proof.Proof.Ref.Run
import Idealize.ShloMosaic.PureOps.Ideal

noncomputable section

namespace Cert.Bridge

open Idealize.ShloMosaic Idealize.ShloMosaic.TcCoe

/-- A rank-2 array of extended reals. -/
abbrev Arr (R C : ℕ) : Type := (⟨2, ![R, C]⟩ : Shape).Idx → EReal
/-- A rank-1 array of extended reals. -/
abbrev Vec1 (R : ℕ) : Type := (⟨1, ![R]⟩ : Shape).Idx → EReal

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The kernel program's `main_v22` as the fold has it after item 0. -/
def KU0 : Arr 100000 64 := Cert.KernelIdeal.Hand.W1 (F := Ideal) m ρ c (Proc.devRef .tc Cert.KernelIdeal.main_v22)
/-- The kernel program's `main_v23` as the fold has it after item 0. -/
def KM0 : Arr 20000 64 := Cert.KernelIdeal.Hand.W1 (F := Ideal) m ρ c (Proc.devRef .tc Cert.KernelIdeal.main_v23)
/-- The kernel program's `main_v59` as the fold has it after item 1. -/
def KM1 : Arr 20000 64 := Cert.KernelIdeal.Hand.W2 (F := Ideal) m ρ c (Proc.devRef .tc Cert.KernelIdeal.main_v59)
/-- The kernel program's `main_v67` as the fold has it after item 3. -/
def KU1 : Arr 100000 64 := Cert.KernelIdeal.Hand.W4 (F := Ideal) m ρ c (Proc.devRef .tc Cert.KernelIdeal.main_v67)
/-- The kernel program's `main_v103` as the fold has it after item 5. -/
def KM2 : Arr 20000 64 := Cert.KernelIdeal.Hand.W6 (F := Ideal) m ρ c (Proc.devRef .tc Cert.KernelIdeal.main_v103)
/-- The kernel program's `main_v111` as the fold has it after item 7. -/
def KU2 : Arr 100000 64 := Cert.KernelIdeal.Hand.W8 (F := Ideal) m ρ c (Proc.devRef .tc Cert.KernelIdeal.main_v111)
/-- The kernel program's `main_v147` as the fold has it after item 9. -/
def KM3 : Arr 20000 64 := Cert.KernelIdeal.Hand.W10 (F := Ideal) m ρ c (Proc.devRef .tc Cert.KernelIdeal.main_v147)
/-- The kernel program's `main_v155` as the fold has it after item 11. -/
def KU3 : Arr 100000 64 := Cert.KernelIdeal.Hand.W12 (F := Ideal) m ρ c (Proc.devRef .tc Cert.KernelIdeal.main_v155)
/-- The kernel program's `main_v160` as the fold has it after item 13. -/
def KHU : Arr 100000 64 := Cert.KernelIdeal.Hand.W14 (F := Ideal) m ρ c (Proc.devRef .tc Cert.KernelIdeal.main_v160)
/-- The kernel program's `main_v165` as the fold has it after item 15. -/
def KHM : Arr 20000 64 := Cert.KernelIdeal.Hand.W16 (F := Ideal) m ρ c (Proc.devRef .tc Cert.KernelIdeal.main_v165)
/-- The kernel program's `main_v183_0` as the fold has it after item 17. -/
def KZ1 : Arr 500000 64 := Cert.KernelIdeal.Hand.W18 (F := Ideal) m ρ c (Proc.devRef .tc Cert.KernelIdeal.main_v183_0)
/-- The kernel program's `main_v183_1` as the fold has it after item 17. -/
def KS1 : Arr 1 64 := Cert.KernelIdeal.Hand.W18 (F := Ideal) m ρ c (Proc.devRef .tc Cert.KernelIdeal.main_v183_1)
/-- The kernel program's `main_v183_2` as the fold has it after item 17. -/
def KQ1 : Arr 1 64 := Cert.KernelIdeal.Hand.W18 (F := Ideal) m ρ c (Proc.devRef .tc Cert.KernelIdeal.main_v183_2)
/-- The kernel program's `main_v197_0` as the fold has it after item 19. -/
def KZ2 : Arr 500000 32 := Cert.KernelIdeal.Hand.W20 (F := Ideal) m ρ c (Proc.devRef .tc Cert.KernelIdeal.main_v197_0)
/-- The kernel program's `main_v197_1` as the fold has it after item 19. -/
def KS2 : Arr 1 32 := Cert.KernelIdeal.Hand.W20 (F := Ideal) m ρ c (Proc.devRef .tc Cert.KernelIdeal.main_v197_1)
/-- The kernel program's `main_v197_2` as the fold has it after item 19. -/
def KQ2 : Arr 1 32 := Cert.KernelIdeal.Hand.W20 (F := Ideal) m ρ c (Proc.devRef .tc Cert.KernelIdeal.main_v197_2)
/-- The kernel program's `main_v212` as the fold has it after item 22. -/
def KOUT : Vec1 500000 := Cert.KernelIdeal.Hand.W23 (F := Ideal) m ρ c (Proc.devRef .tc Cert.KernelIdeal.main_v212)

/-- The reference's `main_v6` at the end of its run. -/
def RU0 : Arr 100000 64 := StableHlo.after (Cert.ReferenceIdeal.Hand.ops (F := Ideal)) (fun b => m' (c, b)) (Proc.devRef .tc Cert.ReferenceIdeal.main_v6)
/-- The reference's `main_arg1` (an argument). -/
def RM0 : Arr 20000 64 := m' ((c.tc : Thread Cert.ReferenceIdeal.nD Cert.ReferenceIdeal.τ).loc Cert.ReferenceIdeal.main_arg1)
/-- The reference's `main_v69` at the end of its run. -/
def RM1 : Arr 20000 64 := StableHlo.after (Cert.ReferenceIdeal.Hand.ops (F := Ideal)) (fun b => m' (c, b)) (Proc.devRef .tc Cert.ReferenceIdeal.main_v69)
/-- The reference's `main_v70` at the end of its run. -/
def RU1 : Arr 100000 64 := StableHlo.after (Cert.ReferenceIdeal.Hand.ops (F := Ideal)) (fun b => m' (c, b)) (Proc.devRef .tc Cert.ReferenceIdeal.main_v70)
/-- The reference's `main_v133` at the end of its run. -/
def RM2 : Arr 20000 64 := StableHlo.after (Cert.ReferenceIdeal.Hand.ops (F := Ideal)) (fun b => m' (c, b)) (Proc.devRef .tc Cert.ReferenceIdeal.main_v133)
/-- The reference's `main_v134` at the end of its run. -/
def RU2 : Arr 100000 64 := StableHlo.after (Cert.ReferenceIdeal.Hand.ops (F := Ideal)) (fun b => m' (c, b)) (Proc.devRef .tc Cert.ReferenceIdeal.main_v134)
/-- The reference's `main_v197` at the end of its run. -/
def RM3 : Arr 20000 64 := StableHlo.after (Cert.ReferenceIdeal.Hand.ops (F := Ideal)) (fun b => m' (c, b)) (Proc.devRef .tc Cert.ReferenceIdeal.main_v197)
/-- The reference's `main_v198` at the end of its run. -/
def RU3 : Arr 100000 64 := StableHlo.after (Cert.ReferenceIdeal.Hand.ops (F := Ideal)) (fun b => m' (c, b)) (Proc.devRef .tc Cert.ReferenceIdeal.main_v198)
/-- The reference's `main_v203` at the end of its run. -/
def RHU : Arr 100000 64 := StableHlo.after (Cert.ReferenceIdeal.Hand.ops (F := Ideal)) (fun b => m' (c, b)) (Proc.devRef .tc Cert.ReferenceIdeal.main_v203)
/-- The reference's `main_v208` at the end of its run. -/
def RHM : Arr 20000 64 := StableHlo.after (Cert.ReferenceIdeal.Hand.ops (F := Ideal)) (fun b => m' (c, b)) (Proc.devRef .tc Cert.ReferenceIdeal.main_v208)
/-- The reference's `main_v227` at the end of its run. -/
def RZ1 : Arr 500000 64 := StableHlo.after (Cert.ReferenceIdeal.Hand.ops (F := Ideal)) (fun b => m' (c, b)) (Proc.devRef .tc Cert.ReferenceIdeal.main_v227)
/-- The reference's `main_v251` at the end of its run. -/
def RZ2 : Arr 500000 32 := StableHlo.after (Cert.ReferenceIdeal.Hand.ops (F := Ideal)) (fun b => m' (c, b)) (Proc.devRef .tc Cert.ReferenceIdeal.main_v251)
/-- The reference's `main_v276` at the end of its run. -/
def ROUT : Vec1 500000 := StableHlo.after (Cert.ReferenceIdeal.Hand.ops (F := Ideal)) (fun b => m' (c, b)) (Proc.devRef .tc Cert.ReferenceIdeal.main_v276)

/-- The two launch memories agree on the twenty-seven arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
  ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
  ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)

end Cert.Bridge

end
-- ==== Proof.LibBroadcastReads.lean ====
/-
  `broadcast_in_dim` of the small shapes a bias, a per-row scale and a per-edge scale go through, read at an index:
  a scalar to any shape; a list [a] to a column [a, 1]; a column [a, 1] across [a, b]; a list [b] to a row [1, b]; a row
  [1, b] down [a, b].
-/
import Idealize.ShloMosaic.Lib.ValueIdx
import Idealize.ShloMosaic.Lib.Pipeline.Value

noncomputable section

namespace BroadcastReads

open Idealize.ShloMosaic Idealize.ShloMosaic.ValueIdx

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A list as a column: entry `(p, 0)` is entry `p`. -/
theorem col_apply {a : Nat} (dims : Fin 1 → Fin 2) (hd : dims 0 = 0)
    (h : (⟨1, ![a]⟩ : Shape).BroadcastsInDim ⟨2, ![a, 1]⟩ dims) (x : (⟨1, ![a]⟩ : Shape).Idx → α) (p : Fin a) (z : Fin 1) :
    broadcastInDim ⟨2, ![a, 1]⟩ dims h x (ix2 p z) = x (ix1 p) :=
  broadcastInDim_apply dims h x (ix2 p z) (ix1 p) (fun d => by
    match d with
    | ⟨0, _⟩ =>
      show p.val = if a = 1 then 0 else ((ix2 p z) (dims 0)).val
      rw [hd]
      show p.val = if a = 1 then 0 else p.val
      split
      · have := p.isLt; omega
      · rfl)

/-- A column across its rows: entry `(p, q)` is the column's entry `(p, 0)`. -/
theorem colAcross_apply {a b : Nat} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (q : Fin b) :
    broadcastInDim ⟨2, ![a, b]⟩ dims h x (ix2 p q) = x (ix2 p (0 : Fin 1)) :=
  broadcastInDim_apply dims h x (ix2 p q) (ix2 p (0 : Fin 1)) (fun d => by
    match d with
    | ⟨0, _⟩ =>
      show p.val = if a = 1 then 0 else ((ix2 p q) (dims 0)).val
      rw [hd0]
      show p.val = if a = 1 then 0 else p.val
      split
      · have := p.isLt; omega
      · rfl
    | ⟨1, _⟩ =>
      show (0 : Nat) = if (1 : Nat) = 1 then 0 else ((ix2 p q) (dims 1)).val
      rw [if_pos rfl])

/-- A list as a row: entry `(0, q)` is entry `q`. -/
theorem row_apply {b : Nat} (dims : Fin 1 → Fin 2) (hd : dims 0 = 1)
    (h : (⟨1, ![b]⟩ : Shape).BroadcastsInDim ⟨2, ![1, b]⟩ dims) (x : (⟨1, ![b]⟩ : Shape).Idx → α) (z : Fin 1) (q : Fin b) :
    broadcastInDim ⟨2, ![1, b]⟩ dims h x (ix2 z q) = x (ix1 q) :=
  broadcastInDim_apply dims h x (ix2 z q) (ix1 q) (fun d => by
    match d with
    | ⟨0, _⟩ =>
      show q.val = if b = 1 then 0 else ((ix2 z q) (dims 0)).val
      rw [hd]
      show q.val = if b = 1 then 0 else q.val
      split
      · have := q.isLt; omega
      · rfl)

/-- A row down its columns: entry `(p, q)` is the row's entry `(0, q)`. -/
theorem rowDown_apply {a b : Nat} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (q : Fin b) :
    broadcastInDim ⟨2, ![a, b]⟩ dims h x (ix2 p q) = x (ix2 (0 : Fin 1) q) :=
  broadcastInDim_apply dims h x (ix2 p q) (ix2 (0 : Fin 1) q) (fun d => by
    match d with
    | ⟨0, _⟩ =>
      show (0 : Nat) = if (1 : Nat) = 1 then 0 else ((ix2 p q) (dims 0)).val
      rw [if_pos rfl]
    | ⟨1, _⟩ =>
      show q.val = if b = 1 then 0 else ((ix2 p q) (dims 1)).val
      rw [hd1]
      show q.val = if b = 1 then 0 else q.val
      split
      · have := q.isLt; omega
      · rfl)

end BroadcastReads

end
-- ==== Proof.KI.Terms.lean ====
/-
  The host-side building blocks of the kernel program, named once: the three layers' aggregations are one term each
  at different operands.

  * A list of a million edge endpoints as a column (`edgeCol`), and with negative node numbers wrapped around by the
    node count first (`wrapEdges`), as a gather takes its indices.
  * The messages summed per destination: the source rows gathered along the edges, widened, and added into a zero
    array at the edges' destinations (`sumToMovies`, `sumToUsers`); the gather and the accumulating scatter stay the
    library's own operations, unopened.
  * The mean aggregation as the kernel program takes it: that sum times the destination's reciprocal clamped count,
    the count vector broadcast to a column and across the features (`aggMovies`, `aggUsers`).  Read at node `n` and
    feature `j` it is the sum's entry times the reciprocal count of `n`.
  * The reciprocal clamped counts themselves (`invCountMovies`, `invCountUsers`): one over the maximum of one and the
    number of edges landing on the node, the number being an accumulating scatter of ones.
  * One layer out of a stacked parameter, without its unit axis, read at an index (`slice_layer_matrix_apply`,
    `slice_layer_row_apply`).
-/
import proofs.«176278_j29592324669622_2_alg».proof.Proof.Gen.KernelIdeal.Launch
import proofs.«176278_j29592324669622_2_alg».proof.Proof.LibBroadcastReads
import Idealize.ShloMosaic.Lib.ValueIdx
import Idealize.ShloMosaic.Lib.ValueLayout

noncomputable section

namespace Cert.KernelIdeal.HostRead

open Idealize.ShloMosaic Idealize.ShloMosaic.TcCoe Idealize.ShloMosaic.ValueIdx Cert.KernelIdeal.Gen

variable {F : FTy → Type} [FloatOps F]

/-- A list of edge endpoints as a column. -/
abbrev edgeCol (idx : IVec S1000000 32) : IVec S1000000x1 32 :=
  broadcastInDim S1000000x1 ![0] bcast_S1000000_S1000000x1_0 idx

/-- A list of edge endpoints, the negative ones moved up by `n`, as a column. -/
abbrev wrapEdges (n : BitVec 32) (idx : IVec S1000000 32) : IVec S1000000x1 32 :=
  edgeCol
    (select (cmpi .slt idx (broadcastInDim S1000000 ![] bcast_S_S1000000 (constantI S_ 32 0#32)))
      (addi idx (broadcastInDim S1000000 ![] bcast_S_S1000000 (constantI S_ 32 n))) idx)

/-- The user rows gathered along the edges and summed per movie. -/
abbrev sumToMovies (xu : FVec F S100000x64 .bf16) (eu em : IVec S1000000 32) : FVec F S20000x64 .f32 :=
  Host.scatterAdd scatter_S20000x64_S1000000x1_S1000000x64_1_0_0_1
    (broadcastInDim S20000x64 ![] bcast_S_S20000x64 (constant S_ .f32 0x00000000#32))
    (edgeCol em)
    (extf .f32 (Host.gather gather_S100000x64_S1000000x1_S1000000x64_1_0_n_n_0_1_164 xu (wrapEdges 100000#32 eu))
      bitsLt_bf16_f32)

/-- The movie rows gathered along the edges and summed per user. -/
abbrev sumToUsers (xm : FVec F S20000x64 .bf16) (eu em : IVec S1000000 32) : FVec F S100000x64 .f32 :=
  Host.scatterAdd scatter_S100000x64_S1000000x1_S1000000x64_1_0_0_1
    (broadcastInDim S100000x64 ![] bcast_S_S100000x64 (constant S_ .f32 0x00000000#32))
    (edgeCol eu)
    (extf .f32 (Host.gather gather_S20000x64_S1000000x1_S1000000x64_1_0_n_n_0_1_164 xm (wrapEdges 20000#32 em))
      bitsLt_bf16_f32)

/-- A per-movie scale across the features. -/
abbrev acrossMovies (inv : FVec F S20000 .f32) : FVec F S20000x64 .f32 :=
  broadcastInDim S20000x64 ![0, 1] bcast_S20000x1_S20000x64_0_1 (broadcastInDim S20000x1 ![0] bcast_S20000_S20000x1_0 inv)

/-- A per-user scale across the features. -/
abbrev acrossUsers (inv : FVec F S100000 .f32) : FVec F S100000x64 .f32 :=
  broadcastInDim S100000x64 ![0, 1] bcast_S100000x1_S100000x64_0_1
    (broadcastInDim S100000x1 ![0] bcast_S100000_S100000x1_0 inv)

/-- The movies' mean aggregation: the summed messages times the reciprocal clamped counts. -/
abbrev aggMovies (xu : FVec F S100000x64 .bf16) (eu em : IVec S1000000 32) (inv : FVec F S20000 .f32) :
    FVec F S20000x64 .f32 :=
  mulf (sumToMovies xu eu em) (acrossMovies inv)

/-- The users' mean aggregation. -/
abbrev aggUsers (xm : FVec F S20000x64 .bf16) (eu em : IVec S1000000 32) (inv : FVec F S100000 .f32) :
    FVec F S100000x64 .f32 :=
  mulf (sumToUsers xm eu em) (acrossUsers inv)

/-- The movies' reciprocal clamped counts. -/
abbrev invCountMovies (em : IVec S1000000 32) : FVec F S20000 .f32 :=
  Host.divf (broadcastInDim S20000 ![] bcast_S_S20000 (constant S_ .f32 0x3F800000#32))
    (maximumf
      (Host.scatterAdd scatter_S20000_S1000000x1_S1000000_n_0_0_1
        (broadcastInDim S20000 ![] bcast_S_S20000 (constant S_ .f32 0x00000000#32)) (edgeCol em)
        (broadcastInDim S1000000 ![] bcast_S_S1000000 (constant S_ .f32 0x3F800000#32)))
      (broadcastInDim S20000 ![] bcast_S_S20000 (constant S_ .f32 0x3F800000#32)))

/-- The users' reciprocal clamped counts. -/
abbrev invCountUsers (eu : IVec S1000000 32) : FVec F S100000 .f32 :=
  Host.divf (broadcastInDim S100000 ![] bcast_S_S100000 (constant S_ .f32 0x3F800000#32))
    (maximumf
      (Host.scatterAdd scatter_S100000_S1000000x1_S1000000_n_0_0_1
        (broadcastInDim S100000 ![] bcast_S_S100000 (constant S_ .f32 0x00000000#32)) (edgeCol eu)
        (broadcastInDim S1000000 ![] bcast_S_S1000000 (constant S_ .f32 0x3F800000#32)))
      (broadcastInDim S100000 ![] bcast_S_S100000 (constant S_ .f32 0x3F800000#32)))

/-- A per-movie scale across the features, at movie `n` and feature `j`. -/
theorem acrossMovies_apply (inv : FVec F S20000 .f32) (n : Fin 20000) (j : Fin 64) :
    acrossMovies inv (ix2 n j) = inv (ix1 n) := by
  unfold acrossMovies
  rw [BroadcastReads.colAcross_apply _ rfl rfl, BroadcastReads.col_apply _ rfl]

/-- A per-user scale across the features, at user `n` and feature `j`. -/
theorem acrossUsers_apply (inv : FVec F S100000 .f32) (n : Fin 100000) (j : Fin 64) :
    acrossUsers inv (ix2 n j) = inv (ix1 n) := by
  unfold acrossUsers
  rw [BroadcastReads.colAcross_apply _ rfl rfl, BroadcastReads.col_apply _ rfl]

/-- The movies' aggregation at movie `n` and feature `j`: the summed messages there times the movie's scale. -/
theorem aggMovies_apply (xu : FVec F S100000x64 .bf16) (eu em : IVec S1000000 32) (inv : FVec F S20000 .f32)
    (n : Fin 20000) (j : Fin 64) :
    aggMovies xu eu em inv (ix2 n j) = FloatOps.mulf (sumToMovies xu eu em (ix2 n j)) (inv (ix1 n)) := by
  show FloatOps.mulf (sumToMovies xu eu em (ix2 n j)) (acrossMovies inv (ix2 n j)) = _
  rw [acrossMovies_apply]

/-- The users' aggregation at user `n` and feature `j`. -/
theorem aggUsers_apply (xm : FVec F S20000x64 .bf16) (eu em : IVec S1000000 32) (inv : FVec F S100000 .f32)
    (n : Fin 100000) (j : Fin 64) :
    aggUsers xm eu em inv (ix2 n j) = FloatOps.mulf (sumToUsers xm eu em (ix2 n j)) (inv (ix1 n)) := by
  show FloatOps.mulf (sumToUsers xm eu em (ix2 n j)) (acrossUsers inv (ix2 n j)) = _
  rw [acrossUsers_apply]

/-! ### One layer out of a stacked parameter -/

/-- Layer `l` of a stack of matrices, without its unit axis, at `(k, j)`. -/
theorem slice_layer_matrix_apply {α : Type} {L a b : ℕ} (l : Fin L) (X : (⟨3, ![L, a, b]⟩ : Shape).Idx → α)
    (hs : (⟨3, ![L, a, b]⟩ : Shape).Slices ![l.val, 0, 0] ⟨3, ![1, a, b]⟩)
    (hc : (⟨3, ![1, a, b]⟩ : Shape).ShapeCasts ⟨2, ![a, b]⟩) (k : Fin a) (j : Fin b) :
    shapeCast ⟨2, ![a, b]⟩ (extractStridedSlice ⟨3, ![1, a, b]⟩ ![l.val, 0, 0] X hs) hc (ix2 k j) = X (ix3 l k j) := by
  rw [shapeCast_1ab_ab_apply]
  exact extractStridedSlice_apply _ X hs _ _ fun a => by
    match a with
    | ⟨0, _⟩ => rfl
    | ⟨1, _⟩ => exact (Nat.zero_add _).symm
    | ⟨2, _⟩ => exact (Nat.zero_add _).symm

/-- Layer `l` of a stack of vectors, as a row, at `(u, j)`. -/
theorem slice_layer_row_apply {α : Type} {L b : ℕ} (l : Fin L) (X : (⟨2, ![L, b]⟩ : Shape).Idx → α)
    (hs : (⟨2, ![L, b]⟩ : Shape).Slices ![l.val, 0] ⟨2, ![1, b]⟩)
    (hc : (⟨2, ![1, b]⟩ : Shape).ShapeCasts ⟨1, ![b]⟩) (hc' : (⟨1, ![b]⟩ : Shape).ShapeCasts ⟨2, ![1, b]⟩)
    (u : Fin 1) (j : Fin b) :
    shapeCast ⟨2, ![1, b]⟩ (shapeCast ⟨1, ![b]⟩ (extractStridedSlice ⟨2, ![1, b]⟩ ![l.val, 0] X hs) hc) hc' (ix2 u j)
      = X (ix2 l j) := by
  rw [shapeCast_a_1a_apply, shapeCast_1a_a_apply]
  exact extractStridedSlice_apply _ X hs _ _ fun a => by
    match a with
    | ⟨0, _⟩ => rfl
    | ⟨1, _⟩ => exact (Nat.zero_add _).symm

end Cert.KernelIdeal.HostRead

end
-- ==== Proof.LibHostLine.lean ====
/-
  A straight line of host operations each of which writes one buffer of its own.

  When the operations of a line write pairwise different buffers, what a buffer holds after the line (or after a
  prefix of it) is decided locally: a buffer nobody writes keeps its contents (`after_take_unwritten`), and the
  buffer written at position `n` holds the result of operation `n` over the contents just before it, whatever
  follows (`after_take_at`). The corollaries name the four builders a printed reference uses, so that the
  operation at a literal position is recovered by unification (`hop` by `rfl`) and the statement speaks of its
  function and operand buffers directly.
-/
import Idealize.ShloMosaic.Lib.StableHlo.Run

noncomputable section

namespace Idealize.ShloMosaic.StableHlo

open Idealize.ShloMosaic.TcCoe

variable {τ : Topo} {sig : RefSig} {Val : EltTy → Type}

/-- Running two lines one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The operations `ops` write the buffers `W`, one each, in order. -/
def WritesOne (ops : List (HloOp τ sig Val)) (W : List (Ref sig .tc)) : Prop :=
  List.Forall₂ (fun op y => op.writes = {Proc.devRef (τ := τ) .tc y}) ops W

theorem WritesOne.append {l₁ l₂ : List (HloOp τ sig Val)} {W₁ W₂ : List (Ref sig .tc)} (h₁ : WritesOne l₁ W₁)
    (h₂ : WritesOne l₂ W₂) : WritesOne (l₁ ++ l₂) (W₁ ++ W₂) := by
  induction h₁ with
  | nil => exact h₂
  | cons hw _ ih => exact List.Forall₂.cons hw ih

theorem WritesOne.take {ops : List (HloOp τ sig Val)} {W : List (Ref sig .tc)} (h : WritesOne ops W) (N : Nat) :
    WritesOne (ops.take N) (W.take N) := by
  induction h generalizing N with
  | nil => simp only [List.take_nil]; exact List.Forall₂.nil
  | cons hw _ ih =>
    cases N with
    | zero => exact List.Forall₂.nil
    | succ N => exact List.Forall₂.cons hw (ih N)

theorem WritesOne.length_eq {ops : List (HloOp τ sig Val)} {W : List (Ref sig .tc)} (h : WritesOne ops W) :
    ops.length = W.length := List.Forall₂.length_eq h

/-- A buffer that is none of the written ones keeps its contents through the line. -/
theorem after_unwritten {ops : List (HloOp τ sig Val)} {W : List (Ref sig .tc)} (h : WritesOne ops W) {b : Ref sig .tc}
    (hb : b ∉ W) (V : Valuation τ sig Val) : after ops V (Proc.devRef .tc b) = V (Proc.devRef .tc b) := by
  induction h generalizing V with
  | nil => rfl
  | @cons op y ops W hw _ ih =>
    have hby : b ≠ y := fun e => hb (e ▸ List.mem_cons_self)
    rw [after_cons, ih (fun hm => hb (List.mem_cons_of_mem _ hm)),
      op.result_of_not_mem V (by rw [hw, Finset.mem_singleton]; exact fun e => hby (Proc.devRef_injective _ e))]

/-- And through any prefix of it. -/
theorem after_take_unwritten {ops : List (HloOp τ sig Val)} {W : List (Ref sig .tc)} (h : WritesOne ops W) {b : Ref sig .tc}
    (hb : b ∉ W) (V : Valuation τ sig Val) (N : Nat) :
    after (ops.take N) V (Proc.devRef .tc b) = V (Proc.devRef .tc b) :=
  after_unwritten (h.take N) (fun hm => hb (List.mem_of_mem_take hm)) V

/-- **The buffer written at position `n`**, after any prefix that includes that position, holds operation `n`'s
    result over the contents just before it: no later operation writes it again. -/
theorem after_take_at {ops : List (HloOp τ sig Val)} {W : List (Ref sig .tc)} (h : WritesOne ops W) (hnd : W.Nodup)
    (V : Valuation τ sig Val) (n N : Nat) (hnN : n < N) (hn : n < ops.length) (hn' : n < W.length) :
    after (ops.take N) V (Proc.devRef .tc W[n]) = (ops[n]).result (after (ops.take n) V) (Proc.devRef .tc W[n]) := by
  induction h generalizing V n N with
  | nil => exact absurd hn (Nat.not_lt_zero _)
  | @cons op y ops W hw hrest ih =>
    obtain ⟨N, rfl⟩ : ∃ N', N = N' + 1 := ⟨N - 1, by omega⟩
    have hy : y ∉ W := (List.nodup_cons.1 hnd).1
    cases n with
    | zero =>
      show after (ops.take N) (op.result V) (Proc.devRef .tc y) = op.result V (Proc.devRef .tc y)
      exact after_take_unwritten hrest hy _ N
    | succ n =>
      have hn0 : n < ops.length := by simpa using hn
      have hn0' : n < W.length := by simpa using hn'
      show after (ops.take N) (op.result V) (Proc.devRef .tc W[n]) = (ops[n]).result (after (ops.take n) (op.result V)) (Proc.devRef .tc W[n])
      exact ih (List.nodup_cons.1 hnd).2 (op.result V) n N (by omega) hn0 hn0'

section Builders

variable {ops : List (HloOp τ sig Val)} {W : List (Ref sig .tc)}

/-- Position `n` is a constant: its buffer holds the constant. -/
theorem after_take_nullary (h : WritesOne ops W) (hnd : W.Nodup) (V : Valuation τ sig Val) (n N : Nat) (hnN : n < N)
    (hn : n < ops.length) (hn' : n < W.length) (y : Ref sig .tc) (v : y.ty.Contents Val) (hy)
    (hop : ops[n] = nullary y v hy) (hW : W[n] = y) :
    after (ops.take N) V (Proc.devRef .tc y) = v := by
  have e := after_take_at h hnd V n N hnN hn hn'
  rw [hop, hW] at e
  exact e.trans (nullary_result y v hy _)

/-- Position `n` applies `f` to the buffer `x`: its buffer holds `f` of what `x` held just before. -/
theorem after_take_unary (h : WritesOne ops W) (hnd : W.Nodup) (V : Valuation τ sig Val) (n N : Nat) (hnN : n < N)
    (hn : n < ops.length) (hn' : n < W.length) (x y : Ref sig .tc) (f : x.ty.Contents Val → y.ty.Contents Val) (hx hy)
    (hop : ops[n] = unary x y f hx hy) (hW : W[n] = y) :
    after (ops.take N) V (Proc.devRef .tc y) = f (after (ops.take n) V (Proc.devRef .tc x)) := by
  have e := after_take_at h hnd V n N hnN hn hn'
  rw [hop, hW] at e
  exact e.trans (unary_result x y f hx hy _)

/-- Position `n` applies `f` to the buffers `a` and `b`. -/
theorem after_take_binary (h : WritesOne ops W) (hnd : W.Nodup) (V : Valuation τ sig Val) (n N : Nat) (hnN : n < N)
    (hn : n < ops.length) (hn' : n < W.length) (a b y : Ref sig .tc)
    (f : a.ty.Contents Val → b.ty.Contents Val → y.ty.Contents Val) (ha hb hy)
    (hop : ops[n] = binary a b y f ha hb hy) (hW : W[n] = y) :
    after (ops.take N) V (Proc.devRef .tc y)
      = f (after (ops.take n) V (Proc.devRef .tc a)) (after (ops.take n) V (Proc.devRef .tc b)) := by
  have e := after_take_at h hnd V n N hnN hn hn'
  rw [hop, hW] at e
  exact e.trans (binary_result a b y f ha hb hy _)

/-- Position `n` applies `f` to a family of buffers. -/
theorem after_take_nary (h : WritesOne ops W) (hnd : W.Nodup) (V : Valuation τ sig Val) (n N : Nat) (hnN : n < N)
    (hn : n < ops.length) (hn' : n < W.length) {k : Nat} (xs : Fin k → Ref sig .tc) (y : Ref sig .tc)
    (f : ((i : Fin k) → (xs i).ty.Contents Val) → y.ty.Contents Val) (hxs hy)
    (hop : ops[n] = nary xs y f hxs hy) (hW : W[n] = y) :
    after (ops.take N) V (Proc.devRef .tc y) = f (fun i => after (ops.take n) V (Proc.devRef .tc (xs i))) := by
  have e := after_take_at h hnd V n N hnN hn hn'
  rw [hop, hW] at e
  exact e.trans (nary_result xs y f hxs hy _)

end Builders

end Idealize.ShloMosaic.StableHlo

end
-- ==== Proof.LibHostFinal.lean ====
/-
  A straight line of host operations each of which writes one buffer of its own, read at its END.

  When the operations write pairwise different buffers and every operation reads only buffers that no operation from
  its own position on writes (a program in single-assignment form, in order), the contents after the whole line satisfy
  the program's equations: the buffer written at position `n` holds operation `n`'s function of what its operand
  buffers hold AT THE END, because nothing after position `n` touches either. So a value is read off the final
  contents one operation at a time, in program order, each step using only the steps of its operands.
-/
import proofs.«176278_j29592324669622_2_alg».proof.Proof.LibHostLine

noncomputable section

namespace Idealize.ShloMosaic.StableHlo

open Idealize.ShloMosaic.TcCoe

variable {τ : Topo} {sig : RefSig} {Val : EltTy → Type}

theorem WritesOne.drop {ops : List (HloOp τ sig Val)} {W : List (Ref sig .tc)} (h : WritesOne ops W) (N : Nat) :
    WritesOne (ops.drop N) (W.drop N) := by
  induction h generalizing N with
  | nil => simp only [List.drop_nil]; exact List.Forall₂.nil
  | cons hw hrest ih =>
    cases N with
    | zero => exact List.Forall₂.cons hw hrest
    | succ N => exact ih N

/-- The buffer written at position `n` holds, after the whole line, operation `n`'s result over the contents just
    before it. -/
theorem after_at {ops : List (HloOp τ sig Val)} {W : List (Ref sig .tc)} (h : WritesOne ops W) (hnd : W.Nodup)
    (V : Valuation τ sig Val) (n : Nat) (hn : n < ops.length) (hn' : n < W.length) :
    after ops V (Proc.devRef .tc W[n]) = (ops[n]).result (after (ops.take n) V) (Proc.devRef .tc W[n]) := by
  have e := after_take_at h hnd V n ops.length hn hn hn'
  rwa [List.take_length] at e

/-- A buffer that no operation from position `n` on writes holds before position `n` what it holds at the end. -/
theorem after_take_eq {ops : List (HloOp τ sig Val)} {W : List (Ref sig .tc)} (h : WritesOne ops W)
    (V : Valuation τ sig Val) (x : Ref sig .tc) (n : Nat) (hx : x ∉ W.drop n) :
    after (ops.take n) V (Proc.devRef .tc x) = after ops V (Proc.devRef .tc x) := by
  have e : after ops V = after (ops.drop n) (after (ops.take n) V) := by
    rw [← after_append, List.take_append_drop]
  rw [e]
  exact (after_unwritten (h.drop n) hx _).symm

section Builders

variable {ops : List (HloOp τ sig Val)} {W : List (Ref sig .tc)}

/-- Position `n` is a constant: at the end its buffer holds the constant. -/
theorem end_nullary (h : WritesOne ops W) (hnd : W.Nodup) (V : Valuation τ sig Val) (n : Nat)
    (hn : n < ops.length) (hn' : n < W.length) (y : Ref sig .tc) (v : y.ty.Contents Val) (hy)
    (hop : ops[n] = nullary y v hy) (hW : W[n] = y) :
    after ops V (Proc.devRef .tc y) = v := by
  have e := after_at h hnd V n hn hn'
  rw [hop, hW] at e
  exact e.trans (nullary_result y v hy _)

/-- Position `n` applies `f` to the buffer `x`: at the end its buffer holds `f` of what `x` holds at the end. -/
theorem end_unary (h : WritesOne ops W) (hnd : W.Nodup) (V : Valuation τ sig Val) (n : Nat)
    (hn : n < ops.length) (hn' : n < W.length) (x y : Ref sig .tc) (f : x.ty.Contents Val → y.ty.Contents Val) (hx hy)
    (hop : ops[n] = unary x y f hx hy) (hW : W[n] = y) (hx' : x ∉ W.drop n) :
    after ops V (Proc.devRef .tc y) = f (after ops V (Proc.devRef .tc x)) := by
  have e := after_at h hnd V n hn hn'
  rw [hop, hW] at e
  rw [e, unary_result, after_take_eq h V x n hx']

/-- Position `n` applies `f` to the buffers `a` and `b`. -/
theorem end_binary (h : WritesOne ops W) (hnd : W.Nodup) (V : Valuation τ sig Val) (n : Nat)
    (hn : n < ops.length) (hn' : n < W.length) (a b y : Ref sig .tc)
    (f : a.ty.Contents Val → b.ty.Contents Val → y.ty.Contents Val) (ha hb hy)
    (hop : ops[n] = binary a b y f ha hb hy) (hW : W[n] = y) (ha' : a ∉ W.drop n) (hb' : b ∉ W.drop n) :
    after ops V (Proc.devRef .tc y) = f (after ops V (Proc.devRef .tc a)) (after ops V (Proc.devRef .tc b)) := by
  have e := after_at h hnd V n hn hn'
  rw [hop, hW] at e
  rw [e, binary_result, after_take_eq h V a n ha', after_take_eq h V b n hb']

/-- Position `n` applies `f` to the buffers `c`, `a` and `b`. -/
theorem end_ternary (h : WritesOne ops W) (hnd : W.Nodup) (V : Valuation τ sig Val) (n : Nat)
    (hn : n < ops.length) (hn' : n < W.length) (c a b y : Ref sig .tc)
    (f : c.ty.Contents Val → a.ty.Contents Val → b.ty.Contents Val → y.ty.Contents Val) (hc ha hb hy)
    (hop : ops[n] = ternary c a b y f hc ha hb hy) (hW : W[n] = y) (hc' : c ∉ W.drop n) (ha' : a ∉ W.drop n)
    (hb' : b ∉ W.drop n) :
    after ops V (Proc.devRef .tc y)
      = f (after ops V (Proc.devRef .tc c)) (after ops V (Proc.devRef .tc a)) (after ops V (Proc.devRef .tc b)) := by
  have e := after_at h hnd V n hn hn'
  rw [hop, hW] at e
  rw [e, ternary_result, after_take_eq h V c n hc', after_take_eq h V a n ha', after_take_eq h V b n hb']

/-- Position `n` re-lays the buffer `x` out in another shape, element for element in row-major order. -/
theorem end_reshape (h : WritesOne ops W) (hnd : W.Nodup) (V : Valuation τ sig Val) (n : Nat)
    (hn : n < ops.length) (hn' : n < W.length) (x y : Ref sig .tc) (he : x.ty.elt = y.ty.elt)
    (hs : x.ty.shape.ShapeCasts y.ty.shape) (hx hy)
    (hop : ops[n] = reshape x y he hs hx hy) (hW : W[n] = y) (hx' : x ∉ W.drop n) :
    after ops V (Proc.devRef .tc y) = fun i => he ▸ shapeCast y.ty.shape (after ops V (Proc.devRef .tc x)) hs i := by
  have e := after_at h hnd V n hn hn'
  rw [hop, hW] at e
  rw [e, reshape_result, after_take_eq h V x n hx']

end Builders

end Idealize.ShloMosaic.StableHlo

end
-- ==== Proof.KI.H0.lean ====
/-
  The host operations before the first kernel launch, read as functions of the contents they start from.  They
  prepare everything the first layer needs on both sides: the reciprocal clamped edge counts of the movies and of the
  users (kept for the later layers too); the users' rows — the user embedding as half-precision rows, gathered at the
  batch's node numbers, negative numbers wrapped around by the table's height; the movie features as half-precision
  rows; the movies' mean aggregate (the users' rows gathered along the edges, summed per movie, times the movie's
  reciprocal count) and the users' mean aggregate likewise from the movies' rows; and layer `0` of the movie-side
  stacked weights and bias.  The gathers and the accumulating scatters stay the library's operations, unopened; read at
  a node and a feature, an aggregate is the summed messages there times the node's reciprocal count.

  The line is in single-assignment form: every operation writes a buffer of its own, and reads only buffers written
  before it or not at all.  So after the whole line each buffer holds its operation's function of what the operand
  buffers hold after the whole line, and a buffer's contents are read off one operation at a time.
-/
import proofs.«176278_j29592324669622_2_alg».proof.Proof.Gen.KernelIdeal.Launch
import proofs.«176278_j29592324669622_2_alg».proof.Proof.KI.Terms
import proofs.«176278_j29592324669622_2_alg».proof.Proof.LibHostFinal
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- The batch's node numbers, the negative ones moved up by `n`, as a column. -/
abbrev wrapNodes (n : BitVec 32) (idx : IVec S100000 32) : IVec S100000x1 32 :=
  broadcastInDim S100000x1 ![0] bcast_S100000_S100000x1_0
    (select (cmpi .slt idx (broadcastInDim S100000 ![] bcast_S_S100000 (constantI S_ 32 0#32)))
      (addi idx (broadcastInDim S100000 ![] bcast_S_S100000 (constantI S_ 32 n))) idx)

/-- The users' rows: the embedding table in half precision, gathered at the batch's node numbers. -/
abbrev userRows (emb : FVec F S100000x64 .f32) (nid : IVec S100000 32) : FVec F S100000x64 .bf16 :=
  Host.gather gather_S100000x64_S100000x1_S100000x64_1_0_n_n_0_1_164 (truncf .bf16 emb bitsLt_bf16_f32)
    (wrapNodes 100000#32 nid)

/-! ## The line writes one buffer per operation -/

/-- The buffers the operations write, in order. -/
noncomputable def written0 : List (Ref sig .tc) :=
  [main_cst, main_v0, main_cst_0, main_v1, main_v2, main_v3, main_cst_1, main_v4, main_v5, main_cst_2, main_v6, main_v7, main_cst_3, main_v8, main_v9, main_v10, main_cst_4, main_v11, main_v12, main_cst_5, main_v13, main_v14, main_v15, main_c, main_v16, main_v17, main_c_6, main_v18, main_v19, main_v20, main_v21, main_v22, main_v23, main_c_7, main_v24, main_v25, main_c_8, main_v26, main_v27, main_v28, main_v29, main_v30, main_v31, main_cst_9, main_v32, main_v33, main_v34, main_v35, main_v36, main_v37, main_c_10, main_v38, main_v39, main_c_11, main_v40, main_v41, main_v42, main_v43, main_v44, main_v45, main_cst_12, main_v46, main_v47, main_v48, main_v49, main_v50, main_v51, main_v52, main_v53, main_v54, main_v55, main_v56, main_v57, main_v58]

theorem hnd0 : written0.Nodup := by decide

theorem hwo0 : StableHlo.WritesOne (τ := τ) (hostOps0 (F := F)) written0 :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil))))))))))))))))))))))))))))))))))))))))))))))))))))))))))))))))))))))))))

theorem len0 : (hostOps0 (F := F) : List (HloOp τ sig (Elt F))).length = 74 := rfl
theorem lt0 {n : Nat} (h : n < 74) : n < (hostOps0 (F := F) : List (HloOp τ sig (Elt F))).length := by rw [len0]; exact h

/-- The movies' reciprocal clamped counts. -/
theorem read_main_v7 (W : Valuation τ sig (Elt F)) :
    (StableHlo.after (hostOps0 (F := F)) W (Proc.devRef .tc main_v7) : FVec F S20000 .f32)
      = invCountMovies (W (Proc.devRef .tc main_arg3) : IVec S1000000 32) := by
  have e11 := StableHlo.end_binary (hwo0 (F := F)) hnd0 W 11 (lt0 (by decide)) (by decide) main_v6 main_v5 main_v7 (Host.divf : (⟨S20000, .f32⟩ : BufTy).Contents (Elt F) → (⟨S20000, .f32⟩ : BufTy).Contents (Elt F) → (⟨S20000, .f32⟩ : BufTy).Contents (Elt F)) (by decide) (by decide) (by decide) rfl rfl (by decide) (by decide)
  have e10 := StableHlo.end_unary (hwo0 (F := F)) hnd0 W 10 (lt0 (by decide)) (by decide) main_cst_2 main_v6 (broadcastInDim S20000 ![] bcast_S_S20000 : (⟨S_, .f32⟩ : BufTy).Contents (Elt F) → (⟨S20000, .f32⟩ : BufTy).Contents (Elt F)) (by decide) (by decide) rfl rfl (by decide)
  have e9 := StableHlo.end_nullary (hwo0 (F := F)) hnd0 W 9 (lt0 (by decide)) (by decide) main_cst_2 _ (by decide) rfl rfl
  have e8 := StableHlo.end_binary (hwo0 (F := F)) hnd0 W 8 (lt0 (by decide)) (by decide) main_v3 main_v4 main_v5 (maximumf : (⟨S20000, .f32⟩ : BufTy).Contents (Elt F) → (⟨S20000, .f32⟩ : BufTy).Contents (Elt F) → (⟨S20000, .f32⟩ : BufTy).Contents (Elt F)) (by decide) (by decide) (by decide) rfl rfl (by decide) (by decide)
  have e7 := StableHlo.end_unary (hwo0 (F := F)) hnd0 W 7 (lt0 (by decide)) (by decide) main_cst_1 main_v4 (broadcastInDim S20000 ![] bcast_S_S20000 : (⟨S_, .f32⟩ : BufTy).Contents (Elt F) → (⟨S20000, .f32⟩ : BufTy).Contents (Elt F)) (by decide) (by decide) rfl rfl (by decide)
  have e6 := StableHlo.end_nullary (hwo0 (F := F)) hnd0 W 6 (lt0 (by decide)) (by decide) main_cst_1 _ (by decide) rfl rfl
  have e5 := StableHlo.end_ternary (hwo0 (F := F)) hnd0 W 5 (lt0 (by decide)) (by decide) main_v1 main_v2 main_v0 main_v3 ((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)) (by decide) (by decide) (by decide) (by decide) rfl rfl (by decide) (by decide) (by decide)
  have e4 := StableHlo.end_unary (hwo0 (F := F)) hnd0 W 4 (lt0 (by decide)) (by decide) main_arg3 main_v2 (broadcastInDim S1000000x1 ![0] bcast_S1000000_S1000000x1_0 : (⟨S1000000, .i32⟩ : BufTy).Contents (Elt F) → (⟨S1000000x1, .i32⟩ : BufTy).Contents (Elt F)) (by decide) (by decide) rfl rfl (by decide)
  have e3 := StableHlo.end_unary (hwo0 (F := F)) hnd0 W 3 (lt0 (by decide)) (by decide) main_cst_0 main_v1 (broadcastInDim S20000 ![] bcast_S_S20000 : (⟨S_, .f32⟩ : BufTy).Contents (Elt F) → (⟨S20000, .f32⟩ : BufTy).Contents (Elt F)) (by decide) (by decide) rfl rfl (by decide)
  have e2 := StableHlo.end_nullary (hwo0 (F := F)) hnd0 W 2 (lt0 (by decide)) (by decide) main_cst_0 _ (by decide) rfl rfl
  have e1 := StableHlo.end_unary (hwo0 (F := F)) hnd0 W 1 (lt0 (by decide)) (by decide) main_cst main_v0 (broadcastInDim S1000000 ![] bcast_S_S1000000 : (⟨S_, .f32⟩ : BufTy).Contents (Elt F) → (⟨S1000000, .f32⟩ : BufTy).Contents (Elt F)) (by decide) (by decide) rfl rfl (by decide)
  have e0 := StableHlo.end_nullary (hwo0 (F := F)) hnd0 W 0 (lt0 (by decide)) (by decide) main_cst _ (by decide) rfl rfl
  have a_main_arg3 := StableHlo.after_unwritten (hwo0 (F := F)) (b := main_arg3) (by decide) W
  rw [e11, e10, e9, e8, e7, e6, e5, e4, e3, e2, e1, e0, a_main_arg3]

/-- The users' reciprocal clamped counts. -/
theorem read_main_v14 (W : Valuation τ sig (Elt F)) :
    (StableHlo.after (hostOps0 (F := F)) W (Proc.devRef .tc main_v14) : FVec F S100000 .f32)
      = invCountUsers (W (Proc.devRef .tc main_arg2) : IVec S1000000 32) := by
  have e21 := StableHlo.end_binary (hwo0 (F := F)) hnd0 W 21 (lt0 (by decide)) (by decide) main_v13 main_v12 main_v14 (Host.divf : (⟨S100000, .f32⟩ : BufTy).Contents (Elt F) → (⟨S100000, .f32⟩ : BufTy).Contents (Elt F) → (⟨S100000, .f32⟩ : BufTy).Contents (Elt F)) (by decide) (by decide) (by decide) rfl rfl (by decide) (by decide)
  have e20 := StableHlo.end_unary (hwo0 (F := F)) hnd0 W 20 (lt0 (by decide)) (by decide) main_cst_5 main_v13 (broadcastInDim S100000 ![] bcast_S_S100000 : (⟨S_, .f32⟩ : BufTy).Contents (Elt F) → (⟨S100000, .f32⟩ : BufTy).Contents (Elt F)) (by decide) (by decide) rfl rfl (by decide)
  have e19 := StableHlo.end_nullary (hwo0 (F := F)) hnd0 W 19 (lt0 (by decide)) (by decide) main_cst_5 _ (by decide) rfl rfl
  have e18 := StableHlo.end_binary (hwo0 (F := F)) hnd0 W 18 (lt0 (by decide)) (by decide) main_v10 main_v11 main_v12 (maximumf : (⟨S100000, .f32⟩ : BufTy).Contents (Elt F) → (⟨S100000, .f32⟩ : BufTy).Contents (Elt F) → (⟨S100000, .f32⟩ : BufTy).Contents (Elt F)) (by decide) (by decide) (by decide) rfl rfl (by decide) (by decide)
  have e17 := StableHlo.end_unary (hwo0 (F := F)) hnd0 W 17 (lt0 (by decide)) (by decide) main_cst_4 main_v11 (broadcastInDim S100000 ![] bcast_S_S100000 : (⟨S_, .f32⟩ : BufTy).Contents (Elt F) → (⟨S100000, .f32⟩ : BufTy).Contents (Elt F)) (by decide) (by decide) rfl rfl (by decide)
  have e16 := StableHlo.end_nullary (hwo0 (F := F)) hnd0 W 16 (lt0 (by decide)) (by decide) main_cst_4 _ (by decide) rfl rfl
  have e15 := StableHlo.end_ternary (hwo0 (F := F)) hnd0 W 15 (lt0 (by decide)) (by decide) main_v8 main_v9 main_v0 main_v10 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) (by decide) (by decide) (by decide) (by decide) rfl rfl (by decide) (by decide) (by decide)
  have e14 := StableHlo.end_unary (hwo0 (F := F)) hnd0 W 14 (lt0 (by decide)) (by decide) main_arg2 main_v9 (broadcastInDim S1000000x1 ![0] bcast_S1000000_S1000000x1_0 : (⟨S1000000, .i32⟩ : BufTy).Contents (Elt F) → (⟨S1000000x1, .i32⟩ : BufTy).Contents (Elt F)) (by decide) (by decide) rfl rfl (by decide)
  have e13 := StableHlo.end_unary (hwo0 (F := F)) hnd0 W 13 (lt0 (by decide)) (by decide) main_cst_3 main_v8 (broadcastInDim S100000 ![] bcast_S_S100000 : (⟨S_, .f32⟩ : BufTy).Contents (Elt F) → (⟨S100000, .f32⟩ : BufTy).Contents (Elt F)) (by decide) (by decide) rfl rfl (by decide)
  have e12 := StableHlo.end_nullary (hwo0 (F := F)) hnd0 W 12 (lt0 (by decide)) (by decide) main_cst_3 _ (by decide) rfl rfl
  have e1 := StableHlo.end_unary (hwo0 (F := F)) hnd0 W 1 (lt0 (by decide)) (by decide) main_cst main_v0 (broadcastInDim S1000000 ![] bcast_S_S1000000 : (⟨S_, .f32⟩ : BufTy).Contents (Elt F) → (⟨S1000000, .f32⟩ : BufTy).Contents (Elt F)) (by decide) (by decide) rfl rfl (by decide)
  have e0 := StableHlo.end_nullary (hwo0 (F := F)) hnd0 W 0 (lt0 (by decide)) (by decide) main_cst _ (by decide) rfl rfl
  have a_main_arg2 := StableHlo.after_unwritten (hwo0 (F := F)) (b := main_arg2) (by decide) W
  rw [e21, e20, e19, e18, e17, e16, e15, e14, e13, e12, e1, e0, a_main_arg2]

/-- The users' rows. -/
theorem read_main_v22 (W : Valuation τ sig (Elt F)) :
    (StableHlo.after (hostOps0 (F := F)) W (Proc.devRef .tc main_v22) : FVec F S100000x64 .bf16)
      = userRows (W (Proc.devRef .tc main_arg6) : FVec F S100000x64 .f32) (W (Proc.devRef .tc main_arg0) : IVec S100000 32) := by
  have e31 := StableHlo.end_binary (hwo0 (F := F)) hnd0 W 31 (lt0 (by decide)) (by decide) main_v15 main_v21 main_v22 ((fun x i => Host.gather gather_S100000x64_S100000x1_S100000x64_1_0_n_n_0_1_164 x i) : (⟨S100000x64, .bf16⟩ : BufTy).Contents (Elt F) → (⟨S100000x1, .i32⟩ : BufTy).Contents (Elt F) → (⟨S100000x64, .bf16⟩ : BufTy).Contents (Elt F)) (by decide) (by decide) (by decide) rfl rfl (by decide) (by decide)
  have e30 := StableHlo.end_unary (hwo0 (F := F)) hnd0 W 30 (lt0 (by decide)) (by decide) main_v20 main_v21 (broadcastInDim S100000x1 ![0] bcast_S100000_S100000x1_0 : (⟨S100000, .i32⟩ : BufTy).Contents (Elt F) → (⟨S100000x1, .i32⟩ : BufTy).Contents (Elt F)) (by decide) (by decide) rfl rfl (by decide)
  have e29 := StableHlo.end_ternary (hwo0 (F := F)) hnd0 W 29 (lt0 (by decide)) (by decide) main_v17 main_v19 main_arg0 main_v20 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (by decide) (by decide) (by decide) (by decide) rfl rfl (by decide) (by decide) (by decide)
  have e28 := StableHlo.end_binary (hwo0 (F := F)) hnd0 W 28 (lt0 (by decide)) (by decide) main_arg0 main_v18 main_v19 (addi : (⟨S100000, .i32⟩ : BufTy).Contents (Elt F) → (⟨S100000, .i32⟩ : BufTy).Contents (Elt F) → (⟨S100000, .i32⟩ : BufTy).Contents (Elt F)) (by decide) (by decide) (by decide) rfl rfl (by decide) (by decide)
  have e27 := StableHlo.end_unary (hwo0 (F := F)) hnd0 W 27 (lt0 (by decide)) (by decide) main_c_6 main_v18 (broadcastInDim S100000 ![] bcast_S_S100000 : (⟨S_, .i32⟩ : BufTy).Contents (Elt F) → (⟨S100000, .i32⟩ : BufTy).Contents (Elt F)) (by decide) (by decide) rfl rfl (by decide)
  have e26 := StableHlo.end_nullary (hwo0 (F := F)) hnd0 W 26 (lt0 (by decide)) (by decide) main_c_6 _ (by decide) rfl rfl
  have e25 := StableHlo.end_binary (hwo0 (F := F)) hnd0 W 25 (lt0 (by decide)) (by decide) main_arg0 main_v16 main_v17 (cmpi .slt : (⟨S100000, .i32⟩ : BufTy).Contents (Elt F) → (⟨S100000, .i32⟩ : BufTy).Contents (Elt F) → (⟨S100000, .i1⟩ : BufTy).Contents (Elt F)) (by decide) (by decide) (by decide) rfl rfl (by decide) (by decide)
  have e24 := StableHlo.end_unary (hwo0 (F := F)) hnd0 W 24 (lt0 (by decide)) (by decide) main_c main_v16 (broadcastInDim S100000 ![] bcast_S_S100000 : (⟨S_, .i32⟩ : BufTy).Contents (Elt F) → (⟨S100000, .i32⟩ : BufTy).Contents (Elt F)) (by decide) (by decide) rfl rfl (by decide)
  have e23 := StableHlo.end_nullary (hwo0 (F := F)) hnd0 W 23 (lt0 (by decide)) (by decide) main_c _ (by decide) rfl rfl
  have e22 := StableHlo.end_unary (hwo0 (F := F)) hnd0 W 22 (lt0 (by decide)) (by decide) main_arg6 main_v15 ((truncf .bf16 · bitsLt_bf16_f32) : (⟨S100000x64, .f32⟩ : BufTy).Contents (Elt F) → (⟨S100000x64, .bf16⟩ : BufTy).Contents (Elt F)) (by decide) (by decide) rfl rfl (by decide)
  have a_main_arg6 := StableHlo.after_unwritten (hwo0 (F := F)) (b := main_arg6) (by decide) W
  have a_main_arg0 := StableHlo.after_unwritten (hwo0 (F := F)) (b := main_arg0) (by decide) W
  rw [e31, e30, e29, e28, e27, e26, e25, e24, e23, e22, a_main_arg6, a_main_arg0]

/-- The movies' rows: the movie features in half precision. -/
theorem read_main_v23 (W : Valuation τ sig (Elt F)) :
    (StableHlo.after (hostOps0 (F := F)) W (Proc.devRef .tc main_v23) : FVec F S20000x64 .bf16)
      = truncf .bf16 (W (Proc.devRef .tc main_arg1) : FVec F S20000x64 .f32) bitsLt_bf16_f32 := by
  have e32 := StableHlo.end_unary (hwo0 (F := F)) hnd0 W 32 (lt0 (by decide)) (by decide) main_arg1 main_v23 ((truncf .bf16 · bitsLt_bf16_f32) : (⟨S20000x64, .f32⟩ : BufTy).Contents (Elt F) → (⟨S20000x64, .bf16⟩ : BufTy).Contents (Elt F)) (by decide) (by decide) rfl rfl (by decide)
  have a_main_arg1 := StableHlo.after_unwritten (hwo0 (F := F)) (b := main_arg1) (by decide) W
  rw [e32, a_main_arg1]

/-- The movies' aggregate of the first layer. -/
theorem read_main_v37 (W : Valuation τ sig (Elt F)) :
    (StableHlo.after (hostOps0 (F := F)) W (Proc.devRef .tc main_v37) : FVec F S20000x64 .f32)
      = aggMovies (userRows (W (Proc.devRef .tc main_arg6) : FVec F S100000x64 .f32) (W (Proc.devRef .tc main_arg0) : IVec S100000 32)) (W (Proc.devRef .tc main_arg2) : IVec S1000000 32) (W (Proc.devRef .tc main_arg3) : IVec S1000000 32) (invCountMovies (W (Proc.devRef .tc main_arg3) : IVec S1000000 32)) := by
  have e49 := StableHlo.end_binary (hwo0 (F := F)) hnd0 W 49 (lt0 (by decide)) (by decide) main_v34 main_v36 main_v37 (mulf : (⟨S20000x64, .f32⟩ : BufTy).Contents (Elt F) → (⟨S20000x64, .f32⟩ : BufTy).Contents (Elt F) → (⟨S20000x64, .f32⟩ : BufTy).Contents (Elt F)) (by decide) (by decide) (by decide) rfl rfl (by decide) (by decide)
  have e48 := StableHlo.end_unary (hwo0 (F := F)) hnd0 W 48 (lt0 (by decide)) (by decide) main_v35 main_v36 (broadcastInDim S20000x64 ![0, 1] bcast_S20000x1_S20000x64_0_1 : (⟨S20000x1, .f32⟩ : BufTy).Contents (Elt F) → (⟨S20000x64, .f32⟩ : BufTy).Contents (Elt F)) (by decide) (by decide) rfl rfl (by decide)
  have e47 := StableHlo.end_unary (hwo0 (F := F)) hnd0 W 47 (lt0 (by decide)) (by decide) main_v7 main_v35 (broadcastInDim S20000x1 ![0] bcast_S20000_S20000x1_0 : (⟨S20000, .f32⟩ : BufTy).Contents (Elt F) → (⟨S20000x1, .f32⟩ : BufTy).Contents (Elt F)) (by decide) (by decide) rfl rfl (by decide)
  have e46 := StableHlo.end_ternary (hwo0 (F := F)) hnd0 W 46 (lt0 (by decide)) (by decide) main_v32 main_v33 main_v31 main_v34 ((fun x i u => Host.scatterAdd scatter_S20000x64_S1000000x1_S1000000x64_1_0_0_1 x i u) : (⟨S20000x64, .f32⟩ : BufTy).Contents (Elt F) → (⟨S1000000x1, .i32⟩ : BufTy).Contents (Elt F) → (⟨S1000000x64, .f32⟩ : BufTy).Contents (Elt F) → (⟨S20000x64, .f32⟩ : BufTy).Contents (Elt F)) (by decide) (by decide) (by decide) (by decide) rfl rfl (by decide) (by decide) (by decide)
  have e45 := StableHlo.end_unary (hwo0 (F := F)) hnd0 W 45 (lt0 (by decide)) (by decide) main_arg3 main_v33 (broadcastInDim S1000000x1 ![0] bcast_S1000000_S1000000x1_0 : (⟨S1000000, .i32⟩ : BufTy).Contents (Elt F) → (⟨S1000000x1, .i32⟩ : BufTy).Contents (Elt F)) (by decide) (by decide) rfl rfl (by decide)
  have e44 := StableHlo.end_unary (hwo0 (F := F)) hnd0 W 44 (lt0 (by decide)) (by decide) main_cst_9 main_v32 (broadcastInDim S20000x64 ![] bcast_S_S20000x64 : (⟨S_, .f32⟩ : BufTy).Contents (Elt F) → (⟨S20000x64, .f32⟩ : BufTy).Contents (Elt F)) (by decide) (by decide) rfl rfl (by decide)
  have e43 := StableHlo.end_nullary (hwo0 (F := F)) hnd0 W 43 (lt0 (by decide)) (by decide) main_cst_9 _ (by decide) rfl rfl
  have e42 := StableHlo.end_unary (hwo0 (F := F)) hnd0 W 42 (lt0 (by decide)) (by decide) main_v30 main_v31 ((extf .f32 · bitsLt_bf16_f32) : (⟨S1000000x64, .bf16⟩ : BufTy).Contents (Elt F) → (⟨S1000000x64, .f32⟩ : BufTy).Contents (Elt F)) (by decide) (by decide) rfl rfl (by decide)
  have e41 := StableHlo.end_binary (hwo0 (F := F)) hnd0 W 41 (lt0 (by decide)) (by decide) main_v22 main_v29 main_v30 ((fun x i => Host.gather gather_S100000x64_S1000000x1_S1000000x64_1_0_n_n_0_1_164 x i) : (⟨S100000x64, .bf16⟩ : BufTy).Contents (Elt F) → (⟨S1000000x1, .i32⟩ : BufTy).Contents (Elt F) → (⟨S1000000x64, .bf16⟩ : BufTy).Contents (Elt F)) (by decide) (by decide) (by decide) rfl rfl (by decide) (by decide)
  have e40 := StableHlo.end_unary (hwo0 (F := F)) hnd0 W 40 (lt0 (by decide)) (by decide) main_v28 main_v29 (broadcastInDim S1000000x1 ![0] bcast_S1000000_S1000000x1_0 : (⟨S1000000, .i32⟩ : BufTy).Contents (Elt F) → (⟨S1000000x1, .i32⟩ : BufTy).Contents (Elt F)) (by decide) (by decide) rfl rfl (by decide)
  have e39 := StableHlo.end_ternary (hwo0 (F := F)) hnd0 W 39 (lt0 (by decide)) (by decide) main_v25 main_v27 main_arg2 main_v28 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (by decide) (by decide) (by decide) (by decide) rfl rfl (by decide) (by decide) (by decide)
  have e38 := StableHlo.end_binary (hwo0 (F := F)) hnd0 W 38 (lt0 (by decide)) (by decide) main_arg2 main_v26 main_v27 (addi : (⟨S1000000, .i32⟩ : BufTy).Contents (Elt F) → (⟨S1000000, .i32⟩ : BufTy).Contents (Elt F) → (⟨S1000000, .i32⟩ : BufTy).Contents (Elt F)) (by decide) (by decide) (by decide) rfl rfl (by decide) (by decide)
  have e37 := StableHlo.end_unary (hwo0 (F := F)) hnd0 W 37 (lt0 (by decide)) (by decide) main_c_8 main_v26 (broadcastInDim S1000000 ![] bcast_S_S1000000 : (⟨S_, .i32⟩ : BufTy).Contents (Elt F) → (⟨S1000000, .i32⟩ : BufTy).Contents (Elt F)) (by decide) (by decide) rfl rfl (by decide)
  have e36 := StableHlo.end_nullary (hwo0 (F := F)) hnd0 W 36 (lt0 (by decide)) (by decide) main_c_8 _ (by decide) rfl rfl
  have e35 := StableHlo.end_binary (hwo0 (F := F)) hnd0 W 35 (lt0 (by decide)) (by decide) main_arg2 main_v24 main_v25 (cmpi .slt : (⟨S1000000, .i32⟩ : BufTy).Contents (Elt F) → (⟨S1000000, .i32⟩ : BufTy).Contents (Elt F) → (⟨S1000000, .i1⟩ : BufTy).Contents (Elt F)) (by decide) (by decide) (by decide) rfl rfl (by decide) (by decide)
  have e34 := StableHlo.end_unary (hwo0 (F := F)) hnd0 W 34 (lt0 (by decide)) (by decide) main_c_7 main_v24 (broadcastInDim S1000000 ![] bcast_S_S1000000 : (⟨S_, .i32⟩ : BufTy).Contents (Elt F) → (⟨S1000000, .i32⟩ : BufTy).Contents (Elt F)) (by decide) (by decide) rfl rfl (by decide)
  have e33 := StableHlo.end_nullary (hwo0 (F := F)) hnd0 W 33 (lt0 (by decide)) (by decide) main_c_7 _ (by decide) rfl rfl
  have e31 := StableHlo.end_binary (hwo0 (F := F)) hnd0 W 31 (lt0 (by decide)) (by decide) main_v15 main_v21 main_v22 ((fun x i => Host.gather gather_S100000x64_S100000x1_S100000x64_1_0_n_n_0_1_164 x i) : (⟨S100000x64, .bf16⟩ : BufTy).Contents (Elt F) → (⟨S100000x1, .i32⟩ : BufTy).Contents (Elt F) → (⟨S100000x64, .bf16⟩ : BufTy).Contents (Elt F)) (by decide) (by decide) (by decide) rfl rfl (by decide) (by decide)
  have e30 := StableHlo.end_unary (hwo0 (F := F)) hnd0 W 30 (lt0 (by decide)) (by decide) main_v20 main_v21 (broadcastInDim S100000x1 ![0] bcast_S100000_S100000x1_0 : (⟨S100000, .i32⟩ : BufTy).Contents (Elt F) → (⟨S100000x1, .i32⟩ : BufTy).Contents (Elt F)) (by decide) (by decide) rfl rfl (by decide)
  have e29 := StableHlo.end_ternary (hwo0 (F := F)) hnd0 W 29 (lt0 (by decide)) (by decide) main_v17 main_v19 main_arg0 main_v20 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) (by decide) (by decide) (by decide) (by decide) rfl rfl (by decide) (by decide) (by decide)
  have e28 := StableHlo.end_binary (hwo0 (F := F)) hnd0 W 28 (lt0 (by decide)) (by decide) main_arg0 main_v18 main_v19 (addi : (⟨S100000, .i32⟩ : BufTy).Contents (Elt F) → (⟨S100000, .i32⟩ : BufTy).Contents (Elt F) → (⟨S100000, .i32⟩ : BufTy).Contents (Elt F)) (by decide) (by decide) (by decide) rfl rfl (by decide) (by decide)
  have e27 := StableHlo.end_unary (hwo0 (F := F)) hnd0 W 27 (lt0 (by decide)) (by decide) main_c_6 main_v18 (broadcastInDim S100000 ![] bcast_S_S100000 : (⟨S_, .i32⟩ : BufTy).Contents (Elt F) → (⟨S100000, .i32⟩ : BufTy).Contents (Elt F)) (by decide) (by decide) rfl rfl (by decide)
  have e26 := StableHlo.end_nullary (hwo0 (F := F)) hnd0 W 26 (lt0 (by decide)) (by decide) main_c_6 _ (by decide) rfl rfl
  have e25 := StableHlo.end_binary (hwo0 (F := F)) hnd0 W 25 (lt0 (by decide)) (by decide) main_arg0 main_v16 main_v17 (cmpi .slt : (⟨S100000, .i32⟩ : BufTy).Contents (Elt F) → (⟨S100000, .i32⟩ : BufTy).Contents (Elt F) → (⟨S100000, .i1⟩ : BufTy).Contents (Elt F)) (by decide) (by decide) (by decide) rfl rfl (by decide) (by decide)
  have e24 := StableHlo.end_unary (hwo0 (F := F)) hnd0 W 24 (lt0 (by decide)) (by decide) main_c main_v16 (broadcastInDim S100000 ![] bcast_S_S100000 : (⟨S_, .i32⟩ : BufTy).Contents (Elt F) → (⟨S100000, .i32⟩ : BufTy).Contents (Elt F)) (by decide) (by decide) rfl rfl (by decide)
  have e23 := StableHlo.end_nullary (hwo0 (F := F)) hnd0 W 23 (lt0 (by decide)) (by decide) main_c _ (by decide) rfl rfl
  have e22 := StableHlo.end_unary (hwo0 (F := F)) hnd0 W 22 (lt0 (by decide)) (by decide) main_arg6 main_v15 ((truncf .bf16 · bitsLt_bf16_f32) : (⟨S100000x64, .f32⟩ : BufTy).Contents (Elt F) → (⟨S100000x64, .bf16⟩ : BufTy).Contents (Elt F)) (by decide) (by decide) rfl rfl (by decide)
  have e11 := StableHlo.end_binary (hwo0 (F := F)) hnd0 W 11 (lt0 (by decide)) (by decide) main_v6 main_v5 main_v7 (Host.divf : (⟨S20000, .f32⟩ : BufTy).Contents (Elt F) → (⟨S20000, .f32⟩ : BufTy).Contents (Elt F) → (⟨S20000, .f32⟩ : BufTy).Contents (Elt F)) (by decide) (by decide) (by decide) rfl rfl (by decide) (by decide)
  have e10 := StableHlo.end_unary (hwo0 (F := F)) hnd0 W 10 (lt0 (by decide)) (by decide) main_cst_2 main_v6 (broadcastInDim S20000 ![] bcast_S_S20000 : (⟨S_, .f32⟩ : BufTy).Contents (Elt F) → (⟨S20000, .f32⟩ : BufTy).Contents (Elt F)) (by decide) (by decide) rfl rfl (by decide)
  have e9 := StableHlo.end_nullary (hwo0 (F := F)) hnd0 W 9 (lt0 (by decide)) (by decide) main_cst_2 _ (by decide) rfl rfl
  have e8 := StableHlo.end_binary (hwo0 (F := F)) hnd0 W 8 (lt0 (by decide)) (by decide) main_v3 main_v4 main_v5 (maximumf : (⟨S20000, .f32⟩ : BufTy).Contents (Elt F) → (⟨S20000, .f32⟩ : BufTy).Contents (Elt F) → (⟨S20000, .f32⟩ : BufTy).Contents (Elt F)) (by decide) (by decide) (by decide) rfl rfl (by decide) (by decide)
  have e7 := StableHlo.end_unary (hwo0 (F := F)) hnd0 W 7 (lt0 (by decide)) (by decide) main_cst_1 main_v4 (broadcastInDim S20000 ![] bcast_S_S20000 : (⟨S_, .f32⟩ : BufTy).Contents (Elt F) → (⟨S20000, .f32⟩ : BufTy).Contents (Elt F)) (by decide) (by decide) rfl rfl (by decide)
  have e6 := StableHlo.end_nullary (hwo0 (F := F)) hnd0 W 6 (lt0 (by decide)) (by decide) main_cst_1 _ (by decide) rfl rfl
  have e5 := StableHlo.end_ternary (hwo0 (F := F)) hnd0 W 5 (lt0 (by decide)) (by decide) main_v1 main_v2 main_v0 main_v3 ((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)) (by decide) (by decide) (by decide) (by decide) rfl rfl (by decide) (by decide) (by decide)
  have e4 := StableHlo.end_unary (hwo0 (F := F)) hnd0 W 4 (lt0 (by decide)) (by decide) main_arg3 main_v2 (broadcastInDim S1000000x1 ![0] bcast_S1000000_S1000000x1_0 : (⟨S1000000, .i32⟩ : BufTy).Contents (Elt F) → (⟨S1000000x1, .i32⟩ : BufTy).Contents (Elt F)) (by decide) (by decide) rfl rfl (by decide)
  have e3 := StableHlo.end_unary (hwo0 (F := F)) hnd0 W 3 (lt0 (by decide)) (by decide) main_cst_0 main_v1 (broadcastInDim S20000 ![] bcast_S_S20000 : (⟨S_, .f32⟩ : BufTy).Contents (Elt F) → (⟨S20000, .f32⟩ : BufTy).Contents (Elt F)) (by decide) (by decide) rfl rfl (by decide)
  have e2 := StableHlo.end_nullary (hwo0 (F := F)) hnd0 W 2 (lt0 (by decide)) (by decide) main_cst_0 _ (by decide) rfl rfl
  have e1 := StableHlo.end_unary (hwo0 (F := F)) hnd0 W 1 (lt0 (by decide)) (by decide) main_cst main_v0 (broadcastInDim S1000000 ![] bcast_S_S1000000 : (⟨S_, .f32⟩ : BufTy).Contents (Elt F) → (⟨S1000000, .f32⟩ : BufTy).Contents (Elt F)) (by decide) (by decide) rfl rfl (by decide)
  have e0 := StableHlo.end_nullary (hwo0 (F := F)) hnd0 W 0 (lt0 (by decide)) (by decide) main_cst _ (by decide) rfl rfl
  have a_main_arg3 := StableHlo.after_unwritten (hwo0 (F := F)) (b := main_arg3) (by decide) W
  have a_main_arg6 := StableHlo.after_unwritten (hwo0 (F := F)) (b := main_arg6) (by decide) W
  have a_main_arg0 := StableHlo.after_unwritten (hwo0 (F := F)) (b := main_arg0) (by decide) W
  have a_main_arg2 := StableHlo.after_unwritten (hwo0 (F := F)) (b := main_arg2) (by decide) W
  rw [e49, e48, e47, e46, e45, e44, e43, e42, e41, e40, e39, e38, e37, e36, e35, e34, e33, e31, e30, e29, e28, e27, e26, e25, e24, e23, e22, e11, e10, e9, e8, e7, e6, e5, e4, e3, e2, e1, e0, a_main_arg3, a_main_arg6, a_main_arg0, a_main_arg2]

theorem read_main_v37_apply (W : Valuation τ sig (Elt F)) (n : Fin 20000) (j : Fin 64) :
    (StableHlo.after (hostOps0 (F := F)) W (Proc.devRef .tc main_v37) : FVec F S20000x64 .f32) (ix2 n j)
      = FloatOps.mulf (sumToMovies (userRows (W (Proc.devRef .tc main_arg6) : FVec F S100000x64 .f32) (W (Proc.devRef .tc main_arg0) : IVec S100000 32)) (W (Proc.devRef .tc main_arg2) : IVec S1000000 32) (W (Proc.devRef .tc main_arg3) : IVec S1000000 32) (ix2 n j)) (invCountMovies (F := F) (W (Proc.devRef .tc main_arg3) : IVec S1000000 32) (ix1 n)) := by
  rw [read_main_v37]
  exact aggMovies_apply _ _ _ _ n j

/-- The users' aggregate of the first layer. -/
theorem read_main_v51 (W : Valuation τ sig (Elt F)) :
    (StableHlo.after (hostOps0 (F := F)) W (Proc.devRef .tc main_v51) : FVec F S100000x64 .f32)
      = aggUsers (truncf .bf16 (W (Proc.devRef .tc main_arg1) : FVec F S20000x64 .f32) bitsLt_bf16_f32) (W (Proc.devRef .tc main_arg2) : IVec S1000000 32) (W (Proc.devRef .tc main_arg3) : IVec S1000000 32) (invCountUsers (W (Proc.devRef .tc main_arg2) : IVec S1000000 32)) := by
  have e66 := StableHlo.end_binary (hwo0 (F := F)) hnd0 W 66 (lt0 (by decide)) (by decide) main_v48 main_v50 main_v51 (mulf : (⟨S100000x64, .f32⟩ : BufTy).Contents (Elt F) → (⟨S100000x64, .f32⟩ : BufTy).Contents (Elt F) → (⟨S100000x64, .f32⟩ : BufTy).Contents (Elt F)) (by decide) (by decide) (by decide) rfl rfl (by decide) (by decide)
  have e65 := StableHlo.end_unary (hwo0 (F := F)) hnd0 W 65 (lt0 (by decide)) (by decide) main_v49 main_v50 (broadcastInDim S100000x64 ![0, 1] bcast_S100000x1_S100000x64_0_1 : (⟨S100000x1, .f32⟩ : BufTy).Contents (Elt F) → (⟨S100000x64, .f32⟩ : BufTy).Contents (Elt F)) (by decide) (by decide) rfl rfl (by decide)
  have e64 := StableHlo.end_unary (hwo0 (F := F)) hnd0 W 64 (lt0 (by decide)) (by decide) main_v14 main_v49 (broadcastInDim S100000x1 ![0] bcast_S100000_S100000x1_0 : (⟨S100000, .f32⟩ : BufTy).Contents (Elt F) → (⟨S100000x1, .f32⟩ : BufTy).Contents (Elt F)) (by decide) (by decide) rfl rfl (by decide)
  have e63 := StableHlo.end_ternary (hwo0 (F := F)) hnd0 W 63 (lt0 (by decide)) (by decide) main_v46 main_v47 main_v45 main_v48 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) (by decide) (by decide) (by decide) (by decide) rfl rfl (by decide) (by decide) (by decide)
  have e62 := StableHlo.end_unary (hwo0 (F := F)) hnd0 W 62 (lt0 (by decide)) (by decide) main_arg2 main_v47 (broadcastInDim S1000000x1 ![0] bcast_S1000000_S1000000x1_0 : (⟨S1000000, .i32⟩ : BufTy).Contents (Elt F) → (⟨S1000000x1, .i32⟩ : BufTy).Contents (Elt F)) (by decide) (by decide) rfl rfl (by decide)
  have e61 := StableHlo.end_unary (hwo0 (F := F)) hnd0 W 61 (lt0 (by decide)) (by decide) main_cst_12 main_v46 (broadcastInDim S100000x64 ![] bcast_S_S100000x64 : (⟨S_, .f32⟩ : BufTy).Contents (Elt F) → (⟨S100000x64, .f32⟩ : BufTy).Contents (Elt F)) (by decide) (by decide) rfl rfl (by decide)
  have e60 := StableHlo.end_nullary (hwo0 (F := F)) hnd0 W 60 (lt0 (by decide)) (by decide) main_cst_12 _ (by decide) rfl rfl
  have e59 := StableHlo.end_unary (hwo0 (F := F)) hnd0 W 59 (lt0 (by decide)) (by decide) main_v44 main_v45 ((extf .f32 · bitsLt_bf16_f32) : (⟨S1000000x64, .bf16⟩ : BufTy).Contents (Elt F) → (⟨S1000000x64, .f32⟩ : BufTy).Contents (Elt F)) (by decide) (by decide) rfl rfl (by decide)
  have e58 := StableHlo.end_binary (hwo0 (F := F)) hnd0 W 58 (lt0 (by decide)) (by decide) main_v23 main_v43 main_v44 ((fun x i => Host.gather gather_S20000x64_S1000000x1_S1000000x64_1_0_n_n_0_1_164 x i) : (⟨S20000x64, .bf16⟩ : BufTy).Contents (Elt F) → (⟨S1000000x1, .i32⟩ : BufTy).Contents (Elt F) → (⟨S1000000x64, .bf16⟩ : BufTy).Contents (Elt F)) (by decide) (by decide) (by decide) rfl rfl (by decide) (by decide)
  have e57 := StableHlo.end_unary (hwo0 (F := F)) hnd0 W 57 (lt0 (by decide)) (by decide) main_v42 main_v43 (broadcastInDim S1000000x1 ![0] bcast_S1000000_S1000000x1_0 : (⟨S1000000, .i32⟩ : BufTy).Contents (Elt F) → (⟨S1000000x1, .i32⟩ : BufTy).Contents (Elt F)) (by decide) (by decide) rfl rfl (by decide)
  have e56 := StableHlo.end_ternary (hwo0 (F := F)) hnd0 W 56 (lt0 (by decide)) (by decide) main_v39 main_v41 main_arg3 main_v42 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (by decide) (by decide) (by decide) (by decide) rfl rfl (by decide) (by decide) (by decide)
  have e55 := StableHlo.end_binary (hwo0 (F := F)) hnd0 W 55 (lt0 (by decide)) (by decide) main_arg3 main_v40 main_v41 (addi : (⟨S1000000, .i32⟩ : BufTy).Contents (Elt F) → (⟨S1000000, .i32⟩ : BufTy).Contents (Elt F) → (⟨S1000000, .i32⟩ : BufTy).Contents (Elt F)) (by decide) (by decide) (by decide) rfl rfl (by decide) (by decide)
  have e54 := StableHlo.end_unary (hwo0 (F := F)) hnd0 W 54 (lt0 (by decide)) (by decide) main_c_11 main_v40 (broadcastInDim S1000000 ![] bcast_S_S1000000 : (⟨S_, .i32⟩ : BufTy).Contents (Elt F) → (⟨S1000000, .i32⟩ : BufTy).Contents (Elt F)) (by decide) (by decide) rfl rfl (by decide)
  have e53 := StableHlo.end_nullary (hwo0 (F := F)) hnd0 W 53 (lt0 (by decide)) (by decide) main_c_11 _ (by decide) rfl rfl
  have e52 := StableHlo.end_binary (hwo0 (F := F)) hnd0 W 52 (lt0 (by decide)) (by decide) main_arg3 main_v38 main_v39 (cmpi .slt : (⟨S1000000, .i32⟩ : BufTy).Contents (Elt F) → (⟨S1000000, .i32⟩ : BufTy).Contents (Elt F) → (⟨S1000000, .i1⟩ : BufTy).Contents (Elt F)) (by decide) (by decide) (by decide) rfl rfl (by decide) (by decide)
  have e51 := StableHlo.end_unary (hwo0 (F := F)) hnd0 W 51 (lt0 (by decide)) (by decide) main_c_10 main_v38 (broadcastInDim S1000000 ![] bcast_S_S1000000 : (⟨S_, .i32⟩ : BufTy).Contents (Elt F) → (⟨S1000000, .i32⟩ : BufTy).Contents (Elt F)) (by decide) (by decide) rfl rfl (by decide)
  have e50 := StableHlo.end_nullary (hwo0 (F := F)) hnd0 W 50 (lt0 (by decide)) (by decide) main_c_10 _ (by decide) rfl rfl
  have e32 := StableHlo.end_unary (hwo0 (F := F)) hnd0 W 32 (lt0 (by decide)) (by decide) main_arg1 main_v23 ((truncf .bf16 · bitsLt_bf16_f32) : (⟨S20000x64, .f32⟩ : BufTy).Contents (Elt F) → (⟨S20000x64, .bf16⟩ : BufTy).Contents (Elt F)) (by decide) (by decide) rfl rfl (by decide)
  have e21 := StableHlo.end_binary (hwo0 (F := F)) hnd0 W 21 (lt0 (by decide)) (by decide) main_v13 main_v12 main_v14 (Host.divf : (⟨S100000, .f32⟩ : BufTy).Contents (Elt F) → (⟨S100000, .f32⟩ : BufTy).Contents (Elt F) → (⟨S100000, .f32⟩ : BufTy).Contents (Elt F)) (by decide) (by decide) (by decide) rfl rfl (by decide) (by decide)
  have e20 := StableHlo.end_unary (hwo0 (F := F)) hnd0 W 20 (lt0 (by decide)) (by decide) main_cst_5 main_v13 (broadcastInDim S100000 ![] bcast_S_S100000 : (⟨S_, .f32⟩ : BufTy).Contents (Elt F) → (⟨S100000, .f32⟩ : BufTy).Contents (Elt F)) (by decide) (by decide) rfl rfl (by decide)
  have e19 := StableHlo.end_nullary (hwo0 (F := F)) hnd0 W 19 (lt0 (by decide)) (by decide) main_cst_5 _ (by decide) rfl rfl
  have e18 := StableHlo.end_binary (hwo0 (F := F)) hnd0 W 18 (lt0 (by decide)) (by decide) main_v10 main_v11 main_v12 (maximumf : (⟨S100000, .f32⟩ : BufTy).Contents (Elt F) → (⟨S100000, .f32⟩ : BufTy).Contents (Elt F) → (⟨S100000, .f32⟩ : BufTy).Contents (Elt F)) (by decide) (by decide) (by decide) rfl rfl (by decide) (by decide)
  have e17 := StableHlo.end_unary (hwo0 (F := F)) hnd0 W 17 (lt0 (by decide)) (by decide) main_cst_4 main_v11 (broadcastInDim S100000 ![] bcast_S_S100000 : (⟨S_, .f32⟩ : BufTy).Contents (Elt F) → (⟨S100000, .f32⟩ : BufTy).Contents (Elt F)) (by decide) (by decide) rfl rfl (by decide)
  have e16 := StableHlo.end_nullary (hwo0 (F := F)) hnd0 W 16 (lt0 (by decide)) (by decide) main_cst_4 _ (by decide) rfl rfl
  have e15 := StableHlo.end_ternary (hwo0 (F := F)) hnd0 W 15 (lt0 (by decide)) (by decide) main_v8 main_v9 main_v0 main_v10 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) (by decide) (by decide) (by decide) (by decide) rfl rfl (by decide) (by decide) (by decide)
  have e14 := StableHlo.end_unary (hwo0 (F := F)) hnd0 W 14 (lt0 (by decide)) (by decide) main_arg2 main_v9 (broadcastInDim S1000000x1 ![0] bcast_S1000000_S1000000x1_0 : (⟨S1000000, .i32⟩ : BufTy).Contents (Elt F) → (⟨S1000000x1, .i32⟩ : BufTy).Contents (Elt F)) (by decide) (by decide) rfl rfl (by decide)
  have e13 := StableHlo.end_unary (hwo0 (F := F)) hnd0 W 13 (lt0 (by decide)) (by decide) main_cst_3 main_v8 (broadcastInDim S100000 ![] bcast_S_S100000 : (⟨S_, .f32⟩ : BufTy).Contents (Elt F) → (⟨S100000, .f32⟩ : BufTy).Contents (Elt F)) (by decide) (by decide) rfl rfl (by decide)
  have e12 := StableHlo.end_nullary (hwo0 (F := F)) hnd0 W 12 (lt0 (by decide)) (by decide) main_cst_3 _ (by decide) rfl rfl
  have e1 := StableHlo.end_unary (hwo0 (F := F)) hnd0 W 1 (lt0 (by decide)) (by decide) main_cst main_v0 (broadcastInDim S1000000 ![] bcast_S_S1000000 : (⟨S_, .f32⟩ : BufTy).Contents (Elt F) → (⟨S1000000, .f32⟩ : BufTy).Contents (Elt F)) (by decide) (by decide) rfl rfl (by decide)
  have e0 := StableHlo.end_nullary (hwo0 (F := F)) hnd0 W 0 (lt0 (by decide)) (by decide) main_cst _ (by decide) rfl rfl
  have a_main_arg2 := StableHlo.after_unwritten (hwo0 (F := F)) (b := main_arg2) (by decide) W
  have a_main_arg1 := StableHlo.after_unwritten (hwo0 (F := F)) (b := main_arg1) (by decide) W
  have a_main_arg3 := StableHlo.after_unwritten (hwo0 (F := F)) (b := main_arg3) (by decide) W
  rw [e66, e65, e64, e63, e62, e61, e60, e59, e58, e57, e56, e55, e54, e53, e52, e51, e50, e32, e21, e20, e19, e18, e17, e16, e15, e14, e13, e12, e1, e0, a_main_arg2, a_main_arg1, a_main_arg3]

theorem read_main_v51_apply (W : Valuation τ sig (Elt F)) (n : Fin 100000) (j : Fin 64) :
    (StableHlo.after (hostOps0 (F := F)) W (Proc.devRef .tc main_v51) : FVec F S100000x64 .f32) (ix2 n j)
      = FloatOps.mulf (sumToUsers (truncf .bf16 (W (Proc.devRef .tc main_arg1) : FVec F S20000x64 .f32) bitsLt_bf16_f32) (W (Proc.devRef .tc main_arg2) : IVec S1000000 32) (W (Proc.devRef .tc main_arg3) : IVec S1000000 32) (ix2 n j)) (invCountUsers (F := F) (W (Proc.devRef .tc main_arg2) : IVec S1000000 32) (ix1 n)) := by
  rw [read_main_v51]
  exact aggUsers_apply _ _ _ _ n j

/-- The left weight matrix of the first movie-side layer. -/
theorem read_main_v53 (W : Valuation τ sig (Elt F)) :
    (StableHlo.after (hostOps0 (F := F)) W (Proc.devRef .tc main_v53) : FVec F S64x64 .f32)
      = shapeCast S64x64
          (extractStridedSlice S1x64x64 ![0, 0, 0] (W (Proc.devRef .tc main_arg7) : FVec F S3x64x64 .f32) slices_S3x64x64_S1x64x64_0_0_0)
          shapeCasts_S1x64x64_S64x64 := by
  have e68 := StableHlo.end_reshape (hwo0 (F := F)) hnd0 W 68 (lt0 (by decide)) (by decide) main_v52 main_v53 rfl shapeCasts_S1x64x64_S64x64 (by decide) (by decide) rfl rfl (by decide)
  have e67 := StableHlo.end_unary (hwo0 (F := F)) hnd0 W 67 (lt0 (by decide)) (by decide) main_arg7 main_v52 ((extractStridedSlice S1x64x64 ![0, 0, 0] · slices_S3x64x64_S1x64x64_0_0_0) : (⟨S3x64x64, .f32⟩ : BufTy).Contents (Elt F) → (⟨S1x64x64, .f32⟩ : BufTy).Contents (Elt F)) (by decide) (by decide) rfl rfl (by decide)
  have a_main_arg7 := StableHlo.after_unwritten (hwo0 (F := F)) (b := main_arg7) (by decide) W
  rw [e68, e67, a_main_arg7]
  rfl

theorem read_main_v53_apply (W : Valuation τ sig (Elt F)) (k j : Fin 64) :
    (StableHlo.after (hostOps0 (F := F)) W (Proc.devRef .tc main_v53) : FVec F S64x64 .f32) (ix2 k j)
      = (W (Proc.devRef .tc main_arg7) : FVec F S3x64x64 .f32) (ix3 (0 : Fin 3) k j) := by
  rw [read_main_v53]
  exact slice_layer_matrix_apply (0 : Fin 3) _ _ _ k j

/-- The right weight matrix of the first movie-side layer. -/
theorem read_main_v57 (W : Valuation τ sig (Elt F)) :
    (StableHlo.after (hostOps0 (F := F)) W (Proc.devRef .tc main_v57) : FVec F S64x64 .f32)
      = shapeCast S64x64
          (extractStridedSlice S1x64x64 ![0, 0, 0] (W (Proc.devRef .tc main_arg9) : FVec F S3x64x64 .f32) slices_S3x64x64_S1x64x64_0_0_0)
          shapeCasts_S1x64x64_S64x64 := by
  have e72 := StableHlo.end_reshape (hwo0 (F := F)) hnd0 W 72 (lt0 (by decide)) (by decide) main_v56 main_v57 rfl shapeCasts_S1x64x64_S64x64 (by decide) (by decide) rfl rfl (by decide)
  have e71 := StableHlo.end_unary (hwo0 (F := F)) hnd0 W 71 (lt0 (by decide)) (by decide) main_arg9 main_v56 ((extractStridedSlice S1x64x64 ![0, 0, 0] · slices_S3x64x64_S1x64x64_0_0_0) : (⟨S3x64x64, .f32⟩ : BufTy).Contents (Elt F) → (⟨S1x64x64, .f32⟩ : BufTy).Contents (Elt F)) (by decide) (by decide) rfl rfl (by decide)
  have a_main_arg9 := StableHlo.after_unwritten (hwo0 (F := F)) (b := main_arg9) (by decide) W
  rw [e72, e71, a_main_arg9]
  rfl

theorem read_main_v57_apply (W : Valuation τ sig (Elt F)) (k j : Fin 64) :
    (StableHlo.after (hostOps0 (F := F)) W (Proc.devRef .tc main_v57) : FVec F S64x64 .f32) (ix2 k j)
      = (W (Proc.devRef .tc main_arg9) : FVec F S3x64x64 .f32) (ix3 (0 : Fin 3) k j) := by
  rw [read_main_v57]
  exact slice_layer_matrix_apply (0 : Fin 3) _ _ _ k j

/-- The bias of the first movie-side layer, as a row. -/
theorem read_main_v58 (W : Valuation τ sig (Elt F)) :
    (StableHlo.after (hostOps0 (F := F)) W (Proc.devRef .tc main_v58) : FVec F S1x64 .f32)
      = shapeCast S1x64
          (shapeCast S64
            (extractStridedSlice S1x64 ![0, 0] (W (Proc.devRef .tc main_arg8) : FVec F S3x64 .f32) slices_S3x64_S1x64_0_0)
            shapeCasts_S1x64_S64)
          shapeCasts_S64_S1x64 := by
  have e73 := StableHlo.end_reshape (hwo0 (F := F)) hnd0 W 73 (lt0 (by decide)) (by decide) main_v55 main_v58 rfl shapeCasts_S64_S1x64 (by decide) (by decide) rfl rfl (by decide)
  have e70 := StableHlo.end_reshape (hwo0 (F := F)) hnd0 W 70 (lt0 (by decide)) (by decide) main_v54 main_v55 rfl shapeCasts_S1x64_S64 (by decide) (by decide) rfl rfl (by decide)
  have e69 := StableHlo.end_unary (hwo0 (F := F)) hnd0 W 69 (lt0 (by decide)) (by decide) main_arg8 main_v54 ((extractStridedSlice S1x64 ![0, 0] · slices_S3x64_S1x64_0_0) : (⟨S3x64, .f32⟩ : BufTy).Contents (Elt F) → (⟨S1x64, .f32⟩ : BufTy).Contents (Elt F)) (by decide) (by decide) rfl rfl (by decide)
  have a_main_arg8 := StableHlo.after_unwritten (hwo0 (F := F)) (b := main_arg8) (by decide) W
  rw [e73, e70, e69, a_main_arg8]
  rfl

theorem read_main_v58_apply (W : Valuation τ sig (Elt F)) (u : Fin 1) (j : Fin 64) :
    (StableHlo.after (hostOps0 (F := F)) W (Proc.devRef .tc main_v58) : FVec F S1x64 .f32) (ix2 u j)
      = (W (Proc.devRef .tc main_arg8) : FVec F S3x64 .f32) (ix2 (0 : Fin 3) j) := by
  rw [read_main_v58]
  exact slice_layer_row_apply (0 : Fin 3) _ _ _ _ u j

end Cert.KernelIdeal.HostRead

end
-- ==== Proof.Ref.ReadBase.lean ====
/- The line of host operations read window by window. `preK V` is the device's buffer contents when window K
   begins, from contents `V` at the start, so the whole fold is the last window's over `pre5 V`. Each value of the
   program has a buffer of its own, written once: a buffer keeps, through every later window, what the window that
   wrote it left there — so the fold's final value at a buffer is its value right after its own window (`at_wK`), and
   at an argument, which no window writes, the starting contents (`at_arg`). -/
import proofs.«176278_j29592324669622_2_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def pre1 (V : Valuation τ sig (Elt F)) : Valuation τ sig (Elt F) := after ops_part0 V
def pre2 (V : Valuation τ sig (Elt F)) : Valuation τ sig (Elt F) := after ops_part1 (pre1 V)
def pre3 (V : Valuation τ sig (Elt F)) : Valuation τ sig (Elt F) := after ops_part2 (pre2 V)
def pre4 (V : Valuation τ sig (Elt F)) : Valuation τ sig (Elt F) := after ops_part3 (pre3 V)
def pre5 (V : Valuation τ sig (Elt F)) : Valuation τ sig (Elt F) := after ops_part4 (pre4 V)

/-- The whole line is the last window run from the contents the first five leave. -/
theorem after_ops (V : Valuation τ sig (Elt F)) : after ops V = after ops_part5 (pre5 V) := by
  show after (ops_part0 ++ (ops_part1 ++ (ops_part2 ++ (ops_part3 ++ (ops_part4 ++ ops_part5))))) V = _
  rw [StableHlo.after_append, StableHlo.after_append, StableHlo.after_append, StableHlo.after_append, StableHlo.after_append]
  rfl

theorem at_w5 (V : Valuation τ sig (Elt F)) (r : Ref sig .tc) :
    after ops V (Proc.devRef .tc r) = after ops_part5 (pre5 V) (Proc.devRef .tc r) := by rw [after_ops]

theorem at_w4 (V : Valuation τ sig (Elt F)) (r : Ref sig .tc) (h : r ∉ ops_part5_W) :
    after ops V (Proc.devRef .tc r) = after ops_part4 (pre4 V) (Proc.devRef .tc r) :=
  (at_w5 V r).trans (after_of_writes_sub ops_part5 _ ops_part5_writes h)

theorem at_w3 (V : Valuation τ sig (Elt F)) (r : Ref sig .tc) (h : r ∉ ops_part4_W ∧ r ∉ ops_part5_W) :
    after ops V (Proc.devRef .tc r) = after ops_part3 (pre3 V) (Proc.devRef .tc r) :=
  (at_w4 V r h.2).trans (after_of_writes_sub ops_part4 _ ops_part4_writes h.1)

theorem at_w2 (V : Valuation τ sig (Elt F)) (r : Ref sig .tc)
    (h : r ∉ ops_part3_W ∧ r ∉ ops_part4_W ∧ r ∉ ops_part5_W) :
    after ops V (Proc.devRef .tc r) = after ops_part2 (pre2 V) (Proc.devRef .tc r) :=
  (at_w3 V r h.2).trans (after_of_writes_sub ops_part3 _ ops_part3_writes h.1)

theorem at_w1 (V : Valuation τ sig (Elt F)) (r : Ref sig .tc)
    (h : r ∉ ops_part2_W ∧ r ∉ ops_part3_W ∧ r ∉ ops_part4_W ∧ r ∉ ops_part5_W) :
    after ops V (Proc.devRef .tc r) = after ops_part1 (pre1 V) (Proc.devRef .tc r) :=
  (at_w2 V r h.2).trans (after_of_writes_sub ops_part2 _ ops_part2_writes h.1)

theorem at_w0 (V : Valuation τ sig (Elt F)) (r : Ref sig .tc)
    (h : r ∉ ops_part1_W ∧ r ∉ ops_part2_W ∧ r ∉ ops_part3_W ∧ r ∉ ops_part4_W ∧ r ∉ ops_part5_W) :
    after ops V (Proc.devRef .tc r) = after ops_part0 V (Proc.devRef .tc r) :=
  (at_w1 V r h.2).trans (after_of_writes_sub ops_part1 _ ops_part1_writes h.1)

theorem at_arg (V : Valuation τ sig (Elt F)) (r : Ref sig .tc)
    (h : r ∉ ops_part0_W ∧ r ∉ ops_part1_W ∧ r ∉ ops_part2_W ∧ r ∉ ops_part3_W ∧ r ∉ ops_part4_W ∧ r ∉ ops_part5_W) :
    after ops V (Proc.devRef .tc r) = V (Proc.devRef .tc r) :=
  (at_w0 V r h.2).trans (after_of_writes_sub ops_part0 _ ops_part0_writes h.1)

end Cert.ReferenceIdeal.Hand

end
-- ==== Proof.Ref.Read0.lean ====
/- Window 0 of the reference read back: the value the window leaves at each of its stage buffers, as the program's own
   operations applied to the values it leaves at the earlier stage buffers and to what it started from. -/
import proofs.«176278_j29592324669622_2_alg».proof.Proof.Ref.ReadBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- `main_v6` after window 0, over what the window starts from and its own earlier stage values. -/
theorem w0_v6 (W : Valuation τ sig (Elt F)) :
    after ops_part0 W (Proc.devRef .tc main_v6) =
      (Host.gather gather_S100000x64_S100000x1_S100000x64_1_0_n_n_0_1_164 (after ops_part0 W (Proc.devRef .tc main_arg6)) (broadcastInDim S100000x1 ![0] bcast_S100000_S100000x1_0 (select (cmpi .slt (after ops_part0 W (Proc.devRef .tc main_arg0)) (broadcastInDim S100000 ![] bcast_S_S100000 (constantI S_ 32 0#32))) (addi (after ops_part0 W (Proc.devRef .tc main_arg0)) (broadcastInDim S100000 ![] bcast_S_S100000 (constantI S_ 32 100000#32))) (after ops_part0 W (Proc.devRef .tc main_arg0))))) := by
  simp only [ops_part0]
  after_results_simp
  all_goals rfl

set_option maxRecDepth 16384 in
set_option maxHeartbeats 8000000 in
/-- `main_v37` after window 0, over what the window starts from and its own earlier stage values. -/
theorem w0_v37 (W : Valuation τ sig (Elt F)) :
    after ops_part0 W (Proc.devRef .tc main_v37) =
      (addf (addf (Host.dotGeneral dot_S20000x64_S64x64_S20000x64_1_0_0_1_n_n none (Host.divf (Host.scatterAdd scatter_S20000x64_S1000000x1_S1000000x64_1_0_0_1 (broadcastInDim S20000x64 ![] bcast_S_S20000x64 (constant (F := F) S_ .f32 0x00000000#32)) (broadcastInDim S1000000x1 ![0] bcast_S1000000_S1000000x1_0 (after ops_part0 W (Proc.devRef .tc main_arg3))) (Host.gather gather_S100000x64_S1000000x1_S1000000x64_1_0_n_n_0_1_164 (after ops_part0 W (Proc.devRef .tc main_v6)) (broadcastInDim S1000000x1 ![0] bcast_S1000000_S1000000x1_0 (select (cmpi .slt (after ops_part0 W (Proc.devRef .tc main_arg2)) (broadcastInDim S1000000 ![] bcast_S_S1000000 (constantI S_ 32 0#32))) (addi (after ops_part0 W (Proc.devRef .tc main_arg2)) (broadcastInDim S1000000 ![] bcast_S_S1000000 (constantI S_ 32 100000#32))) (after ops_part0 W (Proc.devRef .tc main_arg2)))))) (broadcastInDim S20000x64 ![0, 1] bcast_S20000x1_S20000x64_0_1 (broadcastInDim S20000x1 ![0] bcast_S20000_S20000x1_0 (maximumf (Host.scatterAdd scatter_S20000_S1000000x1_S1000000_n_0_0_1 (broadcastInDim S20000 ![] bcast_S_S20000 (constant (F := F) S_ .f32 0x00000000#32)) (broadcastInDim S1000000x1 ![0] bcast_S1000000_S1000000x1_0 (after ops_part0 W (Proc.devRef .tc main_arg3))) (broadcastInDim S1000000 ![] bcast_S_S1000000 (constant (F := F) S_ .f32 0x3F800000#32))) (broadcastInDim S20000 ![] bcast_S_S20000 (constant (F := F) S_ .f32 0x3F800000#32)))))) (shapeCast S64x64 (extractStridedSlice S1x64x64 ![0, 0, 0] (after ops_part0 W (Proc.devRef .tc main_arg7)) slices_S3x64x64_S1x64x64_0_0_0) shapeCasts_S1x64x64_S64x64)) (broadcastInDim S20000x64 ![0, 1] bcast_S1x64_S20000x64_0_1 (broadcastInDim S1x64 ![1] bcast_S64_S1x64_1 (shapeCast S64 (extractStridedSlice S1x64 ![0, 0] (after ops_part0 W (Proc.devRef .tc main_arg8)) slices_S3x64_S1x64_0_0) shapeCasts_S1x64_S64)))) (Host.dotGeneral dot_S20000x64_S64x64_S20000x64_1_0_0_1_n_n none (after ops_part0 W (Proc.devRef .tc main_arg1)) (shapeCast S64x64 (extractStridedSlice S1x64x64 ![0, 0, 0] (after ops_part0 W (Proc.devRef .tc main_arg9)) slices_S3x64x64_S1x64x64_0_0_0) shapeCasts_S1x64x64_S64x64))) := by
  simp only [ops_part0]
  after_results_simp
  all_goals rfl

set_option maxRecDepth 16384 in
set_option maxHeartbeats 8000000 in
/-- `main_v39` after window 0, over what the window starts from and its own earlier stage values. -/
theorem w0_v39 (W : Valuation τ sig (Elt F)) :
    after ops_part0 W (Proc.devRef .tc main_v39) =
      (shapeCast S64x64 (extractStridedSlice S1x64x64 ![0, 0, 0] (after ops_part0 W (Proc.devRef .tc main_arg10)) slices_S3x64x64_S1x64x64_0_0_0) shapeCasts_S1x64x64_S64x64) := by
  simp only [ops_part0]
  after_results_simp
  all_goals rfl

set_option maxRecDepth 16384 in
set_option maxHeartbeats 8000000 in
/-- `main_v41` after window 0, over what the window starts from and its own earlier stage values. -/
theorem w0_v41 (W : Valuation τ sig (Elt F)) :
    after ops_part0 W (Proc.devRef .tc main_v41) =
      (shapeCast S64 (extractStridedSlice S1x64 ![0, 0] (after ops_part0 W (Proc.devRef .tc main_arg11)) slices_S3x64_S1x64_0_0) shapeCasts_S1x64_S64) := by
  simp only [ops_part0]
  after_results_simp
  all_goals rfl

set_option maxRecDepth 16384 in
set_option maxHeartbeats 8000000 in
/-- `main_v43` after window 0, over what the window starts from and its own earlier stage values. -/
theorem w0_v43 (W : Valuation τ sig (Elt F)) :
    after ops_part0 W (Proc.devRef .tc main_v43) =
      (shapeCast S64x64 (extractStridedSlice S1x64x64 ![0, 0, 0] (after ops_part0 W (Proc.devRef .tc main_arg12)) slices_S3x64x64_S1x64x64_0_0_0) shapeCasts_S1x64x64_S64x64) := by
  simp only [ops_part0]
  after_results_simp
  all_goals rfl

set_option maxRecDepth 16384 in
set_option maxHeartbeats 8000000 in
/-- `main_v49` after window 0, over what the window starts from and its own earlier stage values. -/
theorem w0_v49 (W : Valuation τ sig (Elt F)) :
    after ops_part0 W (Proc.devRef .tc main_v49) =
      (broadcastInDim S1000000x1 ![0] bcast_S1000000_S1000000x1_0 (select (cmpi .slt (after ops_part0 W (Proc.devRef .tc main_arg3)) (broadcastInDim S1000000 ![] bcast_S_S1000000 (constantI S_ 32 0#32))) (addi (after ops_part0 W (Proc.devRef .tc main_arg3)) (broadcastInDim S1000000 ![] bcast_S_S1000000 (constantI S_ 32 20000#32))) (after ops_part0 W (Proc.devRef .tc main_arg3)))) := by
  simp only [ops_part0]
  after_results_simp
  all_goals rfl

end Cert.ReferenceIdeal.Hand

end
-- ==== Proof.Ref.Read1.lean ====
/- Window 1 of the reference read back: the value the window leaves at each of its stage buffers, as the program's own
   operations applied to the values it leaves at the earlier stage buffers and to what it started from. -/
import proofs.«176278_j29592324669622_2_alg».proof.Proof.Ref.ReadBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- `main_v69` after window 1, over what the window starts from and its own earlier stage values. -/
theorem w1_v69 (W : Valuation τ sig (Elt F)) :
    after ops_part1 W (Proc.devRef .tc main_v69) =
      (maximumf (after ops_part1 W (Proc.devRef .tc main_v37)) (broadcastInDim S20000x64 ![] bcast_S_S20000x64 (constant (F := F) S_ .f32 0x00000000#32))) := by
  simp only [ops_part1]
  after_results_simp
  all_goals rfl

set_option maxRecDepth 16384 in
set_option maxHeartbeats 8000000 in
/-- `main_v70` after window 1, over what the window starts from and its own earlier stage values. -/
theorem w1_v70 (W : Valuation τ sig (Elt F)) :
    after ops_part1 W (Proc.devRef .tc main_v70) =
      (maximumf (addf (addf (Host.dotGeneral dot_S100000x64_S64x64_S100000x64_1_0_0_1_n_n none (Host.divf (Host.scatterAdd scatter_S100000x64_S1000000x1_S1000000x64_1_0_0_1 (broadcastInDim S100000x64 ![] bcast_S_S100000x64 (constant (F := F) S_ .f32 0x00000000#32)) (broadcastInDim S1000000x1 ![0] bcast_S1000000_S1000000x1_0 (after ops_part1 W (Proc.devRef .tc main_arg2))) (Host.gather gather_S20000x64_S1000000x1_S1000000x64_1_0_n_n_0_1_164 (after ops_part1 W (Proc.devRef .tc main_arg1)) (after ops_part1 W (Proc.devRef .tc main_v49)))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (after ops_part1 W (Proc.devRef .tc main_arg2))) (broadcastInDim S1000000 ![] bcast_S_S1000000 (constant (F := F) S_ .f32 0x3F800000#32))) (broadcastInDim S100000 ![] bcast_S_S100000 (constant (F := F) S_ .f32 0x3F800000#32)))))) (after ops_part1 W (Proc.devRef .tc main_v39))) (broadcastInDim S100000x64 ![0, 1] bcast_S1x64_S100000x64_0_1 (broadcastInDim S1x64 ![1] bcast_S64_S1x64_1 (after ops_part1 W (Proc.devRef .tc main_v41))))) (Host.dotGeneral dot_S100000x64_S64x64_S100000x64_1_0_0_1_n_n none (after ops_part1 W (Proc.devRef .tc main_v6)) (after ops_part1 W (Proc.devRef .tc main_v43)))) (broadcastInDim S100000x64 ![] bcast_S_S100000x64 (constant (F := F) S_ .f32 0x00000000#32))) := by
  simp only [ops_part1]
  after_results_simp
  all_goals rfl

set_option maxRecDepth 16384 in
set_option maxHeartbeats 8000000 in
/-- `main_v76` after window 1, over what the window starts from and its own earlier stage values. -/
theorem w1_v76 (W : Valuation τ sig (Elt F)) :
    after ops_part1 W (Proc.devRef .tc main_v76) =
      (shapeCast S64x64 (extractStridedSlice S1x64x64 ![1, 0, 0] (after ops_part1 W (Proc.devRef .tc main_arg9)) slices_S3x64x64_S1x64x64_1_0_0) shapeCasts_S1x64x64_S64x64) := by
  simp only [ops_part1]
  after_results_simp
  all_goals rfl

set_option maxRecDepth 16384 in
set_option maxHeartbeats 8000000 in
/-- `main_v99` after window 1, over what the window starts from and its own earlier stage values. -/
theorem w1_v99 (W : Valuation τ sig (Elt F)) :
    after ops_part1 W (Proc.devRef .tc main_v99) =
      (addf (Host.dotGeneral dot_S20000x64_S64x64_S20000x64_1_0_0_1_n_n none (Host.divf (Host.scatterAdd scatter_S20000x64_S1000000x1_S1000000x64_1_0_0_1 (broadcastInDim S20000x64 ![] bcast_S_S20000x64 (constant (F := F) S_ .f32 0x00000000#32)) (broadcastInDim S1000000x1 ![0] bcast_S1000000_S1000000x1_0 (after ops_part1 W (Proc.devRef .tc main_arg3))) (Host.gather gather_S100000x64_S1000000x1_S1000000x64_1_0_n_n_0_1_164 (after ops_part1 W (Proc.devRef .tc main_v70)) (broadcastInDim S1000000x1 ![0] bcast_S1000000_S1000000x1_0 (select (cmpi .slt (after ops_part1 W (Proc.devRef .tc main_arg2)) (broadcastInDim S1000000 ![] bcast_S_S1000000 (constantI S_ 32 0#32))) (addi (after ops_part1 W (Proc.devRef .tc main_arg2)) (broadcastInDim S1000000 ![] bcast_S_S1000000 (constantI S_ 32 100000#32))) (after ops_part1 W (Proc.devRef .tc main_arg2)))))) (broadcastInDim S20000x64 ![0, 1] bcast_S20000x1_S20000x64_0_1 (broadcastInDim S20000x1 ![0] bcast_S20000_S20000x1_0 (maximumf (Host.scatterAdd scatter_S20000_S1000000x1_S1000000_n_0_0_1 (broadcastInDim S20000 ![] bcast_S_S20000 (constant (F := F) S_ .f32 0x00000000#32)) (broadcastInDim S1000000x1 ![0] bcast_S1000000_S1000000x1_0 (after ops_part1 W (Proc.devRef .tc main_arg3))) (broadcastInDim S1000000 ![] bcast_S_S1000000 (constant (F := F) S_ .f32 0x3F800000#32))) (broadcastInDim S20000 ![] bcast_S_S20000 (constant (F := F) S_ .f32 0x3F800000#32)))))) (shapeCast S64x64 (extractStridedSlice S1x64x64 ![1, 0, 0] (after ops_part1 W (Proc.devRef .tc main_arg7)) slices_S3x64x64_S1x64x64_1_0_0) shapeCasts_S1x64x64_S64x64)) (broadcastInDim S20000x64 ![0, 1] bcast_S1x64_S20000x64_0_1 (broadcastInDim S1x64 ![1] bcast_S64_S1x64_1 (shapeCast S64 (extractStridedSlice S1x64 ![1, 0] (after ops_part1 W (Proc.devRef .tc main_arg8)) slices_S3x64_S1x64_1_0) shapeCasts_S1x64_S64)))) := by
  simp only [ops_part1]
  after_results_simp
  all_goals rfl

end Cert.ReferenceIdeal.Hand

end
-- ==== Proof.Ref.Read2.lean ====
/- Window 2 of the reference read back: the value the window leaves at each of its stage buffers, as the program's own
   operations applied to the values it leaves at the earlier stage buffers and to what it started from. -/
import proofs.«176278_j29592324669622_2_alg».proof.Proof.Ref.ReadBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- `main_v133` after window 2, over what the window starts from and its own earlier stage values. -/
theorem w2_v133 (W : Valuation τ sig (Elt F)) :
    after ops_part2 W (Proc.devRef .tc main_v133) =
      (maximumf (addf (after ops_part2 W (Proc.devRef .tc main_v99)) (Host.dotGeneral dot_S20000x64_S64x64_S20000x64_1_0_0_1_n_n none (after ops_part2 W (Proc.devRef .tc main_v69)) (after ops_part2 W (Proc.devRef .tc main_v76)))) (broadcastInDim S20000x64 ![] bcast_S_S20000x64 (constant (F := F) S_ .f32 0x00000000#32))) := by
  simp only [ops_part2]
  after_results_simp
  all_goals rfl

set_option maxRecDepth 16384 in
set_option maxHeartbeats 8000000 in
/-- `main_v134` after window 2, over what the window starts from and its own earlier stage values. -/
theorem w2_v134 (W : Valuation τ sig (Elt F)) :
    after ops_part2 W (Proc.devRef .tc main_v134) =
      (maximumf (addf (addf (Host.dotGeneral dot_S100000x64_S64x64_S100000x64_1_0_0_1_n_n none (Host.divf (Host.scatterAdd scatter_S100000x64_S1000000x1_S1000000x64_1_0_0_1 (broadcastInDim S100000x64 ![] bcast_S_S100000x64 (constant (F := F) S_ .f32 0x00000000#32)) (broadcastInDim S1000000x1 ![0] bcast_S1000000_S1000000x1_0 (after ops_part2 W (Proc.devRef .tc main_arg2))) (Host.gather gather_S20000x64_S1000000x1_S1000000x64_1_0_n_n_0_1_164 (after ops_part2 W (Proc.devRef .tc main_v69)) (broadcastInDim S1000000x1 ![0] bcast_S1000000_S1000000x1_0 (select (cmpi .slt (after ops_part2 W (Proc.devRef .tc main_arg3)) (broadcastInDim S1000000 ![] bcast_S_S1000000 (constantI S_ 32 0#32))) (addi (after ops_part2 W (Proc.devRef .tc main_arg3)) (broadcastInDim S1000000 ![] bcast_S_S1000000 (constantI S_ 32 20000#32))) (after ops_part2 W (Proc.devRef .tc main_arg3)))))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (after ops_part2 W (Proc.devRef .tc main_arg2))) (broadcastInDim S1000000 ![] bcast_S_S1000000 (constant (F := F) S_ .f32 0x3F800000#32))) (broadcastInDim S100000 ![] bcast_S_S100000 (constant (F := F) S_ .f32 0x3F800000#32)))))) (shapeCast S64x64 (extractStridedSlice S1x64x64 ![1, 0, 0] (after ops_part2 W (Proc.devRef .tc main_arg10)) slices_S3x64x64_S1x64x64_1_0_0) shapeCasts_S1x64x64_S64x64)) (broadcastInDim S100000x64 ![0, 1] bcast_S1x64_S100000x64_0_1 (broadcastInDim S1x64 ![1] bcast_S64_S1x64_1 (shapeCast S64 (extractStridedSlice S1x64 ![1, 0] (after ops_part2 W (Proc.devRef .tc main_arg11)) slices_S3x64_S1x64_1_0) shapeCasts_S1x64_S64)))) (Host.dotGeneral dot_S100000x64_S64x64_S100000x64_1_0_0_1_n_n none (after ops_part2 W (Proc.devRef .tc main_v70)) (shapeCast S64x64 (extractStridedSlice S1x64x64 ![1, 0, 0] (after ops_part2 W (Proc.devRef .tc main_arg12)) slices_S3x64x64_S1x64x64_1_0_0) shapeCasts_S1x64x64_S64x64))) (broadcastInDim S100000x64 ![] bcast_S_S100000x64 (constant (F := F) S_ .f32 0x00000000#32))) := by
  simp only [ops_part2]
  after_results_simp
  all_goals rfl

set_option maxRecDepth 16384 in
set_option maxHeartbeats 8000000 in
/-- `main_v136` after window 2, over what the window starts from and its own earlier stage values. -/
theorem w2_v136 (W : Valuation τ sig (Elt F)) :
    after ops_part2 W (Proc.devRef .tc main_v136) =
      (shapeCast S64x64 (extractStridedSlice S1x64x64 ![2, 0, 0] (after ops_part2 W (Proc.devRef .tc main_arg7)) slices_S3x64x64_S1x64x64_2_0_0) shapeCasts_S1x64x64_S64x64) := by
  simp only [ops_part2]
  after_results_simp
  all_goals rfl

set_option maxRecDepth 16384 in
set_option maxHeartbeats 8000000 in
/-- `main_v138` after window 2, over what the window starts from and its own earlier stage values. -/
theorem w2_v138 (W : Valuation τ sig (Elt F)) :
    after ops_part2 W (Proc.devRef .tc main_v138) =
      (shapeCast S64 (extractStridedSlice S1x64 ![2, 0] (after ops_part2 W (Proc.devRef .tc main_arg8)) slices_S3x64_S1x64_2_0) shapeCasts_S1x64_S64) := by
  simp only [ops_part2]
  after_results_simp
  all_goals rfl

set_option maxRecDepth 16384 in
set_option maxHeartbeats 8000000 in
/-- `main_v140` after window 2, over what the window starts from and its own earlier stage values. -/
theorem w2_v140 (W : Valuation τ sig (Elt F)) :
    after ops_part2 W (Proc.devRef .tc main_v140) =
      (shapeCast S64x64 (extractStridedSlice S1x64x64 ![2, 0, 0] (after ops_part2 W (Proc.devRef .tc main_arg9)) slices_S3x64x64_S1x64x64_2_0_0) shapeCasts_S1x64x64_S64x64) := by
  simp only [ops_part2]
  after_results_simp
  all_goals rfl

set_option maxRecDepth 16384 in
set_option maxHeartbeats 8000000 in
/-- `main_v150` after window 2, over what the window starts from and its own earlier stage values. -/
theorem w2_v150 (W : Valuation τ sig (Elt F)) :
    after ops_part2 W (Proc.devRef .tc main_v150) =
      (Host.scatterAdd scatter_S20000x64_S1000000x1_S1000000x64_1_0_0_1 (broadcastInDim S20000x64 ![] bcast_S_S20000x64 (constant (F := F) S_ .f32 0x00000000#32)) (broadcastInDim S1000000x1 ![0] bcast_S1000000_S1000000x1_0 (after ops_part2 W (Proc.devRef .tc main_arg3))) (Host.gather gather_S100000x64_S1000000x1_S1000000x64_1_0_n_n_0_1_164 (after ops_part2 W (Proc.devRef .tc main_v134)) (broadcastInDim S1000000x1 ![0] bcast_S1000000_S1000000x1_0 (select (cmpi .slt (after ops_part2 W (Proc.devRef .tc main_arg2)) (broadcastInDim S1000000 ![] bcast_S_S1000000 (constantI S_ 32 0#32))) (addi (after ops_part2 W (Proc.devRef .tc main_arg2)) (broadcastInDim S1000000 ![] bcast_S_S1000000 (constantI S_ 32 100000#32))) (after ops_part2 W (Proc.devRef .tc main_arg2)))))) := by
  simp only [ops_part2]
  after_results_simp
  all_goals rfl

end Cert.ReferenceIdeal.Hand

end
-- ==== Proof.Ref.Read3.lean ====
/- Window 3 of the reference read back: the value the window leaves at each of its stage buffers, as the program's own
   operations applied to the values it leaves at the earlier stage buffers and to what it started from. -/
import proofs.«176278_j29592324669622_2_alg».proof.Proof.Ref.ReadBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- `main_v197` after window 3, over what the window starts from and its own earlier stage values. -/
theorem w3_v197 (W : Valuation τ sig (Elt F)) :
    after ops_part3 W (Proc.devRef .tc main_v197) =
      (maximumf (addf (addf (Host.dotGeneral dot_S20000x64_S64x64_S20000x64_1_0_0_1_n_n none (Host.divf (after ops_part3 W (Proc.devRef .tc main_v150)) (broadcastInDim S20000x64 ![0, 1] bcast_S20000x1_S20000x64_0_1 (broadcastInDim S20000x1 ![0] bcast_S20000_S20000x1_0 (maximumf (Host.scatterAdd scatter_S20000_S1000000x1_S1000000_n_0_0_1 (broadcastInDim S20000 ![] bcast_S_S20000 (constant (F := F) S_ .f32 0x00000000#32)) (broadcastInDim S1000000x1 ![0] bcast_S1000000_S1000000x1_0 (after ops_part3 W (Proc.devRef .tc main_arg3))) (broadcastInDim S1000000 ![] bcast_S_S1000000 (constant (F := F) S_ .f32 0x3F800000#32))) (broadcastInDim S20000 ![] bcast_S_S20000 (constant (F := F) S_ .f32 0x3F800000#32)))))) (after ops_part3 W (Proc.devRef .tc main_v136))) (broadcastInDim S20000x64 ![0, 1] bcast_S1x64_S20000x64_0_1 (broadcastInDim S1x64 ![1] bcast_S64_S1x64_1 (after ops_part3 W (Proc.devRef .tc main_v138))))) (Host.dotGeneral dot_S20000x64_S64x64_S20000x64_1_0_0_1_n_n none (after ops_part3 W (Proc.devRef .tc main_v133)) (after ops_part3 W (Proc.devRef .tc main_v140)))) (broadcastInDim S20000x64 ![] bcast_S_S20000x64 (constant (F := F) S_ .f32 0x00000000#32))) := by
  simp only [ops_part3]
  after_results_simp
  all_goals rfl

set_option maxRecDepth 16384 in
set_option maxHeartbeats 8000000 in
/-- `main_v198` after window 3, over what the window starts from and its own earlier stage values. -/
theorem w3_v198 (W : Valuation τ sig (Elt F)) :
    after ops_part3 W (Proc.devRef .tc main_v198) =
      (maximumf (addf (addf (Host.dotGeneral dot_S100000x64_S64x64_S100000x64_1_0_0_1_n_n none (Host.divf (Host.scatterAdd scatter_S100000x64_S1000000x1_S1000000x64_1_0_0_1 (broadcastInDim S100000x64 ![] bcast_S_S100000x64 (constant (F := F) S_ .f32 0x00000000#32)) (broadcastInDim S1000000x1 ![0] bcast_S1000000_S1000000x1_0 (after ops_part3 W (Proc.devRef .tc main_arg2))) (Host.gather gather_S20000x64_S1000000x1_S1000000x64_1_0_n_n_0_1_164 (after ops_part3 W (Proc.devRef .tc main_v133)) (broadcastInDim S1000000x1 ![0] bcast_S1000000_S1000000x1_0 (select (cmpi .slt (after ops_part3 W (Proc.devRef .tc main_arg3)) (broadcastInDim S1000000 ![] bcast_S_S1000000 (constantI S_ 32 0#32))) (addi (after ops_part3 W (Proc.devRef .tc main_arg3)) (broadcastInDim S1000000 ![] bcast_S_S1000000 (constantI S_ 32 20000#32))) (after ops_part3 W (Proc.devRef .tc main_arg3)))))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (after ops_part3 W (Proc.devRef .tc main_arg2))) (broadcastInDim S1000000 ![] bcast_S_S1000000 (constant (F := F) S_ .f32 0x3F800000#32))) (broadcastInDim S100000 ![] bcast_S_S100000 (constant (F := F) S_ .f32 0x3F800000#32)))))) (shapeCast S64x64 (extractStridedSlice S1x64x64 ![2, 0, 0] (after ops_part3 W (Proc.devRef .tc main_arg10)) slices_S3x64x64_S1x64x64_2_0_0) shapeCasts_S1x64x64_S64x64)) (broadcastInDim S100000x64 ![0, 1] bcast_S1x64_S100000x64_0_1 (broadcastInDim S1x64 ![1] bcast_S64_S1x64_1 (shapeCast S64 (extractStridedSlice S1x64 ![2, 0] (after ops_part3 W (Proc.devRef .tc main_arg11)) slices_S3x64_S1x64_2_0) shapeCasts_S1x64_S64)))) (Host.dotGeneral dot_S100000x64_S64x64_S100000x64_1_0_0_1_n_n none (after ops_part3 W (Proc.devRef .tc main_v134)) (shapeCast S64x64 (extractStridedSlice S1x64x64 ![2, 0, 0] (after ops_part3 W (Proc.devRef .tc main_arg12)) slices_S3x64x64_S1x64x64_2_0_0) shapeCasts_S1x64x64_S64x64))) (broadcastInDim S100000x64 ![] bcast_S_S100000x64 (constant (F := F) S_ .f32 0x00000000#32))) := by
  simp only [ops_part3]
  after_results_simp
  all_goals rfl

set_option maxRecDepth 16384 in
set_option maxHeartbeats 8000000 in
/-- `main_v200` after window 3, over what the window starts from and its own earlier stage values. -/
theorem w3_v200 (W : Valuation τ sig (Elt F)) :
    after ops_part3 W (Proc.devRef .tc main_v200) =
      (Host.dotGeneral dot_S100000x192_S192x64_S100000x64_1_0_0_1_n_n none (concatenate S100000x192 1 [⟨S100000x64, (after ops_part3 W (Proc.devRef .tc main_v70))⟩, ⟨S100000x64, (after ops_part3 W (Proc.devRef .tc main_v134))⟩, ⟨S100000x64, (after ops_part3 W (Proc.devRef .tc main_v198))⟩] concatenates_S100000x64_S100000x64_S100000x64_S100000x192_d1) (after ops_part3 W (Proc.devRef .tc main_arg13))) := by
  simp only [ops_part3]
  after_results_simp
  all_goals rfl

set_option maxRecDepth 16384 in
set_option maxHeartbeats 8000000 in
/-- `main_v201` after window 3, over what the window starts from and its own earlier stage values. -/
theorem w3_v201 (W : Valuation τ sig (Elt F)) :
    after ops_part3 W (Proc.devRef .tc main_v201) =
      (broadcastInDim S1x64 ![1] bcast_S64_S1x64_1 (after ops_part3 W (Proc.devRef .tc main_arg14))) := by
  simp only [ops_part3]
  after_results_simp
  all_goals rfl

end Cert.ReferenceIdeal.Hand

end
-- ==== Proof.Ref.Read4.lean ====
/- Window 4 of the reference read back: the value the window leaves at each of its stage buffers, as the program's own
   operations applied to the values it leaves at the earlier stage buffers and to what it started from. -/
import proofs.«176278_j29592324669622_2_alg».proof.Proof.Ref.ReadBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- `main_v203` after window 4, over what the window starts from and its own earlier stage values. -/
theorem w4_v203 (W : Valuation τ sig (Elt F)) :
    after ops_part4 W (Proc.devRef .tc main_v203) =
      (addf (after ops_part4 W (Proc.devRef .tc main_v200)) (broadcastInDim S100000x64 ![0, 1] bcast_S1x64_S100000x64_0_1 (after ops_part4 W (Proc.devRef .tc main_v201)))) := by
  simp only [ops_part4]
  after_results_simp
  all_goals rfl

set_option maxRecDepth 16384 in
set_option maxHeartbeats 8000000 in
/-- `main_v208` after window 4, over what the window starts from and its own earlier stage values. -/
theorem w4_v208 (W : Valuation τ sig (Elt F)) :
    after ops_part4 W (Proc.devRef .tc main_v208) =
      (addf (Host.dotGeneral dot_S20000x192_S192x64_S20000x64_1_0_0_1_n_n none (concatenate S20000x192 1 [⟨S20000x64, (after ops_part4 W (Proc.devRef .tc main_v69))⟩, ⟨S20000x64, (after ops_part4 W (Proc.devRef .tc main_v133))⟩, ⟨S20000x64, (after ops_part4 W (Proc.devRef .tc main_v197))⟩] concatenates_S20000x64_S20000x64_S20000x64_S20000x192_d1) (after ops_part4 W (Proc.devRef .tc main_arg15))) (broadcastInDim S20000x64 ![0, 1] bcast_S1x64_S20000x64_0_1 (broadcastInDim S1x64 ![1] bcast_S64_S1x64_1 (after ops_part4 W (Proc.devRef .tc main_arg16))))) := by
  simp only [ops_part4]
  after_results_simp
  all_goals rfl

set_option maxRecDepth 16384 in
set_option maxHeartbeats 8000000 in
/-- `main_v227` after window 4, over what the window starts from and its own earlier stage values. -/
theorem w4_v227 (W : Valuation τ sig (Elt F)) :
    after ops_part4 W (Proc.devRef .tc main_v227) =
      (addf (Host.dotGeneral dot_S500000x128_S128x64_S500000x64_1_0_0_1_n_n none (concatenate S500000x128 1 [⟨S500000x64, (Host.gather gather_S100000x64_S500000x1_S500000x64_1_0_n_n_0_1_164 (after ops_part4 W (Proc.devRef .tc main_v203)) (broadcastInDim S500000x1 ![0] bcast_S500000_S500000x1_0 (select (cmpi .slt (after ops_part4 W (Proc.devRef .tc main_arg4)) (broadcastInDim S500000 ![] bcast_S_S500000 (constantI S_ 32 0#32))) (addi (after ops_part4 W (Proc.devRef .tc main_arg4)) (broadcastInDim S500000 ![] bcast_S_S500000 (constantI S_ 32 100000#32))) (after ops_part4 W (Proc.devRef .tc main_arg4)))))⟩, ⟨S500000x64, (Host.gather gather_S20000x64_S500000x1_S500000x64_1_0_n_n_0_1_164 (after ops_part4 W (Proc.devRef .tc main_v208)) (broadcastInDim S500000x1 ![0] bcast_S500000_S500000x1_0 (select (cmpi .slt (after ops_part4 W (Proc.devRef .tc main_arg5)) (broadcastInDim S500000 ![] bcast_S_S500000 (constantI S_ 32 0#32))) (addi (after ops_part4 W (Proc.devRef .tc main_arg5)) (broadcastInDim S500000 ![] bcast_S_S500000 (constantI S_ 32 20000#32))) (after ops_part4 W (Proc.devRef .tc main_arg5)))))⟩] concatenates_S500000x64_S500000x64_S500000x128_d1) (after ops_part4 W (Proc.devRef .tc main_arg17))) (broadcastInDim S500000x64 ![0, 1] bcast_S1x64_S500000x64_0_1 (broadcastInDim S1x64 ![1] bcast_S64_S1x64_1 (after ops_part4 W (Proc.devRef .tc main_arg18))))) := by
  simp only [ops_part4]
  after_results_simp
  all_goals rfl

set_option maxRecDepth 16384 in
set_option maxHeartbeats 8000000 in
/-- `main_v228` after window 4, over what the window starts from and its own earlier stage values. -/
theorem w4_v228 (W : Valuation τ sig (Elt F)) :
    after ops_part4 W (Proc.devRef .tc main_v228) =
      (Host.reduceAdd (after ops_part4 W (Proc.devRef .tc main_v227)) (constant (F := F) S_ .f32 0x00000000#32) reducesTo_S500000x64_S64_d0 h_S_) := by
  simp only [ops_part4]
  after_results_simp
  all_goals rfl

set_option maxRecDepth 16384 in
set_option maxHeartbeats 8000000 in
/-- `main_v230` after window 4, over what the window starts from and its own earlier stage values. -/
theorem w4_v230 (W : Valuation τ sig (Elt F)) :
    after ops_part4 W (Proc.devRef .tc main_v230) =
      (Host.divf (after ops_part4 W (Proc.devRef .tc main_v228)) (broadcastInDim S64 ![] bcast_S_S64 (constant (F := F) S_ .f32 0x48F42400#32))) := by
  simp only [ops_part4]
  after_results_simp
  all_goals rfl

set_option maxRecDepth 16384 in
set_option maxHeartbeats 8000000 in
/-- `main_v231` after window 4, over what the window starts from and its own earlier stage values. -/
theorem w4_v231 (W : Valuation τ sig (Elt F)) :
    after ops_part4 W (Proc.devRef .tc main_v231) =
      (select (broadcastInDim S64 ![] bcast_S_S64 (cmpf .ogt (subf (constant (F := F) S_ .f32 0x48F42400#32) (sitofp .f32 (constantI S_ 32 0#32))) (constant (F := F) S_ .f32 0x00000000#32))) (Host.divf (Host.reduceAdd (mulf (subf (after ops_part4 W (Proc.devRef .tc main_v227)) (broadcastInDim S500000x64 ![0, 1] bcast_S1x64_S500000x64_0_1 (Host.divf (broadcastInDim S1x64 ![1] bcast_S64_S1x64_1 (Host.reduceAdd (after ops_part4 W (Proc.devRef .tc main_v227)) (constant (F := F) S_ .f32 0x00000000#32) reducesTo_S500000x64_S64_d0 h_S_)) (broadcastInDim S1x64 ![] bcast_S_S1x64 (constant (F := F) S_ .f32 0x48F42400#32))))) (subf (after ops_part4 W (Proc.devRef .tc main_v227)) (broadcastInDim S500000x64 ![0, 1] bcast_S1x64_S500000x64_0_1 (Host.divf (broadcastInDim S1x64 ![1] bcast_S64_S1x64_1 (Host.reduceAdd (after ops_part4 W (Proc.devRef .tc main_v227)) (constant (F := F) S_ .f32 0x00000000#32) reducesTo_S500000x64_S64_d0 h_S_)) (broadcastInDim S1x64 ![] bcast_S_S1x64 (constant (F := F) S_ .f32 0x48F42400#32)))))) (constant (F := F) S_ .f32 0x00000000#32) reducesTo_S500000x64_S64_d0 h_S_) (broadcastInDim S64 ![] bcast_S_S64 (subf (constant (F := F) S_ .f32 0x48F42400#32) (sitofp .f32 (constantI S_ 32 0#32))))) (broadcastInDim S64 ![] bcast_S_S64 (constant (F := F) S_ .f32 0x7FC00000#32))) := by
  simp only [ops_part4]
  after_results_simp
  all_goals rfl

set_option maxRecDepth 16384 in
set_option maxHeartbeats 8000000 in
/-- `main_v251` after window 4, over what the window starts from and its own earlier stage values. -/
theorem w4_v251 (W : Valuation τ sig (Elt F)) :
    after ops_part4 W (Proc.devRef .tc main_v251) =
      (addf (Host.dotGeneral dot_S500000x64_S64x32_S500000x32_1_0_0_1_n_n none (maximumf (addf (mulf (mulf (broadcastInDim S500000x64 ![0, 1] bcast_S1x64_S500000x64_0_1 (broadcastInDim S1x64 ![1] bcast_S64_S1x64_1 (after ops_part4 W (Proc.devRef .tc main_arg19)))) (subf (after ops_part4 W (Proc.devRef .tc main_v227)) (broadcastInDim S500000x64 ![0, 1] bcast_S1x64_S500000x64_0_1 (broadcastInDim S1x64 ![1] bcast_S64_S1x64_1 (after ops_part4 W (Proc.devRef .tc main_v230)))))) (broadcastInDim S500000x64 ![0, 1] bcast_S1x64_S500000x64_0_1 (broadcastInDim S1x64 ![1] bcast_S64_S1x64_1 (Host.rsqrt (addf (after ops_part4 W (Proc.devRef .tc main_v231)) (broadcastInDim S64 ![] bcast_S_S64 (constant (F := F) S_ .f32 0x3727C5AC#32))))))) (broadcastInDim S500000x64 ![0, 1] bcast_S1x64_S500000x64_0_1 (broadcastInDim S1x64 ![1] bcast_S64_S1x64_1 (after ops_part4 W (Proc.devRef .tc main_arg20))))) (broadcastInDim S500000x64 ![] bcast_S_S500000x64 (constant (F := F) S_ .f32 0x00000000#32))) (after ops_part4 W (Proc.devRef .tc main_arg21))) (broadcastInDim S500000x32 ![0, 1] bcast_S1x32_S500000x32_0_1 (broadcastInDim S1x32 ![1] bcast_S32_S1x32_1 (after ops_part4 W (Proc.devRef .tc main_arg22))))) := by
  simp only [ops_part4]
  after_results_simp
  all_goals rfl

set_option maxRecDepth 16384 in
set_option maxHeartbeats 8000000 in
/-- `main_v252` after window 4, over what the window starts from and its own earlier stage values. -/
theorem w4_v252 (W : Valuation τ sig (Elt F)) :
    after ops_part4 W (Proc.devRef .tc main_v252) =
      (Host.reduceAdd (after ops_part4 W (Proc.devRef .tc main_v251)) (constant (F := F) S_ .f32 0x00000000#32) reducesTo_S500000x32_S32_d0 h_S_) := by
  simp only [ops_part4]
  after_results_simp
  all_goals rfl

end Cert.ReferenceIdeal.Hand

end
-- ==== Proof.Ref.Read5.lean ====
/- Window 5 of the reference read back: the value the window leaves at each of its stage buffers, as the program's own
   operations applied to the values it leaves at the earlier stage buffers and to what it started from. -/
import proofs.«176278_j29592324669622_2_alg».proof.Proof.Ref.ReadBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- `main_v254` after window 5, over what the window starts from and its own earlier stage values. -/
theorem w5_v254 (W : Valuation τ sig (Elt F)) :
    after ops_part5 W (Proc.devRef .tc main_v254) =
      (Host.divf (after ops_part5 W (Proc.devRef .tc main_v252)) (broadcastInDim S32 ![] bcast_S_S32 (constant (F := F) S_ .f32 0x48F42400#32))) := by
  simp only [ops_part5]
  after_results_simp
  all_goals rfl

set_option maxRecDepth 16384 in
set_option maxHeartbeats 8000000 in
/-- `main_v255` after window 5, over what the window starts from and its own earlier stage values. -/
theorem w5_v255 (W : Valuation τ sig (Elt F)) :
    after ops_part5 W (Proc.devRef .tc main_v255) =
      (select (broadcastInDim S32 ![] bcast_S_S32 (cmpf .ogt (subf (constant (F := F) S_ .f32 0x48F42400#32) (sitofp .f32 (constantI S_ 32 0#32))) (constant (F := F) S_ .f32 0x00000000#32))) (Host.divf (Host.reduceAdd (mulf (subf (after ops_part5 W (Proc.devRef .tc main_v251)) (broadcastInDim S500000x32 ![0, 1] bcast_S1x32_S500000x32_0_1 (Host.divf (broadcastInDim S1x32 ![1] bcast_S32_S1x32_1 (Host.reduceAdd (after ops_part5 W (Proc.devRef .tc main_v251)) (constant (F := F) S_ .f32 0x00000000#32) reducesTo_S500000x32_S32_d0 h_S_)) (broadcastInDim S1x32 ![] bcast_S_S1x32 (constant (F := F) S_ .f32 0x48F42400#32))))) (subf (after ops_part5 W (Proc.devRef .tc main_v251)) (broadcastInDim S500000x32 ![0, 1] bcast_S1x32_S500000x32_0_1 (Host.divf (broadcastInDim S1x32 ![1] bcast_S32_S1x32_1 (Host.reduceAdd (after ops_part5 W (Proc.devRef .tc main_v251)) (constant (F := F) S_ .f32 0x00000000#32) reducesTo_S500000x32_S32_d0 h_S_)) (broadcastInDim S1x32 ![] bcast_S_S1x32 (constant (F := F) S_ .f32 0x48F42400#32)))))) (constant (F := F) S_ .f32 0x00000000#32) reducesTo_S500000x32_S32_d0 h_S_) (broadcastInDim S32 ![] bcast_S_S32 (subf (constant (F := F) S_ .f32 0x48F42400#32) (sitofp .f32 (constantI S_ 32 0#32))))) (broadcastInDim S32 ![] bcast_S_S32 (constant (F := F) S_ .f32 0x7FC00000#32))) := by
  simp only [ops_part5]
  after_results_simp
  all_goals rfl

set_option maxRecDepth 16384 in
set_option maxHeartbeats 8000000 in
/-- `main_v276` after window 5, over what the window starts from and its own earlier stage values. -/
theorem w5_v276 (W : Valuation τ sig (Elt F)) :
    after ops_part5 W (Proc.devRef .tc main_v276) =
      (shapeCast S500000 (addf (Host.dotGeneral dot_S500000x32_S32x1_S500000x1_1_0_0_1_n_n none (maximumf (addf (mulf (mulf (broadcastInDim S500000x32 ![0, 1] bcast_S1x32_S500000x32_0_1 (broadcastInDim S1x32 ![1] bcast_S32_S1x32_1 (after ops_part5 W (Proc.devRef .tc main_arg23)))) (subf (after ops_part5 W (Proc.devRef .tc main_v251)) (broadcastInDim S500000x32 ![0, 1] bcast_S1x32_S500000x32_0_1 (broadcastInDim S1x32 ![1] bcast_S32_S1x32_1 (after ops_part5 W (Proc.devRef .tc main_v254)))))) (broadcastInDim S500000x32 ![0, 1] bcast_S1x32_S500000x32_0_1 (broadcastInDim S1x32 ![1] bcast_S32_S1x32_1 (Host.rsqrt (addf (after ops_part5 W (Proc.devRef .tc main_v255)) (broadcastInDim S32 ![] bcast_S_S32 (constant (F := F) S_ .f32 0x3727C5AC#32))))))) (broadcastInDim S500000x32 ![0, 1] bcast_S1x32_S500000x32_0_1 (broadcastInDim S1x32 ![1] bcast_S32_S1x32_1 (after ops_part5 W (Proc.devRef .tc main_arg24))))) (broadcastInDim S500000x32 ![] bcast_S_S500000x32 (constant (F := F) S_ .f32 0x00000000#32))) (after ops_part5 W (Proc.devRef .tc main_arg25))) (broadcastInDim S500000x1 ![0, 1] bcast_S1x1_S500000x1_0_1 (broadcastInDim S1x1 ![1] bcast_S1_S1x1_1 (after ops_part5 W (Proc.devRef .tc main_arg26))))) shapeCasts_S500000x1_S500000) := by
  simp only [ops_part5]
  after_results_simp
  all_goals rfl

end Cert.ReferenceIdeal.Hand

end
-- ==== Proof.Ref.Read.lean ====
/- The reference's result read stage by stage. For any starting contents `V`, the fold's final value at each stage
   buffer — the node features after each layer, the two projections, the classifier's pre-activations with their
   column sums, means and variances, the result — is the program's own operations applied to the fold's final values
   at the earlier stage buffers and to the arguments' starting contents. Gathers, scatter-adds, products and
   reductions stay as the library's operations, unopened. -/
import proofs.«176278_j29592324669622_2_alg».proof.Proof.Ref.Read0
import proofs.«176278_j29592324669622_2_alg».proof.Proof.Ref.Read1
import proofs.«176278_j29592324669622_2_alg».proof.Proof.Ref.Read2
import proofs.«176278_j29592324669622_2_alg».proof.Proof.Ref.Read3
import proofs.«176278_j29592324669622_2_alg».proof.Proof.Ref.Read4
import proofs.«176278_j29592324669622_2_alg».proof.Proof.Ref.Read5

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- x_u before the first layer: the user embedding gathered at the node ids (a negative id counted from the end). -/
theorem read_v6 (V : Valuation τ sig (Elt F)) :
    after ops V (Proc.devRef .tc main_v6) =
      (Host.gather gather_S100000x64_S100000x1_S100000x64_1_0_n_n_0_1_164 (V (Proc.devRef .tc main_arg6)) (broadcastInDim S100000x1 ![0] bcast_S100000_S100000x1_0 (select (cmpi .slt (V (Proc.devRef .tc main_arg0)) (broadcastInDim S100000 ![] bcast_S_S100000 (constantI S_ 32 0#32))) (addi (V (Proc.devRef .tc main_arg0)) (broadcastInDim S100000 ![] bcast_S_S100000 (constantI S_ 32 100000#32))) (V (Proc.devRef .tc main_arg0))))) := by
  have h := w0_v6 V
  rw [← at_w0 V main_v6 (by decide), ← at_w0 V main_arg6 (by decide), ← at_w0 V main_arg0 (by decide)] at h
  rw [at_arg V main_arg6 (by decide), at_arg V main_arg0 (by decide)] at h
  exact h

/-- The first layer's new movie features before the relu. -/
theorem read_v37 (V : Valuation τ sig (Elt F)) :
    after ops V (Proc.devRef .tc main_v37) =
      (addf (addf (Host.dotGeneral dot_S20000x64_S64x64_S20000x64_1_0_0_1_n_n none (Host.divf (Host.scatterAdd scatter_S20000x64_S1000000x1_S1000000x64_1_0_0_1 (broadcastInDim S20000x64 ![] bcast_S_S20000x64 (constant (F := F) S_ .f32 0x00000000#32)) (broadcastInDim S1000000x1 ![0] bcast_S1000000_S1000000x1_0 (V (Proc.devRef .tc main_arg3))) (Host.gather gather_S100000x64_S1000000x1_S1000000x64_1_0_n_n_0_1_164 (after ops V (Proc.devRef .tc main_v6)) (broadcastInDim S1000000x1 ![0] bcast_S1000000_S1000000x1_0 (select (cmpi .slt (V (Proc.devRef .tc main_arg2)) (broadcastInDim S1000000 ![] bcast_S_S1000000 (constantI S_ 32 0#32))) (addi (V (Proc.devRef .tc main_arg2)) (broadcastInDim S1000000 ![] bcast_S_S1000000 (constantI S_ 32 100000#32))) (V (Proc.devRef .tc main_arg2)))))) (broadcastInDim S20000x64 ![0, 1] bcast_S20000x1_S20000x64_0_1 (broadcastInDim S20000x1 ![0] bcast_S20000_S20000x1_0 (maximumf (Host.scatterAdd scatter_S20000_S1000000x1_S1000000_n_0_0_1 (broadcastInDim S20000 ![] bcast_S_S20000 (constant (F := F) S_ .f32 0x00000000#32)) (broadcastInDim S1000000x1 ![0] bcast_S1000000_S1000000x1_0 (V (Proc.devRef .tc main_arg3))) (broadcastInDim S1000000 ![] bcast_S_S1000000 (constant (F := F) S_ .f32 0x3F800000#32))) (broadcastInDim S20000 ![] bcast_S_S20000 (constant (F := F) S_ .f32 0x3F800000#32)))))) (shapeCast S64x64 (extractStridedSlice S1x64x64 ![0, 0, 0] (V (Proc.devRef .tc main_arg7)) slices_S3x64x64_S1x64x64_0_0_0) shapeCasts_S1x64x64_S64x64)) (broadcastInDim S20000x64 ![0, 1] bcast_S1x64_S20000x64_0_1 (broadcastInDim S1x64 ![1] bcast_S64_S1x64_1 (shapeCast S64 (extractStridedSlice S1x64 ![0, 0] (V (Proc.devRef .tc main_arg8)) slices_S3x64_S1x64_0_0) shapeCasts_S1x64_S64)))) (Host.dotGeneral dot_S20000x64_S64x64_S20000x64_1_0_0_1_n_n none (V (Proc.devRef .tc main_arg1)) (shapeCast S64x64 (extractStridedSlice S1x64x64 ![0, 0, 0] (V (Proc.devRef .tc main_arg9)) slices_S3x64x64_S1x64x64_0_0_0) shapeCasts_S1x64x64_S64x64))) := by
  have h := w0_v37 V
  rw [← at_w0 V main_v37 (by decide), ← at_w0 V main_arg3 (by decide), ← at_w0 V main_v6 (by decide), ← at_w0 V main_arg2 (by decide), ← at_w0 V main_arg7 (by decide), ← at_w0 V main_arg8 (by decide), ← at_w0 V main_arg1 (by decide), ← at_w0 V main_arg9 (by decide)] at h
  rw [at_arg V main_arg3 (by decide), at_arg V main_arg2 (by decide), at_arg V main_arg7 (by decide), at_arg V main_arg8 (by decide), at_arg V main_arg1 (by decide), at_arg V main_arg9 (by decide)] at h
  exact h

/-- Layer 1's neighbour weight for the users (slab 0 of the stack). -/
theorem read_v39 (V : Valuation τ sig (Elt F)) :
    after ops V (Proc.devRef .tc main_v39) =
      (shapeCast S64x64 (extractStridedSlice S1x64x64 ![0, 0, 0] (V (Proc.devRef .tc main_arg10)) slices_S3x64x64_S1x64x64_0_0_0) shapeCasts_S1x64x64_S64x64) := by
  have h := w0_v39 V
  rw [← at_w0 V main_v39 (by decide), ← at_w0 V main_arg10 (by decide)] at h
  rw [at_arg V main_arg10 (by decide)] at h
  exact h

/-- Layer 1's bias for the users. -/
theorem read_v41 (V : Valuation τ sig (Elt F)) :
    after ops V (Proc.devRef .tc main_v41) =
      (shapeCast S64 (extractStridedSlice S1x64 ![0, 0] (V (Proc.devRef .tc main_arg11)) slices_S3x64_S1x64_0_0) shapeCasts_S1x64_S64) := by
  have h := w0_v41 V
  rw [← at_w0 V main_v41 (by decide), ← at_w0 V main_arg11 (by decide)] at h
  rw [at_arg V main_arg11 (by decide)] at h
  exact h

/-- Layer 1's root weight for the users. -/
theorem read_v43 (V : Valuation τ sig (Elt F)) :
    after ops V (Proc.devRef .tc main_v43) =
      (shapeCast S64x64 (extractStridedSlice S1x64x64 ![0, 0, 0] (V (Proc.devRef .tc main_arg12)) slices_S3x64x64_S1x64x64_0_0_0) shapeCasts_S1x64x64_S64x64) := by
  have h := w0_v43 V
  rw [← at_w0 V main_v43 (by decide), ← at_w0 V main_arg12 (by decide)] at h
  rw [at_arg V main_arg12 (by decide)] at h
  exact h

/-- The movie end of each edge as a gather index. -/
theorem read_v49 (V : Valuation τ sig (Elt F)) :
    after ops V (Proc.devRef .tc main_v49) =
      (broadcastInDim S1000000x1 ![0] bcast_S1000000_S1000000x1_0 (select (cmpi .slt (V (Proc.devRef .tc main_arg3)) (broadcastInDim S1000000 ![] bcast_S_S1000000 (constantI S_ 32 0#32))) (addi (V (Proc.devRef .tc main_arg3)) (broadcastInDim S1000000 ![] bcast_S_S1000000 (constantI S_ 32 20000#32))) (V (Proc.devRef .tc main_arg3)))) := by
  have h := w0_v49 V
  rw [← at_w0 V main_v49 (by decide), ← at_w0 V main_arg3 (by decide)] at h
  rw [at_arg V main_arg3 (by decide)] at h
  exact h

/-- x_m after layer 1. -/
theorem read_v69 (V : Valuation τ sig (Elt F)) :
    after ops V (Proc.devRef .tc main_v69) =
      (maximumf (addf (addf (Host.dotGeneral dot_S20000x64_S64x64_S20000x64_1_0_0_1_n_n none (Host.divf (Host.scatterAdd scatter_S20000x64_S1000000x1_S1000000x64_1_0_0_1 (broadcastInDim S20000x64 ![] bcast_S_S20000x64 (constant (F := F) S_ .f32 0x00000000#32)) (broadcastInDim S1000000x1 ![0] bcast_S1000000_S1000000x1_0 (V (Proc.devRef .tc main_arg3))) (Host.gather gather_S100000x64_S1000000x1_S1000000x64_1_0_n_n_0_1_164 (after ops V (Proc.devRef .tc main_v6)) (broadcastInDim S1000000x1 ![0] bcast_S1000000_S1000000x1_0 (select (cmpi .slt (V (Proc.devRef .tc main_arg2)) (broadcastInDim S1000000 ![] bcast_S_S1000000 (constantI S_ 32 0#32))) (addi (V (Proc.devRef .tc main_arg2)) (broadcastInDim S1000000 ![] bcast_S_S1000000 (constantI S_ 32 100000#32))) (V (Proc.devRef .tc main_arg2)))))) (broadcastInDim S20000x64 ![0, 1] bcast_S20000x1_S20000x64_0_1 (broadcastInDim S20000x1 ![0] bcast_S20000_S20000x1_0 (maximumf (Host.scatterAdd scatter_S20000_S1000000x1_S1000000_n_0_0_1 (broadcastInDim S20000 ![] bcast_S_S20000 (constant (F := F) S_ .f32 0x00000000#32)) (broadcastInDim S1000000x1 ![0] bcast_S1000000_S1000000x1_0 (V (Proc.devRef .tc main_arg3))) (broadcastInDim S1000000 ![] bcast_S_S1000000 (constant (F := F) S_ .f32 0x3F800000#32))) (broadcastInDim S20000 ![] bcast_S_S20000 (constant (F := F) S_ .f32 0x3F800000#32)))))) (shapeCast S64x64 (extractStridedSlice S1x64x64 ![0, 0, 0] (V (Proc.devRef .tc main_arg7)) slices_S3x64x64_S1x64x64_0_0_0) shapeCasts_S1x64x64_S64x64)) (broadcastInDim S20000x64 ![0, 1] bcast_S1x64_S20000x64_0_1 (broadcastInDim S1x64 ![1] bcast_S64_S1x64_1 (shapeCast S64 (extractStridedSlice S1x64 ![0, 0] (V (Proc.devRef .tc main_arg8)) slices_S3x64_S1x64_0_0) shapeCasts_S1x64_S64)))) (Host.dotGeneral dot_S20000x64_S64x64_S20000x64_1_0_0_1_n_n none (V (Proc.devRef .tc main_arg1)) (shapeCast S64x64 (extractStridedSlice S1x64x64 ![0, 0, 0] (V (Proc.devRef .tc main_arg9)) slices_S3x64x64_S1x64x64_0_0_0) shapeCasts_S1x64x64_S64x64))) (broadcastInDim S20000x64 ![] bcast_S_S20000x64 (constant (F := F) S_ .f32 0x00000000#32))) := by
  have h := w1_v69 (pre1 V)
  rw [← at_w1 V main_v69 (by decide), ← at_w1 V main_v37 (by decide)] at h
  rw [read_v37 V] at h
  exact h

/-- x_u after layer 1: the movies' features summed into each user over the edges, divided by the edge count (at least one), through the neighbour weight, plus bias, plus the user's own features through the root weight; then the relu. -/
theorem read_v70 (V : Valuation τ sig (Elt F)) :
    after ops V (Proc.devRef .tc main_v70) =
      (maximumf (addf (addf (Host.dotGeneral dot_S100000x64_S64x64_S100000x64_1_0_0_1_n_n none (Host.divf (Host.scatterAdd scatter_S100000x64_S1000000x1_S1000000x64_1_0_0_1 (broadcastInDim S100000x64 ![] bcast_S_S100000x64 (constant (F := F) S_ .f32 0x00000000#32)) (broadcastInDim S1000000x1 ![0] bcast_S1000000_S1000000x1_0 (V (Proc.devRef .tc main_arg2))) (Host.gather gather_S20000x64_S1000000x1_S1000000x64_1_0_n_n_0_1_164 (V (Proc.devRef .tc main_arg1)) (broadcastInDim S1000000x1 ![0] bcast_S1000000_S1000000x1_0 (select (cmpi .slt (V (Proc.devRef .tc main_arg3)) (broadcastInDim S1000000 ![] bcast_S_S1000000 (constantI S_ 32 0#32))) (addi (V (Proc.devRef .tc main_arg3)) (broadcastInDim S1000000 ![] bcast_S_S1000000 (constantI S_ 32 20000#32))) (V (Proc.devRef .tc main_arg3)))))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (V (Proc.devRef .tc main_arg2))) (broadcastInDim S1000000 ![] bcast_S_S1000000 (constant (F := F) S_ .f32 0x3F800000#32))) (broadcastInDim S100000 ![] bcast_S_S100000 (constant (F := F) S_ .f32 0x3F800000#32)))))) (shapeCast S64x64 (extractStridedSlice S1x64x64 ![0, 0, 0] (V (Proc.devRef .tc main_arg10)) slices_S3x64x64_S1x64x64_0_0_0) shapeCasts_S1x64x64_S64x64)) (broadcastInDim S100000x64 ![0, 1] bcast_S1x64_S100000x64_0_1 (broadcastInDim S1x64 ![1] bcast_S64_S1x64_1 (shapeCast S64 (extractStridedSlice S1x64 ![0, 0] (V (Proc.devRef .tc main_arg11)) slices_S3x64_S1x64_0_0) shapeCasts_S1x64_S64)))) (Host.dotGeneral dot_S100000x64_S64x64_S100000x64_1_0_0_1_n_n none (after ops V (Proc.devRef .tc main_v6)) (shapeCast S64x64 (extractStridedSlice S1x64x64 ![0, 0, 0] (V (Proc.devRef .tc main_arg12)) slices_S3x64x64_S1x64x64_0_0_0) shapeCasts_S1x64x64_S64x64))) (broadcastInDim S100000x64 ![] bcast_S_S100000x64 (constant (F := F) S_ .f32 0x00000000#32))) := by
  have h := w1_v70 (pre1 V)
  rw [← at_w1 V main_v70 (by decide), ← at_w1 V main_arg2 (by decide), ← at_w1 V main_arg1 (by decide), ← at_w1 V main_v49 (by decide), ← at_w1 V main_v39 (by decide), ← at_w1 V main_v41 (by decide), ← at_w1 V main_v6 (by decide), ← at_w1 V main_v43 (by decide)] at h
  rw [at_arg V main_arg2 (by decide), at_arg V main_arg1 (by decide)] at h
  rw [read_v49 V, read_v39 V, read_v41 V, read_v43 V] at h
  exact h

/-- Layer 2's root weight for the movies. -/
theorem read_v76 (V : Valuation τ sig (Elt F)) :
    after ops V (Proc.devRef .tc main_v76) =
      (shapeCast S64x64 (extractStridedSlice S1x64x64 ![1, 0, 0] (V (Proc.devRef .tc main_arg9)) slices_S3x64x64_S1x64x64_1_0_0) shapeCasts_S1x64x64_S64x64) := by
  have h := w1_v76 (pre1 V)
  rw [← at_w1 V main_v76 (by decide), ← at_w1 V main_arg9 (by decide)] at h
  rw [at_arg V main_arg9 (by decide)] at h
  exact h

/-- Layer 2's aggregated movie term plus bias, before the root term. -/
theorem read_v99 (V : Valuation τ sig (Elt F)) :
    after ops V (Proc.devRef .tc main_v99) =
      (addf (Host.dotGeneral dot_S20000x64_S64x64_S20000x64_1_0_0_1_n_n none (Host.divf (Host.scatterAdd scatter_S20000x64_S1000000x1_S1000000x64_1_0_0_1 (broadcastInDim S20000x64 ![] bcast_S_S20000x64 (constant (F := F) S_ .f32 0x00000000#32)) (broadcastInDim S1000000x1 ![0] bcast_S1000000_S1000000x1_0 (V (Proc.devRef .tc main_arg3))) (Host.gather gather_S100000x64_S1000000x1_S1000000x64_1_0_n_n_0_1_164 (after ops V (Proc.devRef .tc main_v70)) (broadcastInDim S1000000x1 ![0] bcast_S1000000_S1000000x1_0 (select (cmpi .slt (V (Proc.devRef .tc main_arg2)) (broadcastInDim S1000000 ![] bcast_S_S1000000 (constantI S_ 32 0#32))) (addi (V (Proc.devRef .tc main_arg2)) (broadcastInDim S1000000 ![] bcast_S_S1000000 (constantI S_ 32 100000#32))) (V (Proc.devRef .tc main_arg2)))))) (broadcastInDim S20000x64 ![0, 1] bcast_S20000x1_S20000x64_0_1 (broadcastInDim S20000x1 ![0] bcast_S20000_S20000x1_0 (maximumf (Host.scatterAdd scatter_S20000_S1000000x1_S1000000_n_0_0_1 (broadcastInDim S20000 ![] bcast_S_S20000 (constant (F := F) S_ .f32 0x00000000#32)) (broadcastInDim S1000000x1 ![0] bcast_S1000000_S1000000x1_0 (V (Proc.devRef .tc main_arg3))) (broadcastInDim S1000000 ![] bcast_S_S1000000 (constant (F := F) S_ .f32 0x3F800000#32))) (broadcastInDim S20000 ![] bcast_S_S20000 (constant (F := F) S_ .f32 0x3F800000#32)))))) (shapeCast S64x64 (extractStridedSlice S1x64x64 ![1, 0, 0] (V (Proc.devRef .tc main_arg7)) slices_S3x64x64_S1x64x64_1_0_0) shapeCasts_S1x64x64_S64x64)) (broadcastInDim S20000x64 ![0, 1] bcast_S1x64_S20000x64_0_1 (broadcastInDim S1x64 ![1] bcast_S64_S1x64_1 (shapeCast S64 (extractStridedSlice S1x64 ![1, 0] (V (Proc.devRef .tc main_arg8)) slices_S3x64_S1x64_1_0) shapeCasts_S1x64_S64)))) := by
  have h := w1_v99 (pre1 V)
  rw [← at_w1 V main_v99 (by decide), ← at_w1 V main_arg3 (by decide), ← at_w1 V main_v70 (by decide), ← at_w1 V main_arg2 (by decide), ← at_w1 V main_arg7 (by decide), ← at_w1 V main_arg8 (by decide)] at h
  rw [at_arg V main_arg3 (by decide), at_arg V main_arg2 (by decide), at_arg V main_arg7 (by decide), at_arg V main_arg8 (by decide)] at h
  exact h

/-- x_m after layer 2. -/
theorem read_v133 (V : Valuation τ sig (Elt F)) :
    after ops V (Proc.devRef .tc main_v133) =
      (maximumf (addf (addf (Host.dotGeneral dot_S20000x64_S64x64_S20000x64_1_0_0_1_n_n none (Host.divf (Host.scatterAdd scatter_S20000x64_S1000000x1_S1000000x64_1_0_0_1 (broadcastInDim S20000x64 ![] bcast_S_S20000x64 (constant (F := F) S_ .f32 0x00000000#32)) (broadcastInDim S1000000x1 ![0] bcast_S1000000_S1000000x1_0 (V (Proc.devRef .tc main_arg3))) (Host.gather gather_S100000x64_S1000000x1_S1000000x64_1_0_n_n_0_1_164 (after ops V (Proc.devRef .tc main_v70)) (broadcastInDim S1000000x1 ![0] bcast_S1000000_S1000000x1_0 (select (cmpi .slt (V (Proc.devRef .tc main_arg2)) (broadcastInDim S1000000 ![] bcast_S_S1000000 (constantI S_ 32 0#32))) (addi (V (Proc.devRef .tc main_arg2)) (broadcastInDim S1000000 ![] bcast_S_S1000000 (constantI S_ 32 100000#32))) (V (Proc.devRef .tc main_arg2)))))) (broadcastInDim S20000x64 ![0, 1] bcast_S20000x1_S20000x64_0_1 (broadcastInDim S20000x1 ![0] bcast_S20000_S20000x1_0 (maximumf (Host.scatterAdd scatter_S20000_S1000000x1_S1000000_n_0_0_1 (broadcastInDim S20000 ![] bcast_S_S20000 (constant (F := F) S_ .f32 0x00000000#32)) (broadcastInDim S1000000x1 ![0] bcast_S1000000_S1000000x1_0 (V (Proc.devRef .tc main_arg3))) (broadcastInDim S1000000 ![] bcast_S_S1000000 (constant (F := F) S_ .f32 0x3F800000#32))) (broadcastInDim S20000 ![] bcast_S_S20000 (constant (F := F) S_ .f32 0x3F800000#32)))))) (shapeCast S64x64 (extractStridedSlice S1x64x64 ![1, 0, 0] (V (Proc.devRef .tc main_arg7)) slices_S3x64x64_S1x64x64_1_0_0) shapeCasts_S1x64x64_S64x64)) (broadcastInDim S20000x64 ![0, 1] bcast_S1x64_S20000x64_0_1 (broadcastInDim S1x64 ![1] bcast_S64_S1x64_1 (shapeCast S64 (extractStridedSlice S1x64 ![1, 0] (V (Proc.devRef .tc main_arg8)) slices_S3x64_S1x64_1_0) shapeCasts_S1x64_S64)))) (Host.dotGeneral dot_S20000x64_S64x64_S20000x64_1_0_0_1_n_n none (after ops V (Proc.devRef .tc main_v69)) (shapeCast S64x64 (extractStridedSlice S1x64x64 ![1, 0, 0] (V (Proc.devRef .tc main_arg9)) slices_S3x64x64_S1x64x64_1_0_0) shapeCasts_S1x64x64_S64x64))) (broadcastInDim S20000x64 ![] bcast_S_S20000x64 (constant (F := F) S_ .f32 0x00000000#32))) := by
  have h := w2_v133 (pre2 V)
  rw [← at_w2 V main_v133 (by decide), ← at_w2 V main_v99 (by decide), ← at_w2 V main_v69 (by decide), ← at_w2 V main_v76 (by decide)] at h
  rw [read_v99 V, read_v76 V] at h
  exact h

/-- x_u after layer 2. -/
theorem read_v134 (V : Valuation τ sig (Elt F)) :
    after ops V (Proc.devRef .tc main_v134) =
      (maximumf (addf (addf (Host.dotGeneral dot_S100000x64_S64x64_S100000x64_1_0_0_1_n_n none (Host.divf (Host.scatterAdd scatter_S100000x64_S1000000x1_S1000000x64_1_0_0_1 (broadcastInDim S100000x64 ![] bcast_S_S100000x64 (constant (F := F) S_ .f32 0x00000000#32)) (broadcastInDim S1000000x1 ![0] bcast_S1000000_S1000000x1_0 (V (Proc.devRef .tc main_arg2))) (Host.gather gather_S20000x64_S1000000x1_S1000000x64_1_0_n_n_0_1_164 (after ops V (Proc.devRef .tc main_v69)) (broadcastInDim S1000000x1 ![0] bcast_S1000000_S1000000x1_0 (select (cmpi .slt (V (Proc.devRef .tc main_arg3)) (broadcastInDim S1000000 ![] bcast_S_S1000000 (constantI S_ 32 0#32))) (addi (V (Proc.devRef .tc main_arg3)) (broadcastInDim S1000000 ![] bcast_S_S1000000 (constantI S_ 32 20000#32))) (V (Proc.devRef .tc main_arg3)))))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (V (Proc.devRef .tc main_arg2))) (broadcastInDim S1000000 ![] bcast_S_S1000000 (constant (F := F) S_ .f32 0x3F800000#32))) (broadcastInDim S100000 ![] bcast_S_S100000 (constant (F := F) S_ .f32 0x3F800000#32)))))) (shapeCast S64x64 (extractStridedSlice S1x64x64 ![1, 0, 0] (V (Proc.devRef .tc main_arg10)) slices_S3x64x64_S1x64x64_1_0_0) shapeCasts_S1x64x64_S64x64)) (broadcastInDim S100000x64 ![0, 1] bcast_S1x64_S100000x64_0_1 (broadcastInDim S1x64 ![1] bcast_S64_S1x64_1 (shapeCast S64 (extractStridedSlice S1x64 ![1, 0] (V (Proc.devRef .tc main_arg11)) slices_S3x64_S1x64_1_0) shapeCasts_S1x64_S64)))) (Host.dotGeneral dot_S100000x64_S64x64_S100000x64_1_0_0_1_n_n none (after ops V (Proc.devRef .tc main_v70)) (shapeCast S64x64 (extractStridedSlice S1x64x64 ![1, 0, 0] (V (Proc.devRef .tc main_arg12)) slices_S3x64x64_S1x64x64_1_0_0) shapeCasts_S1x64x64_S64x64))) (broadcastInDim S100000x64 ![] bcast_S_S100000x64 (constant (F := F) S_ .f32 0x00000000#32))) := by
  have h := w2_v134 (pre2 V)
  rw [← at_w2 V main_v134 (by decide), ← at_w2 V main_arg2 (by decide), ← at_w2 V main_v69 (by decide), ← at_w2 V main_arg3 (by decide), ← at_w2 V main_arg10 (by decide), ← at_w2 V main_arg11 (by decide), ← at_w2 V main_v70 (by decide), ← at_w2 V main_arg12 (by decide)] at h
  rw [at_arg V main_arg2 (by decide), at_arg V main_arg3 (by decide), at_arg V main_arg10 (by decide), at_arg V main_arg11 (by decide), at_arg V main_arg12 (by decide)] at h
  exact h

/-- Layer 3's neighbour weight for the movies. -/
theorem read_v136 (V : Valuation τ sig (Elt F)) :
    after ops V (Proc.devRef .tc main_v136) =
      (shapeCast S64x64 (extractStridedSlice S1x64x64 ![2, 0, 0] (V (Proc.devRef .tc main_arg7)) slices_S3x64x64_S1x64x64_2_0_0) shapeCasts_S1x64x64_S64x64) := by
  have h := w2_v136 (pre2 V)
  rw [← at_w2 V main_v136 (by decide), ← at_w2 V main_arg7 (by decide)] at h
  rw [at_arg V main_arg7 (by decide)] at h
  exact h

/-- Layer 3's bias for the movies. -/
theorem read_v138 (V : Valuation τ sig (Elt F)) :
    after ops V (Proc.devRef .tc main_v138) =
      (shapeCast S64 (extractStridedSlice S1x64 ![2, 0] (V (Proc.devRef .tc main_arg8)) slices_S3x64_S1x64_2_0) shapeCasts_S1x64_S64) := by
  have h := w2_v138 (pre2 V)
  rw [← at_w2 V main_v138 (by decide), ← at_w2 V main_arg8 (by decide)] at h
  rw [at_arg V main_arg8 (by decide)] at h
  exact h

/-- Layer 3's root weight for the movies. -/
theorem read_v140 (V : Valuation τ sig (Elt F)) :
    after ops V (Proc.devRef .tc main_v140) =
      (shapeCast S64x64 (extractStridedSlice S1x64x64 ![2, 0, 0] (V (Proc.devRef .tc main_arg9)) slices_S3x64x64_S1x64x64_2_0_0) shapeCasts_S1x64x64_S64x64) := by
  have h := w2_v140 (pre2 V)
  rw [← at_w2 V main_v140 (by decide), ← at_w2 V main_arg9 (by decide)] at h
  rw [at_arg V main_arg9 (by decide)] at h
  exact h

/-- Layer 3: the users' features summed into each movie over the edges. -/
theorem read_v150 (V : Valuation τ sig (Elt F)) :
    after ops V (Proc.devRef .tc main_v150) =
      (Host.scatterAdd scatter_S20000x64_S1000000x1_S1000000x64_1_0_0_1 (broadcastInDim S20000x64 ![] bcast_S_S20000x64 (constant (F := F) S_ .f32 0x00000000#32)) (broadcastInDim S1000000x1 ![0] bcast_S1000000_S1000000x1_0 (V (Proc.devRef .tc main_arg3))) (Host.gather gather_S100000x64_S1000000x1_S1000000x64_1_0_n_n_0_1_164 (after ops V (Proc.devRef .tc main_v134)) (broadcastInDim S1000000x1 ![0] bcast_S1000000_S1000000x1_0 (select (cmpi .slt (V (Proc.devRef .tc main_arg2)) (broadcastInDim S1000000 ![] bcast_S_S1000000 (constantI S_ 32 0#32))) (addi (V (Proc.devRef .tc main_arg2)) (broadcastInDim S1000000 ![] bcast_S_S1000000 (constantI S_ 32 100000#32))) (V (Proc.devRef .tc main_arg2)))))) := by
  have h := w2_v150 (pre2 V)
  rw [← at_w2 V main_v150 (by decide), ← at_w2 V main_arg3 (by decide), ← at_w2 V main_v134 (by decide), ← at_w2 V main_arg2 (by decide)] at h
  rw [at_arg V main_arg3 (by decide), at_arg V main_arg2 (by decide)] at h
  exact h

/-- x_m after layer 3. -/
theorem read_v197 (V : Valuation τ sig (Elt F)) :
    after ops V (Proc.devRef .tc main_v197) =
      (maximumf (addf (addf (Host.dotGeneral dot_S20000x64_S64x64_S20000x64_1_0_0_1_n_n none (Host.divf (Host.scatterAdd scatter_S20000x64_S1000000x1_S1000000x64_1_0_0_1 (broadcastInDim S20000x64 ![] bcast_S_S20000x64 (constant (F := F) S_ .f32 0x00000000#32)) (broadcastInDim S1000000x1 ![0] bcast_S1000000_S1000000x1_0 (V (Proc.devRef .tc main_arg3))) (Host.gather gather_S100000x64_S1000000x1_S1000000x64_1_0_n_n_0_1_164 (after ops V (Proc.devRef .tc main_v134)) (broadcastInDim S1000000x1 ![0] bcast_S1000000_S1000000x1_0 (select (cmpi .slt (V (Proc.devRef .tc main_arg2)) (broadcastInDim S1000000 ![] bcast_S_S1000000 (constantI S_ 32 0#32))) (addi (V (Proc.devRef .tc main_arg2)) (broadcastInDim S1000000 ![] bcast_S_S1000000 (constantI S_ 32 100000#32))) (V (Proc.devRef .tc main_arg2)))))) (broadcastInDim S20000x64 ![0, 1] bcast_S20000x1_S20000x64_0_1 (broadcastInDim S20000x1 ![0] bcast_S20000_S20000x1_0 (maximumf (Host.scatterAdd scatter_S20000_S1000000x1_S1000000_n_0_0_1 (broadcastInDim S20000 ![] bcast_S_S20000 (constant (F := F) S_ .f32 0x00000000#32)) (broadcastInDim S1000000x1 ![0] bcast_S1000000_S1000000x1_0 (V (Proc.devRef .tc main_arg3))) (broadcastInDim S1000000 ![] bcast_S_S1000000 (constant (F := F) S_ .f32 0x3F800000#32))) (broadcastInDim S20000 ![] bcast_S_S20000 (constant (F := F) S_ .f32 0x3F800000#32)))))) (shapeCast S64x64 (extractStridedSlice S1x64x64 ![2, 0, 0] (V (Proc.devRef .tc main_arg7)) slices_S3x64x64_S1x64x64_2_0_0) shapeCasts_S1x64x64_S64x64)) (broadcastInDim S20000x64 ![0, 1] bcast_S1x64_S20000x64_0_1 (broadcastInDim S1x64 ![1] bcast_S64_S1x64_1 (shapeCast S64 (extractStridedSlice S1x64 ![2, 0] (V (Proc.devRef .tc main_arg8)) slices_S3x64_S1x64_2_0) shapeCasts_S1x64_S64)))) (Host.dotGeneral dot_S20000x64_S64x64_S20000x64_1_0_0_1_n_n none (after ops V (Proc.devRef .tc main_v133)) (shapeCast S64x64 (extractStridedSlice S1x64x64 ![2, 0, 0] (V (Proc.devRef .tc main_arg9)) slices_S3x64x64_S1x64x64_2_0_0) shapeCasts_S1x64x64_S64x64))) (broadcastInDim S20000x64 ![] bcast_S_S20000x64 (constant (F := F) S_ .f32 0x00000000#32))) := by
  have h := w3_v197 (pre3 V)
  rw [← at_w3 V main_v197 (by decide), ← at_w3 V main_v150 (by decide), ← at_w3 V main_arg3 (by decide), ← at_w3 V main_v136 (by decide), ← at_w3 V main_v138 (by decide), ← at_w3 V main_v133 (by decide), ← at_w3 V main_v140 (by decide)] at h
  rw [at_arg V main_arg3 (by decide)] at h
  rw [read_v150 V, read_v136 V, read_v138 V, read_v140 V] at h
  exact h

/-- x_u after layer 3. -/
theorem read_v198 (V : Valuation τ sig (Elt F)) :
    after ops V (Proc.devRef .tc main_v198) =
      (maximumf (addf (addf (Host.dotGeneral dot_S100000x64_S64x64_S100000x64_1_0_0_1_n_n none (Host.divf (Host.scatterAdd scatter_S100000x64_S1000000x1_S1000000x64_1_0_0_1 (broadcastInDim S100000x64 ![] bcast_S_S100000x64 (constant (F := F) S_ .f32 0x00000000#32)) (broadcastInDim S1000000x1 ![0] bcast_S1000000_S1000000x1_0 (V (Proc.devRef .tc main_arg2))) (Host.gather gather_S20000x64_S1000000x1_S1000000x64_1_0_n_n_0_1_164 (after ops V (Proc.devRef .tc main_v133)) (broadcastInDim S1000000x1 ![0] bcast_S1000000_S1000000x1_0 (select (cmpi .slt (V (Proc.devRef .tc main_arg3)) (broadcastInDim S1000000 ![] bcast_S_S1000000 (constantI S_ 32 0#32))) (addi (V (Proc.devRef .tc main_arg3)) (broadcastInDim S1000000 ![] bcast_S_S1000000 (constantI S_ 32 20000#32))) (V (Proc.devRef .tc main_arg3)))))) (broadcastInDim S100000x64 ![0, 1] bcast_S100000x1_S100000x64_0_1 (broadcastInDim S100000x1 ![0] bcast_S100000_S100000x1_0 (maximumf (Host.scatterAdd scatter_S100000_S1000000x1_S1000000_n_0_0_1 (broadcastInDim S100000 ![] bcast_S_S100000 (constant (F := F) S_ .f32 0x00000000#32)) (broadcastInDim S1000000x1 ![0] bcast_S1000000_S1000000x1_0 (V (Proc.devRef .tc main_arg2))) (broadcastInDim S1000000 ![] bcast_S_S1000000 (constant (F := F) S_ .f32 0x3F800000#32))) (broadcastInDim S100000 ![] bcast_S_S100000 (constant (F := F) S_ .f32 0x3F800000#32)))))) (shapeCast S64x64 (extractStridedSlice S1x64x64 ![2, 0, 0] (V (Proc.devRef .tc main_arg10)) slices_S3x64x64_S1x64x64_2_0_0) shapeCasts_S1x64x64_S64x64)) (broadcastInDim S100000x64 ![0, 1] bcast_S1x64_S100000x64_0_1 (broadcastInDim S1x64 ![1] bcast_S64_S1x64_1 (shapeCast S64 (extractStridedSlice S1x64 ![2, 0] (V (Proc.devRef .tc main_arg11)) slices_S3x64_S1x64_2_0) shapeCasts_S1x64_S64)))) (Host.dotGeneral dot_S100000x64_S64x64_S100000x64_1_0_0_1_n_n none (after ops V (Proc.devRef .tc main_v134)) (shapeCast S64x64 (extractStridedSlice S1x64x64 ![2, 0, 0] (V (Proc.devRef .tc main_arg12)) slices_S3x64x64_S1x64x64_2_0_0) shapeCasts_S1x64x64_S64x64))) (broadcastInDim S100000x64 ![] bcast_S_S100000x64 (constant (F := F) S_ .f32 0x00000000#32))) := by
  have h := w3_v198 (pre3 V)
  rw [← at_w3 V main_v198 (by decide), ← at_w3 V main_arg2 (by decide), ← at_w3 V main_v133 (by decide), ← at_w3 V main_arg3 (by decide), ← at_w3 V main_arg10 (by decide), ← at_w3 V main_arg11 (by decide), ← at_w3 V main_v134 (by decide), ← at_w3 V main_arg12 (by decide)] at h
  rw [at_arg V main_arg2 (by decide), at_arg V main_arg3 (by decide), at_arg V main_arg10 (by decide), at_arg V main_arg11 (by decide), at_arg V main_arg12 (by decide)] at h
  exact h

/-- The three layers' user features side by side, through the users' projection weight. -/
theorem read_v200 (V : Valuation τ sig (Elt F)) :
    after ops V (Proc.devRef .tc main_v200) =
      (Host.dotGeneral dot_S100000x192_S192x64_S100000x64_1_0_0_1_n_n none (concatenate S100000x192 1 [⟨S100000x64, (after ops V (Proc.devRef .tc main_v70))⟩, ⟨S100000x64, (after ops V (Proc.devRef .tc main_v134))⟩, ⟨S100000x64, (after ops V (Proc.devRef .tc main_v198))⟩] concatenates_S100000x64_S100000x64_S100000x64_S100000x192_d1) (V (Proc.devRef .tc main_arg13))) := by
  have h := w3_v200 (pre3 V)
  rw [← at_w3 V main_v200 (by decide), ← at_w3 V main_v70 (by decide), ← at_w3 V main_v134 (by decide), ← at_w3 V main_v198 (by decide), ← at_w3 V main_arg13 (by decide)] at h
  rw [at_arg V main_arg13 (by decide)] at h
  exact h

/-- The users' projection bias as one row. -/
theorem read_v201 (V : Valuation τ sig (Elt F)) :
    after ops V (Proc.devRef .tc main_v201) =
      (broadcastInDim S1x64 ![1] bcast_S64_S1x64_1 (V (Proc.devRef .tc main_arg14))) := by
  have h := w3_v201 (pre3 V)
  rw [← at_w3 V main_v201 (by decide), ← at_w3 V main_arg14 (by decide)] at h
  rw [at_arg V main_arg14 (by decide)] at h
  exact h

/-- h_u: the users' projection. -/
theorem read_v203 (V : Valuation τ sig (Elt F)) :
    after ops V (Proc.devRef .tc main_v203) =
      (addf (after ops V (Proc.devRef .tc main_v200)) (broadcastInDim S100000x64 ![0, 1] bcast_S1x64_S100000x64_0_1 (after ops V (Proc.devRef .tc main_v201)))) := by
  have h := w4_v203 (pre4 V)
  rw [← at_w4 V main_v203 (by decide), ← at_w4 V main_v200 (by decide), ← at_w4 V main_v201 (by decide)] at h
  exact h

/-- h_m: the movies' projection. -/
theorem read_v208 (V : Valuation τ sig (Elt F)) :
    after ops V (Proc.devRef .tc main_v208) =
      (addf (Host.dotGeneral dot_S20000x192_S192x64_S20000x64_1_0_0_1_n_n none (concatenate S20000x192 1 [⟨S20000x64, (after ops V (Proc.devRef .tc main_v69))⟩, ⟨S20000x64, (after ops V (Proc.devRef .tc main_v133))⟩, ⟨S20000x64, (after ops V (Proc.devRef .tc main_v197))⟩] concatenates_S20000x64_S20000x64_S20000x64_S20000x192_d1) (V (Proc.devRef .tc main_arg15))) (broadcastInDim S20000x64 ![0, 1] bcast_S1x64_S20000x64_0_1 (broadcastInDim S1x64 ![1] bcast_S64_S1x64_1 (V (Proc.devRef .tc main_arg16))))) := by
  have h := w4_v208 (pre4 V)
  rw [← at_w4 V main_v208 (by decide), ← at_w4 V main_v69 (by decide), ← at_w4 V main_v133 (by decide), ← at_w4 V main_v197 (by decide), ← at_w4 V main_arg15 (by decide), ← at_w4 V main_arg16 (by decide)] at h
  rw [at_arg V main_arg15 (by decide), at_arg V main_arg16 (by decide)] at h
  exact h

/-- z1 before the batch norm: each labelled pair's user and movie rows side by side, through W1, plus b1. -/
theorem read_v227 (V : Valuation τ sig (Elt F)) :
    after ops V (Proc.devRef .tc main_v227) =
      (addf (Host.dotGeneral dot_S500000x128_S128x64_S500000x64_1_0_0_1_n_n none (concatenate S500000x128 1 [⟨S500000x64, (Host.gather gather_S100000x64_S500000x1_S500000x64_1_0_n_n_0_1_164 (after ops V (Proc.devRef .tc main_v203)) (broadcastInDim S500000x1 ![0] bcast_S500000_S500000x1_0 (select (cmpi .slt (V (Proc.devRef .tc main_arg4)) (broadcastInDim S500000 ![] bcast_S_S500000 (constantI S_ 32 0#32))) (addi (V (Proc.devRef .tc main_arg4)) (broadcastInDim S500000 ![] bcast_S_S500000 (constantI S_ 32 100000#32))) (V (Proc.devRef .tc main_arg4)))))⟩, ⟨S500000x64, (Host.gather gather_S20000x64_S500000x1_S500000x64_1_0_n_n_0_1_164 (after ops V (Proc.devRef .tc main_v208)) (broadcastInDim S500000x1 ![0] bcast_S500000_S500000x1_0 (select (cmpi .slt (V (Proc.devRef .tc main_arg5)) (broadcastInDim S500000 ![] bcast_S_S500000 (constantI S_ 32 0#32))) (addi (V (Proc.devRef .tc main_arg5)) (broadcastInDim S500000 ![] bcast_S_S500000 (constantI S_ 32 20000#32))) (V (Proc.devRef .tc main_arg5)))))⟩] concatenates_S500000x64_S500000x64_S500000x128_d1) (V (Proc.devRef .tc main_arg17))) (broadcastInDim S500000x64 ![0, 1] bcast_S1x64_S500000x64_0_1 (broadcastInDim S1x64 ![1] bcast_S64_S1x64_1 (V (Proc.devRef .tc main_arg18))))) := by
  have h := w4_v227 (pre4 V)
  rw [← at_w4 V main_v227 (by decide), ← at_w4 V main_v203 (by decide), ← at_w4 V main_arg4 (by decide), ← at_w4 V main_v208 (by decide), ← at_w4 V main_arg5 (by decide), ← at_w4 V main_arg17 (by decide), ← at_w4 V main_arg18 (by decide)] at h
  rw [at_arg V main_arg4 (by decide), at_arg V main_arg5 (by decide), at_arg V main_arg17 (by decide), at_arg V main_arg18 (by decide)] at h
  exact h

/-- z1's column sums. -/
theorem read_v228 (V : Valuation τ sig (Elt F)) :
    after ops V (Proc.devRef .tc main_v228) =
      (Host.reduceAdd (after ops V (Proc.devRef .tc main_v227)) (constant (F := F) S_ .f32 0x00000000#32) reducesTo_S500000x64_S64_d0 h_S_) := by
  have h := w4_v228 (pre4 V)
  rw [← at_w4 V main_v228 (by decide), ← at_w4 V main_v227 (by decide)] at h
  exact h

/-- z1's column means. -/
theorem read_v230 (V : Valuation τ sig (Elt F)) :
    after ops V (Proc.devRef .tc main_v230) =
      (Host.divf (after ops V (Proc.devRef .tc main_v228)) (broadcastInDim S64 ![] bcast_S_S64 (constant (F := F) S_ .f32 0x48F42400#32))) := by
  have h := w4_v230 (pre4 V)
  rw [← at_w4 V main_v230 (by decide), ← at_w4 V main_v228 (by decide)] at h
  exact h

/-- z1's column variances: the sum of squared deviations from the column mean over the count 500000 less zero; the guard compares that count with zero, and its other branch is a NaN literal. -/
theorem read_v231 (V : Valuation τ sig (Elt F)) :
    after ops V (Proc.devRef .tc main_v231) =
      (select (broadcastInDim S64 ![] bcast_S_S64 (cmpf .ogt (subf (constant (F := F) S_ .f32 0x48F42400#32) (sitofp .f32 (constantI S_ 32 0#32))) (constant (F := F) S_ .f32 0x00000000#32))) (Host.divf (Host.reduceAdd (mulf (subf (after ops V (Proc.devRef .tc main_v227)) (broadcastInDim S500000x64 ![0, 1] bcast_S1x64_S500000x64_0_1 (Host.divf (broadcastInDim S1x64 ![1] bcast_S64_S1x64_1 (Host.reduceAdd (after ops V (Proc.devRef .tc main_v227)) (constant (F := F) S_ .f32 0x00000000#32) reducesTo_S500000x64_S64_d0 h_S_)) (broadcastInDim S1x64 ![] bcast_S_S1x64 (constant (F := F) S_ .f32 0x48F42400#32))))) (subf (after ops V (Proc.devRef .tc main_v227)) (broadcastInDim S500000x64 ![0, 1] bcast_S1x64_S500000x64_0_1 (Host.divf (broadcastInDim S1x64 ![1] bcast_S64_S1x64_1 (Host.reduceAdd (after ops V (Proc.devRef .tc main_v227)) (constant (F := F) S_ .f32 0x00000000#32) reducesTo_S500000x64_S64_d0 h_S_)) (broadcastInDim S1x64 ![] bcast_S_S1x64 (constant (F := F) S_ .f32 0x48F42400#32)))))) (constant (F := F) S_ .f32 0x00000000#32) reducesTo_S500000x64_S64_d0 h_S_) (broadcastInDim S64 ![] bcast_S_S64 (subf (constant (F := F) S_ .f32 0x48F42400#32) (sitofp .f32 (constantI S_ 32 0#32))))) (broadcastInDim S64 ![] bcast_S_S64 (constant (F := F) S_ .f32 0x7FC00000#32))) := by
  have h := w4_v231 (pre4 V)
  rw [← at_w4 V main_v231 (by decide), ← at_w4 V main_v227 (by decide)] at h
  exact h

/-- z2 before the batch norm: z1 normalised by its column mean and variance, scaled and shifted, through the relu, through W2, plus b2. -/
theorem read_v251 (V : Valuation τ sig (Elt F)) :
    after ops V (Proc.devRef .tc main_v251) =
      (addf (Host.dotGeneral dot_S500000x64_S64x32_S500000x32_1_0_0_1_n_n none (maximumf (addf (mulf (mulf (broadcastInDim S500000x64 ![0, 1] bcast_S1x64_S500000x64_0_1 (broadcastInDim S1x64 ![1] bcast_S64_S1x64_1 (V (Proc.devRef .tc main_arg19)))) (subf (after ops V (Proc.devRef .tc main_v227)) (broadcastInDim S500000x64 ![0, 1] bcast_S1x64_S500000x64_0_1 (broadcastInDim S1x64 ![1] bcast_S64_S1x64_1 (after ops V (Proc.devRef .tc main_v230)))))) (broadcastInDim S500000x64 ![0, 1] bcast_S1x64_S500000x64_0_1 (broadcastInDim S1x64 ![1] bcast_S64_S1x64_1 (Host.rsqrt (addf (after ops V (Proc.devRef .tc main_v231)) (broadcastInDim S64 ![] bcast_S_S64 (constant (F := F) S_ .f32 0x3727C5AC#32))))))) (broadcastInDim S500000x64 ![0, 1] bcast_S1x64_S500000x64_0_1 (broadcastInDim S1x64 ![1] bcast_S64_S1x64_1 (V (Proc.devRef .tc main_arg20))))) (broadcastInDim S500000x64 ![] bcast_S_S500000x64 (constant (F := F) S_ .f32 0x00000000#32))) (V (Proc.devRef .tc main_arg21))) (broadcastInDim S500000x32 ![0, 1] bcast_S1x32_S500000x32_0_1 (broadcastInDim S1x32 ![1] bcast_S32_S1x32_1 (V (Proc.devRef .tc main_arg22))))) := by
  have h := w4_v251 (pre4 V)
  rw [← at_w4 V main_v251 (by decide), ← at_w4 V main_arg19 (by decide), ← at_w4 V main_v227 (by decide), ← at_w4 V main_v230 (by decide), ← at_w4 V main_v231 (by decide), ← at_w4 V main_arg20 (by decide), ← at_w4 V main_arg21 (by decide), ← at_w4 V main_arg22 (by decide)] at h
  rw [at_arg V main_arg19 (by decide), at_arg V main_arg20 (by decide), at_arg V main_arg21 (by decide), at_arg V main_arg22 (by decide)] at h
  exact h

/-- z2's column sums. -/
theorem read_v252 (V : Valuation τ sig (Elt F)) :
    after ops V (Proc.devRef .tc main_v252) =
      (Host.reduceAdd (after ops V (Proc.devRef .tc main_v251)) (constant (F := F) S_ .f32 0x00000000#32) reducesTo_S500000x32_S32_d0 h_S_) := by
  have h := w4_v252 (pre4 V)
  rw [← at_w4 V main_v252 (by decide), ← at_w4 V main_v251 (by decide)] at h
  exact h

/-- z2's column means. -/
theorem read_v254 (V : Valuation τ sig (Elt F)) :
    after ops V (Proc.devRef .tc main_v254) =
      (Host.divf (after ops V (Proc.devRef .tc main_v252)) (broadcastInDim S32 ![] bcast_S_S32 (constant (F := F) S_ .f32 0x48F42400#32))) := by
  have h := w5_v254 (pre5 V)
  rw [← at_w5 V main_v254, ← at_w5 V main_v252] at h
  exact h

/-- z2's column variances (same form as z1's). -/
theorem read_v255 (V : Valuation τ sig (Elt F)) :
    after ops V (Proc.devRef .tc main_v255) =
      (select (broadcastInDim S32 ![] bcast_S_S32 (cmpf .ogt (subf (constant (F := F) S_ .f32 0x48F42400#32) (sitofp .f32 (constantI S_ 32 0#32))) (constant (F := F) S_ .f32 0x00000000#32))) (Host.divf (Host.reduceAdd (mulf (subf (after ops V (Proc.devRef .tc main_v251)) (broadcastInDim S500000x32 ![0, 1] bcast_S1x32_S500000x32_0_1 (Host.divf (broadcastInDim S1x32 ![1] bcast_S32_S1x32_1 (Host.reduceAdd (after ops V (Proc.devRef .tc main_v251)) (constant (F := F) S_ .f32 0x00000000#32) reducesTo_S500000x32_S32_d0 h_S_)) (broadcastInDim S1x32 ![] bcast_S_S1x32 (constant (F := F) S_ .f32 0x48F42400#32))))) (subf (after ops V (Proc.devRef .tc main_v251)) (broadcastInDim S500000x32 ![0, 1] bcast_S1x32_S500000x32_0_1 (Host.divf (broadcastInDim S1x32 ![1] bcast_S32_S1x32_1 (Host.reduceAdd (after ops V (Proc.devRef .tc main_v251)) (constant (F := F) S_ .f32 0x00000000#32) reducesTo_S500000x32_S32_d0 h_S_)) (broadcastInDim S1x32 ![] bcast_S_S1x32 (constant (F := F) S_ .f32 0x48F42400#32)))))) (constant (F := F) S_ .f32 0x00000000#32) reducesTo_S500000x32_S32_d0 h_S_) (broadcastInDim S32 ![] bcast_S_S32 (subf (constant (F := F) S_ .f32 0x48F42400#32) (sitofp .f32 (constantI S_ 32 0#32))))) (broadcastInDim S32 ![] bcast_S_S32 (constant (F := F) S_ .f32 0x7FC00000#32))) := by
  have h := w5_v255 (pre5 V)
  rw [← at_w5 V main_v255, ← at_w5 V main_v251] at h
  exact h

/-- The result: z2 normalised, scaled and shifted, through the relu, through W3, plus b3, its one column as a vector. -/
theorem read_v276 (V : Valuation τ sig (Elt F)) :
    after ops V (Proc.devRef .tc main_v276) =
      (shapeCast S500000 (addf (Host.dotGeneral dot_S500000x32_S32x1_S500000x1_1_0_0_1_n_n none (maximumf (addf (mulf (mulf (broadcastInDim S500000x32 ![0, 1] bcast_S1x32_S500000x32_0_1 (broadcastInDim S1x32 ![1] bcast_S32_S1x32_1 (V (Proc.devRef .tc main_arg23)))) (subf (after ops V (Proc.devRef .tc main_v251)) (broadcastInDim S500000x32 ![0, 1] bcast_S1x32_S500000x32_0_1 (broadcastInDim S1x32 ![1] bcast_S32_S1x32_1 (after ops V (Proc.devRef .tc main_v254)))))) (broadcastInDim S500000x32 ![0, 1] bcast_S1x32_S500000x32_0_1 (broadcastInDim S1x32 ![1] bcast_S32_S1x32_1 (Host.rsqrt (addf (after ops V (Proc.devRef .tc main_v255)) (broadcastInDim S32 ![] bcast_S_S32 (constant (F := F) S_ .f32 0x3727C5AC#32))))))) (broadcastInDim S500000x32 ![0, 1] bcast_S1x32_S500000x32_0_1 (broadcastInDim S1x32 ![1] bcast_S32_S1x32_1 (V (Proc.devRef .tc main_arg24))))) (broadcastInDim S500000x32 ![] bcast_S_S500000x32 (constant (F := F) S_ .f32 0x00000000#32))) (V (Proc.devRef .tc main_arg25))) (broadcastInDim S500000x1 ![0, 1] bcast_S1x1_S500000x1_0_1 (broadcastInDim S1x1 ![1] bcast_S1_S1x1_1 (V (Proc.devRef .tc main_arg26))))) shapeCasts_S500000x1_S500000) := by
  have h := w5_v276 (pre5 V)
  rw [← at_w5 V main_v276, ← at_w5 V main_arg23, ← at_w5 V main_v251, ← at_w5 V main_v254, ← at_w5 V main_v255, ← at_w5 V main_arg24, ← at_w5 V main_arg25, ← at_w5 V main_arg26] at h
  rw [at_arg V main_arg23 (by decide), at_arg V main_arg24 (by decide), at_arg V main_arg25 (by decide), at_arg V main_arg26 (by decide)] at h
  exact h

end Cert.ReferenceIdeal.Hand

end
-- ==== Proof.Bridge.S0.lean ====
/- The start of the two programs: the users' rows and the movies' rows before the first layer.  The kernel program
   turns the embedding table and the movie features into half-precision rows; at the extended reals a change of float
   format is the identity, so its rows are the reference's: the embedding table gathered at the batch's node numbers
   (negative numbers wrapped around by the table's height), and the movie features themselves, the two programs'
   argument arrays being equal. -/
import proofs.«176278_j29592324669622_2_alg».proof.Proof.Bridge.Defs
import proofs.«176278_j29592324669622_2_alg».proof.Proof.KI.H0
import proofs.«176278_j29592324669622_2_alg».proof.Proof.Ref.Read

noncomputable section

namespace Cert.Bridge

open Idealize.ShloMosaic Idealize.ShloMosaic.TcCoe

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- Before the first layer the two programs hold the same users' rows and the same movies' rows. -/
theorem st_0 (hag : Agree m m' c) : KU0 m ρ c = RU0 m' c ∧ KM0 m ρ c = RM0 m' c := by
  obtain ⟨h0, h1, h2, h3, h4, h5, h6, -⟩ := hag
  constructor
  · unfold KU0 RU0
    refine (Cert.KernelIdeal.HostRead.read_main_v22 (F := Ideal) (Cert.KernelIdeal.Hand.W0 m ρ c)).trans ?_
    refine Eq.trans ?_ (Cert.ReferenceIdeal.Hand.read_v6 (F := Ideal) (fun b => m' (c, b))).symm
    have e6 : Cert.KernelIdeal.Hand.W0 (F := Ideal) m ρ c (Proc.devRef .tc Cert.KernelIdeal.main_arg6)
        = m' (c, Proc.devRef .tc Cert.ReferenceIdeal.main_arg6) := h6.symm
    have e0 : Cert.KernelIdeal.Hand.W0 (F := Ideal) m ρ c (Proc.devRef .tc Cert.KernelIdeal.main_arg0)
        = m' (c, Proc.devRef .tc Cert.ReferenceIdeal.main_arg0) := h0.symm
    rw [e6, e0]
    rfl
  · unfold KM0 RM0
    refine (Cert.KernelIdeal.HostRead.read_main_v23 (F := Ideal) (Cert.KernelIdeal.Hand.W0 m ρ c)).trans ?_
    exact h1.symm

end Cert.Bridge

end
-- ==== Proof.KI.Keep.lean ====
/- A buffer keeps its contents from the boundary after the item that wrote it to any later boundary, as long as no host
   operation in between writes it and no region in between stages it as a window: the fold's value there walks back. -/
import proofs.«176278_j29592324669622_2_alg».proof.Proof.KI.Main

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem W3_eq_W1 (c : Dev nD) (r : Ref sig .tc) (h1 : r ∉ hostOps1_W) (g0 : ∀ w, Pipeline.arrRef spec0 w ≠ r) :
    W3 m ρ c r = W1 m ρ c r :=
  calc W3 m ρ c r
    _ = W2 m ρ c r := W3_of m ρ c r h1
    _ = W1 m ρ c r := W2_of_ne m ρ c r g0

theorem W5_eq_W2 (c : Dev nD) (r : Ref sig .tc) (h2 : r ∉ hostOps2_W) (g1 : ∀ w, Pipeline.arrRef spec1 w ≠ r) (h1 : r ∉ hostOps1_W) :
    W5 m ρ c r = W2 m ρ c r :=
  calc W5 m ρ c r
    _ = W4 m ρ c r := W5_of m ρ c r h2
    _ = W3 m ρ c r := W4_of_ne m ρ c r g1
    _ = W2 m ρ c r := W3_of m ρ c r h1

theorem W15_eq_W2 (c : Dev nD) (r : Ref sig .tc) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) :
    W15 m ρ c r = W2 m ρ c r :=
  calc W15 m ρ c r
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1

theorem W4_eq_W2 (c : Dev nD) (r : Ref sig .tc) (g1 : ∀ w, Pipeline.arrRef spec1 w ≠ r) (h1 : r ∉ hostOps1_W) :
    W4 m ρ c r = W2 m ρ c r :=
  calc W4 m ρ c r
    _ = W3 m ρ c r := W4_of_ne m ρ c r g1
    _ = W2 m ρ c r := W3_of m ρ c r h1

theorem W7_eq_W4 (c : Dev nD) (r : Ref sig .tc) (h3 : r ∉ hostOps3_W) (g2 : ∀ w, Pipeline.arrRef spec2 w ≠ r) (h2 : r ∉ hostOps2_W) :
    W7 m ρ c r = W4 m ρ c r :=
  calc W7 m ρ c r
    _ = W6 m ρ c r := W7_of m ρ c r h3
    _ = W5 m ρ c r := W6_of_ne m ρ c r g2
    _ = W4 m ρ c r := W5_of m ρ c r h2

theorem W13_eq_W4 (c : Dev nD) (r : Ref sig .tc) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) :
    W13 m ρ c r = W4 m ρ c r :=
  calc W13 m ρ c r
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2

theorem W9_eq_W6 (c : Dev nD) (r : Ref sig .tc) (h4 : r ∉ hostOps4_W) (g3 : ∀ w, Pipeline.arrRef spec3 w ≠ r) (h3 : r ∉ hostOps3_W) :
    W9 m ρ c r = W6 m ρ c r :=
  calc W9 m ρ c r
    _ = W8 m ρ c r := W9_of m ρ c r h4
    _ = W7 m ρ c r := W8_of_ne m ρ c r g3
    _ = W6 m ρ c r := W7_of m ρ c r h3

theorem W15_eq_W6 (c : Dev nD) (r : Ref sig .tc) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) :
    W15 m ρ c r = W6 m ρ c r :=
  calc W15 m ρ c r
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3

theorem W8_eq_W6 (c : Dev nD) (r : Ref sig .tc) (g3 : ∀ w, Pipeline.arrRef spec3 w ≠ r) (h3 : r ∉ hostOps3_W) :
    W8 m ρ c r = W6 m ρ c r :=
  calc W8 m ρ c r
    _ = W7 m ρ c r := W8_of_ne m ρ c r g3
    _ = W6 m ρ c r := W7_of m ρ c r h3

theorem W11_eq_W8 (c : Dev nD) (r : Ref sig .tc) (h5 : r ∉ hostOps5_W) (g4 : ∀ w, Pipeline.arrRef spec4 w ≠ r) (h4 : r ∉ hostOps4_W) :
    W11 m ρ c r = W8 m ρ c r :=
  calc W11 m ρ c r
    _ = W10 m ρ c r := W11_of m ρ c r h5
    _ = W9 m ρ c r := W10_of_ne m ρ c r g4
    _ = W8 m ρ c r := W9_of m ρ c r h4

theorem W13_eq_W8 (c : Dev nD) (r : Ref sig .tc) (h6 : r ∉ hostOps6_W) (g5 : ∀ w, Pipeline.arrRef spec5 w ≠ r) (h5 : r ∉ hostOps5_W) (g4 : ∀ w, Pipeline.arrRef spec4 w ≠ r) (h4 : r ∉ hostOps4_W) :
    W13 m ρ c r = W8 m ρ c r :=
  calc W13 m ρ c r
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4

theorem W15_eq_W10 (c : Dev nD) (r : Ref sig .tc) (h7 : r ∉ hostOps7_W) (g6 : ∀ w, Pipeline.arrRef spec6 w ≠ r) (h6 : r ∉ hostOps6_W) (g5 : ∀ w, Pipeline.arrRef spec5 w ≠ r) (h5 : r ∉ hostOps5_W) :
    W15 m ρ c r = W10 m ρ c r :=
  calc W15 m ρ c r
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5

theorem W13_eq_W12 (c : Dev nD) (r : Ref sig .tc) (h6 : r ∉ hostOps6_W) :
    W13 m ρ c r = W12 m ρ c r :=
  calc W13 m ρ c r
    _ = W12 m ρ c r := W13_of m ρ c r h6

theorem W16_eq_W14 (c : Dev nD) (r : Ref sig .tc) (g7 : ∀ w, Pipeline.arrRef spec7 w ≠ r) (h7 : r ∉ hostOps7_W) :
    W16 m ρ c r = W14 m ρ c r :=
  calc W16 m ρ c r
    _ = W15 m ρ c r := W16_of_ne m ρ c r g7
    _ = W14 m ρ c r := W15_of m ρ c r h7

theorem W19_eq_W18 (c : Dev nD) (r : Ref sig .tc) (h9 : r ∉ hostOps9_W) :
    W19 m ρ c r = W18 m ρ c r :=
  calc W19 m ρ c r
    _ = W18 m ρ c r := W19_of m ρ c r h9

theorem W21_eq_W20 (c : Dev nD) (r : Ref sig .tc) (h10 : r ∉ hostOps10_W) :
    W21 m ρ c r = W20 m ρ c r :=
  calc W21 m ρ c r
    _ = W20 m ρ c r := W21_of m ρ c r h10

theorem W4_eq_W1 (c : Dev nD) (r : Ref sig .tc) (g1 : ∀ w, Pipeline.arrRef spec1 w ≠ r) (h1 : r ∉ hostOps1_W) (g0 : ∀ w, Pipeline.arrRef spec0 w ≠ r) :
    W4 m ρ c r = W1 m ρ c r :=
  calc W4 m ρ c r
    _ = W3 m ρ c r := W4_of_ne m ρ c r g1
    _ = W2 m ρ c r := W3_of m ρ c r h1
    _ = W1 m ρ c r := W2_of_ne m ρ c r g0

theorem W8_eq_W1 (c : Dev nD) (r : Ref sig .tc) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) :
    W8 m ρ c r = W1 m ρ c r :=
  calc W8 m ρ c r
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0

theorem W5_eq_W1 (c : Dev nD) (r : Ref sig .tc) (h2 : r ∉ hostOps2_W) (g1 : ∀ w, Pipeline.arrRef spec1 w ≠ r) (h1 : r ∉ hostOps1_W) (g0 : ∀ w, Pipeline.arrRef spec0 w ≠ r) :
    W5 m ρ c r = W1 m ρ c r :=
  calc W5 m ρ c r
    _ = W4 m ρ c r := W5_of m ρ c r h2
    _ = W3 m ρ c r := W4_of_ne m ρ c r g1
    _ = W2 m ρ c r := W3_of m ρ c r h1
    _ = W1 m ρ c r := W2_of_ne m ρ c r g0

theorem W9_eq_W1 (c : Dev nD) (r : Ref sig .tc) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) :
    W9 m ρ c r = W1 m ρ c r :=
  calc W9 m ρ c r
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0

theorem W1_eq_W0 (c : Dev nD) (r : Ref sig .tc) (h0 : r ∉ hostOps0_W) :
    W1 m ρ c r = W0 m ρ c r :=
  calc W1 m ρ c r
    _ = W0 m ρ c r := W1_of m ρ c r h0

theorem W2_eq_W0 (c : Dev nD) (r : Ref sig .tc) (g0 : ∀ w, Pipeline.arrRef spec0 w ≠ r) (h0 : r ∉ hostOps0_W) :
    W2 m ρ c r = W0 m ρ c r :=
  calc W2 m ρ c r
    _ = W1 m ρ c r := W2_of_ne m ρ c r g0
    _ = W0 m ρ c r := W1_of m ρ c r h0

theorem W3_eq_W0 (c : Dev nD) (r : Ref sig .tc) (h1 : r ∉ hostOps1_W) (g0 : ∀ w, Pipeline.arrRef spec0 w ≠ r) (h0 : r ∉ hostOps0_W) :
    W3 m ρ c r = W0 m ρ c r :=
  calc W3 m ρ c r
    _ = W2 m ρ c r := W3_of m ρ c r h1
    _ = W1 m ρ c r := W2_of_ne m ρ c r g0
    _ = W0 m ρ c r := W1_of m ρ c r h0

theorem W4_eq_W0 (c : Dev nD) (r : Ref sig .tc) (g1 : ∀ w, Pipeline.arrRef spec1 w ≠ r) (h1 : r ∉ hostOps1_W) (g0 : ∀ w, Pipeline.arrRef spec0 w ≠ r) (h0 : r ∉ hostOps0_W) :
    W4 m ρ c r = W0 m ρ c r :=
  calc W4 m ρ c r
    _ = W3 m ρ c r := W4_of_ne m ρ c r g1
    _ = W2 m ρ c r := W3_of m ρ c r h1
    _ = W1 m ρ c r := W2_of_ne m ρ c r g0
    _ = W0 m ρ c r := W1_of m ρ c r h0

theorem W5_eq_W0 (c : Dev nD) (r : Ref sig .tc) (h2 : r ∉ hostOps2_W) (g1 : ∀ w, Pipeline.arrRef spec1 w ≠ r) (h1 : r ∉ hostOps1_W) (g0 : ∀ w, Pipeline.arrRef spec0 w ≠ r) (h0 : r ∉ hostOps0_W) :
    W5 m ρ c r = W0 m ρ c r :=
  calc W5 m ρ c r
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W6_eq_W0 (c : Dev nD) (r : Ref sig .tc) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W6 m ρ c r = W0 m ρ c r :=
  calc W6 m ρ c r
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W7_eq_W0 (c : Dev nD) (r : Ref sig .tc) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W7 m ρ c r = W0 m ρ c r :=
  calc W7 m ρ c r
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W8_eq_W0 (c : Dev nD) (r : Ref sig .tc) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W8 m ρ c r = W0 m ρ c r :=
  calc W8 m ρ c r
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W9_eq_W0 (c : Dev nD) (r : Ref sig .tc) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W9 m ρ c r = W0 m ρ c r :=
  calc W9 m ρ c r
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W10_eq_W0 (c : Dev nD) (r : Ref sig .tc) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W10 m ρ c r = W0 m ρ c r :=
  calc W10 m ρ c r
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W11_eq_W0 (c : Dev nD) (r : Ref sig .tc) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W11 m ρ c r = W0 m ρ c r :=
  calc W11 m ρ c r
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W12_eq_W0 (c : Dev nD) (r : Ref sig .tc) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W12 m ρ c r = W0 m ρ c r :=
  calc W12 m ρ c r
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W13_eq_W0 (c : Dev nD) (r : Ref sig .tc) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W13 m ρ c r = W0 m ρ c r :=
  calc W13 m ρ c r
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W14_eq_W0 (c : Dev nD) (r : Ref sig .tc) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W14 m ρ c r = W0 m ρ c r :=
  calc W14 m ρ c r
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W15_eq_W0 (c : Dev nD) (r : Ref sig .tc) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W15 m ρ c r = W0 m ρ c r :=
  calc W15 m ρ c r
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W16_eq_W0 (c : Dev nD) (r : Ref sig .tc) (g7 : ∀ w, Pipeline.arrRef spec7 w ≠ r) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W16 m ρ c r = W0 m ρ c r :=
  calc W16 m ρ c r
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W17_eq_W0 (c : Dev nD) (r : Ref sig .tc) (h8 : r ∉ hostOps8_W) (g7 : ∀ w, Pipeline.arrRef spec7 w ≠ r) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W17 m ρ c r = W0 m ρ c r :=
  calc W17 m ρ c r
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W18_eq_W0 (c : Dev nD) (r : Ref sig .tc) (g8 : ∀ w, Pipeline.arrRef spec8 w ≠ r) (h8 : r ∉ hostOps8_W) (g7 : ∀ w, Pipeline.arrRef spec7 w ≠ r) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W18 m ρ c r = W0 m ρ c r :=
  calc W18 m ρ c r
    _ = W17 m ρ c r := W18_of_ne m ρ c r g8
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W20_eq_W0 (c : Dev nD) (r : Ref sig .tc) (g9 : ∀ w, Pipeline.arrRef spec9 w ≠ r) (h9 : r ∉ hostOps9_W) (g8 : ∀ w, Pipeline.arrRef spec8 w ≠ r) (h8 : r ∉ hostOps8_W) (g7 : ∀ w, Pipeline.arrRef spec7 w ≠ r) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W20 m ρ c r = W0 m ρ c r :=
  calc W20 m ρ c r
    _ = W19 m ρ c r := W20_of_ne m ρ c r g9
    _ = W18 m ρ c r := W19_of m ρ c r h9
    _ = W17 m ρ c r := W18_of_ne m ρ c r g8
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

theorem W22_eq_W0 (c : Dev nD) (r : Ref sig .tc) (g10 : ∀ w, Pipeline.arrRef spec10 w ≠ r) (h10 : r ∉ hostOps10_W) (g9 : ∀ w, Pipeline.arrRef spec9 w ≠ r) (h9 : r ∉ hostOps9_W) (g8 : ∀ w, Pipeline.arrRef spec8 w ≠ r) (h8 : r ∉ hostOps8_W) (g7 : ∀ w, Pipeline.arrRef spec7 w ≠ r) (h7 : r ∉ hostOps7_W) (g6 : ∀ w, Pipeline.arrRef spec6 w ≠ r) (h6 : r ∉ hostOps6_W) (g5 : ∀ w, Pipeline.arrRef spec5 w ≠ r) (h5 : r ∉ hostOps5_W) (g4 : ∀ w, Pipeline.arrRef spec4 w ≠ r) (h4 : r ∉ hostOps4_W) (g3 : ∀ w, Pipeline.arrRef spec3 w ≠ r) (h3 : r ∉ hostOps3_W) (g2 : ∀ w, Pipeline.arrRef spec2 w ≠ r) (h2 : r ∉ hostOps2_W) (g1 : ∀ w, Pipeline.arrRef spec1 w ≠ r) (h1 : r ∉ hostOps1_W) (g0 : ∀ w, Pipeline.arrRef spec0 w ≠ r) (h0 : r ∉ hostOps0_W) :
    W22 m ρ c r = W0 m ρ c r :=
  calc W22 m ρ c r
    _ = W21 m ρ c r := W22_of_ne m ρ c r g10
    _ = W20 m ρ c r := W21_of m ρ c r h10
    _ = W19 m ρ c r := W20_of_ne m ρ c r g9
    _ = W18 m ρ c r := W19_of m ρ c r h9
    _ = W17 m ρ c r := W18_of_ne m ρ c r g8
    _ = W16 m ρ c r := W17_of m ρ c r h8
    _ = W15 m ρ c r := W16_of_ne m ρ c r g7
    _ = W14 m ρ c r := W15_of m ρ c r h7
    _ = W13 m ρ c r := W14_of_ne m ρ c r g6
    _ = W12 m ρ c r := W13_of m ρ c r h6
    _ = W11 m ρ c r := W12_of_ne m ρ c r g5
    _ = W10 m ρ c r := W11_of m ρ c r h5
    _ = W9 m ρ c r := W10_of_ne m ρ c r g4
    _ = W8 m ρ c r := W9_of m ρ c r h4
    _ = W7 m ρ c r := W8_of_ne m ρ c r g3
    _ = W6 m ρ c r := W7_of m ρ c r h3
    _ = W5 m ρ c r := W6_of_ne m ρ c r g2
    _ = W4 m ρ c r := W5_of m ρ c r h2
    _ = W3 m ρ c r := W4_of_ne m ρ c r g1
    _ = W2 m ρ c r := W3_of m ρ c r h1
    _ = W1 m ρ c r := W2_of_ne m ρ c r g0
    _ = W0 m ρ c r := W1_of m ρ c r h0

end Cert.KernelIdeal.Hand

end
-- ==== Proof.KI.H1.lean ====
/-
  The host operations between the first and the second kernel launch, read as functions of the contents they start
  from: the user-side weights of the first layer.  Each of the three outputs is a slice of one layer (layer `0`) out
  of a stacked parameter, re-laid without its unit axis: the left weight matrix `[64, 64]` from `[3, 64, 64]`, the
  right one likewise, and the bias as a row `[1, 64]` from `[3, 64]`.  Read at an index, each is the stacked
  parameter at layer `0` and the same coordinates.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- The left weight matrix of the first user-side layer. -/
theorem read_main_v61 (W : Valuation τ sig (Elt F)) :
    (StableHlo.after (hostOps1 (F := F)) W (Proc.devRef .tc main_v61) : (⟨S64x64, .f32⟩ : BufTy).Contents (Elt F))
      = shapeCast S64x64
          (extractStridedSlice S1x64x64 ![0, 0, 0]
            (W (Proc.devRef .tc main_arg10) : (⟨S3x64x64, .f32⟩ : BufTy).Contents (Elt F)) slices_S3x64x64_S1x64x64_0_0_0)
          shapeCasts_S1x64x64_S64x64 := by
  dsimp only [hostOps1]; after_results; rfl

theorem read_main_v61_apply (W : Valuation τ sig (Elt F)) (k j : Fin 64) :
    (StableHlo.after (hostOps1 (F := F)) W (Proc.devRef .tc main_v61) : (⟨S64x64, .f32⟩ : BufTy).Contents (Elt F)) (ix2 k j)
      = (W (Proc.devRef .tc main_arg10) : (⟨S3x64x64, .f32⟩ : BufTy).Contents (Elt F)) (ix3 (0 : Fin 3) k j) := by
  rw [read_main_v61]
  exact slice_layer_matrix_apply (0 : Fin 3) _ _ _ k j

/-- The right weight matrix of the first user-side layer. -/
theorem read_main_v65 (W : Valuation τ sig (Elt F)) :
    (StableHlo.after (hostOps1 (F := F)) W (Proc.devRef .tc main_v65) : (⟨S64x64, .f32⟩ : BufTy).Contents (Elt F))
      = shapeCast S64x64
          (extractStridedSlice S1x64x64 ![0, 0, 0]
            (W (Proc.devRef .tc main_arg12) : (⟨S3x64x64, .f32⟩ : BufTy).Contents (Elt F)) slices_S3x64x64_S1x64x64_0_0_0)
          shapeCasts_S1x64x64_S64x64 := by
  dsimp only [hostOps1]; after_results; rfl

theorem read_main_v65_apply (W : Valuation τ sig (Elt F)) (k j : Fin 64) :
    (StableHlo.after (hostOps1 (F := F)) W (Proc.devRef .tc main_v65) : (⟨S64x64, .f32⟩ : BufTy).Contents (Elt F)) (ix2 k j)
      = (W (Proc.devRef .tc main_arg12) : (⟨S3x64x64, .f32⟩ : BufTy).Contents (Elt F)) (ix3 (0 : Fin 3) k j) := by
  rw [read_main_v65]
  exact slice_layer_matrix_apply (0 : Fin 3) _ _ _ k j

/-- The bias of the first user-side layer, as a row. -/
theorem read_main_v66 (W : Valuation τ sig (Elt F)) :
    (StableHlo.after (hostOps1 (F := F)) W (Proc.devRef .tc main_v66) : (⟨S1x64, .f32⟩ : BufTy).Contents (Elt F))
      = shapeCast S1x64
          (shapeCast S64
            (extractStridedSlice S1x64 ![0, 0]
              (W (Proc.devRef .tc main_arg11) : (⟨S3x64, .f32⟩ : BufTy).Contents (Elt F)) slices_S3x64_S1x64_0_0)
            shapeCasts_S1x64_S64)
          shapeCasts_S64_S1x64 := by
  dsimp only [hostOps1]; after_results; rfl

theorem read_main_v66_apply (W : Valuation τ sig (Elt F)) (u : Fin 1) (j : Fin 64) :
    (StableHlo.after (hostOps1 (F := F)) W (Proc.devRef .tc main_v66) : (⟨S1x64, .f32⟩ : BufTy).Contents (Elt F)) (ix2 u j)
      = (W (Proc.devRef .tc main_arg11) : (⟨S3x64, .f32⟩ : BufTy).Contents (Elt F)) (ix2 (0 : Fin 3) j) := by
  rw [read_main_v66]
  exact slice_layer_row_apply (0 : Fin 3) _ _ _ _ u j

end Cert.KernelIdeal.HostRead

end
-- ==== Proof.KI.Terms2.lean ====
/-
  The reciprocal clamped counts read at a node: one over the maximum of one and the node's count, the count being the
  accumulating scatter of ones along the edges into zeros.
-/
import proofs.«176278_j29592324669622_2_alg».proof.Proof.KI.Terms

noncomputable section

namespace Cert.KernelIdeal.HostRead

open Idealize.ShloMosaic Idealize.ShloMosaic.TcCoe Idealize.ShloMosaic.ValueIdx Cert.KernelIdeal.Gen

variable {F : FTy → Type} [FloatOps F]

/-- The number of edges landing on each movie. -/
abbrev countMovies (em : IVec S1000000 32) : FVec F S20000 .f32 :=
  Host.scatterAdd scatter_S20000_S1000000x1_S1000000_n_0_0_1
    (broadcastInDim S20000 ![] bcast_S_S20000 (constant S_ .f32 0x00000000#32)) (edgeCol em)
    (broadcastInDim S1000000 ![] bcast_S_S1000000 (constant S_ .f32 0x3F800000#32))

/-- The number of edges landing on each user. -/
abbrev countUsers (eu : IVec S1000000 32) : FVec F S100000 .f32 :=
  Host.scatterAdd scatter_S100000_S1000000x1_S1000000_n_0_0_1
    (broadcastInDim S100000 ![] bcast_S_S100000 (constant S_ .f32 0x00000000#32)) (edgeCol eu)
    (broadcastInDim S1000000 ![] bcast_S_S1000000 (constant S_ .f32 0x3F800000#32))

/-- The movies' reciprocal clamped count at movie `n`. -/
theorem invCountMovies_apply (em : IVec S1000000 32) (n : Fin 20000) :
    invCountMovies (F := F) em (ix1 n)
      = FloatOps.hostDivf (FloatOps.ofBits .f32 0x3F800000#32)
          (FloatOps.maximumf (countMovies (F := F) em (ix1 n)) (FloatOps.ofBits .f32 0x3F800000#32)) := by
  show FloatOps.hostDivf
      (broadcastInDim S20000 ![] bcast_S_S20000 (constant (F := F) S_ .f32 0x3F800000#32) (ix1 n))
      (FloatOps.maximumf (countMovies (F := F) em (ix1 n))
        (broadcastInDim S20000 ![] bcast_S_S20000 (constant (F := F) S_ .f32 0x3F800000#32) (ix1 n))) = _
  rw [BroadcastReads.scalar_apply]
  rfl

/-- The users' reciprocal clamped count at user `n`. -/
theorem invCountUsers_apply (eu : IVec S1000000 32) (n : Fin 100000) :
    invCountUsers (F := F) eu (ix1 n)
      = FloatOps.hostDivf (FloatOps.ofBits .f32 0x3F800000#32)
          (FloatOps.maximumf (countUsers (F := F) eu (ix1 n)) (FloatOps.ofBits .f32 0x3F800000#32)) := by
  show FloatOps.hostDivf
      (broadcastInDim S100000 ![] bcast_S_S100000 (constant (F := F) S_ .f32 0x3F800000#32) (ix1 n))
      (FloatOps.maximumf (countUsers (F := F) eu (ix1 n))
        (broadcastInDim S100000 ![] bcast_S_S100000 (constant (F := F) S_ .f32 0x3F800000#32) (ix1 n))) = _
  rw [BroadcastReads.scalar_apply]
  rfl

/-- A broadcast of a scalar constant reads the constant's value everywhere. -/
theorem bcast_const_apply {t : Shape} (h : S_.BroadcastsInDim t (![] : Fin 0 → Fin t.rank)) (b : BitVec 32) (i : t.Idx) :
    broadcastInDim t ![] h (constant (F := F) S_ .f32 b) i = FloatOps.ofBits .f32 b := by
  rw [BroadcastReads.scalar_apply]
  rfl

end Cert.KernelIdeal.HostRead

end
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.Math.KernelForms.lean ====
/-
  The three row-wise stages of the network as functions of whole arrays of extended reals, entry by entry.

  * A SAGE linear layer: row `n` of the output is the row of neighbour aggregates times one 64×64 weight, plus the
    row of destination features times another, plus the bias row, clamped below at zero.
  * The projection of the three layers' features: row `n` is the sum of the three layers' rows, each times its own
    64×64 weight, plus the bias row.
  * The last stage of the edge classifier: each entry of row `n` is normalised with its column's batch mean and
    variance (scale times the centred entry times the reciprocal square root of variance plus a small constant, plus
    shift) and clamped below at zero; the row then meets the 32×1 weight, and the 1×1 bias is added.

  Every sum is the plain finite sum over the contracted axis, in the extended reals; the constants are the float words
  of the zero and of the small constant, read as extended reals. The number of rows is a parameter: the same form is
  used on arrays of different heights.
-/
import Idealize.ShloMosaic.Lib.ValueIdx
import Idealize.ShloMosaic.PureOps.Ideal.Laws

noncomputable section

namespace Cert.Bridge

open Idealize.ShloMosaic Idealize.ShloMosaic.ValueIdx

/-- A SAGE linear layer on `R` rows: `max (agg · Wl + x · Wr + b) 0`, entry by entry. -/
def sageForm {R : Nat} (agg x : (⟨2, ![R, 64]⟩ : Shape).Idx → EReal) (Wl : (⟨2, ![64, 64]⟩ : Shape).Idx → EReal)
    (b : (⟨2, ![1, 64]⟩ : Shape).Idx → EReal) (Wr : (⟨2, ![64, 64]⟩ : Shape).Idx → EReal) :
    (⟨2, ![R, 64]⟩ : Shape).Idx → EReal := fun i =>
  max (((∑ k : Fin 64, agg (ix2 (i 0) k) * Wl (ix2 k (i 1))) + (∑ k : Fin 64, x (ix2 (i 0) k) * Wr (ix2 k (i 1))))
      + b (ix2 (0 : Fin 1) (i 1)))
    (Ideal.ofBits .f32 0x00000000#32)

theorem sageForm_ix2 {R : Nat} (agg x : (⟨2, ![R, 64]⟩ : Shape).Idx → EReal) (Wl : (⟨2, ![64, 64]⟩ : Shape).Idx → EReal)
    (b : (⟨2, ![1, 64]⟩ : Shape).Idx → EReal) (Wr : (⟨2, ![64, 64]⟩ : Shape).Idx → EReal) (n : Fin R) (j : Fin 64) :
    sageForm agg x Wl b Wr (ix2 n j)
      = max (((∑ k : Fin 64, agg (ix2 n k) * Wl (ix2 k j)) + (∑ k : Fin 64, x (ix2 n k) * Wr (ix2 k j)))
          + b (ix2 (0 : Fin 1) j))
        (Ideal.ofBits .f32 0x00000000#32) := rfl

/-- The projection of three feature arrays on `R` rows: `h₁ · W₁ + h₂ · W₂ + h₃ · W₃ + b`, entry by entry. -/
def projForm {R : Nat} (h1 h2 h3 : (⟨2, ![R, 64]⟩ : Shape).Idx → EReal) (W1 W2 W3 : (⟨2, ![64, 64]⟩ : Shape).Idx → EReal)
    (b : (⟨2, ![1, 64]⟩ : Shape).Idx → EReal) : (⟨2, ![R, 64]⟩ : Shape).Idx → EReal := fun i =>
  (((∑ k : Fin 64, h1 (ix2 (i 0) k) * W1 (ix2 k (i 1))) + (∑ k : Fin 64, h2 (ix2 (i 0) k) * W2 (ix2 k (i 1))))
      + (∑ k : Fin 64, h3 (ix2 (i 0) k) * W3 (ix2 k (i 1))))
    + b (ix2 (0 : Fin 1) (i 1))

theorem projForm_ix2 {R : Nat} (h1 h2 h3 : (⟨2, ![R, 64]⟩ : Shape).Idx → EReal) (W1 W2 W3 : (⟨2, ![64, 64]⟩ : Shape).Idx → EReal)
    (b : (⟨2, ![1, 64]⟩ : Shape).Idx → EReal) (n : Fin R) (j : Fin 64) :
    projForm h1 h2 h3 W1 W2 W3 b (ix2 n j)
      = (((∑ k : Fin 64, h1 (ix2 n k) * W1 (ix2 k j)) + (∑ k : Fin 64, h2 (ix2 n k) * W2 (ix2 k j)))
          + (∑ k : Fin 64, h3 (ix2 n k) * W3 (ix2 k j)))
        + b (ix2 (0 : Fin 1) j) := rfl

/-- One normalised, clamped entry: `max (g · (h − μ) · rsqrt (v + ε) + β) 0`. -/
def bnReluEntry (h g β μ v : EReal) : EReal :=
  max (g * (h - μ) * Ideal.rsqrt (v + Ideal.ofBits .f32 0x3727C5AC#32) + β) (Ideal.ofBits .f32 0x00000000#32)

/-- The last stage on `R` rows of 32 entries: the normalised, clamped row times the 32×1 weight, plus the 1×1 bias. -/
def bnAffineForm {R : Nat} (h : (⟨2, ![R, 32]⟩ : Shape).Idx → EReal) (g β μ v : (⟨2, ![1, 32]⟩ : Shape).Idx → EReal)
    (W : (⟨2, ![32, 1]⟩ : Shape).Idx → EReal) (b : (⟨2, ![1, 1]⟩ : Shape).Idx → EReal) :
    (⟨2, ![R, 1]⟩ : Shape).Idx → EReal := fun i =>
  (∑ k : Fin 32, bnReluEntry (h (ix2 (i 0) k)) (g (ix2 (0 : Fin 1) k)) (β (ix2 (0 : Fin 1) k)) (μ (ix2 (0 : Fin 1) k))
        (v (ix2 (0 : Fin 1) k)) * W (ix2 k (i 1)))
    + b (ix2 (0 : Fin 1) (i 1))

theorem bnAffineForm_ix2 {R : Nat} (h : (⟨2, ![R, 32]⟩ : Shape).Idx → EReal) (g β μ v : (⟨2, ![1, 32]⟩ : Shape).Idx → EReal)
    (W : (⟨2, ![32, 1]⟩ : Shape).Idx → EReal) (b : (⟨2, ![1, 1]⟩ : Shape).Idx → EReal) (n : Fin R) (j : Fin 1) :
    bnAffineForm h g β μ v W b (ix2 n j)
      = (∑ k : Fin 32, bnReluEntry (h (ix2 n k)) (g (ix2 (0 : Fin 1) k)) (β (ix2 (0 : Fin 1) k)) (μ (ix2 (0 : Fin 1) k))
            (v (ix2 (0 : Fin 1) k)) * W (ix2 k j))
        + b (ix2 (0 : Fin 1) j) := rfl

end Cert.Bridge

end
-- ==== Proof.KI.VPay.lean ====
/-
  The three kernels' stored values, read at one entry, at the extended reals.

  Each kernel body stores one block whose value is a fixed expression of the blocks it loaded. At the extended reals a
  change of float format is the identity and a matrix product accumulated into zero is the plain sum over the
  contracted axis, so entry `(r, q)` of the stored block is: for a SAGE linear layer, the aggregate row times one
  weight column plus the feature row times the other weight's column plus the bias entry, clamped below at zero; for
  the projection, the three feature rows each times its weight's column, summed, plus the bias entry; for the last
  stage of the edge classifier, the sum over the 32 columns of the normalised, clamped entry times the weight, plus
  the bias. The six SAGE kernels have one and the same stored value, and so have the two projections.
-/
import proofs.«176278_j29592324669622_2_alg».proof.Proof.Gen.KernelIdeal.Skeleton
import proofs.«176278_j29592324669622_2_alg».proof.Proof.LibDotRead
import proofs.«176278_j29592324669622_2_alg».proof.Proof.Math.KernelForms
import Idealize.ShloMosaic.Lib.Pipeline.Value
import Idealize.ShloMosaic.Lib.ValueLayout

set_option maxRecDepth 16384

noncomputable section

namespace Cert.KernelIdeal.HandValue

open Cert.KernelIdeal Cert.KernelIdeal.Gen Cert.Bridge
open Idealize.ShloMosaic Idealize.ShloMosaic.ValueIdx

/-! ## A SAGE linear layer -/

/-- Entry `(r, q)` of the block a SAGE kernel stores. -/
theorem sage_pay_apply (v0 : FVec Ideal S5000x64 .f32) (v3 : FVec Ideal S5000x64 .bf16) (v5 v8 : FVec Ideal S64x64 .f32)
    (v14 : FVec Ideal S1x64 .f32) (r : Fin 5000) (q : Fin 64) :
    (k0_pay1 (F := Ideal) v0 v3 v5 v8 v14 (ix2 r q) : EReal)
      = max (((∑ k : Fin 64, v0 (ix2 r k) * v5 (ix2 k q)) + (∑ k : Fin 64, v3 (ix2 r k) * v8 (ix2 k q)))
          + v14 (ix2 (0 : Fin 1) q)) (Ideal.ofBits .f32 0x00000000#32) := by
  unfold k0_pay1
  simp only [shapeCast_self]
  have e1 := DotRead.matmul_plain_zero_apply 5000 64 64 none (truncf .bf16 v0 bitsLt_bf16_f32) (truncf .bf16 v5 bitsLt_bf16_f32) r q
  have e2 := DotRead.matmul_plain_zero_apply 5000 64 64 none v3 (truncf .bf16 v8 bitsLt_bf16_f32) r q
  have e3 := broadcastTo_1b_ab_apply v14 broadcasts_S1x64_S5000x64 r q
  exact congrArg₂ max (congrArg₂ (· + ·) (congrArg₂ (· + ·) e1 e2) e3) rfl

/-- The six SAGE kernels store the same expression of their loads. -/
theorem sage_pay_apply0 (v0 : FVec Ideal S5000x64 .f32) (v3 : FVec Ideal S5000x64 .bf16) (v5 v8 : FVec Ideal S64x64 .f32)
    (v14 : FVec Ideal S1x64 .f32) (r : Fin 5000) (q : Fin 64) :
    (k0_pay1 (F := Ideal) v0 v3 v5 v8 v14 (ix2 r q) : EReal)
      = max (((∑ k : Fin 64, v0 (ix2 r k) * v5 (ix2 k q)) + (∑ k : Fin 64, v3 (ix2 r k) * v8 (ix2 k q)))
          + v14 (ix2 (0 : Fin 1) q)) (Ideal.ofBits .f32 0x00000000#32) := sage_pay_apply v0 v3 v5 v8 v14 r q
theorem sage_pay_apply1 (v0 : FVec Ideal S5000x64 .f32) (v3 : FVec Ideal S5000x64 .bf16) (v5 v8 : FVec Ideal S64x64 .f32)
    (v14 : FVec Ideal S1x64 .f32) (r : Fin 5000) (q : Fin 64) :
    (k1_pay1 (F := Ideal) v0 v3 v5 v8 v14 (ix2 r q) : EReal)
      = max (((∑ k : Fin 64, v0 (ix2 r k) * v5 (ix2 k q)) + (∑ k : Fin 64, v3 (ix2 r k) * v8 (ix2 k q)))
          + v14 (ix2 (0 : Fin 1) q)) (Ideal.ofBits .f32 0x00000000#32) := sage_pay_apply v0 v3 v5 v8 v14 r q
theorem sage_pay_apply2 (v0 : FVec Ideal S5000x64 .f32) (v3 : FVec Ideal S5000x64 .bf16) (v5 v8 : FVec Ideal S64x64 .f32)
    (v14 : FVec Ideal S1x64 .f32) (r : Fin 5000) (q : Fin 64) :
    (k2_pay1 (F := Ideal) v0 v3 v5 v8 v14 (ix2 r q) : EReal)
      = max (((∑ k : Fin 64, v0 (ix2 r k) * v5 (ix2 k q)) + (∑ k : Fin 64, v3 (ix2 r k) * v8 (ix2 k q)))
          + v14 (ix2 (0 : Fin 1) q)) (Ideal.ofBits .f32 0x00000000#32) := sage_pay_apply v0 v3 v5 v8 v14 r q
theorem sage_pay_apply3 (v0 : FVec Ideal S5000x64 .f32) (v3 : FVec Ideal S5000x64 .bf16) (v5 v8 : FVec Ideal S64x64 .f32)
    (v14 : FVec Ideal S1x64 .f32) (r : Fin 5000) (q : Fin 64) :
    (k3_pay1 (F := Ideal) v0 v3 v5 v8 v14 (ix2 r q) : EReal)
      = max (((∑ k : Fin 64, v0 (ix2 r k) * v5 (ix2 k q)) + (∑ k : Fin 64, v3 (ix2 r k) * v8 (ix2 k q)))
          + v14 (ix2 (0 : Fin 1) q)) (Ideal.ofBits .f32 0x00000000#32) := sage_pay_apply v0 v3 v5 v8 v14 r q
theorem sage_pay_apply4 (v0 : FVec Ideal S5000x64 .f32) (v3 : FVec Ideal S5000x64 .bf16) (v5 v8 : FVec Ideal S64x64 .f32)
    (v14 : FVec Ideal S1x64 .f32) (r : Fin 5000) (q : Fin 64) :
    (k4_pay1 (F := Ideal) v0 v3 v5 v8 v14 (ix2 r q) : EReal)
      = max (((∑ k : Fin 64, v0 (ix2 r k) * v5 (ix2 k q)) + (∑ k : Fin 64, v3 (ix2 r k) * v8 (ix2 k q)))
          + v14 (ix2 (0 : Fin 1) q)) (Ideal.ofBits .f32 0x00000000#32) := sage_pay_apply v0 v3 v5 v8 v14 r q
theorem sage_pay_apply5 (v0 : FVec Ideal S5000x64 .f32) (v3 : FVec Ideal S5000x64 .bf16) (v5 v8 : FVec Ideal S64x64 .f32)
    (v14 : FVec Ideal S1x64 .f32) (r : Fin 5000) (q : Fin 64) :
    (k5_pay1 (F := Ideal) v0 v3 v5 v8 v14 (ix2 r q) : EReal)
      = max (((∑ k : Fin 64, v0 (ix2 r k) * v5 (ix2 k q)) + (∑ k : Fin 64, v3 (ix2 r k) * v8 (ix2 k q)))
          + v14 (ix2 (0 : Fin 1) q)) (Ideal.ofBits .f32 0x00000000#32) := sage_pay_apply v0 v3 v5 v8 v14 r q

/-! ## The projection of the three layers' features -/

/-- Entry `(r, q)` of the block a projection kernel stores. -/
theorem proj_pay_apply (v0 v2 v4 : FVec Ideal S5000x64 .bf16) (v6 v9 v12 : FVec Ideal S64x64 .f32)
    (v20 : FVec Ideal S1x64 .f32) (r : Fin 5000) (q : Fin 64) :
    (k6_pay1 (F := Ideal) v0 v2 v4 v6 v9 v12 v20 (ix2 r q) : EReal)
      = (((∑ k : Fin 64, v0 (ix2 r k) * v6 (ix2 k q)) + (∑ k : Fin 64, v2 (ix2 r k) * v9 (ix2 k q)))
          + (∑ k : Fin 64, v4 (ix2 r k) * v12 (ix2 k q))) + v20 (ix2 (0 : Fin 1) q) := by
  unfold k6_pay1
  simp only [shapeCast_self]
  have e1 := DotRead.matmul_plain_zero_apply 5000 64 64 none v0 (truncf .bf16 v6 bitsLt_bf16_f32) r q
  have e2 := DotRead.matmul_plain_zero_apply 5000 64 64 none v2 (truncf .bf16 v9 bitsLt_bf16_f32) r q
  have e3 := DotRead.matmul_plain_zero_apply 5000 64 64 none v4 (truncf .bf16 v12 bitsLt_bf16_f32) r q
  have e4 := broadcastTo_1b_ab_apply v20 broadcasts_S1x64_S5000x64 r q
  exact congrArg₂ (· + ·) (congrArg₂ (· + ·) (congrArg₂ (· + ·) e1 e2) e3) e4

/-- The two projection kernels store the same expression of their loads. -/
theorem proj_pay_apply6 (v0 v2 v4 : FVec Ideal S5000x64 .bf16) (v6 v9 v12 : FVec Ideal S64x64 .f32)
    (v20 : FVec Ideal S1x64 .f32) (r : Fin 5000) (q : Fin 64) :
    (k6_pay1 (F := Ideal) v0 v2 v4 v6 v9 v12 v20 (ix2 r q) : EReal)
      = (((∑ k : Fin 64, v0 (ix2 r k) * v6 (ix2 k q)) + (∑ k : Fin 64, v2 (ix2 r k) * v9 (ix2 k q)))
          + (∑ k : Fin 64, v4 (ix2 r k) * v12 (ix2 k q))) + v20 (ix2 (0 : Fin 1) q) := proj_pay_apply v0 v2 v4 v6 v9 v12 v20 r q
theorem proj_pay_apply7 (v0 v2 v4 : FVec Ideal S5000x64 .bf16) (v6 v9 v12 : FVec Ideal S64x64 .f32)
    (v20 : FVec Ideal S1x64 .f32) (r : Fin 5000) (q : Fin 64) :
    (k7_pay1 (F := Ideal) v0 v2 v4 v6 v9 v12 v20 (ix2 r q) : EReal)
      = (((∑ k : Fin 64, v0 (ix2 r k) * v6 (ix2 k q)) + (∑ k : Fin 64, v2 (ix2 r k) * v9 (ix2 k q)))
          + (∑ k : Fin 64, v4 (ix2 r k) * v12 (ix2 k q))) + v20 (ix2 (0 : Fin 1) q) := proj_pay_apply v0 v2 v4 v6 v9 v12 v20 r q

/-! ## The last stage of the edge classifier -/

/-- Entry `(r, j)` of the block the last kernel stores. -/
theorem bn_pay_apply (v0 : FVec Ideal S5000x32 .f32) (v2 v4 v6 v8 : FVec Ideal S1x32 .f32) (v24 : FVec Ideal S32x1 .f32)
    (v27 : FVec Ideal S1x1 .f32) (r : Fin 5000) (j : Fin 1) :
    (k10_pay1 (F := Ideal) v0 v2 v4 v6 v8 v24 v27 (ix2 r j) : EReal)
      = (∑ k : Fin 32, bnReluEntry (v0 (ix2 r k)) (v2 (ix2 (0 : Fin 1) k)) (v4 (ix2 (0 : Fin 1) k)) (v6 (ix2 (0 : Fin 1) k))
            (v8 (ix2 (0 : Fin 1) k)) * v24 (ix2 k j))
        + v27 (ix2 (0 : Fin 1) j) := by
  unfold k10_pay1
  simp only [shapeCast_self]
  refine (congrArg₂ (· + ·) (DotRead.matmul_plain_zero_apply 5000 32 1 none _ _ r j)
    (broadcastTo_1b_ab_apply v27 broadcasts_S1x1_S5000x1 r j)).trans ?_
  refine congrArg (· + v27 (ix2 (0 : Fin 1) j)) (Finset.sum_congr rfl fun k _ => ?_)
  have b2 := broadcastTo_1b_ab_apply v2 broadcasts_S1x32_S5000x32 r k
  have b4 := broadcastTo_1b_ab_apply v4 broadcasts_S1x32_S5000x32 r k
  have b6 := broadcastTo_1b_ab_apply v6 broadcasts_S1x32_S5000x32 r k
  have b8 := broadcastTo_1b_ab_apply (rsqrt (addf v8 (broadcast S1x32 (FloatOps.ofBits (F := Ideal) .f32 0x3727C5AC#32))))
    broadcasts_S1x32_S5000x32 r k
  unfold bnReluEntry
  exact congrArg (· * v24 (ix2 k j))
    (congrArg₂ max (congrArg₂ (· + ·) (congrArg₂ (· * ·) (congrArg₂ (· * ·) b2 (congrArg (v0 (ix2 r k) - ·) b6)) b8) b4) rfl)

end Cert.KernelIdeal.HandValue

end
-- ==== Proof.KI.V0.lean ====
/- The value of pipeline 0 of @main at the extended reals: after the region its output array is the SAGE linear layer
   of the arrays the region found — each row the aggregate row times one weight plus the feature row times the other
   plus the bias row, clamped below at zero — and every input array is unchanged. Point `t` of the grid writes back
   rows `5000 t … 5000 t + 4999`; the row blocks tile the array. -/
import proofs.«176278_j29592324669622_2_alg».proof.Proof.KI.R0
import proofs.«176278_j29592324669622_2_alg».proof.Proof.KI.VPay
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz0 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of row block `t`, as a row of the tall array. -/
def row0 (t : Fin cfg0.N) (r : Fin 5000) : Fin 20000 :=
  ⟨t.val * 5000 + r.val, by have h : t.val < 4 := Nat.lt_of_lt_of_eq t.isLt N_0; have := r.isLt; omega⟩

/-- Window 0's block at point `t` is rows `5000 t … 5000 t + 4999` of its array. -/
theorem iblk0_0_apply (c : Dev nD) (t : Fin cfg0.N) (r : Fin 5000) (k : Fin 64) :
    (iblk0 V c 0 t : FVec Ideal S5000x64 .f32) (ix2 r k) = (V c main_v37 : S20000x64.Idx → EReal) (ix2 (row0 t r) k) := by
  obtain ⟨h0a, h0b, h1a, h1b, h2a, h2b, h3a, h3b, h4a, h4b, h5a, h5b⟩ := idx0 t
  unfold iblk0
  rw [View.read_apply]
  show V c main_v37 _ = V c main_v37 _
  congr 1
  funext a; apply Fin.ext
  match a with
  | ⟨0, _⟩ => show win0_0.index t (0 : Fin 2) * 5000 + 1 * r.val = t.val * 5000 + r.val; rw [h0a]; omega
  | ⟨1, _⟩ => show win0_0.index t (1 : Fin 2) * 64 + 1 * k.val = k.val; rw [h0b]; omega

/-- Window 1's block at point `t` is rows `5000 t … 5000 t + 4999` of its array. -/
theorem iblk0_1_apply (c : Dev nD) (t : Fin cfg0.N) (r : Fin 5000) (k : Fin 64) :
    (iblk0 V c 1 t : FVec Ideal S5000x64 .bf16) (ix2 r k) = (V c main_v23 : S20000x64.Idx → EReal) (ix2 (row0 t r) k) := by
  obtain ⟨h0a, h0b, h1a, h1b, h2a, h2b, h3a, h3b, h4a, h4b, h5a, h5b⟩ := idx0 t
  unfold iblk0
  rw [View.read_apply]
  show V c main_v23 _ = V c main_v23 _
  congr 1
  funext a; apply Fin.ext
  match a with
  | ⟨0, _⟩ => show win0_1.index t (0 : Fin 2) * 5000 + 1 * r.val = t.val * 5000 + r.val; rw [h1a]; omega
  | ⟨1, _⟩ => show win0_1.index t (1 : Fin 2) * 64 + 1 * k.val = k.val; rw [h1b]; omega

/-- Window 2's block at every point is its whole array. -/
theorem iblk0_2_apply (c : Dev nD) (t : Fin cfg0.N) (p : Fin 64) (k : Fin 64) :
    (iblk0 V c 2 t : FVec Ideal S64x64 .f32) (ix2 p k) = (V c main_v53 : S64x64.Idx → EReal) (ix2 p k) := by
  obtain ⟨h0a, h0b, h1a, h1b, h2a, h2b, h3a, h3b, h4a, h4b, h5a, h5b⟩ := idx0 t
  unfold iblk0
  rw [View.read_apply]
  show V c main_v53 _ = V c main_v53 _
  congr 1
  funext a; apply Fin.ext
  match a with
  | ⟨0, _⟩ => show win0_2.index t (0 : Fin 2) * 64 + 1 * p.val = p.val; rw [h2a]; omega
  | ⟨1, _⟩ => show win0_2.index t (1 : Fin 2) * 64 + 1 * k.val = k.val; rw [h2b]; omega

/-- Window 3's block at every point is its whole array. -/
theorem iblk0_3_apply (c : Dev nD) (t : Fin cfg0.N) (p : Fin 1) (k : Fin 64) :
    (iblk0 V c 3 t : FVec Ideal S1x64 .f32) (ix2 p k) = (V c main_v58 : S1x64.Idx → EReal) (ix2 p k) := by
  obtain ⟨h0a, h0b, h1a, h1b, h2a, h2b, h3a, h3b, h4a, h4b, h5a, h5b⟩ := idx0 t
  unfold iblk0
  rw [View.read_apply]
  show V c main_v58 _ = V c main_v58 _
  congr 1
  funext a; apply Fin.ext
  match a with
  | ⟨0, _⟩ => show win0_3.index t (0 : Fin 2) * 1 + 1 * p.val = p.val; rw [h3a]; omega
  | ⟨1, _⟩ => show win0_3.index t (1 : Fin 2) * 64 + 1 * k.val = k.val; rw [h3b]; omega

/-- Window 4's block at every point is its whole array. -/
theorem iblk0_4_apply (c : Dev nD) (t : Fin cfg0.N) (p : Fin 64) (k : Fin 64) :
    (iblk0 V c 4 t : FVec Ideal S64x64 .f32) (ix2 p k) = (V c main_v57 : S64x64.Idx → EReal) (ix2 p k) := by
  obtain ⟨h0a, h0b, h1a, h1b, h2a, h2b, h3a, h3b, h4a, h4b, h5a, h5b⟩ := idx0 t
  unfold iblk0
  rw [View.read_apply]
  show V c main_v57 _ = V c main_v57 _
  congr 1
  funext a; apply Fin.ext
  match a with
  | ⟨0, _⟩ => show win0_4.index t (0 : Fin 2) * 64 + 1 * p.val = p.val; rw [h4a]; omega
  | ⟨1, _⟩ => show win0_4.index t (1 : Fin 2) * 64 + 1 * k.val = k.val; rw [h4b]; omega

/-! ## What a point writes back -/

/-- Entry `(r, q)` of the block the body stores at point `t` is entry `(5000 t + r, q)` of the closed form of the
    arrays as the region finds them. -/
theorem stored0_apply (c : Dev nD) (t : Fin cfg0.N) (r : Fin 5000) (q : Fin 64) :
    (k0_pay1 (F := Ideal) (iblk0 V c 0 t) (iblk0 V c 1 t) (iblk0 V c 2 t) (iblk0 V c 4 t) (iblk0 V c 3 t) (ix2 r q) : EReal)
      = sageForm (V c main_v37) (V c main_v23) (V c main_v53) (V c main_v58) (V c main_v57) (ix2 (row0 t r) q) := by
  refine ((sage_pay_apply0 _ _ _ _ _ r q).trans ?_).trans (sageForm_ix2 _ _ _ _ _ (row0 t r) q).symm
  exact congrArg₂ max (congrArg₂ (· + ·) (congrArg₂ (· + ·)
      (Finset.sum_congr rfl fun k _ => congrArg₂ (· * ·) (iblk0_0_apply V c t r k) (iblk0_2_apply V c t k q))
      (Finset.sum_congr rfl fun k _ => congrArg₂ (· * ·) (iblk0_1_apply V c t r k) (iblk0_4_apply V c t k q)))
      (iblk0_3_apply V c t 0 q)) rfl

/-- What point `t` writes back to the output window's array is block `t` of the closed form. -/
theorem flushed0_eq (c : Dev nD) (t : Fin cfg0.N) :
    (dat0 (F := Ideal) V c).flushed 5 t = ((cfg0.win 5).blk t).view.read (Elt Ideal) (sageForm (V c main_v37) (V c main_v23) (V c main_v53) (V c main_v58) (V c main_v57)) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S64x64) hz0, View.ld_unit_zero (S := S1x64) hz0]
  obtain ⟨h0a, h0b, h1a, h1b, h2a, h2b, h3a, h3b, h4a, h4b, h5a, h5b⟩ := idx0 t
  funext j
  obtain ⟨r, q, rfl⟩ : ∃ (r : Fin 5000) (q : Fin 64), j = ix2 r q := ⟨j 0, j 1, eq_ix2 j⟩
  refine (stored0_apply V c t r q).trans ?_
  rw [View.read_apply]
  refine congrArg (sageForm (V c main_v37) (V c main_v23) (V c main_v53) (V c main_v58) (V c main_v57)) ?_
  funext a; apply Fin.ext
  match a with
  | ⟨0, _⟩ => show t.val * 5000 + r.val = win0_5.index t (0 : Fin 2) * 5000 + 1 * r.val; rw [h5a]; omega
  | ⟨1, _⟩ => show q.val = win0_5.index t (1 : Fin 2) * 64 + 1 * q.val; rw [h5b]; omega

/-! ## The output array after the run -/

/-- An index of the array is in point `t`'s block iff each coordinate is in the block's range on its axis. -/
theorem mem_blk0 (t : Fin cfg0.N) (i : S20000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v59).slice (win0_5.rect t)).set ↔ _
  rw [View.set_slice_whole, Rect.mem_set_unit]
  exact Iff.rfl

/-- The row blocks tile the array: row `n` is in the block of point `n / 5000`. -/
theorem covered0 (i : S20000x64.Idx) :
    ∃ t : Fin cfg0.N, (cfg0.win 5).flush t = true ∧ i ∈ ((cfg0.win 5).blk t).view.set := by
  have hi0 : (i 0).val < 20000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (show (i 0).val / 5000 < 4 by omega) N_0.symm⟩, rfl⟩
  obtain ⟨h0a, h0b, h1a, h1b, h2a, h2b, h3a, h3b, h4a, h4b, h5a, h5b⟩ := idx0 t
  refine ⟨t, flush0_5 t, (mem_blk0 t i).mpr fun a => ?_⟩
  match a with
  | ⟨0, _⟩ =>
    show win0_5.index t (0 : Fin 2) * 5000 ≤ (i 0).val ∧ (i 0).val < win0_5.index t (0 : Fin 2) * 5000 + 5000
    rw [h5a, ht]; omega
  | ⟨1, _⟩ =>
    show win0_5.index t (1 : Fin 2) * 64 ≤ (i 1).val ∧ (i 1).val < win0_5.index t (1 : Fin 2) * 64 + 64
    rw [h5b]; omega

/-- THE OUTPUT ARRAY after the region is the closed form of the arrays as the region finds them. -/
theorem arrAt_out0 (c : Dev nD) :
    (dat0 (F := Ideal) V c).arrAt 5 cfg0.N = sageForm (V c main_v37) (V c main_v23) (V c main_v53) (V c main_v58) (V c main_v57) :=
  (dat0 V c).arrAt_eq_of_cover 5 _ (fun t _ => flushed0_eq V c t) covered0

/-- Every input array is as the region found it: an input window is never written back. -/
theorem arrAt_in0 (c : Dev nD) (w : Fin cfg0.W) (hw : w ≠ 5) :
    (dat0 (F := Ideal) V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat0 V c).arrAt_in w hin _).trans (A_eq0 V c w)

end Cert.KernelIdeal.HandValue

end
-- ==== Proof.KI.V1.lean ====
/- The value of pipeline 1 of @main at the extended reals: after the region its output array is the SAGE linear layer
   of the arrays the region found — each row the aggregate row times one weight plus the feature row times the other
   plus the bias row, clamped below at zero — and every input array is unchanged. Point `t` of the grid writes back
   rows `5000 t … 5000 t + 4999`; the row blocks tile the array. -/
import proofs.«176278_j29592324669622_2_alg».proof.Proof.KI.R1
import proofs.«176278_j29592324669622_2_alg».proof.Proof.KI.VPay
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz1 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of row block `t`, as a row of the tall array. -/
def row1 (t : Fin cfg1.N) (r : Fin 5000) : Fin 100000 :=
  ⟨t.val * 5000 + r.val, by have h : t.val < 20 := Nat.lt_of_lt_of_eq t.isLt N_1; have := r.isLt; omega⟩

/-- Window 0's block at point `t` is rows `5000 t … 5000 t + 4999` of its array. -/
theorem iblk1_0_apply (c : Dev nD) (t : Fin cfg1.N) (r : Fin 5000) (k : Fin 64) :
    (iblk1 V c 0 t : FVec Ideal S5000x64 .f32) (ix2 r k) = (V c main_v51 : S100000x64.Idx → EReal) (ix2 (row1 t r) k) := by
  obtain ⟨h0a, h0b, h1a, h1b, h2a, h2b, h3a, h3b, h4a, h4b, h5a, h5b⟩ := idx1 t
  unfold iblk1
  rw [View.read_apply]
  show V c main_v51 _ = V c main_v51 _
  congr 1
  funext a; apply Fin.ext
  match a with
  | ⟨0, _⟩ => show win1_0.index t (0 : Fin 2) * 5000 + 1 * r.val = t.val * 5000 + r.val; rw [h0a]; omega
  | ⟨1, _⟩ => show win1_0.index t (1 : Fin 2) * 64 + 1 * k.val = k.val; rw [h0b]; omega

/-- Window 1's block at point `t` is rows `5000 t … 5000 t + 4999` of its array. -/
theorem iblk1_1_apply (c : Dev nD) (t : Fin cfg1.N) (r : Fin 5000) (k : Fin 64) :
    (iblk1 V c 1 t : FVec Ideal S5000x64 .bf16) (ix2 r k) = (V c main_v22 : S100000x64.Idx → EReal) (ix2 (row1 t r) k) := by
  obtain ⟨h0a, h0b, h1a, h1b, h2a, h2b, h3a, h3b, h4a, h4b, h5a, h5b⟩ := idx1 t
  unfold iblk1
  rw [View.read_apply]
  show V c main_v22 _ = V c main_v22 _
  congr 1
  funext a; apply Fin.ext
  match a with
  | ⟨0, _⟩ => show win1_1.index t (0 : Fin 2) * 5000 + 1 * r.val = t.val * 5000 + r.val; rw [h1a]; omega
  | ⟨1, _⟩ => show win1_1.index t (1 : Fin 2) * 64 + 1 * k.val = k.val; rw [h1b]; omega

/-- Window 2's block at every point is its whole array. -/
theorem iblk1_2_apply (c : Dev nD) (t : Fin cfg1.N) (p : Fin 64) (k : Fin 64) :
    (iblk1 V c 2 t : FVec Ideal S64x64 .f32) (ix2 p k) = (V c main_v61 : S64x64.Idx → EReal) (ix2 p k) := by
  obtain ⟨h0a, h0b, h1a, h1b, h2a, h2b, h3a, h3b, h4a, h4b, h5a, h5b⟩ := idx1 t
  unfold iblk1
  rw [View.read_apply]
  show V c main_v61 _ = V c main_v61 _
  congr 1
  funext a; apply Fin.ext
  match a with
  | ⟨0, _⟩ => show win1_2.index t (0 : Fin 2) * 64 + 1 * p.val = p.val; rw [h2a]; omega
  | ⟨1, _⟩ => show win1_2.index t (1 : Fin 2) * 64 + 1 * k.val = k.val; rw [h2b]; omega

/-- Window 3's block at every point is its whole array. -/
theorem iblk1_3_apply (c : Dev nD) (t : Fin cfg1.N) (p : Fin 1) (k : Fin 64) :
    (iblk1 V c 3 t : FVec Ideal S1x64 .f32) (ix2 p k) = (V c main_v66 : S1x64.Idx → EReal) (ix2 p k) := by
  obtain ⟨h0a, h0b, h1a, h1b, h2a, h2b, h3a, h3b, h4a, h4b, h5a, h5b⟩ := idx1 t
  unfold iblk1
  rw [View.read_apply]
  show V c main_v66 _ = V c main_v66 _
  congr 1
  funext a; apply Fin.ext
  match a with
  | ⟨0, _⟩ => show win1_3.index t (0 : Fin 2) * 1 + 1 * p.val = p.val; rw [h3a]; omega
  | ⟨1, _⟩ => show win1_3.index t (1 : Fin 2) * 64 + 1 * k.val = k.val; rw [h3b]; omega

/-- Window 4's block at every point is its whole array. -/
theorem iblk1_4_apply (c : Dev nD) (t : Fin cfg1.N) (p : Fin 64) (k : Fin 64) :
    (iblk1 V c 4 t : FVec Ideal S64x64 .f32) (ix2 p k) = (V c main_v65 : S64x64.Idx → EReal) (ix2 p k) := by
  obtain ⟨h0a, h0b, h1a, h1b, h2a, h2b, h3a, h3b, h4a, h4b, h5a, h5b⟩ := idx1 t
  unfold iblk1
  rw [View.read_apply]
  show V c main_v65 _ = V c main_v65 _
  congr 1
  funext a; apply Fin.ext
  match a with
  | ⟨0, _⟩ => show win1_4.index t (0 : Fin 2) * 64 + 1 * p.val = p.val; rw [h4a]; omega
  | ⟨1, _⟩ => show win1_4.index t (1 : Fin 2) * 64 + 1 * k.val = k.val; rw [h4b]; omega

/-! ## What a point writes back -/

/-- Entry `(r, q)` of the block the body stores at point `t` is entry `(5000 t + r, q)` of the closed form of the
    arrays as the region finds them. -/
theorem stored1_apply (c : Dev nD) (t : Fin cfg1.N) (r : Fin 5000) (q : Fin 64) :
    (k1_pay1 (F := Ideal) (iblk1 V c 0 t) (iblk1 V c 1 t) (iblk1 V c 2 t) (iblk1 V c 4 t) (iblk1 V c 3 t) (ix2 r q) : EReal)
      = sageForm (V c main_v51) (V c main_v22) (V c main_v61) (V c main_v66) (V c main_v65) (ix2 (row1 t r) q) := by
  refine ((sage_pay_apply1 _ _ _ _ _ r q).trans ?_).trans (sageForm_ix2 _ _ _ _ _ (row1 t r) q).symm
  exact congrArg₂ max (congrArg₂ (· + ·) (congrArg₂ (· + ·)
      (Finset.sum_congr rfl fun k _ => congrArg₂ (· * ·) (iblk1_0_apply V c t r k) (iblk1_2_apply V c t k q))
      (Finset.sum_congr rfl fun k _ => congrArg₂ (· * ·) (iblk1_1_apply V c t r k) (iblk1_4_apply V c t k q)))
      (iblk1_3_apply V c t 0 q)) rfl

/-- What point `t` writes back to the output window's array is block `t` of the closed form. -/
theorem flushed1_eq (c : Dev nD) (t : Fin cfg1.N) :
    (dat1 (F := Ideal) V c).flushed 5 t = ((cfg1.win 5).blk t).view.read (Elt Ideal) (sageForm (V c main_v51) (V c main_v22) (V c main_v61) (V c main_v66) (V c main_v65)) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S64x64) hz1, View.ld_unit_zero (S := S1x64) hz1]
  obtain ⟨h0a, h0b, h1a, h1b, h2a, h2b, h3a, h3b, h4a, h4b, h5a, h5b⟩ := idx1 t
  funext j
  obtain ⟨r, q, rfl⟩ : ∃ (r : Fin 5000) (q : Fin 64), j = ix2 r q := ⟨j 0, j 1, eq_ix2 j⟩
  refine (stored1_apply V c t r q).trans ?_
  rw [View.read_apply]
  refine congrArg (sageForm (V c main_v51) (V c main_v22) (V c main_v61) (V c main_v66) (V c main_v65)) ?_
  funext a; apply Fin.ext
  match a with
  | ⟨0, _⟩ => show t.val * 5000 + r.val = win1_5.index t (0 : Fin 2) * 5000 + 1 * r.val; rw [h5a]; omega
  | ⟨1, _⟩ => show q.val = win1_5.index t (1 : Fin 2) * 64 + 1 * q.val; rw [h5b]; omega

/-! ## The output array after the run -/

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v67).slice (win1_5.rect t)).set ↔ _
  rw [View.set_slice_whole, Rect.mem_set_unit]
  exact Iff.rfl

/-- The row blocks tile the array: row `n` is in the block of point `n / 5000`. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (show (i 0).val / 5000 < 20 by omega) N_1.symm⟩, rfl⟩
  obtain ⟨h0a, h0b, h1a, h1b, h2a, h2b, h3a, h3b, h4a, h4b, h5a, h5b⟩ := idx1 t
  refine ⟨t, flush1_5 t, (mem_blk1 t i).mpr fun a => ?_⟩
  match a with
  | ⟨0, _⟩ =>
    show win1_5.index t (0 : Fin 2) * 5000 ≤ (i 0).val ∧ (i 0).val < win1_5.index t (0 : Fin 2) * 5000 + 5000
    rw [h5a, ht]; omega
  | ⟨1, _⟩ =>
    show win1_5.index t (1 : Fin 2) * 64 ≤ (i 1).val ∧ (i 1).val < win1_5.index t (1 : Fin 2) * 64 + 64
    rw [h5b]; omega

/-- THE OUTPUT ARRAY after the region is the closed form of the arrays as the region finds them. -/
theorem arrAt_out1 (c : Dev nD) :
    (dat1 (F := Ideal) V c).arrAt 5 cfg1.N = sageForm (V c main_v51) (V c main_v22) (V c main_v61) (V c main_v66) (V c main_v65) :=
  (dat1 V c).arrAt_eq_of_cover 5 _ (fun t _ => flushed1_eq V c t) covered1

/-- Every input array is as the region found it: an input window is never written back. -/
theorem arrAt_in1 (c : Dev nD) (w : Fin cfg1.W) (hw : w ≠ 5) :
    (dat1 (F := Ideal) V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat1 V c).arrAt_in w hin _).trans (A_eq1 V c w)

end Cert.KernelIdeal.HandValue

end
-- ==== Proof.Ref.AtLib.lean ====
/- Host operations of the reference read at an index, at the ideal values: a broadcast of a vector to one row and of
   one row (or one column) down (or across) a matrix reads the operand at the matching coordinate; a product of a
   matrix by a matrix is the sum over the contracted coordinate; a column sum is the initial value plus the sum down
   the column; a trailing unit axis dropped by a reshape keeps the row. -/
import Idealize.ShloMosaic.Lib.IdealHost
import Idealize.ShloMosaic.Lib.StackMember
import Idealize.ShloMosaic.Lib.Pipeline.Value
import Idealize.ShloMosaic.PureOps.Ideal.Laws

noncomputable section

namespace Cert.ReferenceIdeal.Hand

open Idealize.ShloMosaic Idealize.ShloMosaic.ValueIdx

/-- A vector as the one row of a matrix. -/
theorem bcast_vec_row_apply {C : Nat} {α : Type} (h : (⟨1, ![C]⟩ : Shape).BroadcastsInDim ⟨2, ![1, C]⟩ ![1])
    (x : (⟨1, ![C]⟩ : Shape).Idx → α) (u : Fin 1) (k : Fin C) :
    broadcastInDim ⟨2, ![1, C]⟩ ![1] h x (ix2 u k) = x (ix1 k) := by
  refine broadcastInDim_apply _ h x _ _ fun a => ?_
  match a with
  | ⟨0, _⟩ =>
    show k.val = if C = 1 then 0 else k.val
    split
    · have := k.isLt; omega
    · rfl

/-- One row copied down the rows. -/
theorem bcast_rows_apply {R C : Nat} {α : Type} (h : (⟨2, ![1, C]⟩ : Shape).BroadcastsInDim ⟨2, ![R, C]⟩ ![0, 1])
    (x : (⟨2, ![1, C]⟩ : Shape).Idx → α) (i : Fin R) (k : Fin C) :
    broadcastInDim ⟨2, ![R, C]⟩ ![0, 1] h x (ix2 i k) = x (ix2 0 k) := by
  refine broadcastInDim_apply _ h x _ _ fun a => ?_
  match a with
  | ⟨0, _⟩ => rfl
  | ⟨1, _⟩ =>
    show k.val = if C = 1 then 0 else k.val
    split
    · have := k.isLt; omega
    · rfl

/-- A vector as the one column of a matrix. -/
theorem bcast_vec_col_apply {R : Nat} {α : Type} (h : (⟨1, ![R]⟩ : Shape).BroadcastsInDim ⟨2, ![R, 1]⟩ ![0])
    (x : (⟨1, ![R]⟩ : Shape).Idx → α) (i : Fin R) (u : Fin 1) :
    broadcastInDim ⟨2, ![R, 1]⟩ ![0] h x (ix2 i u) = x (ix1 i) := by
  refine broadcastInDim_apply _ h x _ _ fun a => ?_
  match a with
  | ⟨0, _⟩ =>
    show i.val = if R = 1 then 0 else i.val
    split
    · have := i.isLt; omega
    · rfl

/-- One column copied across the columns. -/
theorem bcast_cols_apply {R C : Nat} {α : Type} (h : (⟨2, ![R, 1]⟩ : Shape).BroadcastsInDim ⟨2, ![R, C]⟩ ![0, 1])
    (x : (⟨2, ![R, 1]⟩ : Shape).Idx → α) (i : Fin R) (k : Fin C) :
    broadcastInDim ⟨2, ![R, C]⟩ ![0, 1] h x (ix2 i k) = x (ix2 i 0) := by
  refine broadcastInDim_apply _ h x _ _ fun a => ?_
  match a with
  | ⟨0, _⟩ =>
    show i.val = if R = 1 then 0 else i.val
    split
    · have := i.isLt; omega
    · rfl
  | ⟨1, _⟩ => rfl

/-- A reshape that drops a trailing unit axis keeps the row. -/
theorem reshape_col_apply {R : Nat} {α : Type} (h : (⟨2, ![R, 1]⟩ : Shape).ShapeCasts ⟨1, ![R]⟩)
    (x : (⟨2, ![R, 1]⟩ : Shape).Idx → α) (i : Fin R) :
    shapeCast ⟨1, ![R]⟩ x h (ix1 i) = x (ix2 i 0) := by
  refine shapeCast_apply x h (ix1 i) (ix2 i 0) ?_
  rw [Shape.rowMajor_val_two, Shape.rowMajor_val_one]
  show i.val * 1 + 0 = i.val
  omega

/-- A product of an `M × K` by a `K × N` matrix, for any dimension-number record that says so. -/
theorem hostDot_apply {M K N : Nat} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) (a : Fin M) (b : Fin N) :
    Host.dotGeneral d none A B (ix2 a b) = ∑ c : Fin K, A (ix2 a c) * B (ix2 c b) := by
  subst hd
  exact StackMember.dotGeneral_plain_apply none A B a b

/-- A column sum from an initial value. -/
theorem colSum_apply {R C : Nat} (h' : (⟨2, ![R, C]⟩ : Shape).ReducesTo [0] ⟨1, ![C]⟩)
    (h : (⟨2, ![R, C]⟩ : Shape).Reduces [0] ⟨1, ![C]⟩) (hu : 0 < (⟨0, ![]⟩ : Shape).numel)
    (x : FVec Ideal ⟨2, ![R, C]⟩ .f32) (init : FVec Ideal ⟨0, ![]⟩ .f32) (k : Fin C) :
    Host.reduceAdd x init h' hu (ix1 k) = init ix0 + ∑ i : Fin R, x (ix2 i k) := by
  rw [hostReduceAdd_apply, Ideal.hostReduceAdd_single h' h]
  refine congrArg₂ (· + ·) (congrArg init (eq_ix0 _)) ?_
  show ∑ i : Fin R, x (h.lift (ix1 k) i) = ∑ i : Fin R, x (ix2 i k)
  refine Finset.sum_congr rfl fun i _ => congrArg x (funext fun c => Fin.ext ?_)
  match c with
  | ⟨0, _⟩ => rfl
  | ⟨1, _⟩ => rfl

theorem hostRsqrt_apply {s : Shape} {φ : FTy} (x : FVec Ideal s φ) (i : s.Idx) : Host.rsqrt x i = Ideal.rsqrt (x i) := rfl

end Cert.ReferenceIdeal.Hand

end
-- ==== Proof.Ref.Arrays.lean ====
/- The reference's stage arrays as plain functions of an index, at the ideal values: for starting contents `V`, what the
   whole line of operations leaves at each stage buffer, and the arguments' starting contents. -/
import proofs.«176278_j29592324669622_2_alg».proof.Proof.Ref.Read
import proofs.«176278_j29592324669622_2_alg».proof.Proof.Ref.AtLib

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The users' features before the first layer (the fold's final value at `main_v6`). -/
abbrev xu0 (V : Valuation τ sig (Elt Ideal)) : S100000x64.Idx → EReal := after ops V (Proc.devRef .tc main_v6)
/-- The movies' features after layer 1 (the fold's final value at `main_v69`). -/
abbrev xm1 (V : Valuation τ sig (Elt Ideal)) : S20000x64.Idx → EReal := after ops V (Proc.devRef .tc main_v69)
/-- The users' features after layer 1 (the fold's final value at `main_v70`). -/
abbrev xu1 (V : Valuation τ sig (Elt Ideal)) : S100000x64.Idx → EReal := after ops V (Proc.devRef .tc main_v70)
/-- The movies' features after layer 2 (the fold's final value at `main_v133`). -/
abbrev xm2 (V : Valuation τ sig (Elt Ideal)) : S20000x64.Idx → EReal := after ops V (Proc.devRef .tc main_v133)
/-- The users' features after layer 2 (the fold's final value at `main_v134`). -/
abbrev xu2 (V : Valuation τ sig (Elt Ideal)) : S100000x64.Idx → EReal := after ops V (Proc.devRef .tc main_v134)
/-- The movies' features after layer 3 (the fold's final value at `main_v197`). -/
abbrev xm3 (V : Valuation τ sig (Elt Ideal)) : S20000x64.Idx → EReal := after ops V (Proc.devRef .tc main_v197)
/-- The users' features after layer 3 (the fold's final value at `main_v198`). -/
abbrev xu3 (V : Valuation τ sig (Elt Ideal)) : S100000x64.Idx → EReal := after ops V (Proc.devRef .tc main_v198)
/-- The users' projection (the fold's final value at `main_v203`). -/
abbrev hu (V : Valuation τ sig (Elt Ideal)) : S100000x64.Idx → EReal := after ops V (Proc.devRef .tc main_v203)
/-- The movies' projection (the fold's final value at `main_v208`). -/
abbrev hm (V : Valuation τ sig (Elt Ideal)) : S20000x64.Idx → EReal := after ops V (Proc.devRef .tc main_v208)
/-- The first classifier layer before its batch norm (the fold's final value at `main_v227`). -/
abbrev z1 (V : Valuation τ sig (Elt Ideal)) : S500000x64.Idx → EReal := after ops V (Proc.devRef .tc main_v227)
/-- Its column sums (the fold's final value at `main_v228`). -/
abbrev z1sum (V : Valuation τ sig (Elt Ideal)) : S64.Idx → EReal := after ops V (Proc.devRef .tc main_v228)
/-- Its column means (the fold's final value at `main_v230`). -/
abbrev z1mean (V : Valuation τ sig (Elt Ideal)) : S64.Idx → EReal := after ops V (Proc.devRef .tc main_v230)
/-- Its column variances (the fold's final value at `main_v231`). -/
abbrev z1var (V : Valuation τ sig (Elt Ideal)) : S64.Idx → EReal := after ops V (Proc.devRef .tc main_v231)
/-- The second classifier layer before its batch norm (the fold's final value at `main_v251`). -/
abbrev z2 (V : Valuation τ sig (Elt Ideal)) : S500000x32.Idx → EReal := after ops V (Proc.devRef .tc main_v251)
/-- Its column sums (the fold's final value at `main_v252`). -/
abbrev z2sum (V : Valuation τ sig (Elt Ideal)) : S32.Idx → EReal := after ops V (Proc.devRef .tc main_v252)
/-- Its column means (the fold's final value at `main_v254`). -/
abbrev z2mean (V : Valuation τ sig (Elt Ideal)) : S32.Idx → EReal := after ops V (Proc.devRef .tc main_v254)
/-- Its column variances (the fold's final value at `main_v255`). -/
abbrev z2var (V : Valuation τ sig (Elt Ideal)) : S32.Idx → EReal := after ops V (Proc.devRef .tc main_v255)
/-- The result (the fold's final value at `main_v276`). -/
abbrev out (V : Valuation τ sig (Elt Ideal)) : S500000.Idx → EReal := after ops V (Proc.devRef .tc main_v276)
/-- The float argument 1 as an array. -/
abbrev movieX (V : Valuation τ sig (Elt Ideal)) : S20000x64.Idx → EReal := V (Proc.devRef .tc main_arg1)
/-- The float argument 6 as an array. -/
abbrev userEmb (V : Valuation τ sig (Elt Ideal)) : S100000x64.Idx → EReal := V (Proc.devRef .tc main_arg6)
/-- The float argument 7 as an array. -/
abbrev WlUM (V : Valuation τ sig (Elt Ideal)) : S3x64x64.Idx → EReal := V (Proc.devRef .tc main_arg7)
/-- The float argument 8 as an array. -/
abbrev bUM (V : Valuation τ sig (Elt Ideal)) : S3x64.Idx → EReal := V (Proc.devRef .tc main_arg8)
/-- The float argument 9 as an array. -/
abbrev WrUM (V : Valuation τ sig (Elt Ideal)) : S3x64x64.Idx → EReal := V (Proc.devRef .tc main_arg9)
/-- The float argument 10 as an array. -/
abbrev WlMU (V : Valuation τ sig (Elt Ideal)) : S3x64x64.Idx → EReal := V (Proc.devRef .tc main_arg10)
/-- The float argument 11 as an array. -/
abbrev bMU (V : Valuation τ sig (Elt Ideal)) : S3x64.Idx → EReal := V (Proc.devRef .tc main_arg11)
/-- The float argument 12 as an array. -/
abbrev WrMU (V : Valuation τ sig (Elt Ideal)) : S3x64x64.Idx → EReal := V (Proc.devRef .tc main_arg12)
/-- The float argument 13 as an array. -/
abbrev projUW (V : Valuation τ sig (Elt Ideal)) : S192x64.Idx → EReal := V (Proc.devRef .tc main_arg13)
/-- The float argument 14 as an array. -/
abbrev projUb (V : Valuation τ sig (Elt Ideal)) : S64.Idx → EReal := V (Proc.devRef .tc main_arg14)
/-- The float argument 15 as an array. -/
abbrev projMW (V : Valuation τ sig (Elt Ideal)) : S192x64.Idx → EReal := V (Proc.devRef .tc main_arg15)
/-- The float argument 16 as an array. -/
abbrev projMb (V : Valuation τ sig (Elt Ideal)) : S64.Idx → EReal := V (Proc.devRef .tc main_arg16)
/-- The float argument 17 as an array. -/
abbrev W1 (V : Valuation τ sig (Elt Ideal)) : S128x64.Idx → EReal := V (Proc.devRef .tc main_arg17)
/-- The float argument 18 as an array. -/
abbrev b1 (V : Valuation τ sig (Elt Ideal)) : S64.Idx → EReal := V (Proc.devRef .tc main_arg18)
/-- The float argument 19 as an array. -/
abbrev g1 (V : Valuation τ sig (Elt Ideal)) : S64.Idx → EReal := V (Proc.devRef .tc main_arg19)
/-- The float argument 20 as an array. -/
abbrev be1 (V : Valuation τ sig (Elt Ideal)) : S64.Idx → EReal := V (Proc.devRef .tc main_arg20)
/-- The float argument 21 as an array. -/
abbrev W2 (V : Valuation τ sig (Elt Ideal)) : S64x32.Idx → EReal := V (Proc.devRef .tc main_arg21)
/-- The float argument 22 as an array. -/
abbrev b2 (V : Valuation τ sig (Elt Ideal)) : S32.Idx → EReal := V (Proc.devRef .tc main_arg22)
/-- The float argument 23 as an array. -/
abbrev g2 (V : Valuation τ sig (Elt Ideal)) : S32.Idx → EReal := V (Proc.devRef .tc main_arg23)
/-- The float argument 24 as an array. -/
abbrev be2 (V : Valuation τ sig (Elt Ideal)) : S32.Idx → EReal := V (Proc.devRef .tc main_arg24)
/-- The float argument 25 as an array. -/
abbrev W3 (V : Valuation τ sig (Elt Ideal)) : S32x1.Idx → EReal := V (Proc.devRef .tc main_arg25)
/-- The float argument 26 as an array. -/
abbrev b3 (V : Valuation τ sig (Elt Ideal)) : S1.Idx → EReal := V (Proc.devRef .tc main_arg26)
/-- The integer argument 0 as an array of 32-bit words. -/
abbrev nId (V : Valuation τ sig (Elt Ideal)) : S100000.Idx → BitVec 32 := V (Proc.devRef .tc main_arg0)
/-- The integer argument 2 as an array of 32-bit words. -/
abbrev edgeUser (V : Valuation τ sig (Elt Ideal)) : S1000000.Idx → BitVec 32 := V (Proc.devRef .tc main_arg2)
/-- The integer argument 3 as an array of 32-bit words. -/
abbrev edgeMovie (V : Valuation τ sig (Elt Ideal)) : S1000000.Idx → BitVec 32 := V (Proc.devRef .tc main_arg3)
/-- The integer argument 4 as an array of 32-bit words. -/
abbrev labelUser (V : Valuation τ sig (Elt Ideal)) : S500000.Idx → BitVec 32 := V (Proc.devRef .tc main_arg4)
/-- The integer argument 5 as an array of 32-bit words. -/
abbrev labelMovie (V : Valuation τ sig (Elt Ideal)) : S500000.Idx → BitVec 32 := V (Proc.devRef .tc main_arg5)

end Cert.ReferenceIdeal.Hand

end
-- ==== Proof.Ref.At1.lean ====
/- The reference's three message-passing layers read at an index, at the ideal values. Each layer's output row is the
   neighbour sum of the source features divided by the neighbour count (at least one), through one weight, plus the
   bias, plus the node's own features through the other weight, clamped below at zero. The sums over the edges and the
   edge counts stay as the library's scatter and gather operations, named and never opened. -/
import proofs.«176278_j29592324669622_2_alg».proof.Proof.Ref.Arrays
import proofs.«176278_j29592324669622_2_alg».proof.Proof.Ref.AtLib
import Idealize.ShloMosaic.Lib.ValueLayout

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## One layer out of a stacked parameter -/

/-- Layer `l` of a stack of matrices, without its unit axis, at `(k, j)`. -/
theorem slice_matrix_apply {α : Type} {L a b : ℕ} (l : Fin L) (X : (⟨3, ![L, a, b]⟩ : Shape).Idx → α)
    (hs : (⟨3, ![L, a, b]⟩ : Shape).Slices ![l.val, 0, 0] ⟨3, ![1, a, b]⟩)
    (hc : (⟨3, ![1, a, b]⟩ : Shape).ShapeCasts ⟨2, ![a, b]⟩) (k : Fin a) (j : Fin b) :
    shapeCast ⟨2, ![a, b]⟩ (extractStridedSlice ⟨3, ![1, a, b]⟩ ![l.val, 0, 0] X hs) hc (ix2 k j) = X (ix3 l k j) := by
  rw [shapeCast_1ab_ab_apply]
  exact extractStridedSlice_apply _ X hs _ _ fun a => by
    match a with
    | ⟨0, _⟩ => rfl
    | ⟨1, _⟩ => exact (Nat.zero_add _).symm
    | ⟨2, _⟩ => exact (Nat.zero_add _).symm

/-- Layer `l` of a stack of vectors, at `j`. -/
theorem slice_vec_apply {α : Type} {L b : ℕ} (l : Fin L) (X : (⟨2, ![L, b]⟩ : Shape).Idx → α)
    (hs : (⟨2, ![L, b]⟩ : Shape).Slices ![l.val, 0] ⟨2, ![1, b]⟩)
    (hc : (⟨2, ![1, b]⟩ : Shape).ShapeCasts ⟨1, ![b]⟩) (j : Fin b) :
    shapeCast ⟨1, ![b]⟩ (extractStridedSlice ⟨2, ![1, b]⟩ ![l.val, 0] X hs) hc (ix1 j) = X (ix2 l j) := by
  rw [shapeCast_1a_a_apply]
  exact extractStridedSlice_apply _ X hs _ _ fun a => by
    match a with
    | ⟨0, _⟩ => rfl
    | ⟨1, _⟩ => exact (Nat.zero_add _).symm

/-! ## The sums over the edges -/

/-- An edge list as a column of gather or scatter indices. -/
abbrev rEdgeCol (e : S1000000.Idx → BitVec 32) : S1000000x1.Idx → BitVec 32 :=
  broadcastInDim S1000000x1 ![0] bcast_S1000000_S1000000x1_0 e
/-- The user end of each edge as a gather index (a negative index counted from the end). -/
abbrev rWrapUsers (eu : S1000000.Idx → BitVec 32) : S1000000x1.Idx → BitVec 32 :=
  broadcastInDim S1000000x1 ![0] bcast_S1000000_S1000000x1_0 (select (cmpi .slt eu (broadcastInDim S1000000 ![] bcast_S_S1000000 (constantI S_ 32 0#32))) (addi eu (broadcastInDim S1000000 ![] bcast_S_S1000000 (constantI S_ 32 100000#32))) eu)
/-- The movie end of each edge as a gather index. -/
abbrev rWrapMovies (em : S1000000.Idx → BitVec 32) : S1000000x1.Idx → BitVec 32 :=
  broadcastInDim S1000000x1 ![0] bcast_S1000000_S1000000x1_0 (select (cmpi .slt em (broadcastInDim S1000000 ![] bcast_S_S1000000 (constantI S_ 32 0#32))) (addi em (broadcastInDim S1000000 ![] bcast_S_S1000000 (constantI S_ 32 20000#32))) em)
/-- The users' rows at the edges' user ends, summed into each edge's movie. -/
abbrev rSumToMovies (xsrc : S100000x64.Idx → EReal) (eu em : S1000000.Idx → BitVec 32) : S20000x64.Idx → EReal :=
  Host.scatterAdd scatter_S20000x64_S1000000x1_S1000000x64_1_0_0_1 (broadcastInDim S20000x64 ![] bcast_S_S20000x64 (constant (F := Ideal) S_ .f32 0x00000000#32)) (rEdgeCol em) (Host.gather gather_S100000x64_S1000000x1_S1000000x64_1_0_n_n_0_1_164 xsrc (rWrapUsers eu))
/-- The movies' rows at the edges' movie ends, summed into each edge's user. -/
abbrev rSumToUsers (xsrc : S20000x64.Idx → EReal) (eu em : S1000000.Idx → BitVec 32) : S100000x64.Idx → EReal :=
  Host.scatterAdd scatter_S100000x64_S1000000x1_S1000000x64_1_0_0_1 (broadcastInDim S100000x64 ![] bcast_S_S100000x64 (constant (F := Ideal) S_ .f32 0x00000000#32)) (rEdgeCol eu) (Host.gather gather_S20000x64_S1000000x1_S1000000x64_1_0_n_n_0_1_164 xsrc (rWrapMovies em))
/-- The number of edges at each movie. -/
abbrev rCountMovies (em : S1000000.Idx → BitVec 32) : S20000.Idx → EReal :=
  Host.scatterAdd scatter_S20000_S1000000x1_S1000000_n_0_0_1 (broadcastInDim S20000 ![] bcast_S_S20000 (constant (F := Ideal) S_ .f32 0x00000000#32)) (rEdgeCol em) (broadcastInDim S1000000 ![] bcast_S_S1000000 (constant (F := Ideal) S_ .f32 0x3F800000#32))
/-- The number of edges at each user. -/
abbrev rCountUsers (eu : S1000000.Idx → BitVec 32) : S100000.Idx → EReal :=
  Host.scatterAdd scatter_S100000_S1000000x1_S1000000_n_0_0_1 (broadcastInDim S100000 ![] bcast_S_S100000 (constant (F := Ideal) S_ .f32 0x00000000#32)) (rEdgeCol eu) (broadcastInDim S1000000 ![] bcast_S_S1000000 (constant (F := Ideal) S_ .f32 0x3F800000#32))

/-! ## A layer at an index -/

/-- A layer on `R` rows at row `n` and column `j`: the divided neighbour sum through one weight, plus the bias, plus the
    node's own row through the other weight, clamped below at the scalar `z`. -/
theorem sage_layer_apply {R : Nat}
    (d : DotDims ⟨2, ![R, 64]⟩ ⟨2, ![64, 64]⟩ ⟨2, ![R, 64]⟩) (hd : d = DotDims.plain R 64 64)
    (hz : (⟨0, ![]⟩ : Shape).BroadcastsInDim ⟨2, ![R, 64]⟩ ![])
    (hcols : (⟨2, ![R, 1]⟩ : Shape).BroadcastsInDim ⟨2, ![R, 64]⟩ ![0, 1])
    (hcol : (⟨1, ![R]⟩ : Shape).BroadcastsInDim ⟨2, ![R, 1]⟩ ![0])
    (hrows : (⟨2, ![1, 64]⟩ : Shape).BroadcastsInDim ⟨2, ![R, 64]⟩ ![0, 1])
    (hrow : (⟨1, ![64]⟩ : Shape).BroadcastsInDim ⟨2, ![1, 64]⟩ ![1])
    (S : FVec Ideal ⟨2, ![R, 64]⟩ .f32) (cnt : FVec Ideal ⟨1, ![R]⟩ .f32) (Wl : FVec Ideal ⟨2, ![64, 64]⟩ .f32)
    (b : FVec Ideal ⟨1, ![64]⟩ .f32) (x : FVec Ideal ⟨2, ![R, 64]⟩ .f32) (Wr : FVec Ideal ⟨2, ![64, 64]⟩ .f32)
    (z : FVec Ideal ⟨0, ![]⟩ .f32) (n : Fin R) (j : Fin 64) :
    maximumf (addf (addf (Host.dotGeneral d none (Host.divf S (broadcastInDim ⟨2, ![R, 64]⟩ ![0, 1] hcols (broadcastInDim ⟨2, ![R, 1]⟩ ![0] hcol cnt))) Wl)
        (broadcastInDim ⟨2, ![R, 64]⟩ ![0, 1] hrows (broadcastInDim ⟨2, ![1, 64]⟩ ![1] hrow b)))
        (Host.dotGeneral d none x Wr)) (broadcastInDim ⟨2, ![R, 64]⟩ ![] hz z) (ix2 n j)
      = max ((∑ k : Fin 64, Ideal.div (S (ix2 n k)) (cnt (ix1 n)) * Wl (ix2 k j)) + b (ix1 j)
          + ∑ k : Fin 64, x (ix2 n k) * Wr (ix2 k j)) (z ix0) := by
  rw [maximumf_apply, addf_apply, addf_apply, hostDot_apply d hd, hostDot_apply d hd, bcast_rows_apply, bcast_vec_row_apply,
    broadcastInDim_scalar_apply]
  refine congrArg (max · (z ix0)) (congrArg (· + _) (congrArg (· + _) (Finset.sum_congr rfl fun k _ => ?_)))
  rw [hostDivf_apply, bcast_cols_apply, bcast_vec_col_apply]

/-- A layer on `R` rows at row `n` and column `j`, from the stacked parameters' layer `l`: the neighbour sum divided by the
    neighbour count (at least the scalar `w₁`) through one weight, plus the bias, plus the node's own row through the other
    weight, clamped below at the scalar `w₀`. -/
theorem sage_layer_full {R L : Nat}
    (d : DotDims ⟨2, ![R, 64]⟩ ⟨2, ![64, 64]⟩ ⟨2, ![R, 64]⟩) (hd : d = DotDims.plain R 64 64)
    (hz : (⟨0, ![]⟩ : Shape).BroadcastsInDim ⟨2, ![R, 64]⟩ ![])
    (hcols : (⟨2, ![R, 1]⟩ : Shape).BroadcastsInDim ⟨2, ![R, 64]⟩ ![0, 1])
    (hcol : (⟨1, ![R]⟩ : Shape).BroadcastsInDim ⟨2, ![R, 1]⟩ ![0])
    (hone : (⟨0, ![]⟩ : Shape).BroadcastsInDim ⟨1, ![R]⟩ ![])
    (hrows : (⟨2, ![1, 64]⟩ : Shape).BroadcastsInDim ⟨2, ![R, 64]⟩ ![0, 1])
    (hrow : (⟨1, ![64]⟩ : Shape).BroadcastsInDim ⟨2, ![1, 64]⟩ ![1])
    (l : Fin L)
    (hsW : (⟨3, ![L, 64, 64]⟩ : Shape).Slices ![l.val, 0, 0] ⟨3, ![1, 64, 64]⟩)
    (hcW : (⟨3, ![1, 64, 64]⟩ : Shape).ShapeCasts ⟨2, ![64, 64]⟩)
    (hsb : (⟨2, ![L, 64]⟩ : Shape).Slices ![l.val, 0] ⟨2, ![1, 64]⟩)
    (hcb : (⟨2, ![1, 64]⟩ : Shape).ShapeCasts ⟨1, ![64]⟩)
    (S : FVec Ideal ⟨2, ![R, 64]⟩ .f32) (CNT : FVec Ideal ⟨1, ![R]⟩ .f32) (w₁ w₀ : BitVec 32)
    (Wl : FVec Ideal ⟨3, ![L, 64, 64]⟩ .f32) (b : FVec Ideal ⟨2, ![L, 64]⟩ .f32) (x : FVec Ideal ⟨2, ![R, 64]⟩ .f32)
    (Wr : FVec Ideal ⟨3, ![L, 64, 64]⟩ .f32) (n : Fin R) (j : Fin 64) :
    maximumf (addf (addf (Host.dotGeneral d none (Host.divf S (broadcastInDim ⟨2, ![R, 64]⟩ ![0, 1] hcols (broadcastInDim ⟨2, ![R, 1]⟩ ![0] hcol
          (maximumf CNT (broadcastInDim ⟨1, ![R]⟩ ![] hone (constant (F := Ideal) ⟨0, ![]⟩ .f32 w₁))))))
          (shapeCast ⟨2, ![64, 64]⟩ (extractStridedSlice ⟨3, ![1, 64, 64]⟩ ![l.val, 0, 0] Wl hsW) hcW))
        (broadcastInDim ⟨2, ![R, 64]⟩ ![0, 1] hrows (broadcastInDim ⟨2, ![1, 64]⟩ ![1] hrow
          (shapeCast ⟨1, ![64]⟩ (extractStridedSlice ⟨2, ![1, 64]⟩ ![l.val, 0] b hsb) hcb))))
        (Host.dotGeneral d none x (shapeCast ⟨2, ![64, 64]⟩ (extractStridedSlice ⟨3, ![1, 64, 64]⟩ ![l.val, 0, 0] Wr hsW) hcW)))
        (broadcastInDim ⟨2, ![R, 64]⟩ ![] hz (constant (F := Ideal) ⟨0, ![]⟩ .f32 w₀)) (ix2 n j)
      = max ((∑ k : Fin 64, Ideal.div (S (ix2 n k)) (max (CNT (ix1 n)) (Ideal.ofBits .f32 w₁)) * Wl (ix3 l k j)) + b (ix2 l j)
          + ∑ k : Fin 64, x (ix2 n k) * Wr (ix3 l k j)) (Ideal.ofBits .f32 w₀) := by
  refine (sage_layer_apply d hd hz hcols hcol hrows hrow S _ _ _ x _ _ n j).trans ?_
  refine congrArg₂ max ?_ rfl
  refine congrArg₂ (· + ·) (congrArg₂ (· + ·) (Finset.sum_congr rfl fun k _ => ?_) ?_) (Finset.sum_congr rfl fun k _ => ?_)
  · refine congrArg₂ (· * ·) (congrArg (Ideal.div _) ?_) (slice_matrix_apply l Wl hsW hcW k j)
    exact congrArg (max _) (broadcastInDim_scalar_apply hone _ _)
  · exact slice_vec_apply l b hsb hcb j
  · exact congrArg (_ * ·) (slice_matrix_apply l Wr hsW hcW k j)

/-! ## The six layer outputs -/

/-- The movies' features after layer 1 at a row and column. -/
theorem at_xm1 (V : Valuation τ sig (Elt Ideal)) (n : Fin 20000) (j : Fin 64) :
    xm1 V (ix2 n j) = max ((∑ k : Fin 64, Ideal.div (rSumToMovies (xu0 V) (edgeUser V) (edgeMovie V) (ix2 n k)) (max (rCountMovies (edgeMovie V) (ix1 n)) (Ideal.ofBits .f32 0x3F800000#32)) * WlUM V (ix3 (0 : Fin 3) k j))
        + bUM V (ix2 (0 : Fin 3) j) + ∑ k : Fin 64, movieX V (ix2 n k) * WrUM V (ix3 (0 : Fin 3) k j)) (Ideal.ofBits .f32 0x00000000#32) := by
  show after ops V (Proc.devRef .tc main_v69) (ix2 n j) = _
  rw [read_v69 V]
  exact sage_layer_full (R := 20000) (L := 3) dot_S20000x64_S64x64_S20000x64_1_0_0_1_n_n rfl bcast_S_S20000x64 bcast_S20000x1_S20000x64_0_1 bcast_S20000_S20000x1_0
    bcast_S_S20000 bcast_S1x64_S20000x64_0_1 bcast_S64_S1x64_1 (0 : Fin 3) slices_S3x64x64_S1x64x64_0_0_0 shapeCasts_S1x64x64_S64x64
    slices_S3x64_S1x64_0_0 shapeCasts_S1x64_S64
    (rSumToMovies (xu0 V) (edgeUser V) (edgeMovie V)) (rCountMovies (edgeMovie V)) 0x3F800000#32 0x00000000#32 (WlUM V) (bUM V) (movieX V) (WrUM V) n j

/-- The users' features after layer 1 at a row and column. -/
theorem at_xu1 (V : Valuation τ sig (Elt Ideal)) (n : Fin 100000) (j : Fin 64) :
    xu1 V (ix2 n j) = max ((∑ k : Fin 64, Ideal.div (rSumToUsers (movieX V) (edgeUser V) (edgeMovie V) (ix2 n k)) (max (rCountUsers (edgeUser V) (ix1 n)) (Ideal.ofBits .f32 0x3F800000#32)) * WlMU V (ix3 (0 : Fin 3) k j))
        + bMU V (ix2 (0 : Fin 3) j) + ∑ k : Fin 64, xu0 V (ix2 n k) * WrMU V (ix3 (0 : Fin 3) k j)) (Ideal.ofBits .f32 0x00000000#32) := by
  show after ops V (Proc.devRef .tc main_v70) (ix2 n j) = _
  rw [read_v70 V]
  exact sage_layer_full (R := 100000) (L := 3) dot_S100000x64_S64x64_S100000x64_1_0_0_1_n_n rfl bcast_S_S100000x64 bcast_S100000x1_S100000x64_0_1 bcast_S100000_S100000x1_0
    bcast_S_S100000 bcast_S1x64_S100000x64_0_1 bcast_S64_S1x64_1 (0 : Fin 3) slices_S3x64x64_S1x64x64_0_0_0 shapeCasts_S1x64x64_S64x64
    slices_S3x64_S1x64_0_0 shapeCasts_S1x64_S64
    (rSumToUsers (movieX V) (edgeUser V) (edgeMovie V)) (rCountUsers (edgeUser V)) 0x3F800000#32 0x00000000#32 (WlMU V) (bMU V) (xu0 V) (WrMU V) n j

/-- The movies' features after layer 2 at a row and column. -/
theorem at_xm2 (V : Valuation τ sig (Elt Ideal)) (n : Fin 20000) (j : Fin 64) :
    xm2 V (ix2 n j) = max ((∑ k : Fin 64, Ideal.div (rSumToMovies (xu1 V) (edgeUser V) (edgeMovie V) (ix2 n k)) (max (rCountMovies (edgeMovie V) (ix1 n)) (Ideal.ofBits .f32 0x3F800000#32)) * WlUM V (ix3 (1 : Fin 3) k j))
        + bUM V (ix2 (1 : Fin 3) j) + ∑ k : Fin 64, xm1 V (ix2 n k) * WrUM V (ix3 (1 : Fin 3) k j)) (Ideal.ofBits .f32 0x00000000#32) := by
  show after ops V (Proc.devRef .tc main_v133) (ix2 n j) = _
  rw [read_v133 V]
  exact sage_layer_full (R := 20000) (L := 3) dot_S20000x64_S64x64_S20000x64_1_0_0_1_n_n rfl bcast_S_S20000x64 bcast_S20000x1_S20000x64_0_1 bcast_S20000_S20000x1_0
    bcast_S_S20000 bcast_S1x64_S20000x64_0_1 bcast_S64_S1x64_1 (1 : Fin 3) slices_S3x64x64_S1x64x64_1_0_0 shapeCasts_S1x64x64_S64x64
    slices_S3x64_S1x64_1_0 shapeCasts_S1x64_S64
    (rSumToMovies (xu1 V) (edgeUser V) (edgeMovie V)) (rCountMovies (edgeMovie V)) 0x3F800000#32 0x00000000#32 (WlUM V) (bUM V) (xm1 V) (WrUM V) n j

/-- The users' features after layer 2 at a row and column. -/
theorem at_xu2 (V : Valuation τ sig (Elt Ideal)) (n : Fin 100000) (j : Fin 64) :
    xu2 V (ix2 n j) = max ((∑ k : Fin 64, Ideal.div (rSumToUsers (xm1 V) (edgeUser V) (edgeMovie V) (ix2 n k)) (max (rCountUsers (edgeUser V) (ix1 n)) (Ideal.ofBits .f32 0x3F800000#32)) * WlMU V (ix3 (1 : Fin 3) k j))
        + bMU V (ix2 (1 : Fin 3) j) + ∑ k : Fin 64, xu1 V (ix2 n k) * WrMU V (ix3 (1 : Fin 3) k j)) (Ideal.ofBits .f32 0x00000000#32) := by
  show after ops V (Proc.devRef .tc main_v134) (ix2 n j) = _
  rw [read_v134 V]
  exact sage_layer_full (R := 100000) (L := 3) dot_S100000x64_S64x64_S100000x64_1_0_0_1_n_n rfl bcast_S_S100000x64 bcast_S100000x1_S100000x64_0_1 bcast_S100000_S100000x1_0
    bcast_S_S100000 bcast_S1x64_S100000x64_0_1 bcast_S64_S1x64_1 (1 : Fin 3) slices_S3x64x64_S1x64x64_1_0_0 shapeCasts_S1x64x64_S64x64
    slices_S3x64_S1x64_1_0 shapeCasts_S1x64_S64
    (rSumToUsers (xm1 V) (edgeUser V) (edgeMovie V)) (rCountUsers (edgeUser V)) 0x3F800000#32 0x00000000#32 (WlMU V) (bMU V) (xu1 V) (WrMU V) n j

/-- The movies' features after layer 3 at a row and column. -/
theorem at_xm3 (V : Valuation τ sig (Elt Ideal)) (n : Fin 20000) (j : Fin 64) :
    xm3 V (ix2 n j) = max ((∑ k : Fin 64, Ideal.div (rSumToMovies (xu2 V) (edgeUser V) (edgeMovie V) (ix2 n k)) (max (rCountMovies (edgeMovie V) (ix1 n)) (Ideal.ofBits .f32 0x3F800000#32)) * WlUM V (ix3 (2 : Fin 3) k j))
        + bUM V (ix2 (2 : Fin 3) j) + ∑ k : Fin 64, xm2 V (ix2 n k) * WrUM V (ix3 (2 : Fin 3) k j)) (Ideal.ofBits .f32 0x00000000#32) := by
  show after ops V (Proc.devRef .tc main_v197) (ix2 n j) = _
  rw [read_v197 V]
  exact sage_layer_full (R := 20000) (L := 3) dot_S20000x64_S64x64_S20000x64_1_0_0_1_n_n rfl bcast_S_S20000x64 bcast_S20000x1_S20000x64_0_1 bcast_S20000_S20000x1_0
    bcast_S_S20000 bcast_S1x64_S20000x64_0_1 bcast_S64_S1x64_1 (2 : Fin 3) slices_S3x64x64_S1x64x64_2_0_0 shapeCasts_S1x64x64_S64x64
    slices_S3x64_S1x64_2_0 shapeCasts_S1x64_S64
    (rSumToMovies (xu2 V) (edgeUser V) (edgeMovie V)) (rCountMovies (edgeMovie V)) 0x3F800000#32 0x00000000#32 (WlUM V) (bUM V) (xm2 V) (WrUM V) n j

/-- The users' features after layer 3 at a row and column. -/
theorem at_xu3 (V : Valuation τ sig (Elt Ideal)) (n : Fin 100000) (j : Fin 64) :
    xu3 V (ix2 n j) = max ((∑ k : Fin 64, Ideal.div (rSumToUsers (xm2 V) (edgeUser V) (edgeMovie V) (ix2 n k)) (max (rCountUsers (edgeUser V) (ix1 n)) (Ideal.ofBits .f32 0x3F800000#32)) * WlMU V (ix3 (2 : Fin 3) k j))
        + bMU V (ix2 (2 : Fin 3) j) + ∑ k : Fin 64, xu2 V (ix2 n k) * WrMU V (ix3 (2 : Fin 3) k j)) (Ideal.ofBits .f32 0x00000000#32) := by
  show after ops V (Proc.devRef .tc main_v198) (ix2 n j) = _
  rw [read_v198 V]
  exact sage_layer_full (R := 100000) (L := 3) dot_S100000x64_S64x64_S100000x64_1_0_0_1_n_n rfl bcast_S_S100000x64 bcast_S100000x1_S100000x64_0_1 bcast_S100000_S100000x1_0
    bcast_S_S100000 bcast_S1x64_S100000x64_0_1 bcast_S64_S1x64_1 (2 : Fin 3) slices_S3x64x64_S1x64x64_2_0_0 shapeCasts_S1x64x64_S64x64
    slices_S3x64_S1x64_2_0 shapeCasts_S1x64_S64
    (rSumToUsers (xm2 V) (edgeUser V) (edgeMovie V)) (rCountUsers (edgeUser V)) 0x3F800000#32 0x00000000#32 (WlMU V) (bMU V) (xu2 V) (WrMU V) n j

end Cert.ReferenceIdeal.Hand

end
-- ==== Proof.LibMeanLaws.lean ====
/-
  Laws of the extended reals that join a mean aggregation written as a product with a reciprocal count to one written
  as a quotient, and a linear map with pre-summed weights to the sum of the linear maps.

  * Off zero, `x / y` is `x · (1 / y)` on EVERY extended real `x` (both are `x · y⁻¹`); a count clamped from below by
    one, `max c 1`, is never zero, so `s / max c 1 = s · (1 / max c 1)` needs no finiteness of `s` or `c`.
  * A dot product distributes over a sum of weights when all three families are real:
    `∑ x·(a + b) = ∑ x·a + ∑ x·b`. (On the extended reals this fails at opposite infinities, so the hypothesis is used.)
  * Being a real number is closed under sums, products, finite sums, maxima, and quotients by a real that is at least one.
-/
import Idealize.ShloMosaic.PureOps.Ideal
import Idealize.ShloMosaic.PureOps.Ideal.Laws

noncomputable section

namespace Cert.Lib.MeanLaws

open Idealize.ShloMosaic

/-- Off zero a quotient is the product with the reciprocal, for every extended real numerator. -/
theorem div_eq_mul_one_div {y : EReal} (hy : y ≠ 0) (x : EReal) : Ideal.div x y = x * Ideal.div 1 y := by
  rw [Ideal.div, if_neg hy, Ideal.div, if_neg hy, one_mul]

/-- A quantity clamped from below by one is not zero. -/
theorem max_one_ne_zero (c : EReal) : max c 1 ≠ 0 :=
  ne_of_gt (lt_of_lt_of_le zero_lt_one (le_max_right c 1))

/-- The mean by a clamped count: dividing by `max c 1` is multiplying by its reciprocal, whatever `x` and `c` are. -/
theorem div_max_one (x c : EReal) : Ideal.div x (max c 1) = x * Ideal.div 1 (max c 1) :=
  div_eq_mul_one_div (max_one_ne_zero c) x

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ k ∈ s, IsReal (f k)) : IsReal (∑ k ∈ s, f k) := by
  classical
  induction s using Finset.induction_on with
  | empty => simpa using IsReal.zero
  | insert a s ha ih =>
    rw [Finset.sum_insert ha]
    exact (h a (Finset.mem_insert_self a s)).add (ih fun k hk => h k (Finset.mem_insert_of_mem hk))

/-- The reciprocal of a real clamped from below by one is a real. -/
theorem isReal_one_div_max_one {c : EReal} (hc : IsReal c) : IsReal (Ideal.div 1 (max c 1)) := by
  obtain ⟨r, hr⟩ := hc.max IsReal.one
  have hne : (r : EReal) ≠ 0 := hr ▸ max_one_ne_zero c
  rw [hr, Ideal.div_coe (by exact_mod_cast hne), one_mul]
  exact ⟨_, rfl⟩

/-- A dot product distributes over a sum of two weight families when everything is real. -/
theorem sum_mul_add {ι : Type*} (s : Finset ι) (x a b : ι → EReal)
    (hx : ∀ k ∈ s, IsReal (x k)) (ha : ∀ k ∈ s, IsReal (a k)) (hb : ∀ k ∈ s, IsReal (b k)) :
    ∑ k ∈ s, x k * (a k + b k) = ∑ k ∈ s, x k * a k + ∑ k ∈ s, x k * b k := by
  rw [← Finset.sum_add_distrib]
  refine Finset.sum_congr rfl fun k hk => ?_
  obtain ⟨u, hu⟩ := hx k hk; obtain ⟨v, hv⟩ := ha k hk; obtain ⟨w, hw⟩ := hb k hk
  rw [hu, hv, hw, ← EReal.coe_add, ← EReal.coe_mul, ← EReal.coe_mul, ← EReal.coe_mul, ← EReal.coe_add, mul_add]

end Cert.Lib.MeanLaws

end
-- ==== Proof.Math.Literals.lean ====
/-
  The float constants of the network, as the extended reals their bit patterns denote: `1` and `+∞`; the row count
  `500000` (sign `0`, exponent `145`, fraction `7611392`: `(2²³ + 7611392) · 2⁻⁵ = 16000000 / 32`), and the small
  constant added to a variance (exponent `110`, fraction `2606508`: `10995116 · 2⁻⁴⁰`), which matters only as a positive
  real.  The reference's variance divides by the count minus a zero offset converted from an integer, under a guard
  that the divisor is positive: both are evaluated here.
-/
import Idealize.ShloMosaic.PureOps.Ideal
import Idealize.ShloMosaic.PureOps.Ideal.Laws

noncomputable section

namespace Cert.Bridge

open Idealize.ShloMosaic

/-- The pattern `0x48F42400` denotes the real number `500000`. -/
theorem ofBits_f32_500000 : Ideal.ofBits .f32 0x48F42400#32 = ((500000 : ℝ) : EReal) := by
  have hneg : ((0x48F42400#32 : BitVec 32).extractLsb' (8 + 23) 1 == 1#1) = false := by decide
  have hex : ((0x48F42400#32 : BitVec 32).extractLsb' 23 8).toNat = 145 := by decide
  have hfr : ((0x48F42400#32 : BitVec 32).extractLsb' 0 23).toNat = 7611392 := by decide
  simp only [Ideal.ofBits, Ideal.ieee, hneg, hex, hfr]
  norm_num

/-- The pattern `0x3727C5AC` (the float nearest `10⁻⁵`) denotes a positive real number. -/
theorem ofBits_f32_eps : ∃ e : ℝ, 0 < e ∧ Ideal.ofBits .f32 0x3727C5AC#32 = (e : EReal) := by
  have hneg : ((0x3727C5AC#32 : BitVec 32).extractLsb' (8 + 23) 1 == 1#1) = false := by decide
  have hex : ((0x3727C5AC#32 : BitVec 32).extractLsb' 23 8).toNat = 110 := by decide
  have hfr : ((0x3727C5AC#32 : BitVec 32).extractLsb' 0 23).toNat = 2606508 := by decide
  refine ⟨(10995116 : ℝ) * (2 : ℝ) ^ (-40 : Int), by positivity, ?_⟩
  simp only [Ideal.ofBits, Ideal.ieee, hneg, hex, hfr]
  norm_num

/-- The pattern `0x3F800000` denotes `1`. -/
theorem ofBits_f32_one : Ideal.ofBits .f32 0x3F800000#32 = 1 := by
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  simp only [Ideal.ofBits, Ideal.ieee, hneg, hex, hfr]
  norm_num

/-- The pattern `0x7F800000` denotes `⊤`. -/
theorem ofBits_f32_inf : Ideal.ofBits .f32 0x7F800000#32 = ⊤ := by
  have hneg : ((0x7F800000#32 : BitVec 32).extractLsb' (8 + 23) 1 == 1#1) = false := by decide
  have hex : ((0x7F800000#32 : BitVec 32).extractLsb' 23 8).toNat = 255 := by decide
  have hfr : ((0x7F800000#32 : BitVec 32).extractLsb' 0 23).toNat = 0 := by decide
  simp only [Ideal.ofBits, Ideal.ieee, hneg, hex, hfr]
  norm_num

/-- The count is positive. -/
theorem count_pos : (0 : ℝ) < 500000 := by norm_num

/-- The count minus the zero offset (the integer `0` converted to a float) is the count. -/
theorem count_sub_zero :
    ((500000 : ℝ) : EReal) - ((((0#32 : BitVec 32).toInt : ℤ) : ℝ) : EReal) = ((500000 : ℝ) : EReal) := by
  have h0 : (0#32 : BitVec 32).toInt = 0 := by decide
  rw [h0, Int.cast_zero, EReal.coe_zero, sub_zero]

/-- The guard of the reference's variance: the count is greater than the zero pattern's value. -/
theorem cmp_ogt_count_zero : Ideal.cmp .ogt ((500000 : ℝ) : EReal) (Ideal.ofBits .f32 0x00000000#32) = 1#1 := by
  rw [Ideal.ofBits_zero_f32]
  have h : (0 : EReal) < ((500000 : ℝ) : EReal) := by exact_mod_cast count_pos
  simp [Ideal.cmp, h]

end Cert.Bridge

end
-- ==== Proof.Math.Variance.lean ====
/-
  The batch variance of a column of real numbers, computed two ways.

  With `S = ∑ xᵢ`, `m = S / n` and `n` the number of rows, the variance taken about the mean,
  `(∑ (xᵢ - m)·(xᵢ - m)) / n`, equals the second moment minus the squared mean, `(∑ xᵢ·xᵢ) / n - m·m`:
  expanding the square gives `∑ xᵢ² - 2·m·S + n·m²`, and `S = n·m`.  The expansion distributes a product over a
  difference and cancels, which fails on the extended reals at the infinities, so every `xᵢ` is assumed to be a real
  number and the identity is proved on the reals; the coercion into the extended reals commutes with the finite sums.

  The variance so computed is a nonnegative real, so adding a positive real to it gives a positive real, whose
  reciprocal square root is again a real.
-/
import Idealize.ShloMosaic.PureOps.Ideal
import Idealize.ShloMosaic.PureOps.Ideal.Laws
import proofs.«176278_j29592324669622_2_alg».proof.Proof.LibMeanLaws

noncomputable section

namespace Cert.Bridge

open Idealize.ShloMosaic
open Cert.Lib.MeanLaws (IsReal)

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of two reals, the divisor not zero, taken on the extended reals is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- On the reals: the variance about the mean is the second moment minus the squared mean. -/
theorem variance_real {ι : Type*} [Fintype ι] (y : ι → ℝ) (n : ℝ) (hn : n = (Fintype.card ι : ℝ)) (hpos : 0 < n) :
    (∑ i, (y i - (∑ i, y i) / n) * (y i - (∑ i, y i) / n)) / n
      = (∑ i, y i * y i) / n - (∑ i, y i) / n * ((∑ i, y i) / n) := by
  have hne : n ≠ 0 := ne_of_gt hpos
  set S : ℝ := ∑ i, y i with hS
  have hexp : ∀ i, (y i - S / n) * (y i - S / n) = y i * y i - 2 * (S / n) * y i + S / n * (S / n) := fun i => by ring
  simp only [hexp, Finset.sum_add_distrib, Finset.sum_sub_distrib, ← Finset.mul_sum, Finset.sum_const,
    Finset.card_univ, nsmul_eq_mul, ← hn, ← hS]
  field_simp
  ring

/-- The variance about the mean of real numbers is not negative. -/
theorem variance_real_nonneg {ι : Type*} [Fintype ι] (y : ι → ℝ) (m n : ℝ) (hpos : 0 < n) :
    0 ≤ (∑ i, (y i - m) * (y i - m)) / n :=
  div_nonneg (Finset.sum_nonneg fun i _ => mul_self_nonneg _) hpos.le

/-- The two variances agree on the extended reals when every entry is a real number: `c` is the row count as an
    extended real, the mean is `(∑ xᵢ) / c`, and both quotients are the extended reals' division. -/
theorem variance_eq {ι : Type*} [Fintype ι] (x : ι → EReal) (hx : ∀ i, IsReal (x i)) (c : EReal) (n : ℝ)
    (hc : c = (n : EReal)) (hn : n = (Fintype.card ι : ℝ)) (hpos : 0 < n) :
    Ideal.div (∑ i, (x i - Ideal.div (∑ i, x i) c) * (x i - Ideal.div (∑ i, x i) c)) c
      = Ideal.div (∑ i, x i * x i) c - Ideal.div (∑ i, x i) c * Ideal.div (∑ i, x i) c := by
  have hne : n ≠ 0 := ne_of_gt hpos
  choose y hy using hx
  obtain rfl : x = fun i => (y i : EReal) := funext hy
  subst hc
  simp only [← coe_sum, div_coe_coe _ hne, ← EReal.coe_sub, ← EReal.coe_mul]
  exact congrArg Real.toEReal (variance_real y n hn hpos)

/-- The variance about the mean is a nonnegative real number. -/
theorem variance_isReal_nonneg {ι : Type*} [Fintype ι] (x : ι → EReal) (hx : ∀ i, IsReal (x i)) (c : EReal) (n : ℝ)
    (hc : c = (n : EReal)) (hpos : 0 < n) :
    ∃ v : ℝ, 0 ≤ v ∧
      Ideal.div (∑ i, (x i - Ideal.div (∑ i, x i) c) * (x i - Ideal.div (∑ i, x i) c)) c = (v : EReal) := by
  have hne : n ≠ 0 := ne_of_gt hpos
  choose y hy using hx
  obtain rfl : x = fun i => (y i : EReal) := funext hy
  subst hc
  refine ⟨_, variance_real_nonneg y ((∑ i, y i) / n) n hpos, ?_⟩
  simp only [← coe_sum, div_coe_coe _ hne, ← EReal.coe_sub, ← EReal.coe_mul]

/-- The mean of real numbers is a real number. -/
theorem mean_isReal {ι : Type*} [Fintype ι] (x : ι → EReal) (hx : ∀ i, IsReal (x i)) (c : EReal) (n : ℝ)
    (hc : c = (n : EReal)) (hne : n ≠ 0) : IsReal (Ideal.div (∑ i, x i) c) := by
  choose y hy using hx
  obtain rfl : x = fun i => (y i : EReal) := funext hy
  subst hc
  exact ⟨_, by rw [← coe_sum, div_coe_coe _ hne]⟩

/-- The reciprocal square root of a positive real is a positive real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg (ne_of_gt hr)]

/-- A nonnegative real plus a positive real, under the reciprocal square root, is a real number. -/
theorem isReal_rsqrt_add {v e : ℝ} (hv : 0 ≤ v) (he : 0 < e) : IsReal (Ideal.rsqrt ((v : EReal) + (e : EReal))) := by
  rw [← EReal.coe_add, rsqrt_coe_pos (add_pos_of_nonneg_of_pos hv he)]
  exact ⟨_, rfl⟩

end Cert.Bridge

end
-- ==== Proof.Math.Real.lean ====
/-
  Being a real number, carried through the network.

  The extended reals' laws that need finiteness (distributing a product over a sum, cancelling) hold when every
  quantity involved is a real number, so the fact "this entry is a real number" has to travel from the inputs through
  every operation down to the batch statistics.  It is closed under sums, differences, negation, products, the maximum
  with zero, finite sums (hence dot products and sums over the rows landing on a node), the quotient by a nonzero real
  (hence by a count clamped from below by one), and the reciprocal square root of a positive real; and any
  re-indexing of an all-real array (a row gather, a slice, a transpose, a broadcast) is all-real.
-/
import Idealize.ShloMosaic.PureOps.Ideal
import Idealize.ShloMosaic.PureOps.Ideal.Laws
import proofs.«176278_j29592324669622_2_alg».proof.Proof.LibMeanLaws
import proofs.«176278_j29592324669622_2_alg».proof.Proof.Math.Variance

noncomputable section

namespace Cert.Bridge

open Idealize.ShloMosaic
open Cert.Lib.MeanLaws (IsReal isReal_one_div_max_one div_max_one)

/-! ### One extended real -/

theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩
    induction x using EReal.rec with
    | bot => exact absurd rfl hb
    | top => exact absurd rfl ht
    | coe r => exact ⟨r, rfl⟩

/-- An extended real whose absolute value, `max x (-x)`, is below `⊤` is a real number. -/
theorem isReal_of_abs_lt_top {x : EReal} (h : max x (-x) < ⊤) : IsReal x := by
  induction x using EReal.rec with
  | bot => rw [EReal.neg_bot, max_eq_right bot_le] at h; exact absurd h (lt_irrefl _)
  | top => rw [max_eq_left (le_top)] at h; exact absurd h (lt_irrefl _)
  | coe r => exact ⟨r, rfl⟩

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

/-- The rectifier, `max x 0`. -/
theorem isReal_max_zero {x : EReal} (hx : IsReal x) : IsReal (max x 0) := hx.max IsReal.zero

/-- A quotient by a nonzero real. -/
theorem isReal_div_coe {x : EReal} (hx : IsReal x) {n : ℝ} (hn : n ≠ 0) : IsReal (Ideal.div x (n : EReal)) := by
  obtain ⟨a, rfl⟩ := hx; exact ⟨a / n, div_coe_coe a hn⟩

/-- A quotient by a real count clamped from below by one. -/
theorem isReal_div_max_one {x c : EReal} (hx : IsReal x) (hc : IsReal c) : IsReal (Ideal.div x (max c 1)) := by
  rw [div_max_one]; exact hx.mul (isReal_one_div_max_one hc)

/-- The reciprocal square root of a positive real. -/
theorem isReal_rsqrt {r : ℝ} (hr : 0 < r) : IsReal (Ideal.rsqrt (r : EReal)) := ⟨_, rsqrt_coe_pos hr⟩

/-- A finite sum of ones (the number of rows landing on a node) is a real number. -/
theorem isReal_sum_one {κ : Type*} (s : Finset κ) : IsReal (∑ _k ∈ s, (1 : EReal)) :=
  IsReal.sum s _ fun _ _ => IsReal.one

/-! ### A whole array -/

/-- Every entry of the array is a real number. -/
def AllReal {ι : Type*} (f : ι → EReal) : Prop := ∀ i, IsReal (f i)

namespace AllReal

variable {ι κ : Type*}

/-- The entries as a family of reals. -/
theorem exists_real {f : ι → EReal} (hf : AllReal f) : ∃ y : ι → ℝ, f = fun i => (y i : EReal) := by
  choose y hy using hf; exact ⟨y, funext hy⟩

theorem of_real (y : ι → ℝ) : AllReal fun i => (y i : EReal) := fun i => ⟨y i, rfl⟩

theorem const {x : EReal} (hx : IsReal x) : AllReal fun _ : ι => x := fun _ => hx

/-- Any re-indexing (a gather of rows, a slice, a transpose, a broadcast) of an all-real array is all-real. -/
theorem comp {f : ι → EReal} (hf : AllReal f) (g : κ → ι) : AllReal fun k => f (g k) := fun k => hf (g k)

theorem add {f g : ι → EReal} (hf : AllReal f) (hg : AllReal g) : AllReal fun i => f i + g i :=
  fun i => (hf i).add (hg i)

theorem sub {f g : ι → EReal} (hf : AllReal f) (hg : AllReal g) : AllReal fun i => f i - g i :=
  fun i => isReal_sub (hf i) (hg i)

theorem neg {f : ι → EReal} (hf : AllReal f) : AllReal fun i => -f i := fun i => isReal_neg (hf i)

theorem mul {f g : ι → EReal} (hf : AllReal f) (hg : AllReal g) : AllReal fun i => f i * g i :=
  fun i => (hf i).mul (hg i)

theorem max_zero {f : ι → EReal} (hf : AllReal f) : AllReal fun i => max (f i) 0 := fun i => isReal_max_zero (hf i)

/-- A finite sum of all-real arrays, entry by entry. -/
theorem sum (s : Finset κ) {f : κ → ι → EReal} (hf : ∀ k ∈ s, AllReal (f k)) : AllReal fun i => ∑ k ∈ s, f k i :=
  fun i => IsReal.sum s _ fun k hk => hf k hk i

/-- A contraction of two all-real arrays, whatever the index maps of its operands. -/
theorem dot {ι₁ ι₂ : Type*} [Fintype κ] {x : ι₁ → EReal} {w : ι₂ → EReal} (hx : AllReal x) (hw : AllReal w)
    (a : ι → κ → ι₁) (b : ι → κ → ι₂) : AllReal fun i => ∑ k, x (a i k) * w (b i k) :=
  fun i => IsReal.sum _ _ fun k _ => (hx (a i k)).mul (hw (b i k))

/-- The sum, at each node, of the rows of an all-real array that land on it. -/
theorem sum_filter {ι₁ : Type*} [Fintype κ] {x : ι₁ → EReal} (hx : AllReal x) (p : ι → κ → Prop)
    [∀ i, DecidablePred (p i)] (a : ι → κ → ι₁) :
    AllReal fun i => ∑ k ∈ Finset.univ.filter (p i), x (a i k) :=
  fun i => IsReal.sum _ _ fun k _ => hx (a i k)

theorem div_coe {f : ι → EReal} (hf : AllReal f) {n : ℝ} (hn : n ≠ 0) : AllReal fun i => Ideal.div (f i) (n : EReal) :=
  fun i => isReal_div_coe (hf i) hn

theorem div_max_one {f c : ι → EReal} (hf : AllReal f) (hc : AllReal c) :
    AllReal fun i => Ideal.div (f i) (max (c i) 1) := fun i => isReal_div_max_one (hf i) (hc i)

theorem mul_one_div_max_one {f c : ι → EReal} (hf : AllReal f) (hc : AllReal c) :
    AllReal fun i => f i * Ideal.div 1 (max (c i) 1) := fun i => (hf i).mul (isReal_one_div_max_one (hc i))

end AllReal

end Cert.Bridge

end
-- ==== Proof.LibSumRuns.lean ====
/-
  Two small tools for a matrix product taken in blocks along the contracted axis.

  `sum_runs`: in any commutative additive monoid, a sum over `m·n` consecutive naturals is the sum over `m` runs of
  `n` — `∑ s < m, ∑ d' < n, F (s·n + d') = ∑ d < m·n, F d` — so the partial products of the runs of a contraction add
  up to the whole contraction.  On the extended reals this asks no finiteness: only commutativity and associativity
  of addition are used.

  `rd2`: a two-dimensional array read at natural coordinates (its entry inside the array, zero outside), so that the
  entry of a block at a grid point can be named by plain arithmetic on the point's number, with the bounds supplied
  only where the entry is finally read (`rd2_of_lt`).
-/
import Idealize.ShloMosaic.Lib.ValueIdx
import Idealize.ShloMosaic.PureOps.Ideal.Laws

noncomputable section

namespace Cert.SumRuns

open Idealize.ShloMosaic Idealize.ShloMosaic.ValueIdx

/-- A sum over `m·n` consecutive naturals, regrouped as `m` runs of `n`. -/
theorem sum_runs {β : Type*} [AddCommMonoid β] (m n : ℕ) (F : ℕ → β) :
    ∑ s ∈ Finset.range m, ∑ d' : Fin n, F (s * n + d'.val) = ∑ d : Fin (m * n), F d.val := by
  rw [Finset.sum_range, ← Equiv.sum_comp finProdFinEquiv, Fintype.sum_prod_type]
  refine Finset.sum_congr rfl fun s _ => Finset.sum_congr rfl fun d' _ => ?_
  refine congrArg F ?_
  show s.val * n + d'.val = d'.val + n * s.val
  rw [Nat.mul_comm, Nat.add_comm]

/-- A two-dimensional array read at natural coordinates: its entry inside the array, zero outside. -/
def rd2 {n0 n1 : ℕ} (f : (⟨2, ![n0, n1]⟩ : Shape).Idx → EReal) (r c : ℕ) : EReal :=
  if h : r < n0 ∧ c < n1 then f (ix2 ⟨r, h.1⟩ ⟨c, h.2⟩) else 0

/-- Inside the array, `rd2` is the array's entry. -/
theorem rd2_of_lt {n0 n1 : ℕ} (f : (⟨2, ![n0, n1]⟩ : Shape).Idx → EReal) (r c : ℕ) (h0 : r < n0) (h1 : c < n1) :
    rd2 f r c = f (ix2 ⟨r, h0⟩ ⟨c, h1⟩) := dif_pos ⟨h0, h1⟩

end Cert.SumRuns

end
-- ==== Proof.Math.Runs.lean ====
/-
  Sums taken in runs.  A column of `m·n` entries summed as `m` runs of `n` consecutive entries — each run added to
  an accumulator that starts at zero — is the sum of the whole column.  Only commutativity and associativity of
  addition are used, so on the extended reals nothing need be finite.
-/
import Idealize.ShloMosaic.PureOps.Ideal
import proofs.«176278_j29592324669622_2_alg».proof.Proof.LibSumRuns

noncomputable section

namespace Cert.Bridge

open Cert.SumRuns (sum_runs)

/-- Entry `r` of run `t` lies inside the column. -/
theorem run_lt {m n t r : ℕ} (ht : t < m) (hr : r < n) : t * n + r < m * n :=
  calc t * n + r < t * n + n := by omega
    _ = (t + 1) * n := by ring
    _ ≤ m * n := Nat.mul_le_mul_right n ht

/-- An accumulator that starts at zero and at each of the steps `t < m` adds run `t` holds, after the `m` steps,
    the sum of the first `m·n` entries. -/
theorem acc_runs {β : Type*} [AddCommMonoid β] (m n : ℕ) (F : ℕ → β) (acc : ℕ → β) (h0 : acc 0 = 0)
    (hs : ∀ t, t < m → acc (t + 1) = acc t + ∑ r : Fin n, F (t * n + r.val)) :
    acc m = ∑ d : Fin (m * n), F d.val := by
  rw [← sum_runs]
  have key : ∀ k, k ≤ m → acc k = ∑ s ∈ Finset.range k, ∑ r : Fin n, F (s * n + r.val) := by
    intro k
    induction k with
    | zero => intro _; simpa using h0
    | succ k ih => intro hk; rw [hs k hk, ih (Nat.le_of_succ_le hk), Finset.sum_range_succ]
  exact key m le_rfl

/-- A column indexed by `Fin N`, `N = m·n`, summed run by run. -/
theorem sum_runs_fin {β : Type*} [AddCommMonoid β] {m n N : ℕ} (hN : N = m * n) (x : Fin N → β) :
    ∑ t : Fin m, ∑ r : Fin n, x ⟨t.val * n + r.val, hN ▸ run_lt t.isLt r.isLt⟩ = ∑ i : Fin N, x i := by
  subst hN
  have h := sum_runs m n fun d => if h : d < m * n then x ⟨d, h⟩ else 0
  rw [Finset.sum_range] at h
  refine Eq.trans ?_ (h.trans ?_)
  · exact Finset.sum_congr rfl fun t _ => Finset.sum_congr rfl fun r _ => by
      rw [dif_pos (run_lt t.isLt r.isLt)]
  · exact Finset.sum_congr rfl fun d _ => by rw [dif_pos d.isLt]

/-- The accumulator form for a column indexed by `Fin N`, `N = m·n`. -/
theorem acc_runs_fin {β : Type*} [AddCommMonoid β] {m n N : ℕ} (hN : N = m * n) (x : Fin N → β) (acc : ℕ → β)
    (h0 : acc 0 = 0)
    (hs : ∀ t (ht : t < m), acc (t + 1) = acc t + ∑ r : Fin n, x ⟨t * n + r.val, hN ▸ run_lt ht r.isLt⟩) :
    acc m = ∑ i : Fin N, x i := by
  subst hN
  have h := acc_runs m n (fun d => if h : d < m * n then x ⟨d, h⟩ else 0) acc h0 fun t ht => by
    rw [hs t ht]
    exact congrArg (acc t + ·) (Finset.sum_congr rfl fun r _ => by rw [dif_pos (run_lt ht r.isLt)])
  exact h.trans (Finset.sum_congr rfl fun d _ => by rw [dif_pos d.isLt])

end Cert.Bridge

end
-- ==== Proof.Math.Split.lean ====
/-
  A contraction over a concatenated axis is the sum of the contractions over the pieces.  A sum over
  `Fin (a + b + c)` splits into the sums over its three consecutive stretches (and over `Fin (a + b)` into two); with
  the concatenated row and the weight column named piece by piece, `concat [x₀, x₁, x₂] · W` is
  `x₀ · W₀ + x₁ · W₁ + x₂ · W₂`.  Only the associativity and commutativity of addition are used, so on the extended
  reals nothing need be finite.
-/
import Idealize.ShloMosaic.PureOps.Ideal
import Mathlib.Algebra.BigOperators.Fin

noncomputable section

namespace Cert.Bridge

/-- A sum over `Fin (a + b)`, split at `a`. -/
theorem sum_fin_add2 {β : Type*} [AddCommMonoid β] (a b : ℕ) (f : Fin (a + b) → β) :
    ∑ k, f k = ∑ k : Fin a, f ⟨k.val, by omega⟩ + ∑ k : Fin b, f ⟨a + k.val, by omega⟩ := by
  rw [Fin.sum_univ_add]; rfl

/-- A sum over `Fin (a + b + c)`, split at `a` and at `a + b`. -/
theorem sum_fin_add3 {β : Type*} [AddCommMonoid β] (a b c : ℕ) (f : Fin (a + b + c) → β) :
    ∑ k, f k = ∑ k : Fin a, f ⟨k.val, by omega⟩ + ∑ k : Fin b, f ⟨a + k.val, by omega⟩
      + ∑ k : Fin c, f ⟨a + b + k.val, by omega⟩ := by
  rw [Fin.sum_univ_add, Fin.sum_univ_add]; rfl

/-- The two-piece contraction: a row `r` and a column `w` over `N = n + n` positions whose two stretches are
    `x₀, x₁` and `w₀, w₁`. -/
theorem dot_concat2 {β : Type*} [AddCommMonoid β] [Mul β] {n N : ℕ} (hN : N = n + n) (r w : Fin N → β)
    (x₀ x₁ w₀ w₁ : Fin n → β)
    (hx₀ : ∀ k : Fin n, r ⟨k.val, by omega⟩ = x₀ k) (hx₁ : ∀ k : Fin n, r ⟨n + k.val, by omega⟩ = x₁ k)
    (hw₀ : ∀ k : Fin n, w ⟨k.val, by omega⟩ = w₀ k) (hw₁ : ∀ k : Fin n, w ⟨n + k.val, by omega⟩ = w₁ k) :
    ∑ k, r k * w k = ∑ k, x₀ k * w₀ k + ∑ k, x₁ k * w₁ k := by
  subst hN
  rw [sum_fin_add2]
  simp only [hx₀, hx₁, hw₀, hw₁]

/-- The three-piece contraction: `N = n + n + n` positions whose three stretches are `x₀, x₁, x₂` and
    `w₀, w₁, w₂`. -/
theorem dot_concat3 {β : Type*} [AddCommMonoid β] [Mul β] {n N : ℕ} (hN : N = n + n + n) (r w : Fin N → β)
    (x₀ x₁ x₂ w₀ w₁ w₂ : Fin n → β)
    (hx₀ : ∀ k : Fin n, r ⟨k.val, by omega⟩ = x₀ k) (hx₁ : ∀ k : Fin n, r ⟨n + k.val, by omega⟩ = x₁ k)
    (hx₂ : ∀ k : Fin n, r ⟨n + n + k.val, by omega⟩ = x₂ k)
    (hw₀ : ∀ k : Fin n, w ⟨k.val, by omega⟩ = w₀ k) (hw₁ : ∀ k : Fin n, w ⟨n + k.val, by omega⟩ = w₁ k)
    (hw₂ : ∀ k : Fin n, w ⟨n + n + k.val, by omega⟩ = w₂ k) :
    ∑ k, r k * w k = ∑ k, x₀ k * w₀ k + ∑ k, x₁ k * w₁ k + ∑ k, x₂ k * w₂ k := by
  subst hN
  rw [sum_fin_add3]
  simp only [hx₀, hx₁, hx₂, hw₀, hw₁, hw₂]

end Cert.Bridge

end
-- ==== Proof.Math.Mean.lean ====
/-
  The mean aggregation written two ways.  The reference divides a node's summed messages by its clamped count,
  `s / max c 1`; the kernel multiplies them by the reciprocal of the clamped count, `s · (1 / max c 1)`.  Both are
  `s · (max c 1)⁻¹` — the clamped count is never zero — so they agree for every extended real `s` and `c`, with no
  finiteness asked of either.
-/
import Idealize.ShloMosaic.PureOps.Ideal
import Idealize.ShloMosaic.PureOps.Ideal.Laws
import proofs.«176278_j29592324669622_2_alg».proof.Proof.LibMeanLaws
import proofs.«176278_j29592324669622_2_alg».proof.Proof.Math.Literals

noncomputable section

namespace Cert.Bridge

open Idealize.ShloMosaic

/-- Dividing by a count clamped from below by one is multiplying by its reciprocal. -/
theorem mean_agg (s c : EReal) : Ideal.div s (max c 1) = s * Ideal.div 1 (max c 1) :=
  Cert.Lib.MeanLaws.div_max_one s c

/-- The same with `1` written as its float pattern. -/
theorem mean_agg_bits (s c : EReal) :
    Ideal.div s (max c (Ideal.ofBits .f32 0x3F800000#32))
      = s * Ideal.div (Ideal.ofBits .f32 0x3F800000#32) (max c (Ideal.ofBits .f32 0x3F800000#32)) := by
  rw [ofBits_f32_one]; exact mean_agg s c

/-- The same over the float operations themselves, read at the extended reals: a host quotient by a maximum against a
    host product with a host quotient of one. -/
theorem mean_agg_ops (s c : Ideal .f32) :
    FloatOps.hostDivf s (FloatOps.maximumf c (FloatOps.ofBits (F := Ideal) .f32 0x3F800000#32))
      = FloatOps.mulf s (FloatOps.hostDivf (FloatOps.ofBits (F := Ideal) .f32 0x3F800000#32)
          (FloatOps.maximumf c (FloatOps.ofBits (F := Ideal) .f32 0x3F800000#32))) :=
  mean_agg_bits s c

end Cert.Bridge

end
-- ==== Proof.Math.Reorder.lean ====
/-
  One row of a SAGE layer, reference against kernel.  The reference adds the bias between the two products,
  `(agg · Wl + b) + x · Wr`, with the aggregate a quotient by the clamped count; the kernel adds the bias last,
  `(agg · Wl + x · Wr) + b`, with the aggregate a product by the reciprocal of the clamped count.  Addition on the
  extended reals is commutative and associative at the infinities too, and the two aggregates agree for every
  extended real, so the two rows agree with nothing assumed finite.
-/
import Idealize.ShloMosaic.PureOps.Ideal
import proofs.«176278_j29592324669622_2_alg».proof.Proof.Math.Mean

noncomputable section

namespace Cert.Bridge

open Idealize.ShloMosaic

/-- The bias added between the two products or after them. -/
theorem add_bias_comm (A b C : EReal) : A + b + C = A + C + b := add_right_comm A b C

/-- Three products and a bias: the bias after the sum of the three, in either grouping of the three. -/
theorem add3_bias (A B C b : EReal) : A + B + C + b = A + (B + C) + b := by rw [add_assoc A B C]

/-- One entry of a SAGE layer before the rectifier: `s` the node's summed messages, `cnt` its count, `x` its own
    features, `wl`, `wr` a column of each weight matrix and `b` the bias entry. -/
theorem sage_row {κ : Type*} [Fintype κ] (s x wl wr : κ → EReal) (cnt b : EReal) :
    (∑ k, Ideal.div (s k) (max cnt 1) * wl k) + b + ∑ k, x k * wr k
      = (∑ k, s k * Ideal.div 1 (max cnt 1) * wl k + ∑ k, x k * wr k) + b := by
  rw [add_right_comm]
  exact congrArg (fun t => t + ∑ k, x k * wr k + b)
    (Finset.sum_congr rfl fun k _ => by rw [mean_agg (s k) cnt])

/-- The same with `1` written as its float pattern. -/
theorem sage_row_bits {κ : Type*} [Fintype κ] (s x wl wr : κ → EReal) (cnt b : EReal) :
    (∑ k, Ideal.div (s k) (max cnt (Ideal.ofBits .f32 0x3F800000#32)) * wl k) + b + ∑ k, x k * wr k
      = (∑ k, s k * Ideal.div (Ideal.ofBits .f32 0x3F800000#32) (max cnt (Ideal.ofBits .f32 0x3F800000#32)) * wl k
          + ∑ k, x k * wr k) + b := by
  rw [ofBits_f32_one]; exact sage_row s x wl wr cnt b

end Cert.Bridge

end
-- ==== Proof.Math.BatchNorm.lean ====
/-
  The batch statistics of a column of `500000` real entries, with the network's own constants: the count as its float
  pattern, and the small positive constant added to the variance.  The reference's variance about the mean equals the
  kernel's second moment minus the squared mean; that variance is a nonnegative real, so with the positive constant
  added its reciprocal square root is a real, and a normalised entry `g · (x − m) · rsqrt (v + ε) + b` is a real
  whenever `g` and `b` are.
-/
import Idealize.ShloMosaic.PureOps.Ideal
import Idealize.ShloMosaic.PureOps.Ideal.Laws
import proofs.«176278_j29592324669622_2_alg».proof.Proof.LibMeanLaws
import proofs.«176278_j29592324669622_2_alg».proof.Proof.Math.Variance
import proofs.«176278_j29592324669622_2_alg».proof.Proof.Math.Literals
import proofs.«176278_j29592324669622_2_alg».proof.Proof.Math.Real

noncomputable section

namespace Cert.Bridge

open Idealize.ShloMosaic
open Cert.Lib.MeanLaws (IsReal)

variable {ι : Type*} [Fintype ι]

theorem count_eq_card (hcard : Fintype.card ι = 500000) : (500000 : ℝ) = (Fintype.card ι : ℝ) := by
  rw [hcard]; norm_num

/-- The mean of the column is a real number. -/
theorem isReal_mean_count (x : ι → EReal) (hx : AllReal x) :
    IsReal (Ideal.div (∑ i, x i) (Ideal.ofBits .f32 0x48F42400#32)) :=
  mean_isReal x hx _ 500000 ofBits_f32_500000 (ne_of_gt count_pos)

/-- The variance about the mean is the second moment minus the squared mean. -/
theorem variance_eq_count (hcard : Fintype.card ι = 500000) (x : ι → EReal) (hx : AllReal x) :
    Ideal.div (∑ i, (x i - Ideal.div (∑ i, x i) (Ideal.ofBits .f32 0x48F42400#32))
        * (x i - Ideal.div (∑ i, x i) (Ideal.ofBits .f32 0x48F42400#32))) (Ideal.ofBits .f32 0x48F42400#32)
      = Ideal.div (∑ i, x i * x i) (Ideal.ofBits .f32 0x48F42400#32)
        - Ideal.div (∑ i, x i) (Ideal.ofBits .f32 0x48F42400#32)
          * Ideal.div (∑ i, x i) (Ideal.ofBits .f32 0x48F42400#32) :=
  variance_eq x hx _ 500000 ofBits_f32_500000 (count_eq_card hcard) count_pos

/-- The second moment minus the squared mean is a nonnegative real number. -/
theorem moment_variance_real (hcard : Fintype.card ι = 500000) (x : ι → EReal) (hx : AllReal x) :
    ∃ v : ℝ, 0 ≤ v ∧
      Ideal.div (∑ i, x i * x i) (Ideal.ofBits .f32 0x48F42400#32)
        - Ideal.div (∑ i, x i) (Ideal.ofBits .f32 0x48F42400#32)
          * Ideal.div (∑ i, x i) (Ideal.ofBits .f32 0x48F42400#32) = (v : EReal) := by
  obtain ⟨v, hv, h⟩ := variance_isReal_nonneg x hx _ 500000 ofBits_f32_500000 count_pos
  exact ⟨v, hv, (variance_eq_count hcard x hx).symm.trans h⟩

/-- With the positive constant added, the reciprocal square root of that variance is a real number. -/
theorem isReal_rsqrt_variance_eps (hcard : Fintype.card ι = 500000) (x : ι → EReal) (hx : AllReal x) :
    IsReal (Ideal.rsqrt
      (Ideal.div (∑ i, x i * x i) (Ideal.ofBits .f32 0x48F42400#32)
        - Ideal.div (∑ i, x i) (Ideal.ofBits .f32 0x48F42400#32)
          * Ideal.div (∑ i, x i) (Ideal.ofBits .f32 0x48F42400#32)
        + Ideal.ofBits .f32 0x3727C5AC#32)) := by
  obtain ⟨v, hv, h⟩ := moment_variance_real hcard x hx
  obtain ⟨e, he, h'⟩ := ofBits_f32_eps
  rw [h, h']
  exact isReal_rsqrt_add hv he

/-- A normalised entry is a real number when the scale `g` and the shift `b` are. -/
theorem isReal_batchnorm (hcard : Fintype.card ι = 500000) (x : ι → EReal) (hx : AllReal x) {g b : EReal}
    (hg : IsReal g) (hb : IsReal b) (i : ι) :
    IsReal (g * (x i - Ideal.div (∑ i, x i) (Ideal.ofBits .f32 0x48F42400#32))
      * Ideal.rsqrt
        (Ideal.div (∑ i, x i * x i) (Ideal.ofBits .f32 0x48F42400#32)
          - Ideal.div (∑ i, x i) (Ideal.ofBits .f32 0x48F42400#32)
            * Ideal.div (∑ i, x i) (Ideal.ofBits .f32 0x48F42400#32)
          + Ideal.ofBits .f32 0x3727C5AC#32)
      + b) :=
  ((hg.mul (isReal_sub (hx i) (isReal_mean_count x hx))).mul (isReal_rsqrt_variance_eps hcard x hx)).add hb

end Cert.Bridge

end
-- ==== Proof.Math.Stages.lean ====
/-
  The stages of the network as laws between whole arrays, kernel form on the left and reference form on the right.
  An array is a plain function into the extended reals; `ν` is the node (row) type, `ω` the output-column type.

  * A SAGE layer's entry: products by the reciprocal clamped count with the bias added last, against quotients by the
    clamped count with the bias added between the two products; the rectifier's other operand is any `z`.
  * The output projections: the sum of the contractions over the pieces of a concatenated row, then the bias, against
    the one contraction over the concatenated row, then the bias (three pieces of 64 over 192; two of 64 over 128).
  * A batch normalisation over a column of `500000` real entries: the kernel's statistics are the column's sum `s` and
    sum of squares `q` (each arriving as an accumulator over `100` runs of `5000`), its variance `q/c − (s/c)·(s/c)`;
    the reference's mean is `(0 + ∑ x)/c` and its variance is the guarded quotient
    `if c − 0 > 0 then (0 + ∑ (x − m)·(x − m)) / (c − 0) else junk`.  The normalised entries agree, and are real
    numbers when the scale and the shift are.
-/
import Idealize.ShloMosaic.PureOps.Ideal
import Idealize.ShloMosaic.PureOps.Ideal.Laws
import proofs.«176278_j29592324669622_2_alg».proof.Proof.LibMeanLaws
import proofs.«176278_j29592324669622_2_alg».proof.Proof.Math.Literals
import proofs.«176278_j29592324669622_2_alg».proof.Proof.Math.Real
import proofs.«176278_j29592324669622_2_alg».proof.Proof.Math.Runs
import proofs.«176278_j29592324669622_2_alg».proof.Proof.Math.Split
import proofs.«176278_j29592324669622_2_alg».proof.Proof.Math.Reorder
import proofs.«176278_j29592324669622_2_alg».proof.Proof.Math.BatchNorm

noncomputable section

namespace Cert.Bridge

open Idealize.ShloMosaic
open Cert.Lib.MeanLaws (IsReal)

/-! ### A SAGE layer -/

/-- One entry of a SAGE layer, rectified against `z`: node `n`, output column `j`. -/
theorem sage_stage {ν κ ω : Type*} [Fintype κ] (s x : ν → κ → EReal) (cnt : ν → EReal) (Wl Wr : κ → ω → EReal)
    (b : ω → EReal) (z : EReal) (n : ν) (j : ω) :
    max ((∑ k, s n k * Ideal.div 1 (max (cnt n) 1) * Wl k j + ∑ k, x n k * Wr k j) + b j) z
      = max ((∑ k, Ideal.div (s n k) (max (cnt n) 1) * Wl k j) + b j + ∑ k, x n k * Wr k j) z := by
  rw [sage_row]

/-- The same with `1` written as its float pattern. -/
theorem sage_stage_bits {ν κ ω : Type*} [Fintype κ] (s x : ν → κ → EReal) (cnt : ν → EReal) (Wl Wr : κ → ω → EReal)
    (b : ω → EReal) (z : EReal) (n : ν) (j : ω) :
    max ((∑ k, s n k * Ideal.div (Ideal.ofBits .f32 0x3F800000#32) (max (cnt n) (Ideal.ofBits .f32 0x3F800000#32))
          * Wl k j + ∑ k, x n k * Wr k j) + b j) z
      = max ((∑ k, Ideal.div (s n k) (max (cnt n) (Ideal.ofBits .f32 0x3F800000#32)) * Wl k j) + b j
          + ∑ k, x n k * Wr k j) z := by
  rw [sage_row_bits]

/-- A SAGE layer's entries are real numbers when its operands are (the kernel's form). -/
theorem sage_stage_isReal {ν κ ω : Type*} [Fintype κ] {s x : ν → κ → EReal} {cnt : ν → EReal} {Wl Wr : κ → ω → EReal}
    {b : ω → EReal} (hs : ∀ n, AllReal (s n)) (hx : ∀ n, AllReal (x n)) (hc : AllReal cnt)
    (hl : ∀ k, AllReal (Wl k)) (hr : ∀ k, AllReal (Wr k)) (hb : AllReal b) (n : ν) (j : ω) :
    IsReal (max ((∑ k, s n k * Ideal.div 1 (max (cnt n) 1) * Wl k j + ∑ k, x n k * Wr k j) + b j) 0) :=
  isReal_max_zero
    (((IsReal.sum _ _ fun k _ => ((hs n k).mul (Cert.Lib.MeanLaws.isReal_one_div_max_one (hc n))).mul (hl k j)).add
      (IsReal.sum _ _ fun k _ => (hx n k).mul (hr k j))).add (hb j))

/-! ### The projections over a concatenated row -/

/-- Three pieces of `64` over `192`: `cat` is the concatenated row with pieces `x₀, x₁, x₂`, and `w₀, w₁, w₂` are the
    three stretches of the rows of `W`. -/
theorem proj3_stage {ν ω : Type*} (x₀ x₁ x₂ : ν → Fin 64 → EReal) (cat : ν → Fin 192 → EReal)
    (W : Fin 192 → ω → EReal) (w₀ w₁ w₂ : Fin 64 → ω → EReal) (b : ω → EReal)
    (hx₀ : ∀ n (k : Fin 64), cat n ⟨k.val, by omega⟩ = x₀ n k)
    (hx₁ : ∀ n (k : Fin 64), cat n ⟨64 + k.val, by omega⟩ = x₁ n k)
    (hx₂ : ∀ n (k : Fin 64), cat n ⟨64 + 64 + k.val, by omega⟩ = x₂ n k)
    (hw₀ : ∀ (k : Fin 64) j, W ⟨k.val, by omega⟩ j = w₀ k j)
    (hw₁ : ∀ (k : Fin 64) j, W ⟨64 + k.val, by omega⟩ j = w₁ k j)
    (hw₂ : ∀ (k : Fin 64) j, W ⟨64 + 64 + k.val, by omega⟩ j = w₂ k j) (n : ν) (j : ω) :
    (∑ k, x₀ n k * w₀ k j + ∑ k, x₁ n k * w₁ k j + ∑ k, x₂ n k * w₂ k j) + b j
      = (∑ k, cat n k * W k j) + b j := by
  rw [dot_concat3 (n := 64) (N := 192) rfl (cat n) (fun k => W k j) (x₀ n) (x₁ n) (x₂ n)
    (fun k => w₀ k j) (fun k => w₁ k j) (fun k => w₂ k j)
    (hx₀ n) (hx₁ n) (hx₂ n) (fun k => hw₀ k j) (fun k => hw₁ k j) (fun k => hw₂ k j)]

/-- Two pieces of `64` over `128`. -/
theorem affine2_stage {ν ω : Type*} (x₀ x₁ : ν → Fin 64 → EReal) (cat : ν → Fin 128 → EReal)
    (W : Fin 128 → ω → EReal) (w₀ w₁ : Fin 64 → ω → EReal) (b : ω → EReal)
    (hx₀ : ∀ n (k : Fin 64), cat n ⟨k.val, by omega⟩ = x₀ n k)
    (hx₁ : ∀ n (k : Fin 64), cat n ⟨64 + k.val, by omega⟩ = x₁ n k)
    (hw₀ : ∀ (k : Fin 64) j, W ⟨k.val, by omega⟩ j = w₀ k j)
    (hw₁ : ∀ (k : Fin 64) j, W ⟨64 + k.val, by omega⟩ j = w₁ k j) (n : ν) (j : ω) :
    (∑ k, x₀ n k * w₀ k j + ∑ k, x₁ n k * w₁ k j) + b j = (∑ k, cat n k * W k j) + b j := by
  rw [dot_concat2 (n := 64) (N := 128) rfl (cat n) (fun k => W k j) (x₀ n) (x₁ n)
    (fun k => w₀ k j) (fun k => w₁ k j) (hx₀ n) (hx₁ n) (fun k => hw₀ k j) (fun k => hw₁ k j)]

/-- A contraction plus a bias is a real number when the operands are. -/
theorem affine_isReal {κ : Type*} [Fintype κ] {r w : κ → EReal} {b : EReal} (hr : AllReal r) (hw : AllReal w)
    (hb : IsReal b) : IsReal ((∑ k, r k * w k) + b) :=
  (IsReal.sum _ _ fun k _ => (hr k).mul (hw k)).add hb

/-! ### A batch normalisation -/

theorem select_one (a b : EReal) : Scalar.select 1#1 a b = a := if_pos rfl

/-- The reference's guarded variance of a real column of `500000` entries is the kernel's second moment minus squared
    mean: `s` the column's sum, `q` its sum of squares, `junk` the value of the guard's other branch. -/
theorem variance_stage {ι : Type*} [Fintype ι] (hcard : Fintype.card ι = 500000) (x : ι → EReal) (hx : AllReal x)
    (s q junk : EReal) (hs : s = ∑ i, x i) (hq : q = ∑ i, x i * x i) :
    Ideal.div q (Ideal.ofBits .f32 0x48F42400#32)
        - Ideal.div s (Ideal.ofBits .f32 0x48F42400#32) * Ideal.div s (Ideal.ofBits .f32 0x48F42400#32)
      = Scalar.select
          (Ideal.cmp .ogt (Ideal.ofBits .f32 0x48F42400#32 - ((((0#32 : BitVec 32).toInt : ℤ) : ℝ) : EReal))
            (Ideal.ofBits .f32 0x00000000#32))
          (Ideal.div
            (Ideal.ofBits .f32 0x00000000#32
              + ∑ i, (x i - Ideal.div (Ideal.ofBits .f32 0x00000000#32 + ∑ i, x i) (Ideal.ofBits .f32 0x48F42400#32))
                  * (x i - Ideal.div (Ideal.ofBits .f32 0x00000000#32 + ∑ i, x i) (Ideal.ofBits .f32 0x48F42400#32)))
            (Ideal.ofBits .f32 0x48F42400#32 - ((((0#32 : BitVec 32).toInt : ℤ) : ℝ) : EReal)))
          junk := by
  have hd : Ideal.ofBits .f32 0x48F42400#32 - ((((0#32 : BitVec 32).toInt : ℤ) : ℝ) : EReal)
      = Ideal.ofBits .f32 0x48F42400#32 := by rw [ofBits_f32_500000, count_sub_zero]
  have hg : Ideal.cmp .ogt (Ideal.ofBits .f32 0x48F42400#32) (Ideal.ofBits .f32 0x00000000#32) = 1#1 := by
    rw [ofBits_f32_500000]; exact cmp_ogt_count_zero
  rw [hd, hg, select_one, Ideal.ofBits_zero_f32, zero_add, zero_add, variance_eq_count hcard x hx, hs, hq]

/-- A normalised entry, kernel form against reference form: scale `γ`, shift `β`. -/
theorem batchnorm_stage {ι : Type*} [Fintype ι] (hcard : Fintype.card ι = 500000) (x : ι → EReal) (hx : AllReal x)
    (s q γ β junk : EReal) (hs : s = ∑ i, x i) (hq : q = ∑ i, x i * x i) (i : ι) :
    γ * (x i - Ideal.div s (Ideal.ofBits .f32 0x48F42400#32))
        * Ideal.rsqrt
          (Ideal.div q (Ideal.ofBits .f32 0x48F42400#32)
            - Ideal.div s (Ideal.ofBits .f32 0x48F42400#32) * Ideal.div s (Ideal.ofBits .f32 0x48F42400#32)
            + Ideal.ofBits .f32 0x3727C5AC#32)
        + β
      = γ * (x i - Ideal.div (Ideal.ofBits .f32 0x00000000#32 + ∑ i, x i) (Ideal.ofBits .f32 0x48F42400#32))
        * Ideal.rsqrt
          (Scalar.select
            (Ideal.cmp .ogt (Ideal.ofBits .f32 0x48F42400#32 - ((((0#32 : BitVec 32).toInt : ℤ) : ℝ) : EReal))
              (Ideal.ofBits .f32 0x00000000#32))
            (Ideal.div
              (Ideal.ofBits .f32 0x00000000#32
                + ∑ i, (x i - Ideal.div (Ideal.ofBits .f32 0x00000000#32 + ∑ i, x i) (Ideal.ofBits .f32 0x48F42400#32))
                    * (x i - Ideal.div (Ideal.ofBits .f32 0x00000000#32 + ∑ i, x i) (Ideal.ofBits .f32 0x48F42400#32)))
              (Ideal.ofBits .f32 0x48F42400#32 - ((((0#32 : BitVec 32).toInt : ℤ) : ℝ) : EReal)))
            junk
            + Ideal.ofBits .f32 0x3727C5AC#32)
        + β := by
  rw [← variance_stage hcard x hx s q junk hs hq, Ideal.ofBits_zero_f32, zero_add, hs]

/-- The kernel's normalised entry is a real number when the scale and the shift are. -/
theorem batchnorm_stage_isReal {ι : Type*} [Fintype ι] (hcard : Fintype.card ι = 500000) (x : ι → EReal)
    (hx : AllReal x) (s q : EReal) {γ β : EReal} (hs : s = ∑ i, x i) (hq : q = ∑ i, x i * x i)
    (hγ : IsReal γ) (hβ : IsReal β) (i : ι) :
    IsReal (γ * (x i - Ideal.div s (Ideal.ofBits .f32 0x48F42400#32))
        * Ideal.rsqrt
          (Ideal.div q (Ideal.ofBits .f32 0x48F42400#32)
            - Ideal.div s (Ideal.ofBits .f32 0x48F42400#32) * Ideal.div s (Ideal.ofBits .f32 0x48F42400#32)
            + Ideal.ofBits .f32 0x3727C5AC#32)
        + β) := by
  subst hs hq
  exact isReal_batchnorm hcard x hx hγ hβ i

/-- The two statistics of a column of `500000` entries as accumulators over `100` runs of `5000`: each starts at zero
    and at step `t < 100` adds run `t`'s sum (of the entries, of their squares); after the `100` steps they are the
    column's sum and sum of squares. -/
theorem stats_acc (x : Fin 500000 → EReal) (accS accQ : ℕ → EReal) (hS0 : accS 0 = 0) (hQ0 : accQ 0 = 0)
    (hS : ∀ t (ht : t < 100), accS (t + 1) = accS t + ∑ r : Fin 5000, x ⟨t * 5000 + r.val, by omega⟩)
    (hQ : ∀ t (ht : t < 100), accQ (t + 1)
      = accQ t + ∑ r : Fin 5000, x ⟨t * 5000 + r.val, by omega⟩ * x ⟨t * 5000 + r.val, by omega⟩) :
    accS 100 = ∑ i, x i ∧ accQ 100 = ∑ i, x i * x i :=
  ⟨acc_runs_fin (m := 100) (n := 5000) (N := 500000) rfl x accS hS0 hS,
   acc_runs_fin (m := 100) (n := 5000) (N := 500000) rfl (fun i => x i * x i) accQ hQ0 hQ⟩

end Cert.Bridge

end
-- ==== Proof.Math.SageGlue.lean ====
/-
  One SAGE layer, kernel form against reference form, between whole arrays.

  The kernel's output array is the closed form `sageForm agg x Wl b Wr`, where the aggregate `agg` is, entry by entry,
  the summed messages times the node's reciprocal clamped count.  The reference's array is, entry by entry, the summed
  messages divided by the clamped count through the neighbour weight, plus the bias, plus the node's own features
  through the root weight, clamped below.  When the two sides' ingredients agree entry by entry — the summed messages,
  the counts, the features, the two weights, the bias and the clamp's other operand — the two arrays are equal: the
  law is the layer's stage law, which moves the division across the product and the bias across the second sum.
-/
import proofs.«176278_j29592324669622_2_alg».proof.Proof.Math.KernelForms
import proofs.«176278_j29592324669622_2_alg».proof.Proof.Math.Stages

noncomputable section

namespace Cert.Bridge

open Idealize.ShloMosaic Idealize.ShloMosaic.ValueIdx

/-- A SAGE layer's kernel array equals the reference's, from entrywise agreement of the ingredients. -/
theorem sage_layer_glue {R : ℕ}
    (out ref : (⟨2, ![R, 64]⟩ : Shape).Idx → EReal)
    (agg x : (⟨2, ![R, 64]⟩ : Shape).Idx → EReal) (Wl : (⟨2, ![64, 64]⟩ : Shape).Idx → EReal)
    (b : (⟨2, ![1, 64]⟩ : Shape).Idx → EReal) (Wr : (⟨2, ![64, 64]⟩ : Shape).Idx → EReal)
    (s s' x' : Fin R → Fin 64 → EReal) (cnt cnt' : Fin R → EReal) (wl' wr' : Fin 64 → Fin 64 → EReal) (b' : Fin 64 → EReal)
    (z' : EReal)
    (hout : out = sageForm agg x Wl b Wr)
    (hagg : ∀ n k, agg (ix2 n k)
      = s n k * Ideal.div (Ideal.ofBits .f32 0x3F800000#32) (max (cnt n) (Ideal.ofBits .f32 0x3F800000#32)))
    (href : ∀ n j, ref (ix2 n j)
      = max ((∑ k, Ideal.div (s' n k) (max (cnt' n) (Ideal.ofBits .f32 0x3F800000#32)) * wl' k j) + b' j
          + ∑ k, x' n k * wr' k j) z')
    (hs : ∀ n k, s n k = s' n k) (hc : ∀ n, cnt n = cnt' n) (hx : ∀ n k, x (ix2 n k) = x' n k)
    (hwl : ∀ k j, Wl (ix2 k j) = wl' k j) (hwr : ∀ k j, Wr (ix2 k j) = wr' k j)
    (hb : ∀ j, b (ix2 (0 : Fin 1) j) = b' j) (hz : Ideal.ofBits .f32 0x00000000#32 = z') :
    out = ref := by
  funext i
  obtain ⟨n, j, rfl⟩ : ∃ (n : Fin R) (j : Fin 64), i = ix2 n j := ⟨i 0, i 1, eq_ix2 i⟩
  rw [hout, sageForm_ix2, href n j, ← hz]
  have e1 : ∀ k, agg (ix2 n k) * Wl (ix2 k j)
      = s' n k * Ideal.div (Ideal.ofBits .f32 0x3F800000#32) (max (cnt' n) (Ideal.ofBits .f32 0x3F800000#32)) * wl' k j :=
    fun k => by rw [hagg n k, hs n k, hc n, hwl k j]
  have e2 : ∀ k, x (ix2 n k) * Wr (ix2 k j) = x' n k * wr' k j := fun k => by rw [hx n k, hwr k j]
  rw [Finset.sum_congr rfl fun k _ => e1 k, Finset.sum_congr rfl fun k _ => e2 k, hb j]
  exact sage_stage_bits s' x' cnt' wl' wr' b' _ n j

end Cert.Bridge

end
-- ==== Proof.Bridge.L1.lean ====
/- The first layer.  On each side of the graph the kernel program's output array is the closed form of a SAGE linear
   layer over the arrays its host operations prepared: the mean aggregate (the other side's rows gathered along the
   edges and summed per node, times the node's reciprocal clamped edge count), the node's own rows, and layer `0` of
   the stacked weights and bias.  The reference's array is the same layer with the division inside the sum and the
   bias added between the two products.  The two programs' ingredients agree entry by entry — the argument arrays are
   equal, the rows before the layer are equal by hypothesis, and both programs apply the same gather and accumulating
   scatter to them — so the layer's stage law gives the equality of the arrays. -/
import proofs.«176278_j29592324669622_2_alg».proof.Proof.Bridge.Defs
import proofs.«176278_j29592324669622_2_alg».proof.Proof.KI.Keep
import proofs.«176278_j29592324669622_2_alg».proof.Proof.KI.H0
import proofs.«176278_j29592324669622_2_alg».proof.Proof.KI.H1
import proofs.«176278_j29592324669622_2_alg».proof.Proof.KI.Terms2
import proofs.«176278_j29592324669622_2_alg».proof.Proof.KI.V0
import proofs.«176278_j29592324669622_2_alg».proof.Proof.KI.V1
import proofs.«176278_j29592324669622_2_alg».proof.Proof.Ref.At1
import proofs.«176278_j29592324669622_2_alg».proof.Proof.Math.SageGlue

noncomputable section

namespace Cert.Bridge

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The kernel program's launch contents on core `c`. -/
local notation "K0" => Cert.KernelIdeal.Hand.W0 (F := Ideal) m ρ c
/-- The reference's launch contents on core `c`. -/
local notation "R0" => (fun b => m' (c, b) : Valuation Cert.ReferenceIdeal.τ Cert.ReferenceIdeal.sig (Elt Ideal))

/-- After the first layer the two programs hold the same movies' rows and the same users' rows. -/
theorem st_L1 (hag : Agree m m' c) (hu : KU0 m ρ c = RU0 m' c) (hm : KM0 m ρ c = RM0 m' c) :
    KM1 m ρ c = RM1 m' c ∧ KU1 m ρ c = RU1 m' c := by
  obtain ⟨g0, g1, g2, g3, g4, g5, g6, g7, g8, g9, g10, g11, g12, -⟩ := hag
  have a0 : K0 (Proc.devRef .tc Cert.KernelIdeal.main_arg0) = R0 (Proc.devRef .tc Cert.ReferenceIdeal.main_arg0) := g0.symm
  have a1 : K0 (Proc.devRef .tc Cert.KernelIdeal.main_arg1) = R0 (Proc.devRef .tc Cert.ReferenceIdeal.main_arg1) := g1.symm
  have a2 : K0 (Proc.devRef .tc Cert.KernelIdeal.main_arg2) = R0 (Proc.devRef .tc Cert.ReferenceIdeal.main_arg2) := g2.symm
  have a3 : K0 (Proc.devRef .tc Cert.KernelIdeal.main_arg3) = R0 (Proc.devRef .tc Cert.ReferenceIdeal.main_arg3) := g3.symm
  have a6 : K0 (Proc.devRef .tc Cert.KernelIdeal.main_arg6) = R0 (Proc.devRef .tc Cert.ReferenceIdeal.main_arg6) := g6.symm
  have a7 : K0 (Proc.devRef .tc Cert.KernelIdeal.main_arg7) = R0 (Proc.devRef .tc Cert.ReferenceIdeal.main_arg7) := g7.symm
  have a8 : K0 (Proc.devRef .tc Cert.KernelIdeal.main_arg8) = R0 (Proc.devRef .tc Cert.ReferenceIdeal.main_arg8) := g8.symm
  have a9 : K0 (Proc.devRef .tc Cert.KernelIdeal.main_arg9) = R0 (Proc.devRef .tc Cert.ReferenceIdeal.main_arg9) := g9.symm
  have a10 : K0 (Proc.devRef .tc Cert.KernelIdeal.main_arg10) = R0 (Proc.devRef .tc Cert.ReferenceIdeal.main_arg10) := g10.symm
  have a11 : K0 (Proc.devRef .tc Cert.KernelIdeal.main_arg11) = R0 (Proc.devRef .tc Cert.ReferenceIdeal.main_arg11) := g11.symm
  have a12 : K0 (Proc.devRef .tc Cert.KernelIdeal.main_arg12) = R0 (Proc.devRef .tc Cert.ReferenceIdeal.main_arg12) := g12.symm
  -- the rows before the layer, as the host operations hold them
  have hU : Cert.KernelIdeal.HostRead.userRows (F := Ideal) (K0 (Proc.devRef .tc Cert.KernelIdeal.main_arg6)) (K0 (Proc.devRef .tc Cert.KernelIdeal.main_arg0)) = Cert.ReferenceIdeal.Hand.xu0 R0 :=
    (Cert.KernelIdeal.HostRead.read_main_v22 (F := Ideal) K0).symm.trans hu
  have hM : (Cert.KernelIdeal.Hand.W1 (F := Ideal) m ρ c (Proc.devRef .tc Cert.KernelIdeal.main_v23) : Arr 20000 64) = Cert.ReferenceIdeal.Hand.movieX R0 := hm
  constructor
  · -- the movies' side: region 0
    have hK : KM1 m ρ c = sageForm (Cert.KernelIdeal.Hand.V1 (F := Ideal) m ρ c Cert.KernelIdeal.main_v37) (Cert.KernelIdeal.Hand.V1 (F := Ideal) m ρ c Cert.KernelIdeal.main_v23)
        (Cert.KernelIdeal.Hand.V1 (F := Ideal) m ρ c Cert.KernelIdeal.main_v53) (Cert.KernelIdeal.Hand.V1 (F := Ideal) m ρ c Cert.KernelIdeal.main_v58) (Cert.KernelIdeal.Hand.V1 (F := Ideal) m ρ c Cert.KernelIdeal.main_v57) :=
      (Cert.KernelIdeal.Hand.W2_arr (F := Ideal) m ρ c 5).trans (Cert.KernelIdeal.HandValue.arrAt_out0 (Cert.KernelIdeal.Hand.V1 (F := Ideal) m ρ) c)
    refine sage_layer_glue (KM1 m ρ c) (RM1 m' c) _ _ _ _ _
      (fun n k => Cert.KernelIdeal.HostRead.sumToMovies (F := Ideal) (Cert.KernelIdeal.HostRead.userRows (F := Ideal) (K0 (Proc.devRef .tc Cert.KernelIdeal.main_arg6)) (K0 (Proc.devRef .tc Cert.KernelIdeal.main_arg0)))
        (K0 (Proc.devRef .tc Cert.KernelIdeal.main_arg2)) (K0 (Proc.devRef .tc Cert.KernelIdeal.main_arg3)) (ix2 n k))
      (fun n k => Cert.ReferenceIdeal.Hand.rSumToMovies (Cert.ReferenceIdeal.Hand.xu0 R0) (Cert.ReferenceIdeal.Hand.edgeUser R0) (Cert.ReferenceIdeal.Hand.edgeMovie R0) (ix2 n k))
      (fun n k => Cert.ReferenceIdeal.Hand.movieX R0 (ix2 n k))
      (fun n => Cert.KernelIdeal.HostRead.countMovies (F := Ideal) (K0 (Proc.devRef .tc Cert.KernelIdeal.main_arg3)) (ix1 n))
      (fun n => Cert.ReferenceIdeal.Hand.rCountMovies (Cert.ReferenceIdeal.Hand.edgeMovie R0) (ix1 n))
      (fun k j => Cert.ReferenceIdeal.Hand.WlUM R0 (ix3 (0 : Fin 3) k j)) (fun k j => Cert.ReferenceIdeal.Hand.WrUM R0 (ix3 (0 : Fin 3) k j))
      (fun j => Cert.ReferenceIdeal.Hand.bUM R0 (ix2 (0 : Fin 3) j)) (Ideal.ofBits .f32 0x00000000#32)
      hK ?_ (fun n j => Cert.ReferenceIdeal.Hand.at_xm1 R0 n j) ?_ ?_ ?_ ?_ ?_ ?_ rfl
    · intro n k
      exact (Cert.KernelIdeal.HostRead.read_main_v37_apply (F := Ideal) K0 n k).trans
        (congrArg (_ * ·) (Cert.KernelIdeal.HostRead.invCountMovies_apply (F := Ideal) (K0 (Proc.devRef .tc Cert.KernelIdeal.main_arg3)) n))
    · intro n k
      show Cert.KernelIdeal.HostRead.sumToMovies (F := Ideal) _ _ _ (ix2 n k) = Cert.ReferenceIdeal.Hand.rSumToMovies _ _ _ (ix2 n k)
      rw [hU, a2, a3]; rfl
    · intro n
      show Cert.KernelIdeal.HostRead.countMovies (F := Ideal) _ (ix1 n) = Cert.ReferenceIdeal.Hand.rCountMovies _ (ix1 n)
      rw [a3]; rfl
    · intro n k
      exact congrFun hM (ix2 n k)
    · intro k j
      exact (Cert.KernelIdeal.HostRead.read_main_v53_apply (F := Ideal) K0 k j).trans (congrFun a7 (ix3 (0 : Fin 3) k j))
    · intro k j
      exact (Cert.KernelIdeal.HostRead.read_main_v57_apply (F := Ideal) K0 k j).trans (congrFun a9 (ix3 (0 : Fin 3) k j))
    · intro j
      exact (Cert.KernelIdeal.HostRead.read_main_v58_apply (F := Ideal) K0 0 j).trans (congrFun a8 (ix2 (0 : Fin 3) j))
  · -- the users' side: region 1
    have hK : KU1 m ρ c = sageForm (Cert.KernelIdeal.Hand.V3 (F := Ideal) m ρ c Cert.KernelIdeal.main_v51) (Cert.KernelIdeal.Hand.V3 (F := Ideal) m ρ c Cert.KernelIdeal.main_v22)
        (Cert.KernelIdeal.Hand.V3 (F := Ideal) m ρ c Cert.KernelIdeal.main_v61) (Cert.KernelIdeal.Hand.V3 (F := Ideal) m ρ c Cert.KernelIdeal.main_v66) (Cert.KernelIdeal.Hand.V3 (F := Ideal) m ρ c Cert.KernelIdeal.main_v65) :=
      (Cert.KernelIdeal.Hand.W4_arr (F := Ideal) m ρ c 5).trans (Cert.KernelIdeal.HandValue.arrAt_out1 (Cert.KernelIdeal.Hand.V3 (F := Ideal) m ρ) c)
    have e51 : Cert.KernelIdeal.Hand.V3 (F := Ideal) m ρ c Cert.KernelIdeal.main_v51 = Cert.KernelIdeal.Hand.W1 (F := Ideal) m ρ c (Proc.devRef .tc Cert.KernelIdeal.main_v51) :=
      Cert.KernelIdeal.Hand.W3_eq_W1 (F := Ideal) m ρ c Cert.KernelIdeal.main_v51 (by decide) (by decide)
    have e22 : Cert.KernelIdeal.Hand.V3 (F := Ideal) m ρ c Cert.KernelIdeal.main_v22 = Cert.KernelIdeal.Hand.W1 (F := Ideal) m ρ c (Proc.devRef .tc Cert.KernelIdeal.main_v22) :=
      Cert.KernelIdeal.Hand.W3_eq_W1 (F := Ideal) m ρ c Cert.KernelIdeal.main_v22 (by decide) (by decide)
    refine sage_layer_glue (KU1 m ρ c) (RU1 m' c) _ _ _ _ _
      (fun n k => Cert.KernelIdeal.HostRead.sumToUsers (F := Ideal) (truncf (F := Ideal) .bf16 (K0 (Proc.devRef .tc Cert.KernelIdeal.main_arg1)) Cert.KernelIdeal.Gen.bitsLt_bf16_f32)
        (K0 (Proc.devRef .tc Cert.KernelIdeal.main_arg2)) (K0 (Proc.devRef .tc Cert.KernelIdeal.main_arg3)) (ix2 n k))
      (fun n k => Cert.ReferenceIdeal.Hand.rSumToUsers (Cert.ReferenceIdeal.Hand.movieX R0) (Cert.ReferenceIdeal.Hand.edgeUser R0) (Cert.ReferenceIdeal.Hand.edgeMovie R0) (ix2 n k))
      (fun n k => Cert.ReferenceIdeal.Hand.xu0 R0 (ix2 n k))
      (fun n => Cert.KernelIdeal.HostRead.countUsers (F := Ideal) (K0 (Proc.devRef .tc Cert.KernelIdeal.main_arg2)) (ix1 n))
      (fun n => Cert.ReferenceIdeal.Hand.rCountUsers (Cert.ReferenceIdeal.Hand.edgeUser R0) (ix1 n))
      (fun k j => Cert.ReferenceIdeal.Hand.WlMU R0 (ix3 (0 : Fin 3) k j)) (fun k j => Cert.ReferenceIdeal.Hand.WrMU R0 (ix3 (0 : Fin 3) k j))
      (fun j => Cert.ReferenceIdeal.Hand.bMU R0 (ix2 (0 : Fin 3) j)) (Ideal.ofBits .f32 0x00000000#32)
      hK ?_ (fun n j => Cert.ReferenceIdeal.Hand.at_xu1 R0 n j) ?_ ?_ ?_ ?_ ?_ ?_ rfl
    · intro n k
      exact (congrFun e51 (ix2 n k)).trans ((Cert.KernelIdeal.HostRead.read_main_v51_apply (F := Ideal) K0 n k).trans
        (congrArg (_ * ·) (Cert.KernelIdeal.HostRead.invCountUsers_apply (F := Ideal) (K0 (Proc.devRef .tc Cert.KernelIdeal.main_arg2)) n)))
    · intro n k
      show Cert.KernelIdeal.HostRead.sumToUsers (F := Ideal) _ _ _ (ix2 n k) = Cert.ReferenceIdeal.Hand.rSumToUsers _ _ _ (ix2 n k)
      rw [a1, a2, a3]; rfl
    · intro n
      show Cert.KernelIdeal.HostRead.countUsers (F := Ideal) _ (ix1 n) = Cert.ReferenceIdeal.Hand.rCountUsers _ (ix1 n)
      rw [a2]; rfl
    · intro n k
      exact congrFun (e22.trans hu) (ix2 n k)
    · intro k j
      exact (Cert.KernelIdeal.HostRead.read_main_v61_apply (F := Ideal) (Cert.KernelIdeal.Hand.W2 (F := Ideal) m ρ c) k j).trans
        (congrFun ((Cert.KernelIdeal.Hand.W2_eq_W0 (F := Ideal) m ρ c Cert.KernelIdeal.main_arg10 (by decide) (by decide)).trans a10) (ix3 (0 : Fin 3) k j))
    · intro k j
      exact (Cert.KernelIdeal.HostRead.read_main_v65_apply (F := Ideal) (Cert.KernelIdeal.Hand.W2 (F := Ideal) m ρ c) k j).trans
        (congrFun ((Cert.KernelIdeal.Hand.W2_eq_W0 (F := Ideal) m ρ c Cert.KernelIdeal.main_arg12 (by decide) (by decide)).trans a12) (ix3 (0 : Fin 3) k j))
    · intro j
      exact (Cert.KernelIdeal.HostRead.read_main_v66_apply (F := Ideal) (Cert.KernelIdeal.Hand.W2 (F := Ideal) m ρ c) 0 j).trans
        (congrFun ((Cert.KernelIdeal.Hand.W2_eq_W0 (F := Ideal) m ρ c Cert.KernelIdeal.main_arg11 (by decide) (by decide)).trans a11) (ix2 (0 : Fin 3) j))

end Cert.Bridge

end
-- ==== Proof.KI.H2.lean ====
/-
  The host operations before the third kernel launch, read as functions of the contents they start from: the whole
  second-layer aggregation and the movie-side weights of the second layer.  The movies' aggregate is the first
  layer's user output gathered along the edges, summed per movie and scaled by the movies' reciprocal clamped counts;
  the users' aggregate likewise from the first layer's movie output.  The gather and the accumulating scatter stay
  the library's operations; the weights are layer `1` of the stacked parameters.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- The movies' aggregate of the second layer. -/
theorem read_main_v81 (W : Valuation τ sig (Elt F)) :
    (StableHlo.after (hostOps2 (F := F)) W (Proc.devRef .tc main_v81) : FVec F S20000x64 .f32)
      = aggMovies (W (Proc.devRef .tc main_v67) : FVec F S100000x64 .bf16)
          (W (Proc.devRef .tc main_arg2) : IVec S1000000 32) (W (Proc.devRef .tc main_arg3) : IVec S1000000 32)
          (W (Proc.devRef .tc main_v7) : FVec F S20000 .f32) := by
  dsimp only [hostOps2]; after_results_simp

theorem read_main_v81_apply (W : Valuation τ sig (Elt F)) (n : Fin 20000) (j : Fin 64) :
    (StableHlo.after (hostOps2 (F := F)) W (Proc.devRef .tc main_v81) : FVec F S20000x64 .f32) (ix2 n j)
      = FloatOps.mulf
          (sumToMovies (W (Proc.devRef .tc main_v67) : FVec F S100000x64 .bf16)
          (W (Proc.devRef .tc main_arg2) : IVec S1000000 32) (W (Proc.devRef .tc main_arg3) : IVec S1000000 32) (ix2 n j))
          ((W (Proc.devRef .tc main_v7) : FVec F S20000 .f32) (ix1 n)) := by
  rw [read_main_v81]
  exact aggMovies_apply _ _ _ _ n j

/-- The users' aggregate of the second layer. -/
theorem read_main_v95 (W : Valuation τ sig (Elt F)) :
    (StableHlo.after (hostOps2 (F := F)) W (Proc.devRef .tc main_v95) : FVec F S100000x64 .f32)
      = aggUsers (W (Proc.devRef .tc main_v59) : FVec F S20000x64 .bf16)
          (W (Proc.devRef .tc main_arg2) : IVec S1000000 32) (W (Proc.devRef .tc main_arg3) : IVec S1000000 32)
          (W (Proc.devRef .tc main_v14) : FVec F S100000 .f32) := by
  dsimp only [hostOps2]; after_results_simp

theorem read_main_v95_apply (W : Valuation τ sig (Elt F)) (n : Fin 100000) (j : Fin 64) :
    (StableHlo.after (hostOps2 (F := F)) W (Proc.devRef .tc main_v95) : FVec F S100000x64 .f32) (ix2 n j)
      = FloatOps.mulf
          (sumToUsers (W (Proc.devRef .tc main_v59) : FVec F S20000x64 .bf16)
          (W (Proc.devRef .tc main_arg2) : IVec S1000000 32) (W (Proc.devRef .tc main_arg3) : IVec S1000000 32) (ix2 n j))
          ((W (Proc.devRef .tc main_v14) : FVec F S100000 .f32) (ix1 n)) := by
  rw [read_main_v95]
  exact aggUsers_apply _ _ _ _ n j

/-- The left weight matrix of the second movie-side layer. -/
theorem read_main_v97 (W : Valuation τ sig (Elt F)) :
    (StableHlo.after (hostOps2 (F := F)) W (Proc.devRef .tc main_v97) : FVec F S64x64 .f32)
      = shapeCast S64x64
          (extractStridedSlice S1x64x64 ![1, 0, 0] (W (Proc.devRef .tc main_arg7) : FVec F S3x64x64 .f32)
            slices_S3x64x64_S1x64x64_1_0_0)
          shapeCasts_S1x64x64_S64x64 := by
  dsimp only [hostOps2]; after_results_simp; rfl

theorem read_main_v97_apply (W : Valuation τ sig (Elt F)) (k j : Fin 64) :
    (StableHlo.after (hostOps2 (F := F)) W (Proc.devRef .tc main_v97) : FVec F S64x64 .f32) (ix2 k j)
      = (W (Proc.devRef .tc main_arg7) : FVec F S3x64x64 .f32) (ix3 (1 : Fin 3) k j) := by
  rw [read_main_v97]
  exact slice_layer_matrix_apply (1 : Fin 3) _ _ _ k j

/-- The right weight matrix of the second movie-side layer. -/
theorem read_main_v101 (W : Valuation τ sig (Elt F)) :
    (StableHlo.after (hostOps2 (F := F)) W (Proc.devRef .tc main_v101) : FVec F S64x64 .f32)
      = shapeCast S64x64
          (extractStridedSlice S1x64x64 ![1, 0, 0] (W (Proc.devRef .tc main_arg9) : FVec F S3x64x64 .f32)
            slices_S3x64x64_S1x64x64_1_0_0)
          shapeCasts_S1x64x64_S64x64 := by
  dsimp only [hostOps2]; after_results_simp; rfl

theorem read_main_v101_apply (W : Valuation τ sig (Elt F)) (k j : Fin 64) :
    (StableHlo.after (hostOps2 (F := F)) W (Proc.devRef .tc main_v101) : FVec F S64x64 .f32) (ix2 k j)
      = (W (Proc.devRef .tc main_arg9) : FVec F S3x64x64 .f32) (ix3 (1 : Fin 3) k j) := by
  rw [read_main_v101]
  exact slice_layer_matrix_apply (1 : Fin 3) _ _ _ k j

/-- The bias of the second movie-side layer, as a row. -/
theorem read_main_v102 (W : Valuation τ sig (Elt F)) :
    (StableHlo.after (hostOps2 (F := F)) W (Proc.devRef .tc main_v102) : FVec F S1x64 .f32)
      = shapeCast S1x64
          (shapeCast S64
            (extractStridedSlice S1x64 ![1, 0] (W (Proc.devRef .tc main_arg8) : FVec F S3x64 .f32) slices_S3x64_S1x64_1_0)
            shapeCasts_S1x64_S64)
          shapeCasts_S64_S1x64 := by
  dsimp only [hostOps2]; after_results_simp; rfl

theorem read_main_v102_apply (W : Valuation τ sig (Elt F)) (u : Fin 1) (j : Fin 64) :
    (StableHlo.after (hostOps2 (F := F)) W (Proc.devRef .tc main_v102) : FVec F S1x64 .f32) (ix2 u j)
      = (W (Proc.devRef .tc main_arg8) : FVec F S3x64 .f32) (ix2 (1 : Fin 3) j) := by
  rw [read_main_v102]
  exact slice_layer_row_apply (1 : Fin 3) _ _ _ _ u j

end Cert.KernelIdeal.HostRead

end
-- ==== Proof.KI.H3.lean ====
/-
  The host operations before the fourth kernel launch: the user-side weights of the second layer, layer `1` of the
  stacked parameters, each re-laid without its unit axis.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- The left weight matrix of the second user-side layer. -/
theorem read_main_v105 (W : Valuation τ sig (Elt F)) :
    (StableHlo.after (hostOps3 (F := F)) W (Proc.devRef .tc main_v105) : FVec F S64x64 .f32)
      = shapeCast S64x64
          (extractStridedSlice S1x64x64 ![1, 0, 0] (W (Proc.devRef .tc main_arg10) : FVec F S3x64x64 .f32)
            slices_S3x64x64_S1x64x64_1_0_0)
          shapeCasts_S1x64x64_S64x64 := by
  dsimp only [hostOps3]; after_results; rfl

theorem read_main_v105_apply (W : Valuation τ sig (Elt F)) (k j : Fin 64) :
    (StableHlo.after (hostOps3 (F := F)) W (Proc.devRef .tc main_v105) : FVec F S64x64 .f32) (ix2 k j)
      = (W (Proc.devRef .tc main_arg10) : FVec F S3x64x64 .f32) (ix3 (1 : Fin 3) k j) := by
  rw [read_main_v105]
  exact slice_layer_matrix_apply (1 : Fin 3) _ _ _ k j

/-- The right weight matrix of the second user-side layer. -/
theorem read_main_v109 (W : Valuation τ sig (Elt F)) :
    (StableHlo.after (hostOps3 (F := F)) W (Proc.devRef .tc main_v109) : FVec F S64x64 .f32)
      = shapeCast S64x64
          (extractStridedSlice S1x64x64 ![1, 0, 0] (W (Proc.devRef .tc main_arg12) : FVec F S3x64x64 .f32)
            slices_S3x64x64_S1x64x64_1_0_0)
          shapeCasts_S1x64x64_S64x64 := by
  dsimp only [hostOps3]; after_results; rfl

theorem read_main_v109_apply (W : Valuation τ sig (Elt F)) (k j : Fin 64) :
    (StableHlo.after (hostOps3 (F := F)) W (Proc.devRef .tc main_v109) : FVec F S64x64 .f32) (ix2 k j)
      = (W (Proc.devRef .tc main_arg12) : FVec F S3x64x64 .f32) (ix3 (1 : Fin 3) k j) := by
  rw [read_main_v109]
  exact slice_layer_matrix_apply (1 : Fin 3) _ _ _ k j

/-- The bias of the second user-side layer, as a row. -/
theorem read_main_v110 (W : Valuation τ sig (Elt F)) :
    (StableHlo.after (hostOps3 (F := F)) W (Proc.devRef .tc main_v110) : FVec F S1x64 .f32)
      = shapeCast S1x64
          (shapeCast S64
            (extractStridedSlice S1x64 ![1, 0] (W (Proc.devRef .tc main_arg11) : FVec F S3x64 .f32) slices_S3x64_S1x64_1_0)
            shapeCasts_S1x64_S64)
          shapeCasts_S64_S1x64 := by
  dsimp only [hostOps3]; after_results; rfl

theorem read_main_v110_apply (W : Valuation τ sig (Elt F)) (u : Fin 1) (j : Fin 64) :
    (StableHlo.after (hostOps3 (F := F)) W (Proc.devRef .tc main_v110) : FVec F S1x64 .f32) (ix2 u j)
      = (W (Proc.devRef .tc main_arg11) : FVec F S3x64 .f32) (ix2 (1 : Fin 3) j) := by
  rw [read_main_v110]
  exact slice_layer_row_apply (1 : Fin 3) _ _ _ _ u j

end Cert.KernelIdeal.HostRead

end
-- ==== Proof.KI.V2.lean ====
/- The value of pipeline 2 of @main at the extended reals: after the region its output array is the SAGE linear layer
   of the arrays the region found — each row the aggregate row times one weight plus the feature row times the other
   plus the bias row, clamped below at zero — and every input array is unchanged. Point `t` of the grid writes back
   rows `5000 t … 5000 t + 4999`; the row blocks tile the array. -/
import proofs.«176278_j29592324669622_2_alg».proof.Proof.KI.R2
import proofs.«176278_j29592324669622_2_alg».proof.Proof.KI.VPay
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz2 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `r` of row block `t`, as a row of the tall array. -/
def row2 (t : Fin cfg2.N) (r : Fin 5000) : Fin 20000 :=
  ⟨t.val * 5000 + r.val, by have h : t.val < 4 := Nat.lt_of_lt_of_eq t.isLt N_2; have := r.isLt; omega⟩

/-- Window 0's block at point `t` is rows `5000 t … 5000 t + 4999` of its array. -/
theorem iblk2_0_apply (c : Dev nD) (t : Fin cfg2.N) (r : Fin 5000) (k : Fin 64) :
    (iblk2 V c 0 t : FVec Ideal S5000x64 .f32) (ix2 r k) = (V c main_v81 : S20000x64.Idx → EReal) (ix2 (row2 t r) k) := by
  obtain ⟨h0a, h0b, h1a, h1b, h2a, h2b, h3a, h3b, h4a, h4b, h5a, h5b⟩ := idx2 t
  unfold iblk2
  rw [View.read_apply]
  show V c main_v81 _ = V c main_v81 _
  congr 1
  funext a; apply Fin.ext
  match a with
  | ⟨0, _⟩ => show win2_0.index t (0 : Fin 2) * 5000 + 1 * r.val = t.val * 5000 + r.val; rw [h0a]; omega
  | ⟨1, _⟩ => show win2_0.index t (1 : Fin 2) * 64 + 1 * k.val = k.val; rw [h0b]; omega

/-- Window 1's block at point `t` is rows `5000 t … 5000 t + 4999` of its array. -/
theorem iblk2_1_apply (c : Dev nD) (t : Fin cfg2.N) (r : Fin 5000) (k : Fin 64) :
    (iblk2 V c 1 t : FVec Ideal S5000x64 .bf16) (ix2 r k) = (V c main_v59 : S20000x64.Idx → EReal) (ix2 (row2 t r) k) := by
  obtain ⟨h0a, h0b, h1a, h1b, h2a, h2b, h3a, h3b, h4a, h4b, h5a, h5b⟩ := idx2 t
  unfold iblk2
  rw [View.read_apply]
  show V c main_v59 _ = V c main_v59 _
  congr 1
  funext a; apply Fin.ext
  match a with
  | ⟨0, _⟩ => show win2_1.index t (0 : Fin 2) * 5000 + 1 * r.val = t.val * 5000 + r.val; rw [h1a]; omega
  | ⟨1, _⟩ => show win2_1.index t (1 : Fin 2) * 64 + 1 * k.val = k.val; rw [h1b]; omega

/-- Window 2's block at every point is its whole array. -/
theorem iblk2_2_apply (c : Dev nD) (t : Fin cfg2.N) (p : Fin 64) (k : Fin 64) :
    (iblk2 V c 2 t : FVec Ideal S64x64 .f32) (ix2 p k) = (V c main_v97 : S64x64.Idx → EReal) (ix2 p k) := by
  obtain ⟨h0a, h0b, h1a, h1b, h2a, h2b, h3a, h3b, h4a, h4b, h5a, h5b⟩ := idx2 t
  unfold iblk2
  rw [View.read_apply]
  show V c main_v97 _ = V c main_v97 _
  congr 1
  funext a; apply Fin.ext
  match a with
  | ⟨0, _⟩ => show win2_2.index t (0 : Fin 2) * 64 + 1 * p.val = p.val; rw [h2a]; omega
  | ⟨1, _⟩ => show win2_2.index t (1 : Fin 2) * 64 + 1 * k.val = k.val; rw [h2b]; omega

/-- Window 3's block at every point is its whole array. -/
theorem iblk2_3_apply (c : Dev nD) (t : Fin cfg2.N) (p : Fin 1) (k : Fin 64) :
    (iblk2 V c 3 t : FVec Ideal S1x64 .f32) (ix2 p k) = (V c main_v102 : S1x64.Idx → EReal) (ix2 p k) := by
  obtain ⟨h0a, h0b, h1a, h1b, h2a, h2b, h3a, h3b, h4a, h4b, h5a, h5b⟩ := idx2 t
  unfold iblk2
  rw [View.read_apply]
  show V c main_v102 _ = V c main_v102 _
  congr 1
  funext a; apply Fin.ext
  match a with
  | ⟨0, _⟩ => show win2_3.index t (0 : Fin 2) * 1 + 1 * p.val = p.val; rw [h3a]; omega
  | ⟨1, _⟩ => show win2_3.index t (1 : Fin 2) * 64 + 1 * k.val = k.val; rw [h3b]; omega

/-- Window 4's block at every point is its whole array. -/
theorem iblk2_4_apply (c : Dev nD) (t : Fin cfg2.N) (p : Fin 64) (k : Fin 64) :
    (iblk2 V c 4 t : FVec Ideal S64x64 .f32) (ix2 p k) = (V c main_v101 : S64x64.Idx → EReal) (ix2 p k) := by
  obtain ⟨h0a, h0b, h1a, h1b, h2a, h2b, h3a, h3b, h4a, h4b, h5a, h5b⟩ := idx2 t
  unfold iblk2
  rw [View.read_apply]
  show V c main_v101 _ = V c main_v101 _
  congr 1
  funext a; apply Fin.ext
  match a with
  | ⟨0, _⟩ => show win2_4.index t (0 : Fin 2) * 64 + 1 * p.val = p.val; rw [h4a]; omega
  | ⟨1, _⟩ => show win2_4.index t (1 : Fin 2) * 64 + 1 * k.val = k.val; rw [h4b]; omega

/-! ## What a point writes back -/

/-- Entry `(r, q)` of the block the body stores at point `t` is entry `(5000 t + r, q)` of the closed form of the
    arrays as the region finds them. -/
theorem stored2_apply (c : Dev nD) (t : Fin cfg2.N) (r : Fin 5000) (q : Fin 64) :
    (k2_pay1 (F := Ideal) (iblk2 V c 0 t) (iblk2 V c 1 t) (iblk2 V c 2 t) (iblk2 V c 4 t) (iblk2 V c 3 t) (ix2 r q) : EReal)
      = sageForm (V c main_v81) (V c main_v59) (V c main_v97) (V c main_v102) (V c main_v101) (ix2 (row2 t r) q) := by
  refine ((sage_pay_apply2 _ _ _ _ _ r q).trans ?_).trans (sageForm_ix2 _ _ _ _ _ (row2 t r) q).symm
  exact congrArg₂ max (congrArg₂ (· + ·) (congrArg₂ (· + ·)
      (Finset.sum_congr rfl fun k _ => congrArg₂ (· * ·) (iblk2_0_apply V c t r k) (iblk2_2_apply V c t k q))
      (Finset.sum_congr rfl fun k _ => congrArg₂ (· * ·) (iblk2_1_apply V c t r k) (iblk2_4_apply V c t k q)))
      (iblk2_3_apply V c t 0 q)) rfl

/-- What point `t` writes back to the output window's array is block `t` of the closed form. -/
theorem flushed2_eq (c : Dev nD) (t : Fin cfg2.N) :
    (dat2 (F := Ideal) V c).flushed 5 t = ((cfg2.win 5).blk t).view.read (Elt Ideal) (sageForm (V c main_v81) (V c main_v59) (V c main_v97) (V c main_v102) (V c main_v101)) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S64x64) hz2, View.ld_unit_zero (S := S1x64) hz2]
  obtain ⟨h0a, h0b, h1a, h1b, h2a, h2b, h3a, h3b, h4a, h4b, h5a, h5b⟩ := idx2 t
  funext j
  obtain ⟨r, q, rfl⟩ : ∃ (r : Fin 5000) (q : Fin 64), j = ix2 r q := ⟨j 0, j 1, eq_ix2 j⟩
  refine (stored2_apply V c t r q).trans ?_
  rw [View.read_apply]
  refine congrArg (sageForm (V c main_v81) (V c main_v59) (V c main_v97) (V c main_v102) (V c main_v101)) ?_
  funext a; apply Fin.ext
  match a with
  | ⟨0, _⟩ => show t.val * 5000 + r.val = win2_5.index t (0 : Fin 2) * 5000 + 1 * r.val; rw [h5a]; omega
  | ⟨1, _⟩ => show q.val = win2_5.index t (1 : Fin 2) * 64 + 1 * q.val; rw [h5b]; omega

/-! ## The output array after the run -/

/-- An index of the array is in point `t`'s block iff each coordinate is in the block's range on its axis. -/
theorem mem_blk2 (t : Fin cfg2.N) (i : S20000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v103).slice (win2_5.rect t)).set ↔ _
  rw [View.set_slice_whole, Rect.mem_set_unit]
  exact Iff.rfl

/-- The row blocks tile the array: row `n` is in the block of point `n / 5000`. -/
theorem covered2 (i : S20000x64.Idx) :
    ∃ t : Fin cfg2.N, (cfg2.win 5).flush t = true ∧ i ∈ ((cfg2.win 5).blk t).view.set := by
  have hi0 : (i 0).val < 20000 := (i 0).isLt
  have hi1 : (i 1).val < 64 := (i 1).isLt
  obtain ⟨t, ht⟩ : ∃ t : Fin cfg2.N, t.val = (i 0).val / 5000 :=
    ⟨⟨(i 0).val / 5000, Nat.lt_of_lt_of_eq (show (i 0).val / 5000 < 4 by omega) N_2.symm⟩, rfl⟩
  obtain ⟨h0a, h0b, h1a, h1b, h2a, h2b, h3a, h3b, h4a, h4b, h5a, h5b⟩ := idx2 t
  refine ⟨t, flush2_5 t, (mem_blk2 t i).mpr fun a => ?_⟩
  match a with
  | ⟨0, _⟩ =>
    show win2_5.index t (0 : Fin 2) * 5000 ≤ (i 0).val ∧ (i 0).val < win2_5.index t (0 : Fin 2) * 5000 + 5000
    rw [h5a, ht]; omega
  | ⟨1, _⟩ =>
    show win2_5.index t (1 : Fin 2) * 64 ≤ (i 1).val ∧ (i 1).val < win2_5.index t (1 : Fin 2) * 64 + 64
    rw [h5b]; omega

/-- THE OUTPUT ARRAY after the region is the closed form of the arrays as the region finds them. -/
theorem arrAt_out2 (c : Dev nD) :
    (dat2 (F := Ideal) V c).arrAt 5 cfg2.N = sageForm (V c main_v81) (V c main_v59) (V c main_v97) (V c main_v102) (V c main_v101) :=
  (dat2 V c).arrAt_eq_of_cover 5 _ (fun t _ => flushed2_eq V c t) covered2

/-- Every input array is as the region found it: an input window is never written back. -/
theorem arrAt_in2 (c : Dev nD) (w : Fin cfg2.W) (hw : w ≠ 5) :
    (dat2 (F := Ideal) V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat2 V c).arrAt_in w hin _).trans (A_eq2 V c w)

end Cert.KernelIdeal.HandValue

end
-- ==== Proof.KI.V3.lean ====
/- The value of pipeline 3 of @main at the extended reals: after the region its output array is the SAGE linear layer
   of the arrays the region found — each row the aggregate row times one weight plus the feature row times the other
   plus the bias row, clamped below at zero — and every input array is unchanged. Point `t` of the grid writes back
   rows `5000 t … 5000 t + 4999`; the row blocks tile the array. -/
import proofs.«176278_j29592324669622_2_alg».proof.Proof.KI.R3
import proofs.«176278_j29592324669622_2_alg».proof.Proof.KI.VPay
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz3 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `r` of row block `t`, as a row of the tall array. -/
def row3 (t : Fin cfg3.N) (r : Fin 5000) : Fin 100000 :=
  ⟨t.val * 5000 + r.val, by have h : t.val < 20 := Nat.lt_of_lt_of_eq t.isLt N_3; have := r.isLt; omega⟩

/-- Window 0's block at point `t` is rows `5000 t … 5000 t + 4999` of its array. -/
theorem iblk3_0_apply (c : Dev nD) (t : Fin cfg3.N) (r : Fin 5000) (k : Fin 64) :
    (iblk3 V c 0 t : FVec Ideal S5000x64 .f32) (ix2 r k) = (V c main_v95 : S100000x64.Idx → EReal) (ix2 (row3 t r) k) := by
  obtain ⟨h0a, h0b, h1a, h1b, h2a, h2b, h3a, h3b, h4a, h4b, h5a, h5b⟩ := idx3 t
  unfold iblk3
  rw [View.read_apply]
  show V c main_v95 _ = V c main_v95 _
  congr 1
  funext a; apply Fin.ext
  match a with
  | ⟨0, _⟩ => show win3_0.index t (0 : Fin 2) * 5000 + 1 * r.val = t.val * 5000 + r.val; rw [h0a]; omega
  | ⟨1, _⟩ => show win3_0.index t (1 : Fin 2) * 64 + 1 * k.val = k.val; rw [h0b]; omega

/-- Window 1's block at point `t` is rows `5000 t … 5000 t + 4999` of its array. -/
theorem iblk3_1_apply (c : Dev nD) (t : Fin cfg3.N) (r : Fin 5000) (k : Fin 64) :
    (iblk3 V c 1 t : FVec Ideal S5000x64 .bf16) (ix2 r k) = (V c main_v67 : S100000x64.Idx → EReal) (ix2 (row3 t r) k) := by
  obtain ⟨h0a, h0b, h1a, h1b, h2a, h2b, h3a, h3b, h4a, h4b, h5a, h5b⟩ := idx3 t
  unfold iblk3
  rw [View.read_apply]
  show V c main_v67 _ = V c main_v67 _
  congr 1
  funext a; apply Fin.ext
  match a with
  | ⟨0, _⟩ => show win3_1.index t (0 : Fin 2) * 5000 + 1 * r.val = t.val * 5000 + r.val; rw [h1a]; omega
  | ⟨1, _⟩ => show win3_1.index t (1 : Fin 2) * 64 + 1 * k.val = k.val; rw [h1b]; omega

/-- Window 2's block at every point is its whole array. -/
theorem iblk3_2_apply (c : Dev nD) (t : Fin cfg3.N) (p : Fin 64) (k : Fin 64) :
    (iblk3 V c 2 t : FVec Ideal S64x64 .f32) (ix2 p k) = (V c main_v105 : S64x64.Idx → EReal) (ix2 p k) := by
  obtain ⟨h0a, h0b, h1a, h1b, h2a, h2b, h3a, h3b, h4a, h4b, h5a, h5b⟩ := idx3 t
  unfold iblk3
  rw [View.read_apply]
  show V c main_v105 _ = V c main_v105 _
  congr 1
  funext a; apply Fin.ext
  match a with
  | ⟨0, _⟩ => show win3_2.index t (0 : Fin 2) * 64 + 1 * p.val = p.val; rw [h2a]; omega
  | ⟨1, _⟩ => show win3_2.index t (1 : Fin 2) * 64 + 1 * k.val = k.val; rw [h2b]; omega

/-- Window 3's block at every point is its whole array. -/
theorem iblk3_3_apply (c : Dev nD) (t : Fin cfg3.N) (p : Fin 1) (k : Fin 64) :
    (iblk3 V c 3 t : FVec Ideal S1x64 .f32) (ix2 p k) = (V c main_v110 : S1x64.Idx → EReal) (ix2 p k) := by
  obtain ⟨h0a, h0b, h1a, h1b, h2a, h2b, h3a, h3b, h4a, h4b, h5a, h5b⟩ := idx3 t
  unfold iblk3
  rw [View.read_apply]
  show V c main_v110 _ = V c main_v110 _
  congr 1
  funext a; apply Fin.ext
  match a with
  | ⟨0, _⟩ => show win3_3.index t (0 : Fin 2) * 1 + 1 * p.val = p.val; rw [h3a]; omega
  | ⟨1, _⟩ => show win3_3.index t (1 : Fin 2) * 64 + 1 * k.val = k.val; rw [h3b]; omega

/-- Window 4's block at every point is its whole array. -/
theorem iblk3_4_apply (c : Dev nD) (t : Fin cfg3.N) (p : Fin 64) (k : Fin 64) :
    (iblk3 V c 4 t : FVec Ideal S64x64 .f32) (ix2 p k) = (V c main_v109 : S64x64.Idx → EReal) (ix2 p k) := by
  obtain ⟨h0a, h0b, h1a, h1b, h2a, h2b, h3a, h3b, h4a, h4b, h5a, h5b⟩ := idx3 t
  unfold iblk3
  rw [View.read_apply]
  show V c main_v109 _ = V c main_v109 _
  congr 1
  funext a; apply Fin.ext
  match a with
  | ⟨0, _⟩ => show win3_4.index t (0 : Fin 2) * 64 + 1 * p.val = p.val; rw [h4a]; omega
  | ⟨1, _⟩ => show win3_4.index t (1 : Fin 2) * 64 + 1 * k.val = k.val; rw [h4b]; omega

/-! ## What a point writes back -/

/-- Entry `(r, q)` of the block the body stores at point `t` is entry `(5000 t + r, q)` of the closed form of the
    arrays as the region finds them. -/
theorem stored3_apply (c : Dev nD) (t : Fin cfg3.N) (r : Fin 5000) (q : Fin 64) :
    (k3_pay1 (F := Ideal) (iblk3 V c 0 t) (iblk3 V c 1 t) (iblk3 V c 2 t) (iblk3 V c 4 t) (iblk3 V c 3 t) (ix2 r q) : EReal)
      = sageForm (V c main_v95) (V c main_v67) (V c main_v105) (V c main_v110) (V c main_v109) (ix2 (row3 t r) q) := by
  refine ((sage_pay_apply3 _ _ _ _ _ r q).trans ?_).trans (sageForm_ix2 _ _ _ _ _ (row3 t r) q).symm
  exact congrArg₂ max (congrArg₂ (· + ·) (congrArg₂ (· + ·)
      (Finset.sum_congr rfl fun k _ => congrArg₂ (· * ·) (iblk3_0_apply V c t r k) (iblk3_2_apply V c t k q))
      (Finset.sum_congr rfl fun k _ => congrArg₂ (· * ·) (iblk3_1_apply V c t r k) (iblk3_4_apply V c t k q)))
      (iblk3_3_apply V c t 0 q)) rfl

/-- What point `t` writes back to the output window's array is block `t` of the closed form. -/
theorem flushed3_eq (c : Dev nD) (t : Fin cfg3.N) :
    (dat3 (F := Ideal) V c).flushed 5 t = ((cfg3.win 5).blk t).view.read (Elt Ideal) (sageForm (V c main_v95) (V c main_v67) (V c main_v105) (V c main_v110) (V c main_v109)) := by
  show (cfg3.win 5).cut (grid3.coords t) ((dat3 V c).after 5 t) = _
  rw [after3_5]
  unfold out3_5
  rw [View.canon_unit_zero hz3]
  simp only [View.ld_unit_zero (S := S5000x64) hz3, View.ld_unit_zero (S := S64x64) hz3, View.ld_unit_zero (S := S1x64) hz3]
  obtain ⟨h0a, h0b, h1a, h1b, h2a, h2b, h3a, h3b, h4a, h4b, h5a, h5b⟩ := idx3 t
  funext j
  obtain ⟨r, q, rfl⟩ : ∃ (r : Fin 5000) (q : Fin 64), j = ix2 r q := ⟨j 0, j 1, eq_ix2 j⟩
  refine (stored3_apply V c t r q).trans ?_
  rw [View.read_apply]
  refine congrArg (sageForm (V c main_v95) (V c main_v67) (V c main_v105) (V c main_v110) (V c main_v109)) ?_
  funext a; apply Fin.ext
  match a with
  | ⟨0, _⟩ => show t.val * 5000 + r.val = win3_5.index t (0 : Fin 2) * 5000 + 1 * r.val; rw [h5a]; omega
  | ⟨1, _⟩ => show q.val = win3_5.index t (1 : Fin 2) * 64 + 1 * q.val; rw [h5b]; omega

/-! ## The output array after the run -/

/-- An index of the array is in point `t`'s block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v111).slice (win3_5.rect t)).set ↔ _
  rw [View.set_slice_whole, Rect.mem_set_unit]
  exact Iff.rfl

/-- The row blocks tile the array: row `n` is in the block of point `n / 5000`. -/
theorem covered3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, Nat.lt_of_lt_of_eq (show (i 0).val / 5000 < 20 by omega) N_3.symm⟩, rfl⟩
  obtain ⟨h0a, h0b, h1a, h1b, h2a, h2b, h3a, h3b, h4a, h4b, h5a, h5b⟩ := idx3 t
  refine ⟨t, flush3_5 t, (mem_blk3 t i).mpr fun a => ?_⟩
  match a with
  | ⟨0, _⟩ =>
    show win3_5.index t (0 : Fin 2) * 5000 ≤ (i 0).val ∧ (i 0).val < win3_5.index t (0 : Fin 2) * 5000 + 5000
    rw [h5a, ht]; omega
  | ⟨1, _⟩ =>
    show win3_5.index t (1 : Fin 2) * 64 ≤ (i 1).val ∧ (i 1).val < win3_5.index t (1 : Fin 2) * 64 + 64
    rw [h5b]; omega

/-- THE OUTPUT ARRAY after the region is the closed form of the arrays as the region finds them. -/
theorem arrAt_out3 (c : Dev nD) :
    (dat3 (F := Ideal) V c).arrAt 5 cfg3.N = sageForm (V c main_v95) (V c main_v67) (V c main_v105) (V c main_v110) (V c main_v109) :=
  (dat3 V c).arrAt_eq_of_cover 5 _ (fun t _ => flushed3_eq V c t) covered3

/-- Every input array is as the region found it: an input window is never written back. -/
theorem arrAt_in3 (c : Dev nD) (w : Fin cfg3.W) (hw : w ≠ 5) :
    (dat3 (F := Ideal) V c).arrAt w cfg3.N = V c (Pipeline.arrRef spec3 w) := by
  have hin : (cfg3.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat3 V c).arrAt_in w hin _).trans (A_eq3 V c w)

end Cert.KernelIdeal.HandValue

end
-- ==== Proof.Bridge.L2.lean ====
/- The second layer of the bridge: the movies' and the users' rows after the second SAGE layer agree between the two
   programs, given that the rows after the first layer do. On each side a row of the new array is the neighbour rows
   summed along the edges and scaled by the reciprocal of the clamped edge count, through the layer's neighbour weight,
   plus the node's own row through the root weight, plus the bias, clamped below at zero; the kernel program multiplies
   by the reciprocal where the reference divides, and adds the bias last where the reference adds it before the root
   term. The summed neighbour rows and the edge counts are the same scatter-adds of the same gathered rows on both
   sides (at the extended reals the kernel's change of float format around the gather is the identity), the weights
   are the second slabs of the same argument arrays. -/
import proofs.«176278_j29592324669622_2_alg».proof.Proof.Bridge.Defs
import proofs.«176278_j29592324669622_2_alg».proof.Proof.KI.Keep
import proofs.«176278_j29592324669622_2_alg».proof.Proof.KI.H0
import proofs.«176278_j29592324669622_2_alg».proof.Proof.KI.H2
import proofs.«176278_j29592324669622_2_alg».proof.Proof.KI.H3
import proofs.«176278_j29592324669622_2_alg».proof.Proof.KI.Terms2
import proofs.«176278_j29592324669622_2_alg».proof.Proof.KI.V2
import proofs.«176278_j29592324669622_2_alg».proof.Proof.KI.V3
import proofs.«176278_j29592324669622_2_alg».proof.Proof.Ref.At1
import proofs.«176278_j29592324669622_2_alg».proof.Proof.Math.SageGlue

noncomputable section

namespace Cert.Bridge

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The kernel program's launch contents on core `c`. -/
local notation "K0" => Cert.KernelIdeal.Hand.W0 (F := Ideal) m ρ c
/-- The reference's launch contents on core `c`. -/
local notation "R0" => (fun b => m' (c, b) : Valuation Cert.ReferenceIdeal.τ Cert.ReferenceIdeal.sig (Elt Ideal))

/-- After the second layer the two programs hold the same movies' rows and the same users' rows. -/
theorem st_L2 (hag : Agree m m' c) (hu : KU1 m ρ c = RU1 m' c) (hm : KM1 m ρ c = RM1 m' c) :
    KM2 m ρ c = RM2 m' c ∧ KU2 m ρ c = RU2 m' c := by
  obtain ⟨g0, g1, g2, g3, g4, g5, g6, g7, g8, g9, g10, g11, g12, -⟩ := hag
  have a2 : K0 (Proc.devRef .tc Cert.KernelIdeal.main_arg2) = R0 (Proc.devRef .tc Cert.ReferenceIdeal.main_arg2) := g2.symm
  have a3 : K0 (Proc.devRef .tc Cert.KernelIdeal.main_arg3) = R0 (Proc.devRef .tc Cert.ReferenceIdeal.main_arg3) := g3.symm
  have a7 : K0 (Proc.devRef .tc Cert.KernelIdeal.main_arg7) = R0 (Proc.devRef .tc Cert.ReferenceIdeal.main_arg7) := g7.symm
  have a8 : K0 (Proc.devRef .tc Cert.KernelIdeal.main_arg8) = R0 (Proc.devRef .tc Cert.ReferenceIdeal.main_arg8) := g8.symm
  have a9 : K0 (Proc.devRef .tc Cert.KernelIdeal.main_arg9) = R0 (Proc.devRef .tc Cert.ReferenceIdeal.main_arg9) := g9.symm
  have a10 : K0 (Proc.devRef .tc Cert.KernelIdeal.main_arg10) = R0 (Proc.devRef .tc Cert.ReferenceIdeal.main_arg10) := g10.symm
  have a11 : K0 (Proc.devRef .tc Cert.KernelIdeal.main_arg11) = R0 (Proc.devRef .tc Cert.ReferenceIdeal.main_arg11) := g11.symm
  have a12 : K0 (Proc.devRef .tc Cert.KernelIdeal.main_arg12) = R0 (Proc.devRef .tc Cert.ReferenceIdeal.main_arg12) := g12.symm
  -- the rows after the first layer, as the later host operations find them
  have hU : (Cert.KernelIdeal.Hand.W4 (F := Ideal) m ρ c (Proc.devRef .tc Cert.KernelIdeal.main_v67) : Arr 100000 64) = Cert.ReferenceIdeal.Hand.xu1 R0 := hu
  have hM2 : (Cert.KernelIdeal.Hand.W2 (F := Ideal) m ρ c (Proc.devRef .tc Cert.KernelIdeal.main_v59) : Arr 20000 64) = Cert.ReferenceIdeal.Hand.xm1 R0 := hm
  have hM : (Cert.KernelIdeal.Hand.W4 (F := Ideal) m ρ c (Proc.devRef .tc Cert.KernelIdeal.main_v59) : Arr 20000 64) = Cert.ReferenceIdeal.Hand.xm1 R0 :=
    (Cert.KernelIdeal.Hand.W4_eq_W2 (F := Ideal) m ρ c Cert.KernelIdeal.main_v59 (by decide) (by decide)).trans hM2
  have e2 : Cert.KernelIdeal.Hand.W4 (F := Ideal) m ρ c (Proc.devRef .tc Cert.KernelIdeal.main_arg2) = R0 (Proc.devRef .tc Cert.ReferenceIdeal.main_arg2) :=
    (Cert.KernelIdeal.Hand.W4_eq_W0 (F := Ideal) m ρ c Cert.KernelIdeal.main_arg2 (by decide) (by decide) (by decide) (by decide)).trans a2
  have e3 : Cert.KernelIdeal.Hand.W4 (F := Ideal) m ρ c (Proc.devRef .tc Cert.KernelIdeal.main_arg3) = R0 (Proc.devRef .tc Cert.ReferenceIdeal.main_arg3) :=
    (Cert.KernelIdeal.Hand.W4_eq_W0 (F := Ideal) m ρ c Cert.KernelIdeal.main_arg3 (by decide) (by decide) (by decide) (by decide)).trans a3
  constructor
  · -- the movies' side: region 2
    have hK : KM2 m ρ c = sageForm (Cert.KernelIdeal.Hand.V5 (F := Ideal) m ρ c Cert.KernelIdeal.main_v81) (Cert.KernelIdeal.Hand.V5 (F := Ideal) m ρ c Cert.KernelIdeal.main_v59)
        (Cert.KernelIdeal.Hand.V5 (F := Ideal) m ρ c Cert.KernelIdeal.main_v97) (Cert.KernelIdeal.Hand.V5 (F := Ideal) m ρ c Cert.KernelIdeal.main_v102) (Cert.KernelIdeal.Hand.V5 (F := Ideal) m ρ c Cert.KernelIdeal.main_v101) :=
      (Cert.KernelIdeal.Hand.W6_arr (F := Ideal) m ρ c 5).trans (Cert.KernelIdeal.HandValue.arrAt_out2 (Cert.KernelIdeal.Hand.V5 (F := Ideal) m ρ) c)
    have e7 : Cert.KernelIdeal.Hand.W4 (F := Ideal) m ρ c (Proc.devRef .tc Cert.KernelIdeal.main_v7) = Cert.KernelIdeal.HostRead.invCountMovies (F := Ideal) (K0 (Proc.devRef .tc Cert.KernelIdeal.main_arg3)) :=
      (Cert.KernelIdeal.Hand.W4_eq_W1 (F := Ideal) m ρ c Cert.KernelIdeal.main_v7 (by decide) (by decide) (by decide)).trans (Cert.KernelIdeal.HostRead.read_main_v7 (F := Ideal) K0)
    have e59 : Cert.KernelIdeal.Hand.V5 (F := Ideal) m ρ c Cert.KernelIdeal.main_v59 = Cert.KernelIdeal.Hand.W2 (F := Ideal) m ρ c (Proc.devRef .tc Cert.KernelIdeal.main_v59) :=
      Cert.KernelIdeal.Hand.W5_eq_W2 (F := Ideal) m ρ c Cert.KernelIdeal.main_v59 (by decide) (by decide) (by decide)
    refine sage_layer_glue (KM2 m ρ c) (RM2 m' c) _ _ _ _ _
      (fun n k => Cert.KernelIdeal.HostRead.sumToMovies (F := Ideal) (Cert.KernelIdeal.Hand.W4 (F := Ideal) m ρ c (Proc.devRef .tc Cert.KernelIdeal.main_v67)) (Cert.KernelIdeal.Hand.W4 (F := Ideal) m ρ c (Proc.devRef .tc Cert.KernelIdeal.main_arg2)) (Cert.KernelIdeal.Hand.W4 (F := Ideal) m ρ c (Proc.devRef .tc Cert.KernelIdeal.main_arg3)) (ix2 n k))
      (fun n k => Cert.ReferenceIdeal.Hand.rSumToMovies (Cert.ReferenceIdeal.Hand.xu1 R0) (Cert.ReferenceIdeal.Hand.edgeUser R0) (Cert.ReferenceIdeal.Hand.edgeMovie R0) (ix2 n k))
      (fun n k => Cert.ReferenceIdeal.Hand.xm1 R0 (ix2 n k))
      (fun n => Cert.KernelIdeal.HostRead.countMovies (F := Ideal) (K0 (Proc.devRef .tc Cert.KernelIdeal.main_arg3)) (ix1 n))
      (fun n => Cert.ReferenceIdeal.Hand.rCountMovies (Cert.ReferenceIdeal.Hand.edgeMovie R0) (ix1 n))
      (fun k j => Cert.ReferenceIdeal.Hand.WlUM R0 (ix3 (1 : Fin 3) k j)) (fun k j => Cert.ReferenceIdeal.Hand.WrUM R0 (ix3 (1 : Fin 3) k j))
      (fun j => Cert.ReferenceIdeal.Hand.bUM R0 (ix2 (1 : Fin 3) j)) (Ideal.ofBits .f32 0x00000000#32)
      hK ?_ (fun n j => Cert.ReferenceIdeal.Hand.at_xm2 R0 n j) ?_ ?_ ?_ ?_ ?_ ?_ rfl
    · intro n k
      exact (Cert.KernelIdeal.HostRead.read_main_v81_apply (F := Ideal) (Cert.KernelIdeal.Hand.W4 (F := Ideal) m ρ c) n k).trans
        (congrArg (_ * ·) ((congrFun e7 (ix1 n)).trans
          (Cert.KernelIdeal.HostRead.invCountMovies_apply (F := Ideal) (K0 (Proc.devRef .tc Cert.KernelIdeal.main_arg3)) n)))
    · intro n k
      show Cert.KernelIdeal.HostRead.sumToMovies (F := Ideal) _ _ _ (ix2 n k) = Cert.ReferenceIdeal.Hand.rSumToMovies _ _ _ (ix2 n k)
      rw [hU, e2, e3]; rfl
    · intro n
      show Cert.KernelIdeal.HostRead.countMovies (F := Ideal) _ (ix1 n) = Cert.ReferenceIdeal.Hand.rCountMovies _ (ix1 n)
      rw [a3]; rfl
    · intro n k
      exact congrFun (e59.trans hM2) (ix2 n k)
    · intro k j
      exact (Cert.KernelIdeal.HostRead.read_main_v97_apply (F := Ideal) (Cert.KernelIdeal.Hand.W4 (F := Ideal) m ρ c) k j).trans
        (congrFun ((Cert.KernelIdeal.Hand.W4_eq_W0 (F := Ideal) m ρ c Cert.KernelIdeal.main_arg7 (by decide) (by decide) (by decide) (by decide)).trans a7) (ix3 (1 : Fin 3) k j))
    · intro k j
      exact (Cert.KernelIdeal.HostRead.read_main_v101_apply (F := Ideal) (Cert.KernelIdeal.Hand.W4 (F := Ideal) m ρ c) k j).trans
        (congrFun ((Cert.KernelIdeal.Hand.W4_eq_W0 (F := Ideal) m ρ c Cert.KernelIdeal.main_arg9 (by decide) (by decide) (by decide) (by decide)).trans a9) (ix3 (1 : Fin 3) k j))
    · intro j
      exact (Cert.KernelIdeal.HostRead.read_main_v102_apply (F := Ideal) (Cert.KernelIdeal.Hand.W4 (F := Ideal) m ρ c) 0 j).trans
        (congrFun ((Cert.KernelIdeal.Hand.W4_eq_W0 (F := Ideal) m ρ c Cert.KernelIdeal.main_arg8 (by decide) (by decide) (by decide) (by decide)).trans a8) (ix2 (1 : Fin 3) j))
  · -- the users' side: region 3
    have hK : KU2 m ρ c = sageForm (Cert.KernelIdeal.Hand.V7 (F := Ideal) m ρ c Cert.KernelIdeal.main_v95) (Cert.KernelIdeal.Hand.V7 (F := Ideal) m ρ c Cert.KernelIdeal.main_v67)
        (Cert.KernelIdeal.Hand.V7 (F := Ideal) m ρ c Cert.KernelIdeal.main_v105) (Cert.KernelIdeal.Hand.V7 (F := Ideal) m ρ c Cert.KernelIdeal.main_v110) (Cert.KernelIdeal.Hand.V7 (F := Ideal) m ρ c Cert.KernelIdeal.main_v109) :=
      (Cert.KernelIdeal.Hand.W8_arr (F := Ideal) m ρ c 5).trans (Cert.KernelIdeal.HandValue.arrAt_out3 (Cert.KernelIdeal.Hand.V7 (F := Ideal) m ρ) c)
    have e95 : Cert.KernelIdeal.Hand.V7 (F := Ideal) m ρ c Cert.KernelIdeal.main_v95 = Cert.KernelIdeal.Hand.W5 (F := Ideal) m ρ c (Proc.devRef .tc Cert.KernelIdeal.main_v95) :=
      (Cert.KernelIdeal.Hand.W7_of (F := Ideal) m ρ c Cert.KernelIdeal.main_v95 (by decide)).trans (Cert.KernelIdeal.Hand.W6_of_ne (F := Ideal) m ρ c Cert.KernelIdeal.main_v95 (by decide))
    have e67 : Cert.KernelIdeal.Hand.V7 (F := Ideal) m ρ c Cert.KernelIdeal.main_v67 = Cert.KernelIdeal.Hand.W4 (F := Ideal) m ρ c (Proc.devRef .tc Cert.KernelIdeal.main_v67) :=
      Cert.KernelIdeal.Hand.W7_eq_W4 (F := Ideal) m ρ c Cert.KernelIdeal.main_v67 (by decide) (by decide) (by decide)
    have e14 : Cert.KernelIdeal.Hand.W4 (F := Ideal) m ρ c (Proc.devRef .tc Cert.KernelIdeal.main_v14) = Cert.KernelIdeal.HostRead.invCountUsers (F := Ideal) (K0 (Proc.devRef .tc Cert.KernelIdeal.main_arg2)) :=
      (Cert.KernelIdeal.Hand.W4_eq_W1 (F := Ideal) m ρ c Cert.KernelIdeal.main_v14 (by decide) (by decide) (by decide)).trans (Cert.KernelIdeal.HostRead.read_main_v14 (F := Ideal) K0)
    refine sage_layer_glue (KU2 m ρ c) (RU2 m' c) _ _ _ _ _
      (fun n k => Cert.KernelIdeal.HostRead.sumToUsers (F := Ideal) (Cert.KernelIdeal.Hand.W4 (F := Ideal) m ρ c (Proc.devRef .tc Cert.KernelIdeal.main_v59)) (Cert.KernelIdeal.Hand.W4 (F := Ideal) m ρ c (Proc.devRef .tc Cert.KernelIdeal.main_arg2)) (Cert.KernelIdeal.Hand.W4 (F := Ideal) m ρ c (Proc.devRef .tc Cert.KernelIdeal.main_arg3)) (ix2 n k))
      (fun n k => Cert.ReferenceIdeal.Hand.rSumToUsers (Cert.ReferenceIdeal.Hand.xm1 R0) (Cert.ReferenceIdeal.Hand.edgeUser R0) (Cert.ReferenceIdeal.Hand.edgeMovie R0) (ix2 n k))
      (fun n k => Cert.ReferenceIdeal.Hand.xu1 R0 (ix2 n k))
      (fun n => Cert.KernelIdeal.HostRead.countUsers (F := Ideal) (K0 (Proc.devRef .tc Cert.KernelIdeal.main_arg2)) (ix1 n))
      (fun n => Cert.ReferenceIdeal.Hand.rCountUsers (Cert.ReferenceIdeal.Hand.edgeUser R0) (ix1 n))
      (fun k j => Cert.ReferenceIdeal.Hand.WlMU R0 (ix3 (1 : Fin 3) k j)) (fun k j => Cert.ReferenceIdeal.Hand.WrMU R0 (ix3 (1 : Fin 3) k j))
      (fun j => Cert.ReferenceIdeal.Hand.bMU R0 (ix2 (1 : Fin 3) j)) (Ideal.ofBits .f32 0x00000000#32)
      hK ?_ (fun n j => Cert.ReferenceIdeal.Hand.at_xu2 R0 n j) ?_ ?_ ?_ ?_ ?_ ?_ rfl
    · intro n k
      exact (congrFun e95 (ix2 n k)).trans ((Cert.KernelIdeal.HostRead.read_main_v95_apply (F := Ideal) (Cert.KernelIdeal.Hand.W4 (F := Ideal) m ρ c) n k).trans
        (congrArg (_ * ·) ((congrFun e14 (ix1 n)).trans
          (Cert.KernelIdeal.HostRead.invCountUsers_apply (F := Ideal) (K0 (Proc.devRef .tc Cert.KernelIdeal.main_arg2)) n))))
    · intro n k
      show Cert.KernelIdeal.HostRead.sumToUsers (F := Ideal) _ _ _ (ix2 n k) = Cert.ReferenceIdeal.Hand.rSumToUsers _ _ _ (ix2 n k)
      rw [hM, e2, e3]; rfl
    · intro n
      show Cert.KernelIdeal.HostRead.countUsers (F := Ideal) _ (ix1 n) = Cert.ReferenceIdeal.Hand.rCountUsers _ (ix1 n)
      rw [a2]; rfl
    · intro n k
      exact congrFun (e67.trans hU) (ix2 n k)
    · intro k j
      exact (Cert.KernelIdeal.HostRead.read_main_v105_apply (F := Ideal) (Cert.KernelIdeal.Hand.W6 (F := Ideal) m ρ c) k j).trans
        (congrFun ((Cert.KernelIdeal.Hand.W6_eq_W0 (F := Ideal) m ρ c Cert.KernelIdeal.main_arg10 (by decide) (by decide) (by decide) (by decide) (by decide) (by decide)).trans a10) (ix3 (1 : Fin 3) k j))
    · intro k j
      exact (Cert.KernelIdeal.HostRead.read_main_v109_apply (F := Ideal) (Cert.KernelIdeal.Hand.W6 (F := Ideal) m ρ c) k j).trans
        (congrFun ((Cert.KernelIdeal.Hand.W6_eq_W0 (F := Ideal) m ρ c Cert.KernelIdeal.main_arg12 (by decide) (by decide) (by decide) (by decide) (by decide) (by decide)).trans a12) (ix3 (1 : Fin 3) k j))
    · intro j
      exact (Cert.KernelIdeal.HostRead.read_main_v110_apply (F := Ideal) (Cert.KernelIdeal.Hand.W6 (F := Ideal) m ρ c) 0 j).trans
        (congrFun ((Cert.KernelIdeal.Hand.W6_eq_W0 (F := Ideal) m ρ c Cert.KernelIdeal.main_arg11 (by decide) (by decide) (by decide) (by decide) (by decide) (by decide)).trans a11) (ix2 (1 : Fin 3) j))

end Cert.Bridge

end
-- ==== Proof.KI.H4.lean ====
/-
  The host operations before the fifth kernel launch: the whole third-layer aggregation and the movie-side weights
  of the third layer.  The movies' aggregate is the second layer's user output gathered along the edges, summed per
  movie and scaled by the movies' reciprocal clamped counts; the users' aggregate likewise from the second layer's
  movie output.  The weights are layer `2` of the stacked parameters.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- The movies' aggregate of the third layer. -/
theorem read_main_v125 (W : Valuation τ sig (Elt F)) :
    (StableHlo.after (hostOps4 (F := F)) W (Proc.devRef .tc main_v125) : FVec F S20000x64 .f32)
      = aggMovies (W (Proc.devRef .tc main_v111) : FVec F S100000x64 .bf16)
          (W (Proc.devRef .tc main_arg2) : IVec S1000000 32) (W (Proc.devRef .tc main_arg3) : IVec S1000000 32)
          (W (Proc.devRef .tc main_v7) : FVec F S20000 .f32) := by
  dsimp only [hostOps4]; after_results_simp <;> rfl

theorem read_main_v125_apply (W : Valuation τ sig (Elt F)) (n : Fin 20000) (j : Fin 64) :
    (StableHlo.after (hostOps4 (F := F)) W (Proc.devRef .tc main_v125) : FVec F S20000x64 .f32) (ix2 n j)
      = FloatOps.mulf
          (sumToMovies (W (Proc.devRef .tc main_v111) : FVec F S100000x64 .bf16)
          (W (Proc.devRef .tc main_arg2) : IVec S1000000 32) (W (Proc.devRef .tc main_arg3) : IVec S1000000 32) (ix2 n j))
          ((W (Proc.devRef .tc main_v7) : FVec F S20000 .f32) (ix1 n)) := by
  rw [read_main_v125]
  exact aggMovies_apply _ _ _ _ n j

/-- The users' aggregate of the third layer. -/
theorem read_main_v139 (W : Valuation τ sig (Elt F)) :
    (StableHlo.after (hostOps4 (F := F)) W (Proc.devRef .tc main_v139) : FVec F S100000x64 .f32)
      = aggUsers (W (Proc.devRef .tc main_v103) : FVec F S20000x64 .bf16)
          (W (Proc.devRef .tc main_arg2) : IVec S1000000 32) (W (Proc.devRef .tc main_arg3) : IVec S1000000 32)
          (W (Proc.devRef .tc main_v14) : FVec F S100000 .f32) := by
  dsimp only [hostOps4]; after_results_simp <;> rfl

theorem read_main_v139_apply (W : Valuation τ sig (Elt F)) (n : Fin 100000) (j : Fin 64) :
    (StableHlo.after (hostOps4 (F := F)) W (Proc.devRef .tc main_v139) : FVec F S100000x64 .f32) (ix2 n j)
      = FloatOps.mulf
          (sumToUsers (W (Proc.devRef .tc main_v103) : FVec F S20000x64 .bf16)
          (W (Proc.devRef .tc main_arg2) : IVec S1000000 32) (W (Proc.devRef .tc main_arg3) : IVec S1000000 32) (ix2 n j))
          ((W (Proc.devRef .tc main_v14) : FVec F S100000 .f32) (ix1 n)) := by
  rw [read_main_v139]
  exact aggUsers_apply _ _ _ _ n j

/-- The left weight matrix of the third movie-side layer. -/
theorem read_main_v141 (W : Valuation τ sig (Elt F)) :
    (StableHlo.after (hostOps4 (F := F)) W (Proc.devRef .tc main_v141) : FVec F S64x64 .f32)
      = shapeCast S64x64
          (extractStridedSlice S1x64x64 ![2, 0, 0] (W (Proc.devRef .tc main_arg7) : FVec F S3x64x64 .f32)
            slices_S3x64x64_S1x64x64_2_0_0)
          shapeCasts_S1x64x64_S64x64 := by
  dsimp only [hostOps4]; after_results_simp <;> rfl

theorem read_main_v141_apply (W : Valuation τ sig (Elt F)) (k j : Fin 64) :
    (StableHlo.after (hostOps4 (F := F)) W (Proc.devRef .tc main_v141) : FVec F S64x64 .f32) (ix2 k j)
      = (W (Proc.devRef .tc main_arg7) : FVec F S3x64x64 .f32) (ix3 (2 : Fin 3) k j) := by
  rw [read_main_v141]
  exact slice_layer_matrix_apply (2 : Fin 3) _ _ _ k j

/-- The right weight matrix of the third movie-side layer. -/
theorem read_main_v145 (W : Valuation τ sig (Elt F)) :
    (StableHlo.after (hostOps4 (F := F)) W (Proc.devRef .tc main_v145) : FVec F S64x64 .f32)
      = shapeCast S64x64
          (extractStridedSlice S1x64x64 ![2, 0, 0] (W (Proc.devRef .tc main_arg9) : FVec F S3x64x64 .f32)
            slices_S3x64x64_S1x64x64_2_0_0)
          shapeCasts_S1x64x64_S64x64 := by
  dsimp only [hostOps4]; after_results_simp <;> rfl

theorem read_main_v145_apply (W : Valuation τ sig (Elt F)) (k j : Fin 64) :
    (StableHlo.after (hostOps4 (F := F)) W (Proc.devRef .tc main_v145) : FVec F S64x64 .f32) (ix2 k j)
      = (W (Proc.devRef .tc main_arg9) : FVec F S3x64x64 .f32) (ix3 (2 : Fin 3) k j) := by
  rw [read_main_v145]
  exact slice_layer_matrix_apply (2 : Fin 3) _ _ _ k j

/-- The bias of the third movie-side layer, as a row. -/
theorem read_main_v146 (W : Valuation τ sig (Elt F)) :
    (StableHlo.after (hostOps4 (F := F)) W (Proc.devRef .tc main_v146) : FVec F S1x64 .f32)
      = shapeCast S1x64
          (shapeCast S64
            (extractStridedSlice S1x64 ![2, 0] (W (Proc.devRef .tc main_arg8) : FVec F S3x64 .f32) slices_S3x64_S1x64_2_0)
            shapeCasts_S1x64_S64)
          shapeCasts_S64_S1x64 := by
  dsimp only [hostOps4]; after_results_simp <;> rfl

theorem read_main_v146_apply (W : Valuation τ sig (Elt F)) (u : Fin 1) (j : Fin 64) :
    (StableHlo.after (hostOps4 (F := F)) W (Proc.devRef .tc main_v146) : FVec F S1x64 .f32) (ix2 u j)
      = (W (Proc.devRef .tc main_arg8) : FVec F S3x64 .f32) (ix2 (2 : Fin 3) j) := by
  rw [read_main_v146]
  exact slice_layer_row_apply (2 : Fin 3) _ _ _ _ u j

end Cert.KernelIdeal.HostRead

end
-- ==== Proof.KI.H5.lean ====
/-
  The host operations before the sixth kernel launch: the user-side weights of the third layer, layer `2` of the
  stacked parameters, each re-laid without its unit axis.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- The left weight matrix of the third user-side layer. -/
theorem read_main_v149 (W : Valuation τ sig (Elt F)) :
    (StableHlo.after (hostOps5 (F := F)) W (Proc.devRef .tc main_v149) : FVec F S64x64 .f32)
      = shapeCast S64x64
          (extractStridedSlice S1x64x64 ![2, 0, 0] (W (Proc.devRef .tc main_arg10) : FVec F S3x64x64 .f32)
            slices_S3x64x64_S1x64x64_2_0_0)
          shapeCasts_S1x64x64_S64x64 := by
  dsimp only [hostOps5]; after_results; rfl

theorem read_main_v149_apply (W : Valuation τ sig (Elt F)) (k j : Fin 64) :
    (StableHlo.after (hostOps5 (F := F)) W (Proc.devRef .tc main_v149) : FVec F S64x64 .f32) (ix2 k j)
      = (W (Proc.devRef .tc main_arg10) : FVec F S3x64x64 .f32) (ix3 (2 : Fin 3) k j) := by
  rw [read_main_v149]
  exact slice_layer_matrix_apply (2 : Fin 3) _ _ _ k j

/-- The right weight matrix of the third user-side layer. -/
theorem read_main_v153 (W : Valuation τ sig (Elt F)) :
    (StableHlo.after (hostOps5 (F := F)) W (Proc.devRef .tc main_v153) : FVec F S64x64 .f32)
      = shapeCast S64x64
          (extractStridedSlice S1x64x64 ![2, 0, 0] (W (Proc.devRef .tc main_arg12) : FVec F S3x64x64 .f32)
            slices_S3x64x64_S1x64x64_2_0_0)
          shapeCasts_S1x64x64_S64x64 := by
  dsimp only [hostOps5]; after_results; rfl

theorem read_main_v153_apply (W : Valuation τ sig (Elt F)) (k j : Fin 64) :
    (StableHlo.after (hostOps5 (F := F)) W (Proc.devRef .tc main_v153) : FVec F S64x64 .f32) (ix2 k j)
      = (W (Proc.devRef .tc main_arg12) : FVec F S3x64x64 .f32) (ix3 (2 : Fin 3) k j) := by
  rw [read_main_v153]
  exact slice_layer_matrix_apply (2 : Fin 3) _ _ _ k j

/-- The bias of the third user-side layer, as a row. -/
theorem read_main_v154 (W : Valuation τ sig (Elt F)) :
    (StableHlo.after (hostOps5 (F := F)) W (Proc.devRef .tc main_v154) : FVec F S1x64 .f32)
      = shapeCast S1x64
          (shapeCast S64
            (extractStridedSlice S1x64 ![2, 0] (W (Proc.devRef .tc main_arg11) : FVec F S3x64 .f32) slices_S3x64_S1x64_2_0)
            shapeCasts_S1x64_S64)
          shapeCasts_S64_S1x64 := by
  dsimp only [hostOps5]; after_results; rfl

theorem read_main_v154_apply (W : Valuation τ sig (Elt F)) (u : Fin 1) (j : Fin 64) :
    (StableHlo.after (hostOps5 (F := F)) W (Proc.devRef .tc main_v154) : FVec F S1x64 .f32) (ix2 u j)
      = (W (Proc.devRef .tc main_arg11) : FVec F S3x64 .f32) (ix2 (2 : Fin 3) j) := by
  rw [read_main_v154]
  exact slice_layer_row_apply (2 : Fin 3) _ _ _ _ u j

end Cert.KernelIdeal.HostRead

end
-- ==== Proof.KI.V4.lean ====
/- The value of pipeline 4 of @main at the extended reals: after the region its output array is the SAGE linear layer
   of the arrays the region found — each row the aggregate row times one weight plus the feature row times the other
   plus the bias row, clamped below at zero — and every input array is unchanged. Point `t` of the grid writes back
   rows `5000 t … 5000 t + 4999`; the row blocks tile the array. -/
import proofs.«176278_j29592324669622_2_alg».proof.Proof.KI.R4
import proofs.«176278_j29592324669622_2_alg».proof.Proof.KI.VPay
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz4 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row `r` of row block `t`, as a row of the tall array. -/
def row4 (t : Fin cfg4.N) (r : Fin 5000) : Fin 20000 :=
  ⟨t.val * 5000 + r.val, by have h : t.val < 4 := Nat.lt_of_lt_of_eq t.isLt N_4; have := r.isLt; omega⟩

/-- Window 0's block at point `t` is rows `5000 t … 5000 t + 4999` of its array. -/
theorem iblk4_0_apply (c : Dev nD) (t : Fin cfg4.N) (r : Fin 5000) (k : Fin 64) :
    (iblk4 V c 0 t : FVec Ideal S5000x64 .f32) (ix2 r k) = (V c main_v125 : S20000x64.Idx → EReal) (ix2 (row4 t r) k) := by
  obtain ⟨h0a, h0b, h1a, h1b, h2a, h2b, h3a, h3b, h4a, h4b, h5a, h5b⟩ := idx4 t
  unfold iblk4
  rw [View.read_apply]
  show V c main_v125 _ = V c main_v125 _
  congr 1
  funext a; apply Fin.ext
  match a with
  | ⟨0, _⟩ => show win4_0.index t (0 : Fin 2) * 5000 + 1 * r.val = t.val * 5000 + r.val; rw [h0a]; omega
  | ⟨1, _⟩ => show win4_0.index t (1 : Fin 2) * 64 + 1 * k.val = k.val; rw [h0b]; omega

/-- Window 1's block at point `t` is rows `5000 t … 5000 t + 4999` of its array. -/
theorem iblk4_1_apply (c : Dev nD) (t : Fin cfg4.N) (r : Fin 5000) (k : Fin 64) :
    (iblk4 V c 1 t : FVec Ideal S5000x64 .bf16) (ix2 r k) = (V c main_v103 : S20000x64.Idx → EReal) (ix2 (row4 t r) k) := by
  obtain ⟨h0a, h0b, h1a, h1b, h2a, h2b, h3a, h3b, h4a, h4b, h5a, h5b⟩ := idx4 t
  unfold iblk4
  rw [View.read_apply]
  show V c main_v103 _ = V c main_v103 _
  congr 1
  funext a; apply Fin.ext
  match a with
  | ⟨0, _⟩ => show win4_1.index t (0 : Fin 2) * 5000 + 1 * r.val = t.val * 5000 + r.val; rw [h1a]; omega
  | ⟨1, _⟩ => show win4_1.index t (1 : Fin 2) * 64 + 1 * k.val = k.val; rw [h1b]; omega

/-- Window 2's block at every point is its whole array. -/
theorem iblk4_2_apply (c : Dev nD) (t : Fin cfg4.N) (p : Fin 64) (k : Fin 64) :
    (iblk4 V c 2 t : FVec Ideal S64x64 .f32) (ix2 p k) = (V c main_v141 : S64x64.Idx → EReal) (ix2 p k) := by
  obtain ⟨h0a, h0b, h1a, h1b, h2a, h2b, h3a, h3b, h4a, h4b, h5a, h5b⟩ := idx4 t
  unfold iblk4
  rw [View.read_apply]
  show V c main_v141 _ = V c main_v141 _
  congr 1
  funext a; apply Fin.ext
  match a with
  | ⟨0, _⟩ => show win4_2.index t (0 : Fin 2) * 64 + 1 * p.val = p.val; rw [h2a]; omega
  | ⟨1, _⟩ => show win4_2.index t (1 : Fin 2) * 64 + 1 * k.val = k.val; rw [h2b]; omega

/-- Window 3's block at every point is its whole array. -/
theorem iblk4_3_apply (c : Dev nD) (t : Fin cfg4.N) (p : Fin 1) (k : Fin 64) :
    (iblk4 V c 3 t : FVec Ideal S1x64 .f32) (ix2 p k) = (V c main_v146 : S1x64.Idx → EReal) (ix2 p k) := by
  obtain ⟨h0a, h0b, h1a, h1b, h2a, h2b, h3a, h3b, h4a, h4b, h5a, h5b⟩ := idx4 t
  unfold iblk4
  rw [View.read_apply]
  show V c main_v146 _ = V c main_v146 _
  congr 1
  funext a; apply Fin.ext
  match a with
  | ⟨0, _⟩ => show win4_3.index t (0 : Fin 2) * 1 + 1 * p.val = p.val; rw [h3a]; omega
  | ⟨1, _⟩ => show win4_3.index t (1 : Fin 2) * 64 + 1 * k.val = k.val; rw [h3b]; omega

/-- Window 4's block at every point is its whole array. -/
theorem iblk4_4_apply (c : Dev nD) (t : Fin cfg4.N) (p : Fin 64) (k : Fin 64) :
    (iblk4 V c 4 t : FVec Ideal S64x64 .f32) (ix2 p k) = (V c main_v145 : S64x64.Idx → EReal) (ix2 p k) := by
  obtain ⟨h0a, h0b, h1a, h1b, h2a, h2b, h3a, h3b, h4a, h4b, h5a, h5b⟩ := idx4 t
  unfold iblk4
  rw [View.read_apply]
  show V c main_v145 _ = V c main_v145 _
  congr 1
  funext a; apply Fin.ext
  match a with
  | ⟨0, _⟩ => show win4_4.index t (0 : Fin 2) * 64 + 1 * p.val = p.val; rw [h4a]; omega
  | ⟨1, _⟩ => show win4_4.index t (1 : Fin 2) * 64 + 1 * k.val = k.val; rw [h4b]; omega

/-! ## What a point writes back -/

/-- Entry `(r, q)` of the block the body stores at point `t` is entry `(5000 t + r, q)` of the closed form of the
    arrays as the region finds them. -/
theorem stored4_apply (c : Dev nD) (t : Fin cfg4.N) (r : Fin 5000) (q : Fin 64) :
    (k4_pay1 (F := Ideal) (iblk4 V c 0 t) (iblk4 V c 1 t) (iblk4 V c 2 t) (iblk4 V c 4 t) (iblk4 V c 3 t) (ix2 r q) : EReal)
      = sageForm (V c main_v125) (V c main_v103) (V c main_v141) (V c main_v146) (V c main_v145) (ix2 (row4 t r) q) := by
  refine ((sage_pay_apply4 _ _ _ _ _ r q).trans ?_).trans (sageForm_ix2 _ _ _ _ _ (row4 t r) q).symm
  exact congrArg₂ max (congrArg₂ (· + ·) (congrArg₂ (· + ·)
      (Finset.sum_congr rfl fun k _ => congrArg₂ (· * ·) (iblk4_0_apply V c t r k) (iblk4_2_apply V c t k q))
      (Finset.sum_congr rfl fun k _ => congrArg₂ (· * ·) (iblk4_1_apply V c t r k) (iblk4_4_apply V c t k q)))
      (iblk4_3_apply V c t 0 q)) rfl

/-- What point `t` writes back to the output window's array is block `t` of the closed form. -/
theorem flushed4_eq (c : Dev nD) (t : Fin cfg4.N) :
    (dat4 (F := Ideal) V c).flushed 5 t = ((cfg4.win 5).blk t).view.read (Elt Ideal) (sageForm (V c main_v125) (V c main_v103) (V c main_v141) (V c main_v146) (V c main_v145)) := by
  show (cfg4.win 5).cut (grid4.coords t) ((dat4 V c).after 5 t) = _
  rw [after4_5]
  unfold out4_5
  rw [View.canon_unit_zero hz4]
  simp only [View.ld_unit_zero (S := S5000x64) hz4, View.ld_unit_zero (S := S64x64) hz4, View.ld_unit_zero (S := S1x64) hz4]
  obtain ⟨h0a, h0b, h1a, h1b, h2a, h2b, h3a, h3b, h4a, h4b, h5a, h5b⟩ := idx4 t
  funext j
  obtain ⟨r, q, rfl⟩ : ∃ (r : Fin 5000) (q : Fin 64), j = ix2 r q := ⟨j 0, j 1, eq_ix2 j⟩
  refine (stored4_apply V c t r q).trans ?_
  rw [View.read_apply]
  refine congrArg (sageForm (V c main_v125) (V c main_v103) (V c main_v141) (V c main_v146) (V c main_v145)) ?_
  funext a; apply Fin.ext
  match a with
  | ⟨0, _⟩ => show t.val * 5000 + r.val = win4_5.index t (0 : Fin 2) * 5000 + 1 * r.val; rw [h5a]; omega
  | ⟨1, _⟩ => show q.val = win4_5.index t (1 : Fin 2) * 64 + 1 * q.val; rw [h5b]; omega

/-! ## The output array after the run -/

/-- An index of the array is in point `t`'s block iff each coordinate is in the block's range on its axis. -/
theorem mem_blk4 (t : Fin cfg4.N) (i : S20000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v147).slice (win4_5.rect t)).set ↔ _
  rw [View.set_slice_whole, Rect.mem_set_unit]
  exact Iff.rfl

/-- The row blocks tile the array: row `n` is in the block of point `n / 5000`. -/
theorem covered4 (i : S20000x64.Idx) :
    ∃ t : Fin cfg4.N, (cfg4.win 5).flush t = true ∧ i ∈ ((cfg4.win 5).blk t).view.set := by
  have hi0 : (i 0).val < 20000 := (i 0).isLt
  have hi1 : (i 1).val < 64 := (i 1).isLt
  obtain ⟨t, ht⟩ : ∃ t : Fin cfg4.N, t.val = (i 0).val / 5000 :=
    ⟨⟨(i 0).val / 5000, Nat.lt_of_lt_of_eq (show (i 0).val / 5000 < 4 by omega) N_4.symm⟩, rfl⟩
  obtain ⟨h0a, h0b, h1a, h1b, h2a, h2b, h3a, h3b, h4a, h4b, h5a, h5b⟩ := idx4 t
  refine ⟨t, flush4_5 t, (mem_blk4 t i).mpr fun a => ?_⟩
  match a with
  | ⟨0, _⟩ =>
    show win4_5.index t (0 : Fin 2) * 5000 ≤ (i 0).val ∧ (i 0).val < win4_5.index t (0 : Fin 2) * 5000 + 5000
    rw [h5a, ht]; omega
  | ⟨1, _⟩ =>
    show win4_5.index t (1 : Fin 2) * 64 ≤ (i 1).val ∧ (i 1).val < win4_5.index t (1 : Fin 2) * 64 + 64
    rw [h5b]; omega

/-- THE OUTPUT ARRAY after the region is the closed form of the arrays as the region finds them. -/
theorem arrAt_out4 (c : Dev nD) :
    (dat4 (F := Ideal) V c).arrAt 5 cfg4.N = sageForm (V c main_v125) (V c main_v103) (V c main_v141) (V c main_v146) (V c main_v145) :=
  (dat4 V c).arrAt_eq_of_cover 5 _ (fun t _ => flushed4_eq V c t) covered4

/-- Every input array is as the region found it: an input window is never written back. -/
theorem arrAt_in4 (c : Dev nD) (w : Fin cfg4.W) (hw : w ≠ 5) :
    (dat4 (F := Ideal) V c).arrAt w cfg4.N = V c (Pipeline.arrRef spec4 w) := by
  have hin : (cfg4.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat4 V c).arrAt_in w hin _).trans (A_eq4 V c w)

end Cert.KernelIdeal.HandValue

end
-- ==== Proof.KI.V5.lean ====
/- The value of pipeline 5 of @main at the extended reals: after the region its output array is the SAGE linear layer
   of the arrays the region found — each row the aggregate row times one weight plus the feature row times the other
   plus the bias row, clamped below at zero — and every input array is unchanged. Point `t` of the grid writes back
   rows `5000 t … 5000 t + 4999`; the row blocks tile the array. -/
import proofs.«176278_j29592324669622_2_alg».proof.Proof.KI.R5
import proofs.«176278_j29592324669622_2_alg».proof.Proof.KI.VPay
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz5 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `r` of row block `t`, as a row of the tall array. -/
def row5 (t : Fin cfg5.N) (r : Fin 5000) : Fin 100000 :=
  ⟨t.val * 5000 + r.val, by have h : t.val < 20 := Nat.lt_of_lt_of_eq t.isLt N_5; have := r.isLt; omega⟩

/-- Window 0's block at point `t` is rows `5000 t … 5000 t + 4999` of its array. -/
theorem iblk5_0_apply (c : Dev nD) (t : Fin cfg5.N) (r : Fin 5000) (k : Fin 64) :
    (iblk5 V c 0 t : FVec Ideal S5000x64 .f32) (ix2 r k) = (V c main_v139 : S100000x64.Idx → EReal) (ix2 (row5 t r) k) := by
  obtain ⟨h0a, h0b, h1a, h1b, h2a, h2b, h3a, h3b, h4a, h4b, h5a, h5b⟩ := idx5 t
  unfold iblk5
  rw [View.read_apply]
  show V c main_v139 _ = V c main_v139 _
  congr 1
  funext a; apply Fin.ext
  match a with
  | ⟨0, _⟩ => show win5_0.index t (0 : Fin 2) * 5000 + 1 * r.val = t.val * 5000 + r.val; rw [h0a]; omega
  | ⟨1, _⟩ => show win5_0.index t (1 : Fin 2) * 64 + 1 * k.val = k.val; rw [h0b]; omega

/-- Window 1's block at point `t` is rows `5000 t … 5000 t + 4999` of its array. -/
theorem iblk5_1_apply (c : Dev nD) (t : Fin cfg5.N) (r : Fin 5000) (k : Fin 64) :
    (iblk5 V c 1 t : FVec Ideal S5000x64 .bf16) (ix2 r k) = (V c main_v111 : S100000x64.Idx → EReal) (ix2 (row5 t r) k) := by
  obtain ⟨h0a, h0b, h1a, h1b, h2a, h2b, h3a, h3b, h4a, h4b, h5a, h5b⟩ := idx5 t
  unfold iblk5
  rw [View.read_apply]
  show V c main_v111 _ = V c main_v111 _
  congr 1
  funext a; apply Fin.ext
  match a with
  | ⟨0, _⟩ => show win5_1.index t (0 : Fin 2) * 5000 + 1 * r.val = t.val * 5000 + r.val; rw [h1a]; omega
  | ⟨1, _⟩ => show win5_1.index t (1 : Fin 2) * 64 + 1 * k.val = k.val; rw [h1b]; omega

/-- Window 2's block at every point is its whole array. -/
theorem iblk5_2_apply (c : Dev nD) (t : Fin cfg5.N) (p : Fin 64) (k : Fin 64) :
    (iblk5 V c 2 t : FVec Ideal S64x64 .f32) (ix2 p k) = (V c main_v149 : S64x64.Idx → EReal) (ix2 p k) := by
  obtain ⟨h0a, h0b, h1a, h1b, h2a, h2b, h3a, h3b, h4a, h4b, h5a, h5b⟩ := idx5 t
  unfold iblk5
  rw [View.read_apply]
  show V c main_v149 _ = V c main_v149 _
  congr 1
  funext a; apply Fin.ext
  match a with
  | ⟨0, _⟩ => show win5_2.index t (0 : Fin 2) * 64 + 1 * p.val = p.val; rw [h2a]; omega
  | ⟨1, _⟩ => show win5_2.index t (1 : Fin 2) * 64 + 1 * k.val = k.val; rw [h2b]; omega

/-- Window 3's block at every point is its whole array. -/
theorem iblk5_3_apply (c : Dev nD) (t : Fin cfg5.N) (p : Fin 1) (k : Fin 64) :
    (iblk5 V c 3 t : FVec Ideal S1x64 .f32) (ix2 p k) = (V c main_v154 : S1x64.Idx → EReal) (ix2 p k) := by
  obtain ⟨h0a, h0b, h1a, h1b, h2a, h2b, h3a, h3b, h4a, h4b, h5a, h5b⟩ := idx5 t
  unfold iblk5
  rw [View.read_apply]
  show V c main_v154 _ = V c main_v154 _
  congr 1
  funext a; apply Fin.ext
  match a with
  | ⟨0, _⟩ => show win5_3.index t (0 : Fin 2) * 1 + 1 * p.val = p.val; rw [h3a]; omega
  | ⟨1, _⟩ => show win5_3.index t (1 : Fin 2) * 64 + 1 * k.val = k.val; rw [h3b]; omega

/-- Window 4's block at every point is its whole array. -/
theorem iblk5_4_apply (c : Dev nD) (t : Fin cfg5.N) (p : Fin 64) (k : Fin 64) :
    (iblk5 V c 4 t : FVec Ideal S64x64 .f32) (ix2 p k) = (V c main_v153 : S64x64.Idx → EReal) (ix2 p k) := by
  obtain ⟨h0a, h0b, h1a, h1b, h2a, h2b, h3a, h3b, h4a, h4b, h5a, h5b⟩ := idx5 t
  unfold iblk5
  rw [View.read_apply]
  show V c main_v153 _ = V c main_v153 _
  congr 1
  funext a; apply Fin.ext
  match a with
  | ⟨0, _⟩ => show win5_4.index t (0 : Fin 2) * 64 + 1 * p.val = p.val; rw [h4a]; omega
  | ⟨1, _⟩ => show win5_4.index t (1 : Fin 2) * 64 + 1 * k.val = k.val; rw [h4b]; omega

/-! ## What a point writes back -/

/-- Entry `(r, q)` of the block the body stores at point `t` is entry `(5000 t + r, q)` of the closed form of the
    arrays as the region finds them. -/
theorem stored5_apply (c : Dev nD) (t : Fin cfg5.N) (r : Fin 5000) (q : Fin 64) :
    (k5_pay1 (F := Ideal) (iblk5 V c 0 t) (iblk5 V c 1 t) (iblk5 V c 2 t) (iblk5 V c 4 t) (iblk5 V c 3 t) (ix2 r q) : EReal)
      = sageForm (V c main_v139) (V c main_v111) (V c main_v149) (V c main_v154) (V c main_v153) (ix2 (row5 t r) q) := by
  refine ((sage_pay_apply5 _ _ _ _ _ r q).trans ?_).trans (sageForm_ix2 _ _ _ _ _ (row5 t r) q).symm
  exact congrArg₂ max (congrArg₂ (· + ·) (congrArg₂ (· + ·)
      (Finset.sum_congr rfl fun k _ => congrArg₂ (· * ·) (iblk5_0_apply V c t r k) (iblk5_2_apply V c t k q))
      (Finset.sum_congr rfl fun k _ => congrArg₂ (· * ·) (iblk5_1_apply V c t r k) (iblk5_4_apply V c t k q)))
      (iblk5_3_apply V c t 0 q)) rfl

/-- What point `t` writes back to the output window's array is block `t` of the closed form. -/
theorem flushed5_eq (c : Dev nD) (t : Fin cfg5.N) :
    (dat5 (F := Ideal) V c).flushed 5 t = ((cfg5.win 5).blk t).view.read (Elt Ideal) (sageForm (V c main_v139) (V c main_v111) (V c main_v149) (V c main_v154) (V c main_v153)) := by
  show (cfg5.win 5).cut (grid5.coords t) ((dat5 V c).after 5 t) = _
  rw [after5_5]
  unfold out5_5
  rw [View.canon_unit_zero hz5]
  simp only [View.ld_unit_zero (S := S5000x64) hz5, View.ld_unit_zero (S := S64x64) hz5, View.ld_unit_zero (S := S1x64) hz5]
  obtain ⟨h0a, h0b, h1a, h1b, h2a, h2b, h3a, h3b, h4a, h4b, h5a, h5b⟩ := idx5 t
  funext j
  obtain ⟨r, q, rfl⟩ : ∃ (r : Fin 5000) (q : Fin 64), j = ix2 r q := ⟨j 0, j 1, eq_ix2 j⟩
  refine (stored5_apply V c t r q).trans ?_
  rw [View.read_apply]
  refine congrArg (sageForm (V c main_v139) (V c main_v111) (V c main_v149) (V c main_v154) (V c main_v153)) ?_
  funext a; apply Fin.ext
  match a with
  | ⟨0, _⟩ => show t.val * 5000 + r.val = win5_5.index t (0 : Fin 2) * 5000 + 1 * r.val; rw [h5a]; omega
  | ⟨1, _⟩ => show q.val = win5_5.index t (1 : Fin 2) * 64 + 1 * q.val; rw [h5b]; omega

/-! ## The output array after the run -/

/-- An index of the array is in point `t`'s block iff each coordinate is in the block's range on its axis. -/
theorem mem_blk5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v155).slice (win5_5.rect t)).set ↔ _
  rw [View.set_slice_whole, Rect.mem_set_unit]
  exact Iff.rfl

/-- The row blocks tile the array: row `n` is in the block of point `n / 5000`. -/
theorem covered5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, Nat.lt_of_lt_of_eq (show (i 0).val / 5000 < 20 by omega) N_5.symm⟩, rfl⟩
  obtain ⟨h0a, h0b, h1a, h1b, h2a, h2b, h3a, h3b, h4a, h4b, h5a, h5b⟩ := idx5 t
  refine ⟨t, flush5_5 t, (mem_blk5 t i).mpr fun a => ?_⟩
  match a with
  | ⟨0, _⟩ =>
    show win5_5.index t (0 : Fin 2) * 5000 ≤ (i 0).val ∧ (i 0).val < win5_5.index t (0 : Fin 2) * 5000 + 5000
    rw [h5a, ht]; omega
  | ⟨1, _⟩ =>
    show win5_5.index t (1 : Fin 2) * 64 ≤ (i 1).val ∧ (i 1).val < win5_5.index t (1 : Fin 2) * 64 + 64
    rw [h5b]; omega

/-- THE OUTPUT ARRAY after the region is the closed form of the arrays as the region finds them. -/
theorem arrAt_out5 (c : Dev nD) :
    (dat5 (F := Ideal) V c).arrAt 5 cfg5.N = sageForm (V c main_v139) (V c main_v111) (V c main_v149) (V c main_v154) (V c main_v153) :=
  (dat5 V c).arrAt_eq_of_cover 5 _ (fun t _ => flushed5_eq V c t) covered5

/-- Every input array is as the region found it: an input window is never written back. -/
theorem arrAt_in5 (c : Dev nD) (w : Fin cfg5.W) (hw : w ≠ 5) :
    (dat5 (F := Ideal) V c).arrAt w cfg5.N = V c (Pipeline.arrRef spec5 w) := by
  have hin : (cfg5.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat5 V c).arrAt_in w hin _).trans (A_eq5 V c w)

end Cert.KernelIdeal.HandValue

end
-- ==== Proof.Bridge.L3.lean ====
/- The third layer.  On each side of the graph the kernel program's output array is the closed form of a SAGE linear
   layer over the arrays its host operations prepared: the mean aggregate (the other side's rows after the second layer
   gathered along the edges and summed per node, times the node's reciprocal clamped edge count kept from the start),
   the node's own rows after the second layer, and layer `2` of the stacked weights and bias.  The reference's array is
   the same layer with the division inside the sum and the bias added between the two products.  The two programs'
   ingredients agree entry by entry — the argument arrays are equal, the rows after the second layer are equal by
   hypothesis, and both programs apply the same gather and accumulating scatter to them — so the layer's stage law
   gives the equality of the arrays. -/
import proofs.«176278_j29592324669622_2_alg».proof.Proof.Bridge.Defs
import proofs.«176278_j29592324669622_2_alg».proof.Proof.KI.Keep
import proofs.«176278_j29592324669622_2_alg».proof.Proof.KI.H0
import proofs.«176278_j29592324669622_2_alg».proof.Proof.KI.H4
import proofs.«176278_j29592324669622_2_alg».proof.Proof.KI.H5
import proofs.«176278_j29592324669622_2_alg».proof.Proof.KI.Terms2
import proofs.«176278_j29592324669622_2_alg».proof.Proof.KI.V4
import proofs.«176278_j29592324669622_2_alg».proof.Proof.KI.V5
import proofs.«176278_j29592324669622_2_alg».proof.Proof.Ref.At1
import proofs.«176278_j29592324669622_2_alg».proof.Proof.Math.SageGlue

noncomputable section

namespace Cert.Bridge

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The kernel program's launch contents on core `c`. -/
local notation "K0" => Cert.KernelIdeal.Hand.W0 (F := Ideal) m ρ c
/-- The reference's launch contents on core `c`. -/
local notation "R0" => (fun b => m' (c, b) : Valuation Cert.ReferenceIdeal.τ Cert.ReferenceIdeal.sig (Elt Ideal))

/-- After the third layer the two programs hold the same movies' rows and the same users' rows. -/
theorem st_L3 (hag : Agree m m' c) (hu : KU2 m ρ c = RU2 m' c) (hm : KM2 m ρ c = RM2 m' c) :
    KM3 m ρ c = RM3 m' c ∧ KU3 m ρ c = RU3 m' c := by
  obtain ⟨g0, g1, g2, g3, g4, g5, g6, g7, g8, g9, g10, g11, g12, -⟩ := hag
  have a2 : K0 (Proc.devRef .tc Cert.KernelIdeal.main_arg2) = R0 (Proc.devRef .tc Cert.ReferenceIdeal.main_arg2) := g2.symm
  have a3 : K0 (Proc.devRef .tc Cert.KernelIdeal.main_arg3) = R0 (Proc.devRef .tc Cert.ReferenceIdeal.main_arg3) := g3.symm
  have a7 : K0 (Proc.devRef .tc Cert.KernelIdeal.main_arg7) = R0 (Proc.devRef .tc Cert.ReferenceIdeal.main_arg7) := g7.symm
  have a8 : K0 (Proc.devRef .tc Cert.KernelIdeal.main_arg8) = R0 (Proc.devRef .tc Cert.ReferenceIdeal.main_arg8) := g8.symm
  have a9 : K0 (Proc.devRef .tc Cert.KernelIdeal.main_arg9) = R0 (Proc.devRef .tc Cert.ReferenceIdeal.main_arg9) := g9.symm
  have a10 : K0 (Proc.devRef .tc Cert.KernelIdeal.main_arg10) = R0 (Proc.devRef .tc Cert.ReferenceIdeal.main_arg10) := g10.symm
  have a11 : K0 (Proc.devRef .tc Cert.KernelIdeal.main_arg11) = R0 (Proc.devRef .tc Cert.ReferenceIdeal.main_arg11) := g11.symm
  have a12 : K0 (Proc.devRef .tc Cert.KernelIdeal.main_arg12) = R0 (Proc.devRef .tc Cert.ReferenceIdeal.main_arg12) := g12.symm
  -- the edge lists and the rows after the second layer, as the host operations before region 4 find them
  have b2 : Cert.KernelIdeal.Hand.W8 (F := Ideal) m ρ c (Proc.devRef .tc Cert.KernelIdeal.main_arg2) = R0 (Proc.devRef .tc Cert.ReferenceIdeal.main_arg2) := (Cert.KernelIdeal.Hand.W8_eq_W0 (F := Ideal) m ρ c Cert.KernelIdeal.main_arg2 (by decide) (by decide) (by decide) (by decide) (by decide) (by decide) (by decide) (by decide)).trans a2
  have b3 : Cert.KernelIdeal.Hand.W8 (F := Ideal) m ρ c (Proc.devRef .tc Cert.KernelIdeal.main_arg3) = R0 (Proc.devRef .tc Cert.ReferenceIdeal.main_arg3) := (Cert.KernelIdeal.Hand.W8_eq_W0 (F := Ideal) m ρ c Cert.KernelIdeal.main_arg3 (by decide) (by decide) (by decide) (by decide) (by decide) (by decide) (by decide) (by decide)).trans a3
  have hU8 : (Cert.KernelIdeal.Hand.W8 (F := Ideal) m ρ c (Proc.devRef .tc Cert.KernelIdeal.main_v111) : Arr 100000 64) = Cert.ReferenceIdeal.Hand.xu2 R0 := hu
  have hM8 : (Cert.KernelIdeal.Hand.W8 (F := Ideal) m ρ c (Proc.devRef .tc Cert.KernelIdeal.main_v103) : Arr 20000 64) = Cert.ReferenceIdeal.Hand.xm2 R0 := (Cert.KernelIdeal.Hand.W8_eq_W6 (F := Ideal) m ρ c Cert.KernelIdeal.main_v103 (by decide) (by decide)).trans hm
  -- the reciprocal clamped counts, kept from the first stretch
  have e7 : Cert.KernelIdeal.Hand.W8 (F := Ideal) m ρ c (Proc.devRef .tc Cert.KernelIdeal.main_v7) = Cert.KernelIdeal.HostRead.invCountMovies (F := Ideal) (K0 (Proc.devRef .tc Cert.KernelIdeal.main_arg3)) :=
    (Cert.KernelIdeal.Hand.W8_eq_W1 (F := Ideal) m ρ c Cert.KernelIdeal.main_v7 (by decide) (by decide) (by decide) (by decide) (by decide) (by decide) (by decide)).trans (Cert.KernelIdeal.HostRead.read_main_v7 (F := Ideal) K0)
  have e14 : Cert.KernelIdeal.Hand.W8 (F := Ideal) m ρ c (Proc.devRef .tc Cert.KernelIdeal.main_v14) = Cert.KernelIdeal.HostRead.invCountUsers (F := Ideal) (K0 (Proc.devRef .tc Cert.KernelIdeal.main_arg2)) :=
    (Cert.KernelIdeal.Hand.W8_eq_W1 (F := Ideal) m ρ c Cert.KernelIdeal.main_v14 (by decide) (by decide) (by decide) (by decide) (by decide) (by decide) (by decide)).trans (Cert.KernelIdeal.HostRead.read_main_v14 (F := Ideal) K0)
  constructor
  · -- the movies' side: region 4
    have hK : KM3 m ρ c = sageForm (Cert.KernelIdeal.Hand.V9 (F := Ideal) m ρ c Cert.KernelIdeal.main_v125) (Cert.KernelIdeal.Hand.V9 (F := Ideal) m ρ c Cert.KernelIdeal.main_v103)
        (Cert.KernelIdeal.Hand.V9 (F := Ideal) m ρ c Cert.KernelIdeal.main_v141) (Cert.KernelIdeal.Hand.V9 (F := Ideal) m ρ c Cert.KernelIdeal.main_v146) (Cert.KernelIdeal.Hand.V9 (F := Ideal) m ρ c Cert.KernelIdeal.main_v145) :=
      (Cert.KernelIdeal.Hand.W10_arr (F := Ideal) m ρ c 5).trans (Cert.KernelIdeal.HandValue.arrAt_out4 (Cert.KernelIdeal.Hand.V9 (F := Ideal) m ρ) c)
    refine sage_layer_glue (KM3 m ρ c) (RM3 m' c) _ _ _ _ _
      (fun n k => Cert.KernelIdeal.HostRead.sumToMovies (F := Ideal) (Cert.KernelIdeal.Hand.W8 (F := Ideal) m ρ c (Proc.devRef .tc Cert.KernelIdeal.main_v111)) (Cert.KernelIdeal.Hand.W8 (F := Ideal) m ρ c (Proc.devRef .tc Cert.KernelIdeal.main_arg2)) (Cert.KernelIdeal.Hand.W8 (F := Ideal) m ρ c (Proc.devRef .tc Cert.KernelIdeal.main_arg3)) (ix2 n k))
      (fun n k => Cert.ReferenceIdeal.Hand.rSumToMovies (Cert.ReferenceIdeal.Hand.xu2 R0) (Cert.ReferenceIdeal.Hand.edgeUser R0) (Cert.ReferenceIdeal.Hand.edgeMovie R0) (ix2 n k))
      (fun n k => Cert.ReferenceIdeal.Hand.xm2 R0 (ix2 n k))
      (fun n => Cert.KernelIdeal.HostRead.countMovies (F := Ideal) (K0 (Proc.devRef .tc Cert.KernelIdeal.main_arg3)) (ix1 n))
      (fun n => Cert.ReferenceIdeal.Hand.rCountMovies (Cert.ReferenceIdeal.Hand.edgeMovie R0) (ix1 n))
      (fun k j => Cert.ReferenceIdeal.Hand.WlUM R0 (ix3 (2 : Fin 3) k j)) (fun k j => Cert.ReferenceIdeal.Hand.WrUM R0 (ix3 (2 : Fin 3) k j))
      (fun j => Cert.ReferenceIdeal.Hand.bUM R0 (ix2 (2 : Fin 3) j)) (Ideal.ofBits .f32 0x00000000#32)
      hK ?_ (fun n j => Cert.ReferenceIdeal.Hand.at_xm3 R0 n j) ?_ ?_ ?_ ?_ ?_ ?_ rfl
    · intro n k
      exact (Cert.KernelIdeal.HostRead.read_main_v125_apply (F := Ideal) (Cert.KernelIdeal.Hand.W8 (F := Ideal) m ρ c) n k).trans
        (congrArg (_ * ·) ((congrFun e7 (ix1 n)).trans (Cert.KernelIdeal.HostRead.invCountMovies_apply (F := Ideal) (K0 (Proc.devRef .tc Cert.KernelIdeal.main_arg3)) n)))
    · intro n k
      show Cert.KernelIdeal.HostRead.sumToMovies (F := Ideal) _ _ _ (ix2 n k) = Cert.ReferenceIdeal.Hand.rSumToMovies _ _ _ (ix2 n k)
      rw [hU8, b2, b3]; rfl
    · intro n
      show Cert.KernelIdeal.HostRead.countMovies (F := Ideal) _ (ix1 n) = Cert.ReferenceIdeal.Hand.rCountMovies _ (ix1 n)
      rw [a3]; rfl
    · intro n k
      exact congrFun ((Cert.KernelIdeal.Hand.W9_eq_W6 (F := Ideal) m ρ c Cert.KernelIdeal.main_v103 (by decide) (by decide) (by decide)).trans hm) (ix2 n k)
    · intro k j
      exact (Cert.KernelIdeal.HostRead.read_main_v141_apply (F := Ideal) (Cert.KernelIdeal.Hand.W8 (F := Ideal) m ρ c) k j).trans
        (congrFun ((Cert.KernelIdeal.Hand.W8_eq_W0 (F := Ideal) m ρ c Cert.KernelIdeal.main_arg7 (by decide) (by decide) (by decide) (by decide) (by decide) (by decide) (by decide) (by decide)).trans a7) (ix3 (2 : Fin 3) k j))
    · intro k j
      exact (Cert.KernelIdeal.HostRead.read_main_v145_apply (F := Ideal) (Cert.KernelIdeal.Hand.W8 (F := Ideal) m ρ c) k j).trans
        (congrFun ((Cert.KernelIdeal.Hand.W8_eq_W0 (F := Ideal) m ρ c Cert.KernelIdeal.main_arg9 (by decide) (by decide) (by decide) (by decide) (by decide) (by decide) (by decide) (by decide)).trans a9) (ix3 (2 : Fin 3) k j))
    · intro j
      exact (Cert.KernelIdeal.HostRead.read_main_v146_apply (F := Ideal) (Cert.KernelIdeal.Hand.W8 (F := Ideal) m ρ c) 0 j).trans
        (congrFun ((Cert.KernelIdeal.Hand.W8_eq_W0 (F := Ideal) m ρ c Cert.KernelIdeal.main_arg8 (by decide) (by decide) (by decide) (by decide) (by decide) (by decide) (by decide) (by decide)).trans a8) (ix2 (2 : Fin 3) j))
  · -- the users' side: region 5
    have hK : KU3 m ρ c = sageForm (Cert.KernelIdeal.Hand.V11 (F := Ideal) m ρ c Cert.KernelIdeal.main_v139) (Cert.KernelIdeal.Hand.V11 (F := Ideal) m ρ c Cert.KernelIdeal.main_v111)
        (Cert.KernelIdeal.Hand.V11 (F := Ideal) m ρ c Cert.KernelIdeal.main_v149) (Cert.KernelIdeal.Hand.V11 (F := Ideal) m ρ c Cert.KernelIdeal.main_v154) (Cert.KernelIdeal.Hand.V11 (F := Ideal) m ρ c Cert.KernelIdeal.main_v153) :=
      (Cert.KernelIdeal.Hand.W12_arr (F := Ideal) m ρ c 5).trans (Cert.KernelIdeal.HandValue.arrAt_out5 (Cert.KernelIdeal.Hand.V11 (F := Ideal) m ρ) c)
    have e139 : Cert.KernelIdeal.Hand.V11 (F := Ideal) m ρ c Cert.KernelIdeal.main_v139 = Cert.KernelIdeal.Hand.W9 (F := Ideal) m ρ c (Proc.devRef .tc Cert.KernelIdeal.main_v139) :=
      (Cert.KernelIdeal.Hand.W11_of (F := Ideal) m ρ c Cert.KernelIdeal.main_v139 (by decide)).trans (Cert.KernelIdeal.Hand.W10_of_ne (F := Ideal) m ρ c Cert.KernelIdeal.main_v139 (by decide))
    refine sage_layer_glue (KU3 m ρ c) (RU3 m' c) _ _ _ _ _
      (fun n k => Cert.KernelIdeal.HostRead.sumToUsers (F := Ideal) (Cert.KernelIdeal.Hand.W8 (F := Ideal) m ρ c (Proc.devRef .tc Cert.KernelIdeal.main_v103)) (Cert.KernelIdeal.Hand.W8 (F := Ideal) m ρ c (Proc.devRef .tc Cert.KernelIdeal.main_arg2)) (Cert.KernelIdeal.Hand.W8 (F := Ideal) m ρ c (Proc.devRef .tc Cert.KernelIdeal.main_arg3)) (ix2 n k))
      (fun n k => Cert.ReferenceIdeal.Hand.rSumToUsers (Cert.ReferenceIdeal.Hand.xm2 R0) (Cert.ReferenceIdeal.Hand.edgeUser R0) (Cert.ReferenceIdeal.Hand.edgeMovie R0) (ix2 n k))
      (fun n k => Cert.ReferenceIdeal.Hand.xu2 R0 (ix2 n k))
      (fun n => Cert.KernelIdeal.HostRead.countUsers (F := Ideal) (K0 (Proc.devRef .tc Cert.KernelIdeal.main_arg2)) (ix1 n))
      (fun n => Cert.ReferenceIdeal.Hand.rCountUsers (Cert.ReferenceIdeal.Hand.edgeUser R0) (ix1 n))
      (fun k j => Cert.ReferenceIdeal.Hand.WlMU R0 (ix3 (2 : Fin 3) k j)) (fun k j => Cert.ReferenceIdeal.Hand.WrMU R0 (ix3 (2 : Fin 3) k j))
      (fun j => Cert.ReferenceIdeal.Hand.bMU R0 (ix2 (2 : Fin 3) j)) (Ideal.ofBits .f32 0x00000000#32)
      hK ?_ (fun n j => Cert.ReferenceIdeal.Hand.at_xu3 R0 n j) ?_ ?_ ?_ ?_ ?_ ?_ rfl
    · intro n k
      exact (congrFun e139 (ix2 n k)).trans ((Cert.KernelIdeal.HostRead.read_main_v139_apply (F := Ideal) (Cert.KernelIdeal.Hand.W8 (F := Ideal) m ρ c) n k).trans
        (congrArg (_ * ·) ((congrFun e14 (ix1 n)).trans (Cert.KernelIdeal.HostRead.invCountUsers_apply (F := Ideal) (K0 (Proc.devRef .tc Cert.KernelIdeal.main_arg2)) n))))
    · intro n k
      show Cert.KernelIdeal.HostRead.sumToUsers (F := Ideal) _ _ _ (ix2 n k) = Cert.ReferenceIdeal.Hand.rSumToUsers _ _ _ (ix2 n k)
      rw [hM8, b2, b3]; rfl
    · intro n
      show Cert.KernelIdeal.HostRead.countUsers (F := Ideal) _ (ix1 n) = Cert.ReferenceIdeal.Hand.rCountUsers _ (ix1 n)
      rw [a2]; rfl
    · intro n k
      exact congrFun ((Cert.KernelIdeal.Hand.W11_eq_W8 (F := Ideal) m ρ c Cert.KernelIdeal.main_v111 (by decide) (by decide) (by decide)).trans hu) (ix2 n k)
    · intro k j
      exact (Cert.KernelIdeal.HostRead.read_main_v149_apply (F := Ideal) (Cert.KernelIdeal.Hand.W10 (F := Ideal) m ρ c) k j).trans
        (congrFun ((Cert.KernelIdeal.Hand.W10_eq_W0 (F := Ideal) m ρ c Cert.KernelIdeal.main_arg10 (by decide) (by decide) (by decide) (by decide) (by decide) (by decide) (by decide) (by decide) (by decide) (by decide)).trans a10) (ix3 (2 : Fin 3) k j))
    · intro k j
      exact (Cert.KernelIdeal.HostRead.read_main_v153_apply (F := Ideal) (Cert.KernelIdeal.Hand.W10 (F := Ideal) m ρ c) k j).trans
        (congrFun ((Cert.KernelIdeal.Hand.W10_eq_W0 (F := Ideal) m ρ c Cert.KernelIdeal.main_arg12 (by decide) (by decide) (by decide) (by decide) (by decide) (by decide) (by decide) (by decide) (by decide) (by decide)).trans a12) (ix3 (2 : Fin 3) k j))
    · intro j
      exact (Cert.KernelIdeal.HostRead.read_main_v154_apply (F := Ideal) (Cert.KernelIdeal.Hand.W10 (F := Ideal) m ρ c) 0 j).trans
        (congrFun ((Cert.KernelIdeal.Hand.W10_eq_W0 (F := Ideal) m ρ c Cert.KernelIdeal.main_arg11 (by decide) (by decide) (by decide) (by decide) (by decide) (by decide) (by decide) (by decide) (by decide) (by decide)).trans a11) (ix2 (2 : Fin 3) j))

end Cert.Bridge

end
-- ==== Proof.Bridge.Concat.lean ====
/-
  A concatenation of three (or two) arrays of 64 columns along the columns, read at a row and a column: columns
  `0 … 63` are the first piece, `64 … 127` the second, `128 … 191` the third.
-/
import Idealize.ShloMosaic.Lib.ValueIdx
import Idealize.ShloMosaic.Lib.Pipeline.Value

noncomputable section

namespace Cert.Bridge

open Idealize.ShloMosaic Idealize.ShloMosaic.ValueIdx

variable {α : Type}

section three
variable {R : ℕ} (x0 x1 x2 : (⟨2, ![R, 64]⟩ : Shape).Idx → α)
  (h : Shape.Concatenates
    (([⟨⟨2, ![R, 64]⟩, x0⟩, ⟨⟨2, ![R, 64]⟩, x1⟩, ⟨⟨2, ![R, 64]⟩, x2⟩] : List ((s : Shape) × (s.Idx → α))).map (·.1))
    ⟨2, ![R, 192]⟩ 1)

theorem concat3_apply0 (n : Fin R) (k : Fin 64) :
    concatenate ⟨2, ![R, 192]⟩ 1 [⟨⟨2, ![R, 64]⟩, x0⟩, ⟨⟨2, ![R, 64]⟩, x1⟩, ⟨⟨2, ![R, 64]⟩, x2⟩] h
      (ix2 n (⟨k.val, by omega⟩ : Fin 192)) = x0 (ix2 n k) := by
  refine concatenate_apply_piece (t := ⟨2, ![R, 192]⟩) (1 : Fin 2) ([⟨⟨2, ![R, 64]⟩, x0⟩, ⟨⟨2, ![R, 64]⟩, x1⟩, ⟨⟨2, ![R, 64]⟩, x2⟩] : List ((s : Shape) × (s.Idx → α))) h _ 0 (by simp)
    ⟨2, ![R, 64]⟩ x0 rfl rfl 0 rfl (ix2 n k) ?_ ?_
  · intro b hb
    match b with
    | ⟨0, _⟩ => rfl
    | ⟨1, _⟩ => exact absurd rfl hb
  · exact Nat.zero_add _

theorem concat3_apply1 (n : Fin R) (k : Fin 64) :
    concatenate ⟨2, ![R, 192]⟩ 1 [⟨⟨2, ![R, 64]⟩, x0⟩, ⟨⟨2, ![R, 64]⟩, x1⟩, ⟨⟨2, ![R, 64]⟩, x2⟩] h
      (ix2 n (⟨64 + k.val, by omega⟩ : Fin 192)) = x1 (ix2 n k) := by
  refine concatenate_apply_piece (t := ⟨2, ![R, 192]⟩) (1 : Fin 2) ([⟨⟨2, ![R, 64]⟩, x0⟩, ⟨⟨2, ![R, 64]⟩, x1⟩, ⟨⟨2, ![R, 64]⟩, x2⟩] : List ((s : Shape) × (s.Idx → α))) h _ 1 (by simp)
    ⟨2, ![R, 64]⟩ x1 rfl rfl 64 rfl (ix2 n k) ?_ ?_
  · intro b hb
    match b with
    | ⟨0, _⟩ => rfl
    | ⟨1, _⟩ => exact absurd rfl hb
  · rfl

theorem concat3_apply2 (n : Fin R) (k : Fin 64) :
    concatenate ⟨2, ![R, 192]⟩ 1 [⟨⟨2, ![R, 64]⟩, x0⟩, ⟨⟨2, ![R, 64]⟩, x1⟩, ⟨⟨2, ![R, 64]⟩, x2⟩] h
      (ix2 n (⟨64 + 64 + k.val, by omega⟩ : Fin 192)) = x2 (ix2 n k) := by
  refine concatenate_apply_piece (t := ⟨2, ![R, 192]⟩) (1 : Fin 2) ([⟨⟨2, ![R, 64]⟩, x0⟩, ⟨⟨2, ![R, 64]⟩, x1⟩, ⟨⟨2, ![R, 64]⟩, x2⟩] : List ((s : Shape) × (s.Idx → α))) h _ 2 (by simp)
    ⟨2, ![R, 64]⟩ x2 rfl rfl 128 rfl (ix2 n k) ?_ ?_
  · intro b hb
    match b with
    | ⟨0, _⟩ => rfl
    | ⟨1, _⟩ => exact absurd rfl hb
  · rfl
end three

section two
variable {R : ℕ} (x0 x1 : (⟨2, ![R, 64]⟩ : Shape).Idx → α)
  (h : Shape.Concatenates
    (([⟨⟨2, ![R, 64]⟩, x0⟩, ⟨⟨2, ![R, 64]⟩, x1⟩] : List ((s : Shape) × (s.Idx → α))).map (·.1)) ⟨2, ![R, 128]⟩ 1)

theorem concat2_apply0 (n : Fin R) (k : Fin 64) :
    concatenate ⟨2, ![R, 128]⟩ 1 [⟨⟨2, ![R, 64]⟩, x0⟩, ⟨⟨2, ![R, 64]⟩, x1⟩] h
      (ix2 n (⟨k.val, by omega⟩ : Fin 128)) = x0 (ix2 n k) := by
  refine concatenate_apply_piece (t := ⟨2, ![R, 128]⟩) (1 : Fin 2) ([⟨⟨2, ![R, 64]⟩, x0⟩, ⟨⟨2, ![R, 64]⟩, x1⟩] : List ((s : Shape) × (s.Idx → α))) h _ 0 (by simp)
    ⟨2, ![R, 64]⟩ x0 rfl rfl 0 rfl (ix2 n k) ?_ ?_
  · intro b hb
    match b with
    | ⟨0, _⟩ => rfl
    | ⟨1, _⟩ => exact absurd rfl hb
  · exact Nat.zero_add _

theorem concat2_apply1 (n : Fin R) (k : Fin 64) :
    concatenate ⟨2, ![R, 128]⟩ 1 [⟨⟨2, ![R, 64]⟩, x0⟩, ⟨⟨2, ![R, 64]⟩, x1⟩] h
      (ix2 n (⟨64 + k.val, by omega⟩ : Fin 128)) = x1 (ix2 n k) := by
  refine concatenate_apply_piece (t := ⟨2, ![R, 128]⟩) (1 : Fin 2) ([⟨⟨2, ![R, 64]⟩, x0⟩, ⟨⟨2, ![R, 64]⟩, x1⟩] : List ((s : Shape) × (s.Idx → α))) h _ 1 (by simp)
    ⟨2, ![R, 64]⟩ x1 rfl rfl 64 rfl (ix2 n k) ?_ ?_
  · intro b hb
    match b with
    | ⟨0, _⟩ => rfl
    | ⟨1, _⟩ => exact absurd rfl hb
  · rfl
end two

end Cert.Bridge

end
-- ==== Proof.KI.KeepIn.lean ====
/- A feature array that a later region stages as an INPUT window keeps its contents through that region too: an input
   window is never written back, so the region leaves its array as it found it. With the steps of the run that do not
   touch the array at all, this walks the three layers' features back from the projections' launches to the boundary
   after the region that wrote them. -/
import proofs.«176278_j29592324669622_2_alg».proof.Proof.KI.Keep
import proofs.«176278_j29592324669622_2_alg».proof.Proof.KI.V2
import proofs.«176278_j29592324669622_2_alg».proof.Proof.KI.V3
import proofs.«176278_j29592324669622_2_alg».proof.Proof.KI.V4
import proofs.«176278_j29592324669622_2_alg».proof.Proof.KI.V5

noncomputable section

namespace Cert.KernelIdeal.Hand

open Cert.KernelIdeal Cert.KernelIdeal.Gen Cert.KernelIdeal.HandValue
open Idealize.ShloMosaic Idealize.ShloMosaic.TcCoe

variable (m : (ℓ : Loc nD τ sig) → Buf (Elt Ideal) ℓ) (ρ : Dev nD → PrngReg)

/-- The users' features after the first layer, from the users' projection's launch back to the region that wrote
    them; the second layer's user-side region stages them as an input window. -/
theorem W13_main_v67 (c : Dev nD) : W13 (F := Ideal) m ρ c main_v67 = W4 (F := Ideal) m ρ c main_v67 :=
  calc W13 (F := Ideal) m ρ c main_v67
    _ = W12 (F := Ideal) m ρ c main_v67 := W13_of m ρ c main_v67 (by decide)
    _ = W11 (F := Ideal) m ρ c main_v67 := W12_of_ne m ρ c main_v67 (by decide)
    _ = W10 (F := Ideal) m ρ c main_v67 := W11_of m ρ c main_v67 (by decide)
    _ = W9 (F := Ideal) m ρ c main_v67 := W10_of_ne m ρ c main_v67 (by decide)
    _ = W8 (F := Ideal) m ρ c main_v67 := W9_of m ρ c main_v67 (by decide)
    _ = W7 (F := Ideal) m ρ c main_v67 := (W8_arr m ρ c 1).trans (arrAt_in3 (V7 (F := Ideal) m ρ) c 1 (by decide))
    _ = W6 (F := Ideal) m ρ c main_v67 := W7_of m ρ c main_v67 (by decide)
    _ = W5 (F := Ideal) m ρ c main_v67 := W6_of_ne m ρ c main_v67 (by decide)
    _ = W4 (F := Ideal) m ρ c main_v67 := W5_of m ρ c main_v67 (by decide)

/-- The users' features after the second layer; the third layer's user-side region stages them as an input window. -/
theorem W13_main_v111 (c : Dev nD) : W13 (F := Ideal) m ρ c main_v111 = W8 (F := Ideal) m ρ c main_v111 :=
  calc W13 (F := Ideal) m ρ c main_v111
    _ = W12 (F := Ideal) m ρ c main_v111 := W13_of m ρ c main_v111 (by decide)
    _ = W11 (F := Ideal) m ρ c main_v111 := (W12_arr m ρ c 1).trans (arrAt_in5 (V11 (F := Ideal) m ρ) c 1 (by decide))
    _ = W10 (F := Ideal) m ρ c main_v111 := W11_of m ρ c main_v111 (by decide)
    _ = W9 (F := Ideal) m ρ c main_v111 := W10_of_ne m ρ c main_v111 (by decide)
    _ = W8 (F := Ideal) m ρ c main_v111 := W9_of m ρ c main_v111 (by decide)

/-- The movies' features after the first layer, from the movies' projection's launch back; the second layer's
    movie-side region stages them as an input window. -/
theorem W15_main_v59 (c : Dev nD) : W15 (F := Ideal) m ρ c main_v59 = W2 (F := Ideal) m ρ c main_v59 :=
  calc W15 (F := Ideal) m ρ c main_v59
    _ = W14 (F := Ideal) m ρ c main_v59 := W15_of m ρ c main_v59 (by decide)
    _ = W13 (F := Ideal) m ρ c main_v59 := W14_of_ne m ρ c main_v59 (by decide)
    _ = W12 (F := Ideal) m ρ c main_v59 := W13_of m ρ c main_v59 (by decide)
    _ = W11 (F := Ideal) m ρ c main_v59 := W12_of_ne m ρ c main_v59 (by decide)
    _ = W10 (F := Ideal) m ρ c main_v59 := W11_of m ρ c main_v59 (by decide)
    _ = W9 (F := Ideal) m ρ c main_v59 := W10_of_ne m ρ c main_v59 (by decide)
    _ = W8 (F := Ideal) m ρ c main_v59 := W9_of m ρ c main_v59 (by decide)
    _ = W7 (F := Ideal) m ρ c main_v59 := W8_of_ne m ρ c main_v59 (by decide)
    _ = W6 (F := Ideal) m ρ c main_v59 := W7_of m ρ c main_v59 (by decide)
    _ = W5 (F := Ideal) m ρ c main_v59 := (W6_arr m ρ c 1).trans (arrAt_in2 (V5 (F := Ideal) m ρ) c 1 (by decide))
    _ = W4 (F := Ideal) m ρ c main_v59 := W5_of m ρ c main_v59 (by decide)
    _ = W3 (F := Ideal) m ρ c main_v59 := W4_of_ne m ρ c main_v59 (by decide)
    _ = W2 (F := Ideal) m ρ c main_v59 := W3_of m ρ c main_v59 (by decide)

/-- The movies' features after the second layer; the third layer's movie-side region stages them as an input
    window. -/
theorem W15_main_v103 (c : Dev nD) : W15 (F := Ideal) m ρ c main_v103 = W6 (F := Ideal) m ρ c main_v103 :=
  calc W15 (F := Ideal) m ρ c main_v103
    _ = W14 (F := Ideal) m ρ c main_v103 := W15_of m ρ c main_v103 (by decide)
    _ = W13 (F := Ideal) m ρ c main_v103 := W14_of_ne m ρ c main_v103 (by decide)
    _ = W12 (F := Ideal) m ρ c main_v103 := W13_of m ρ c main_v103 (by decide)
    _ = W11 (F := Ideal) m ρ c main_v103 := W12_of_ne m ρ c main_v103 (by decide)
    _ = W10 (F := Ideal) m ρ c main_v103 := W11_of m ρ c main_v103 (by decide)
    _ = W9 (F := Ideal) m ρ c main_v103 := (W10_arr m ρ c 1).trans (arrAt_in4 (V9 (F := Ideal) m ρ) c 1 (by decide))
    _ = W8 (F := Ideal) m ρ c main_v103 := W9_of m ρ c main_v103 (by decide)
    _ = W7 (F := Ideal) m ρ c main_v103 := W8_of_ne m ρ c main_v103 (by decide)
    _ = W6 (F := Ideal) m ρ c main_v103 := W7_of m ρ c main_v103 (by decide)

end Cert.KernelIdeal.Hand

end
-- ==== Proof.KI.V6.lean ====
/- The value of pipeline 6 of @main at the extended reals: after the region its output array is the projection of the
   three feature arrays the region found — each row the three layers' rows, each times its own weight, summed, plus the
   bias row — and every input array is unchanged. Point `t` of the grid writes back rows `5000 t … 5000 t + 4999`;
   the row blocks tile the array. -/
import proofs.«176278_j29592324669622_2_alg».proof.Proof.KI.R6
import proofs.«176278_j29592324669622_2_alg».proof.Proof.KI.VPay
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz6 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row `r` of row block `t`, as a row of the tall array. -/
def row6 (t : Fin cfg6.N) (r : Fin 5000) : Fin 100000 :=
  ⟨t.val * 5000 + r.val, by have h : t.val < 20 := Nat.lt_of_lt_of_eq t.isLt N_6; have := r.isLt; omega⟩

/-- Window 0's block at point `t` is rows `5000 t … 5000 t + 4999` of its array. -/
theorem iblk6_0_apply (c : Dev nD) (t : Fin cfg6.N) (r : Fin 5000) (k : Fin 64) :
    (iblk6 V c 0 t : FVec Ideal S5000x64 .bf16) (ix2 r k) = (V c main_v67 : S100000x64.Idx → EReal) (ix2 (row6 t r) k) := by
  obtain ⟨h0a, h0b, h1a, h1b, h2a, h2b, h3a, h3b, h4a, h4b, h5a, h5b, h6a, h6b, h7a, h7b⟩ := idx6 t
  unfold iblk6
  rw [View.read_apply]
  show V c main_v67 _ = V c main_v67 _
  congr 1
  funext a; apply Fin.ext
  match a with
  | ⟨0, _⟩ => show win6_0.index t (0 : Fin 2) * 5000 + 1 * r.val = t.val * 5000 + r.val; rw [h0a]; omega
  | ⟨1, _⟩ => show win6_0.index t (1 : Fin 2) * 64 + 1 * k.val = k.val; rw [h0b]; omega

/-- Window 1's block at point `t` is rows `5000 t … 5000 t + 4999` of its array. -/
theorem iblk6_1_apply (c : Dev nD) (t : Fin cfg6.N) (r : Fin 5000) (k : Fin 64) :
    (iblk6 V c 1 t : FVec Ideal S5000x64 .bf16) (ix2 r k) = (V c main_v111 : S100000x64.Idx → EReal) (ix2 (row6 t r) k) := by
  obtain ⟨h0a, h0b, h1a, h1b, h2a, h2b, h3a, h3b, h4a, h4b, h5a, h5b, h6a, h6b, h7a, h7b⟩ := idx6 t
  unfold iblk6
  rw [View.read_apply]
  show V c main_v111 _ = V c main_v111 _
  congr 1
  funext a; apply Fin.ext
  match a with
  | ⟨0, _⟩ => show win6_1.index t (0 : Fin 2) * 5000 + 1 * r.val = t.val * 5000 + r.val; rw [h1a]; omega
  | ⟨1, _⟩ => show win6_1.index t (1 : Fin 2) * 64 + 1 * k.val = k.val; rw [h1b]; omega

/-- Window 2's block at point `t` is rows `5000 t … 5000 t + 4999` of its array. -/
theorem iblk6_2_apply (c : Dev nD) (t : Fin cfg6.N) (r : Fin 5000) (k : Fin 64) :
    (iblk6 V c 2 t : FVec Ideal S5000x64 .bf16) (ix2 r k) = (V c main_v155 : S100000x64.Idx → EReal) (ix2 (row6 t r) k) := by
  obtain ⟨h0a, h0b, h1a, h1b, h2a, h2b, h3a, h3b, h4a, h4b, h5a, h5b, h6a, h6b, h7a, h7b⟩ := idx6 t
  unfold iblk6
  rw [View.read_apply]
  show V c main_v155 _ = V c main_v155 _
  congr 1
  funext a; apply Fin.ext
  match a with
  | ⟨0, _⟩ => show win6_2.index t (0 : Fin 2) * 5000 + 1 * r.val = t.val * 5000 + r.val; rw [h2a]; omega
  | ⟨1, _⟩ => show win6_2.index t (1 : Fin 2) * 64 + 1 * k.val = k.val; rw [h2b]; omega

/-- Window 3's block at every point is its whole array. -/
theorem iblk6_3_apply (c : Dev nD) (t : Fin cfg6.N) (p : Fin 64) (k : Fin 64) :
    (iblk6 V c 3 t : FVec Ideal S64x64 .f32) (ix2 p k) = (V c main_v156 : S64x64.Idx → EReal) (ix2 p k) := by
  obtain ⟨h0a, h0b, h1a, h1b, h2a, h2b, h3a, h3b, h4a, h4b, h5a, h5b, h6a, h6b, h7a, h7b⟩ := idx6 t
  unfold iblk6
  rw [View.read_apply]
  show V c main_v156 _ = V c main_v156 _
  congr 1
  funext a; apply Fin.ext
  match a with
  | ⟨0, _⟩ => show win6_3.index t (0 : Fin 2) * 64 + 1 * p.val = p.val; rw [h3a]; omega
  | ⟨1, _⟩ => show win6_3.index t (1 : Fin 2) * 64 + 1 * k.val = k.val; rw [h3b]; omega

/-- Window 4's block at every point is its whole array. -/
theorem iblk6_4_apply (c : Dev nD) (t : Fin cfg6.N) (p : Fin 64) (k : Fin 64) :
    (iblk6 V c 4 t : FVec Ideal S64x64 .f32) (ix2 p k) = (V c main_v157 : S64x64.Idx → EReal) (ix2 p k) := by
  obtain ⟨h0a, h0b, h1a, h1b, h2a, h2b, h3a, h3b, h4a, h4b, h5a, h5b, h6a, h6b, h7a, h7b⟩ := idx6 t
  unfold iblk6
  rw [View.read_apply]
  show V c main_v157 _ = V c main_v157 _
  congr 1
  funext a; apply Fin.ext
  match a with
  | ⟨0, _⟩ => show win6_4.index t (0 : Fin 2) * 64 + 1 * p.val = p.val; rw [h4a]; omega
  | ⟨1, _⟩ => show win6_4.index t (1 : Fin 2) * 64 + 1 * k.val = k.val; rw [h4b]; omega

/-- Window 5's block at every point is its whole array. -/
theorem iblk6_5_apply (c : Dev nD) (t : Fin cfg6.N) (p : Fin 64) (k : Fin 64) :
    (iblk6 V c 5 t : FVec Ideal S64x64 .f32) (ix2 p k) = (V c main_v158 : S64x64.Idx → EReal) (ix2 p k) := by
  obtain ⟨h0a, h0b, h1a, h1b, h2a, h2b, h3a, h3b, h4a, h4b, h5a, h5b, h6a, h6b, h7a, h7b⟩ := idx6 t
  unfold iblk6
  rw [View.read_apply]
  show V c main_v158 _ = V c main_v158 _
  congr 1
  funext a; apply Fin.ext
  match a with
  | ⟨0, _⟩ => show win6_5.index t (0 : Fin 2) * 64 + 1 * p.val = p.val; rw [h5a]; omega
  | ⟨1, _⟩ => show win6_5.index t (1 : Fin 2) * 64 + 1 * k.val = k.val; rw [h5b]; omega

/-- Window 6's block at every point is its whole array. -/
theorem iblk6_6_apply (c : Dev nD) (t : Fin cfg6.N) (p : Fin 1) (k : Fin 64) :
    (iblk6 V c 6 t : FVec Ideal S1x64 .f32) (ix2 p k) = (V c main_v159 : S1x64.Idx → EReal) (ix2 p k) := by
  obtain ⟨h0a, h0b, h1a, h1b, h2a, h2b, h3a, h3b, h4a, h4b, h5a, h5b, h6a, h6b, h7a, h7b⟩ := idx6 t
  unfold iblk6
  rw [View.read_apply]
  show V c main_v159 _ = V c main_v159 _
  congr 1
  funext a; apply Fin.ext
  match a with
  | ⟨0, _⟩ => show win6_6.index t (0 : Fin 2) * 1 + 1 * p.val = p.val; rw [h6a]; omega
  | ⟨1, _⟩ => show win6_6.index t (1 : Fin 2) * 64 + 1 * k.val = k.val; rw [h6b]; omega

/-! ## What a point writes back -/

/-- Entry `(r, q)` of the block the body stores at point `t` is entry `(5000 t + r, q)` of the closed form of the
    arrays as the region finds them. -/
theorem stored6_apply (c : Dev nD) (t : Fin cfg6.N) (r : Fin 5000) (q : Fin 64) :
    (k6_pay1 (F := Ideal) (iblk6 V c 0 t) (iblk6 V c 1 t) (iblk6 V c 2 t) (iblk6 V c 3 t) (iblk6 V c 4 t) (iblk6 V c 5 t) (iblk6 V c 6 t) (ix2 r q) : EReal)
      = projForm (V c main_v67) (V c main_v111) (V c main_v155) (V c main_v156) (V c main_v157) (V c main_v158) (V c main_v159) (ix2 (row6 t r) q) := by
  refine ((proj_pay_apply6 _ _ _ _ _ _ _ r q).trans ?_).trans (projForm_ix2 _ _ _ _ _ _ _ (row6 t r) q).symm
  exact congrArg₂ (· + ·) (congrArg₂ (· + ·) (congrArg₂ (· + ·)
      (Finset.sum_congr rfl fun k _ => congrArg₂ (· * ·) (iblk6_0_apply V c t r k) (iblk6_3_apply V c t k q))
      (Finset.sum_congr rfl fun k _ => congrArg₂ (· * ·) (iblk6_1_apply V c t r k) (iblk6_4_apply V c t k q)))
      (Finset.sum_congr rfl fun k _ => congrArg₂ (· * ·) (iblk6_2_apply V c t r k) (iblk6_5_apply V c t k q)))
      (iblk6_6_apply V c t 0 q)

/-- What point `t` writes back to the output window's array is block `t` of the closed form. -/
theorem flushed6_eq (c : Dev nD) (t : Fin cfg6.N) :
    (dat6 (F := Ideal) V c).flushed 7 t = ((cfg6.win 7).blk t).view.read (Elt Ideal) (projForm (V c main_v67) (V c main_v111) (V c main_v155) (V c main_v156) (V c main_v157) (V c main_v158) (V c main_v159)) := by
  show (cfg6.win 7).cut (grid6.coords t) ((dat6 V c).after 7 t) = _
  rw [after6_7]
  unfold out6_7
  rw [View.canon_unit_zero hz6]
  simp only [View.ld_unit_zero (S := S5000x64) hz6, View.ld_unit_zero (S := S64x64) hz6, View.ld_unit_zero (S := S1x64) hz6]
  obtain ⟨h0a, h0b, h1a, h1b, h2a, h2b, h3a, h3b, h4a, h4b, h5a, h5b, h6a, h6b, h7a, h7b⟩ := idx6 t
  funext j
  obtain ⟨r, q, rfl⟩ : ∃ (r : Fin 5000) (q : Fin 64), j = ix2 r q := ⟨j 0, j 1, eq_ix2 j⟩
  refine (stored6_apply V c t r q).trans ?_
  rw [View.read_apply]
  refine congrArg (projForm (V c main_v67) (V c main_v111) (V c main_v155) (V c main_v156) (V c main_v157) (V c main_v158) (V c main_v159)) ?_
  funext a; apply Fin.ext
  match a with
  | ⟨0, _⟩ => show t.val * 5000 + r.val = win6_7.index t (0 : Fin 2) * 5000 + 1 * r.val; rw [h7a]; omega
  | ⟨1, _⟩ => show q.val = win6_7.index t (1 : Fin 2) * 64 + 1 * q.val; rw [h7b]; omega

/-! ## The output array after the run -/

/-- An index of the array is in point `t`'s block iff each coordinate is in the block's range on its axis. -/
theorem mem_blk6 (t : Fin cfg6.N) (i : S100000x64.Idx) :
    i ∈ ((cfg6.win 7).blk t).view.set ↔ ∀ a : Fin 2, win6_7.index t a * S5000x64.size a ≤ (i a).val ∧ (i a).val < win6_7.index t a * S5000x64.size a + S5000x64.size a := by
  show i ∈ ((View.whole main_v160).slice (win6_7.rect t)).set ↔ _
  rw [View.set_slice_whole, Rect.mem_set_unit]
  exact Iff.rfl

/-- The row blocks tile the array: row `n` is in the block of point `n / 5000`. -/
theorem covered6 (i : S100000x64.Idx) :
    ∃ t : Fin cfg6.N, (cfg6.win 7).flush t = true ∧ i ∈ ((cfg6.win 7).blk t).view.set := by
  have hi0 : (i 0).val < 100000 := (i 0).isLt
  have hi1 : (i 1).val < 64 := (i 1).isLt
  obtain ⟨t, ht⟩ : ∃ t : Fin cfg6.N, t.val = (i 0).val / 5000 :=
    ⟨⟨(i 0).val / 5000, Nat.lt_of_lt_of_eq (show (i 0).val / 5000 < 20 by omega) N_6.symm⟩, rfl⟩
  obtain ⟨h0a, h0b, h1a, h1b, h2a, h2b, h3a, h3b, h4a, h4b, h5a, h5b, h6a, h6b, h7a, h7b⟩ := idx6 t
  refine ⟨t, flush6_7 t, (mem_blk6 t i).mpr fun a => ?_⟩
  match a with
  | ⟨0, _⟩ =>
    show win6_7.index t (0 : Fin 2) * 5000 ≤ (i 0).val ∧ (i 0).val < win6_7.index t (0 : Fin 2) * 5000 + 5000
    rw [h7a, ht]; omega
  | ⟨1, _⟩ =>
    show win6_7.index t (1 : Fin 2) * 64 ≤ (i 1).val ∧ (i 1).val < win6_7.index t (1 : Fin 2) * 64 + 64
    rw [h7b]; omega

/-- THE OUTPUT ARRAY after the region is the closed form of the arrays as the region finds them. -/
theorem arrAt_out6 (c : Dev nD) :
    (dat6 (F := Ideal) V c).arrAt 7 cfg6.N = projForm (V c main_v67) (V c main_v111) (V c main_v155) (V c main_v156) (V c main_v157) (V c main_v158) (V c main_v159) :=
  (dat6 V c).arrAt_eq_of_cover 7 _ (fun t _ => flushed6_eq V c t) covered6

/-- Every input array is as the region found it: an input window is never written back. -/
theorem arrAt_in6 (c : Dev nD) (w : Fin cfg6.W) (hw : w ≠ 7) :
    (dat6 (F := Ideal) V c).arrAt w cfg6.N = V c (Pipeline.arrRef spec6 w) := by
  have hin : (cfg6.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, h => exact absurd rfl h
  exact ((dat6 V c).arrAt_in w hin _).trans (A_eq6 V c w)

end Cert.KernelIdeal.HandValue

end
-- ==== Proof.KI.V7.lean ====
/- The value of pipeline 7 of @main at the extended reals: after the region its output array is the projection of the
   three feature arrays the region found — each row the three layers' rows, each times its own weight, summed, plus the
   bias row — and every input array is unchanged. Point `t` of the grid writes back rows `5000 t … 5000 t + 4999`;
   the row blocks tile the array. -/
import proofs.«176278_j29592324669622_2_alg».proof.Proof.KI.R7
import proofs.«176278_j29592324669622_2_alg».proof.Proof.KI.VPay
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz7 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Row `r` of row block `t`, as a row of the tall array. -/
def row7 (t : Fin cfg7.N) (r : Fin 5000) : Fin 20000 :=
  ⟨t.val * 5000 + r.val, by have h : t.val < 4 := Nat.lt_of_lt_of_eq t.isLt N_7; have := r.isLt; omega⟩

/-- Window 0's block at point `t` is rows `5000 t … 5000 t + 4999` of its array. -/
theorem iblk7_0_apply (c : Dev nD) (t : Fin cfg7.N) (r : Fin 5000) (k : Fin 64) :
    (iblk7 V c 0 t : FVec Ideal S5000x64 .bf16) (ix2 r k) = (V c main_v59 : S20000x64.Idx → EReal) (ix2 (row7 t r) k) := by
  obtain ⟨h0a, h0b, h1a, h1b, h2a, h2b, h3a, h3b, h4a, h4b, h5a, h5b, h6a, h6b, h7a, h7b⟩ := idx7 t
  unfold iblk7
  rw [View.read_apply]
  show V c main_v59 _ = V c main_v59 _
  congr 1
  funext a; apply Fin.ext
  match a with
  | ⟨0, _⟩ => show win7_0.index t (0 : Fin 2) * 5000 + 1 * r.val = t.val * 5000 + r.val; rw [h0a]; omega
  | ⟨1, _⟩ => show win7_0.index t (1 : Fin 2) * 64 + 1 * k.val = k.val; rw [h0b]; omega

/-- Window 1's block at point `t` is rows `5000 t … 5000 t + 4999` of its array. -/
theorem iblk7_1_apply (c : Dev nD) (t : Fin cfg7.N) (r : Fin 5000) (k : Fin 64) :
    (iblk7 V c 1 t : FVec Ideal S5000x64 .bf16) (ix2 r k) = (V c main_v103 : S20000x64.Idx → EReal) (ix2 (row7 t r) k) := by
  obtain ⟨h0a, h0b, h1a, h1b, h2a, h2b, h3a, h3b, h4a, h4b, h5a, h5b, h6a, h6b, h7a, h7b⟩ := idx7 t
  unfold iblk7
  rw [View.read_apply]
  show V c main_v103 _ = V c main_v103 _
  congr 1
  funext a; apply Fin.ext
  match a with
  | ⟨0, _⟩ => show win7_1.index t (0 : Fin 2) * 5000 + 1 * r.val = t.val * 5000 + r.val; rw [h1a]; omega
  | ⟨1, _⟩ => show win7_1.index t (1 : Fin 2) * 64 + 1 * k.val = k.val; rw [h1b]; omega

/-- Window 2's block at point `t` is rows `5000 t … 5000 t + 4999` of its array. -/
theorem iblk7_2_apply (c : Dev nD) (t : Fin cfg7.N) (r : Fin 5000) (k : Fin 64) :
    (iblk7 V c 2 t : FVec Ideal S5000x64 .bf16) (ix2 r k) = (V c main_v147 : S20000x64.Idx → EReal) (ix2 (row7 t r) k) := by
  obtain ⟨h0a, h0b, h1a, h1b, h2a, h2b, h3a, h3b, h4a, h4b, h5a, h5b, h6a, h6b, h7a, h7b⟩ := idx7 t
  unfold iblk7
  rw [View.read_apply]
  show V c main_v147 _ = V c main_v147 _
  congr 1
  funext a; apply Fin.ext
  match a with
  | ⟨0, _⟩ => show win7_2.index t (0 : Fin 2) * 5000 + 1 * r.val = t.val * 5000 + r.val; rw [h2a]; omega
  | ⟨1, _⟩ => show win7_2.index t (1 : Fin 2) * 64 + 1 * k.val = k.val; rw [h2b]; omega

/-- Window 3's block at every point is its whole array. -/
theorem iblk7_3_apply (c : Dev nD) (t : Fin cfg7.N) (p : Fin 64) (k : Fin 64) :
    (iblk7 V c 3 t : FVec Ideal S64x64 .f32) (ix2 p k) = (V c main_v161 : S64x64.Idx → EReal) (ix2 p k) := by
  obtain ⟨h0a, h0b, h1a, h1b, h2a, h2b, h3a, h3b, h4a, h4b, h5a, h5b, h6a, h6b, h7a, h7b⟩ := idx7 t
  unfold iblk7
  rw [View.read_apply]
  show V c main_v161 _ = V c main_v161 _
  congr 1
  funext a; apply Fin.ext
  match a with
  | ⟨0, _⟩ => show win7_3.index t (0 : Fin 2) * 64 + 1 * p.val = p.val; rw [h3a]; omega
  | ⟨1, _⟩ => show win7_3.index t (1 : Fin 2) * 64 + 1 * k.val = k.val; rw [h3b]; omega

/-- Window 4's block at every point is its whole array. -/
theorem iblk7_4_apply (c : Dev nD) (t : Fin cfg7.N) (p : Fin 64) (k : Fin 64) :
    (iblk7 V c 4 t : FVec Ideal S64x64 .f32) (ix2 p k) = (V c main_v162 : S64x64.Idx → EReal) (ix2 p k) := by
  obtain ⟨h0a, h0b, h1a, h1b, h2a, h2b, h3a, h3b, h4a, h4b, h5a, h5b, h6a, h6b, h7a, h7b⟩ := idx7 t
  unfold iblk7
  rw [View.read_apply]
  show V c main_v162 _ = V c main_v162 _
  congr 1
  funext a; apply Fin.ext
  match a with
  | ⟨0, _⟩ => show win7_4.index t (0 : Fin 2) * 64 + 1 * p.val = p.val; rw [h4a]; omega
  | ⟨1, _⟩ => show win7_4.index t (1 : Fin 2) * 64 + 1 * k.val = k.val; rw [h4b]; omega

/-- Window 5's block at every point is its whole array. -/
theorem iblk7_5_apply (c : Dev nD) (t : Fin cfg7.N) (p : Fin 64) (k : Fin 64) :
    (iblk7 V c 5 t : FVec Ideal S64x64 .f32) (ix2 p k) = (V c main_v163 : S64x64.Idx → EReal) (ix2 p k) := by
  obtain ⟨h0a, h0b, h1a, h1b, h2a, h2b, h3a, h3b, h4a, h4b, h5a, h5b, h6a, h6b, h7a, h7b⟩ := idx7 t
  unfold iblk7
  rw [View.read_apply]
  show V c main_v163 _ = V c main_v163 _
  congr 1
  funext a; apply Fin.ext
  match a with
  | ⟨0, _⟩ => show win7_5.index t (0 : Fin 2) * 64 + 1 * p.val = p.val; rw [h5a]; omega
  | ⟨1, _⟩ => show win7_5.index t (1 : Fin 2) * 64 + 1 * k.val = k.val; rw [h5b]; omega

/-- Window 6's block at every point is its whole array. -/
theorem iblk7_6_apply (c : Dev nD) (t : Fin cfg7.N) (p : Fin 1) (k : Fin 64) :
    (iblk7 V c 6 t : FVec Ideal S1x64 .f32) (ix2 p k) = (V c main_v164 : S1x64.Idx → EReal) (ix2 p k) := by
  obtain ⟨h0a, h0b, h1a, h1b, h2a, h2b, h3a, h3b, h4a, h4b, h5a, h5b, h6a, h6b, h7a, h7b⟩ := idx7 t
  unfold iblk7
  rw [View.read_apply]
  show V c main_v164 _ = V c main_v164 _
  congr 1
  funext a; apply Fin.ext
  match a with
  | ⟨0, _⟩ => show win7_6.index t (0 : Fin 2) * 1 + 1 * p.val = p.val; rw [h6a]; omega
  | ⟨1, _⟩ => show win7_6.index t (1 : Fin 2) * 64 + 1 * k.val = k.val; rw [h6b]; omega

/-! ## What a point writes back -/

/-- Entry `(r, q)` of the block the body stores at point `t` is entry `(5000 t + r, q)` of the closed form of the
    arrays as the region finds them. -/
theorem stored7_apply (c : Dev nD) (t : Fin cfg7.N) (r : Fin 5000) (q : Fin 64) :
    (k7_pay1 (F := Ideal) (iblk7 V c 0 t) (iblk7 V c 1 t) (iblk7 V c 2 t) (iblk7 V c 3 t) (iblk7 V c 4 t) (iblk7 V c 5 t) (iblk7 V c 6 t) (ix2 r q) : EReal)
      = projForm (V c main_v59) (V c main_v103) (V c main_v147) (V c main_v161) (V c main_v162) (V c main_v163) (V c main_v164) (ix2 (row7 t r) q) := by
  refine ((proj_pay_apply7 _ _ _ _ _ _ _ r q).trans ?_).trans (projForm_ix2 _ _ _ _ _ _ _ (row7 t r) q).symm
  exact congrArg₂ (· + ·) (congrArg₂ (· + ·) (congrArg₂ (· + ·)
      (Finset.sum_congr rfl fun k _ => congrArg₂ (· * ·) (iblk7_0_apply V c t r k) (iblk7_3_apply V c t k q))
      (Finset.sum_congr rfl fun k _ => congrArg₂ (· * ·) (iblk7_1_apply V c t r k) (iblk7_4_apply V c t k q)))
      (Finset.sum_congr rfl fun k _ => congrArg₂ (· * ·) (iblk7_2_apply V c t r k) (iblk7_5_apply V c t k q)))
      (iblk7_6_apply V c t 0 q)

/-- What point `t` writes back to the output window's array is block `t` of the closed form. -/
theorem flushed7_eq (c : Dev nD) (t : Fin cfg7.N) :
    (dat7 (F := Ideal) V c).flushed 7 t = ((cfg7.win 7).blk t).view.read (Elt Ideal) (projForm (V c main_v59) (V c main_v103) (V c main_v147) (V c main_v161) (V c main_v162) (V c main_v163) (V c main_v164)) := by
  show (cfg7.win 7).cut (grid7.coords t) ((dat7 V c).after 7 t) = _
  rw [after7_7]
  unfold out7_7
  rw [View.canon_unit_zero hz7]
  simp only [View.ld_unit_zero (S := S5000x64) hz7, View.ld_unit_zero (S := S64x64) hz7, View.ld_unit_zero (S := S1x64) hz7]
  obtain ⟨h0a, h0b, h1a, h1b, h2a, h2b, h3a, h3b, h4a, h4b, h5a, h5b, h6a, h6b, h7a, h7b⟩ := idx7 t
  funext j
  obtain ⟨r, q, rfl⟩ : ∃ (r : Fin 5000) (q : Fin 64), j = ix2 r q := ⟨j 0, j 1, eq_ix2 j⟩
  refine (stored7_apply V c t r q).trans ?_
  rw [View.read_apply]
  refine congrArg (projForm (V c main_v59) (V c main_v103) (V c main_v147) (V c main_v161) (V c main_v162) (V c main_v163) (V c main_v164)) ?_
  funext a; apply Fin.ext
  match a with
  | ⟨0, _⟩ => show t.val * 5000 + r.val = win7_7.index t (0 : Fin 2) * 5000 + 1 * r.val; rw [h7a]; omega
  | ⟨1, _⟩ => show q.val = win7_7.index t (1 : Fin 2) * 64 + 1 * q.val; rw [h7b]; omega

/-! ## The output array after the run -/

/-- An index of the array is in point `t`'s block iff each coordinate is in the block's range on its axis. -/
theorem mem_blk7 (t : Fin cfg7.N) (i : S20000x64.Idx) :
    i ∈ ((cfg7.win 7).blk t).view.set ↔ ∀ a : Fin 2, win7_7.index t a * S5000x64.size a ≤ (i a).val ∧ (i a).val < win7_7.index t a * S5000x64.size a + S5000x64.size a := by
  show i ∈ ((View.whole main_v165).slice (win7_7.rect t)).set ↔ _
  rw [View.set_slice_whole, Rect.mem_set_unit]
  exact Iff.rfl

/-- The row blocks tile the array: row `n` is in the block of point `n / 5000`. -/
theorem covered7 (i : S20000x64.Idx) :
    ∃ t : Fin cfg7.N, (cfg7.win 7).flush t = true ∧ i ∈ ((cfg7.win 7).blk t).view.set := by
  have hi0 : (i 0).val < 20000 := (i 0).isLt
  have hi1 : (i 1).val < 64 := (i 1).isLt
  obtain ⟨t, ht⟩ : ∃ t : Fin cfg7.N, t.val = (i 0).val / 5000 :=
    ⟨⟨(i 0).val / 5000, Nat.lt_of_lt_of_eq (show (i 0).val / 5000 < 4 by omega) N_7.symm⟩, rfl⟩
  obtain ⟨h0a, h0b, h1a, h1b, h2a, h2b, h3a, h3b, h4a, h4b, h5a, h5b, h6a, h6b, h7a, h7b⟩ := idx7 t
  refine ⟨t, flush7_7 t, (mem_blk7 t i).mpr fun a => ?_⟩
  match a with
  | ⟨0, _⟩ =>
    show win7_7.index t (0 : Fin 2) * 5000 ≤ (i 0).val ∧ (i 0).val < win7_7.index t (0 : Fin 2) * 5000 + 5000
    rw [h7a, ht]; omega
  | ⟨1, _⟩ =>
    show win7_7.index t (1 : Fin 2) * 64 ≤ (i 1).val ∧ (i 1).val < win7_7.index t (1 : Fin 2) * 64 + 64
    rw [h7b]; omega

/-- THE OUTPUT ARRAY after the region is the closed form of the arrays as the region finds them. -/
theorem arrAt_out7 (c : Dev nD) :
    (dat7 (F := Ideal) V c).arrAt 7 cfg7.N = projForm (V c main_v59) (V c main_v103) (V c main_v147) (V c main_v161) (V c main_v162) (V c main_v163) (V c main_v164) :=
  (dat7 V c).arrAt_eq_of_cover 7 _ (fun t _ => flushed7_eq V c t) covered7

/-- Every input array is as the region found it: an input window is never written back. -/
theorem arrAt_in7 (c : Dev nD) (w : Fin cfg7.W) (hw : w ≠ 7) :
    (dat7 (F := Ideal) V c).arrAt w cfg7.N = V c (Pipeline.arrRef spec7 w) := by
  have hin : (cfg7.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, h => exact absurd rfl h
  exact ((dat7 V c).arrAt_in w hin _).trans (A_eq7 V c w)

end Cert.KernelIdeal.HandValue

end
-- ==== Proof.KI.H6.lean ====
/-
  The host operations before the seventh kernel launch: the users' output projection, its weight matrix `[192, 64]`
  cut into the three stretches of `64` rows that meet the three layers' outputs, and its bias as a row.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- Rows 0 … 63 of the users' projection matrix. -/
theorem read_main_v156 (W : Valuation τ sig (Elt F)) :
    (StableHlo.after (hostOps6 (F := F)) W (Proc.devRef .tc main_v156) : FVec F S64x64 .f32)
      = extractStridedSlice S64x64 ![0, 0] (W (Proc.devRef .tc main_arg13) : FVec F S192x64 .f32) slices_S192x64_S64x64_0_0 := by
  dsimp only [hostOps6]; after_results <;> rfl

theorem read_main_v156_apply (W : Valuation τ sig (Elt F)) (k j : Fin 64) :
    (StableHlo.after (hostOps6 (F := F)) W (Proc.devRef .tc main_v156) : FVec F S64x64 .f32) (ix2 k j)
      = (W (Proc.devRef .tc main_arg13) : FVec F S192x64 .f32) (ix2 (⟨0 + k.val, by omega⟩ : Fin 192) j) := by
  rw [read_main_v156]
  exact slice2_axis0_apply 0 _ _ k j _ rfl

/-- Rows 64 … 127 of the users' projection matrix. -/
theorem read_main_v157 (W : Valuation τ sig (Elt F)) :
    (StableHlo.after (hostOps6 (F := F)) W (Proc.devRef .tc main_v157) : FVec F S64x64 .f32)
      = extractStridedSlice S64x64 ![64, 0] (W (Proc.devRef .tc main_arg13) : FVec F S192x64 .f32) slices_S192x64_S64x64_64_0 := by
  dsimp only [hostOps6]; after_results <;> rfl

theorem read_main_v157_apply (W : Valuation τ sig (Elt F)) (k j : Fin 64) :
    (StableHlo.after (hostOps6 (F := F)) W (Proc.devRef .tc main_v157) : FVec F S64x64 .f32) (ix2 k j)
      = (W (Proc.devRef .tc main_arg13) : FVec F S192x64 .f32) (ix2 (⟨64 + k.val, by omega⟩ : Fin 192) j) := by
  rw [read_main_v157]
  exact slice2_axis0_apply 64 _ _ k j _ rfl

/-- Rows 128 … 191 of the users' projection matrix. -/
theorem read_main_v158 (W : Valuation τ sig (Elt F)) :
    (StableHlo.after (hostOps6 (F := F)) W (Proc.devRef .tc main_v158) : FVec F S64x64 .f32)
      = extractStridedSlice S64x64 ![128, 0] (W (Proc.devRef .tc main_arg13) : FVec F S192x64 .f32) slices_S192x64_S64x64_128_0 := by
  dsimp only [hostOps6]; after_results <;> rfl

theorem read_main_v158_apply (W : Valuation τ sig (Elt F)) (k j : Fin 64) :
    (StableHlo.after (hostOps6 (F := F)) W (Proc.devRef .tc main_v158) : FVec F S64x64 .f32) (ix2 k j)
      = (W (Proc.devRef .tc main_arg13) : FVec F S192x64 .f32) (ix2 (⟨128 + k.val, by omega⟩ : Fin 192) j) := by
  rw [read_main_v158]
  exact slice2_axis0_apply 128 _ _ k j _ rfl

/-- The users' projection bias, as a row. -/
theorem read_main_v159 (W : Valuation τ sig (Elt F)) :
    (StableHlo.after (hostOps6 (F := F)) W (Proc.devRef .tc main_v159) : FVec F S1x64 .f32)
      = shapeCast S1x64 (W (Proc.devRef .tc main_arg14) : FVec F S64 .f32) shapeCasts_S64_S1x64 := by
  dsimp only [hostOps6]; after_results <;> rfl

theorem read_main_v159_apply (W : Valuation τ sig (Elt F)) (u : Fin 1) (j : Fin 64) :
    (StableHlo.after (hostOps6 (F := F)) W (Proc.devRef .tc main_v159) : FVec F S1x64 .f32) (ix2 u j)
      = (W (Proc.devRef .tc main_arg14) : FVec F S64 .f32) (ix1 j) := by
  rw [read_main_v159]
  exact shapeCast_a_1a_apply _ _ u j

end Cert.KernelIdeal.HostRead

end
-- ==== Proof.KI.H7.lean ====
/-
  The host operations before the eighth kernel launch: the movies' output projection, its weight matrix `[192, 64]`
  cut into the three stretches of `64` rows that meet the three layers' outputs, and its bias as a row.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- Rows 0 … 63 of the movies' projection matrix. -/
theorem read_main_v161 (W : Valuation τ sig (Elt F)) :
    (StableHlo.after (hostOps7 (F := F)) W (Proc.devRef .tc main_v161) : FVec F S64x64 .f32)
      = extractStridedSlice S64x64 ![0, 0] (W (Proc.devRef .tc main_arg15) : FVec F S192x64 .f32) slices_S192x64_S64x64_0_0 := by
  dsimp only [hostOps7]; after_results <;> rfl

theorem read_main_v161_apply (W : Valuation τ sig (Elt F)) (k j : Fin 64) :
    (StableHlo.after (hostOps7 (F := F)) W (Proc.devRef .tc main_v161) : FVec F S64x64 .f32) (ix2 k j)
      = (W (Proc.devRef .tc main_arg15) : FVec F S192x64 .f32) (ix2 (⟨0 + k.val, by omega⟩ : Fin 192) j) := by
  rw [read_main_v161]
  exact slice2_axis0_apply 0 _ _ k j _ rfl

/-- Rows 64 … 127 of the movies' projection matrix. -/
theorem read_main_v162 (W : Valuation τ sig (Elt F)) :
    (StableHlo.after (hostOps7 (F := F)) W (Proc.devRef .tc main_v162) : FVec F S64x64 .f32)
      = extractStridedSlice S64x64 ![64, 0] (W (Proc.devRef .tc main_arg15) : FVec F S192x64 .f32) slices_S192x64_S64x64_64_0 := by
  dsimp only [hostOps7]; after_results <;> rfl

theorem read_main_v162_apply (W : Valuation τ sig (Elt F)) (k j : Fin 64) :
    (StableHlo.after (hostOps7 (F := F)) W (Proc.devRef .tc main_v162) : FVec F S64x64 .f32) (ix2 k j)
      = (W (Proc.devRef .tc main_arg15) : FVec F S192x64 .f32) (ix2 (⟨64 + k.val, by omega⟩ : Fin 192) j) := by
  rw [read_main_v162]
  exact slice2_axis0_apply 64 _ _ k j _ rfl

/-- Rows 128 … 191 of the movies' projection matrix. -/
theorem read_main_v163 (W : Valuation τ sig (Elt F)) :
    (StableHlo.after (hostOps7 (F := F)) W (Proc.devRef .tc main_v163) : FVec F S64x64 .f32)
      = extractStridedSlice S64x64 ![128, 0] (W (Proc.devRef .tc main_arg15) : FVec F S192x64 .f32) slices_S192x64_S64x64_128_0 := by
  dsimp only [hostOps7]; after_results <;> rfl

theorem read_main_v163_apply (W : Valuation τ sig (Elt F)) (k j : Fin 64) :
    (StableHlo.after (hostOps7 (F := F)) W (Proc.devRef .tc main_v163) : FVec F S64x64 .f32) (ix2 k j)
      = (W (Proc.devRef .tc main_arg15) : FVec F S192x64 .f32) (ix2 (⟨128 + k.val, by omega⟩ : Fin 192) j) := by
  rw [read_main_v163]
  exact slice2_axis0_apply 128 _ _ k j _ rfl

/-- The movies' projection bias, as a row. -/
theorem read_main_v164 (W : Valuation τ sig (Elt F)) :
    (StableHlo.after (hostOps7 (F := F)) W (Proc.devRef .tc main_v164) : FVec F S1x64 .f32)
      = shapeCast S1x64 (W (Proc.devRef .tc main_arg16) : FVec F S64 .f32) shapeCasts_S64_S1x64 := by
  dsimp only [hostOps7]; after_results <;> rfl

theorem read_main_v164_apply (W : Valuation τ sig (Elt F)) (u : Fin 1) (j : Fin 64) :
    (StableHlo.after (hostOps7 (F := F)) W (Proc.devRef .tc main_v164) : FVec F S1x64 .f32) (ix2 u j)
      = (W (Proc.devRef .tc main_arg16) : FVec F S64 .f32) (ix1 j) := by
  rw [read_main_v164]
  exact shapeCast_a_1a_apply _ _ u j

end Cert.KernelIdeal.HostRead

end
-- ==== Proof.Bridge.H.lean ====
/-
  The two output projections.  On the kernel side a projected row is the sum of the three layers' rows, each against
  its own stretch of 64 rows of the projection matrix, plus the bias; on the reference side it is the concatenated row
  of 192 entries against the whole matrix, plus the bias.  A sum over 192 positions splits into its three stretches of
  64, so the two agree entry by entry once the three layers' features do; nothing need be finite.
-/
import proofs.«176278_j29592324669622_2_alg».proof.Proof.Bridge.Defs
import proofs.«176278_j29592324669622_2_alg».proof.Proof.Bridge.Concat
import proofs.«176278_j29592324669622_2_alg».proof.Proof.KI.Keep
import proofs.«176278_j29592324669622_2_alg».proof.Proof.KI.KeepIn
import proofs.«176278_j29592324669622_2_alg».proof.Proof.KI.V6
import proofs.«176278_j29592324669622_2_alg».proof.Proof.KI.V7
import proofs.«176278_j29592324669622_2_alg».proof.Proof.KI.H6
import proofs.«176278_j29592324669622_2_alg».proof.Proof.KI.H7
import proofs.«176278_j29592324669622_2_alg».proof.Proof.Ref.Arrays
import proofs.«176278_j29592324669622_2_alg».proof.Proof.Math.Stages

noncomputable section

namespace Cert.Bridge

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

namespace H

/-! ### The users' projection -/

/-- The kernel side at a row and a column: the three layers' rows, each against its stretch of the projection matrix,
    plus the bias entry. -/
theorem KHU_at (n : Fin 100000) (j : Fin 64) :
    KHU m ρ c (ix2 n j)
      = (((∑ k : Fin 64, KU1 m ρ c (ix2 n k) * (m ((c.tc : Thread Cert.KernelIdeal.nD Cert.KernelIdeal.τ).loc Cert.KernelIdeal.main_arg13) : Arr 192 64) (ix2 (⟨k.val, by omega⟩ : Fin 192) j))
          + (∑ k : Fin 64, KU2 m ρ c (ix2 n k) * (m ((c.tc : Thread Cert.KernelIdeal.nD Cert.KernelIdeal.τ).loc Cert.KernelIdeal.main_arg13) : Arr 192 64) (ix2 (⟨64 + k.val, by omega⟩ : Fin 192) j)))
          + (∑ k : Fin 64, KU3 m ρ c (ix2 n k) * (m ((c.tc : Thread Cert.KernelIdeal.nD Cert.KernelIdeal.τ).loc Cert.KernelIdeal.main_arg13) : Arr 192 64) (ix2 (⟨64 + 64 + k.val, by omega⟩ : Fin 192) j)))
        + (m ((c.tc : Thread Cert.KernelIdeal.nD Cert.KernelIdeal.τ).loc Cert.KernelIdeal.main_arg14) : Vec1 64) (ix1 j) := by
  have hK : KHU m ρ c
      = projForm (Cert.KernelIdeal.Hand.V13 (F := Ideal) m ρ c Cert.KernelIdeal.main_v67) (Cert.KernelIdeal.Hand.V13 (F := Ideal) m ρ c Cert.KernelIdeal.main_v111)
          (Cert.KernelIdeal.Hand.V13 (F := Ideal) m ρ c Cert.KernelIdeal.main_v155) (Cert.KernelIdeal.Hand.V13 (F := Ideal) m ρ c Cert.KernelIdeal.main_v156)
          (Cert.KernelIdeal.Hand.V13 (F := Ideal) m ρ c Cert.KernelIdeal.main_v157) (Cert.KernelIdeal.Hand.V13 (F := Ideal) m ρ c Cert.KernelIdeal.main_v158)
          (Cert.KernelIdeal.Hand.V13 (F := Ideal) m ρ c Cert.KernelIdeal.main_v159) :=
    (Cert.KernelIdeal.Hand.W14_arr (F := Ideal) m ρ c 7).trans
      (Cert.KernelIdeal.HandValue.arrAt_out6 (Cert.KernelIdeal.Hand.V13 (F := Ideal) m ρ) c)
  have e1 : Cert.KernelIdeal.Hand.V13 (F := Ideal) m ρ c Cert.KernelIdeal.main_v67 = KU1 m ρ c :=
    Cert.KernelIdeal.Hand.W13_main_v67 m ρ c
  have e2 : Cert.KernelIdeal.Hand.V13 (F := Ideal) m ρ c Cert.KernelIdeal.main_v111 = KU2 m ρ c :=
    Cert.KernelIdeal.Hand.W13_main_v111 m ρ c
  have e3 : Cert.KernelIdeal.Hand.V13 (F := Ideal) m ρ c Cert.KernelIdeal.main_v155 = KU3 m ρ c :=
    Cert.KernelIdeal.Hand.W13_eq_W12 m ρ c Cert.KernelIdeal.main_v155 (by decide)
  have aW : Cert.KernelIdeal.Hand.W12 (F := Ideal) m ρ c (Proc.devRef .tc Cert.KernelIdeal.main_arg13) = m ((c.tc : Thread Cert.KernelIdeal.nD Cert.KernelIdeal.τ).loc Cert.KernelIdeal.main_arg13) :=
    Cert.KernelIdeal.Hand.W12_eq_W0 m ρ c Cert.KernelIdeal.main_arg13 (by decide) (by decide) (by decide) (by decide) (by decide) (by decide) (by decide) (by decide) (by decide) (by decide) (by decide) (by decide)
  have aB : Cert.KernelIdeal.Hand.W12 (F := Ideal) m ρ c (Proc.devRef .tc Cert.KernelIdeal.main_arg14) = m ((c.tc : Thread Cert.KernelIdeal.nD Cert.KernelIdeal.τ).loc Cert.KernelIdeal.main_arg14) :=
    Cert.KernelIdeal.Hand.W12_eq_W0 m ρ c Cert.KernelIdeal.main_arg14 (by decide) (by decide) (by decide) (by decide) (by decide) (by decide) (by decide) (by decide) (by decide) (by decide) (by decide) (by decide)
  have w0 : ∀ k : Fin 64, Cert.KernelIdeal.Hand.V13 (F := Ideal) m ρ c Cert.KernelIdeal.main_v156 (ix2 k j)
      = (m ((c.tc : Thread Cert.KernelIdeal.nD Cert.KernelIdeal.τ).loc Cert.KernelIdeal.main_arg13) : Arr 192 64) (ix2 (⟨k.val, by omega⟩ : Fin 192) j) := fun k =>
    ((Cert.KernelIdeal.HostRead.read_main_v156_apply (Cert.KernelIdeal.Hand.W12 (F := Ideal) m ρ c) k j).trans
      (congrFun aW _)).trans (congrArg (fun t : Fin 192 => (m ((c.tc : Thread Cert.KernelIdeal.nD Cert.KernelIdeal.τ).loc Cert.KernelIdeal.main_arg13) : Arr 192 64) (ix2 t j)) (Fin.ext (Nat.zero_add k.val)))
  have w1 : ∀ k : Fin 64, Cert.KernelIdeal.Hand.V13 (F := Ideal) m ρ c Cert.KernelIdeal.main_v157 (ix2 k j)
      = (m ((c.tc : Thread Cert.KernelIdeal.nD Cert.KernelIdeal.τ).loc Cert.KernelIdeal.main_arg13) : Arr 192 64) (ix2 (⟨64 + k.val, by omega⟩ : Fin 192) j) := fun k =>
    (Cert.KernelIdeal.HostRead.read_main_v157_apply (Cert.KernelIdeal.Hand.W12 (F := Ideal) m ρ c) k j).trans (congrFun aW _)
  have w2 : ∀ k : Fin 64, Cert.KernelIdeal.Hand.V13 (F := Ideal) m ρ c Cert.KernelIdeal.main_v158 (ix2 k j)
      = (m ((c.tc : Thread Cert.KernelIdeal.nD Cert.KernelIdeal.τ).loc Cert.KernelIdeal.main_arg13) : Arr 192 64) (ix2 (⟨64 + 64 + k.val, by omega⟩ : Fin 192) j) := fun k =>
    (Cert.KernelIdeal.HostRead.read_main_v158_apply (Cert.KernelIdeal.Hand.W12 (F := Ideal) m ρ c) k j).trans (congrFun aW _)
  have wb : Cert.KernelIdeal.Hand.V13 (F := Ideal) m ρ c Cert.KernelIdeal.main_v159 (ix2 (0 : Fin 1) j) = (m ((c.tc : Thread Cert.KernelIdeal.nD Cert.KernelIdeal.τ).loc Cert.KernelIdeal.main_arg14) : Vec1 64) (ix1 j) :=
    (Cert.KernelIdeal.HostRead.read_main_v159_apply (Cert.KernelIdeal.Hand.W12 (F := Ideal) m ρ c) 0 j).trans (congrFun aB _)
  rw [hK, projForm_ix2, e1, e2, e3, wb]
  refine congrArg (· + _) (congrArg₂ (· + ·) (congrArg₂ (· + ·) ?_ ?_) ?_)
  · exact Finset.sum_congr rfl fun k _ => by rw [w0 k]
  · exact Finset.sum_congr rfl fun k _ => by rw [w1 k]
  · exact Finset.sum_congr rfl fun k _ => by rw [w2 k]

/-- The reference side at a row and a column: the concatenated row against the whole projection matrix, plus the bias
    entry. -/
theorem RHU_at (n : Fin 100000) (j : Fin 64) :
    RHU m' c (ix2 n j)
      = (∑ k : Fin 192,
          concatenate Cert.ReferenceIdeal.S100000x192 1
              [⟨Cert.ReferenceIdeal.S100000x64, RU1 m' c⟩, ⟨Cert.ReferenceIdeal.S100000x64, RU2 m' c⟩, ⟨Cert.ReferenceIdeal.S100000x64, RU3 m' c⟩]
              Cert.ReferenceIdeal.Gen.concatenates_S100000x64_S100000x64_S100000x64_S100000x192_d1 (ix2 n k)
            * (m' ((c.tc : Thread Cert.ReferenceIdeal.nD Cert.ReferenceIdeal.τ).loc Cert.ReferenceIdeal.main_arg13) : Arr 192 64) (ix2 k j))
        + (m' ((c.tc : Thread Cert.ReferenceIdeal.nD Cert.ReferenceIdeal.τ).loc Cert.ReferenceIdeal.main_arg14) : Vec1 64) (ix1 j) := by
  show StableHlo.after (Cert.ReferenceIdeal.Hand.ops (F := Ideal)) (fun b => m' (c, b)) (Proc.devRef .tc Cert.ReferenceIdeal.main_v203) (ix2 n j) = _
  rw [Cert.ReferenceIdeal.Hand.read_v203, addf_apply, Cert.ReferenceIdeal.Hand.read_v200,
    Cert.ReferenceIdeal.Hand.hostDot_apply Cert.ReferenceIdeal.dot_S100000x192_S192x64_S100000x64_1_0_0_1_n_n rfl,
    Cert.ReferenceIdeal.Hand.bcast_rows_apply, Cert.ReferenceIdeal.Hand.read_v201,
    Cert.ReferenceIdeal.Hand.bcast_vec_row_apply]
  rfl

/-! ### The movies' projection -/

/-- The kernel side at a row and a column: the three layers' rows, each against its stretch of the projection matrix,
    plus the bias entry. -/
theorem KHM_at (n : Fin 20000) (j : Fin 64) :
    KHM m ρ c (ix2 n j)
      = (((∑ k : Fin 64, KM1 m ρ c (ix2 n k) * (m ((c.tc : Thread Cert.KernelIdeal.nD Cert.KernelIdeal.τ).loc Cert.KernelIdeal.main_arg15) : Arr 192 64) (ix2 (⟨k.val, by omega⟩ : Fin 192) j))
          + (∑ k : Fin 64, KM2 m ρ c (ix2 n k) * (m ((c.tc : Thread Cert.KernelIdeal.nD Cert.KernelIdeal.τ).loc Cert.KernelIdeal.main_arg15) : Arr 192 64) (ix2 (⟨64 + k.val, by omega⟩ : Fin 192) j)))
          + (∑ k : Fin 64, KM3 m ρ c (ix2 n k) * (m ((c.tc : Thread Cert.KernelIdeal.nD Cert.KernelIdeal.τ).loc Cert.KernelIdeal.main_arg15) : Arr 192 64) (ix2 (⟨64 + 64 + k.val, by omega⟩ : Fin 192) j)))
        + (m ((c.tc : Thread Cert.KernelIdeal.nD Cert.KernelIdeal.τ).loc Cert.KernelIdeal.main_arg16) : Vec1 64) (ix1 j) := by
  have hK : KHM m ρ c
      = projForm (Cert.KernelIdeal.Hand.V15 (F := Ideal) m ρ c Cert.KernelIdeal.main_v59) (Cert.KernelIdeal.Hand.V15 (F := Ideal) m ρ c Cert.KernelIdeal.main_v103)
          (Cert.KernelIdeal.Hand.V15 (F := Ideal) m ρ c Cert.KernelIdeal.main_v147) (Cert.KernelIdeal.Hand.V15 (F := Ideal) m ρ c Cert.KernelIdeal.main_v161)
          (Cert.KernelIdeal.Hand.V15 (F := Ideal) m ρ c Cert.KernelIdeal.main_v162) (Cert.KernelIdeal.Hand.V15 (F := Ideal) m ρ c Cert.KernelIdeal.main_v163)
          (Cert.KernelIdeal.Hand.V15 (F := Ideal) m ρ c Cert.KernelIdeal.main_v164) :=
    (Cert.KernelIdeal.Hand.W16_arr (F := Ideal) m ρ c 7).trans
      (Cert.KernelIdeal.HandValue.arrAt_out7 (Cert.KernelIdeal.Hand.V15 (F := Ideal) m ρ) c)
  have e1 : Cert.KernelIdeal.Hand.V15 (F := Ideal) m ρ c Cert.KernelIdeal.main_v59 = KM1 m ρ c :=
    Cert.KernelIdeal.Hand.W15_main_v59 m ρ c
  have e2 : Cert.KernelIdeal.Hand.V15 (F := Ideal) m ρ c Cert.KernelIdeal.main_v103 = KM2 m ρ c :=
    Cert.KernelIdeal.Hand.W15_main_v103 m ρ c
  have e3 : Cert.KernelIdeal.Hand.V15 (F := Ideal) m ρ c Cert.KernelIdeal.main_v147 = KM3 m ρ c :=
    Cert.KernelIdeal.Hand.W15_eq_W10 m ρ c Cert.KernelIdeal.main_v147 (by decide) (by decide) (by decide) (by decide) (by decide)
  have aW : Cert.KernelIdeal.Hand.W14 (F := Ideal) m ρ c (Proc.devRef .tc Cert.KernelIdeal.main_arg15) = m ((c.tc : Thread Cert.KernelIdeal.nD Cert.KernelIdeal.τ).loc Cert.KernelIdeal.main_arg15) :=
    Cert.KernelIdeal.Hand.W14_eq_W0 m ρ c Cert.KernelIdeal.main_arg15 (by decide) (by decide) (by decide) (by decide) (by decide) (by decide) (by decide) (by decide) (by decide) (by decide) (by decide) (by decide) (by decide) (by decide)
  have aB : Cert.KernelIdeal.Hand.W14 (F := Ideal) m ρ c (Proc.devRef .tc Cert.KernelIdeal.main_arg16) = m ((c.tc : Thread Cert.KernelIdeal.nD Cert.KernelIdeal.τ).loc Cert.KernelIdeal.main_arg16) :=
    Cert.KernelIdeal.Hand.W14_eq_W0 m ρ c Cert.KernelIdeal.main_arg16 (by decide) (by decide) (by decide) (by decide) (by decide) (by decide) (by decide) (by decide) (by decide) (by decide) (by decide) (by decide) (by decide) (by decide)
  have w0 : ∀ k : Fin 64, Cert.KernelIdeal.Hand.V15 (F := Ideal) m ρ c Cert.KernelIdeal.main_v161 (ix2 k j)
      = (m ((c.tc : Thread Cert.KernelIdeal.nD Cert.KernelIdeal.τ).loc Cert.KernelIdeal.main_arg15) : Arr 192 64) (ix2 (⟨k.val, by omega⟩ : Fin 192) j) := fun k =>
    ((Cert.KernelIdeal.HostRead.read_main_v161_apply (Cert.KernelIdeal.Hand.W14 (F := Ideal) m ρ c) k j).trans
      (congrFun aW _)).trans (congrArg (fun t : Fin 192 => (m ((c.tc : Thread Cert.KernelIdeal.nD Cert.KernelIdeal.τ).loc Cert.KernelIdeal.main_arg15) : Arr 192 64) (ix2 t j)) (Fin.ext (Nat.zero_add k.val)))
  have w1 : ∀ k : Fin 64, Cert.KernelIdeal.Hand.V15 (F := Ideal) m ρ c Cert.KernelIdeal.main_v162 (ix2 k j)
      = (m ((c.tc : Thread Cert.KernelIdeal.nD Cert.KernelIdeal.τ).loc Cert.KernelIdeal.main_arg15) : Arr 192 64) (ix2 (⟨64 + k.val, by omega⟩ : Fin 192) j) := fun k =>
    (Cert.KernelIdeal.HostRead.read_main_v162_apply (Cert.KernelIdeal.Hand.W14 (F := Ideal) m ρ c) k j).trans (congrFun aW _)
  have w2 : ∀ k : Fin 64, Cert.KernelIdeal.Hand.V15 (F := Ideal) m ρ c Cert.KernelIdeal.main_v163 (ix2 k j)
      = (m ((c.tc : Thread Cert.KernelIdeal.nD Cert.KernelIdeal.τ).loc Cert.KernelIdeal.main_arg15) : Arr 192 64) (ix2 (⟨64 + 64 + k.val, by omega⟩ : Fin 192) j) := fun k =>
    (Cert.KernelIdeal.HostRead.read_main_v163_apply (Cert.KernelIdeal.Hand.W14 (F := Ideal) m ρ c) k j).trans (congrFun aW _)
  have wb : Cert.KernelIdeal.Hand.V15 (F := Ideal) m ρ c Cert.KernelIdeal.main_v164 (ix2 (0 : Fin 1) j) = (m ((c.tc : Thread Cert.KernelIdeal.nD Cert.KernelIdeal.τ).loc Cert.KernelIdeal.main_arg16) : Vec1 64) (ix1 j) :=
    (Cert.KernelIdeal.HostRead.read_main_v164_apply (Cert.KernelIdeal.Hand.W14 (F := Ideal) m ρ c) 0 j).trans (congrFun aB _)
  rw [hK, projForm_ix2, e1, e2, e3, wb]
  refine congrArg (· + _) (congrArg₂ (· + ·) (congrArg₂ (· + ·) ?_ ?_) ?_)
  · exact Finset.sum_congr rfl fun k _ => by rw [w0 k]
  · exact Finset.sum_congr rfl fun k _ => by rw [w1 k]
  · exact Finset.sum_congr rfl fun k _ => by rw [w2 k]

/-- The reference side at a row and a column: the concatenated row against the whole projection matrix, plus the bias
    entry. -/
theorem RHM_at (n : Fin 20000) (j : Fin 64) :
    RHM m' c (ix2 n j)
      = (∑ k : Fin 192,
          concatenate Cert.ReferenceIdeal.S20000x192 1
              [⟨Cert.ReferenceIdeal.S20000x64, RM1 m' c⟩, ⟨Cert.ReferenceIdeal.S20000x64, RM2 m' c⟩, ⟨Cert.ReferenceIdeal.S20000x64, RM3 m' c⟩]
              Cert.ReferenceIdeal.Gen.concatenates_S20000x64_S20000x64_S20000x64_S20000x192_d1 (ix2 n k)
            * (m' ((c.tc : Thread Cert.ReferenceIdeal.nD Cert.ReferenceIdeal.τ).loc Cert.ReferenceIdeal.main_arg15) : Arr 192 64) (ix2 k j))
        + (m' ((c.tc : Thread Cert.ReferenceIdeal.nD Cert.ReferenceIdeal.τ).loc Cert.ReferenceIdeal.main_arg16) : Vec1 64) (ix1 j) := by
  show StableHlo.after (Cert.ReferenceIdeal.Hand.ops (F := Ideal)) (fun b => m' (c, b)) (Proc.devRef .tc Cert.ReferenceIdeal.main_v208) (ix2 n j) = _
  rw [Cert.ReferenceIdeal.Hand.read_v208, addf_apply,
    Cert.ReferenceIdeal.Hand.hostDot_apply Cert.ReferenceIdeal.dot_S20000x192_S192x64_S20000x64_1_0_0_1_n_n rfl,
    Cert.ReferenceIdeal.Hand.bcast_rows_apply, Cert.ReferenceIdeal.Hand.bcast_vec_row_apply]
  rfl

end H

/-! ### The stage -/

/-- The projected features agree once the three layers' features do. -/
theorem st_H (hag : Agree m m' c) (h1u : KU1 m ρ c = RU1 m' c) (h2u : KU2 m ρ c = RU2 m' c)
    (h3u : KU3 m ρ c = RU3 m' c) (h1m : KM1 m ρ c = RM1 m' c) (h2m : KM2 m ρ c = RM2 m' c)
    (h3m : KM3 m ρ c = RM3 m' c) : KHU m ρ c = RHU m' c ∧ KHM m ρ c = RHM m' c := by
  have a13 := hag.2.2.2.2.2.2.2.2.2.2.2.2.2.1
  have a14 := hag.2.2.2.2.2.2.2.2.2.2.2.2.2.2.1
  have a15 := hag.2.2.2.2.2.2.2.2.2.2.2.2.2.2.2.1
  have a16 := hag.2.2.2.2.2.2.2.2.2.2.2.2.2.2.2.2.1
  constructor
  · funext i
    obtain ⟨n, j, rfl⟩ : ∃ (n : Fin 100000) (j : Fin 64), i = ix2 n j := ⟨i 0, i 1, eq_ix2 i⟩
    rw [H.KHU_at m ρ c n j, H.RHU_at m' c n j, h1u, h2u, h3u, ← a13, ← a14]
    exact proj3_stage (fun n k => RU1 m' c (ix2 n k)) (fun n k => RU2 m' c (ix2 n k))
      (fun n k => RU3 m' c (ix2 n k))
      (fun n k => concatenate Cert.ReferenceIdeal.S100000x192 1
        [⟨Cert.ReferenceIdeal.S100000x64, RU1 m' c⟩, ⟨Cert.ReferenceIdeal.S100000x64, RU2 m' c⟩, ⟨Cert.ReferenceIdeal.S100000x64, RU3 m' c⟩]
        Cert.ReferenceIdeal.Gen.concatenates_S100000x64_S100000x64_S100000x64_S100000x192_d1 (ix2 n k))
      (fun k j => (m' ((c.tc : Thread Cert.ReferenceIdeal.nD Cert.ReferenceIdeal.τ).loc Cert.ReferenceIdeal.main_arg13) : Arr 192 64) (ix2 k j))
      (fun k j => (m' ((c.tc : Thread Cert.ReferenceIdeal.nD Cert.ReferenceIdeal.τ).loc Cert.ReferenceIdeal.main_arg13) : Arr 192 64) (ix2 (⟨k.val, by omega⟩ : Fin 192) j))
      (fun k j => (m' ((c.tc : Thread Cert.ReferenceIdeal.nD Cert.ReferenceIdeal.τ).loc Cert.ReferenceIdeal.main_arg13) : Arr 192 64) (ix2 (⟨64 + k.val, by omega⟩ : Fin 192) j))
      (fun k j => (m' ((c.tc : Thread Cert.ReferenceIdeal.nD Cert.ReferenceIdeal.τ).loc Cert.ReferenceIdeal.main_arg13) : Arr 192 64) (ix2 (⟨64 + 64 + k.val, by omega⟩ : Fin 192) j))
      (fun j => (m' ((c.tc : Thread Cert.ReferenceIdeal.nD Cert.ReferenceIdeal.τ).loc Cert.ReferenceIdeal.main_arg14) : Vec1 64) (ix1 j))
      (fun n k => concat3_apply0 _ _ _ _ n k) (fun n k => concat3_apply1 _ _ _ _ n k)
      (fun n k => concat3_apply2 _ _ _ _ n k) (fun _ _ => rfl) (fun _ _ => rfl) (fun _ _ => rfl) n j
  · funext i
    obtain ⟨n, j, rfl⟩ : ∃ (n : Fin 20000) (j : Fin 64), i = ix2 n j := ⟨i 0, i 1, eq_ix2 i⟩
    rw [H.KHM_at m ρ c n j, H.RHM_at m' c n j, h1m, h2m, h3m, ← a15, ← a16]
    exact proj3_stage (fun n k => RM1 m' c (ix2 n k)) (fun n k => RM2 m' c (ix2 n k))
      (fun n k => RM3 m' c (ix2 n k))
      (fun n k => concatenate Cert.ReferenceIdeal.S20000x192 1
        [⟨Cert.ReferenceIdeal.S20000x64, RM1 m' c⟩, ⟨Cert.ReferenceIdeal.S20000x64, RM2 m' c⟩, ⟨Cert.ReferenceIdeal.S20000x64, RM3 m' c⟩]
        Cert.ReferenceIdeal.Gen.concatenates_S20000x64_S20000x64_S20000x64_S20000x192_d1 (ix2 n k))
      (fun k j => (m' ((c.tc : Thread Cert.ReferenceIdeal.nD Cert.ReferenceIdeal.τ).loc Cert.ReferenceIdeal.main_arg15) : Arr 192 64) (ix2 k j))
      (fun k j => (m' ((c.tc : Thread Cert.ReferenceIdeal.nD Cert.ReferenceIdeal.τ).loc Cert.ReferenceIdeal.main_arg15) : Arr 192 64) (ix2 (⟨k.val, by omega⟩ : Fin 192) j))
      (fun k j => (m' ((c.tc : Thread Cert.ReferenceIdeal.nD Cert.ReferenceIdeal.τ).loc Cert.ReferenceIdeal.main_arg15) : Arr 192 64) (ix2 (⟨64 + k.val, by omega⟩ : Fin 192) j))
      (fun k j => (m' ((c.tc : Thread Cert.ReferenceIdeal.nD Cert.ReferenceIdeal.τ).loc Cert.ReferenceIdeal.main_arg15) : Arr 192 64) (ix2 (⟨64 + 64 + k.val, by omega⟩ : Fin 192) j))
      (fun j => (m' ((c.tc : Thread Cert.ReferenceIdeal.nD Cert.ReferenceIdeal.τ).loc Cert.ReferenceIdeal.main_arg16) : Vec1 64) (ix1 j))
      (fun n k => concat3_apply0 _ _ _ _ n k) (fun n k => concat3_apply1 _ _ _ _ n k)
      (fun n k => concat3_apply2 _ _ _ _ n k) (fun _ _ => rfl) (fun _ _ => rfl) (fun _ _ => rfl) n j

end Cert.Bridge

end
-- ==== Proof.KI.H8.lean ====
/-
  The host operations before the ninth kernel launch: the label edges' endpoint rows gathered out of the two projected
  node arrays (negative node numbers wrapped around first; the gathers stay the library's operation), the first
  classifier matrix `[128, 64]` cut into its two stretches of `64` rows, and its bias as a row.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- A list of half a million node numbers, the negative ones moved up by `n`, as a column. -/
abbrev wrapLabels (n : BitVec 32) (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 n))) idx)

/-- The projected user rows at the label edges' users. -/
theorem read_main_v172 (W : Valuation τ sig (Elt F)) :
    (StableHlo.after (hostOps8 (F := F)) W (Proc.devRef .tc main_v172) : FVec F S500000x64 .bf16)
      = Host.gather gather_S100000x64_S500000x1_S500000x64_1_0_n_n_0_1_164
          (W (Proc.devRef .tc main_v160) : FVec F S100000x64 .bf16)
          (wrapLabels 100000#32 (W (Proc.devRef .tc main_arg4) : IVec S500000 32)) := by
  dsimp only [hostOps8]; after_results_simp <;> rfl

/-- The projected movie rows at the label edges' movies. -/
theorem read_main_v179 (W : Valuation τ sig (Elt F)) :
    (StableHlo.after (hostOps8 (F := F)) W (Proc.devRef .tc main_v179) : FVec F S500000x64 .bf16)
      = Host.gather gather_S20000x64_S500000x1_S500000x64_1_0_n_n_0_1_164
          (W (Proc.devRef .tc main_v165) : FVec F S20000x64 .bf16)
          (wrapLabels 20000#32 (W (Proc.devRef .tc main_arg5) : IVec S500000 32)) := by
  dsimp only [hostOps8]; after_results_simp <;> rfl

/-- Rows 0 … 63 of the first classifier matrix. -/
theorem read_main_v180 (W : Valuation τ sig (Elt F)) :
    (StableHlo.after (hostOps8 (F := F)) W (Proc.devRef .tc main_v180) : FVec F S64x64 .f32)
      = extractStridedSlice S64x64 ![0, 0] (W (Proc.devRef .tc main_arg17) : FVec F S128x64 .f32) slices_S128x64_S64x64_0_0 := by
  dsimp only [hostOps8]; after_results_simp <;> rfl

theorem read_main_v180_apply (W : Valuation τ sig (Elt F)) (k j : Fin 64) :
    (StableHlo.after (hostOps8 (F := F)) W (Proc.devRef .tc main_v180) : FVec F S64x64 .f32) (ix2 k j)
      = (W (Proc.devRef .tc main_arg17) : FVec F S128x64 .f32) (ix2 (⟨0 + k.val, by omega⟩ : Fin 128) j) := by
  rw [read_main_v180]
  exact slice2_axis0_apply 0 _ _ k j _ rfl

/-- Rows 64 … 127 of the first classifier matrix. -/
theorem read_main_v181 (W : Valuation τ sig (Elt F)) :
    (StableHlo.after (hostOps8 (F := F)) W (Proc.devRef .tc main_v181) : FVec F S64x64 .f32)
      = extractStridedSlice S64x64 ![64, 0] (W (Proc.devRef .tc main_arg17) : FVec F S128x64 .f32) slices_S128x64_S64x64_64_0 := by
  dsimp only [hostOps8]; after_results_simp <;> rfl

theorem read_main_v181_apply (W : Valuation τ sig (Elt F)) (k j : Fin 64) :
    (StableHlo.after (hostOps8 (F := F)) W (Proc.devRef .tc main_v181) : FVec F S64x64 .f32) (ix2 k j)
      = (W (Proc.devRef .tc main_arg17) : FVec F S128x64 .f32) (ix2 (⟨64 + k.val, by omega⟩ : Fin 128) j) := by
  rw [read_main_v181]
  exact slice2_axis0_apply 64 _ _ k j _ rfl

/-- The first classifier bias, as a row. -/
theorem read_main_v182 (W : Valuation τ sig (Elt F)) :
    (StableHlo.after (hostOps8 (F := F)) W (Proc.devRef .tc main_v182) : FVec F S1x64 .f32)
      = shapeCast S1x64 (W (Proc.devRef .tc main_arg18) : FVec F S64 .f32) shapeCasts_S64_S1x64 := by
  dsimp only [hostOps8]; after_results_simp <;> rfl

theorem read_main_v182_apply (W : Valuation τ sig (Elt F)) (u : Fin 1) (j : Fin 64) :
    (StableHlo.after (hostOps8 (F := F)) W (Proc.devRef .tc main_v182) : FVec F S1x64 .f32) (ix2 u j)
      = (W (Proc.devRef .tc main_arg18) : FVec F S64 .f32) (ix1 j) := by
  rw [read_main_v182]
  exact shapeCast_a_1a_apply _ _ u j

end Cert.KernelIdeal.HostRead

end
-- ==== Proof.Math.KernelForms2.lean ====
/-
  Two more row-wise stages of the network as functions of whole arrays of extended reals, entry by entry, with
  their column statistics.

  * The first stage of the edge classifier: row `n` of the output is the row of source features times one 64×64
    weight, plus the row of destination features times another, plus the bias row.
  * Its second stage: each entry of row `n` is normalised with its column's batch mean and variance and clamped
    below at zero (`bnReluEntry`); the row then meets the 64×32 weight, and the bias row is added.

  Every sum is the plain finite sum over the contracted axis, in the extended reals. The number of rows is a
  parameter.
-/
import proofs.«176278_j29592324669622_2_alg».proof.Proof.Math.KernelForms

noncomputable section

namespace Cert.Bridge

open Idealize.ShloMosaic Idealize.ShloMosaic.ValueIdx

/-- The affine map of two feature arrays on `R` rows: `x₀ · W₀ + x₁ · W₁ + b`, entry by entry. -/
def affine2Form {R : Nat} (x0 x1 : (⟨2, ![R, 64]⟩ : Shape).Idx → EReal) (W0 W1 : (⟨2, ![64, 64]⟩ : Shape).Idx → EReal)
    (b : (⟨2, ![1, 64]⟩ : Shape).Idx → EReal) : (⟨2, ![R, 64]⟩ : Shape).Idx → EReal := fun i =>
  ((∑ k : Fin 64, x0 (ix2 (i 0) k) * W0 (ix2 k (i 1))) + (∑ k : Fin 64, x1 (ix2 (i 0) k) * W1 (ix2 k (i 1))))
    + b (ix2 (0 : Fin 1) (i 1))

theorem affine2Form_ix2 {R : Nat} (x0 x1 : (⟨2, ![R, 64]⟩ : Shape).Idx → EReal) (W0 W1 : (⟨2, ![64, 64]⟩ : Shape).Idx → EReal)
    (b : (⟨2, ![1, 64]⟩ : Shape).Idx → EReal) (n : Fin R) (j : Fin 64) :
    affine2Form x0 x1 W0 W1 b (ix2 n j)
      = ((∑ k : Fin 64, x0 (ix2 n k) * W0 (ix2 k j)) + (∑ k : Fin 64, x1 (ix2 n k) * W1 (ix2 k j)))
        + b (ix2 (0 : Fin 1) j) := rfl

/-- The normalised, clamped rows of a 64-column array times a 64×32 weight, plus the bias row, entry by entry. -/
def bnAffine32Form {R : Nat} (h : (⟨2, ![R, 64]⟩ : Shape).Idx → EReal) (g β μ v : (⟨2, ![1, 64]⟩ : Shape).Idx → EReal)
    (W : (⟨2, ![64, 32]⟩ : Shape).Idx → EReal) (b : (⟨2, ![1, 32]⟩ : Shape).Idx → EReal) :
    (⟨2, ![R, 32]⟩ : Shape).Idx → EReal := fun i =>
  (∑ k : Fin 64, bnReluEntry (h (ix2 (i 0) k)) (g (ix2 (0 : Fin 1) k)) (β (ix2 (0 : Fin 1) k)) (μ (ix2 (0 : Fin 1) k))
        (v (ix2 (0 : Fin 1) k)) * W (ix2 k (i 1)))
    + b (ix2 (0 : Fin 1) (i 1))

theorem bnAffine32Form_ix2 {R : Nat} (h : (⟨2, ![R, 64]⟩ : Shape).Idx → EReal) (g β μ v : (⟨2, ![1, 64]⟩ : Shape).Idx → EReal)
    (W : (⟨2, ![64, 32]⟩ : Shape).Idx → EReal) (b : (⟨2, ![1, 32]⟩ : Shape).Idx → EReal) (n : Fin R) (j : Fin 32) :
    bnAffine32Form h g β μ v W b (ix2 n j)
      = (∑ k : Fin 64, bnReluEntry (h (ix2 n k)) (g (ix2 (0 : Fin 1) k)) (β (ix2 (0 : Fin 1) k)) (μ (ix2 (0 : Fin 1) k))
            (v (ix2 (0 : Fin 1) k)) * W (ix2 k j))
        + b (ix2 (0 : Fin 1) j) := rfl

/-- The column sums of an array, as a one-row array. -/
def colSumForm {R C : Nat} (G : (⟨2, ![R, C]⟩ : Shape).Idx → EReal) : (⟨2, ![1, C]⟩ : Shape).Idx → EReal :=
  fun i => ∑ r : Fin R, G (ix2 r (i 1))

/-- The column sums of squares of an array, as a one-row array. -/
def colSqForm {R C : Nat} (G : (⟨2, ![R, C]⟩ : Shape).Idx → EReal) : (⟨2, ![1, C]⟩ : Shape).Idx → EReal :=
  fun i => ∑ r : Fin R, G (ix2 r (i 1)) * G (ix2 r (i 1))

end Cert.Bridge

end
-- ==== Proof.KI.VPay2.lean ====
/-
  The stored values of the two kernels that keep running column statistics, read at one entry, at the extended reals.

  Each body stores one block whose value is a fixed expression of the blocks it loaded, and raises two one-row
  accumulators by the block's column sums and column sums of squares. At the extended reals a change of float format
  is the identity, a matrix product accumulated into zero is the plain sum over the contracted axis, and a reduction
  over the rows that keeps a unit axis is, at column `q`, the plain sum of the column.
-/
import proofs.«176278_j29592324669622_2_alg».proof.Proof.Gen.KernelIdeal.Skeleton
import proofs.«176278_j29592324669622_2_alg».proof.Proof.LibDotRead
import proofs.«176278_j29592324669622_2_alg».proof.Proof.Math.KernelForms2
import Idealize.ShloMosaic.Lib.Pipeline.Value
import Idealize.ShloMosaic.Lib.ValueLayout

set_option maxRecDepth 16384

noncomputable section

namespace Cert.KernelIdeal.HandValue

open Cert.KernelIdeal Cert.KernelIdeal.Gen Cert.Bridge
open Idealize.ShloMosaic Idealize.ShloMosaic.ValueIdx

/-! ## The reduced index with its row put back -/

/-- The reduced index `q` of an `[m, n]` array summed over its rows, with row `k` put back, is `(k, q)`. -/
theorem lift_rows {m n : Nat} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- The column sums of an `[m, n]` array of extended reals, kept as a `[1, n]` row, read at column `q`. -/
theorem colsum_keep_apply {m n : Nat} (src : FVec Ideal ⟨2, ![m, n]⟩ .f32)
    (h : (⟨2, ![m, n]⟩ : Shape).Reduces [0] (⟨1, ![n]⟩ : Shape))
    (hφ : FKind.Formats FTy.f32) (hacc : (0x00000000#32 : BitVec FTy.f32.bits) = FKind.add.neutral FTy.f32 hφ)
    (hc : (⟨1, ![n]⟩ : Shape).ShapeCasts ⟨2, ![1, n]⟩) (q : Fin n) :
    (shapeCast ⟨2, ![1, n]⟩ (multiReduction .add [0] ⟨1, ![n]⟩ src 0x00000000#32 h hφ hacc) hc (ix2 (0 : Fin 1) q) : EReal)
      = ∑ r : Fin m, src (ix2 r q) := by
  refine (shapeCast_a_1a_apply _ hc 0 q).trans ?_
  refine (Ideal.multiReduction_add_single src 0x00000000#32 h hφ hacc (ix1 q)).trans ?_
  exact Finset.sum_congr rfl fun k _ => congrArg src (lift_rows h q k)

/-! ## Region 8 -/

/-- Entry `(r, q)` of the block the first stage's kernel stores. -/
theorem affine2_pay_apply (v3 v5 : FVec Ideal S5000x64 .bf16) (v7 v10 : FVec Ideal S64x64 .f32) (v16 : FVec Ideal S1x64 .f32)
    (r : Fin 5000) (q : Fin 64) :
    (k8_pay4 (F := Ideal) v3 v5 v7 v10 v16 (ix2 r q) : EReal)
      = ((∑ k : Fin 64, v3 (ix2 r k) * v7 (ix2 k q)) + (∑ k : Fin 64, v5 (ix2 r k) * v10 (ix2 k q)))
          + v16 (ix2 (0 : Fin 1) q) := by
  unfold k8_pay4
  simp only [shapeCast_self]
  have e1 := DotRead.matmul_plain_zero_apply 5000 64 64 none v3 (truncf .bf16 v7 bitsLt_bf16_f32) r q
  have e2 := DotRead.matmul_plain_zero_apply 5000 64 64 none v5 (truncf .bf16 v10 bitsLt_bf16_f32) r q
  have e3 := broadcastTo_1b_ab_apply v16 broadcasts_S1x64_S5000x64 r q
  exact congrArg₂ (· + ·) (congrArg₂ (· + ·) e1 e2) e3

/-- The first accumulator after a point, at column `q`: what it held plus the point's column sum. -/
theorem sum8_pay_apply (v3 v5 : FVec Ideal S5000x64 .bf16) (v7 v10 : FVec Ideal S64x64 .f32) (v16 v21 : FVec Ideal S1x64 .f32)
    (q : Fin 64) :
    (k8_pay5 (F := Ideal) v3 v5 v7 v10 v16 v21 (ix2 (0 : Fin 1) q) : EReal)
      = v21 (ix2 (0 : Fin 1) q) + ∑ r : Fin 5000, k8_pay4 (F := Ideal) v3 v5 v7 v10 v16 (ix2 r q) := by
  unfold k8_pay5
  simp only [shapeCast_self]
  exact congrArg (v21 (ix2 (0 : Fin 1) q) + ·) (colsum_keep_apply (m := 5000) (n := 64) _ _ _ _ _ q)

/-- The second accumulator after a point, at column `q`: what it held plus the point's column sum of squares. -/
theorem sq8_pay_apply (v3 v5 : FVec Ideal S5000x64 .bf16) (v7 v10 : FVec Ideal S64x64 .f32) (v16 v28 : FVec Ideal S1x64 .f32)
    (q : Fin 64) :
    (k8_pay1 (F := Ideal) v28 (k8_pay6 (F := Ideal) v3 v5 v7 v10 v16) (ix2 (0 : Fin 1) q) : EReal)
      = v28 (ix2 (0 : Fin 1) q) + ∑ r : Fin 5000, k8_pay4 (F := Ideal) v3 v5 v7 v10 v16 (ix2 r q) * k8_pay4 (F := Ideal) v3 v5 v7 v10 v16 (ix2 r q) := by
  unfold k8_pay1 k8_pay6
  simp only [shapeCast_self]
  exact congrArg (v28 (ix2 (0 : Fin 1) q) + ·) (colsum_keep_apply (m := 5000) (n := 64) _ _ _ _ _ q)

/-- The accumulators are zeroed to the extended real `0`. -/
theorem zero8_2_apply (i : S1x64.Idx) : (k8_pay2 (F := Ideal) i : EReal) = 0 := by
  unfold k8_pay2; simp only [shapeCast_self]; exact Ideal.ofBits_zero_f32
theorem zero8_3_apply (i : S1x64.Idx) : (k8_pay3 (F := Ideal) i : EReal) = 0 := by
  unfold k8_pay3; simp only [shapeCast_self]; exact Ideal.ofBits_zero_f32

/-! ## Region 9 -/

/-- The normalised, clamped entry at equal arguments. -/
theorem bnRelu_congr_at {h h' g g' β β' μ μ' v v' : EReal} (e0 : h = h') (e1 : g = g') (e2 : β = β') (e3 : μ = μ') (e4 : v = v') :
    bnReluEntry h g β μ v = bnReluEntry h' g' β' μ' v' := by
  subst e0 e1 e2 e3 e4; rfl

/-- Entry `(r, j)` of the block the second stage's kernel stores. -/
theorem bn32_pay_apply (v3 : FVec Ideal S5000x64 .f32) (v5 v7 v9 v11 : FVec Ideal S1x64 .f32) (v27 : FVec Ideal S64x32 .f32)
    (v30 : FVec Ideal S1x32 .f32) (r : Fin 5000) (j : Fin 32) :
    (k9_pay5 (F := Ideal) v3 v5 v7 v9 v11 v27 v30 (ix2 r j) : EReal)
      = (∑ k : Fin 64, bnReluEntry (v3 (ix2 r k)) (v5 (ix2 (0 : Fin 1) k)) (v7 (ix2 (0 : Fin 1) k)) (v9 (ix2 (0 : Fin 1) k))
            (v11 (ix2 (0 : Fin 1) k)) * v27 (ix2 k j))
        + v30 (ix2 (0 : Fin 1) j) := by
  unfold k9_pay5
  simp only [shapeCast_self]
  refine (congrArg₂ (· + ·) (DotRead.matmul_plain_zero_apply 5000 64 32 none _ _ r j)
    (broadcastTo_1b_ab_apply v30 broadcasts_S1x32_S5000x32 r j)).trans ?_
  refine congrArg (· + v30 (ix2 (0 : Fin 1) j)) (Finset.sum_congr rfl fun k _ => ?_)
  have b5 := broadcastTo_1b_ab_apply v5 broadcasts_S1x64_S5000x64 r k
  have b7 := broadcastTo_1b_ab_apply v7 broadcasts_S1x64_S5000x64 r k
  have b9 := broadcastTo_1b_ab_apply v9 broadcasts_S1x64_S5000x64 r k
  have b11 := broadcastTo_1b_ab_apply (rsqrt (addf v11 (broadcast S1x64 (FloatOps.ofBits (F := Ideal) .f32 0x3727C5AC#32))))
    broadcasts_S1x64_S5000x64 r k
  unfold bnReluEntry
  exact congrArg (· * v27 (ix2 k j))
    (congrArg₂ max (congrArg₂ (· + ·) (congrArg₂ (· * ·) (congrArg₂ (· * ·) b5 (congrArg (v3 (ix2 r k) - ·) b9)) b11) b7) rfl)

/-- The first accumulator after a point, at column `q`: what it held plus the point's column sum. -/
theorem sum9_pay_apply (v33 : FVec Ideal S5000x32 .f32) (v35 : FVec Ideal S1x32 .f32) (q : Fin 32) :
    (k9_pay1 (F := Ideal) v33 v35 (ix2 (0 : Fin 1) q) : EReal) = v35 (ix2 (0 : Fin 1) q) + ∑ r : Fin 5000, v33 (ix2 r q) := by
  unfold k9_pay1
  simp only [shapeCast_self]
  exact congrArg (v35 (ix2 (0 : Fin 1) q) + ·) (colsum_keep_apply (m := 5000) (n := 32) _ _ _ _ _ q)

/-- The second accumulator after a point, at column `q`: what it held plus the point's column sum of squares. -/
theorem sq9_pay_apply (v33 : FVec Ideal S5000x32 .f32) (v42 : FVec Ideal S1x32 .f32) (q : Fin 32) :
    (k9_pay2 (F := Ideal) v33 v42 (ix2 (0 : Fin 1) q) : EReal) = v42 (ix2 (0 : Fin 1) q) + ∑ r : Fin 5000, v33 (ix2 r q) * v33 (ix2 r q) := by
  unfold k9_pay2
  simp only [shapeCast_self]
  exact congrArg (v42 (ix2 (0 : Fin 1) q) + ·) (colsum_keep_apply (m := 5000) (n := 32) _ _ _ _ _ q)

theorem zero9_3_apply (i : S1x32.Idx) : (k9_pay3 (F := Ideal) i : EReal) = 0 := by
  unfold k9_pay3; simp only [shapeCast_self]; exact Ideal.ofBits_zero_f32
theorem zero9_4_apply (i : S1x32.Idx) : (k9_pay4 (F := Ideal) i : EReal) = 0 := by
  unfold k9_pay4; simp only [shapeCast_self]; exact Ideal.ofBits_zero_f32

end Cert.KernelIdeal.HandValue

end
-- ==== Proof.KI.V8.lean ====
/- The value of pipeline 8 of @main at the extended reals: after the region its first output array is the affine map
   of the two feature arrays the region found — each row one feature row times one weight plus the other feature row
   times the other weight plus the bias row —, its two last output arrays are, column by column, the sum and the sum
   of squares of that array's column, and every input array is unchanged. Point `t` of the grid writes back rows
   `5000 t … 5000 t + 4999` of the first output and raises the two accumulators by the block's column sums; the last
   point writes the accumulators back. -/
import proofs.«176278_j29592324669622_2_alg».proof.Proof.KI.R8
import proofs.«176278_j29592324669622_2_alg».proof.Proof.KI.VPay2
import proofs.«176278_j29592324669622_2_alg».proof.Proof.Math.Stages
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz8 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0 :=
  (by decide +kernel : ∀ t : Fin grid8.N, _)

/-- Row `r` of row block `t`, as a row of the tall array. -/
def row8 (t : Fin cfg8.N) (r : Fin 5000) : Fin 500000 :=
  ⟨t.val * 5000 + r.val, by have h : t.val < 100 := Nat.lt_of_lt_of_eq t.isLt N_8; have := r.isLt; omega⟩

/-- Window 0's block at point `t` is rows `5000 t … 5000 t + 4999` of its array. -/
theorem iblk8_0_apply (c : Dev nD) (t : Fin cfg8.N) (r : Fin 5000) (k : Fin 64) :
    (iblk8 V c 0 t : FVec Ideal S5000x64 .bf16) (ix2 r k) = (V c main_v172 : S500000x64.Idx → EReal) (ix2 (row8 t r) k) := by
  obtain ⟨h0a, h0b, h1a, h1b, h2a, h2b, h3a, h3b, h4a, h4b, h5a, h5b, h6a, h6b, h7a, h7b⟩ := idx8 t
  unfold iblk8
  rw [View.read_apply]
  show V c main_v172 _ = V c main_v172 _
  congr 1
  funext a; apply Fin.ext
  match a with
  | ⟨0, _⟩ => show win8_0.index t (0 : Fin 2) * 5000 + 1 * r.val = t.val * 5000 + r.val; rw [h0a]; omega
  | ⟨1, _⟩ => show win8_0.index t (1 : Fin 2) * 64 + 1 * k.val = k.val; rw [h0b]; omega

/-- Window 1's block at point `t` is rows `5000 t … 5000 t + 4999` of its array. -/
theorem iblk8_1_apply (c : Dev nD) (t : Fin cfg8.N) (r : Fin 5000) (k : Fin 64) :
    (iblk8 V c 1 t : FVec Ideal S5000x64 .bf16) (ix2 r k) = (V c main_v179 : S500000x64.Idx → EReal) (ix2 (row8 t r) k) := by
  obtain ⟨h0a, h0b, h1a, h1b, h2a, h2b, h3a, h3b, h4a, h4b, h5a, h5b, h6a, h6b, h7a, h7b⟩ := idx8 t
  unfold iblk8
  rw [View.read_apply]
  show V c main_v179 _ = V c main_v179 _
  congr 1
  funext a; apply Fin.ext
  match a with
  | ⟨0, _⟩ => show win8_1.index t (0 : Fin 2) * 5000 + 1 * r.val = t.val * 5000 + r.val; rw [h1a]; omega
  | ⟨1, _⟩ => show win8_1.index t (1 : Fin 2) * 64 + 1 * k.val = k.val; rw [h1b]; omega

/-- Window 2's block at every point is its whole array. -/
theorem iblk8_2_apply (c : Dev nD) (t : Fin cfg8.N) (p : Fin 64) (k : Fin 64) :
    (iblk8 V c 2 t : FVec Ideal S64x64 .f32) (ix2 p k) = (V c main_v180 : S64x64.Idx → EReal) (ix2 p k) := by
  obtain ⟨h0a, h0b, h1a, h1b, h2a, h2b, h3a, h3b, h4a, h4b, h5a, h5b, h6a, h6b, h7a, h7b⟩ := idx8 t
  unfold iblk8
  rw [View.read_apply]
  show V c main_v180 _ = V c main_v180 _
  congr 1
  funext a; apply Fin.ext
  match a with
  | ⟨0, _⟩ => show win8_2.index t (0 : Fin 2) * 64 + 1 * p.val = p.val; rw [h2a]; omega
  | ⟨1, _⟩ => show win8_2.index t (1 : Fin 2) * 64 + 1 * k.val = k.val; rw [h2b]; omega

/-- Window 3's block at every point is its whole array. -/
theorem iblk8_3_apply (c : Dev nD) (t : Fin cfg8.N) (p : Fin 64) (k : Fin 64) :
    (iblk8 V c 3 t : FVec Ideal S64x64 .f32) (ix2 p k) = (V c main_v181 : S64x64.Idx → EReal) (ix2 p k) := by
  obtain ⟨h0a, h0b, h1a, h1b, h2a, h2b, h3a, h3b, h4a, h4b, h5a, h5b, h6a, h6b, h7a, h7b⟩ := idx8 t
  unfold iblk8
  rw [View.read_apply]
  show V c main_v181 _ = V c main_v181 _
  congr 1
  funext a; apply Fin.ext
  match a with
  | ⟨0, _⟩ => show win8_3.index t (0 : Fin 2) * 64 + 1 * p.val = p.val; rw [h3a]; omega
  | ⟨1, _⟩ => show win8_3.index t (1 : Fin 2) * 64 + 1 * k.val = k.val; rw [h3b]; omega

/-- Window 4's block at every point is its whole array. -/
theorem iblk8_4_apply (c : Dev nD) (t : Fin cfg8.N) (p : Fin 1) (k : Fin 64) :
    (iblk8 V c 4 t : FVec Ideal S1x64 .f32) (ix2 p k) = (V c main_v182 : S1x64.Idx → EReal) (ix2 p k) := by
  obtain ⟨h0a, h0b, h1a, h1b, h2a, h2b, h3a, h3b, h4a, h4b, h5a, h5b, h6a, h6b, h7a, h7b⟩ := idx8 t
  unfold iblk8
  rw [View.read_apply]
  show V c main_v182 _ = V c main_v182 _
  congr 1
  funext a; apply Fin.ext
  match a with
  | ⟨0, _⟩ => show win8_4.index t (0 : Fin 2) * 1 + 1 * p.val = p.val; rw [h4a]; omega
  | ⟨1, _⟩ => show win8_4.index t (1 : Fin 2) * 64 + 1 * k.val = k.val; rw [h4b]; omega

/-! ## What a point stores -/

/-- Entry `(r, q)` of the block the body stores at point `t` is entry `(5000 t + r, q)` of the closed form of the
    arrays as the region finds them. -/
theorem stored8_apply (c : Dev nD) (t : Fin cfg8.N) (r : Fin 5000) (q : Fin 64) :
    (k8_pay4 (F := Ideal) (iblk8 V c 0 t) (iblk8 V c 1 t) (iblk8 V c 2 t) (iblk8 V c 3 t) (iblk8 V c 4 t) (ix2 r q) : EReal)
      = affine2Form (V c main_v172) (V c main_v179) (V c main_v180) (V c main_v181) (V c main_v182) (ix2 (row8 t r) q) := by
  refine ((affine2_pay_apply _ _ _ _ _ r q).trans ?_).trans (affine2Form_ix2 _ _ _ _ _ (row8 t r) q).symm
  exact congrArg₂ (· + ·) (congrArg₂ (· + ·)
      (Finset.sum_congr rfl fun k _ => congrArg₂ (· * ·) (iblk8_0_apply V c t r k) (iblk8_2_apply V c t k q))
      (Finset.sum_congr rfl fun k _ => congrArg₂ (· * ·) (iblk8_1_apply V c t r k) (iblk8_3_apply V c t k q)))
      (iblk8_4_apply V c t 0 q)

/-- What point `t` writes back to the first output window's array is block `t` of the closed form. -/
theorem flushed8_5_eq (c : Dev nD) (t : Fin cfg8.N) :
    (dat8 (F := Ideal) V c).flushed 5 t = ((cfg8.win 5).blk t).view.read (Elt Ideal) (affine2Form (V c main_v172) (V c main_v179) (V c main_v180) (V c main_v181) (V c main_v182)) := by
  show (cfg8.win 5).cut (grid8.coords t) ((dat8 V c).after 5 t) = _
  rw [after8_5]
  unfold acc8
  obtain ⟨h0a, h0b, h1a, h1b, h2a, h2b, h3a, h3b, h4a, h4b, h5a, h5b, h6a, h6b, h7a, h7b⟩ := idx8 t
  funext j
  obtain ⟨r, q, rfl⟩ : ∃ (r : Fin 5000) (q : Fin 64), j = ix2 r q := ⟨j 0, j 1, eq_ix2 j⟩
  refine (stored8_apply V c t r q).trans ?_
  rw [View.read_apply]
  refine congrArg (affine2Form (V c main_v172) (V c main_v179) (V c main_v180) (V c main_v181) (V c main_v182)) ?_
  funext a; apply Fin.ext
  match a with
  | ⟨0, _⟩ => show t.val * 5000 + r.val = win8_5.index t (0 : Fin 2) * 5000 + 1 * r.val; rw [h5a]; omega
  | ⟨1, _⟩ => show q.val = win8_5.index t (1 : Fin 2) * 64 + 1 * q.val; rw [h5b]; omega

/-! ## The first output array after the run -/

/-- An index of the array is in point `t`'s block iff each coordinate is in the block's range on its axis. -/
theorem mem_blk8_5 (t : Fin cfg8.N) (i : S500000x64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v183_0).slice (win8_5.rect t)).set ↔ _
  rw [View.set_slice_whole, Rect.mem_set_unit]
  exact Iff.rfl

/-- The row blocks tile the array: row `n` is in the block of point `n / 5000`. -/
theorem covered8_5 (i : S500000x64.Idx) :
    ∃ t : Fin cfg8.N, (cfg8.win 5).flush t = true ∧ i ∈ ((cfg8.win 5).blk t).view.set := by
  have hi0 : (i 0).val < 500000 := (i 0).isLt
  have hi1 : (i 1).val < 64 := (i 1).isLt
  obtain ⟨t, ht⟩ : ∃ t : Fin cfg8.N, t.val = (i 0).val / 5000 :=
    ⟨⟨(i 0).val / 5000, Nat.lt_of_lt_of_eq (show (i 0).val / 5000 < 100 by omega) N_8.symm⟩, rfl⟩
  obtain ⟨h0a, h0b, h1a, h1b, h2a, h2b, h3a, h3b, h4a, h4b, h5a, h5b, h6a, h6b, h7a, h7b⟩ := idx8 t
  refine ⟨t, flush8_5 t, (mem_blk8_5 t i).mpr fun a => ?_⟩
  match a with
  | ⟨0, _⟩ =>
    show win8_5.index t (0 : Fin 2) * 5000 ≤ (i 0).val ∧ (i 0).val < win8_5.index t (0 : Fin 2) * 5000 + 5000
    rw [h5a, ht]; omega
  | ⟨1, _⟩ =>
    show win8_5.index t (1 : Fin 2) * 64 ≤ (i 1).val ∧ (i 1).val < win8_5.index t (1 : Fin 2) * 64 + 64
    rw [h5b]; omega

/-- THE FIRST OUTPUT ARRAY after the region is the closed form of the arrays as the region finds them. -/
theorem arrAt_out8_5 (c : Dev nD) :
    (dat8 (F := Ideal) V c).arrAt 5 cfg8.N = affine2Form (V c main_v172) (V c main_v179) (V c main_v180) (V c main_v181) (V c main_v182) :=
  (dat8 V c).arrAt_eq_of_cover 5 _ (fun t _ => flushed8_5_eq V c t) covered8_5

/-! ## The two accumulators -/

/-- The accumulators after point `t`, at column `q`, as they stand before the next point: zero before the first point. -/
def accS8 (c : Dev nD) (q : Fin 64) : ℕ → EReal
  | 0 => 0
  | n + 1 => if h : n < cfg8.N then (sc8 V c n h).1 (ix2 (0 : Fin 1) q) else 0
def accQ8 (c : Dev nD) (q : Fin 64) : ℕ → EReal
  | 0 => 0
  | n + 1 => if h : n < cfg8.N then (sc8 V c n h).2 (ix2 (0 : Fin 1) q) else 0

theorem accS8_succ (c : Dev nD) (q : Fin 64) (n : ℕ) (h : n < cfg8.N) :
    accS8 V c q (n + 1) = (sc8 V c n h).1 (ix2 (0 : Fin 1) q) := by
  show (if h : n < cfg8.N then (sc8 V c n h).1 (ix2 (0 : Fin 1) q) else 0) = _
  exact dif_pos h
theorem accQ8_succ (c : Dev nD) (q : Fin 64) (n : ℕ) (h : n < cfg8.N) :
    accQ8 V c q (n + 1) = (sc8 V c n h).2 (ix2 (0 : Fin 1) q) := by
  show (if h : n < cfg8.N then (sc8 V c n h).2 (ix2 (0 : Fin 1) q) else 0) = _
  exact dif_pos h

/-- Each point adds its block's column sum to the first accumulator. -/
theorem accS8_step (c : Dev nD) (q : Fin 64) (t : ℕ) (ht : t < 100) :
    accS8 V c q (t + 1) = accS8 V c q t + ∑ r : Fin 5000, (affine2Form (V c main_v172) (V c main_v179) (V c main_v180) (V c main_v181) (V c main_v182)) (ix2 (⟨t * 5000 + r.val, by omega⟩ : Fin 500000) q) := by
  have hN : t < cfg8.N := Nat.lt_of_lt_of_eq ht N_8.symm
  show (if h : t < cfg8.N then (sc8 V c t h).1 (ix2 (0 : Fin 1) q) else 0) = _
  rw [dif_pos hN]
  cases t with
  | zero =>
    show (sum8 V c ⟨0, hN⟩ (k8_pay2 (F := Ideal))) (ix2 (0 : Fin 1) q) = 0 + _
    unfold sum8
    rw [sum8_pay_apply, zero8_2_apply, zero_add, zero_add]
    exact Finset.sum_congr rfl fun r _ => stored8_apply V c ⟨0, hN⟩ r q
  | succ n =>
    show (sum8 V c ⟨n + 1, hN⟩ (sc8 V c n (Nat.lt_of_succ_lt hN)).1) (ix2 (0 : Fin 1) q)
      = (if h : n < cfg8.N then (sc8 V c n h).1 (ix2 (0 : Fin 1) q) else 0) + _
    rw [dif_pos (Nat.lt_of_succ_lt hN)]
    unfold sum8
    rw [sum8_pay_apply]
    exact congrArg (_ + ·) (Finset.sum_congr rfl fun r _ => stored8_apply V c ⟨n + 1, hN⟩ r q)

/-- Each point adds its block's column sum of squares to the second accumulator. -/
theorem accQ8_step (c : Dev nD) (q : Fin 64) (t : ℕ) (ht : t < 100) :
    accQ8 V c q (t + 1) = accQ8 V c q t + ∑ r : Fin 5000,
      (affine2Form (V c main_v172) (V c main_v179) (V c main_v180) (V c main_v181) (V c main_v182)) (ix2 (⟨t * 5000 + r.val, by omega⟩ : Fin 500000) q) * (affine2Form (V c main_v172) (V c main_v179) (V c main_v180) (V c main_v181) (V c main_v182)) (ix2 (⟨t * 5000 + r.val, by omega⟩ : Fin 500000) q) := by
  have hN : t < cfg8.N := Nat.lt_of_lt_of_eq ht N_8.symm
  show (if h : t < cfg8.N then (sc8 V c t h).2 (ix2 (0 : Fin 1) q) else 0) = _
  rw [dif_pos hN]
  cases t with
  | zero =>
    show (sq8 V c ⟨0, hN⟩ (k8_pay3 (F := Ideal))) (ix2 (0 : Fin 1) q) = 0 + _
    unfold sq8
    rw [sq8_pay_apply, zero8_3_apply, zero_add, zero_add]
    exact Finset.sum_congr rfl fun r _ => congrArg₂ (· * ·) (stored8_apply V c ⟨0, hN⟩ r q) (stored8_apply V c ⟨0, hN⟩ r q)
  | succ n =>
    show (sq8 V c ⟨n + 1, hN⟩ (sc8 V c n (Nat.lt_of_succ_lt hN)).2) (ix2 (0 : Fin 1) q)
      = (if h : n < cfg8.N then (sc8 V c n h).2 (ix2 (0 : Fin 1) q) else 0) + _
    rw [dif_pos (Nat.lt_of_succ_lt hN)]
    unfold sq8
    rw [sq8_pay_apply]
    exact congrArg (_ + ·) (Finset.sum_congr rfl fun r _ => congrArg₂ (· * ·) (stored8_apply V c ⟨n + 1, hN⟩ r q) (stored8_apply V c ⟨n + 1, hN⟩ r q))

/-- After the last point the accumulators hold, column by column, the sum and the sum of squares of the closed form's column. -/
theorem sc8_last (c : Dev nD) (t : Fin cfg8.N) (h99 : t.val = 99) (q : Fin 64) :
    (sc8 V c t.val t.isLt).1 (ix2 (0 : Fin 1) q) = colSumForm (affine2Form (V c main_v172) (V c main_v179) (V c main_v180) (V c main_v181) (V c main_v182)) (ix2 (0 : Fin 1) q)
    ∧ (sc8 V c t.val t.isLt).2 (ix2 (0 : Fin 1) q) = colSqForm (affine2Form (V c main_v172) (V c main_v179) (V c main_v180) (V c main_v181) (V c main_v182)) (ix2 (0 : Fin 1) q) := by
  have h := stats_acc (fun n : Fin 500000 => (affine2Form (V c main_v172) (V c main_v179) (V c main_v180) (V c main_v181) (V c main_v182)) (ix2 n q)) (accS8 V c q) (accQ8 V c q) rfl rfl
    (accS8_step V c q) (accQ8_step V c q)
  obtain ⟨n, hn⟩ := t
  obtain rfl : n = 99 := h99
  have e1 : accS8 V c q 100 = (sc8 V c 99 hn).1 (ix2 (0 : Fin 1) q) := accS8_succ V c q 99 hn
  have e2 : accQ8 V c q 100 = (sc8 V c 99 hn).2 (ix2 (0 : Fin 1) q) := accQ8_succ V c q 99 hn
  exact ⟨e1.symm.trans h.1, e2.symm.trans h.2⟩

/-! ## The two last output arrays after the run -/

/-- What the last point writes back to output window 6's array is the whole one-row array of the column sums. -/
theorem flushed8_6_eq (c : Dev nD) (t : Fin cfg8.N) (hf : (cfg8.win 6).flush t = true) :
    (dat8 (F := Ideal) V c).flushed 6 t = ((cfg8.win 6).blk t).view.read (Elt Ideal) (colSumForm (affine2Form (V c main_v172) (V c main_v179) (V c main_v180) (V c main_v181) (V c main_v182))) := by
  have h99 : t.val = 99 := by
    have h1 := (flush8_6 t).mp hf
    have h2 : t.val < 100 := Nat.lt_of_lt_of_eq t.isLt N_8
    omega
  show (cfg8.win 6).cut (grid8.coords t) ((dat8 V c).after 6 t) = _
  rw [after8_6]
  obtain ⟨h0a, h0b, h1a, h1b, h2a, h2b, h3a, h3b, h4a, h4b, h5a, h5b, h6a, h6b, h7a, h7b⟩ := idx8 t
  funext j
  obtain ⟨u, q, rfl⟩ : ∃ (u : Fin 1) (q : Fin 64), j = ix2 u q := ⟨j 0, j 1, eq_ix2 j⟩
  obtain rfl : u = 0 := Subsingleton.elim _ _
  refine ((sc8_last V c t h99 q).1).trans ?_
  rw [View.read_apply]
  congr 1
  funext a; apply Fin.ext
  match a with
  | ⟨0, _⟩ => show (0 : Fin 1).val = win8_6.index t (0 : Fin 2) * 1 + 1 * (0 : Fin 1).val; rw [h6a]; rfl
  | ⟨1, _⟩ => show q.val = win8_6.index t (1 : Fin 2) * 64 + 1 * q.val; rw [h6b]; omega

theorem mem_blk8_6 (t : Fin cfg8.N) (i : S1x64.Idx) :
    i ∈ ((cfg8.win 6).blk t).view.set ↔ ∀ a : Fin 2, win8_6.index t a * S1x64.size a ≤ (i a).val ∧ (i a).val < win8_6.index t a * S1x64.size a + S1x64.size a := by
  show i ∈ ((View.whole main_v183_1).slice (win8_6.rect t)).set ↔ _
  rw [View.set_slice_whole, Rect.mem_set_unit]
  exact Iff.rfl

/-- The last point's block is the whole one-row array. -/
theorem covered8_6 (i : S1x64.Idx) :
    ∃ t : Fin cfg8.N, (cfg8.win 6).flush t = true ∧ i ∈ ((cfg8.win 6).blk t).view.set := by
  have hi0 : (i 0).val < 1 := (i 0).isLt
  have hi1 : (i 1).val < 64 := (i 1).isLt
  obtain ⟨t, ht⟩ : ∃ t : Fin cfg8.N, t.val = 99 := ⟨⟨99, Nat.lt_of_lt_of_eq (by omega) N_8.symm⟩, rfl⟩
  obtain ⟨h0a, h0b, h1a, h1b, h2a, h2b, h3a, h3b, h4a, h4b, h5a, h5b, h6a, h6b, h7a, h7b⟩ := idx8 t
  refine ⟨t, (flush8_6 t).mpr (by rw [ht]), (mem_blk8_6 t i).mpr fun a => ?_⟩
  match a with
  | ⟨0, _⟩ =>
    show win8_6.index t (0 : Fin 2) * 1 ≤ (i 0).val ∧ (i 0).val < win8_6.index t (0 : Fin 2) * 1 + 1
    rw [h6a]; omega
  | ⟨1, _⟩ =>
    show win8_6.index t (1 : Fin 2) * 64 ≤ (i 1).val ∧ (i 1).val < win8_6.index t (1 : Fin 2) * 64 + 64
    rw [h6b]; omega

/-- OUTPUT ARRAY 6 after the region: column by column, the sum of the closed form's column. -/
theorem arrAt_out8_6 (c : Dev nD) :
    (dat8 (F := Ideal) V c).arrAt 6 cfg8.N = colSumForm (affine2Form (V c main_v172) (V c main_v179) (V c main_v180) (V c main_v181) (V c main_v182)) :=
  (dat8 V c).arrAt_eq_of_cover 6 _ (fun t hf => flushed8_6_eq V c t hf) covered8_6

/-- What the last point writes back to output window 7's array is the whole one-row array of the column sums of squares. -/
theorem flushed8_7_eq (c : Dev nD) (t : Fin cfg8.N) (hf : (cfg8.win 7).flush t = true) :
    (dat8 (F := Ideal) V c).flushed 7 t = ((cfg8.win 7).blk t).view.read (Elt Ideal) (colSqForm (affine2Form (V c main_v172) (V c main_v179) (V c main_v180) (V c main_v181) (V c main_v182))) := by
  have h99 : t.val = 99 := by
    have h1 := (flush8_7 t).mp hf
    have h2 : t.val < 100 := Nat.lt_of_lt_of_eq t.isLt N_8
    omega
  show (cfg8.win 7).cut (grid8.coords t) ((dat8 V c).after 7 t) = _
  rw [after8_7]
  obtain ⟨h0a, h0b, h1a, h1b, h2a, h2b, h3a, h3b, h4a, h4b, h5a, h5b, h6a, h6b, h7a, h7b⟩ := idx8 t
  funext j
  obtain ⟨u, q, rfl⟩ : ∃ (u : Fin 1) (q : Fin 64), j = ix2 u q := ⟨j 0, j 1, eq_ix2 j⟩
  obtain rfl : u = 0 := Subsingleton.elim _ _
  refine ((sc8_last V c t h99 q).2).trans ?_
  rw [View.read_apply]
  congr 1
  funext a; apply Fin.ext
  match a with
  | ⟨0, _⟩ => show (0 : Fin 1).val = win8_7.index t (0 : Fin 2) * 1 + 1 * (0 : Fin 1).val; rw [h7a]; rfl
  | ⟨1, _⟩ => show q.val = win8_7.index t (1 : Fin 2) * 64 + 1 * q.val; rw [h7b]; omega

theorem mem_blk8_7 (t : Fin cfg8.N) (i : S1x64.Idx) :
    i ∈ ((cfg8.win 7).blk t).view.set ↔ ∀ a : Fin 2, win8_7.index t a * S1x64.size a ≤ (i a).val ∧ (i a).val < win8_7.index t a * S1x64.size a + S1x64.size a := by
  show i ∈ ((View.whole main_v183_2).slice (win8_7.rect t)).set ↔ _
  rw [View.set_slice_whole, Rect.mem_set_unit]
  exact Iff.rfl

/-- The last point's block is the whole one-row array. -/
theorem covered8_7 (i : S1x64.Idx) :
    ∃ t : Fin cfg8.N, (cfg8.win 7).flush t = true ∧ i ∈ ((cfg8.win 7).blk t).view.set := by
  have hi0 : (i 0).val < 1 := (i 0).isLt
  have hi1 : (i 1).val < 64 := (i 1).isLt
  obtain ⟨t, ht⟩ : ∃ t : Fin cfg8.N, t.val = 99 := ⟨⟨99, Nat.lt_of_lt_of_eq (by omega) N_8.symm⟩, rfl⟩
  obtain ⟨h0a, h0b, h1a, h1b, h2a, h2b, h3a, h3b, h4a, h4b, h5a, h5b, h6a, h6b, h7a, h7b⟩ := idx8 t
  refine ⟨t, (flush8_7 t).mpr (by rw [ht]), (mem_blk8_7 t i).mpr fun a => ?_⟩
  match a with
  | ⟨0, _⟩ =>
    show win8_7.index t (0 : Fin 2) * 1 ≤ (i 0).val ∧ (i 0).val < win8_7.index t (0 : Fin 2) * 1 + 1
    rw [h7a]; omega
  | ⟨1, _⟩ =>
    show win8_7.index t (1 : Fin 2) * 64 ≤ (i 1).val ∧ (i 1).val < win8_7.index t (1 : Fin 2) * 64 + 64
    rw [h7b]; omega

/-- OUTPUT ARRAY 7 after the region: column by column, the sum of squares of the closed form's column. -/
theorem arrAt_out8_7 (c : Dev nD) :
    (dat8 (F := Ideal) V c).arrAt 7 cfg8.N = colSqForm (affine2Form (V c main_v172) (V c main_v179) (V c main_v180) (V c main_v181) (V c main_v182)) :=
  (dat8 V c).arrAt_eq_of_cover 7 _ (fun t hf => flushed8_7_eq V c t hf) covered8_7

/-- Every input array is as the region found it: an input window is never written back. -/
theorem arrAt_in8 (c : Dev nD) (w : Fin cfg8.W) (hw : w ≠ 5 ∧ w ≠ 6 ∧ w ≠ 7) :
    (dat8 (F := Ideal) V c).arrAt w cfg8.N = V c (Pipeline.arrRef spec8 w) := by
  have hin : (cfg8.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h.1
    | ⟨6, _⟩, h => exact absurd rfl h.2.1
    | ⟨7, _⟩, h => exact absurd rfl h.2.2
  exact ((dat8 V c).arrAt_in w hin _).trans (A_eq8 V c w)

end Cert.KernelIdeal.HandValue

end
-- ==== Proof.Bridge.Z1.lean ====
/-
  The first classifier layer before its normalisation.  On the kernel side a row is the label edge's user row against
  the first 64 rows of the weight matrix plus its movie row against the last 64, plus the bias; on the reference side it
  is the concatenated row of 128 entries against the whole matrix, plus the bias.  The user and movie rows are the same
  gathers of the projected features on both sides, so the two agree entry by entry once the projections do; a sum over
  128 positions splits into its two stretches of 64, and nothing need be finite.
-/
import proofs.«176278_j29592324669622_2_alg».proof.Proof.Bridge.Defs
import proofs.«176278_j29592324669622_2_alg».proof.Proof.Bridge.Concat
import proofs.«176278_j29592324669622_2_alg».proof.Proof.KI.Keep
import proofs.«176278_j29592324669622_2_alg».proof.Proof.KI.H8
import proofs.«176278_j29592324669622_2_alg».proof.Proof.KI.V8
import proofs.«176278_j29592324669622_2_alg».proof.Proof.Ref.Arrays
import proofs.«176278_j29592324669622_2_alg».proof.Proof.Math.KernelForms2
import proofs.«176278_j29592324669622_2_alg».proof.Proof.Math.Stages

noncomputable section

namespace Cert.Bridge

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

namespace Z1

/-- The label edges' user rows of the projected features, as the reference gathers them. -/
abbrev labelUserRows : Arr 500000 64 :=
  Host.gather Cert.ReferenceIdeal.gather_S100000x64_S500000x1_S500000x64_1_0_n_n_0_1_164 (RHU m' c)
    (broadcastInDim Cert.ReferenceIdeal.S500000x1 ![0] Cert.ReferenceIdeal.Gen.bcast_S500000_S500000x1_0
      (select (cmpi .slt (m' ((c.tc : Thread Cert.ReferenceIdeal.nD Cert.ReferenceIdeal.τ).loc Cert.ReferenceIdeal.main_arg4) : IVec Cert.ReferenceIdeal.S500000 32) (broadcastInDim Cert.ReferenceIdeal.S500000 ![] Cert.ReferenceIdeal.Gen.bcast_S_S500000 (constantI Cert.ReferenceIdeal.S_ 32 0#32)))
        (addi (m' ((c.tc : Thread Cert.ReferenceIdeal.nD Cert.ReferenceIdeal.τ).loc Cert.ReferenceIdeal.main_arg4) : IVec Cert.ReferenceIdeal.S500000 32) (broadcastInDim Cert.ReferenceIdeal.S500000 ![] Cert.ReferenceIdeal.Gen.bcast_S_S500000 (constantI Cert.ReferenceIdeal.S_ 32 100000#32)))
        (m' ((c.tc : Thread Cert.ReferenceIdeal.nD Cert.ReferenceIdeal.τ).loc Cert.ReferenceIdeal.main_arg4) : IVec Cert.ReferenceIdeal.S500000 32)))

/-- The label edges' movie rows of the projected features, as the reference gathers them. -/
abbrev labelMovieRows : Arr 500000 64 :=
  Host.gather Cert.ReferenceIdeal.gather_S20000x64_S500000x1_S500000x64_1_0_n_n_0_1_164 (RHM m' c)
    (broadcastInDim Cert.ReferenceIdeal.S500000x1 ![0] Cert.ReferenceIdeal.Gen.bcast_S500000_S500000x1_0
      (select (cmpi .slt (m' ((c.tc : Thread Cert.ReferenceIdeal.nD Cert.ReferenceIdeal.τ).loc Cert.ReferenceIdeal.main_arg5) : IVec Cert.ReferenceIdeal.S500000 32) (broadcastInDim Cert.ReferenceIdeal.S500000 ![] Cert.ReferenceIdeal.Gen.bcast_S_S500000 (constantI Cert.ReferenceIdeal.S_ 32 0#32)))
        (addi (m' ((c.tc : Thread Cert.ReferenceIdeal.nD Cert.ReferenceIdeal.τ).loc Cert.ReferenceIdeal.main_arg5) : IVec Cert.ReferenceIdeal.S500000 32) (broadcastInDim Cert.ReferenceIdeal.S500000 ![] Cert.ReferenceIdeal.Gen.bcast_S_S500000 (constantI Cert.ReferenceIdeal.S_ 32 20000#32)))
        (m' ((c.tc : Thread Cert.ReferenceIdeal.nD Cert.ReferenceIdeal.τ).loc Cert.ReferenceIdeal.main_arg5) : IVec Cert.ReferenceIdeal.S500000 32)))

/-- The kernel program's gathered user rows are the reference's, once the users' projections agree. -/
theorem kernel_labelUserRows (hag : Agree m m' c) (hhu : KHU m ρ c = RHU m' c) :
    (Cert.KernelIdeal.Hand.V17 (F := Ideal) m ρ c Cert.KernelIdeal.main_v172 : Arr 500000 64) = labelUserRows m' c := by
  have e160 : Cert.KernelIdeal.Hand.W16 (F := Ideal) m ρ c (Proc.devRef .tc Cert.KernelIdeal.main_v160) = RHU m' c :=
    (Cert.KernelIdeal.Hand.W16_eq_W14 m ρ c Cert.KernelIdeal.main_v160 (by decide) (by decide)).trans hhu
  have a4 : Cert.KernelIdeal.Hand.W16 (F := Ideal) m ρ c (Proc.devRef .tc Cert.KernelIdeal.main_arg4) = m' ((c.tc : Thread Cert.ReferenceIdeal.nD Cert.ReferenceIdeal.τ).loc Cert.ReferenceIdeal.main_arg4) :=
    (Cert.KernelIdeal.Hand.W16_eq_W0 m ρ c Cert.KernelIdeal.main_arg4 (by decide) (by decide) (by decide) (by decide) (by decide) (by decide) (by decide) (by decide) (by decide) (by decide) (by decide) (by decide) (by decide) (by decide) (by decide) (by decide)).trans (hag.2.2.2.2.1).symm
  refine (Cert.KernelIdeal.HostRead.read_main_v172 (Cert.KernelIdeal.Hand.W16 (F := Ideal) m ρ c)).trans ?_
  rw [e160, a4]
  rfl

/-- The kernel program's gathered movie rows are the reference's, once the movies' projections agree. -/
theorem kernel_labelMovieRows (hag : Agree m m' c) (hhm : KHM m ρ c = RHM m' c) :
    (Cert.KernelIdeal.Hand.V17 (F := Ideal) m ρ c Cert.KernelIdeal.main_v179 : Arr 500000 64) = labelMovieRows m' c := by
  have e165 : Cert.KernelIdeal.Hand.W16 (F := Ideal) m ρ c (Proc.devRef .tc Cert.KernelIdeal.main_v165) = RHM m' c := hhm
  have a5 : Cert.KernelIdeal.Hand.W16 (F := Ideal) m ρ c (Proc.devRef .tc Cert.KernelIdeal.main_arg5) = m' ((c.tc : Thread Cert.ReferenceIdeal.nD Cert.ReferenceIdeal.τ).loc Cert.ReferenceIdeal.main_arg5) :=
    (Cert.KernelIdeal.Hand.W16_eq_W0 m ρ c Cert.KernelIdeal.main_arg5 (by decide) (by decide) (by decide) (by decide) (by decide) (by decide) (by decide) (by decide) (by decide) (by decide) (by decide) (by decide) (by decide) (by decide) (by decide) (by decide)).trans (hag.2.2.2.2.2.1).symm
  refine (Cert.KernelIdeal.HostRead.read_main_v179 (Cert.KernelIdeal.Hand.W16 (F := Ideal) m ρ c)).trans ?_
  rw [e165, a5]
  rfl

/-- The reference's first classifier layer at a row and a column: the concatenated row against the whole matrix,
    plus the bias entry. -/
theorem RZ1_at (i : Fin 500000) (j : Fin 64) :
    RZ1 m' c (ix2 i j)
      = (∑ k : Fin 128,
          concatenate Cert.ReferenceIdeal.S500000x128 1
              [⟨Cert.ReferenceIdeal.S500000x64, labelUserRows m' c⟩, ⟨Cert.ReferenceIdeal.S500000x64, labelMovieRows m' c⟩]
              Cert.ReferenceIdeal.Gen.concatenates_S500000x64_S500000x64_S500000x128_d1 (ix2 i k)
            * (m' ((c.tc : Thread Cert.ReferenceIdeal.nD Cert.ReferenceIdeal.τ).loc Cert.ReferenceIdeal.main_arg17) : Arr 128 64) (ix2 k j))
        + (m' ((c.tc : Thread Cert.ReferenceIdeal.nD Cert.ReferenceIdeal.τ).loc Cert.ReferenceIdeal.main_arg18) : Vec1 64) (ix1 j) := by
  show StableHlo.after (Cert.ReferenceIdeal.Hand.ops (F := Ideal)) (fun b => m' (c, b)) (Proc.devRef .tc Cert.ReferenceIdeal.main_v227) (ix2 i j) = _
  rw [Cert.ReferenceIdeal.Hand.read_v227, addf_apply,
    Cert.ReferenceIdeal.Hand.hostDot_apply Cert.ReferenceIdeal.dot_S500000x128_S128x64_S500000x64_1_0_0_1_n_n rfl,
    Cert.ReferenceIdeal.Hand.bcast_rows_apply, Cert.ReferenceIdeal.Hand.bcast_vec_row_apply]
  rfl

/-- The kernel side's weights and bias at an index, in terms of the arguments. -/
theorem kernel_W1_rows (j : Fin 64) :
    (∀ k : Fin 64, Cert.KernelIdeal.Hand.V17 (F := Ideal) m ρ c Cert.KernelIdeal.main_v180 (ix2 k j)
        = (m ((c.tc : Thread Cert.KernelIdeal.nD Cert.KernelIdeal.τ).loc Cert.KernelIdeal.main_arg17) : Arr 128 64) (ix2 (⟨k.val, by omega⟩ : Fin 128) j))
    ∧ (∀ k : Fin 64, Cert.KernelIdeal.Hand.V17 (F := Ideal) m ρ c Cert.KernelIdeal.main_v181 (ix2 k j)
        = (m ((c.tc : Thread Cert.KernelIdeal.nD Cert.KernelIdeal.τ).loc Cert.KernelIdeal.main_arg17) : Arr 128 64) (ix2 (⟨64 + k.val, by omega⟩ : Fin 128) j))
    ∧ Cert.KernelIdeal.Hand.V17 (F := Ideal) m ρ c Cert.KernelIdeal.main_v182 (ix2 (0 : Fin 1) j) = (m ((c.tc : Thread Cert.KernelIdeal.nD Cert.KernelIdeal.τ).loc Cert.KernelIdeal.main_arg18) : Vec1 64) (ix1 j) := by
  have aW : Cert.KernelIdeal.Hand.W16 (F := Ideal) m ρ c (Proc.devRef .tc Cert.KernelIdeal.main_arg17) = m ((c.tc : Thread Cert.KernelIdeal.nD Cert.KernelIdeal.τ).loc Cert.KernelIdeal.main_arg17) :=
    Cert.KernelIdeal.Hand.W16_eq_W0 m ρ c Cert.KernelIdeal.main_arg17 (by decide) (by decide) (by decide) (by decide) (by decide) (by decide) (by decide) (by decide) (by decide) (by decide) (by decide) (by decide) (by decide) (by decide) (by decide) (by decide)
  have aB : Cert.KernelIdeal.Hand.W16 (F := Ideal) m ρ c (Proc.devRef .tc Cert.KernelIdeal.main_arg18) = m ((c.tc : Thread Cert.KernelIdeal.nD Cert.KernelIdeal.τ).loc Cert.KernelIdeal.main_arg18) :=
    Cert.KernelIdeal.Hand.W16_eq_W0 m ρ c Cert.KernelIdeal.main_arg18 (by decide) (by decide) (by decide) (by decide) (by decide) (by decide) (by decide) (by decide) (by decide) (by decide) (by decide) (by decide) (by decide) (by decide) (by decide) (by decide)
  refine ⟨fun k => ?_, fun k => ?_, ?_⟩
  · exact ((Cert.KernelIdeal.HostRead.read_main_v180_apply (Cert.KernelIdeal.Hand.W16 (F := Ideal) m ρ c) k j).trans
      (congrFun aW _)).trans
        (congrArg (fun t : Fin 128 => (m ((c.tc : Thread Cert.KernelIdeal.nD Cert.KernelIdeal.τ).loc Cert.KernelIdeal.main_arg17) : Arr 128 64) (ix2 t j)) (Fin.ext (Nat.zero_add k.val)))
  · exact (Cert.KernelIdeal.HostRead.read_main_v181_apply (Cert.KernelIdeal.Hand.W16 (F := Ideal) m ρ c) k j).trans (congrFun aW _)
  · exact (Cert.KernelIdeal.HostRead.read_main_v182_apply (Cert.KernelIdeal.Hand.W16 (F := Ideal) m ρ c) 0 j).trans (congrFun aB _)

/-- The first classifier layer agrees, given the kernel side's output in its closed form over the arrays the launch
    found. -/
theorem st_Z1_of_form (hag : Agree m m' c) (hhu : KHU m ρ c = RHU m' c) (hhm : KHM m ρ c = RHM m' c)
    (hform : KZ1 m ρ c = affine2Form (Cert.KernelIdeal.Hand.V17 (F := Ideal) m ρ c Cert.KernelIdeal.main_v172)
      (Cert.KernelIdeal.Hand.V17 (F := Ideal) m ρ c Cert.KernelIdeal.main_v179) (Cert.KernelIdeal.Hand.V17 (F := Ideal) m ρ c Cert.KernelIdeal.main_v180)
      (Cert.KernelIdeal.Hand.V17 (F := Ideal) m ρ c Cert.KernelIdeal.main_v181) (Cert.KernelIdeal.Hand.V17 (F := Ideal) m ρ c Cert.KernelIdeal.main_v182)) :
    KZ1 m ρ c = RZ1 m' c := by
  have a17 := hag.2.2.2.2.2.2.2.2.2.2.2.2.2.2.2.2.2.1
  have a18 := hag.2.2.2.2.2.2.2.2.2.2.2.2.2.2.2.2.2.2.1
  obtain ⟨hw0, hw1, hwb⟩ : _ ∧ _ ∧ _ := ⟨fun j => (kernel_W1_rows m ρ c j).1, fun j => (kernel_W1_rows m ρ c j).2.1,
    fun j => (kernel_W1_rows m ρ c j).2.2⟩
  funext i
  obtain ⟨n, j, rfl⟩ : ∃ (n : Fin 500000) (j : Fin 64), i = ix2 n j := ⟨i 0, i 1, eq_ix2 i⟩
  rw [hform, affine2Form_ix2, kernel_labelUserRows m ρ m' c hag hhu, kernel_labelMovieRows m ρ m' c hag hhm, hwb j,
    RZ1_at m' c n j, ← a18]
  have e0 : ∑ k : Fin 64, labelUserRows m' c (ix2 n k) * Cert.KernelIdeal.Hand.V17 (F := Ideal) m ρ c Cert.KernelIdeal.main_v180 (ix2 k j)
      = ∑ k : Fin 64, labelUserRows m' c (ix2 n k) * (m' ((c.tc : Thread Cert.ReferenceIdeal.nD Cert.ReferenceIdeal.τ).loc Cert.ReferenceIdeal.main_arg17) : Arr 128 64) (ix2 (⟨k.val, by omega⟩ : Fin 128) j) :=
    Finset.sum_congr rfl fun k _ => by rw [hw0 j k, ← a17]
  have e1 : ∑ k : Fin 64, labelMovieRows m' c (ix2 n k) * Cert.KernelIdeal.Hand.V17 (F := Ideal) m ρ c Cert.KernelIdeal.main_v181 (ix2 k j)
      = ∑ k : Fin 64, labelMovieRows m' c (ix2 n k) * (m' ((c.tc : Thread Cert.ReferenceIdeal.nD Cert.ReferenceIdeal.τ).loc Cert.ReferenceIdeal.main_arg17) : Arr 128 64) (ix2 (⟨64 + k.val, by omega⟩ : Fin 128) j) :=
    Finset.sum_congr rfl fun k _ => by rw [hw1 j k, ← a17]
  rw [e0, e1]
  exact affine2_stage (fun n k => labelUserRows m' c (ix2 n k)) (fun n k => labelMovieRows m' c (ix2 n k))
    (fun n k => concatenate Cert.ReferenceIdeal.S500000x128 1
      [⟨Cert.ReferenceIdeal.S500000x64, labelUserRows m' c⟩, ⟨Cert.ReferenceIdeal.S500000x64, labelMovieRows m' c⟩]
      Cert.ReferenceIdeal.Gen.concatenates_S500000x64_S500000x64_S500000x128_d1 (ix2 n k))
    (fun k j => (m' ((c.tc : Thread Cert.ReferenceIdeal.nD Cert.ReferenceIdeal.τ).loc Cert.ReferenceIdeal.main_arg17) : Arr 128 64) (ix2 k j))
    (fun k j => (m' ((c.tc : Thread Cert.ReferenceIdeal.nD Cert.ReferenceIdeal.τ).loc Cert.ReferenceIdeal.main_arg17) : Arr 128 64) (ix2 (⟨k.val, by omega⟩ : Fin 128) j))
    (fun k j => (m' ((c.tc : Thread Cert.ReferenceIdeal.nD Cert.ReferenceIdeal.τ).loc Cert.ReferenceIdeal.main_arg17) : Arr 128 64) (ix2 (⟨64 + k.val, by omega⟩ : Fin 128) j))
    (fun j => (m' ((c.tc : Thread Cert.ReferenceIdeal.nD Cert.ReferenceIdeal.τ).loc Cert.ReferenceIdeal.main_arg18) : Vec1 64) (ix1 j))
    (fun n k => concat2_apply0 _ _ _ n k) (fun n k => concat2_apply1 _ _ _ n k) (fun _ _ => rfl) (fun _ _ => rfl) n j

end Z1

/-- The first classifier layer agrees once the projections do, and the two accumulated rows are its column sums and
    column sums of squares. -/
theorem st_Z1 (hag : Agree m m' c) (hhu : KHU m ρ c = RHU m' c) (hhm : KHM m ρ c = RHM m' c) :
    KZ1 m ρ c = RZ1 m' c ∧ KS1 m ρ c = colSumForm (KZ1 m ρ c) ∧ KQ1 m ρ c = colSqForm (KZ1 m ρ c) := by
  have hform : KZ1 m ρ c = affine2Form (Cert.KernelIdeal.Hand.V17 (F := Ideal) m ρ c Cert.KernelIdeal.main_v172)
      (Cert.KernelIdeal.Hand.V17 (F := Ideal) m ρ c Cert.KernelIdeal.main_v179) (Cert.KernelIdeal.Hand.V17 (F := Ideal) m ρ c Cert.KernelIdeal.main_v180)
      (Cert.KernelIdeal.Hand.V17 (F := Ideal) m ρ c Cert.KernelIdeal.main_v181) (Cert.KernelIdeal.Hand.V17 (F := Ideal) m ρ c Cert.KernelIdeal.main_v182) :=
    (Cert.KernelIdeal.Hand.W18_arr (F := Ideal) m ρ c 5).trans
      (Cert.KernelIdeal.HandValue.arrAt_out8_5 (Cert.KernelIdeal.Hand.V17 (F := Ideal) m ρ) c)
  have hS : KS1 m ρ c = colSumForm (affine2Form (Cert.KernelIdeal.Hand.V17 (F := Ideal) m ρ c Cert.KernelIdeal.main_v172)
      (Cert.KernelIdeal.Hand.V17 (F := Ideal) m ρ c Cert.KernelIdeal.main_v179) (Cert.KernelIdeal.Hand.V17 (F := Ideal) m ρ c Cert.KernelIdeal.main_v180)
      (Cert.KernelIdeal.Hand.V17 (F := Ideal) m ρ c Cert.KernelIdeal.main_v181) (Cert.KernelIdeal.Hand.V17 (F := Ideal) m ρ c Cert.KernelIdeal.main_v182)) :=
    (Cert.KernelIdeal.Hand.W18_arr (F := Ideal) m ρ c 6).trans
      (Cert.KernelIdeal.HandValue.arrAt_out8_6 (Cert.KernelIdeal.Hand.V17 (F := Ideal) m ρ) c)
  have hQ : KQ1 m ρ c = colSqForm (affine2Form (Cert.KernelIdeal.Hand.V17 (F := Ideal) m ρ c Cert.KernelIdeal.main_v172)
      (Cert.KernelIdeal.Hand.V17 (F := Ideal) m ρ c Cert.KernelIdeal.main_v179) (Cert.KernelIdeal.Hand.V17 (F := Ideal) m ρ c Cert.KernelIdeal.main_v180)
      (Cert.KernelIdeal.Hand.V17 (F := Ideal) m ρ c Cert.KernelIdeal.main_v181) (Cert.KernelIdeal.Hand.V17 (F := Ideal) m ρ c Cert.KernelIdeal.main_v182)) :=
    (Cert.KernelIdeal.Hand.W18_arr (F := Ideal) m ρ c 7).trans
      (Cert.KernelIdeal.HandValue.arrAt_out8_7 (Cert.KernelIdeal.Hand.V17 (F := Ideal) m ρ) c)
  refine ⟨Z1.st_Z1_of_form m ρ m' c hag hhu hhm hform, ?_, ?_⟩
  · rw [hform]; exact hS
  · rw [hform]; exact hQ

end Cert.Bridge

end
-- ==== Proof.KI.V9.lean ====
/- The value of pipeline 9 of @main at the extended reals: after the region its first output array is the normalised,
   clamped rows of the array the region found times the weight plus the bias row, its two last output arrays are,
   column by column, the sum and the sum of squares of that array's column, and every input array is unchanged.
   Point `t` of the grid writes back rows `5000 t … 5000 t + 4999` of the first output and raises the two
   accumulators by the block's column sums; the last point writes the accumulators back. -/
import proofs.«176278_j29592324669622_2_alg».proof.Proof.KI.R9
import proofs.«176278_j29592324669622_2_alg».proof.Proof.KI.VPay2
import proofs.«176278_j29592324669622_2_alg».proof.Proof.Math.Stages
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz9 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0
    ∧ win9_8.index t (0 : Fin 2) = 0 ∧ win9_8.index t (1 : Fin 2) = 0
    ∧ win9_9.index t (0 : Fin 2) = 0 ∧ win9_9.index t (1 : Fin 2) = 0 :=
  (by decide +kernel : ∀ t : Fin grid9.N, _)

/-- Row `r` of row block `t`, as a row of the tall array. -/
def row9 (t : Fin cfg9.N) (r : Fin 5000) : Fin 500000 :=
  ⟨t.val * 5000 + r.val, by have h : t.val < 100 := Nat.lt_of_lt_of_eq t.isLt N_9; have := r.isLt; omega⟩

/-- Window 0's block at point `t` is rows `5000 t … 5000 t + 4999` of its array. -/
theorem iblk9_0_apply (c : Dev nD) (t : Fin cfg9.N) (r : Fin 5000) (k : Fin 64) :
    (iblk9 V c 0 t : FVec Ideal S5000x64 .f32) (ix2 r k) = (V c main_v183_0 : S500000x64.Idx → EReal) (ix2 (row9 t r) k) := by
  obtain ⟨h0a, h0b, h1a, h1b, h2a, h2b, h3a, h3b, h4a, h4b, h5a, h5b, h6a, h6b, h7a, h7b, h8a, h8b, h9a, h9b⟩ := idx9 t
  unfold iblk9
  rw [View.read_apply]
  show V c main_v183_0 _ = V c main_v183_0 _
  congr 1
  funext a; apply Fin.ext
  match a with
  | ⟨0, _⟩ => show win9_0.index t (0 : Fin 2) * 5000 + 1 * r.val = t.val * 5000 + r.val; rw [h0a]; omega
  | ⟨1, _⟩ => show win9_0.index t (1 : Fin 2) * 64 + 1 * k.val = k.val; rw [h0b]; omega

/-- Window 1's block at every point is its whole array. -/
theorem iblk9_1_apply (c : Dev nD) (t : Fin cfg9.N) (p : Fin 1) (k : Fin 64) :
    (iblk9 V c 1 t : FVec Ideal S1x64 .f32) (ix2 p k) = (V c main_v192 : S1x64.Idx → EReal) (ix2 p k) := by
  obtain ⟨h0a, h0b, h1a, h1b, h2a, h2b, h3a, h3b, h4a, h4b, h5a, h5b, h6a, h6b, h7a, h7b, h8a, h8b, h9a, h9b⟩ := idx9 t
  unfold iblk9
  rw [View.read_apply]
  show V c main_v192 _ = V c main_v192 _
  congr 1
  funext a; apply Fin.ext
  match a with
  | ⟨0, _⟩ => show win9_1.index t (0 : Fin 2) * 1 + 1 * p.val = p.val; rw [h1a]; omega
  | ⟨1, _⟩ => show win9_1.index t (1 : Fin 2) * 64 + 1 * k.val = k.val; rw [h1b]; omega

/-- Window 2's block at every point is its whole array. -/
theorem iblk9_2_apply (c : Dev nD) (t : Fin cfg9.N) (p : Fin 1) (k : Fin 64) :
    (iblk9 V c 2 t : FVec Ideal S1x64 .f32) (ix2 p k) = (V c main_v193 : S1x64.Idx → EReal) (ix2 p k) := by
  obtain ⟨h0a, h0b, h1a, h1b, h2a, h2b, h3a, h3b, h4a, h4b, h5a, h5b, h6a, h6b, h7a, h7b, h8a, h8b, h9a, h9b⟩ := idx9 t
  unfold iblk9
  rw [View.read_apply]
  show V c main_v193 _ = V c main_v193 _
  congr 1
  funext a; apply Fin.ext
  match a with
  | ⟨0, _⟩ => show win9_2.index t (0 : Fin 2) * 1 + 1 * p.val = p.val; rw [h2a]; omega
  | ⟨1, _⟩ => show win9_2.index t (1 : Fin 2) * 64 + 1 * k.val = k.val; rw [h2b]; omega

/-- Window 3's block at every point is its whole array. -/
theorem iblk9_3_apply (c : Dev nD) (t : Fin cfg9.N) (p : Fin 1) (k : Fin 64) :
    (iblk9 V c 3 t : FVec Ideal S1x64 .f32) (ix2 p k) = (V c main_v194 : S1x64.Idx → EReal) (ix2 p k) := by
  obtain ⟨h0a, h0b, h1a, h1b, h2a, h2b, h3a, h3b, h4a, h4b, h5a, h5b, h6a, h6b, h7a, h7b, h8a, h8b, h9a, h9b⟩ := idx9 t
  unfold iblk9
  rw [View.read_apply]
  show V c main_v194 _ = V c main_v194 _
  congr 1
  funext a; apply Fin.ext
  match a with
  | ⟨0, _⟩ => show win9_3.index t (0 : Fin 2) * 1 + 1 * p.val = p.val; rw [h3a]; omega
  | ⟨1, _⟩ => show win9_3.index t (1 : Fin 2) * 64 + 1 * k.val = k.val; rw [h3b]; omega

/-- Window 4's block at every point is its whole array. -/
theorem iblk9_4_apply (c : Dev nD) (t : Fin cfg9.N) (p : Fin 1) (k : Fin 64) :
    (iblk9 V c 4 t : FVec Ideal S1x64 .f32) (ix2 p k) = (V c main_v195 : S1x64.Idx → EReal) (ix2 p k) := by
  obtain ⟨h0a, h0b, h1a, h1b, h2a, h2b, h3a, h3b, h4a, h4b, h5a, h5b, h6a, h6b, h7a, h7b, h8a, h8b, h9a, h9b⟩ := idx9 t
  unfold iblk9
  rw [View.read_apply]
  show V c main_v195 _ = V c main_v195 _
  congr 1
  funext a; apply Fin.ext
  match a with
  | ⟨0, _⟩ => show win9_4.index t (0 : Fin 2) * 1 + 1 * p.val = p.val; rw [h4a]; omega
  | ⟨1, _⟩ => show win9_4.index t (1 : Fin 2) * 64 + 1 * k.val = k.val; rw [h4b]; omega

/-- Window 5's block at every point is its whole array. -/
theorem iblk9_5_apply (c : Dev nD) (t : Fin cfg9.N) (p : Fin 64) (k : Fin 32) :
    (iblk9 V c 5 t : FVec Ideal S64x32 .f32) (ix2 p k) = (V c main_arg21 : S64x32.Idx → EReal) (ix2 p k) := by
  obtain ⟨h0a, h0b, h1a, h1b, h2a, h2b, h3a, h3b, h4a, h4b, h5a, h5b, h6a, h6b, h7a, h7b, h8a, h8b, h9a, h9b⟩ := idx9 t
  unfold iblk9
  rw [View.read_apply]
  show V c main_arg21 _ = V c main_arg21 _
  congr 1
  funext a; apply Fin.ext
  match a with
  | ⟨0, _⟩ => show win9_5.index t (0 : Fin 2) * 64 + 1 * p.val = p.val; rw [h5a]; omega
  | ⟨1, _⟩ => show win9_5.index t (1 : Fin 2) * 32 + 1 * k.val = k.val; rw [h5b]; omega

/-- Window 6's block at every point is its whole array. -/
theorem iblk9_6_apply (c : Dev nD) (t : Fin cfg9.N) (p : Fin 1) (k : Fin 32) :
    (iblk9 V c 6 t : FVec Ideal S1x32 .f32) (ix2 p k) = (V c main_v196 : S1x32.Idx → EReal) (ix2 p k) := by
  obtain ⟨h0a, h0b, h1a, h1b, h2a, h2b, h3a, h3b, h4a, h4b, h5a, h5b, h6a, h6b, h7a, h7b, h8a, h8b, h9a, h9b⟩ := idx9 t
  unfold iblk9
  rw [View.read_apply]
  show V c main_v196 _ = V c main_v196 _
  congr 1
  funext a; apply Fin.ext
  match a with
  | ⟨0, _⟩ => show win9_6.index t (0 : Fin 2) * 1 + 1 * p.val = p.val; rw [h6a]; omega
  | ⟨1, _⟩ => show win9_6.index t (1 : Fin 2) * 32 + 1 * k.val = k.val; rw [h6b]; omega

/-! ## What a point stores -/

/-- Entry `(r, q)` of the block the body stores at point `t` is entry `(5000 t + r, q)` of the closed form of the
    arrays as the region finds them. -/
theorem stored9_apply (c : Dev nD) (t : Fin cfg9.N) (r : Fin 5000) (q : Fin 32) :
    (k9_pay5 (F := Ideal) (iblk9 V c 0 t) (iblk9 V c 1 t) (iblk9 V c 2 t) (iblk9 V c 3 t) (iblk9 V c 4 t) (iblk9 V c 5 t) (iblk9 V c 6 t) (ix2 r q) : EReal)
      = bnAffine32Form (V c main_v183_0) (V c main_v192) (V c main_v193) (V c main_v194) (V c main_v195) (V c main_arg21) (V c main_v196) (ix2 (row9 t r) q) := by
  refine ((bn32_pay_apply _ _ _ _ _ _ _ r q).trans ?_).trans (bnAffine32Form_ix2 _ _ _ _ _ _ _ (row9 t r) q).symm
  exact congrArg₂ (· + ·) (Finset.sum_congr rfl fun k _ => congrArg₂ (· * ·)
      (bnRelu_congr_at (iblk9_0_apply V c t r k) (iblk9_1_apply V c t 0 k) (iblk9_2_apply V c t 0 k) (iblk9_3_apply V c t 0 k)
        (iblk9_4_apply V c t 0 k))
      (iblk9_5_apply V c t k q)) (iblk9_6_apply V c t 0 q)

/-- What point `t` writes back to the first output window's array is block `t` of the closed form. -/
theorem flushed9_7_eq (c : Dev nD) (t : Fin cfg9.N) :
    (dat9 (F := Ideal) V c).flushed 7 t = ((cfg9.win 7).blk t).view.read (Elt Ideal) (bnAffine32Form (V c main_v183_0) (V c main_v192) (V c main_v193) (V c main_v194) (V c main_v195) (V c main_arg21) (V c main_v196)) := by
  show (cfg9.win 7).cut (grid9.coords t) ((dat9 V c).after 7 t) = _
  rw [after9_7]
  unfold acc9
  obtain ⟨h0a, h0b, h1a, h1b, h2a, h2b, h3a, h3b, h4a, h4b, h5a, h5b, h6a, h6b, h7a, h7b, h8a, h8b, h9a, h9b⟩ := idx9 t
  funext j
  obtain ⟨r, q, rfl⟩ : ∃ (r : Fin 5000) (q : Fin 32), j = ix2 r q := ⟨j 0, j 1, eq_ix2 j⟩
  refine (stored9_apply V c t r q).trans ?_
  rw [View.read_apply]
  refine congrArg (bnAffine32Form (V c main_v183_0) (V c main_v192) (V c main_v193) (V c main_v194) (V c main_v195) (V c main_arg21) (V c main_v196)) ?_
  funext a; apply Fin.ext
  match a with
  | ⟨0, _⟩ => show t.val * 5000 + r.val = win9_7.index t (0 : Fin 2) * 5000 + 1 * r.val; rw [h7a]; omega
  | ⟨1, _⟩ => show q.val = win9_7.index t (1 : Fin 2) * 32 + 1 * q.val; rw [h7b]; omega

/-! ## The first output array after the run -/

/-- An index of the array is in point `t`'s block iff each coordinate is in the block's range on its axis. -/
theorem mem_blk9_7 (t : Fin cfg9.N) (i : S500000x32.Idx) :
    i ∈ ((cfg9.win 7).blk t).view.set ↔ ∀ a : Fin 2, win9_7.index t a * S5000x32.size a ≤ (i a).val ∧ (i a).val < win9_7.index t a * S5000x32.size a + S5000x32.size a := by
  show i ∈ ((View.whole main_v197_0).slice (win9_7.rect t)).set ↔ _
  rw [View.set_slice_whole, Rect.mem_set_unit]
  exact Iff.rfl

/-- The row blocks tile the array: row `n` is in the block of point `n / 5000`. -/
theorem covered9_7 (i : S500000x32.Idx) :
    ∃ t : Fin cfg9.N, (cfg9.win 7).flush t = true ∧ i ∈ ((cfg9.win 7).blk t).view.set := by
  have hi0 : (i 0).val < 500000 := (i 0).isLt
  have hi1 : (i 1).val < 32 := (i 1).isLt
  obtain ⟨t, ht⟩ : ∃ t : Fin cfg9.N, t.val = (i 0).val / 5000 :=
    ⟨⟨(i 0).val / 5000, Nat.lt_of_lt_of_eq (show (i 0).val / 5000 < 100 by omega) N_9.symm⟩, rfl⟩
  obtain ⟨h0a, h0b, h1a, h1b, h2a, h2b, h3a, h3b, h4a, h4b, h5a, h5b, h6a, h6b, h7a, h7b, h8a, h8b, h9a, h9b⟩ := idx9 t
  refine ⟨t, flush9_7 t, (mem_blk9_7 t i).mpr fun a => ?_⟩
  match a with
  | ⟨0, _⟩ =>
    show win9_7.index t (0 : Fin 2) * 5000 ≤ (i 0).val ∧ (i 0).val < win9_7.index t (0 : Fin 2) * 5000 + 5000
    rw [h7a, ht]; omega
  | ⟨1, _⟩ =>
    show win9_7.index t (1 : Fin 2) * 32 ≤ (i 1).val ∧ (i 1).val < win9_7.index t (1 : Fin 2) * 32 + 32
    rw [h7b]; omega

/-- THE FIRST OUTPUT ARRAY after the region is the closed form of the arrays as the region finds them. -/
theorem arrAt_out9_7 (c : Dev nD) :
    (dat9 (F := Ideal) V c).arrAt 7 cfg9.N = bnAffine32Form (V c main_v183_0) (V c main_v192) (V c main_v193) (V c main_v194) (V c main_v195) (V c main_arg21) (V c main_v196) :=
  (dat9 V c).arrAt_eq_of_cover 7 _ (fun t _ => flushed9_7_eq V c t) covered9_7

/-! ## The two accumulators -/

/-- The accumulators after point `t`, at column `q`, as they stand before the next point: zero before the first point. -/
def accS9 (c : Dev nD) (q : Fin 32) : ℕ → EReal
  | 0 => 0
  | n + 1 => if h : n < cfg9.N then (sc9 V c n h).1 (ix2 (0 : Fin 1) q) else 0
def accQ9 (c : Dev nD) (q : Fin 32) : ℕ → EReal
  | 0 => 0
  | n + 1 => if h : n < cfg9.N then (sc9 V c n h).2 (ix2 (0 : Fin 1) q) else 0

theorem accS9_succ (c : Dev nD) (q : Fin 32) (n : ℕ) (h : n < cfg9.N) :
    accS9 V c q (n + 1) = (sc9 V c n h).1 (ix2 (0 : Fin 1) q) := by
  show (if h : n < cfg9.N then (sc9 V c n h).1 (ix2 (0 : Fin 1) q) else 0) = _
  exact dif_pos h
theorem accQ9_succ (c : Dev nD) (q : Fin 32) (n : ℕ) (h : n < cfg9.N) :
    accQ9 V c q (n + 1) = (sc9 V c n h).2 (ix2 (0 : Fin 1) q) := by
  show (if h : n < cfg9.N then (sc9 V c n h).2 (ix2 (0 : Fin 1) q) else 0) = _
  exact dif_pos h

/-- Each point adds its block's column sum to the first accumulator. -/
theorem accS9_step (c : Dev nD) (q : Fin 32) (t : ℕ) (ht : t < 100) :
    accS9 V c q (t + 1) = accS9 V c q t + ∑ r : Fin 5000, (bnAffine32Form (V c main_v183_0) (V c main_v192) (V c main_v193) (V c main_v194) (V c main_v195) (V c main_arg21) (V c main_v196)) (ix2 (⟨t * 5000 + r.val, by omega⟩ : Fin 500000) q) := by
  have hN : t < cfg9.N := Nat.lt_of_lt_of_eq ht N_9.symm
  show (if h : t < cfg9.N then (sc9 V c t h).1 (ix2 (0 : Fin 1) q) else 0) = _
  rw [dif_pos hN]
  cases t with
  | zero =>
    show (sum9 V c ⟨0, hN⟩ (k9_pay3 (F := Ideal))) (ix2 (0 : Fin 1) q) = 0 + _
    unfold sum9
    rw [sum9_pay_apply, zero9_3_apply, zero_add, zero_add]
    exact Finset.sum_congr rfl fun r _ => stored9_apply V c ⟨0, hN⟩ r q
  | succ n =>
    show (sum9 V c ⟨n + 1, hN⟩ (sc9 V c n (Nat.lt_of_succ_lt hN)).1) (ix2 (0 : Fin 1) q)
      = (if h : n < cfg9.N then (sc9 V c n h).1 (ix2 (0 : Fin 1) q) else 0) + _
    rw [dif_pos (Nat.lt_of_succ_lt hN)]
    unfold sum9
    rw [sum9_pay_apply]
    exact congrArg (_ + ·) (Finset.sum_congr rfl fun r _ => stored9_apply V c ⟨n + 1, hN⟩ r q)

/-- Each point adds its block's column sum of squares to the second accumulator. -/
theorem accQ9_step (c : Dev nD) (q : Fin 32) (t : ℕ) (ht : t < 100) :
    accQ9 V c q (t + 1) = accQ9 V c q t + ∑ r : Fin 5000,
      (bnAffine32Form (V c main_v183_0) (V c main_v192) (V c main_v193) (V c main_v194) (V c main_v195) (V c main_arg21) (V c main_v196)) (ix2 (⟨t * 5000 + r.val, by omega⟩ : Fin 500000) q) * (bnAffine32Form (V c main_v183_0) (V c main_v192) (V c main_v193) (V c main_v194) (V c main_v195) (V c main_arg21) (V c main_v196)) (ix2 (⟨t * 5000 + r.val, by omega⟩ : Fin 500000) q) := by
  have hN : t < cfg9.N := Nat.lt_of_lt_of_eq ht N_9.symm
  show (if h : t < cfg9.N then (sc9 V c t h).2 (ix2 (0 : Fin 1) q) else 0) = _
  rw [dif_pos hN]
  cases t with
  | zero =>
    show (sq9 V c ⟨0, hN⟩ (k9_pay4 (F := Ideal))) (ix2 (0 : Fin 1) q) = 0 + _
    unfold sq9
    rw [sq9_pay_apply, zero9_4_apply, zero_add, zero_add]
    exact Finset.sum_congr rfl fun r _ => congrArg₂ (· * ·) (stored9_apply V c ⟨0, hN⟩ r q) (stored9_apply V c ⟨0, hN⟩ r q)
  | succ n =>
    show (sq9 V c ⟨n + 1, hN⟩ (sc9 V c n (Nat.lt_of_succ_lt hN)).2) (ix2 (0 : Fin 1) q)
      = (if h : n < cfg9.N then (sc9 V c n h).2 (ix2 (0 : Fin 1) q) else 0) + _
    rw [dif_pos (Nat.lt_of_succ_lt hN)]
    unfold sq9
    rw [sq9_pay_apply]
    exact congrArg (_ + ·) (Finset.sum_congr rfl fun r _ => congrArg₂ (· * ·) (stored9_apply V c ⟨n + 1, hN⟩ r q) (stored9_apply V c ⟨n + 1, hN⟩ r q))

/-- After the last point the accumulators hold, column by column, the sum and the sum of squares of the closed form's column. -/
theorem sc9_last (c : Dev nD) (t : Fin cfg9.N) (h99 : t.val = 99) (q : Fin 32) :
    (sc9 V c t.val t.isLt).1 (ix2 (0 : Fin 1) q) = colSumForm (bnAffine32Form (V c main_v183_0) (V c main_v192) (V c main_v193) (V c main_v194) (V c main_v195) (V c main_arg21) (V c main_v196)) (ix2 (0 : Fin 1) q)
    ∧ (sc9 V c t.val t.isLt).2 (ix2 (0 : Fin 1) q) = colSqForm (bnAffine32Form (V c main_v183_0) (V c main_v192) (V c main_v193) (V c main_v194) (V c main_v195) (V c main_arg21) (V c main_v196)) (ix2 (0 : Fin 1) q) := by
  have h := stats_acc (fun n : Fin 500000 => (bnAffine32Form (V c main_v183_0) (V c main_v192) (V c main_v193) (V c main_v194) (V c main_v195) (V c main_arg21) (V c main_v196)) (ix2 n q)) (accS9 V c q) (accQ9 V c q) rfl rfl
    (accS9_step V c q) (accQ9_step V c q)
  obtain ⟨n, hn⟩ := t
  obtain rfl : n = 99 := h99
  have e1 : accS9 V c q 100 = (sc9 V c 99 hn).1 (ix2 (0 : Fin 1) q) := accS9_succ V c q 99 hn
  have e2 : accQ9 V c q 100 = (sc9 V c 99 hn).2 (ix2 (0 : Fin 1) q) := accQ9_succ V c q 99 hn
  exact ⟨e1.symm.trans h.1, e2.symm.trans h.2⟩

/-! ## The two last output arrays after the run -/

/-- What the last point writes back to output window 8's array is the whole one-row array of the column sums. -/
theorem flushed9_8_eq (c : Dev nD) (t : Fin cfg9.N) (hf : (cfg9.win 8).flush t = true) :
    (dat9 (F := Ideal) V c).flushed 8 t = ((cfg9.win 8).blk t).view.read (Elt Ideal) (colSumForm (bnAffine32Form (V c main_v183_0) (V c main_v192) (V c main_v193) (V c main_v194) (V c main_v195) (V c main_arg21) (V c main_v196))) := by
  have h99 : t.val = 99 := by
    have h1 := (flush9_8 t).mp hf
    have h2 : t.val < 100 := Nat.lt_of_lt_of_eq t.isLt N_9
    omega
  show (cfg9.win 8).cut (grid9.coords t) ((dat9 V c).after 8 t) = _
  rw [after9_8]
  obtain ⟨h0a, h0b, h1a, h1b, h2a, h2b, h3a, h3b, h4a, h4b, h5a, h5b, h6a, h6b, h7a, h7b, h8a, h8b, h9a, h9b⟩ := idx9 t
  funext j
  obtain ⟨u, q, rfl⟩ : ∃ (u : Fin 1) (q : Fin 32), j = ix2 u q := ⟨j 0, j 1, eq_ix2 j⟩
  obtain rfl : u = 0 := Subsingleton.elim _ _
  refine ((sc9_last V c t h99 q).1).trans ?_
  rw [View.read_apply]
  congr 1
  funext a; apply Fin.ext
  match a with
  | ⟨0, _⟩ => show (0 : Fin 1).val = win9_8.index t (0 : Fin 2) * 1 + 1 * (0 : Fin 1).val; rw [h8a]; rfl
  | ⟨1, _⟩ => show q.val = win9_8.index t (1 : Fin 2) * 32 + 1 * q.val; rw [h8b]; omega

theorem mem_blk9_8 (t : Fin cfg9.N) (i : S1x32.Idx) :
    i ∈ ((cfg9.win 8).blk t).view.set ↔ ∀ a : Fin 2, win9_8.index t a * S1x32.size a ≤ (i a).val ∧ (i a).val < win9_8.index t a * S1x32.size a + S1x32.size a := by
  show i ∈ ((View.whole main_v197_1).slice (win9_8.rect t)).set ↔ _
  rw [View.set_slice_whole, Rect.mem_set_unit]
  exact Iff.rfl

/-- The last point's block is the whole one-row array. -/
theorem covered9_8 (i : S1x32.Idx) :
    ∃ t : Fin cfg9.N, (cfg9.win 8).flush t = true ∧ i ∈ ((cfg9.win 8).blk t).view.set := by
  have hi0 : (i 0).val < 1 := (i 0).isLt
  have hi1 : (i 1).val < 32 := (i 1).isLt
  obtain ⟨t, ht⟩ : ∃ t : Fin cfg9.N, t.val = 99 := ⟨⟨99, Nat.lt_of_lt_of_eq (by omega) N_9.symm⟩, rfl⟩
  obtain ⟨h0a, h0b, h1a, h1b, h2a, h2b, h3a, h3b, h4a, h4b, h5a, h5b, h6a, h6b, h7a, h7b, h8a, h8b, h9a, h9b⟩ := idx9 t
  refine ⟨t, (flush9_8 t).mpr (by rw [ht]), (mem_blk9_8 t i).mpr fun a => ?_⟩
  match a with
  | ⟨0, _⟩ =>
    show win9_8.index t (0 : Fin 2) * 1 ≤ (i 0).val ∧ (i 0).val < win9_8.index t (0 : Fin 2) * 1 + 1
    rw [h8a]; omega
  | ⟨1, _⟩ =>
    show win9_8.index t (1 : Fin 2) * 32 ≤ (i 1).val ∧ (i 1).val < win9_8.index t (1 : Fin 2) * 32 + 32
    rw [h8b]; omega

/-- OUTPUT ARRAY 8 after the region: column by column, the sum of the closed form's column. -/
theorem arrAt_out9_8 (c : Dev nD) :
    (dat9 (F := Ideal) V c).arrAt 8 cfg9.N = colSumForm (bnAffine32Form (V c main_v183_0) (V c main_v192) (V c main_v193) (V c main_v194) (V c main_v195) (V c main_arg21) (V c main_v196)) :=
  (dat9 V c).arrAt_eq_of_cover 8 _ (fun t hf => flushed9_8_eq V c t hf) covered9_8

/-- What the last point writes back to output window 9's array is the whole one-row array of the column sums of squares. -/
theorem flushed9_9_eq (c : Dev nD) (t : Fin cfg9.N) (hf : (cfg9.win 9).flush t = true) :
    (dat9 (F := Ideal) V c).flushed 9 t = ((cfg9.win 9).blk t).view.read (Elt Ideal) (colSqForm (bnAffine32Form (V c main_v183_0) (V c main_v192) (V c main_v193) (V c main_v194) (V c main_v195) (V c main_arg21) (V c main_v196))) := by
  have h99 : t.val = 99 := by
    have h1 := (flush9_9 t).mp hf
    have h2 : t.val < 100 := Nat.lt_of_lt_of_eq t.isLt N_9
    omega
  show (cfg9.win 9).cut (grid9.coords t) ((dat9 V c).after 9 t) = _
  rw [after9_9]
  obtain ⟨h0a, h0b, h1a, h1b, h2a, h2b, h3a, h3b, h4a, h4b, h5a, h5b, h6a, h6b, h7a, h7b, h8a, h8b, h9a, h9b⟩ := idx9 t
  funext j
  obtain ⟨u, q, rfl⟩ : ∃ (u : Fin 1) (q : Fin 32), j = ix2 u q := ⟨j 0, j 1, eq_ix2 j⟩
  obtain rfl : u = 0 := Subsingleton.elim _ _
  refine ((sc9_last V c t h99 q).2).trans ?_
  rw [View.read_apply]
  congr 1
  funext a; apply Fin.ext
  match a with
  | ⟨0, _⟩ => show (0 : Fin 1).val = win9_9.index t (0 : Fin 2) * 1 + 1 * (0 : Fin 1).val; rw [h9a]; rfl
  | ⟨1, _⟩ => show q.val = win9_9.index t (1 : Fin 2) * 32 + 1 * q.val; rw [h9b]; omega

theorem mem_blk9_9 (t : Fin cfg9.N) (i : S1x32.Idx) :
    i ∈ ((cfg9.win 9).blk t).view.set ↔ ∀ a : Fin 2, win9_9.index t a * S1x32.size a ≤ (i a).val ∧ (i a).val < win9_9.index t a * S1x32.size a + S1x32.size a := by
  show i ∈ ((View.whole main_v197_2).slice (win9_9.rect t)).set ↔ _
  rw [View.set_slice_whole, Rect.mem_set_unit]
  exact Iff.rfl

/-- The last point's block is the whole one-row array. -/
theorem covered9_9 (i : S1x32.Idx) :
    ∃ t : Fin cfg9.N, (cfg9.win 9).flush t = true ∧ i ∈ ((cfg9.win 9).blk t).view.set := by
  have hi0 : (i 0).val < 1 := (i 0).isLt
  have hi1 : (i 1).val < 32 := (i 1).isLt
  obtain ⟨t, ht⟩ : ∃ t : Fin cfg9.N, t.val = 99 := ⟨⟨99, Nat.lt_of_lt_of_eq (by omega) N_9.symm⟩, rfl⟩
  obtain ⟨h0a, h0b, h1a, h1b, h2a, h2b, h3a, h3b, h4a, h4b, h5a, h5b, h6a, h6b, h7a, h7b, h8a, h8b, h9a, h9b⟩ := idx9 t
  refine ⟨t, (flush9_9 t).mpr (by rw [ht]), (mem_blk9_9 t i).mpr fun a => ?_⟩
  match a with
  | ⟨0, _⟩ =>
    show win9_9.index t (0 : Fin 2) * 1 ≤ (i 0).val ∧ (i 0).val < win9_9.index t (0 : Fin 2) * 1 + 1
    rw [h9a]; omega
  | ⟨1, _⟩ =>
    show win9_9.index t (1 : Fin 2) * 32 ≤ (i 1).val ∧ (i 1).val < win9_9.index t (1 : Fin 2) * 32 + 32
    rw [h9b]; omega

/-- OUTPUT ARRAY 9 after the region: column by column, the sum of squares of the closed form's column. -/
theorem arrAt_out9_9 (c : Dev nD) :
    (dat9 (F := Ideal) V c).arrAt 9 cfg9.N = colSqForm (bnAffine32Form (V c main_v183_0) (V c main_v192) (V c main_v193) (V c main_v194) (V c main_v195) (V c main_arg21) (V c main_v196)) :=
  (dat9 V c).arrAt_eq_of_cover 9 _ (fun t hf => flushed9_9_eq V c t hf) covered9_9

/-- Every input array is as the region found it: an input window is never written back. -/
theorem arrAt_in9 (c : Dev nD) (w : Fin cfg9.W) (hw : w ≠ 7 ∧ w ≠ 8 ∧ w ≠ 9) :
    (dat9 (F := Ideal) V c).arrAt w cfg9.N = V c (Pipeline.arrRef spec9 w) := by
  have hin : (cfg9.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, h => exact absurd rfl h.1
    | ⟨8, _⟩, h => exact absurd rfl h.2.1
    | ⟨9, _⟩, h => exact absurd rfl h.2.2
  exact ((dat9 V c).arrAt_in w hin _).trans (A_eq9 V c w)

end Cert.KernelIdeal.HandValue

end
-- ==== Proof.KI.H9.lean ====
/-
  The host operations before the tenth kernel launch: the batch statistics of the 64 feature columns out of the
  two accumulated rows the preceding launch left — the mean is the row of sums over the count, the variance the row of
  sums of squares over the count minus the squared mean, the count being the float `500000` — and the rows the next
  launch stages: the scale, the shift, the mean, the variance, and the next layer's bias.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- The count, at every feature. -/
abbrev countRow64 : FVec F S64 .f32 := broadcastInDim S64 ![] bcast_S_S64 (constant S_ .f32 0x48F42400#32)

/-- The mean of each feature: its accumulated sum over the count. -/
abbrev meanOf64 (s : FVec F S1x64 .f32) : FVec F S64 .f32 :=
  Host.divf (shapeCast S64 s shapeCasts_S1x64_S64) countRow64

/-- The variance of each feature: its accumulated sum of squares over the count, minus the squared mean. -/
abbrev varOf64 (s q : FVec F S1x64 .f32) : FVec F S64 .f32 :=
  subf (Host.divf (shapeCast S64 q shapeCasts_S1x64_S64) countRow64) (mulf (meanOf64 s) (meanOf64 s))

theorem countRow64_apply (j : Fin 64) : (countRow64 (F := F)) (ix1 j) = FloatOps.ofBits .f32 0x48F42400#32 := by
  show broadcastInDim S64 ![] bcast_S_S64 (constant (F := F) S_ .f32 0x48F42400#32) (ix1 j) = _
  rw [BroadcastReads.scalar_apply]
  rfl

theorem meanOf64_apply (s : FVec F S1x64 .f32) (j : Fin 64) :
    meanOf64 s (ix1 j) = FloatOps.hostDivf (s (ix2 (0 : Fin 1) j)) (FloatOps.ofBits .f32 0x48F42400#32) := by
  show FloatOps.hostDivf (shapeCast S64 s shapeCasts_S1x64_S64 (ix1 j)) (countRow64 (ix1 j)) = _
  rw [shapeCast_1a_a_apply, countRow64_apply]

theorem varOf64_apply (s q : FVec F S1x64 .f32) (j : Fin 64) :
    varOf64 s q (ix1 j)
      = FloatOps.subf (FloatOps.hostDivf (q (ix2 (0 : Fin 1) j)) (FloatOps.ofBits .f32 0x48F42400#32))
          (FloatOps.mulf (FloatOps.hostDivf (s (ix2 (0 : Fin 1) j)) (FloatOps.ofBits .f32 0x48F42400#32))
            (FloatOps.hostDivf (s (ix2 (0 : Fin 1) j)) (FloatOps.ofBits .f32 0x48F42400#32))) := by
  show FloatOps.subf (FloatOps.hostDivf (shapeCast S64 q shapeCasts_S1x64_S64 (ix1 j)) (countRow64 (ix1 j)))
      (FloatOps.mulf (meanOf64 s (ix1 j)) (meanOf64 s (ix1 j))) = _
  rw [shapeCast_1a_a_apply, countRow64_apply, meanOf64_apply]

/-- The mean, as the row the next launch stages. -/
theorem read_main_v194 (W : Valuation τ sig (Elt F)) :
    (StableHlo.after (hostOps9 (F := F)) W (Proc.devRef .tc main_v194) : FVec F S1x64 .f32)
      = shapeCast S1x64 (meanOf64 (W (Proc.devRef .tc main_v183_1) : FVec F S1x64 .f32)) shapeCasts_S64_S1x64 := by
  dsimp only [hostOps9]; after_results <;> rfl

theorem read_main_v194_apply (W : Valuation τ sig (Elt F)) (u : Fin 1) (j : Fin 64) :
    (StableHlo.after (hostOps9 (F := F)) W (Proc.devRef .tc main_v194) : FVec F S1x64 .f32) (ix2 u j)
      = FloatOps.hostDivf ((W (Proc.devRef .tc main_v183_1) : FVec F S1x64 .f32) (ix2 (0 : Fin 1) j))
          (FloatOps.ofBits .f32 0x48F42400#32) := by
  rw [read_main_v194, shapeCast_a_1a_apply, meanOf64_apply]

/-- The variance, as the row the next launch stages. -/
theorem read_main_v195 (W : Valuation τ sig (Elt F)) :
    (StableHlo.after (hostOps9 (F := F)) W (Proc.devRef .tc main_v195) : FVec F S1x64 .f32)
      = shapeCast S1x64
          (varOf64 (W (Proc.devRef .tc main_v183_1) : FVec F S1x64 .f32) (W (Proc.devRef .tc main_v183_2) : FVec F S1x64 .f32))
          shapeCasts_S64_S1x64 := by
  dsimp only [hostOps9]; after_results <;> rfl

theorem read_main_v195_apply (W : Valuation τ sig (Elt F)) (u : Fin 1) (j : Fin 64) :
    (StableHlo.after (hostOps9 (F := F)) W (Proc.devRef .tc main_v195) : FVec F S1x64 .f32) (ix2 u j)
      = FloatOps.subf
          (FloatOps.hostDivf ((W (Proc.devRef .tc main_v183_2) : FVec F S1x64 .f32) (ix2 (0 : Fin 1) j))
            (FloatOps.ofBits .f32 0x48F42400#32))
          (FloatOps.mulf
            (FloatOps.hostDivf ((W (Proc.devRef .tc main_v183_1) : FVec F S1x64 .f32) (ix2 (0 : Fin 1) j))
              (FloatOps.ofBits .f32 0x48F42400#32))
            (FloatOps.hostDivf ((W (Proc.devRef .tc main_v183_1) : FVec F S1x64 .f32) (ix2 (0 : Fin 1) j))
              (FloatOps.ofBits .f32 0x48F42400#32))) := by
  rw [read_main_v195, shapeCast_a_1a_apply, varOf64_apply]

/-- The scale, as a row. -/
theorem read_main_v192 (W : Valuation τ sig (Elt F)) :
    (StableHlo.after (hostOps9 (F := F)) W (Proc.devRef .tc main_v192) : FVec F S1x64 .f32)
      = shapeCast S1x64 (W (Proc.devRef .tc main_arg19) : FVec F S64 .f32) shapeCasts_S64_S1x64 := by
  dsimp only [hostOps9]; after_results <;> rfl

theorem read_main_v192_apply (W : Valuation τ sig (Elt F)) (u : Fin 1) (j : Fin 64) :
    (StableHlo.after (hostOps9 (F := F)) W (Proc.devRef .tc main_v192) : FVec F S1x64 .f32) (ix2 u j)
      = (W (Proc.devRef .tc main_arg19) : FVec F S64 .f32) (ix1 j) := by
  rw [read_main_v192]
  exact shapeCast_a_1a_apply _ _ u j

/-- The shift, as a row. -/
theorem read_main_v193 (W : Valuation τ sig (Elt F)) :
    (StableHlo.after (hostOps9 (F := F)) W (Proc.devRef .tc main_v193) : FVec F S1x64 .f32)
      = shapeCast S1x64 (W (Proc.devRef .tc main_arg20) : FVec F S64 .f32) shapeCasts_S64_S1x64 := by
  dsimp only [hostOps9]; after_results <;> rfl

theorem read_main_v193_apply (W : Valuation τ sig (Elt F)) (u : Fin 1) (j : Fin 64) :
    (StableHlo.after (hostOps9 (F := F)) W (Proc.devRef .tc main_v193) : FVec F S1x64 .f32) (ix2 u j)
      = (W (Proc.devRef .tc main_arg20) : FVec F S64 .f32) (ix1 j) := by
  rw [read_main_v193]
  exact shapeCast_a_1a_apply _ _ u j

/-- The second classifier bias, as a row. -/
theorem read_main_v196 (W : Valuation τ sig (Elt F)) :
    (StableHlo.after (hostOps9 (F := F)) W (Proc.devRef .tc main_v196) : FVec F S1x32 .f32)
      = shapeCast S1x32 (W (Proc.devRef .tc main_arg22) : FVec F S32 .f32) shapeCasts_S32_S1x32 := by
  dsimp only [hostOps9]; after_results <;> rfl

theorem read_main_v196_apply (W : Valuation τ sig (Elt F)) (u : Fin 1) (j : Fin 32) :
    (StableHlo.after (hostOps9 (F := F)) W (Proc.devRef .tc main_v196) : FVec F S1x32 .f32) (ix2 u j)
      = (W (Proc.devRef .tc main_arg22) : FVec F S32 .f32) (ix1 j) := by
  rw [read_main_v196]
  exact shapeCast_a_1a_apply _ _ u j

end Cert.KernelIdeal.HostRead

end
-- ==== Proof.Ref.At4.lean ====
/- The stage before the last read at an index, at the ideal values: the first classifier layer's column sums, means and variances, and the second layer before its batch norm as the batch-normalised, rectified first layer through the second weight, plus its bias. -/
import proofs.«176278_j29592324669622_2_alg».proof.Proof.Ref.Arrays

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The column sums at a column: the initial zero plus the sum down the column. -/
theorem at_z1sum (V : Valuation τ sig (Elt Ideal)) (k : Fin 64) :
    z1sum V (ix1 k) = (Ideal.ofBits .f32 0x00000000#32 + ∑ i' : Fin 500000, z1 V (ix2 i' k)) := by
  show after ops V (Proc.devRef .tc main_v228) (ix1 k) = _
  rw [read_v228 V]
  exact colSum_apply reducesTo_S500000x64_S64_d0 (by decide) h_S_ _ _ k

/-- The column means at a column: the column sum over the count. -/
theorem at_z1mean (V : Valuation τ sig (Elt Ideal)) (k : Fin 64) :
    z1mean V (ix1 k) = Ideal.div (Ideal.ofBits .f32 0x00000000#32 + ∑ i' : Fin 500000, z1 V (ix2 i' k)) (Ideal.ofBits .f32 0x48F42400#32) := by
  have hs : after ops V (Proc.devRef .tc main_v228) (ix1 k) = (Ideal.ofBits .f32 0x00000000#32 + ∑ i' : Fin 500000, z1 V (ix2 i' k)) := at_z1sum V k
  show after ops V (Proc.devRef .tc main_v230) (ix1 k) = _
  rw [read_v230 V, hostDivf_apply, hs, broadcastInDim_scalar_apply]
  all_goals rfl

/-- The column variances at a column: under the guard that the count less the correction (zero) is positive, the sum of
    squared deviations from the column mean over that count; the guard's other branch is a NaN literal. -/
theorem at_z1var (V : Valuation τ sig (Elt Ideal)) (k : Fin 64) :
    z1var V (ix1 k) =
        Scalar.select (Ideal.cmp .ogt (Ideal.ofBits .f32 0x48F42400#32 - ((((0#32 : BitVec 32).toInt : ℤ) : ℝ) : EReal)) (Ideal.ofBits .f32 0x00000000#32))
          (Ideal.div (Ideal.ofBits .f32 0x00000000#32 + ∑ i' : Fin 500000, (z1 V (ix2 i' k) - Ideal.div (Ideal.ofBits .f32 0x00000000#32 + ∑ i' : Fin 500000, z1 V (ix2 i' k)) (Ideal.ofBits .f32 0x48F42400#32)) * (z1 V (ix2 i' k) - Ideal.div (Ideal.ofBits .f32 0x00000000#32 + ∑ i' : Fin 500000, z1 V (ix2 i' k)) (Ideal.ofBits .f32 0x48F42400#32)))
            (Ideal.ofBits .f32 0x48F42400#32 - ((((0#32 : BitVec 32).toInt : ℤ) : ℝ) : EReal)))
          (Ideal.ofBits .f32 0x7FC00000#32) := by
  show after ops V (Proc.devRef .tc main_v231) (ix1 k) = _
  have key : ∀ i' : Fin 500000,
      (mulf (subf (after ops V (Proc.devRef .tc main_v227)) (broadcastInDim S500000x64 ![0, 1] bcast_S1x64_S500000x64_0_1 (Host.divf (broadcastInDim S1x64 ![1] bcast_S64_S1x64_1 (Host.reduceAdd (after ops V (Proc.devRef .tc main_v227)) (constant (F := Ideal) S_ .f32 0x00000000#32) reducesTo_S500000x64_S64_d0 h_S_)) (broadcastInDim S1x64 ![] bcast_S_S1x64 (constant (F := Ideal) S_ .f32 0x48F42400#32)))))
        (subf (after ops V (Proc.devRef .tc main_v227)) (broadcastInDim S500000x64 ![0, 1] bcast_S1x64_S500000x64_0_1 (Host.divf (broadcastInDim S1x64 ![1] bcast_S64_S1x64_1 (Host.reduceAdd (after ops V (Proc.devRef .tc main_v227)) (constant (F := Ideal) S_ .f32 0x00000000#32) reducesTo_S500000x64_S64_d0 h_S_)) (broadcastInDim S1x64 ![] bcast_S_S1x64 (constant (F := Ideal) S_ .f32 0x48F42400#32)))))) (ix2 i' k)
        = (z1 V (ix2 i' k) - Ideal.div (Ideal.ofBits .f32 0x00000000#32 + ∑ i' : Fin 500000, z1 V (ix2 i' k)) (Ideal.ofBits .f32 0x48F42400#32)) * (z1 V (ix2 i' k) - Ideal.div (Ideal.ofBits .f32 0x00000000#32 + ∑ i' : Fin 500000, z1 V (ix2 i' k)) (Ideal.ofBits .f32 0x48F42400#32)) := fun i' => by
    rw [mulf_apply, subf_apply, bcast_rows_apply, hostDivf_apply, bcast_vec_row_apply,
      colSum_apply reducesTo_S500000x64_S64_d0 (by decide) h_S_, broadcastInDim_scalar_apply]
    all_goals rfl
  rw [read_v231 V, select_apply, hostDivf_apply, colSum_apply reducesTo_S500000x64_S64_d0 (by decide) h_S_]
  simp only [key]
  repeat rw [broadcastInDim_scalar_apply]
  all_goals rfl

/-- The second layer before its batch norm at a row and column: the first layer normalised by its column mean and variance, scaled and shifted, rectified, through the second weight, plus the bias. -/
theorem at_z2 (V : Valuation τ sig (Elt Ideal)) (i : Fin 500000) (j : Fin 32) :
    z2 V (ix2 i j) =
      (∑ k : Fin 64, max (g1 V (ix1 k) * (z1 V (ix2 i k) - Ideal.div (Ideal.ofBits .f32 0x00000000#32 + ∑ i' : Fin 500000, z1 V (ix2 i' k)) (Ideal.ofBits .f32 0x48F42400#32))
          * Ideal.rsqrt (Scalar.select (Ideal.cmp .ogt (Ideal.ofBits .f32 0x48F42400#32 - ((((0#32 : BitVec 32).toInt : ℤ) : ℝ) : EReal)) (Ideal.ofBits .f32 0x00000000#32))
          (Ideal.div (Ideal.ofBits .f32 0x00000000#32 + ∑ i' : Fin 500000, (z1 V (ix2 i' k) - Ideal.div (Ideal.ofBits .f32 0x00000000#32 + ∑ i' : Fin 500000, z1 V (ix2 i' k)) (Ideal.ofBits .f32 0x48F42400#32)) * (z1 V (ix2 i' k) - Ideal.div (Ideal.ofBits .f32 0x00000000#32 + ∑ i' : Fin 500000, z1 V (ix2 i' k)) (Ideal.ofBits .f32 0x48F42400#32)))
            (Ideal.ofBits .f32 0x48F42400#32 - ((((0#32 : BitVec 32).toInt : ℤ) : ℝ) : EReal)))
          (Ideal.ofBits .f32 0x7FC00000#32) + Ideal.ofBits .f32 0x3727C5AC#32)
        + be1 V (ix1 k)) (Ideal.ofBits .f32 0x00000000#32)
          * W2 V (ix2 k j)) + b2 V (ix1 j) := by
  show after ops V (Proc.devRef .tc main_v251) (ix2 i j) = _
  rw [read_v251 V, addf_apply, hostDot_apply dot_S500000x64_S64x32_S500000x32_1_0_0_1_n_n rfl, bcast_rows_apply, bcast_vec_row_apply]
  refine congrArg₂ (· + ·) (Finset.sum_congr rfl fun k _ => ?_) rfl
  have hm : after ops V (Proc.devRef .tc main_v230) (ix1 k) = Ideal.div (Ideal.ofBits .f32 0x00000000#32 + ∑ i' : Fin 500000, z1 V (ix2 i' k)) (Ideal.ofBits .f32 0x48F42400#32) := at_z1mean V k
  have hv : after ops V (Proc.devRef .tc main_v231) (ix1 k) =
      Scalar.select (Ideal.cmp .ogt (Ideal.ofBits .f32 0x48F42400#32 - ((((0#32 : BitVec 32).toInt : ℤ) : ℝ) : EReal)) (Ideal.ofBits .f32 0x00000000#32))
          (Ideal.div (Ideal.ofBits .f32 0x00000000#32 + ∑ i' : Fin 500000, (z1 V (ix2 i' k) - Ideal.div (Ideal.ofBits .f32 0x00000000#32 + ∑ i' : Fin 500000, z1 V (ix2 i' k)) (Ideal.ofBits .f32 0x48F42400#32)) * (z1 V (ix2 i' k) - Ideal.div (Ideal.ofBits .f32 0x00000000#32 + ∑ i' : Fin 500000, z1 V (ix2 i' k)) (Ideal.ofBits .f32 0x48F42400#32)))
            (Ideal.ofBits .f32 0x48F42400#32 - ((((0#32 : BitVec 32).toInt : ℤ) : ℝ) : EReal)))
          (Ideal.ofBits .f32 0x7FC00000#32) := at_z1var V k
  rw [maximumf_apply, addf_apply, mulf_apply, mulf_apply, subf_apply]
  rw [bcast_rows_apply, bcast_rows_apply, bcast_rows_apply, bcast_rows_apply]
  rw [bcast_vec_row_apply, bcast_vec_row_apply, bcast_vec_row_apply, bcast_vec_row_apply]
  rw [hostRsqrt_apply, addf_apply, hm, hv, broadcastInDim_scalar_apply, broadcastInDim_scalar_apply]
  all_goals rfl

end Cert.ReferenceIdeal.Hand

end
-- ==== Proof.Bridge.Z2.lean ====
/- The stage before the last of the bridge: the second classifier layer before its batch norm, with its column
   sums and sums of squares. The kernel program's region computes, row by row, the batch-normalised, rectified first
   layer through the second weight plus the bias, with the column mean and variance the host computes from the
   accumulated sums (sum over the count; sum of squares over the count minus the squared mean), and leaves beside it
   the column sums and sums of squares of what it wrote. The reference normalises with the mean and the guarded
   two-pass variance; for a column of real numbers the two variances are one number, so the arrays agree entry by
   entry, and the accumulated rows are the column sums of the agreed array. -/
import proofs.«176278_j29592324669622_2_alg».proof.Proof.Bridge.Defs
import proofs.«176278_j29592324669622_2_alg».proof.Proof.KI.Keep
import proofs.«176278_j29592324669622_2_alg».proof.Proof.KI.Main
import proofs.«176278_j29592324669622_2_alg».proof.Proof.KI.V9
import proofs.«176278_j29592324669622_2_alg».proof.Proof.KI.H9
import proofs.«176278_j29592324669622_2_alg».proof.Proof.Math.Stages
import proofs.«176278_j29592324669622_2_alg».proof.Proof.Math.KernelForms2
import proofs.«176278_j29592324669622_2_alg».proof.Proof.Ref.At4

noncomputable section

namespace Cert.Bridge

open Idealize.ShloMosaic Idealize.ShloMosaic.TcCoe Idealize.ShloMosaic.ValueIdx Cert.Bridge
open Cert.Lib.MeanLaws (IsReal)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

namespace Z2

section Kernel
open Cert.KernelIdeal Cert.KernelIdeal.Gen Cert.KernelIdeal.Hand Cert.KernelIdeal.HostRead

/-- The kernel program's second layer: the region's first output over what the region found. -/
theorem kz2_form : KZ2 m ρ c = bnAffine32Form (V19 (F := Ideal) m ρ c main_v183_0) (V19 (F := Ideal) m ρ c main_v192) (V19 (F := Ideal) m ρ c main_v193)
      (V19 (F := Ideal) m ρ c main_v194) (V19 (F := Ideal) m ρ c main_v195) (V19 (F := Ideal) m ρ c main_arg21) (V19 (F := Ideal) m ρ c main_v196) := by
  unfold KZ2
  exact (W20_arr (F := Ideal) m ρ c 7).trans (Cert.KernelIdeal.HandValue.arrAt_out9_7 (V19 (F := Ideal) m ρ) c)

/-- Its column sums: the region's second output. -/
theorem ks2_form : KS2 m ρ c = colSumForm (bnAffine32Form (V19 (F := Ideal) m ρ c main_v183_0) (V19 (F := Ideal) m ρ c main_v192) (V19 (F := Ideal) m ρ c main_v193)
      (V19 (F := Ideal) m ρ c main_v194) (V19 (F := Ideal) m ρ c main_v195) (V19 (F := Ideal) m ρ c main_arg21) (V19 (F := Ideal) m ρ c main_v196)) := by
  unfold KS2
  exact (W20_arr (F := Ideal) m ρ c 8).trans (Cert.KernelIdeal.HandValue.arrAt_out9_8 (V19 (F := Ideal) m ρ) c)

/-- Its column sums of squares: the region's third output. -/
theorem kq2_form : KQ2 m ρ c = colSqForm (bnAffine32Form (V19 (F := Ideal) m ρ c main_v183_0) (V19 (F := Ideal) m ρ c main_v192) (V19 (F := Ideal) m ρ c main_v193)
      (V19 (F := Ideal) m ρ c main_v194) (V19 (F := Ideal) m ρ c main_v195) (V19 (F := Ideal) m ρ c main_arg21) (V19 (F := Ideal) m ρ c main_v196)) := by
  unfold KQ2
  exact (W20_arr (F := Ideal) m ρ c 9).trans (Cert.KernelIdeal.HandValue.arrAt_out9_9 (V19 (F := Ideal) m ρ) c)

theorem v19_z (i : Fin 500000) (k : Fin 64) : V19 (F := Ideal) m ρ c main_v183_0 (ix2 i k) = KZ1 m ρ c (ix2 i k) := by
  unfold KZ1
  exact congrFun (W19_of (F := Ideal) m ρ c main_v183_0 (by decide)) (ix2 i k)

theorem v19_g (k : Fin 64) : V19 (F := Ideal) m ρ c main_v192 (ix2 (0 : Fin 1) k) = (m ((c.tc : Thread Cert.KernelIdeal.nD Cert.KernelIdeal.τ).loc Cert.KernelIdeal.main_arg19) : Cert.KernelIdeal.S64.Idx → EReal) (ix1 k) := by
  refine (read_main_v192_apply (F := Ideal) (W18 m ρ c) 0 k).trans ?_
  exact congrFun (W18_eq_W0 (F := Ideal) m ρ c main_arg19 (by decide) (by decide) (by decide) (by decide) (by decide) (by decide) (by decide) (by decide) (by decide) (by decide) (by decide) (by decide) (by decide) (by decide) (by decide) (by decide) (by decide) (by decide)) (ix1 k)

theorem v19_b (k : Fin 64) : V19 (F := Ideal) m ρ c main_v193 (ix2 (0 : Fin 1) k) = (m ((c.tc : Thread Cert.KernelIdeal.nD Cert.KernelIdeal.τ).loc Cert.KernelIdeal.main_arg20) : Cert.KernelIdeal.S64.Idx → EReal) (ix1 k) := by
  refine (read_main_v193_apply (F := Ideal) (W18 m ρ c) 0 k).trans ?_
  exact congrFun (W18_eq_W0 (F := Ideal) m ρ c main_arg20 (by decide) (by decide) (by decide) (by decide) (by decide) (by decide) (by decide) (by decide) (by decide) (by decide) (by decide) (by decide) (by decide) (by decide) (by decide) (by decide) (by decide) (by decide)) (ix1 k)

theorem v19_b2 (u : Fin 1) (j : Fin 32) : V19 (F := Ideal) m ρ c main_v196 (ix2 u j) = (m ((c.tc : Thread Cert.KernelIdeal.nD Cert.KernelIdeal.τ).loc Cert.KernelIdeal.main_arg22) : Cert.KernelIdeal.S32.Idx → EReal) (ix1 j) := by
  refine (read_main_v196_apply (F := Ideal) (W18 m ρ c) u j).trans ?_
  exact congrFun (W18_eq_W0 (F := Ideal) m ρ c main_arg22 (by decide) (by decide) (by decide) (by decide) (by decide) (by decide) (by decide) (by decide) (by decide) (by decide) (by decide) (by decide) (by decide) (by decide) (by decide) (by decide) (by decide) (by decide)) (ix1 j)

theorem v19_w2 (k : Fin 64) (j : Fin 32) : V19 (F := Ideal) m ρ c main_arg21 (ix2 k j) = (m ((c.tc : Thread Cert.KernelIdeal.nD Cert.KernelIdeal.τ).loc Cert.KernelIdeal.main_arg21) : Cert.KernelIdeal.S64x32.Idx → EReal) (ix2 k j) :=
  congrFun (W19_eq_W0 (F := Ideal) m ρ c main_arg21 (by decide) (by decide) (by decide) (by decide) (by decide) (by decide) (by decide) (by decide) (by decide) (by decide) (by decide) (by decide) (by decide) (by decide) (by decide) (by decide) (by decide) (by decide) (by decide)) (ix2 k j)

theorem v19_mean (k : Fin 64) : V19 (F := Ideal) m ρ c main_v194 (ix2 (0 : Fin 1) k) = Ideal.div (KS1 m ρ c (ix2 0 k)) (Ideal.ofBits .f32 0x48F42400#32) :=
  read_main_v194_apply (F := Ideal) (W18 m ρ c) 0 k

theorem v19_var (k : Fin 64) : V19 (F := Ideal) m ρ c main_v195 (ix2 (0 : Fin 1) k)
    = Ideal.div (KQ1 m ρ c (ix2 0 k)) (Ideal.ofBits .f32 0x48F42400#32) - Ideal.div (KS1 m ρ c (ix2 0 k)) (Ideal.ofBits .f32 0x48F42400#32) * Ideal.div (KS1 m ρ c (ix2 0 k)) (Ideal.ofBits .f32 0x48F42400#32) :=
  read_main_v195_apply (F := Ideal) (W18 m ρ c) 0 k

end Kernel

end Z2

section Z2Stage
open Cert.KernelIdeal.Hand Z2 in
/-- The second classifier layer: the two programs' arrays agree, and the kernel program's two accumulated rows are its
    column sums and sums of squares, given the first layer's arrays, its accumulated rows, and that it is real. -/
theorem st_Z2 (hag : Agree m m' c) (hz : KZ1 m ρ c = RZ1 m' c) (hs : KS1 m ρ c = colSumForm (KZ1 m ρ c))
    (hq : KQ1 m ρ c = colSqForm (KZ1 m ρ c)) (hr : ∀ i, IsReal (KZ1 m ρ c i)) :
    KZ2 m ρ c = RZ2 m' c ∧ KS2 m ρ c = colSumForm (KZ2 m ρ c) ∧ KQ2 m ρ c = colSqForm (KZ2 m ρ c) := by
  refine ⟨?_, ?_, ?_⟩
  · funext jj
    obtain ⟨i, j, rfl⟩ : ∃ (i : Fin 500000) (j : Fin 32), jj = ix2 i j := ⟨jj 0, jj 1, eq_ix2 jj⟩
    have h19 : (m' ((c.tc : Thread Cert.ReferenceIdeal.nD Cert.ReferenceIdeal.τ).loc Cert.ReferenceIdeal.main_arg19)) = m ((c.tc : Thread Cert.KernelIdeal.nD Cert.KernelIdeal.τ).loc Cert.KernelIdeal.main_arg19) := hag.2.2.2.2.2.2.2.2.2.2.2.2.2.2.2.2.2.2.2.1
    have h20 : (m' ((c.tc : Thread Cert.ReferenceIdeal.nD Cert.ReferenceIdeal.τ).loc Cert.ReferenceIdeal.main_arg20)) = m ((c.tc : Thread Cert.KernelIdeal.nD Cert.KernelIdeal.τ).loc Cert.KernelIdeal.main_arg20) := hag.2.2.2.2.2.2.2.2.2.2.2.2.2.2.2.2.2.2.2.2.1
    have h21 : (m' ((c.tc : Thread Cert.ReferenceIdeal.nD Cert.ReferenceIdeal.τ).loc Cert.ReferenceIdeal.main_arg21)) = m ((c.tc : Thread Cert.KernelIdeal.nD Cert.KernelIdeal.τ).loc Cert.KernelIdeal.main_arg21) := hag.2.2.2.2.2.2.2.2.2.2.2.2.2.2.2.2.2.2.2.2.2.1
    have h22 : (m' ((c.tc : Thread Cert.ReferenceIdeal.nD Cert.ReferenceIdeal.τ).loc Cert.ReferenceIdeal.main_arg22)) = m ((c.tc : Thread Cert.KernelIdeal.nD Cert.KernelIdeal.τ).loc Cert.KernelIdeal.main_arg22) := hag.2.2.2.2.2.2.2.2.2.2.2.2.2.2.2.2.2.2.2.2.2.2.1
    have hR := Cert.ReferenceIdeal.Hand.at_z2 (fun b => m' (c, b)) i j
    rw [kz2_form m ρ c, bnAffine32Form_ix2]
    show _ = Cert.ReferenceIdeal.Hand.z2 (fun b => m' (c, b)) (ix2 i j)
    rw [hR]
    refine congrArg₂ (· + ·) (Finset.sum_congr rfl fun k _ => ?_) ?_
    · rw [v19_z, v19_g, v19_b, v19_mean, v19_var, v19_w2]
      unfold bnReluEntry
      have hx : AllReal fun i' : Fin 500000 => KZ1 m ρ c (ix2 i' k) := fun i' => hr _
      rw [batchnorm_stage (ι := Fin 500000) (by simp) (fun i' => KZ1 m ρ c (ix2 i' k)) hx (KS1 m ρ c (ix2 0 k)) (KQ1 m ρ c (ix2 0 k)) _ _
        (Ideal.ofBits .f32 0x7FC00000#32) (by rw [hs]; rfl) (by rw [hq]; rfl) i]
      rw [hz, (congrFun h19 (ix1 k)).symm, (congrFun h20 (ix1 k)).symm, (congrFun h21 (ix2 k j)).symm]
      rfl
    · rw [v19_b2]
      exact (congrFun h22 (ix1 j)).symm
  · rw [ks2_form m ρ c, kz2_form m ρ c]
  · rw [kq2_form m ρ c, kz2_form m ρ c]
end Z2Stage

end Cert.Bridge

end
-- ==== Proof.KI.V10.lean ====
/- The value of pipeline 10 of @main at the extended reals: after the region its output array is the last stage of the
   edge classifier applied to the arrays the region found — each row normalised entry by entry with the batch mean and
   variance rows, clamped below at zero, times the 32×1 weight, plus the 1×1 bias — and every input array is unchanged.
   Point `t` of the grid writes back rows `5000 t … 5000 t + 4999`; the row blocks tile the array. -/
import proofs.«176278_j29592324669622_2_alg».proof.Proof.KI.R10
import proofs.«176278_j29592324669622_2_alg».proof.Proof.KI.VPay
import Idealize.ShloMosaic.Lib.Pipeline.Value

set_option maxRecDepth 16384

noncomputable section

namespace Cert.KernelIdeal.HandValue

open Cert.KernelIdeal Cert.KernelIdeal.Gen Cert.KernelIdeal.Hand Cert.Bridge
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hz10 : (![0, 0] : Fin 2 → Nat) = fun _ => 0 := funext fun a => by fin_cases a <;> rfl

/-! ## Where each window's block sits in its array -/

/-- The windows' block indices at every grid point, decided over the grid: a window over a tall array is on row block
    `t` at point `t`; a window that is its whole array never moves. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

/-- Row `r` of row block `t`, as a row of the tall array. -/
def row10 (t : Fin cfg10.N) (r : Fin 5000) : Fin 500000 :=
  ⟨t.val * 5000 + r.val, by have h : t.val < 100 := Nat.lt_of_lt_of_eq t.isLt N_10; have := r.isLt; omega⟩

/-- Window 0's block at point `t` is rows `5000 t … 5000 t + 4999` of its array. -/
theorem iblk10_0_apply (c : Dev nD) (t : Fin cfg10.N) (r : Fin 5000) (k : Fin 32) :
    (iblk10 V c 0 t : FVec Ideal S5000x32 .f32) (ix2 r k) = (V c main_v197_0 : S500000x32.Idx → EReal) (ix2 (row10 t r) k) := by
  obtain ⟨h0a, h0b, h1a, h1b, h2a, h2b, h3a, h3b, h4a, h4b, h5a, h5b, h6a, h6b, h7a, h7b⟩ := idx10 t
  unfold iblk10
  rw [View.read_apply]
  show V c main_v197_0 _ = V c main_v197_0 _
  congr 1
  funext a; apply Fin.ext
  match a with
  | ⟨0, _⟩ => show win10_0.index t (0 : Fin 2) * 5000 + 1 * r.val = t.val * 5000 + r.val; rw [h0a]; omega
  | ⟨1, _⟩ => show win10_0.index t (1 : Fin 2) * 32 + 1 * k.val = k.val; rw [h0b]; omega

/-- Window 1's block at every point is its whole array. -/
theorem iblk10_1_apply (c : Dev nD) (t : Fin cfg10.N) (p : Fin 1) (k : Fin 32) :
    (iblk10 V c 1 t : FVec Ideal S1x32 .f32) (ix2 p k) = (V c main_v206 : S1x32.Idx → EReal) (ix2 p k) := by
  obtain ⟨h0a, h0b, h1a, h1b, h2a, h2b, h3a, h3b, h4a, h4b, h5a, h5b, h6a, h6b, h7a, h7b⟩ := idx10 t
  unfold iblk10
  rw [View.read_apply]
  show V c main_v206 _ = V c main_v206 _
  congr 1
  funext a; apply Fin.ext
  match a with
  | ⟨0, _⟩ => show win10_1.index t (0 : Fin 2) * 1 + 1 * p.val = p.val; rw [h1a]; omega
  | ⟨1, _⟩ => show win10_1.index t (1 : Fin 2) * 32 + 1 * k.val = k.val; rw [h1b]; omega

/-- Window 2's block at every point is its whole array. -/
theorem iblk10_2_apply (c : Dev nD) (t : Fin cfg10.N) (p : Fin 1) (k : Fin 32) :
    (iblk10 V c 2 t : FVec Ideal S1x32 .f32) (ix2 p k) = (V c main_v207 : S1x32.Idx → EReal) (ix2 p k) := by
  obtain ⟨h0a, h0b, h1a, h1b, h2a, h2b, h3a, h3b, h4a, h4b, h5a, h5b, h6a, h6b, h7a, h7b⟩ := idx10 t
  unfold iblk10
  rw [View.read_apply]
  show V c main_v207 _ = V c main_v207 _
  congr 1
  funext a; apply Fin.ext
  match a with
  | ⟨0, _⟩ => show win10_2.index t (0 : Fin 2) * 1 + 1 * p.val = p.val; rw [h2a]; omega
  | ⟨1, _⟩ => show win10_2.index t (1 : Fin 2) * 32 + 1 * k.val = k.val; rw [h2b]; omega

/-- Window 3's block at every point is its whole array. -/
theorem iblk10_3_apply (c : Dev nD) (t : Fin cfg10.N) (p : Fin 1) (k : Fin 32) :
    (iblk10 V c 3 t : FVec Ideal S1x32 .f32) (ix2 p k) = (V c main_v208 : S1x32.Idx → EReal) (ix2 p k) := by
  obtain ⟨h0a, h0b, h1a, h1b, h2a, h2b, h3a, h3b, h4a, h4b, h5a, h5b, h6a, h6b, h7a, h7b⟩ := idx10 t
  unfold iblk10
  rw [View.read_apply]
  show V c main_v208 _ = V c main_v208 _
  congr 1
  funext a; apply Fin.ext
  match a with
  | ⟨0, _⟩ => show win10_3.index t (0 : Fin 2) * 1 + 1 * p.val = p.val; rw [h3a]; omega
  | ⟨1, _⟩ => show win10_3.index t (1 : Fin 2) * 32 + 1 * k.val = k.val; rw [h3b]; omega

/-- Window 4's block at every point is its whole array. -/
theorem iblk10_4_apply (c : Dev nD) (t : Fin cfg10.N) (p : Fin 1) (k : Fin 32) :
    (iblk10 V c 4 t : FVec Ideal S1x32 .f32) (ix2 p k) = (V c main_v209 : S1x32.Idx → EReal) (ix2 p k) := by
  obtain ⟨h0a, h0b, h1a, h1b, h2a, h2b, h3a, h3b, h4a, h4b, h5a, h5b, h6a, h6b, h7a, h7b⟩ := idx10 t
  unfold iblk10
  rw [View.read_apply]
  show V c main_v209 _ = V c main_v209 _
  congr 1
  funext a; apply Fin.ext
  match a with
  | ⟨0, _⟩ => show win10_4.index t (0 : Fin 2) * 1 + 1 * p.val = p.val; rw [h4a]; omega
  | ⟨1, _⟩ => show win10_4.index t (1 : Fin 2) * 32 + 1 * k.val = k.val; rw [h4b]; omega

/-- Window 5's block at every point is its whole array. -/
theorem iblk10_5_apply (c : Dev nD) (t : Fin cfg10.N) (p : Fin 32) (k : Fin 1) :
    (iblk10 V c 5 t : FVec Ideal S32x1 .f32) (ix2 p k) = (V c main_arg25 : S32x1.Idx → EReal) (ix2 p k) := by
  obtain ⟨h0a, h0b, h1a, h1b, h2a, h2b, h3a, h3b, h4a, h4b, h5a, h5b, h6a, h6b, h7a, h7b⟩ := idx10 t
  unfold iblk10
  rw [View.read_apply]
  show V c main_arg25 _ = V c main_arg25 _
  congr 1
  funext a; apply Fin.ext
  match a with
  | ⟨0, _⟩ => show win10_5.index t (0 : Fin 2) * 32 + 1 * p.val = p.val; rw [h5a]; omega
  | ⟨1, _⟩ => show win10_5.index t (1 : Fin 2) * 1 + 1 * k.val = k.val; rw [h5b]; omega

/-- Window 6's block at every point is its whole array. -/
theorem iblk10_6_apply (c : Dev nD) (t : Fin cfg10.N) (p : Fin 1) (k : Fin 1) :
    (iblk10 V c 6 t : FVec Ideal S1x1 .f32) (ix2 p k) = (V c main_v210 : S1x1.Idx → EReal) (ix2 p k) := by
  obtain ⟨h0a, h0b, h1a, h1b, h2a, h2b, h3a, h3b, h4a, h4b, h5a, h5b, h6a, h6b, h7a, h7b⟩ := idx10 t
  unfold iblk10
  rw [View.read_apply]
  show V c main_v210 _ = V c main_v210 _
  congr 1
  funext a; apply Fin.ext
  match a with
  | ⟨0, _⟩ => show win10_6.index t (0 : Fin 2) * 1 + 1 * p.val = p.val; rw [h6a]; omega
  | ⟨1, _⟩ => show win10_6.index t (1 : Fin 2) * 1 + 1 * k.val = k.val; rw [h6b]; omega

/-! ## What a point writes back -/

/-- The normalised, clamped entry respects equality of its five arguments. -/
theorem bnReluEntry_congr {h h' g g' β β' μ μ' v v' : EReal} (e0 : h = h') (e1 : g = g') (e2 : β = β') (e3 : μ = μ')
    (e4 : v = v') : bnReluEntry h g β μ v = bnReluEntry h' g' β' μ' v' := by
  subst e0 e1 e2 e3 e4; rfl

/-- Entry `(r, q)` of the block the body stores at point `t` is entry `(5000 t + r, q)` of the closed form of the
    arrays as the region finds them. -/
theorem stored10_apply (c : Dev nD) (t : Fin cfg10.N) (r : Fin 5000) (q : Fin 1) :
    (k10_pay1 (F := Ideal) (iblk10 V c 0 t) (iblk10 V c 1 t) (iblk10 V c 2 t) (iblk10 V c 3 t) (iblk10 V c 4 t) (iblk10 V c 5 t) (iblk10 V c 6 t) (ix2 r q) : EReal)
      = bnAffineForm (V c main_v197_0) (V c main_v206) (V c main_v207) (V c main_v208) (V c main_v209) (V c main_arg25) (V c main_v210) (ix2 (row10 t r) q) := by
  refine ((bn_pay_apply _ _ _ _ _ _ _ r q).trans ?_).trans (bnAffineForm_ix2 _ _ _ _ _ _ _ (row10 t r) q).symm
  exact congrArg₂ (· + ·)
    (Finset.sum_congr rfl fun k _ => congrArg₂ (· * ·)
      (bnReluEntry_congr (iblk10_0_apply V c t r k) (iblk10_1_apply V c t 0 k) (iblk10_2_apply V c t 0 k)
        (iblk10_3_apply V c t 0 k) (iblk10_4_apply V c t 0 k))
      (iblk10_5_apply V c t k q))
    (iblk10_6_apply V c t 0 q)

/-- What point `t` writes back to the output window's array is block `t` of the closed form. -/
theorem flushed10_eq (c : Dev nD) (t : Fin cfg10.N) :
    (dat10 (F := Ideal) V c).flushed 7 t = ((cfg10.win 7).blk t).view.read (Elt Ideal) (bnAffineForm (V c main_v197_0) (V c main_v206) (V c main_v207) (V c main_v208) (V c main_v209) (V c main_arg25) (V c main_v210)) := by
  show (cfg10.win 7).cut (grid10.coords t) ((dat10 V c).after 7 t) = _
  rw [after10_7]
  unfold out10_7
  rw [View.canon_unit_zero hz10]
  simp only [View.ld_unit_zero (S := S5000x32) hz10, View.ld_unit_zero (S := S1x32) hz10, View.ld_unit_zero (S := S32x1) hz10, View.ld_unit_zero (S := S1x1) hz10, View.ld_unit_zero (S := S5000x1) hz10]
  obtain ⟨h0a, h0b, h1a, h1b, h2a, h2b, h3a, h3b, h4a, h4b, h5a, h5b, h6a, h6b, h7a, h7b⟩ := idx10 t
  funext j
  obtain ⟨r, q, rfl⟩ : ∃ (r : Fin 5000) (q : Fin 1), j = ix2 r q := ⟨j 0, j 1, eq_ix2 j⟩
  refine (stored10_apply V c t r q).trans ?_
  rw [View.read_apply]
  refine congrArg (bnAffineForm (V c main_v197_0) (V c main_v206) (V c main_v207) (V c main_v208) (V c main_v209) (V c main_arg25) (V c main_v210)) ?_
  funext a; apply Fin.ext
  match a with
  | ⟨0, _⟩ => show t.val * 5000 + r.val = win10_7.index t (0 : Fin 2) * 5000 + 1 * r.val; rw [h7a]; omega
  | ⟨1, _⟩ => show q.val = win10_7.index t (1 : Fin 2) * 1 + 1 * q.val; rw [h7b]; omega

/-! ## The output array after the run -/

/-- An index of the array is in point `t`'s block iff each coordinate is in the block's range on its axis. -/
theorem mem_blk10 (t : Fin cfg10.N) (i : S500000x1.Idx) :
    i ∈ ((cfg10.win 7).blk t).view.set ↔ ∀ a : Fin 2, win10_7.index t a * S5000x1.size a ≤ (i a).val ∧ (i a).val < win10_7.index t a * S5000x1.size a + S5000x1.size a := by
  show i ∈ ((View.whole main_v211).slice (win10_7.rect t)).set ↔ _
  rw [View.set_slice_whole, Rect.mem_set_unit]
  exact Iff.rfl

/-- The row blocks tile the array: row `n` is in the block of point `n / 5000`. -/
theorem covered10 (i : S500000x1.Idx) :
    ∃ t : Fin cfg10.N, (cfg10.win 7).flush t = true ∧ i ∈ ((cfg10.win 7).blk t).view.set := by
  have hi0 : (i 0).val < 500000 := (i 0).isLt
  have hi1 : (i 1).val < 1 := (i 1).isLt
  obtain ⟨t, ht⟩ : ∃ t : Fin cfg10.N, t.val = (i 0).val / 5000 :=
    ⟨⟨(i 0).val / 5000, Nat.lt_of_lt_of_eq (show (i 0).val / 5000 < 100 by omega) N_10.symm⟩, rfl⟩
  obtain ⟨h0a, h0b, h1a, h1b, h2a, h2b, h3a, h3b, h4a, h4b, h5a, h5b, h6a, h6b, h7a, h7b⟩ := idx10 t
  refine ⟨t, flush10_7 t, (mem_blk10 t i).mpr fun a => ?_⟩
  match a with
  | ⟨0, _⟩ =>
    show win10_7.index t (0 : Fin 2) * 5000 ≤ (i 0).val ∧ (i 0).val < win10_7.index t (0 : Fin 2) * 5000 + 5000
    rw [h7a, ht]; omega
  | ⟨1, _⟩ =>
    show win10_7.index t (1 : Fin 2) * 1 ≤ (i 1).val ∧ (i 1).val < win10_7.index t (1 : Fin 2) * 1 + 1
    rw [h7b]; omega

/-- THE OUTPUT ARRAY after the region is the closed form of the arrays as the region finds them. -/
theorem arrAt_out10 (c : Dev nD) :
    (dat10 (F := Ideal) V c).arrAt 7 cfg10.N = bnAffineForm (V c main_v197_0) (V c main_v206) (V c main_v207) (V c main_v208) (V c main_v209) (V c main_arg25) (V c main_v210) :=
  (dat10 V c).arrAt_eq_of_cover 7 _ (fun t _ => flushed10_eq V c t) covered10

/-- Every input array is as the region found it: an input window is never written back. -/
theorem arrAt_in10 (c : Dev nD) (w : Fin cfg10.W) (hw : w ≠ 7) :
    (dat10 (F := Ideal) V c).arrAt w cfg10.N = V c (Pipeline.arrRef spec10 w) := by
  have hin : (cfg10.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, h => exact absurd rfl h
  exact ((dat10 V c).arrAt_in w hin _).trans (A_eq10 V c w)

end Cert.KernelIdeal.HandValue

end
-- ==== Proof.KI.H10.lean ====
/-
  The host operations before the eleventh kernel launch: the batch statistics of the 32 feature columns out of the
  two accumulated rows the preceding launch left — the mean is the row of sums over the count, the variance the row of
  sums of squares over the count minus the squared mean, the count being the float `500000` — and the rows the next
  launch stages: the scale, the shift, the mean, the variance, and the next layer's bias.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- The count, at every feature. -/
abbrev countRow32 : FVec F S32 .f32 := broadcastInDim S32 ![] bcast_S_S32 (constant S_ .f32 0x48F42400#32)

/-- The mean of each feature: its accumulated sum over the count. -/
abbrev meanOf32 (s : FVec F S1x32 .f32) : FVec F S32 .f32 :=
  Host.divf (shapeCast S32 s shapeCasts_S1x32_S32) countRow32

/-- The variance of each feature: its accumulated sum of squares over the count, minus the squared mean. -/
abbrev varOf32 (s q : FVec F S1x32 .f32) : FVec F S32 .f32 :=
  subf (Host.divf (shapeCast S32 q shapeCasts_S1x32_S32) countRow32) (mulf (meanOf32 s) (meanOf32 s))

theorem countRow32_apply (j : Fin 32) : (countRow32 (F := F)) (ix1 j) = FloatOps.ofBits .f32 0x48F42400#32 := by
  show broadcastInDim S32 ![] bcast_S_S32 (constant (F := F) S_ .f32 0x48F42400#32) (ix1 j) = _
  rw [BroadcastReads.scalar_apply]
  rfl

theorem meanOf32_apply (s : FVec F S1x32 .f32) (j : Fin 32) :
    meanOf32 s (ix1 j) = FloatOps.hostDivf (s (ix2 (0 : Fin 1) j)) (FloatOps.ofBits .f32 0x48F42400#32) := by
  show FloatOps.hostDivf (shapeCast S32 s shapeCasts_S1x32_S32 (ix1 j)) (countRow32 (ix1 j)) = _
  rw [shapeCast_1a_a_apply, countRow32_apply]

theorem varOf32_apply (s q : FVec F S1x32 .f32) (j : Fin 32) :
    varOf32 s q (ix1 j)
      = FloatOps.subf (FloatOps.hostDivf (q (ix2 (0 : Fin 1) j)) (FloatOps.ofBits .f32 0x48F42400#32))
          (FloatOps.mulf (FloatOps.hostDivf (s (ix2 (0 : Fin 1) j)) (FloatOps.ofBits .f32 0x48F42400#32))
            (FloatOps.hostDivf (s (ix2 (0 : Fin 1) j)) (FloatOps.ofBits .f32 0x48F42400#32))) := by
  show FloatOps.subf (FloatOps.hostDivf (shapeCast S32 q shapeCasts_S1x32_S32 (ix1 j)) (countRow32 (ix1 j)))
      (FloatOps.mulf (meanOf32 s (ix1 j)) (meanOf32 s (ix1 j))) = _
  rw [shapeCast_1a_a_apply, countRow32_apply, meanOf32_apply]

/-- The mean, as the row the next launch stages. -/
theorem read_main_v208 (W : Valuation τ sig (Elt F)) :
    (StableHlo.after (hostOps10 (F := F)) W (Proc.devRef .tc main_v208) : FVec F S1x32 .f32)
      = shapeCast S1x32 (meanOf32 (W (Proc.devRef .tc main_v197_1) : FVec F S1x32 .f32)) shapeCasts_S32_S1x32 := by
  dsimp only [hostOps10]; after_results <;> rfl

theorem read_main_v208_apply (W : Valuation τ sig (Elt F)) (u : Fin 1) (j : Fin 32) :
    (StableHlo.after (hostOps10 (F := F)) W (Proc.devRef .tc main_v208) : FVec F S1x32 .f32) (ix2 u j)
      = FloatOps.hostDivf ((W (Proc.devRef .tc main_v197_1) : FVec F S1x32 .f32) (ix2 (0 : Fin 1) j))
          (FloatOps.ofBits .f32 0x48F42400#32) := by
  rw [read_main_v208, shapeCast_a_1a_apply, meanOf32_apply]

/-- The variance, as the row the next launch stages. -/
theorem read_main_v209 (W : Valuation τ sig (Elt F)) :
    (StableHlo.after (hostOps10 (F := F)) W (Proc.devRef .tc main_v209) : FVec F S1x32 .f32)
      = shapeCast S1x32
          (varOf32 (W (Proc.devRef .tc main_v197_1) : FVec F S1x32 .f32) (W (Proc.devRef .tc main_v197_2) : FVec F S1x32 .f32))
          shapeCasts_S32_S1x32 := by
  dsimp only [hostOps10]; after_results <;> rfl

theorem read_main_v209_apply (W : Valuation τ sig (Elt F)) (u : Fin 1) (j : Fin 32) :
    (StableHlo.after (hostOps10 (F := F)) W (Proc.devRef .tc main_v209) : FVec F S1x32 .f32) (ix2 u j)
      = FloatOps.subf
          (FloatOps.hostDivf ((W (Proc.devRef .tc main_v197_2) : FVec F S1x32 .f32) (ix2 (0 : Fin 1) j))
            (FloatOps.ofBits .f32 0x48F42400#32))
          (FloatOps.mulf
            (FloatOps.hostDivf ((W (Proc.devRef .tc main_v197_1) : FVec F S1x32 .f32) (ix2 (0 : Fin 1) j))
              (FloatOps.ofBits .f32 0x48F42400#32))
            (FloatOps.hostDivf ((W (Proc.devRef .tc main_v197_1) : FVec F S1x32 .f32) (ix2 (0 : Fin 1) j))
              (FloatOps.ofBits .f32 0x48F42400#32))) := by
  rw [read_main_v209, shapeCast_a_1a_apply, varOf32_apply]

/-- The scale, as a row. -/
theorem read_main_v206 (W : Valuation τ sig (Elt F)) :
    (StableHlo.after (hostOps10 (F := F)) W (Proc.devRef .tc main_v206) : FVec F S1x32 .f32)
      = shapeCast S1x32 (W (Proc.devRef .tc main_arg23) : FVec F S32 .f32) shapeCasts_S32_S1x32 := by
  dsimp only [hostOps10]; after_results <;> rfl

theorem read_main_v206_apply (W : Valuation τ sig (Elt F)) (u : Fin 1) (j : Fin 32) :
    (StableHlo.after (hostOps10 (F := F)) W (Proc.devRef .tc main_v206) : FVec F S1x32 .f32) (ix2 u j)
      = (W (Proc.devRef .tc main_arg23) : FVec F S32 .f32) (ix1 j) := by
  rw [read_main_v206]
  exact shapeCast_a_1a_apply _ _ u j

/-- The shift, as a row. -/
theorem read_main_v207 (W : Valuation τ sig (Elt F)) :
    (StableHlo.after (hostOps10 (F := F)) W (Proc.devRef .tc main_v207) : FVec F S1x32 .f32)
      = shapeCast S1x32 (W (Proc.devRef .tc main_arg24) : FVec F S32 .f32) shapeCasts_S32_S1x32 := by
  dsimp only [hostOps10]; after_results <;> rfl

theorem read_main_v207_apply (W : Valuation τ sig (Elt F)) (u : Fin 1) (j : Fin 32) :
    (StableHlo.after (hostOps10 (F := F)) W (Proc.devRef .tc main_v207) : FVec F S1x32 .f32) (ix2 u j)
      = (W (Proc.devRef .tc main_arg24) : FVec F S32 .f32) (ix1 j) := by
  rw [read_main_v207]
  exact shapeCast_a_1a_apply _ _ u j

/-- The last classifier bias, as a `[1, 1]` array. -/
theorem read_main_v210 (W : Valuation τ sig (Elt F)) :
    (StableHlo.after (hostOps10 (F := F)) W (Proc.devRef .tc main_v210) : FVec F S1x1 .f32)
      = shapeCast S1x1 (W (Proc.devRef .tc main_arg26) : FVec F S1 .f32) shapeCasts_S1_S1x1 := by
  dsimp only [hostOps10]; after_results <;> rfl

theorem read_main_v210_apply (W : Valuation τ sig (Elt F)) (u j : Fin 1) :
    (StableHlo.after (hostOps10 (F := F)) W (Proc.devRef .tc main_v210) : FVec F S1x1 .f32) (ix2 u j)
      = (W (Proc.devRef .tc main_arg26) : FVec F S1 .f32) (ix1 j) := by
  rw [read_main_v210]
  exact shapeCast_a_1a_apply _ _ u j

end Cert.KernelIdeal.HostRead

end
-- ==== Proof.KI.H11.lean ====
/-
  The host operation after the last kernel launch: the result, the launch's `[500000, 1]` output re-laid as a list of
  `500000` entries; entry `i` is the output's entry `(i, 0)`.
-/
import proofs.«176278_j29592324669622_2_alg».proof.Proof.Gen.KernelIdeal.Launch
import proofs.«176278_j29592324669622_2_alg».proof.Proof.KI.Terms
import Idealize.ShloMosaic.Lib.StableHlo.Run

noncomputable section

namespace Cert.KernelIdeal.HostRead

open Idealize.ShloMosaic Idealize.ShloMosaic.TcCoe Idealize.ShloMosaic.ValueIdx Cert.KernelIdeal.Gen

variable {F : FTy → Type} [FloatOps F]

/-- A column `[a, 1]` re-laid as a list `[a]`: entry `i` is the column's entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The program's result. -/
theorem read_main_v212 (W : Valuation τ sig (Elt F)) :
    (StableHlo.after (hostOps11 (F := F)) W (Proc.devRef .tc main_v212) : FVec F S500000 .f32)
      = shapeCast S500000 (W (Proc.devRef .tc main_v211) : FVec F S500000x1 .f32) shapeCasts_S500000x1_S500000 := by
  dsimp only [hostOps11]; after_results <;> rfl

theorem read_main_v212_apply (W : Valuation τ sig (Elt F)) (i : Fin 500000) :
    (StableHlo.after (hostOps11 (F := F)) W (Proc.devRef .tc main_v212) : FVec F S500000 .f32) (ix1 i)
      = (W (Proc.devRef .tc main_v211) : FVec F S500000x1 .f32) (ix2 i (0 : Fin 1)) := by
  rw [read_main_v212]
  exact shapeCast_a1_a_apply _ _ i

end Cert.KernelIdeal.HostRead

end
-- ==== Proof.Ref.At5.lean ====
/- The last stage of the reference read at an index, at the ideal values: the second classifier layer's column sums, means and variances, and the result as the batch-normalised, rectified layer through the last weight, plus its bias. -/
import proofs.«176278_j29592324669622_2_alg».proof.Proof.Ref.Arrays

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The column sums at a column: the initial zero plus the sum down the column. -/
theorem at_z2sum (V : Valuation τ sig (Elt Ideal)) (k : Fin 32) :
    z2sum V (ix1 k) = (Ideal.ofBits .f32 0x00000000#32 + ∑ i' : Fin 500000, z2 V (ix2 i' k)) := by
  show after ops V (Proc.devRef .tc main_v252) (ix1 k) = _
  rw [read_v252 V]
  exact colSum_apply reducesTo_S500000x32_S32_d0 (by decide) h_S_ _ _ k

/-- The column means at a column: the column sum over the count. -/
theorem at_z2mean (V : Valuation τ sig (Elt Ideal)) (k : Fin 32) :
    z2mean V (ix1 k) = Ideal.div (Ideal.ofBits .f32 0x00000000#32 + ∑ i' : Fin 500000, z2 V (ix2 i' k)) (Ideal.ofBits .f32 0x48F42400#32) := by
  have hs : after ops V (Proc.devRef .tc main_v252) (ix1 k) = (Ideal.ofBits .f32 0x00000000#32 + ∑ i' : Fin 500000, z2 V (ix2 i' k)) := at_z2sum V k
  show after ops V (Proc.devRef .tc main_v254) (ix1 k) = _
  rw [read_v254 V, hostDivf_apply, hs, broadcastInDim_scalar_apply]
  all_goals rfl

/-- The column variances at a column: under the guard that the count less the correction (zero) is positive, the sum of
    squared deviations from the column mean over that count; the guard's other branch is a NaN literal. -/
theorem at_z2var (V : Valuation τ sig (Elt Ideal)) (k : Fin 32) :
    z2var V (ix1 k) =
        Scalar.select (Ideal.cmp .ogt (Ideal.ofBits .f32 0x48F42400#32 - ((((0#32 : BitVec 32).toInt : ℤ) : ℝ) : EReal)) (Ideal.ofBits .f32 0x00000000#32))
          (Ideal.div (Ideal.ofBits .f32 0x00000000#32 + ∑ i' : Fin 500000, (z2 V (ix2 i' k) - Ideal.div (Ideal.ofBits .f32 0x00000000#32 + ∑ i' : Fin 500000, z2 V (ix2 i' k)) (Ideal.ofBits .f32 0x48F42400#32)) * (z2 V (ix2 i' k) - Ideal.div (Ideal.ofBits .f32 0x00000000#32 + ∑ i' : Fin 500000, z2 V (ix2 i' k)) (Ideal.ofBits .f32 0x48F42400#32)))
            (Ideal.ofBits .f32 0x48F42400#32 - ((((0#32 : BitVec 32).toInt : ℤ) : ℝ) : EReal)))
          (Ideal.ofBits .f32 0x7FC00000#32) := by
  show after ops V (Proc.devRef .tc main_v255) (ix1 k) = _
  have key : ∀ i' : Fin 500000,
      (mulf (subf (after ops V (Proc.devRef .tc main_v251)) (broadcastInDim S500000x32 ![0, 1] bcast_S1x32_S500000x32_0_1 (Host.divf (broadcastInDim S1x32 ![1] bcast_S32_S1x32_1 (Host.reduceAdd (after ops V (Proc.devRef .tc main_v251)) (constant (F := Ideal) S_ .f32 0x00000000#32) reducesTo_S500000x32_S32_d0 h_S_)) (broadcastInDim S1x32 ![] bcast_S_S1x32 (constant (F := Ideal) S_ .f32 0x48F42400#32)))))
        (subf (after ops V (Proc.devRef .tc main_v251)) (broadcastInDim S500000x32 ![0, 1] bcast_S1x32_S500000x32_0_1 (Host.divf (broadcastInDim S1x32 ![1] bcast_S32_S1x32_1 (Host.reduceAdd (after ops V (Proc.devRef .tc main_v251)) (constant (F := Ideal) S_ .f32 0x00000000#32) reducesTo_S500000x32_S32_d0 h_S_)) (broadcastInDim S1x32 ![] bcast_S_S1x32 (constant (F := Ideal) S_ .f32 0x48F42400#32)))))) (ix2 i' k)
        = (z2 V (ix2 i' k) - Ideal.div (Ideal.ofBits .f32 0x00000000#32 + ∑ i' : Fin 500000, z2 V (ix2 i' k)) (Ideal.ofBits .f32 0x48F42400#32)) * (z2 V (ix2 i' k) - Ideal.div (Ideal.ofBits .f32 0x00000000#32 + ∑ i' : Fin 500000, z2 V (ix2 i' k)) (Ideal.ofBits .f32 0x48F42400#32)) := fun i' => by
    rw [mulf_apply, subf_apply, bcast_rows_apply, hostDivf_apply, bcast_vec_row_apply,
      colSum_apply reducesTo_S500000x32_S32_d0 (by decide) h_S_, broadcastInDim_scalar_apply]
    all_goals rfl
  rw [read_v255 V, select_apply, hostDivf_apply, colSum_apply reducesTo_S500000x32_S32_d0 (by decide) h_S_]
  simp only [key]
  repeat rw [broadcastInDim_scalar_apply]
  all_goals rfl

/-- The result at a row: the second layer normalised by its column mean and variance, scaled and shifted, rectified, through the last weight's one column, plus the bias. -/
theorem at_out (V : Valuation τ sig (Elt Ideal)) (i : Fin 500000) :
    out V (ix1 i) =
      (∑ k : Fin 32, max (g2 V (ix1 k) * (z2 V (ix2 i k) - Ideal.div (Ideal.ofBits .f32 0x00000000#32 + ∑ i' : Fin 500000, z2 V (ix2 i' k)) (Ideal.ofBits .f32 0x48F42400#32))
          * Ideal.rsqrt (Scalar.select (Ideal.cmp .ogt (Ideal.ofBits .f32 0x48F42400#32 - ((((0#32 : BitVec 32).toInt : ℤ) : ℝ) : EReal)) (Ideal.ofBits .f32 0x00000000#32))
          (Ideal.div (Ideal.ofBits .f32 0x00000000#32 + ∑ i' : Fin 500000, (z2 V (ix2 i' k) - Ideal.div (Ideal.ofBits .f32 0x00000000#32 + ∑ i' : Fin 500000, z2 V (ix2 i' k)) (Ideal.ofBits .f32 0x48F42400#32)) * (z2 V (ix2 i' k) - Ideal.div (Ideal.ofBits .f32 0x00000000#32 + ∑ i' : Fin 500000, z2 V (ix2 i' k)) (Ideal.ofBits .f32 0x48F42400#32)))
            (Ideal.ofBits .f32 0x48F42400#32 - ((((0#32 : BitVec 32).toInt : ℤ) : ℝ) : EReal)))
          (Ideal.ofBits .f32 0x7FC00000#32) + Ideal.ofBits .f32 0x3727C5AC#32)
        + be2 V (ix1 k)) (Ideal.ofBits .f32 0x00000000#32)
          * W3 V (ix2 k 0)) + b3 V (ix1 0) := by
  show after ops V (Proc.devRef .tc main_v276) (ix1 i) = _
  rw [read_v276 V, reshape_col_apply, addf_apply, hostDot_apply dot_S500000x32_S32x1_S500000x1_1_0_0_1_n_n rfl, bcast_rows_apply, bcast_vec_row_apply]
  refine congrArg₂ (· + ·) (Finset.sum_congr rfl fun k _ => ?_) rfl
  have hm : after ops V (Proc.devRef .tc main_v254) (ix1 k) = Ideal.div (Ideal.ofBits .f32 0x00000000#32 + ∑ i' : Fin 500000, z2 V (ix2 i' k)) (Ideal.ofBits .f32 0x48F42400#32) := at_z2mean V k
  have hv : after ops V (Proc.devRef .tc main_v255) (ix1 k) =
      Scalar.select (Ideal.cmp .ogt (Ideal.ofBits .f32 0x48F42400#32 - ((((0#32 : BitVec 32).toInt : ℤ) : ℝ) : EReal)) (Ideal.ofBits .f32 0x00000000#32))
          (Ideal.div (Ideal.ofBits .f32 0x00000000#32 + ∑ i' : Fin 500000, (z2 V (ix2 i' k) - Ideal.div (Ideal.ofBits .f32 0x00000000#32 + ∑ i' : Fin 500000, z2 V (ix2 i' k)) (Ideal.ofBits .f32 0x48F42400#32)) * (z2 V (ix2 i' k) - Ideal.div (Ideal.ofBits .f32 0x00000000#32 + ∑ i' : Fin 500000, z2 V (ix2 i' k)) (Ideal.ofBits .f32 0x48F42400#32)))
            (Ideal.ofBits .f32 0x48F42400#32 - ((((0#32 : BitVec 32).toInt : ℤ) : ℝ) : EReal)))
          (Ideal.ofBits .f32 0x7FC00000#32) := at_z2var V k
  simp only [maximumf_apply, addf_apply, mulf_apply, subf_apply]
  repeat rw [bcast_rows_apply]
  repeat rw [bcast_vec_row_apply]
  rw [hostRsqrt_apply, addf_apply, hm, hv]
  repeat rw [broadcastInDim_scalar_apply]
  all_goals rfl

end Cert.ReferenceIdeal.Hand

end
-- ==== Proof.Bridge.Out.lean ====
/- The last stage of the bridge: the two programs' results are the same array.
   The kernel program's result is its last region's output re-laid as a list; that output is, row by row, the
   batch-normalised, rectified second classifier layer through the last weight plus the bias, with the column mean
   and variance the host computes from the accumulated column sums and sums of squares (sum over the count, and sum of
   squares over the count minus the squared mean). The reference normalises with the mean and the guarded two-pass
   variance of the same columns. For a column of real numbers the two variances are one number (the sum of squared
   deviations over the count is the second moment minus the squared mean), so entry by entry the two results agree,
   given that the second layer's arrays agree and that the accumulated rows are the column sums. -/
import proofs.«176278_j29592324669622_2_alg».proof.Proof.Bridge.Defs
import proofs.«176278_j29592324669622_2_alg».proof.Proof.KI.Keep
import proofs.«176278_j29592324669622_2_alg».proof.Proof.KI.Main
import proofs.«176278_j29592324669622_2_alg».proof.Proof.KI.V10
import proofs.«176278_j29592324669622_2_alg».proof.Proof.KI.H10
import proofs.«176278_j29592324669622_2_alg».proof.Proof.KI.H11
import proofs.«176278_j29592324669622_2_alg».proof.Proof.Math.Stages
import proofs.«176278_j29592324669622_2_alg».proof.Proof.Math.KernelForms2
import proofs.«176278_j29592324669622_2_alg».proof.Proof.Ref.At5

noncomputable section

namespace Cert.Bridge

open Idealize.ShloMosaic Idealize.ShloMosaic.TcCoe Idealize.ShloMosaic.ValueIdx Cert.Bridge
open Cert.Lib.MeanLaws (IsReal)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

namespace Out

section Kernel
open Cert.KernelIdeal Cert.KernelIdeal.Gen Cert.KernelIdeal.Hand Cert.KernelIdeal.HostRead

/-- The result of the kernel program at a row: the last region's output there. -/
theorem kout_form (i : Fin 500000) :
    KOUT m ρ c (ix1 i) = bnAffineForm (V21 (F := Ideal) m ρ c main_v197_0) (V21 (F := Ideal) m ρ c main_v206) (V21 (F := Ideal) m ρ c main_v207)
      (V21 (F := Ideal) m ρ c main_v208) (V21 (F := Ideal) m ρ c main_v209) (V21 (F := Ideal) m ρ c main_arg25) (V21 (F := Ideal) m ρ c main_v210) (ix2 i (0 : Fin 1)) := by
  unfold KOUT
  refine (read_main_v212_apply (F := Ideal) (W22 m ρ c) i).trans ?_
  have h4 : W22 (F := Ideal) m ρ c (Proc.devRef .tc main_v211) = bnAffineForm (V21 (F := Ideal) m ρ c main_v197_0) (V21 (F := Ideal) m ρ c main_v206) (V21 (F := Ideal) m ρ c main_v207)
      (V21 (F := Ideal) m ρ c main_v208) (V21 (F := Ideal) m ρ c main_v209) (V21 (F := Ideal) m ρ c main_arg25) (V21 (F := Ideal) m ρ c main_v210) :=
    (W22_arr (F := Ideal) m ρ c 7).trans (Cert.KernelIdeal.HandValue.arrAt_out10 (V21 (F := Ideal) m ρ) c)
  exact congrFun h4 (ix2 i 0)

/-- An argument buffer as the stretch before the last region finds it: the launch memory. -/
theorem w20_arg (r : Ref sig .tc) (h11 : r ∉ hostOps11_W) (g10 : ∀ w, Pipeline.arrRef spec10 w ≠ r) (h10 : r ∉ hostOps10_W)
    (h : W23 (F := Ideal) m ρ c r = m ((c : Thread nD τ).loc r)) : W20 (F := Ideal) m ρ c r = m ((c : Thread nD τ).loc r) :=
  (W23_eq_W20 m ρ c r h11 g10 h10).symm.trans h

theorem v21_z (i : Fin 500000) (k : Fin 32) : V21 (F := Ideal) m ρ c main_v197_0 (ix2 i k) = KZ2 m ρ c (ix2 i k) := by
  unfold KZ2
  exact congrFun (W21_of (F := Ideal) m ρ c main_v197_0 (by decide)) (ix2 i k)

theorem v21_g (k : Fin 32) : V21 (F := Ideal) m ρ c main_v206 (ix2 (0 : Fin 1) k) = (m ((c.tc : Thread Cert.KernelIdeal.nD Cert.KernelIdeal.τ).loc Cert.KernelIdeal.main_arg23) : Cert.KernelIdeal.S32.Idx → EReal) (ix1 k) := by
  refine (read_main_v206_apply (F := Ideal) (W20 m ρ c) 0 k).trans ?_
  exact congrFun (w20_arg m ρ c main_arg23 (by decide) (by decide) (by decide) (W23_main_arg23 m ρ c)) (ix1 k)

theorem v21_b (k : Fin 32) : V21 (F := Ideal) m ρ c main_v207 (ix2 (0 : Fin 1) k) = (m ((c.tc : Thread Cert.KernelIdeal.nD Cert.KernelIdeal.τ).loc Cert.KernelIdeal.main_arg24) : Cert.KernelIdeal.S32.Idx → EReal) (ix1 k) := by
  refine (read_main_v207_apply (F := Ideal) (W20 m ρ c) 0 k).trans ?_
  exact congrFun (w20_arg m ρ c main_arg24 (by decide) (by decide) (by decide) (W23_main_arg24 m ρ c)) (ix1 k)

theorem v21_b3 (u j : Fin 1) : V21 (F := Ideal) m ρ c main_v210 (ix2 u j) = (m ((c.tc : Thread Cert.KernelIdeal.nD Cert.KernelIdeal.τ).loc Cert.KernelIdeal.main_arg26) : Cert.KernelIdeal.S1.Idx → EReal) (ix1 j) := by
  refine (read_main_v210_apply (F := Ideal) (W20 m ρ c) u j).trans ?_
  exact congrFun (w20_arg m ρ c main_arg26 (by decide) (by decide) (by decide) (W23_main_arg26 m ρ c)) (ix1 j)

theorem v21_w3 (k : Fin 32) (j : Fin 1) : V21 (F := Ideal) m ρ c main_arg25 (ix2 k j) = (m ((c.tc : Thread Cert.KernelIdeal.nD Cert.KernelIdeal.τ).loc Cert.KernelIdeal.main_arg25) : Cert.KernelIdeal.S32x1.Idx → EReal) (ix2 k j) := by
  have h : W21 (F := Ideal) m ρ c main_arg25 = W0 (F := Ideal) m ρ c main_arg25 :=
    W21_eq_W0 m ρ c main_arg25 (by decide) (by decide) (by decide) (by decide) (by decide) (by decide) (by decide) (by decide) (by decide) (by decide) (by decide) (by decide) (by decide) (by decide) (by decide) (by decide) (by decide) (by decide) (by decide) (by decide) (by decide)
  exact congrFun h (ix2 k j)

theorem v21_mean (k : Fin 32) : V21 (F := Ideal) m ρ c main_v208 (ix2 (0 : Fin 1) k) = Ideal.div (KS2 m ρ c (ix2 0 k)) (Ideal.ofBits .f32 0x48F42400#32) :=
  read_main_v208_apply (F := Ideal) (W20 m ρ c) 0 k

theorem v21_var (k : Fin 32) : V21 (F := Ideal) m ρ c main_v209 (ix2 (0 : Fin 1) k)
    = Ideal.div (KQ2 m ρ c (ix2 0 k)) (Ideal.ofBits .f32 0x48F42400#32) - Ideal.div (KS2 m ρ c (ix2 0 k)) (Ideal.ofBits .f32 0x48F42400#32) * Ideal.div (KS2 m ρ c (ix2 0 k)) (Ideal.ofBits .f32 0x48F42400#32) :=
  read_main_v209_apply (F := Ideal) (W20 m ρ c) 0 k

end Kernel

end Out

section OutStage
open Cert.KernelIdeal.Hand Out in
/-- The last stage: the two programs' results agree, given the stage before and its column statistics. -/
theorem st_OUT (hag : Agree m m' c) (hz : KZ2 m ρ c = RZ2 m' c) (hs : KS2 m ρ c = colSumForm (KZ2 m ρ c))
    (hq : KQ2 m ρ c = colSqForm (KZ2 m ρ c)) (hr : ∀ i, IsReal (KZ2 m ρ c i)) : KOUT m ρ c = ROUT m' c := by
  funext jj
  obtain ⟨i, rfl⟩ : ∃ i : Fin 500000, jj = ix1 i := ⟨jj 0, eq_ix1 jj⟩
  have h23 : (m' ((c.tc : Thread Cert.ReferenceIdeal.nD Cert.ReferenceIdeal.τ).loc Cert.ReferenceIdeal.main_arg23)) = m ((c.tc : Thread Cert.KernelIdeal.nD Cert.KernelIdeal.τ).loc Cert.KernelIdeal.main_arg23) := hag.2.2.2.2.2.2.2.2.2.2.2.2.2.2.2.2.2.2.2.2.2.2.2.1
  have h24 : (m' ((c.tc : Thread Cert.ReferenceIdeal.nD Cert.ReferenceIdeal.τ).loc Cert.ReferenceIdeal.main_arg24)) = m ((c.tc : Thread Cert.KernelIdeal.nD Cert.KernelIdeal.τ).loc Cert.KernelIdeal.main_arg24) := hag.2.2.2.2.2.2.2.2.2.2.2.2.2.2.2.2.2.2.2.2.2.2.2.2.1
  have h25 : (m' ((c.tc : Thread Cert.ReferenceIdeal.nD Cert.ReferenceIdeal.τ).loc Cert.ReferenceIdeal.main_arg25)) = m ((c.tc : Thread Cert.KernelIdeal.nD Cert.KernelIdeal.τ).loc Cert.KernelIdeal.main_arg25) := hag.2.2.2.2.2.2.2.2.2.2.2.2.2.2.2.2.2.2.2.2.2.2.2.2.2.1
  have h26 : (m' ((c.tc : Thread Cert.ReferenceIdeal.nD Cert.ReferenceIdeal.τ).loc Cert.ReferenceIdeal.main_arg26)) = m ((c.tc : Thread Cert.KernelIdeal.nD Cert.KernelIdeal.τ).loc Cert.KernelIdeal.main_arg26) := hag.2.2.2.2.2.2.2.2.2.2.2.2.2.2.2.2.2.2.2.2.2.2.2.2.2.2
  have hR := Cert.ReferenceIdeal.Hand.at_out (fun b => m' (c, b)) i
  rw [kout_form m ρ c i, bnAffineForm_ix2]
  show _ = Cert.ReferenceIdeal.Hand.out (fun b => m' (c, b)) (ix1 i)
  rw [hR]
  refine congrArg₂ (· + ·) (Finset.sum_congr rfl fun k _ => ?_) ?_
  · rw [v21_z, v21_g, v21_b, v21_mean, v21_var, v21_w3]
    unfold bnReluEntry
    have hx : AllReal fun i' : Fin 500000 => KZ2 m ρ c (ix2 i' k) := fun i' => hr _
    rw [batchnorm_stage (ι := Fin 500000) (by simp) (fun i' => KZ2 m ρ c (ix2 i' k)) hx (KS2 m ρ c (ix2 0 k)) (KQ2 m ρ c (ix2 0 k)) _ _
      (Ideal.ofBits .f32 0x7FC00000#32) (by rw [hs]; rfl) (by rw [hq]; rfl) i]
    rw [hz, (congrFun h23 (ix1 k)).symm, (congrFun h24 (ix1 k)).symm, (congrFun h25 (ix2 k 0)).symm]
    rfl
  · rw [v21_b3]
    exact (congrFun h26 (ix1 0)).symm
end OutStage

end Cert.Bridge

end
-- ==== Proof.KI.TermsReal.lean ====
/-
  Being a real number, through the host-side building blocks at the extended reals.  A gather only re-indexes its
  operand; an accumulating scatter's entry is the operand's entry plus a finite sum of update entries; a widening or
  narrowing of the float format is the identity.  So the messages summed per destination, the reciprocal clamped
  counts and the mean aggregations are all-real whenever the gathered array is.
-/
import proofs.«176278_j29592324669622_2_alg».proof.Proof.KI.Terms
import proofs.«176278_j29592324669622_2_alg».proof.Proof.KI.Terms2
import proofs.«176278_j29592324669622_2_alg».proof.Proof.LibMeanLaws
import proofs.«176278_j29592324669622_2_alg».proof.Proof.Math.Literals
import proofs.«176278_j29592324669622_2_alg».proof.Proof.Math.Real

noncomputable section

namespace Cert.KernelIdeal.HostRead

open Idealize.ShloMosaic Idealize.ShloMosaic.TcCoe Idealize.ShloMosaic.ValueIdx Cert.KernelIdeal.Gen
open Cert.Bridge
open Cert.Lib.MeanLaws (IsReal isReal_one_div_max_one)

/-- A gather of an all-real array is all-real, whatever its dimension numbers and indices. -/
theorem allReal_gather {s si t : Shape} {w : Nat} (d : GatherDims s si t) (x : s.Idx → EReal) (idx : IVec si w)
    (hx : AllReal x) : AllReal (Host.gather d x idx) := fun j => hx _

/-- An accumulating scatter of all-real updates into an all-real operand is all-real, whatever its dimension numbers
    and indices. -/
theorem allReal_scatterAdd {s si su : Shape} {w : Nat} {φ : FTy} (d : ScatterDims s si su) (x : FVec Ideal s φ)
    (idx : IVec si w) (upd : FVec Ideal su φ) (hx : AllReal x) (hu : AllReal upd) :
    AllReal (Host.scatterAdd d x idx upd) :=
  fun i => (hx i).add (IsReal.sum _ _ fun j _ => hu j)

/-- A broadcast of a constant that denotes a real number is all-real. -/
theorem allReal_bcast_const {t : Shape} (h : S_.BroadcastsInDim t (![] : Fin 0 → Fin t.rank)) (b : BitVec 32)
    (hb : IsReal (Ideal.ofBits .f32 b)) :
    AllReal (broadcastInDim t ![] h (constant (F := Ideal) S_ .f32 b)) := fun i => by
  rw [bcast_const_apply]; exact hb

theorem isReal_zero_bits : IsReal (Ideal.ofBits .f32 0x00000000#32) := Ideal.ofBits_zero_f32 ▸ IsReal.zero
theorem isReal_one_bits : IsReal (Ideal.ofBits .f32 0x3F800000#32) := ofBits_f32_one ▸ IsReal.one

/-- A change of float format is the identity on the extended reals. -/
theorem allReal_extf {s : Shape} {φ ψ : FTy} (x : FVec Ideal s φ) (h : φ.bits < ψ.bits) (hx : AllReal x) :
    AllReal (extf ψ x h) := fun i => hx i

/-- The messages summed per movie are all-real when the user rows are. -/
theorem allReal_sumToMovies (xu : FVec Ideal S100000x64 .bf16) (eu em : IVec S1000000 32) (hx : AllReal xu) :
    AllReal (sumToMovies xu eu em) :=
  allReal_scatterAdd scatter_S20000x64_S1000000x1_S1000000x64_1_0_0_1 _ (edgeCol em) _
    (allReal_bcast_const bcast_S_S20000x64 _ isReal_zero_bits)
    (allReal_extf _ bitsLt_bf16_f32
      (allReal_gather gather_S100000x64_S1000000x1_S1000000x64_1_0_n_n_0_1_164 xu (wrapEdges 100000#32 eu) hx))

/-- The messages summed per user are all-real when the movie rows are. -/
theorem allReal_sumToUsers (xm : FVec Ideal S20000x64 .bf16) (eu em : IVec S1000000 32) (hx : AllReal xm) :
    AllReal (sumToUsers xm eu em) :=
  allReal_scatterAdd scatter_S100000x64_S1000000x1_S1000000x64_1_0_0_1 _ (edgeCol eu) _
    (allReal_bcast_const bcast_S_S100000x64 _ isReal_zero_bits)
    (allReal_extf _ bitsLt_bf16_f32
      (allReal_gather gather_S20000x64_S1000000x1_S1000000x64_1_0_n_n_0_1_164 xm (wrapEdges 20000#32 em) hx))

/-- The movies' counts are real numbers. -/
theorem allReal_countMovies (em : IVec S1000000 32) : AllReal (countMovies (F := Ideal) em) :=
  allReal_scatterAdd scatter_S20000_S1000000x1_S1000000_n_0_0_1 _ (edgeCol em) _
    (allReal_bcast_const bcast_S_S20000 _ isReal_zero_bits) (allReal_bcast_const bcast_S_S1000000 _ isReal_one_bits)

/-- The users' counts are real numbers. -/
theorem allReal_countUsers (eu : IVec S1000000 32) : AllReal (countUsers (F := Ideal) eu) :=
  allReal_scatterAdd scatter_S100000_S1000000x1_S1000000_n_0_0_1 _ (edgeCol eu) _
    (allReal_bcast_const bcast_S_S100000 _ isReal_zero_bits) (allReal_bcast_const bcast_S_S1000000 _ isReal_one_bits)

/-- One over a real count clamped from below by one, in the float operations' spelling. -/
theorem isReal_invCount_entry {c : EReal} (hc : IsReal c) :
    IsReal (FloatOps.hostDivf (F := Ideal) (φ := .f32) (FloatOps.ofBits .f32 0x3F800000#32)
      (FloatOps.maximumf (F := Ideal) (φ := .f32) c (FloatOps.ofBits .f32 0x3F800000#32))) := by
  show IsReal (Ideal.div (Ideal.ofBits .f32 0x3F800000#32) (max c (Ideal.ofBits .f32 0x3F800000#32)))
  rw [ofBits_f32_one]
  exact isReal_one_div_max_one hc

/-- The movies' reciprocal clamped counts are real numbers. -/
theorem allReal_invCountMovies (em : IVec S1000000 32) : AllReal (invCountMovies (F := Ideal) em) := fun i => by
  obtain ⟨n, rfl⟩ : ∃ n : Fin 20000, i = ix1 n := ⟨i 0, eq_ix1 i⟩
  rw [invCountMovies_apply]
  exact isReal_invCount_entry (allReal_countMovies em _)

/-- The users' reciprocal clamped counts are real numbers. -/
theorem allReal_invCountUsers (eu : IVec S1000000 32) : AllReal (invCountUsers (F := Ideal) eu) := fun i => by
  obtain ⟨n, rfl⟩ : ∃ n : Fin 100000, i = ix1 n := ⟨i 0, eq_ix1 i⟩
  rw [invCountUsers_apply]
  exact isReal_invCount_entry (allReal_countUsers eu _)

/-- The movies' mean aggregation is all-real when the user rows and the scales are. -/
theorem allReal_aggMovies (xu : FVec Ideal S100000x64 .bf16) (eu em : IVec S1000000 32) (inv : FVec Ideal S20000 .f32)
    (hx : AllReal xu) (hi : AllReal inv) : AllReal (aggMovies xu eu em inv) := fun i => by
  obtain ⟨n, j, rfl⟩ : ∃ (n : Fin 20000) (j : Fin 64), i = ix2 n j := ⟨i 0, i 1, eq_ix2 i⟩
  rw [aggMovies_apply]
  exact (allReal_sumToMovies xu eu em hx _).mul (hi _)

/-- The users' mean aggregation is all-real when the movie rows and the scales are. -/
theorem allReal_aggUsers (xm : FVec Ideal S20000x64 .bf16) (eu em : IVec S1000000 32) (inv : FVec Ideal S100000 .f32)
    (hx : AllReal xm) (hi : AllReal inv) : AllReal (aggUsers xm eu em inv) := fun i => by
  obtain ⟨n, j, rfl⟩ : ∃ (n : Fin 100000) (j : Fin 64), i = ix2 n j := ⟨i 0, i 1, eq_ix2 i⟩
  rw [aggUsers_apply]
  exact (allReal_sumToUsers xm eu em hx _).mul (hi _)

end Cert.KernelIdeal.HostRead

end
-- ==== Proof.Math.FormsReal.lean ====
/-
  The row-wise stages keep real numbers real.  A SAGE layer's entry, a projection's entry and an affine entry are finite
  sums of products plus a bias, possibly clamped below at zero; a normalised entry is real whenever its column is a
  column of `500000` real numbers whose sum and sum of squares are the statistics used, because the variance is then a
  nonnegative real and the reciprocal square root of it plus the positive constant is a real.
-/
import proofs.«176278_j29592324669622_2_alg».proof.Proof.Math.KernelForms
import proofs.«176278_j29592324669622_2_alg».proof.Proof.Math.KernelForms2
import proofs.«176278_j29592324669622_2_alg».proof.Proof.Math.Stages

noncomputable section

namespace Cert.Bridge

open Idealize.ShloMosaic Idealize.ShloMosaic.ValueIdx
open Cert.Lib.MeanLaws (IsReal)

theorem isReal_of_eq {x y : EReal} (h : x = y) (hy : IsReal y) : IsReal x := h ▸ hy
theorem allReal_of_eq {ι : Type*} {f g : ι → EReal} (h : f = g) (hg : AllReal g) : AllReal f := h ▸ hg

theorem isReal_zero_word : IsReal (Ideal.ofBits .f32 0x00000000#32) := Ideal.ofBits_zero_f32 ▸ IsReal.zero

theorem sageForm_allReal {R : ℕ} {agg x : (⟨2, ![R, 64]⟩ : Shape).Idx → EReal}
    {Wl Wr : (⟨2, ![64, 64]⟩ : Shape).Idx → EReal} {b : (⟨2, ![1, 64]⟩ : Shape).Idx → EReal}
    (ha : AllReal agg) (hx : AllReal x) (hl : AllReal Wl) (hb : AllReal b) (hr : AllReal Wr) :
    AllReal (sageForm agg x Wl b Wr) := fun _ =>
  (((IsReal.sum _ _ fun _ _ => (ha _).mul (hl _)).add (IsReal.sum _ _ fun _ _ => (hx _).mul (hr _))).add (hb _)).max
    isReal_zero_word

theorem projForm_allReal {R : ℕ} {h1 h2 h3 : (⟨2, ![R, 64]⟩ : Shape).Idx → EReal}
    {W1 W2 W3 : (⟨2, ![64, 64]⟩ : Shape).Idx → EReal} {b : (⟨2, ![1, 64]⟩ : Shape).Idx → EReal}
    (r1 : AllReal h1) (r2 : AllReal h2) (r3 : AllReal h3) (w1 : AllReal W1) (w2 : AllReal W2) (w3 : AllReal W3)
    (hb : AllReal b) : AllReal (projForm h1 h2 h3 W1 W2 W3 b) := fun _ =>
  (((IsReal.sum _ _ fun _ _ => (r1 _).mul (w1 _)).add (IsReal.sum _ _ fun _ _ => (r2 _).mul (w2 _))).add
    (IsReal.sum _ _ fun _ _ => (r3 _).mul (w3 _))).add (hb _)

theorem affine2Form_allReal {R : ℕ} {x0 x1 : (⟨2, ![R, 64]⟩ : Shape).Idx → EReal}
    {W0 W1 : (⟨2, ![64, 64]⟩ : Shape).Idx → EReal} {b : (⟨2, ![1, 64]⟩ : Shape).Idx → EReal}
    (r0 : AllReal x0) (r1 : AllReal x1) (w0 : AllReal W0) (w1 : AllReal W1) (hb : AllReal b) :
    AllReal (affine2Form x0 x1 W0 W1 b) := fun _ =>
  ((IsReal.sum _ _ fun _ _ => (r0 _).mul (w0 _)).add (IsReal.sum _ _ fun _ _ => (r1 _).mul (w1 _))).add (hb _)

/-- A normalised, clamped entry of a real column of `500000` entries, with the column's own sum `s` and sum of squares
    `q` as statistics, is a real number when the scale and the shift are. -/
theorem bnReluEntry_isReal {ι : Type*} [Fintype ι] (hcard : Fintype.card ι = 500000) (x : ι → EReal) (hx : AllReal x)
    (s q : EReal) {g β : EReal} (hs : s = ∑ i, x i) (hq : q = ∑ i, x i * x i) (hg : IsReal g) (hβ : IsReal β) (i : ι) :
    IsReal (bnReluEntry (x i) g β (Ideal.div s (Ideal.ofBits .f32 0x48F42400#32))
      (Ideal.div q (Ideal.ofBits .f32 0x48F42400#32)
        - Ideal.div s (Ideal.ofBits .f32 0x48F42400#32) * Ideal.div s (Ideal.ofBits .f32 0x48F42400#32))) :=
  (batchnorm_stage_isReal hcard x hx s q hs hq hg hβ i).max isReal_zero_word

/-- The second classifier layer's entries are real numbers: `h` the real first layer, `S`, `Q` its column sums and sums
    of squares as one-row arrays, the mean and variance rows computed from them with the count, and real scale, shift,
    weight and bias. -/
theorem bnAffine32Form_allReal (h : (⟨2, ![500000, 64]⟩ : Shape).Idx → EReal)
    (g β μ v S Q : (⟨2, ![1, 64]⟩ : Shape).Idx → EReal) (W : (⟨2, ![64, 32]⟩ : Shape).Idx → EReal)
    (b : (⟨2, ![1, 32]⟩ : Shape).Idx → EReal) (hh : AllReal h) (hg : AllReal g) (hβ : AllReal β) (hW : AllReal W)
    (hb : AllReal b) (hS : S = colSumForm h) (hQ : Q = colSqForm h)
    (hμ : ∀ k : Fin 64, μ (ix2 (0 : Fin 1) k) = Ideal.div (S (ix2 (0 : Fin 1) k)) (Ideal.ofBits .f32 0x48F42400#32))
    (hv : ∀ k : Fin 64, v (ix2 (0 : Fin 1) k)
      = Ideal.div (Q (ix2 (0 : Fin 1) k)) (Ideal.ofBits .f32 0x48F42400#32)
        - Ideal.div (S (ix2 (0 : Fin 1) k)) (Ideal.ofBits .f32 0x48F42400#32)
          * Ideal.div (S (ix2 (0 : Fin 1) k)) (Ideal.ofBits .f32 0x48F42400#32)) :
    AllReal (bnAffine32Form h g β μ v W b) := fun i => by
  obtain ⟨n, j, rfl⟩ : ∃ (n : Fin 500000) (j : Fin 32), i = ix2 n j := ⟨i 0, i 1, eq_ix2 i⟩
  rw [bnAffine32Form_ix2]
  refine (IsReal.sum _ _ fun k _ => ?_).add (hb _)
  rw [hμ k, hv k]
  exact (bnReluEntry_isReal (ι := Fin 500000) (Fintype.card_fin 500000) (fun r => h (ix2 r k)) (fun r => hh _)
    (S (ix2 (0 : Fin 1) k)) (Q (ix2 (0 : Fin 1) k)) (by rw [hS]; rfl) (by rw [hQ]; rfl) (hg _) (hβ _) n).mul (hW _)

end Cert.Bridge

end
-- ==== Proof.Bridge.Real1.lean ====
/-
  Realness from the launch arguments to the first classifier layer.  Every stage is a finite sum of products of real
  numbers plus a real bias, possibly clamped below at zero; a mean aggregation is a finite sum of gathered real rows
  times a real reciprocal clamped count; a gather only re-indexes, and a change of float format is the identity.  Each
  stage's window arrays are traced back along the run to the stage arrays before it and to the launch arguments.
-/
import proofs.«176278_j29592324669622_2_alg».proof.Proof.Bridge.Defs
import proofs.«176278_j29592324669622_2_alg».proof.Proof.KI.Keep
import proofs.«176278_j29592324669622_2_alg».proof.Proof.KI.KeepIn
import proofs.«176278_j29592324669622_2_alg».proof.Proof.KI.V0
import proofs.«176278_j29592324669622_2_alg».proof.Proof.KI.V1
import proofs.«176278_j29592324669622_2_alg».proof.Proof.KI.V2
import proofs.«176278_j29592324669622_2_alg».proof.Proof.KI.V3
import proofs.«176278_j29592324669622_2_alg».proof.Proof.KI.V4
import proofs.«176278_j29592324669622_2_alg».proof.Proof.KI.V5
import proofs.«176278_j29592324669622_2_alg».proof.Proof.KI.V6
import proofs.«176278_j29592324669622_2_alg».proof.Proof.KI.V7
import proofs.«176278_j29592324669622_2_alg».proof.Proof.KI.V8
import proofs.«176278_j29592324669622_2_alg».proof.Proof.KI.H0
import proofs.«176278_j29592324669622_2_alg».proof.Proof.KI.H1
import proofs.«176278_j29592324669622_2_alg».proof.Proof.KI.H2
import proofs.«176278_j29592324669622_2_alg».proof.Proof.KI.H3
import proofs.«176278_j29592324669622_2_alg».proof.Proof.KI.H4
import proofs.«176278_j29592324669622_2_alg».proof.Proof.KI.H5
import proofs.«176278_j29592324669622_2_alg».proof.Proof.KI.H6
import proofs.«176278_j29592324669622_2_alg».proof.Proof.KI.H7
import proofs.«176278_j29592324669622_2_alg».proof.Proof.KI.H8
import proofs.«176278_j29592324669622_2_alg».proof.Proof.KI.TermsReal
import proofs.«176278_j29592324669622_2_alg».proof.Proof.Math.FormsReal

noncomputable section

namespace Cert.Bridge

open Idealize.ShloMosaic Idealize.ShloMosaic.TcCoe Idealize.ShloMosaic.ValueIdx
open Cert.Lib.MeanLaws (IsReal)

variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD)

namespace Real1

/-- A narrowing of the float format is the identity on the extended reals. -/
theorem allReal_truncf {s : Shape} {φ ψ : FTy} (x : FVec Ideal s φ) (h : ψ.bits < φ.bits) (hx : AllReal x) :
    AllReal (truncf ψ x h) := fun i => hx i

/-- The users' rows before the first layer: the embedding's rows gathered at the batch's node numbers. -/
theorem ar_U0 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) : AllReal (KU0 m ρ c) :=
  allReal_of_eq (Cert.KernelIdeal.HostRead.read_main_v22 (Cert.KernelIdeal.Hand.W0 (F := Ideal) m ρ c))
    (Cert.KernelIdeal.HostRead.allReal_gather _ _ _
      (allReal_truncf _ Cert.KernelIdeal.Gen.bitsLt_bf16_f32 (hreal.2.1)))

/-- The movies' rows before the first layer. -/
theorem ar_M0 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) : AllReal (KM0 m ρ c) :=
  allReal_of_eq (Cert.KernelIdeal.HostRead.read_main_v23 (Cert.KernelIdeal.Hand.W0 (F := Ideal) m ρ c))
    (allReal_truncf _ Cert.KernelIdeal.Gen.bitsLt_bf16_f32 (hreal.1))

/-- The movies' reciprocal clamped counts, as the first stretch of host operations leaves them. -/
theorem ar_invM : AllReal (Cert.KernelIdeal.Hand.W1 (F := Ideal) m ρ c (Proc.devRef .tc Cert.KernelIdeal.main_v7) : Vec1 20000) :=
  allReal_of_eq (Cert.KernelIdeal.HostRead.read_main_v7 (Cert.KernelIdeal.Hand.W0 (F := Ideal) m ρ c))
    (Cert.KernelIdeal.HostRead.allReal_invCountMovies _)

/-- The users' reciprocal clamped counts. -/
theorem ar_invU : AllReal (Cert.KernelIdeal.Hand.W1 (F := Ideal) m ρ c (Proc.devRef .tc Cert.KernelIdeal.main_v14) : Vec1 100000) :=
  allReal_of_eq (Cert.KernelIdeal.HostRead.read_main_v14 (Cert.KernelIdeal.Hand.W0 (F := Ideal) m ρ c))
    (Cert.KernelIdeal.HostRead.allReal_invCountUsers _)

/-- The movies' features after the first layer. -/
theorem ar_M1 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) : AllReal (KM1 m ρ c) := by
  have hK : KM1 m ρ c = sageForm (Cert.KernelIdeal.Hand.V1 (F := Ideal) m ρ c Cert.KernelIdeal.main_v37)
      (Cert.KernelIdeal.Hand.V1 (F := Ideal) m ρ c Cert.KernelIdeal.main_v23) (Cert.KernelIdeal.Hand.V1 (F := Ideal) m ρ c Cert.KernelIdeal.main_v53)
      (Cert.KernelIdeal.Hand.V1 (F := Ideal) m ρ c Cert.KernelIdeal.main_v58) (Cert.KernelIdeal.Hand.V1 (F := Ideal) m ρ c Cert.KernelIdeal.main_v57) :=
    (Cert.KernelIdeal.Hand.W2_arr (F := Ideal) m ρ c 5).trans
      (Cert.KernelIdeal.HandValue.arrAt_out0 (Cert.KernelIdeal.Hand.V1 (F := Ideal) m ρ) c)
  rw [hK]
  refine sageForm_allReal ?_ ?_ ?_ ?_ ?_
  · refine allReal_of_eq (Cert.KernelIdeal.HostRead.read_main_v37 (Cert.KernelIdeal.Hand.W0 (F := Ideal) m ρ c)) ?_
    exact Cert.KernelIdeal.HostRead.allReal_aggMovies _ _ _ _
      (Cert.KernelIdeal.HostRead.allReal_gather _ _ _
        (allReal_truncf _ Cert.KernelIdeal.Gen.bitsLt_bf16_f32 (hreal.2.1)))
      (Cert.KernelIdeal.HostRead.allReal_invCountMovies _)
  · exact ar_M0 m ρ c hreal
  · intro i
    obtain ⟨k, j, rfl⟩ : ∃ (k : Fin 64) (j : Fin 64), i = ix2 k j := ⟨i 0, i 1, eq_ix2 i⟩
    exact isReal_of_eq ((Cert.KernelIdeal.HostRead.read_main_v53_apply (Cert.KernelIdeal.Hand.W0 (F := Ideal) m ρ c) k j)) (hreal.2.2.1 _)
  · intro i
    obtain ⟨u, j, rfl⟩ : ∃ (u : Fin 1) (j : Fin 64), i = ix2 u j := ⟨i 0, i 1, eq_ix2 i⟩
    exact isReal_of_eq ((Cert.KernelIdeal.HostRead.read_main_v58_apply (Cert.KernelIdeal.Hand.W0 (F := Ideal) m ρ c) u j)) (hreal.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v57_apply (Cert.KernelIdeal.Hand.W0 (F := Ideal) m ρ c) k j)) (hreal.2.2.2.2.1 _)

/-- The users' features after the first layer. -/
theorem ar_U1 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) : AllReal (KU1 m ρ c) := by
  have hK : KU1 m ρ c = sageForm (Cert.KernelIdeal.Hand.V3 (F := Ideal) m ρ c Cert.KernelIdeal.main_v51)
      (Cert.KernelIdeal.Hand.V3 (F := Ideal) m ρ c Cert.KernelIdeal.main_v22) (Cert.KernelIdeal.Hand.V3 (F := Ideal) m ρ c Cert.KernelIdeal.main_v61)
      (Cert.KernelIdeal.Hand.V3 (F := Ideal) m ρ c Cert.KernelIdeal.main_v66) (Cert.KernelIdeal.Hand.V3 (F := Ideal) m ρ c Cert.KernelIdeal.main_v65) :=
    (Cert.KernelIdeal.Hand.W4_arr (F := Ideal) m ρ c 5).trans
      (Cert.KernelIdeal.HandValue.arrAt_out1 (Cert.KernelIdeal.Hand.V3 (F := Ideal) m ρ) c)
  rw [hK]
  refine sageForm_allReal ?_ ?_ ?_ ?_ ?_
  · refine allReal_of_eq ((Cert.KernelIdeal.Hand.W3_eq_W1 m ρ c Cert.KernelIdeal.main_v51 (by decide) (by decide)).trans
      (Cert.KernelIdeal.HostRead.read_main_v51 (Cert.KernelIdeal.Hand.W0 (F := Ideal) m ρ c))) ?_
    exact Cert.KernelIdeal.HostRead.allReal_aggUsers _ _ _ _
      (allReal_truncf _ Cert.KernelIdeal.Gen.bitsLt_bf16_f32 (hreal.1))
      (Cert.KernelIdeal.HostRead.allReal_invCountUsers _)
  · exact allReal_of_eq (Cert.KernelIdeal.Hand.W3_eq_W1 m ρ c Cert.KernelIdeal.main_v22 (by decide) (by decide)) (ar_U0 m ρ c hreal)
  · intro i
    obtain ⟨k, j, rfl⟩ : ∃ (k : Fin 64) (j : Fin 64), i = ix2 k j := ⟨i 0, i 1, eq_ix2 i⟩
    exact isReal_of_eq ((Cert.KernelIdeal.HostRead.read_main_v61_apply (Cert.KernelIdeal.Hand.W2 (F := Ideal) m ρ c) k j).trans
      (congrFun (Cert.KernelIdeal.Hand.W2_eq_W0 m ρ c Cert.KernelIdeal.main_arg10 (by decide) (by decide)) _)) (hreal.2.2.2.2.2.1 _)
  · intro i
    obtain ⟨u, j, rfl⟩ : ∃ (u : Fin 1) (j : Fin 64), i = ix2 u j := ⟨i 0, i 1, eq_ix2 i⟩
    exact isReal_of_eq ((Cert.KernelIdeal.HostRead.read_main_v66_apply (Cert.KernelIdeal.Hand.W2 (F := Ideal) m ρ c) u j).trans
      (congrFun (Cert.KernelIdeal.Hand.W2_eq_W0 m ρ c Cert.KernelIdeal.main_arg11 (by decide) (by decide)) _)) (hreal.2.2.2.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v65_apply (Cert.KernelIdeal.Hand.W2 (F := Ideal) m ρ c) k j).trans
      (congrFun (Cert.KernelIdeal.Hand.W2_eq_W0 m ρ c Cert.KernelIdeal.main_arg12 (by decide) (by decide)) _)) (hreal.2.2.2.2.2.2.2.1 _)

/-- The movies' features after the second layer. -/
theorem ar_M2 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) (hsrc : AllReal (KU1 m ρ c)) (hdst : AllReal (KM1 m ρ c))
    (hiM : AllReal (Cert.KernelIdeal.Hand.W1 (F := Ideal) m ρ c (Proc.devRef .tc Cert.KernelIdeal.main_v7) : Vec1 20000)) :
    AllReal (KM2 m ρ c) := by
  have hK : KM2 m ρ c = sageForm (Cert.KernelIdeal.Hand.V5 (F := Ideal) m ρ c Cert.KernelIdeal.main_v81)
      (Cert.KernelIdeal.Hand.V5 (F := Ideal) m ρ c Cert.KernelIdeal.main_v59) (Cert.KernelIdeal.Hand.V5 (F := Ideal) m ρ c Cert.KernelIdeal.main_v97)
      (Cert.KernelIdeal.Hand.V5 (F := Ideal) m ρ c Cert.KernelIdeal.main_v102) (Cert.KernelIdeal.Hand.V5 (F := Ideal) m ρ c Cert.KernelIdeal.main_v101) :=
    (Cert.KernelIdeal.Hand.W6_arr (F := Ideal) m ρ c 5).trans
      (Cert.KernelIdeal.HandValue.arrAt_out2 (Cert.KernelIdeal.Hand.V5 (F := Ideal) m ρ) c)
  rw [hK]
  refine sageForm_allReal ?_ ?_ ?_ ?_ ?_
  · refine allReal_of_eq (Cert.KernelIdeal.HostRead.read_main_v81 (Cert.KernelIdeal.Hand.W4 (F := Ideal) m ρ c)) ?_
    exact Cert.KernelIdeal.HostRead.allReal_aggMovies _ _ _ _
      (allReal_of_eq (rfl) hsrc)
      (allReal_of_eq (Cert.KernelIdeal.Hand.W4_eq_W1 m ρ c Cert.KernelIdeal.main_v7 (by decide) (by decide) (by decide)) hiM)
  · exact allReal_of_eq (Cert.KernelIdeal.Hand.W5_eq_W2 m ρ c Cert.KernelIdeal.main_v59 (by decide) (by decide) (by decide)) hdst
  · intro i
    obtain ⟨k, j, rfl⟩ : ∃ (k : Fin 64) (j : Fin 64), i = ix2 k j := ⟨i 0, i 1, eq_ix2 i⟩
    exact isReal_of_eq ((Cert.KernelIdeal.HostRead.read_main_v97_apply (Cert.KernelIdeal.Hand.W4 (F := Ideal) m ρ c) k j).trans
      (congrFun (Cert.KernelIdeal.Hand.W4_eq_W0 m ρ c Cert.KernelIdeal.main_arg7 (by decide) (by decide) (by decide) (by decide)) _)) (hreal.2.2.1 _)
  · intro i
    obtain ⟨u, j, rfl⟩ : ∃ (u : Fin 1) (j : Fin 64), i = ix2 u j := ⟨i 0, i 1, eq_ix2 i⟩
    exact isReal_of_eq ((Cert.KernelIdeal.HostRead.read_main_v102_apply (Cert.KernelIdeal.Hand.W4 (F := Ideal) m ρ c) u j).trans
      (congrFun (Cert.KernelIdeal.Hand.W4_eq_W0 m ρ c Cert.KernelIdeal.main_arg8 (by decide) (by decide) (by decide) (by decide)) _)) (hreal.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v101_apply (Cert.KernelIdeal.Hand.W4 (F := Ideal) m ρ c) k j).trans
      (congrFun (Cert.KernelIdeal.Hand.W4_eq_W0 m ρ c Cert.KernelIdeal.main_arg9 (by decide) (by decide) (by decide) (by decide)) _)) (hreal.2.2.2.2.1 _)

/-- The users' features after the second layer. -/
theorem ar_U2 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) (hsrc : AllReal (KM1 m ρ c)) (hdst : AllReal (KU1 m ρ c))
    (hiU : AllReal (Cert.KernelIdeal.Hand.W1 (F := Ideal) m ρ c (Proc.devRef .tc Cert.KernelIdeal.main_v14) : Vec1 100000)) :
    AllReal (KU2 m ρ c) := by
  have hK : KU2 m ρ c = sageForm (Cert.KernelIdeal.Hand.V7 (F := Ideal) m ρ c Cert.KernelIdeal.main_v95)
      (Cert.KernelIdeal.Hand.V7 (F := Ideal) m ρ c Cert.KernelIdeal.main_v67) (Cert.KernelIdeal.Hand.V7 (F := Ideal) m ρ c Cert.KernelIdeal.main_v105)
      (Cert.KernelIdeal.Hand.V7 (F := Ideal) m ρ c Cert.KernelIdeal.main_v110) (Cert.KernelIdeal.Hand.V7 (F := Ideal) m ρ c Cert.KernelIdeal.main_v109) :=
    (Cert.KernelIdeal.Hand.W8_arr (F := Ideal) m ρ c 5).trans
      (Cert.KernelIdeal.HandValue.arrAt_out3 (Cert.KernelIdeal.Hand.V7 (F := Ideal) m ρ) c)
  rw [hK]
  refine sageForm_allReal ?_ ?_ ?_ ?_ ?_
  · refine allReal_of_eq (((Cert.KernelIdeal.Hand.W7_of m ρ c Cert.KernelIdeal.main_v95 (by decide)).trans (Cert.KernelIdeal.Hand.W6_of_ne m ρ c Cert.KernelIdeal.main_v95 (by decide))).trans
      (Cert.KernelIdeal.HostRead.read_main_v95 (Cert.KernelIdeal.Hand.W4 (F := Ideal) m ρ c))) ?_
    exact Cert.KernelIdeal.HostRead.allReal_aggUsers _ _ _ _
      (allReal_of_eq (Cert.KernelIdeal.Hand.W4_eq_W2 m ρ c Cert.KernelIdeal.main_v59 (by decide) (by decide)) hsrc)
      (allReal_of_eq (Cert.KernelIdeal.Hand.W4_eq_W1 m ρ c Cert.KernelIdeal.main_v14 (by decide) (by decide) (by decide)) hiU)
  · exact allReal_of_eq (Cert.KernelIdeal.Hand.W7_eq_W4 m ρ c Cert.KernelIdeal.main_v67 (by decide) (by decide) (by decide)) hdst
  · intro i
    obtain ⟨k, j, rfl⟩ : ∃ (k : Fin 64) (j : Fin 64), i = ix2 k j := ⟨i 0, i 1, eq_ix2 i⟩
    exact isReal_of_eq ((Cert.KernelIdeal.HostRead.read_main_v105_apply (Cert.KernelIdeal.Hand.W6 (F := Ideal) m ρ c) k j).trans
      (congrFun (Cert.KernelIdeal.Hand.W6_eq_W0 m ρ c Cert.KernelIdeal.main_arg10 (by decide) (by decide) (by decide) (by decide) (by decide) (by decide)) _)) (hreal.2.2.2.2.2.1 _)
  · intro i
    obtain ⟨u, j, rfl⟩ : ∃ (u : Fin 1) (j : Fin 64), i = ix2 u j := ⟨i 0, i 1, eq_ix2 i⟩
    exact isReal_of_eq ((Cert.KernelIdeal.HostRead.read_main_v110_apply (Cert.KernelIdeal.Hand.W6 (F := Ideal) m ρ c) u j).trans
      (congrFun (Cert.KernelIdeal.Hand.W6_eq_W0 m ρ c Cert.KernelIdeal.main_arg11 (by decide) (by decide) (by decide) (by decide) (by decide) (by decide)) _)) (hreal.2.2.2.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v109_apply (Cert.KernelIdeal.Hand.W6 (F := Ideal) m ρ c) k j).trans
      (congrFun (Cert.KernelIdeal.Hand.W6_eq_W0 m ρ c Cert.KernelIdeal.main_arg12 (by decide) (by decide) (by decide) (by decide) (by decide) (by decide)) _)) (hreal.2.2.2.2.2.2.2.1 _)

/-- The movies' features after the third layer. -/
theorem ar_M3 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) (hsrc : AllReal (KU2 m ρ c)) (hdst : AllReal (KM2 m ρ c))
    (hiM : AllReal (Cert.KernelIdeal.Hand.W1 (F := Ideal) m ρ c (Proc.devRef .tc Cert.KernelIdeal.main_v7) : Vec1 20000)) :
    AllReal (KM3 m ρ c) := by
  have hK : KM3 m ρ c = sageForm (Cert.KernelIdeal.Hand.V9 (F := Ideal) m ρ c Cert.KernelIdeal.main_v125)
      (Cert.KernelIdeal.Hand.V9 (F := Ideal) m ρ c Cert.KernelIdeal.main_v103) (Cert.KernelIdeal.Hand.V9 (F := Ideal) m ρ c Cert.KernelIdeal.main_v141)
      (Cert.KernelIdeal.Hand.V9 (F := Ideal) m ρ c Cert.KernelIdeal.main_v146) (Cert.KernelIdeal.Hand.V9 (F := Ideal) m ρ c Cert.KernelIdeal.main_v145) :=
    (Cert.KernelIdeal.Hand.W10_arr (F := Ideal) m ρ c 5).trans
      (Cert.KernelIdeal.HandValue.arrAt_out4 (Cert.KernelIdeal.Hand.V9 (F := Ideal) m ρ) c)
  rw [hK]
  refine sageForm_allReal ?_ ?_ ?_ ?_ ?_
  · refine allReal_of_eq (Cert.KernelIdeal.HostRead.read_main_v125 (Cert.KernelIdeal.Hand.W8 (F := Ideal) m ρ c)) ?_
    exact Cert.KernelIdeal.HostRead.allReal_aggMovies _ _ _ _
      (allReal_of_eq (rfl) hsrc)
      (allReal_of_eq (Cert.KernelIdeal.Hand.W8_eq_W1 m ρ c Cert.KernelIdeal.main_v7 (by decide) (by decide) (by decide) (by decide) (by decide) (by decide) (by decide)) hiM)
  · exact allReal_of_eq (Cert.KernelIdeal.Hand.W9_eq_W6 m ρ c Cert.KernelIdeal.main_v103 (by decide) (by decide) (by decide)) hdst
  · intro i
    obtain ⟨k, j, rfl⟩ : ∃ (k : Fin 64) (j : Fin 64), i = ix2 k j := ⟨i 0, i 1, eq_ix2 i⟩
    exact isReal_of_eq ((Cert.KernelIdeal.HostRead.read_main_v141_apply (Cert.KernelIdeal.Hand.W8 (F := Ideal) m ρ c) k j).trans
      (congrFun (Cert.KernelIdeal.Hand.W8_eq_W0 m ρ c Cert.KernelIdeal.main_arg7 (by decide) (by decide) (by decide) (by decide) (by decide) (by decide) (by decide) (by decide)) _)) (hreal.2.2.1 _)
  · intro i
    obtain ⟨u, j, rfl⟩ : ∃ (u : Fin 1) (j : Fin 64), i = ix2 u j := ⟨i 0, i 1, eq_ix2 i⟩
    exact isReal_of_eq ((Cert.KernelIdeal.HostRead.read_main_v146_apply (Cert.KernelIdeal.Hand.W8 (F := Ideal) m ρ c) u j).trans
      (congrFun (Cert.KernelIdeal.Hand.W8_eq_W0 m ρ c Cert.KernelIdeal.main_arg8 (by decide) (by decide) (by decide) (by decide) (by decide) (by decide) (by decide) (by decide)) _)) (hreal.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v145_apply (Cert.KernelIdeal.Hand.W8 (F := Ideal) m ρ c) k j).trans
      (congrFun (Cert.KernelIdeal.Hand.W8_eq_W0 m ρ c Cert.KernelIdeal.main_arg9 (by decide) (by decide) (by decide) (by decide) (by decide) (by decide) (by decide) (by decide)) _)) (hreal.2.2.2.2.1 _)

/-- The users' features after the third layer. -/
theorem ar_U3 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) (hsrc : AllReal (KM2 m ρ c)) (hdst : AllReal (KU2 m ρ c))
    (hiU : AllReal (Cert.KernelIdeal.Hand.W1 (F := Ideal) m ρ c (Proc.devRef .tc Cert.KernelIdeal.main_v14) : Vec1 100000)) :
    AllReal (KU3 m ρ c) := by
  have hK : KU3 m ρ c = sageForm (Cert.KernelIdeal.Hand.V11 (F := Ideal) m ρ c Cert.KernelIdeal.main_v139)
      (Cert.KernelIdeal.Hand.V11 (F := Ideal) m ρ c Cert.KernelIdeal.main_v111) (Cert.KernelIdeal.Hand.V11 (F := Ideal) m ρ c Cert.KernelIdeal.main_v149)
      (Cert.KernelIdeal.Hand.V11 (F := Ideal) m ρ c Cert.KernelIdeal.main_v154) (Cert.KernelIdeal.Hand.V11 (F := Ideal) m ρ c Cert.KernelIdeal.main_v153) :=
    (Cert.KernelIdeal.Hand.W12_arr (F := Ideal) m ρ c 5).trans
      (Cert.KernelIdeal.HandValue.arrAt_out5 (Cert.KernelIdeal.Hand.V11 (F := Ideal) m ρ) c)
  rw [hK]
  refine sageForm_allReal ?_ ?_ ?_ ?_ ?_
  · refine allReal_of_eq (((Cert.KernelIdeal.Hand.W11_of m ρ c Cert.KernelIdeal.main_v139 (by decide)).trans (Cert.KernelIdeal.Hand.W10_of_ne m ρ c Cert.KernelIdeal.main_v139 (by decide))).trans
      (Cert.KernelIdeal.HostRead.read_main_v139 (Cert.KernelIdeal.Hand.W8 (F := Ideal) m ρ c))) ?_
    exact Cert.KernelIdeal.HostRead.allReal_aggUsers _ _ _ _
      (allReal_of_eq (Cert.KernelIdeal.Hand.W8_eq_W6 m ρ c Cert.KernelIdeal.main_v103 (by decide) (by decide)) hsrc)
      (allReal_of_eq (Cert.KernelIdeal.Hand.W8_eq_W1 m ρ c Cert.KernelIdeal.main_v14 (by decide) (by decide) (by decide) (by decide) (by decide) (by decide) (by decide)) hiU)
  · exact allReal_of_eq (Cert.KernelIdeal.Hand.W11_eq_W8 m ρ c Cert.KernelIdeal.main_v111 (by decide) (by decide) (by decide)) hdst
  · intro i
    obtain ⟨k, j, rfl⟩ : ∃ (k : Fin 64) (j : Fin 64), i = ix2 k j := ⟨i 0, i 1, eq_ix2 i⟩
    exact isReal_of_eq ((Cert.KernelIdeal.HostRead.read_main_v149_apply (Cert.KernelIdeal.Hand.W10 (F := Ideal) m ρ c) k j).trans
      (congrFun (Cert.KernelIdeal.Hand.W10_eq_W0 m ρ c Cert.KernelIdeal.main_arg10 (by decide) (by decide) (by decide) (by decide) (by decide) (by decide) (by decide) (by decide) (by decide) (by decide)) _)) (hreal.2.2.2.2.2.1 _)
  · intro i
    obtain ⟨u, j, rfl⟩ : ∃ (u : Fin 1) (j : Fin 64), i = ix2 u j := ⟨i 0, i 1, eq_ix2 i⟩
    exact isReal_of_eq ((Cert.KernelIdeal.HostRead.read_main_v154_apply (Cert.KernelIdeal.Hand.W10 (F := Ideal) m ρ c) u j).trans
      (congrFun (Cert.KernelIdeal.Hand.W10_eq_W0 m ρ c Cert.KernelIdeal.main_arg11 (by decide) (by decide) (by decide) (by decide) (by decide) (by decide) (by decide) (by decide) (by decide) (by decide)) _)) (hreal.2.2.2.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v153_apply (Cert.KernelIdeal.Hand.W10 (F := Ideal) m ρ c) k j).trans
      (congrFun (Cert.KernelIdeal.Hand.W10_eq_W0 m ρ c Cert.KernelIdeal.main_arg12 (by decide) (by decide) (by decide) (by decide) (by decide) (by decide) (by decide) (by decide) (by decide) (by decide)) _)) (hreal.2.2.2.2.2.2.2.1 _)

/-- The users' projected features. -/
theorem ar_HU (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) (h1 : AllReal (KU1 m ρ c)) (h2 : AllReal (KU2 m ρ c))
    (h3 : AllReal (KU3 m ρ c)) : AllReal (KHU m ρ c) := by
  have hK : KHU m ρ c
      = projForm (Cert.KernelIdeal.Hand.V13 (F := Ideal) m ρ c Cert.KernelIdeal.main_v67) (Cert.KernelIdeal.Hand.V13 (F := Ideal) m ρ c Cert.KernelIdeal.main_v111)
          (Cert.KernelIdeal.Hand.V13 (F := Ideal) m ρ c Cert.KernelIdeal.main_v155) (Cert.KernelIdeal.Hand.V13 (F := Ideal) m ρ c Cert.KernelIdeal.main_v156)
          (Cert.KernelIdeal.Hand.V13 (F := Ideal) m ρ c Cert.KernelIdeal.main_v157) (Cert.KernelIdeal.Hand.V13 (F := Ideal) m ρ c Cert.KernelIdeal.main_v158)
          (Cert.KernelIdeal.Hand.V13 (F := Ideal) m ρ c Cert.KernelIdeal.main_v159) :=
    (Cert.KernelIdeal.Hand.W14_arr (F := Ideal) m ρ c 7).trans
      (Cert.KernelIdeal.HandValue.arrAt_out6 (Cert.KernelIdeal.Hand.V13 (F := Ideal) m ρ) c)
  rw [hK]
  refine projForm_allReal
    (allReal_of_eq (Cert.KernelIdeal.Hand.W13_main_v67 m ρ c) h1)
    (allReal_of_eq (Cert.KernelIdeal.Hand.W13_main_v111 m ρ c) h2)
    (allReal_of_eq (Cert.KernelIdeal.Hand.W13_eq_W12 m ρ c Cert.KernelIdeal.main_v155 (by decide)) h3) ?_ ?_ ?_ ?_
  · intro i
    obtain ⟨k, j, rfl⟩ : ∃ (k : Fin 64) (j : Fin 64), i = ix2 k j := ⟨i 0, i 1, eq_ix2 i⟩
    exact isReal_of_eq ((Cert.KernelIdeal.HostRead.read_main_v156_apply (Cert.KernelIdeal.Hand.W12 (F := Ideal) m ρ c) k j).trans
      (congrFun (Cert.KernelIdeal.Hand.W12_eq_W0 m ρ c Cert.KernelIdeal.main_arg13 (by decide) (by decide) (by decide) (by decide) (by decide) (by decide) (by decide) (by decide) (by decide) (by decide) (by decide) (by decide)) _)) (hreal.2.2.2.2.2.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v157_apply (Cert.KernelIdeal.Hand.W12 (F := Ideal) m ρ c) k j).trans
      (congrFun (Cert.KernelIdeal.Hand.W12_eq_W0 m ρ c Cert.KernelIdeal.main_arg13 (by decide) (by decide) (by decide) (by decide) (by decide) (by decide) (by decide) (by decide) (by decide) (by decide) (by decide) (by decide)) _)) (hreal.2.2.2.2.2.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v158_apply (Cert.KernelIdeal.Hand.W12 (F := Ideal) m ρ c) k j).trans
      (congrFun (Cert.KernelIdeal.Hand.W12_eq_W0 m ρ c Cert.KernelIdeal.main_arg13 (by decide) (by decide) (by decide) (by decide) (by decide) (by decide) (by decide) (by decide) (by decide) (by decide) (by decide) (by decide)) _)) (hreal.2.2.2.2.2.2.2.2.1 _)
  · intro i
    obtain ⟨u, j, rfl⟩ : ∃ (u : Fin 1) (j : Fin 64), i = ix2 u j := ⟨i 0, i 1, eq_ix2 i⟩
    exact isReal_of_eq ((Cert.KernelIdeal.HostRead.read_main_v159_apply (Cert.KernelIdeal.Hand.W12 (F := Ideal) m ρ c) u j).trans
      (congrFun (Cert.KernelIdeal.Hand.W12_eq_W0 m ρ c Cert.KernelIdeal.main_arg14 (by decide) (by decide) (by decide) (by decide) (by decide) (by decide) (by decide) (by decide) (by decide) (by decide) (by decide) (by decide)) _)) (hreal.2.2.2.2.2.2.2.2.2.1 _)

/-- The movies' projected features. -/
theorem ar_HM (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) (h1 : AllReal (KM1 m ρ c)) (h2 : AllReal (KM2 m ρ c))
    (h3 : AllReal (KM3 m ρ c)) : AllReal (KHM m ρ c) := by
  have hK : KHM m ρ c
      = projForm (Cert.KernelIdeal.Hand.V15 (F := Ideal) m ρ c Cert.KernelIdeal.main_v59) (Cert.KernelIdeal.Hand.V15 (F := Ideal) m ρ c Cert.KernelIdeal.main_v103)
          (Cert.KernelIdeal.Hand.V15 (F := Ideal) m ρ c Cert.KernelIdeal.main_v147) (Cert.KernelIdeal.Hand.V15 (F := Ideal) m ρ c Cert.KernelIdeal.main_v161)
          (Cert.KernelIdeal.Hand.V15 (F := Ideal) m ρ c Cert.KernelIdeal.main_v162) (Cert.KernelIdeal.Hand.V15 (F := Ideal) m ρ c Cert.KernelIdeal.main_v163)
          (Cert.KernelIdeal.Hand.V15 (F := Ideal) m ρ c Cert.KernelIdeal.main_v164) :=
    (Cert.KernelIdeal.Hand.W16_arr (F := Ideal) m ρ c 7).trans
      (Cert.KernelIdeal.HandValue.arrAt_out7 (Cert.KernelIdeal.Hand.V15 (F := Ideal) m ρ) c)
  rw [hK]
  refine projForm_allReal
    (allReal_of_eq (Cert.KernelIdeal.Hand.W15_main_v59 m ρ c) h1)
    (allReal_of_eq (Cert.KernelIdeal.Hand.W15_main_v103 m ρ c) h2)
    (allReal_of_eq (Cert.KernelIdeal.Hand.W15_eq_W10 m ρ c Cert.KernelIdeal.main_v147 (by decide) (by decide) (by decide) (by decide) (by decide)) h3) ?_ ?_ ?_ ?_
  · intro i
    obtain ⟨k, j, rfl⟩ : ∃ (k : Fin 64) (j : Fin 64), i = ix2 k j := ⟨i 0, i 1, eq_ix2 i⟩
    exact isReal_of_eq ((Cert.KernelIdeal.HostRead.read_main_v161_apply (Cert.KernelIdeal.Hand.W14 (F := Ideal) m ρ c) k j).trans
      (congrFun (Cert.KernelIdeal.Hand.W14_eq_W0 m ρ c Cert.KernelIdeal.main_arg15 (by decide) (by decide) (by decide) (by decide) (by decide) (by decide) (by decide) (by decide) (by decide) (by decide) (by decide) (by decide) (by decide) (by decide)) _)) (hreal.2.2.2.2.2.2.2.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v162_apply (Cert.KernelIdeal.Hand.W14 (F := Ideal) m ρ c) k j).trans
      (congrFun (Cert.KernelIdeal.Hand.W14_eq_W0 m ρ c Cert.KernelIdeal.main_arg15 (by decide) (by decide) (by decide) (by decide) (by decide) (by decide) (by decide) (by decide) (by decide) (by decide) (by decide) (by decide) (by decide) (by decide)) _)) (hreal.2.2.2.2.2.2.2.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v163_apply (Cert.KernelIdeal.Hand.W14 (F := Ideal) m ρ c) k j).trans
      (congrFun (Cert.KernelIdeal.Hand.W14_eq_W0 m ρ c Cert.KernelIdeal.main_arg15 (by decide) (by decide) (by decide) (by decide) (by decide) (by decide) (by decide) (by decide) (by decide) (by decide) (by decide) (by decide) (by decide) (by decide)) _)) (hreal.2.2.2.2.2.2.2.2.2.2.1 _)
  · intro i
    obtain ⟨u, j, rfl⟩ : ∃ (u : Fin 1) (j : Fin 64), i = ix2 u j := ⟨i 0, i 1, eq_ix2 i⟩
    exact isReal_of_eq ((Cert.KernelIdeal.HostRead.read_main_v164_apply (Cert.KernelIdeal.Hand.W14 (F := Ideal) m ρ c) u j).trans
      (congrFun (Cert.KernelIdeal.Hand.W14_eq_W0 m ρ c Cert.KernelIdeal.main_arg16 (by decide) (by decide) (by decide) (by decide) (by decide) (by decide) (by decide) (by decide) (by decide) (by decide) (by decide) (by decide) (by decide) (by decide)) _)) (hreal.2.2.2.2.2.2.2.2.2.2.2.1 _)

end Real1

/-- The first classifier layer before its normalisation holds real numbers only. -/
theorem ar_Z1 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) : ∀ i, IsReal (KZ1 m ρ c i) := by
  have hU1 := Real1.ar_U1 m ρ c hreal
  have hM1 := Real1.ar_M1 m ρ c hreal
  have hM2 := Real1.ar_M2 m ρ c hreal hU1 hM1 (Real1.ar_invM m ρ c)
  have hU2 := Real1.ar_U2 m ρ c hreal hM1 hU1 (Real1.ar_invU m ρ c)
  have hM3 := Real1.ar_M3 m ρ c hreal hU2 hM2 (Real1.ar_invM m ρ c)
  have hU3 := Real1.ar_U3 m ρ c hreal hM2 hU2 (Real1.ar_invU m ρ c)
  have hHU := Real1.ar_HU m ρ c hreal hU1 hU2 hU3
  have hHM := Real1.ar_HM m ρ c hreal hM1 hM2 hM3
  have hform : KZ1 m ρ c = affine2Form (Cert.KernelIdeal.Hand.V17 (F := Ideal) m ρ c Cert.KernelIdeal.main_v172)
      (Cert.KernelIdeal.Hand.V17 (F := Ideal) m ρ c Cert.KernelIdeal.main_v179) (Cert.KernelIdeal.Hand.V17 (F := Ideal) m ρ c Cert.KernelIdeal.main_v180)
      (Cert.KernelIdeal.Hand.V17 (F := Ideal) m ρ c Cert.KernelIdeal.main_v181) (Cert.KernelIdeal.Hand.V17 (F := Ideal) m ρ c Cert.KernelIdeal.main_v182) :=
    (Cert.KernelIdeal.Hand.W18_arr (F := Ideal) m ρ c 5).trans
      (Cert.KernelIdeal.HandValue.arrAt_out8_5 (Cert.KernelIdeal.Hand.V17 (F := Ideal) m ρ) c)
  rw [hform]
  refine affine2Form_allReal ?_ ?_ ?_ ?_ ?_
  · refine allReal_of_eq (Cert.KernelIdeal.HostRead.read_main_v172 (Cert.KernelIdeal.Hand.W16 (F := Ideal) m ρ c)) ?_
    exact Cert.KernelIdeal.HostRead.allReal_gather _ _ _
      (allReal_of_eq (Cert.KernelIdeal.Hand.W16_eq_W14 m ρ c Cert.KernelIdeal.main_v160 (by decide) (by decide)) hHU)
  · refine allReal_of_eq (Cert.KernelIdeal.HostRead.read_main_v179 (Cert.KernelIdeal.Hand.W16 (F := Ideal) m ρ c)) ?_
    exact Cert.KernelIdeal.HostRead.allReal_gather _ _ _ hHM
  · intro i
    obtain ⟨k, j, rfl⟩ : ∃ (k : Fin 64) (j : Fin 64), i = ix2 k j := ⟨i 0, i 1, eq_ix2 i⟩
    exact isReal_of_eq ((Cert.KernelIdeal.HostRead.read_main_v180_apply (Cert.KernelIdeal.Hand.W16 (F := Ideal) m ρ c) k j).trans
      (congrFun (Cert.KernelIdeal.Hand.W16_eq_W0 m ρ c Cert.KernelIdeal.main_arg17 (by decide) (by decide) (by decide) (by decide) (by decide) (by decide) (by decide) (by decide) (by decide) (by decide) (by decide) (by decide) (by decide) (by decide) (by decide) (by decide)) _)) (hreal.2.2.2.2.2.2.2.2.2.2.2.2.1 _)
  · intro i
    obtain ⟨k, j, rfl⟩ : ∃ (k : Fin 64) (j : Fin 64), i = ix2 k j := ⟨i 0, i 1, eq_ix2 i⟩
    exact isReal_of_eq ((Cert.KernelIdeal.HostRead.read_main_v181_apply (Cert.KernelIdeal.Hand.W16 (F := Ideal) m ρ c) k j).trans
      (congrFun (Cert.KernelIdeal.Hand.W16_eq_W0 m ρ c Cert.KernelIdeal.main_arg17 (by decide) (by decide) (by decide) (by decide) (by decide) (by decide) (by decide) (by decide) (by decide) (by decide) (by decide) (by decide) (by decide) (by decide) (by decide) (by decide)) _)) (hreal.2.2.2.2.2.2.2.2.2.2.2.2.1 _)
  · intro i
    obtain ⟨u, j, rfl⟩ : ∃ (u : Fin 1) (j : Fin 64), i = ix2 u j := ⟨i 0, i 1, eq_ix2 i⟩
    exact isReal_of_eq ((Cert.KernelIdeal.HostRead.read_main_v182_apply (Cert.KernelIdeal.Hand.W16 (F := Ideal) m ρ c) u j).trans
      (congrFun (Cert.KernelIdeal.Hand.W16_eq_W0 m ρ c Cert.KernelIdeal.main_arg18 (by decide) (by decide) (by decide) (by decide) (by decide) (by decide) (by decide) (by decide) (by decide) (by decide) (by decide) (by decide) (by decide) (by decide) (by decide) (by decide)) _)) (hreal.2.2.2.2.2.2.2.2.2.2.2.2.2.1 _)

end Cert.Bridge

end
-- ==== Proof.Bridge.Real2.lean ====
/-
  Realness through the second classifier layer.  Its entries are finite sums of products of normalised, clamped
  entries of the first layer with real weights, plus a real bias; a normalised entry is real because the first
  layer's column is a column of `500000` real numbers whose sum and sum of squares are the statistics the kernel
  program accumulated, so the variance is a nonnegative real and the reciprocal square root of it plus the positive
  constant is a real.
-/
import proofs.«176278_j29592324669622_2_alg».proof.Proof.Bridge.Defs
import proofs.«176278_j29592324669622_2_alg».proof.Proof.KI.Keep
import proofs.«176278_j29592324669622_2_alg».proof.Proof.KI.V9
import proofs.«176278_j29592324669622_2_alg».proof.Proof.KI.H9
import proofs.«176278_j29592324669622_2_alg».proof.Proof.Math.FormsReal

noncomputable section

namespace Cert.Bridge

open Idealize.ShloMosaic Idealize.ShloMosaic.TcCoe Idealize.ShloMosaic.ValueIdx
open Cert.Lib.MeanLaws (IsReal)

variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD)

/-- The second classifier layer before its normalisation holds real numbers only, once the first does and the two
    accumulated rows are its column sums and column sums of squares. -/
theorem ar_Z2 (hreal : (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i))
      ∧ (∀ i, IsReal (m ((c.tc : Thread Cert.KernelIdeal.nD Cert.KernelIdeal.τ).loc Cert.KernelIdeal.main_arg19) i))
      ∧ (∀ i, IsReal (m ((c.tc : Thread Cert.KernelIdeal.nD Cert.KernelIdeal.τ).loc Cert.KernelIdeal.main_arg20) i))
      ∧ (∀ i, IsReal (m ((c.tc : Thread Cert.KernelIdeal.nD Cert.KernelIdeal.τ).loc Cert.KernelIdeal.main_arg21) i))
      ∧ (∀ i, IsReal (m ((c.tc : Thread Cert.KernelIdeal.nD Cert.KernelIdeal.τ).loc Cert.KernelIdeal.main_arg22) i))
      ∧ (∀ i, IsReal (m ((c.tc : Thread Cert.KernelIdeal.nD Cert.KernelIdeal.τ).loc Cert.KernelIdeal.main_arg23) i))
      ∧ (∀ i, IsReal (m ((c.tc : Thread Cert.KernelIdeal.nD Cert.KernelIdeal.τ).loc Cert.KernelIdeal.main_arg24) i))
      ∧ (∀ i, IsReal (m ((c.tc : Thread Cert.KernelIdeal.nD Cert.KernelIdeal.τ).loc Cert.KernelIdeal.main_arg25) i))
      ∧ (∀ i, IsReal (m ((c.tc : Thread Cert.KernelIdeal.nD Cert.KernelIdeal.τ).loc Cert.KernelIdeal.main_arg26) i))) (hr : ∀ i, IsReal (KZ1 m ρ c i)) (hs : KS1 m ρ c = colSumForm (KZ1 m ρ c))
    (hq : KQ1 m ρ c = colSqForm (KZ1 m ρ c)) : ∀ i, IsReal (KZ2 m ρ c i) := by
  have hform : KZ2 m ρ c = bnAffine32Form (Cert.KernelIdeal.Hand.V19 (F := Ideal) m ρ c Cert.KernelIdeal.main_v183_0)
      (Cert.KernelIdeal.Hand.V19 (F := Ideal) m ρ c Cert.KernelIdeal.main_v192) (Cert.KernelIdeal.Hand.V19 (F := Ideal) m ρ c Cert.KernelIdeal.main_v193)
      (Cert.KernelIdeal.Hand.V19 (F := Ideal) m ρ c Cert.KernelIdeal.main_v194) (Cert.KernelIdeal.Hand.V19 (F := Ideal) m ρ c Cert.KernelIdeal.main_v195)
      (Cert.KernelIdeal.Hand.V19 (F := Ideal) m ρ c Cert.KernelIdeal.main_arg21) (Cert.KernelIdeal.Hand.V19 (F := Ideal) m ρ c Cert.KernelIdeal.main_v196) :=
    (Cert.KernelIdeal.Hand.W20_arr (F := Ideal) m ρ c 7).trans
      (Cert.KernelIdeal.HandValue.arrAt_out9_7 (Cert.KernelIdeal.Hand.V19 (F := Ideal) m ρ) c)
  have ez : (Cert.KernelIdeal.Hand.V19 (F := Ideal) m ρ c Cert.KernelIdeal.main_v183_0 : Arr 500000 64) = KZ1 m ρ c :=
    Cert.KernelIdeal.Hand.W19_eq_W18 m ρ c Cert.KernelIdeal.main_v183_0 (by decide)
  have r_main_v192 : AllReal (Cert.KernelIdeal.Hand.V19 (F := Ideal) m ρ c Cert.KernelIdeal.main_v192 : Arr 1 64) := fun i => by
    obtain ⟨u, j, rfl⟩ : ∃ (u : Fin 1) (j : Fin 64), i = ix2 u j := ⟨i 0, i 1, eq_ix2 i⟩
    exact isReal_of_eq ((Cert.KernelIdeal.HostRead.read_main_v192_apply (Cert.KernelIdeal.Hand.W18 (F := Ideal) m ρ c) u j).trans
      (congrFun (Cert.KernelIdeal.Hand.W18_eq_W0 m ρ c Cert.KernelIdeal.main_arg19 (by decide) (by decide) (by decide) (by decide) (by decide) (by decide) (by decide) (by decide) (by decide) (by decide) (by decide) (by decide) (by decide) (by decide) (by decide) (by decide) (by decide) (by decide)) _)) (hreal.2.2.2.2.2.2.2.2.2.2.2.2.2.2.1 _)
  have r_main_v193 : AllReal (Cert.KernelIdeal.Hand.V19 (F := Ideal) m ρ c Cert.KernelIdeal.main_v193 : Arr 1 64) := fun i => by
    obtain ⟨u, j, rfl⟩ : ∃ (u : Fin 1) (j : Fin 64), i = ix2 u j := ⟨i 0, i 1, eq_ix2 i⟩
    exact isReal_of_eq ((Cert.KernelIdeal.HostRead.read_main_v193_apply (Cert.KernelIdeal.Hand.W18 (F := Ideal) m ρ c) u j).trans
      (congrFun (Cert.KernelIdeal.Hand.W18_eq_W0 m ρ c Cert.KernelIdeal.main_arg20 (by decide) (by decide) (by decide) (by decide) (by decide) (by decide) (by decide) (by decide) (by decide) (by decide) (by decide) (by decide) (by decide) (by decide) (by decide) (by decide) (by decide) (by decide)) _)) (hreal.2.2.2.2.2.2.2.2.2.2.2.2.2.2.2.1 _)
  have r_main_v196 : AllReal (Cert.KernelIdeal.Hand.V19 (F := Ideal) m ρ c Cert.KernelIdeal.main_v196 : Arr 1 32) := fun i => by
    obtain ⟨u, j, rfl⟩ : ∃ (u : Fin 1) (j : Fin 32), i = ix2 u j := ⟨i 0, i 1, eq_ix2 i⟩
    exact isReal_of_eq ((Cert.KernelIdeal.HostRead.read_main_v196_apply (Cert.KernelIdeal.Hand.W18 (F := Ideal) m ρ c) u j).trans
      (congrFun (Cert.KernelIdeal.Hand.W18_eq_W0 m ρ c Cert.KernelIdeal.main_arg22 (by decide) (by decide) (by decide) (by decide) (by decide) (by decide) (by decide) (by decide) (by decide) (by decide) (by decide) (by decide) (by decide) (by decide) (by decide) (by decide) (by decide) (by decide)) _)) (hreal.2.2.2.2.2.2.2.2.2.2.2.2.2.2.2.2.2.1 _)
  have r_W : AllReal (Cert.KernelIdeal.Hand.V19 (F := Ideal) m ρ c Cert.KernelIdeal.main_arg21 : Arr 64 32) := fun i =>
    isReal_of_eq (congrFun (Cert.KernelIdeal.Hand.W19_eq_W0 m ρ c Cert.KernelIdeal.main_arg21 (by decide) (by decide) (by decide) (by decide) (by decide) (by decide) (by decide) (by decide) (by decide) (by decide) (by decide) (by decide) (by decide) (by decide) (by decide) (by decide) (by decide) (by decide) (by decide)) i) (hreal.2.2.2.2.2.2.2.2.2.2.2.2.2.2.2.2.1 i)
  have hμ : ∀ k : Fin 64, (Cert.KernelIdeal.Hand.V19 (F := Ideal) m ρ c Cert.KernelIdeal.main_v194 : Arr 1 64) (ix2 (0 : Fin 1) k)
      = Ideal.div (KS1 m ρ c (ix2 (0 : Fin 1) k)) (Ideal.ofBits .f32 0x48F42400#32) := fun k =>
    Cert.KernelIdeal.HostRead.read_main_v194_apply (Cert.KernelIdeal.Hand.W18 (F := Ideal) m ρ c) 0 k
  have hv : ∀ k : Fin 64, (Cert.KernelIdeal.Hand.V19 (F := Ideal) m ρ c Cert.KernelIdeal.main_v195 : Arr 1 64) (ix2 (0 : Fin 1) k)
      = Ideal.div (KQ1 m ρ c (ix2 (0 : Fin 1) k)) (Ideal.ofBits .f32 0x48F42400#32)
        - Ideal.div (KS1 m ρ c (ix2 (0 : Fin 1) k)) (Ideal.ofBits .f32 0x48F42400#32)
          * Ideal.div (KS1 m ρ c (ix2 (0 : Fin 1) k)) (Ideal.ofBits .f32 0x48F42400#32) := fun k =>
    Cert.KernelIdeal.HostRead.read_main_v195_apply (Cert.KernelIdeal.Hand.W18 (F := Ideal) m ρ c) 0 k
  rw [hform, ez]
  exact bnAffine32Form_allReal (KZ1 m ρ c) _ _ _ _ (KS1 m ρ c) (KQ1 m ρ c) _ _ hr r_main_v192 r_main_v193 r_W
    r_main_v196 hs hq hμ hv

end Cert.Bridge

end
-- ==== Proof.PreReal.lean ====
/- The precondition read back: every float argument's entries are real numbers.

   The printed predicate is a conjunction, over the float arguments, of "every entry's absolute value is below
   +infinity", each an all-reduction by "and" of an elementwise comparison. An all-reduction that came out true was
   true at every entry, and an extended real whose absolute value is below the top element is a real number. -/
import proofs.«176278_j29592324669622_2_alg».proof.Pre_finite_inputs
import proofs.«176278_j29592324669622_2_alg».proof.Proof.Math.Real
import proofs.«176278_j29592324669622_2_alg».proof.Proof.Math.Literals
import Idealize.ShloMosaic.Lib.ReduceAll
import Idealize.ShloMosaic.Lib.ValueIdx

noncomputable section

namespace Cert.Bridge

open Idealize.ShloMosaic Cert.Pre_finite_inputs
open Cert.Lib.MeanLaws (IsReal)

instance subsingleton_scalar_idx : Subsingleton S_.Idx := ⟨fun a b => funext fun d => d.elim0⟩

/-- One "every |entry| is below +infinity" that came out true: every entry is a real number. -/
theorem allReal_of_all {s : Shape} {axes : List (Fin s.rank)} (a : FVec Ideal s .f32)
    (bc : S_.BroadcastsInDim s (![] : Fin 0 → Fin s.rank)) (rd : s.ReducesTo axes S_) (hu : 0 < S_.numel) (j : S_.Idx)
    (h : Host.reduce IntOp.andi (cmpf .olt (Host.absf a) (broadcastInDim s ![] bc (constant (F := Ideal) S_ .f32 0x7F800000#32)))
      (constantI S_ 1 1#1) rd hu j = 1#1) :
    ∀ i, IsReal (a i) := by
  intro i
  have hi := Host.reduce_andi_all _ _ rd hu j h i
  have hi' : Ideal.cmp .olt (max (a i) (-(a i))) (Ideal.ofBits .f32 0x7F800000#32) = 1#1 := hi
  rw [ofBits_f32_inf] at hi'
  unfold Ideal.cmp at hi'
  by_cases hlt : max (a i) (-(a i)) < ⊤
  · exact isReal_of_abs_lt_top hlt
  · simp [hlt] at hi'

section Decode

variable [Cert.Pre_finite_inputs.Facts]

/-- The whole predicate true: each of the twenty-two float arguments is real at every entry. -/
theorem fn_real (a0 : IVec S100000 32) (a1 : FVec Ideal S20000x64 .f32) (a2 : IVec S1000000 32) (a3 : IVec S1000000 32) (a4 : IVec S500000 32) (a5 : IVec S500000 32) (a6 : FVec Ideal S100000x64 .f32) (a7 : FVec Ideal S3x64x64 .f32) (a8 : FVec Ideal S3x64 .f32) (a9 : FVec Ideal S3x64x64 .f32) (a10 : FVec Ideal S3x64x64 .f32) (a11 : FVec Ideal S3x64 .f32) (a12 : FVec Ideal S3x64x64 .f32) (a13 : FVec Ideal S192x64 .f32) (a14 : FVec Ideal S64 .f32) (a15 : FVec Ideal S192x64 .f32) (a16 : FVec Ideal S64 .f32) (a17 : FVec Ideal S128x64 .f32) (a18 : FVec Ideal S64 .f32) (a19 : FVec Ideal S64 .f32) (a20 : FVec Ideal S64 .f32) (a21 : FVec Ideal S64x32 .f32) (a22 : FVec Ideal S32 .f32) (a23 : FVec Ideal S32 .f32) (a24 : FVec Ideal S32 .f32) (a25 : FVec Ideal S32x1 .f32) (a26 : FVec Ideal S1 .f32)
    (h : fn (F := Ideal) a0 a1 a2 a3 a4 a5 a6 a7 a8 a9 a10 a11 a12 a13 a14 a15 a16 a17 a18 a19 a20 a21 a22 a23 a24 a25 a26 = fun _ => 1#1) :
    (∀ i, IsReal (a1 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, IsReal (a21 i)) ∧ (∀ i, IsReal (a22 i)) ∧ (∀ i, IsReal (a23 i)) ∧ (∀ i, IsReal (a24 i)) ∧ (∀ i, IsReal (a25 i)) ∧ (∀ i, IsReal (a26 i)) := by
  have h0 := congrFun h ValueIdx.ix0
  dsimp only [fn, fn_part1, fn_part2, fn_part3, fn_part4, fn_part5, fn_part6] at h0
  obtain ⟨h0, h26⟩ := IntOp.andi_eq_one.1 h0
  obtain ⟨h0, h25⟩ := IntOp.andi_eq_one.1 h0
  obtain ⟨h0, h24⟩ := IntOp.andi_eq_one.1 h0
  obtain ⟨h0, h23⟩ := IntOp.andi_eq_one.1 h0
  obtain ⟨h0, h22⟩ := IntOp.andi_eq_one.1 h0
  obtain ⟨h0, h21⟩ := IntOp.andi_eq_one.1 h0
  obtain ⟨h0, h20⟩ := IntOp.andi_eq_one.1 h0
  obtain ⟨h0, h19⟩ := IntOp.andi_eq_one.1 h0
  obtain ⟨h0, h18⟩ := IntOp.andi_eq_one.1 h0
  obtain ⟨h0, h17⟩ := IntOp.andi_eq_one.1 h0
  obtain ⟨h0, h16⟩ := IntOp.andi_eq_one.1 h0
  obtain ⟨h0, h15⟩ := IntOp.andi_eq_one.1 h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h1, h6⟩ := IntOp.andi_eq_one.1 h0
  exact ⟨allReal_of_all _ _ _ _ _ h1, allReal_of_all _ _ _ _ _ h6, allReal_of_all _ _ _ _ _ h7, allReal_of_all _ _ _ _ _ h8, allReal_of_all _ _ _ _ _ h9, allReal_of_all _ _ _ _ _ h10, allReal_of_all _ _ _ _ _ h11, allReal_of_all _ _ _ _ _ h12, allReal_of_all _ _ _ _ _ h13, allReal_of_all _ _ _ _ _ h14, allReal_of_all _ _ _ _ _ h15, allReal_of_all _ _ _ _ _ h16, allReal_of_all _ _ _ _ _ h17, allReal_of_all _ _ _ _ _ h18, allReal_of_all _ _ _ _ _ h19, allReal_of_all _ _ _ _ _ h20, allReal_of_all _ _ _ _ _ h21, allReal_of_all _ _ _ _ _ h22, allReal_of_all _ _ _ _ _ h23, allReal_of_all _ _ _ _ _ h24, allReal_of_all _ _ _ _ _ h25, allReal_of_all _ _ _ _ _ h26⟩

end Decode

end Cert.Bridge

end
-- ==== Proof.Bridge.All.lean ====
/- The bridge assembled: the result arrays of the two programs are equal, stage by stage from the arguments. -/
import proofs.«176278_j29592324669622_2_alg».proof.Proof.Bridge.Defs
import proofs.«176278_j29592324669622_2_alg».proof.Proof.Bridge.S0
import proofs.«176278_j29592324669622_2_alg».proof.Proof.Bridge.L1
import proofs.«176278_j29592324669622_2_alg».proof.Proof.Bridge.L2
import proofs.«176278_j29592324669622_2_alg».proof.Proof.Bridge.L3
import proofs.«176278_j29592324669622_2_alg».proof.Proof.Bridge.H
import proofs.«176278_j29592324669622_2_alg».proof.Proof.Bridge.Z1
import proofs.«176278_j29592324669622_2_alg».proof.Proof.Bridge.Z2
import proofs.«176278_j29592324669622_2_alg».proof.Proof.Bridge.Out
import proofs.«176278_j29592324669622_2_alg».proof.Proof.Bridge.Real1
import proofs.«176278_j29592324669622_2_alg».proof.Proof.Bridge.Real2
import proofs.«176278_j29592324669622_2_alg».proof.Proof.PreReal
import proofs.«176278_j29592324669622_2_alg».proof.Defs

noncomputable section

namespace Cert.Bridge

open Idealize.ShloMosaic Idealize.ShloMosaic.TcCoe
open Cert.Lib.MeanLaws (IsReal)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- From the finiteness precondition and memories agreeing on the arguments, the kernel program's result array is the
    reference's: the stages in order, the two batch-normalised stages using that every entry before them is real. -/
theorem result_eq [Cert.Pre_finite_inputs.Facts] (hpre : Cert.Pre_KernelIdeal m) (c : Dev Cert.KernelIdeal.nD) (hag : Agree m m' c) :
    KOUT m ρ c = ROUT m' c := by
  have hreal := fn_real _ _ _ _ _ _ _ _ _ _ _ _ _ _ _ _ _ _ _ _ _ _ _ _ _ _ _ (hpre c)
  obtain ⟨hu0, hm0⟩ := st_0 m ρ m' c hag
  obtain ⟨hm1, hu1⟩ := st_L1 m ρ m' c hag hu0 hm0
  obtain ⟨hm2, hu2⟩ := st_L2 m ρ m' c hag hu1 hm1
  obtain ⟨hm3, hu3⟩ := st_L3 m ρ m' c hag hu2 hm2
  obtain ⟨hhu, hhm⟩ := st_H m ρ m' c hag hu1 hu2 hu3 hm1 hm2 hm3
  obtain ⟨hz1, hs1, hq1⟩ := st_Z1 m ρ m' c hag hhu hhm
  have hr1 := ar_Z1 m ρ c hreal
  obtain ⟨hz2, hs2, hq2⟩ := st_Z2 m ρ m' c hag hz1 hs1 hq1 hr1
  have hr2 := ar_Z2 m ρ c hreal hr1 hs1 hq1
  exact st_OUT m ρ m' c hag hz2 hs2 hq2 hr2

end Cert.Bridge

end
-- ==== Proof.lean ====
/- The certificate of one kernel: a three-layer bipartite SAGE network (mean aggregation over the edges, a linear map of
   the aggregate plus a linear map of the node's own features, relu), the three layers' outputs projected per node type,
   and an edge classifier (two batch-normalised dense layers and a last dense layer) over the labelled edges.

   The three frames: each program runs to the end, faults nowhere, and leaves its argument arrays as launched. For the
   two kernel programs @main is twelve stretches of host operations around eleven pipelined regions; the buffer contents
   at each boundary are a fold from the launch memory, and an argument is written by no host operation and is the
   output window of no region. The reference is host operations only.

   The algebraic claim: at the extended reals both programs compute one function of the arguments. They differ in four
   ways, each an identity: dividing by max(count, 1) against multiplying by its reciprocal; a contraction over a
   concatenated axis against the sum of the pieces' contractions; the order of two additions; and the variance as
   the mean of squared deviations against the mean of squares minus the squared mean, which holds because every entry
   is a real number when the inputs are finite. -/
import proofs.«176278_j29592324669622_2_alg».proof.Defs
import proofs.«176278_j29592324669622_2_alg».proof.Proof.Gen.Kernel
import proofs.«176278_j29592324669622_2_alg».proof.Proof.Gen.KernelIdeal
import proofs.«176278_j29592324669622_2_alg».proof.Proof.Gen.ReferenceIdeal
import proofs.«176278_j29592324669622_2_alg».proof.Proof.Gen.Pre_finite_inputs
import proofs.«176278_j29592324669622_2_alg».proof.Proof.K.Main
import proofs.«176278_j29592324669622_2_alg».proof.Proof.KI.Main
import proofs.«176278_j29592324669622_2_alg».proof.Proof.Ref.Run
import proofs.«176278_j29592324669622_2_alg».proof.Proof.Bridge.All
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_args (F := Bits) m ρ
theorem frame_ki : Cert.frame_KernelIdeal := fun m ρ _ => Cert.KernelIdeal.Hand.frame_args (F := Ideal) m ρ
theorem frame_ri : Cert.frame_ReferenceIdeal := fun m ρ _ => Cert.ReferenceIdeal.Hand.frame (F := Ideal) m ρ
theorem preserves : Cert.preserves_Kernel_KernelIdeal := trivial

/-- The bridge: from memories agreeing on the arguments, the reference's result array is the kernel's. -/
theorem bridge (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (c : Dev Cert.KernelIdeal.nD) :
    StableHlo.after (Cert.ReferenceIdeal.Hand.ops (F := Ideal)) (fun b => m' (c, b)) (Proc.devRef .tc Cert.ReferenceIdeal.main_v276)
      = Cert.KernelIdeal.Hand.W23 (F := Ideal) m ρ c (Proc.devRef .tc Cert.KernelIdeal.main_v212) := (Cert.Bridge.result_eq m ρ m' hpre c (hagree c)).symm

theorem algebraic : Cert.algebraic_KernelIdeal_ReferenceIdeal := by
  intro m ρ m' ρ' hpre hagree
  refine ⟨fun c => Cert.KernelIdeal.Hand.W23 (F := Ideal) m ρ c (Proc.devRef .tc Cert.KernelIdeal.main_v212), ?_, ?_⟩
  · exact (θ_run (Cert.KernelIdeal.defs (F := Ideal)) _ _).mono (fun r h c =>
      ⟨h c _ (Cert.KernelIdeal.Hand.mem_uc Cert.KernelIdeal.main_v212 (by decide)),
       (h c _ (Cert.KernelIdeal.Hand.mem_uc Cert.KernelIdeal.main_arg0 (by decide))).trans (Cert.KernelIdeal.Hand.W23_main_arg0 m ρ c),
       (h c _ (Cert.KernelIdeal.Hand.mem_uc Cert.KernelIdeal.main_arg1 (by decide))).trans (Cert.KernelIdeal.Hand.W23_main_arg1 m ρ c),
       (h c _ (Cert.KernelIdeal.Hand.mem_uc Cert.KernelIdeal.main_arg2 (by decide))).trans (Cert.KernelIdeal.Hand.W23_main_arg2 m ρ c),
       (h c _ (Cert.KernelIdeal.Hand.mem_uc Cert.KernelIdeal.main_arg3 (by decide))).trans (Cert.KernelIdeal.Hand.W23_main_arg3 m ρ c),
       (h c _ (Cert.KernelIdeal.Hand.mem_uc Cert.KernelIdeal.main_arg4 (by decide))).trans (Cert.KernelIdeal.Hand.W23_main_arg4 m ρ c),
       (h c _ (Cert.KernelIdeal.Hand.mem_uc Cert.KernelIdeal.main_arg5 (by decide))).trans (Cert.KernelIdeal.Hand.W23_main_arg5 m ρ c),
       (h c _ (Cert.KernelIdeal.Hand.mem_uc Cert.KernelIdeal.main_arg6 (by decide))).trans (Cert.KernelIdeal.Hand.W23_main_arg6 m ρ c),
       (h c _ (Cert.KernelIdeal.Hand.mem_uc Cert.KernelIdeal.main_arg7 (by decide))).trans (Cert.KernelIdeal.Hand.W23_main_arg7 m ρ c),
       (h c _ (Cert.KernelIdeal.Hand.mem_uc Cert.KernelIdeal.main_arg8 (by decide))).trans (Cert.KernelIdeal.Hand.W23_main_arg8 m ρ c),
       (h c _ (Cert.KernelIdeal.Hand.mem_uc Cert.KernelIdeal.main_arg9 (by decide))).trans (Cert.KernelIdeal.Hand.W23_main_arg9 m ρ c),
       (h c _ (Cert.KernelIdeal.Hand.mem_uc Cert.KernelIdeal.main_arg10 (by decide))).trans (Cert.KernelIdeal.Hand.W23_main_arg10 m ρ c),
       (h c _ (Cert.KernelIdeal.Hand.mem_uc Cert.KernelIdeal.main_arg11 (by decide))).trans (Cert.KernelIdeal.Hand.W23_main_arg11 m ρ c),
       (h c _ (Cert.KernelIdeal.Hand.mem_uc Cert.KernelIdeal.main_arg12 (by decide))).trans (Cert.KernelIdeal.Hand.W23_main_arg12 m ρ c),
       (h c _ (Cert.KernelIdeal.Hand.mem_uc Cert.KernelIdeal.main_arg13 (by decide))).trans (Cert.KernelIdeal.Hand.W23_main_arg13 m ρ c),
       (h c _ (Cert.KernelIdeal.Hand.mem_uc Cert.KernelIdeal.main_arg14 (by decide))).trans (Cert.KernelIdeal.Hand.W23_main_arg14 m ρ c),
       (h c _ (Cert.KernelIdeal.Hand.mem_uc Cert.KernelIdeal.main_arg15 (by decide))).trans (Cert.KernelIdeal.Hand.W23_main_arg15 m ρ c),
       (h c _ (Cert.KernelIdeal.Hand.mem_uc Cert.KernelIdeal.main_arg16 (by decide))).trans (Cert.KernelIdeal.Hand.W23_main_arg16 m ρ c),
       (h c _ (Cert.KernelIdeal.Hand.mem_uc Cert.KernelIdeal.main_arg17 (by decide))).trans (Cert.KernelIdeal.Hand.W23_main_arg17 m ρ c),
       (h c _ (Cert.KernelIdeal.Hand.mem_uc Cert.KernelIdeal.main_arg18 (by decide))).trans (Cert.KernelIdeal.Hand.W23_main_arg18 m ρ c),
       (h c _ (Cert.KernelIdeal.Hand.mem_uc Cert.KernelIdeal.main_arg19 (by decide))).trans (Cert.KernelIdeal.Hand.W23_main_arg19 m ρ c),
       (h c _ (Cert.KernelIdeal.Hand.mem_uc Cert.KernelIdeal.main_arg20 (by decide))).trans (Cert.KernelIdeal.Hand.W23_main_arg20 m ρ c),
       (h c _ (Cert.KernelIdeal.Hand.mem_uc Cert.KernelIdeal.main_arg21 (by decide))).trans (Cert.KernelIdeal.Hand.W23_main_arg21 m ρ c),
       (h c _ (Cert.KernelIdeal.Hand.mem_uc Cert.KernelIdeal.main_arg22 (by decide))).trans (Cert.KernelIdeal.Hand.W23_main_arg22 m ρ c),
       (h c _ (Cert.KernelIdeal.Hand.mem_uc Cert.KernelIdeal.main_arg23 (by decide))).trans (Cert.KernelIdeal.Hand.W23_main_arg23 m ρ c),
       (h c _ (Cert.KernelIdeal.Hand.mem_uc Cert.KernelIdeal.main_arg24 (by decide))).trans (Cert.KernelIdeal.Hand.W23_main_arg24 m ρ c),
       (h c _ (Cert.KernelIdeal.Hand.mem_uc Cert.KernelIdeal.main_arg25 (by decide))).trans (Cert.KernelIdeal.Hand.W23_main_arg25 m ρ c),
       (h c _ (Cert.KernelIdeal.Hand.mem_uc Cert.KernelIdeal.main_arg26 (by decide))).trans (Cert.KernelIdeal.Hand.W23_main_arg26 m ρ c)⟩)
      (Cert.KernelIdeal.Hand.run_all (F := Ideal) m ρ)
  · exact (θ_run (Cert.ReferenceIdeal.defs (F := Ideal)) _ _).mono (fun r h c =>
      ⟨(h c).1.trans (bridge m ρ m' hpre hagree c), (h c).2⟩)
      (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
